-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v227)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v227) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v267) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S512x16 : Shape := ⟨2, ![512, 16]⟩
abbrev S16 : Shape := ⟨1, ![16]⟩
abbrev S65536 : Shape := ⟨1, ![65536]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S65536 : S_.BroadcastsInDim S65536 (![] : Fin 0 → Fin S65536.rank)
  reducesTo_S65536_S_d0 : S65536.ReducesTo [0] S_

variable [Facts]

def fn_part2 {F : FTy → Type} [FloatOps F] (main_arg7 : FVec F S4096x4096 .f32) (main_arg8 : FVec F S65536 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S65536 .f32 := Host.absf main_arg8
  let main_cst_14 : FVec F S_ .f32 := constant S_ .f32 0x7F800000#32
  let main_v40 : FVec F S65536 .f32 := broadcastInDim S65536 ![] bcast_S_S65536 main_cst_14
  let main_v41 : IVec S65536 1 := cmpf .olt main_v39 main_v40
  let main_c_15 : IVec S_ 1 := constantI S_ 1 1#1
  let main_v42 : IVec S_ 1 := (fun x v => Host.reduce IntOp.andi x v reducesTo_S65536_S_d0 h_S_) main_v41 main_c_15
  let main_v43 : IVec S_ 1 := andi main_v38 main_v42
  main_v43

def fn_part1 {F : FTy → Type} [FloatOps F] (main_arg4 : FVec F S512x16 .f32) (main_arg5 : FVec F S16 .f32) (main_arg6 : FVec F S4096x4096 .f32) (main_arg7 : FVec F S4096x4096 .f32) (main_arg8 : FVec F S65536 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S512x16 .f32 := Host.absf main_arg4
  let main_cst_6 : FVec F S_ .f32 := constant S_ .f32 0x7F800000#32
  let main_v20 : FVec F S512x16 .f32 := broadcastInDim S512x16 ![] bcast_S_S512x16 main_cst_6
  let main_v21 : IVec S512x16 1 := cmpf .olt main_v19 main_v20
  let main_c_7 : IVec S_ 1 := constantI S_ 1 1#1
  let main_v22 : IVec S_ 1 := (fun x v => Host.reduce IntOp.andi x v reducesTo_S512x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_v33

def fn {F : FTy → Type} [FloatOps F] (main_arg0 : FVec F S4096x256 .f32) (main_arg1 : FVec F S4096x256 .f32) (main_arg2 : FVec F S4096x4096 .f32) (main_arg3 : FVec F S4096x4096 .f32) (main_arg4 : FVec F S512x16 .f32) (main_arg5 : FVec F S16 .f32) (main_arg6 : FVec F S4096x4096 .f32) (main_arg7 : FVec F S4096x4096 .f32) (main_arg8 : FVec F S65536 .f32) (main_arg9 : IVec S65536 32) (main_arg10 : IVec S65536 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_v13 main_v16
-- ==== Kernel.lean ====
abbrev S4096x256 : Shape := ⟨2, ![4096, 256]⟩
abbrev S4096x4096 : Shape := ⟨2, ![4096, 4096]⟩
abbrev S512x16 : Shape := ⟨2, ![512, 16]⟩
abbrev S16 : Shape := ⟨1, ![16]⟩
abbrev S65536 : Shape := ⟨1, ![65536]⟩
abbrev S1024x1024 : Shape := ⟨2, ![1024, 1024]⟩
abbrev S128x4096 : Shape := ⟨2, ![128, 4096]⟩
abbrev S128x256 : Shape := ⟨2, ![128, 256]⟩
abbrev S_ : Shape := ⟨0, ![]⟩
abbrev S256 : Shape := ⟨1, ![256]⟩
abbrev S1x256 : Shape := ⟨2, ![1, 256]⟩
abbrev S256x4096 : Shape := ⟨2, ![256, 4096]⟩
abbrev S256x256 : Shape := ⟨2, ![256, 256]⟩
abbrev S512x4096 : Shape := ⟨2, ![512, 4096]⟩
abbrev S512x256 : Shape := ⟨2, ![512, 256]⟩
abbrev S65536x1 : Shape := ⟨2, ![65536, 1]⟩
abbrev S65536x256 : Shape := ⟨2, ![65536, 256]⟩
abbrev S65536x2 : Shape := ⟨2, ![65536, 2]⟩
abbrev S1024x256 : Shape := ⟨2, ![1024, 256]⟩
abbrev S4096x512 : Shape := ⟨2, ![4096, 512]⟩
abbrev S4096 : Shape := ⟨1, ![4096]⟩
abbrev S4096x1 : Shape := ⟨2, ![4096, 1]⟩
abbrev S4096x16 : Shape := ⟨2, ![4096, 16]⟩
abbrev S1x16 : Shape := ⟨2, ![1, 16]⟩

abbrev nBuf : Space → Nat
  | .hbm => 328
  | .vmem => 127
  | .smem => 0
  | _ => 0

abbrev hbmTy0_0 (i : Nat) : BufTy := match i % 128 with
  | 0 => ⟨S4096x256, .f32⟩
  | 1 => ⟨S4096x256, .f32⟩
  | 2 => ⟨S4096x4096, .f32⟩
  | 3 => ⟨S4096x4096, .f32⟩
  | 4 => ⟨S512x16, .f32⟩
  | 5 => ⟨S16, .f32⟩
  | 6 => ⟨S4096x4096, .f32⟩
  | 7 => ⟨S4096x4096, .f32⟩
  | 8 => ⟨S65536, .f32⟩
  | 9 => ⟨S65536, .i32⟩
  | 10 => ⟨S65536, .i32⟩
  | 11 => ⟨S4096x4096, .f32⟩
  | 12 => ⟨S4096x4096, .bf16⟩
  | 13 => ⟨S4096x256, .bf16⟩
  | 14 => ⟨S4096x256, .f32⟩
  | 15 => ⟨S4096x256, .f32⟩
  | 16 => ⟨S_, .f32⟩
  | 17 => ⟨S256, .f32⟩
  | 18 => ⟨S1x256, .f32⟩
  | 19 => ⟨S4096x256, .f32⟩
  | 20 => ⟨S256x4096, .f32⟩
  | 21 => ⟨S256x256, .f32⟩
  | 22 => ⟨S4096x256, .f32⟩
  | 23 => ⟨S4096x256, .f32⟩
  | 24 => ⟨S4096x256, .f32⟩
  | 25 => ⟨S4096x256, .f32⟩
  | 26 => ⟨S4096x256, .f32⟩
  | 27 => ⟨S4096x256, .f32⟩
  | 28 => ⟨S_, .f32⟩
  | 29 => ⟨S4096x256, .f32⟩
  | 30 => ⟨S4096x256, .f32⟩
  | 31 => ⟨S_, .f32⟩
  | 32 => ⟨S4096x256, .f32⟩
  | 33 => ⟨S4096x256, .f32⟩
  | 34 => ⟨S_, .f32⟩
  | 35 => ⟨S4096x256, .f32⟩
  | 36 => ⟨S4096x256, .f32⟩
  | 37 => ⟨S4096x256, .f32⟩
  | 38 => ⟨S4096x256, .f32⟩
  | 39 => ⟨S_, .i32⟩
  | 40 => ⟨S65536, .i32⟩
  | 41 => ⟨S65536, .i1⟩
  | 42 => ⟨S_, .i32⟩
  | 43 => ⟨S65536, .i32⟩
  | 44 => ⟨S65536, .i32⟩
  | 45 => ⟨S65536, .i32⟩
  | 46 => ⟨S65536x1, .i32⟩
  | 47 => ⟨S65536x256, .f32⟩
  | 48 => ⟨S_, .i32⟩
  | 49 => ⟨S65536, .i32⟩
  | 50 => ⟨S65536, .i1⟩
  | 51 => ⟨S_, .i32⟩
  | 52 => ⟨S65536, .i32⟩
  | 53 => ⟨S65536, .i32⟩
  | 54 => ⟨S65536, .i32⟩
  | 55 => ⟨S65536x1, .i32⟩
  | 56 => ⟨S65536x256, .f32⟩
  | 57 => ⟨S65536x256, .f32⟩
  | 58 => ⟨S65536x256, .f32⟩
  | 59 => ⟨S_, .f32⟩
  | 60 => ⟨S65536, .f32⟩
  | 61 => ⟨S65536, .f32⟩
  | 62 => ⟨S65536, .f32⟩
  | 63 => ⟨S_, .f32⟩
  | 64 => ⟨S4096x4096, .f32⟩
  | 65 => ⟨S_, .i32⟩
  | 66 => ⟨S65536, .i32⟩
  | 67 => ⟨S65536, .i1⟩
  | 68 => ⟨S_, .i32⟩
  | 69 => ⟨S65536, .i32⟩
  | 70 => ⟨S65536, .i32⟩
  | 71 => ⟨S65536, .i32⟩
  | 72 => ⟨S_, .i32⟩
  | 73 => ⟨S65536, .i32⟩
  | 74 => ⟨S65536, .i1⟩
  | 75 => ⟨S_, .i32⟩
  | 76 => ⟨S65536, .i32⟩
  | 77 => ⟨S65536, .i32⟩
  | 78 => ⟨S65536, .i32⟩
  | 79 => ⟨S65536x1, .i32⟩
  | 80 => ⟨S65536x1, .i32⟩
  | 81 => ⟨S65536x2, .i32⟩
  | 82 => ⟨S4096x4096, .f32⟩
  | 83 => ⟨S4096x4096, .f32⟩
  | 84 => ⟨S4096x256, .bf16⟩
  | 85 => ⟨S4096x256, .f32⟩
  | 86 => ⟨S4096x256, .f32⟩
  | 87 => ⟨S4096x256, .f32⟩
  | 88 => ⟨S256x4096, .f32⟩
  | 89 => ⟨S256x256, .f32⟩
  | 90 => ⟨S4096x256, .f32⟩
  | 91 => ⟨S4096x256, .f32⟩
  | 92 => ⟨S4096x256, .f32⟩
  | 93 => ⟨S4096x256, .f32⟩
  | 94 => ⟨S4096x256, .f32⟩
  | 95 => ⟨S4096x256, .f32⟩
  | 96 => ⟨S_, .f32⟩
  | 97 => ⟨S4096x256, .f32⟩
  | 98 => ⟨S4096x256, .f32⟩
  | 99 => ⟨S_, .f32⟩
  | 100 => ⟨S4096x256, .f32⟩
  | 101 => ⟨S4096x256, .f32⟩
  | 102 => ⟨S_, .f32⟩
  | 103 => ⟨S4096x256, .f32⟩
  | 104 => ⟨S4096x256, .f32⟩
  | 105 => ⟨S4096x256, .f32⟩
  | 106 => ⟨S4096x256, .f32⟩
  | 107 => ⟨S_, .i32⟩
  | 108 => ⟨S65536, .i32⟩
  | 109 => ⟨S65536, .i1⟩
  | 110 => ⟨S_, .i32⟩
  | 111 => ⟨S65536, .i32⟩
  | 112 => ⟨S65536, .i32⟩
  | 113 => ⟨S65536, .i32⟩
  | 114 => ⟨S65536x1, .i32⟩
  | 115 => ⟨S65536x256, .f32⟩
  | 116 => ⟨S_, .i32⟩
  | 117 => ⟨S65536, .i32⟩
  | 118 => ⟨S65536, .i1⟩
  | 119 => ⟨S_, .i32⟩
  | 120 => ⟨S65536, .i32⟩
  | 121 => ⟨S65536, .i32⟩
  | 122 => ⟨S65536, .i32⟩
  | 123 => ⟨S65536x1, .i32⟩
  | 124 => ⟨S65536x256, .f32⟩
  | 125 => ⟨S65536x256, .f32⟩
  | 126 => ⟨S65536x256, .f32⟩
  | 127 => ⟨S_, .f32⟩
  | _ => ⟨S4096x256, .f32⟩

abbrev hbmTy0_1 (i : Nat) : BufTy := match i % 128 with
  | 0 => ⟨S65536, .f32⟩
  | 1 => ⟨S65536, .f32⟩
  | 2 => ⟨S65536, .f32⟩
  | 3 => ⟨S_, .f32⟩
  | 4 => ⟨S4096x4096, .f32⟩
  | 5 => ⟨S_, .i32⟩
  | 6 => ⟨S65536, .i32⟩
  | 7 => ⟨S65536, .i1⟩
  | 8 => ⟨S_, .i32⟩
  | 9 => ⟨S65536, .i32⟩
  | 10 => ⟨S65536, .i32⟩
  | 11 => ⟨S65536, .i32⟩
  | 12 => ⟨S_, .i32⟩
  | 13 => ⟨S65536, .i32⟩
  | 14 => ⟨S65536, .i1⟩
  | 15 => ⟨S_, .i32⟩
  | 16 => ⟨S65536, .i32⟩
  | 17 => ⟨S65536, .i32⟩
  | 18 => ⟨S65536, .i32⟩
  | 19 => ⟨S65536x1, .i32⟩
  | 20 => ⟨S65536x1, .i32⟩
  | 21 => ⟨S65536x2, .i32⟩
  | 22 => ⟨S4096x4096, .f32⟩
  | 23 => ⟨S4096x4096, .f32⟩
  | 24 => ⟨S4096x256, .bf16⟩
  | 25 => ⟨S4096x256, .f32⟩
  | 26 => ⟨S4096x256, .f32⟩
  | 27 => ⟨S4096x256, .f32⟩
  | 28 => ⟨S256x4096, .f32⟩
  | 29 => ⟨S256x256, .f32⟩
  | 30 => ⟨S4096x256, .f32⟩
  | 31 => ⟨S4096x256, .f32⟩
  | 32 => ⟨S4096x256, .f32⟩
  | 33 => ⟨S4096x256, .f32⟩
  | 34 => ⟨S4096x256, .f32⟩
  | 35 => ⟨S4096x256, .f32⟩
  | 36 => ⟨S_, .f32⟩
  | 37 => ⟨S4096x256, .f32⟩
  | 38 => ⟨S4096x256, .f32⟩
  | 39 => ⟨S_, .f32⟩
  | 40 => ⟨S4096x256, .f32⟩
  | 41 => ⟨S4096x256, .f32⟩
  | 42 => ⟨S_, .f32⟩
  | 43 => ⟨S4096x256, .f32⟩
  | 44 => ⟨S4096x256, .f32⟩
  | 45 => ⟨S4096x256, .f32⟩
  | 46 => ⟨S4096x256, .f32⟩
  | 47 => ⟨S_, .i32⟩
  | 48 => ⟨S65536, .i32⟩
  | 49 => ⟨S65536, .i1⟩
  | 50 => ⟨S_, .i32⟩
  | 51 => ⟨S65536, .i32⟩
  | 52 => ⟨S65536, .i32⟩
  | 53 => ⟨S65536, .i32⟩
  | 54 => ⟨S65536x1, .i32⟩
  | 55 => ⟨S65536x256, .f32⟩
  | 56 => ⟨S_, .i32⟩
  | 57 => ⟨S65536, .i32⟩
  | 58 => ⟨S65536, .i1⟩
  | 59 => ⟨S_, .i32⟩
  | 60 => ⟨S65536, .i32⟩
  | 61 => ⟨S65536, .i32⟩
  | 62 => ⟨S65536, .i32⟩
  | 63 => ⟨S65536x1, .i32⟩
  | 64 => ⟨S65536x256, .f32⟩
  | 65 => ⟨S65536x256, .f32⟩
  | 66 => ⟨S65536x256, .f32⟩
  | 67 => ⟨S_, .f32⟩
  | 68 => ⟨S65536, .f32⟩
  | 69 => ⟨S65536, .f32⟩
  | 70 => ⟨S65536, .f32⟩
  | 71 => ⟨S_, .f32⟩
  | 72 => ⟨S4096x4096, .f32⟩
  | 73 => ⟨S_, .i32⟩
  | 74 => ⟨S65536, .i32⟩
  | 75 => ⟨S65536, .i1⟩
  | 76 => ⟨S_, .i32⟩
  | 77 => ⟨S65536, .i32⟩
  | 78 => ⟨S65536, .i32⟩
  | 79 => ⟨S65536, .i32⟩
  | 80 => ⟨S_, .i32⟩
  | 81 => ⟨S65536, .i32⟩
  | 82 => ⟨S65536, .i1⟩
  | 83 => ⟨S_, .i32⟩
  | 84 => ⟨S65536, .i32⟩
  | 85 => ⟨S65536, .i32⟩
  | 86 => ⟨S65536, .i32⟩
  | 87 => ⟨S65536x1, .i32⟩
  | 88 => ⟨S65536x1, .i32⟩
  | 89 => ⟨S65536x2, .i32⟩
  | 90 => ⟨S4096x4096, .f32⟩
  | 91 => ⟨S4096x4096, .f32⟩
  | 92 => ⟨S4096x256, .bf16⟩
  | 93 => ⟨S4096x256, .f32⟩
  | 94 => ⟨S4096x256, .f32⟩
  | 95 => ⟨S4096x256, .f32⟩
  | 96 => ⟨S256x4096, .f32⟩
  | 97 => ⟨S256x256, .f32⟩
  | 98 => ⟨S4096x256, .f32⟩
  | 99 => ⟨S4096x256, .f32⟩
  | 100 => ⟨S4096x256, .f32⟩
  | 101 => ⟨S4096x256, .f32⟩
  | 102 => ⟨S4096x256, .f32⟩
  | 103 => ⟨S4096x256, .f32⟩
  | 104 => ⟨S_, .f32⟩
  | 105 => ⟨S4096x256, .f32⟩
  | 106 => ⟨S4096x256, .f32⟩
  | 107 => ⟨S_, .f32⟩
  | 108 => ⟨S4096x256, .f32⟩
  | 109 => ⟨S4096x256, .f32⟩
  | 110 => ⟨S_, .f32⟩
  | 111 => ⟨S4096x256, .f32⟩
  | 112 => ⟨S4096x256, .f32⟩
  | 113 => ⟨S4096x256, .f32⟩
  | 114 => ⟨S4096x256, .f32⟩
  | 115 => ⟨S_, .i32⟩
  | 116 => ⟨S65536, .i32⟩
  | 117 => ⟨S65536, .i1⟩
  | 118 => ⟨S_, .i32⟩
  | 119 => ⟨S65536, .i32⟩
  | 120 => ⟨S65536, .i32⟩
  | 121 => ⟨S65536, .i32⟩
  | 122 => ⟨S65536x1, .i32⟩
  | 123 => ⟨S65536x256, .f32⟩
  | 124 => ⟨S_, .i32⟩
  | 125 => ⟨S65536, .i32⟩
  | 126 => ⟨S65536, .i1⟩
  | 127 => ⟨S_, .i32⟩
  | _ => ⟨S4096x256, .f32⟩

abbrev hbmTy0_2 (i : Nat) : BufTy := match i % 128 with
  | 0 => ⟨S65536, .i32⟩
  | 1 => ⟨S65536, .i32⟩
  | 2 => ⟨S65536, .i32⟩
  | 3 => ⟨S65536x1, .i32⟩
  | 4 => ⟨S65536x256, .f32⟩
  | 5 => ⟨S65536x256, .f32⟩
  | 6 => ⟨S65536x256, .f32⟩
  | 7 => ⟨S_, .f32⟩
  | 8 => ⟨S65536, .f32⟩
  | 9 => ⟨S65536, .f32⟩
  | 10 => ⟨S65536, .f32⟩
  | 11 => ⟨S_, .f32⟩
  | 12 => ⟨S4096x4096, .f32⟩
  | 13 => ⟨S_, .i32⟩
  | 14 => ⟨S65536, .i32⟩
  | 15 => ⟨S65536, .i1⟩
  | 16 => ⟨S_, .i32⟩
  | 17 => ⟨S65536, .i32⟩
  | 18 => ⟨S65536, .i32⟩
  | 19 => ⟨S65536, .i32⟩
  | 20 => ⟨S_, .i32⟩
  | 21 => ⟨S65536, .i32⟩
  | 22 => ⟨S65536, .i1⟩
  | 23 => ⟨S_, .i32⟩
  | 24 => ⟨S65536, .i32⟩
  | 25 => ⟨S65536, .i32⟩
  | 26 => ⟨S65536, .i32⟩
  | 27 => ⟨S65536x1, .i32⟩
  | 28 => ⟨S65536x1, .i32⟩
  | 29 => ⟨S65536x2, .i32⟩
  | 30 => ⟨S4096x4096, .f32⟩
  | 31 => ⟨S4096x4096, .f32⟩
  | 32 => ⟨S4096x256, .f32⟩
  | 33 => ⟨S_, .f32⟩
  | 34 => ⟨S4096, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S4096x256, .f32⟩
  | 41 => ⟨S4096x256, .f32⟩
  | 42 => ⟨S4096x256, .f32⟩
  | 43 => ⟨S_, .f32⟩
  | 44 => ⟨S4096, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x256, .f32⟩
  | 51 => ⟨S4096x256, .f32⟩
  | 52 => ⟨S4096x512, .f32⟩
  | 53 => ⟨S4096x16, .f32⟩
  | 54 => ⟨S1x16, .f32⟩
  | 55 => ⟨S4096x16, .f32⟩
  | 56 => ⟨S4096x16, .f32⟩
  | 57 => ⟨S_, .f32⟩
  | 58 => ⟨S4096, .f32⟩
  | 59 => ⟨S_, .f32⟩
  | 60 => ⟨S4096, .f32⟩
  | 61 => ⟨S4096, .f32⟩
  | 62 => ⟨S4096x1, .f32⟩
  | 63 => ⟨S4096x16, .f32⟩
  | 64 => ⟨S4096x16, .f32⟩
  | 65 => ⟨S4096x16, .f32⟩
  | 66 => ⟨S_, .f32⟩
  | 67 => ⟨S4096, .f32⟩
  | 68 => ⟨S4096x1, .f32⟩
  | 69 => ⟨S4096x1, .f32⟩
  | 70 => ⟨S4096x16, .f32⟩
  | 71 => ⟨S4096x16, .f32⟩
  | _ => ⟨S4096x256, .f32⟩

abbrev hbmTy (i : Nat) : BufTy := match i / 128 with
  | 0 => hbmTy0_0 i
  | 1 => hbmTy0_1 i
  | 2 => hbmTy0_2 i
  | _ => ⟨S4096x256, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S4096x256, .bf16⟩
  | .local _ .vmem, ⟨11, _⟩ => ⟨S4096x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S512x4096, .bf16⟩
  | .local _ .vmem, ⟨17, _⟩ => ⟨S512x4096, .bf16⟩
  | .local _ .vmem, ⟨18, _⟩ => ⟨S4096x256, .f32⟩
  | .local _ .vmem, ⟨19, _⟩ => ⟨S512x256, .f32⟩
  | .local _ .vmem, ⟨20, _⟩ => ⟨S512x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S128x4096, .f32⟩
  | .local _ .vmem, ⟨32, _⟩ => ⟨S128x4096, .f32⟩
  | .local _ .vmem, ⟨33, _⟩ => ⟨S128x4096, .f32⟩
  | .local _ .vmem, ⟨34, _⟩ => ⟨S128x4096, .f32⟩
  | .local _ .vmem, ⟨35, _⟩ => ⟨S128x4096, .f32⟩
  | .local _ .vmem, ⟨36, _⟩ => ⟨S128x4096, .f32⟩
  | .local _ .vmem, ⟨37, _⟩ => ⟨S4096x256, .bf16⟩
  | .local _ .vmem, ⟨38, _⟩ => ⟨S4096x256, .f32⟩
  | .local _ .vmem, ⟨39, _⟩ => ⟨S128x256, .f32⟩
  | .local _ .vmem, ⟨40, _⟩ => ⟨S128x256, .f32⟩
  | .local _ .vmem, ⟨41, _⟩ => ⟨S128x256, .f32⟩
  | .local _ .vmem, ⟨42, _⟩ => ⟨S128x256, .f32⟩
  | .local _ .vmem, ⟨43, _⟩ => ⟨S4096x512, .f32⟩
  | .local _ .vmem, ⟨44, _⟩ => ⟨S4096x512, .f32⟩
  | .local _ .vmem, ⟨45, _⟩ => ⟨S4096x256, .f32⟩
  | .local _ .vmem, ⟨46, _⟩ => ⟨S512x256, .f32⟩
  | .local _ .vmem, ⟨47, _⟩ => ⟨S512x256, .f32⟩
  | .local _ .vmem, ⟨48, _⟩ => ⟨S512x4096, .bf16⟩
  | .local _ .vmem, ⟨49, _⟩ => ⟨S512x4096, .bf16⟩
  | .local _ .vmem, ⟨50, _⟩ => ⟨S4096x256, .f32⟩
  | .local _ .vmem, ⟨51, _⟩ => ⟨S512x256, .f32⟩
  | .local _ .vmem, ⟨52, _⟩ => ⟨S512x256, .f32⟩
  | .local _ .vmem, ⟨53, _⟩ => ⟨S1024x256, .f32⟩
  | .local _ .vmem, ⟨54, _⟩ => ⟨S1024x256, .f32⟩
  | .local _ .vmem, ⟨55, _⟩ => ⟨S1024x256, .f32⟩
  | .local _ .vmem, ⟨56, _⟩ => ⟨S1024x256, .f32⟩
  | .local _ .vmem, ⟨57, _⟩ => ⟨S1024x1024, .f32⟩
  | .local _ .vmem, ⟨58, _⟩ => ⟨S1024x1024, .f32⟩
  | .local _ .vmem, ⟨59, _⟩ => ⟨S1024x1024, .f32⟩
  | .local _ .vmem, ⟨60, _⟩ => ⟨S1024x1024, .f32⟩
  | .local _ .vmem, ⟨61, _⟩ => ⟨S1024x1024, .f32⟩
  | .local _ .vmem, ⟨62, _⟩ => ⟨S1024x1024, .f32⟩
  | .local _ .vmem, ⟨63, _⟩ => ⟨S128x4096, .f32⟩
  | .local _ .vmem, ⟨64, _⟩ => ⟨S128x4096, .f32⟩
  | .local _ .vmem, ⟨65, _⟩ => ⟨S128x4096, .f32⟩
  | .local _ .vmem, ⟨66, _⟩ => ⟨S128x4096, .f32⟩
  | .local _ .vmem, ⟨67, _⟩ => ⟨S128x4096, .f32⟩
  | .local _ .vmem, ⟨68, _⟩ => ⟨S128x4096, .f32⟩
  | .local _ .vmem, ⟨69, _⟩ => ⟨S4096x256, .bf16⟩
  | .local _ .vmem, ⟨70, _⟩ => ⟨S4096x256, .f32⟩
  | .local _ .vmem, ⟨71, _⟩ => ⟨S128x256, .f32⟩
  | .local _ .vmem, ⟨72, _⟩ => ⟨S128x256, .f32⟩
  | .local _ .vmem, ⟨73, _⟩ => ⟨S128x256, .f32⟩
  | .local _ .vmem, ⟨74, _⟩ => ⟨S128x256, .f32⟩
  | .local _ .vmem, ⟨75, _⟩ => ⟨S4096x512, .f32⟩
  | .local _ .vmem, ⟨76, _⟩ => ⟨S4096x512, .f32⟩
  | .local _ .vmem, ⟨77, _⟩ => ⟨S4096x256, .f32⟩
  | .local _ .vmem, ⟨78, _⟩ => ⟨S512x256, .f32⟩
  | .local _ .vmem, ⟨79, _⟩ => ⟨S512x256, .f32⟩
  | .local _ .vmem, ⟨80, _⟩ => ⟨S512x4096, .bf16⟩
  | .local _ .vmem, ⟨81, _⟩ => ⟨S512x4096, .bf16⟩
  | .local _ .vmem, ⟨82, _⟩ => ⟨S4096x256, .f32⟩
  | .local _ .vmem, ⟨83, _⟩ => ⟨S512x256, .f32⟩
  | .local _ .vmem, ⟨84, _⟩ => ⟨S512x256, .f32⟩
  | .local _ .vmem, ⟨85, _⟩ => ⟨S1024x256, .f32⟩
  | .local _ .vmem, ⟨86, _⟩ => ⟨S1024x256, .f32⟩
  | .local _ .vmem, ⟨87, _⟩ => ⟨S1024x256, .f32⟩
  | .local _ .vmem, ⟨88, _⟩ => ⟨S1024x256, .f32⟩
  | .local _ .vmem, ⟨89, _⟩ => ⟨S1024x1024, .f32⟩
  | .local _ .vmem, ⟨90, _⟩ => ⟨S1024x1024, .f32⟩
  | .local _ .vmem, ⟨91, _⟩ => ⟨S1024x1024, .f32⟩
  | .local _ .vmem, ⟨92, _⟩ => ⟨S1024x1024, .f32⟩
  | .local _ .vmem, ⟨93, _⟩ => ⟨S1024x1024, .f32⟩
  | .local _ .vmem, ⟨94, _⟩ => ⟨S1024x1024, .f32⟩
  | .local _ .vmem, ⟨95, _⟩ => ⟨S128x4096, .f32⟩
  | .local _ .vmem, ⟨96, _⟩ => ⟨S128x4096, .f32⟩
  | .local _ .vmem, ⟨97, _⟩ => ⟨S128x4096, .f32⟩
  | .local _ .vmem, ⟨98, _⟩ => ⟨S128x4096, .f32⟩
  | .local _ .vmem, ⟨99, _⟩ => ⟨S128x4096, .f32⟩
  | .local _ .vmem, ⟨100, _⟩ => ⟨S128x4096, .f32⟩
  | .local _ .vmem, ⟨101, _⟩ => ⟨S4096x256, .bf16⟩
  | .local _ .vmem, ⟨102, _⟩ => ⟨S4096x256, .f32⟩
  | .local _ .vmem, ⟨103, _⟩ => ⟨S128x256, .f32⟩
  | .local _ .vmem, ⟨104, _⟩ => ⟨S128x256, .f32⟩
  | .local _ .vmem, ⟨105, _⟩ => ⟨S128x256, .f32⟩
  | .local _ .vmem, ⟨106, _⟩ => ⟨S128x256, .f32⟩
  | .local _ .vmem, ⟨107, _⟩ => ⟨S4096x512, .f32⟩
  | .local _ .vmem, ⟨108, _⟩ => ⟨S4096x512, .f32⟩
  | .local _ .vmem, ⟨109, _⟩ => ⟨S4096x256, .f32⟩
  | .local _ .vmem, ⟨110, _⟩ => ⟨S512x256, .f32⟩
  | .local _ .vmem, ⟨111, _⟩ => ⟨S512x256, .f32⟩
  | .local _ .vmem, ⟨112, _⟩ => ⟨S512x4096, .bf16⟩
  | .local _ .vmem, ⟨113, _⟩ => ⟨S512x4096, .bf16⟩
  | .local _ .vmem, ⟨114, _⟩ => ⟨S4096x256, .f32⟩
  | .local _ .vmem, ⟨115, _⟩ => ⟨S512x256, .f32⟩
  | .local _ .vmem, ⟨116, _⟩ => ⟨S512x256, .f32⟩
  | .local _ .vmem, ⟨117, _⟩ => ⟨S1024x256, .f32⟩
  | .local _ .vmem, ⟨118, _⟩ => ⟨S1024x256, .f32⟩
  | .local _ .vmem, ⟨119, _⟩ => ⟨S1024x256, .f32⟩
  | .local _ .vmem, ⟨120, _⟩ => ⟨S1024x256, .f32⟩
  | .local _ .vmem, ⟨121, _⟩ => ⟨S1024x1024, .f32⟩
  | .local _ .vmem, ⟨122, _⟩ => ⟨S1024x1024, .f32⟩
  | .local _ .vmem, ⟨123, _⟩ => ⟨S1024x1024, .f32⟩
  | .local _ .vmem, ⟨124, _⟩ => ⟨S1024x1024, .f32⟩
  | .local _ .vmem, ⟨125, _⟩ => ⟨S1024x1024, .f32⟩
  | .local _ .vmem, ⟨126, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | .vmem, ⟨126, _⟩ => true
  | _, _ => false

abbrev semScoped : Fin 0 → Bool
  | ⟨_, h⟩ => absurd h (Nat.not_lt_zero _)

abbrev dmaSemScoped : Fin 127 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | _ => false

abbrev sig : RefSig :=
  ofTc nBuf bufTy 0 127 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call0_v0 : Ref sig .tc := ⟨.hbm, 58, rfl⟩
abbrev main_call0_cst : Ref sig .tc := ⟨.hbm, 59, rfl⟩
abbrev main_call0_v1 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_c_7 : Ref sig .tc := ⟨.hbm, 65, rfl⟩
abbrev main_v41 : Ref sig .tc := ⟨.hbm, 66, rfl⟩
abbrev main_v42 : Ref sig .tc := ⟨.hbm, 67, rfl⟩
abbrev main_c_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57_0 : Ref sig .tc := ⟨.hbm, 85, rfl⟩
abbrev main_v57_1 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_11 : Ref sig .tc := ⟨.hbm, 96, rfl⟩
abbrev main_v67 : Ref sig .tc := ⟨.hbm, 97, rfl⟩
abbrev main_v68 : Ref sig .tc := ⟨.hbm, 98, rfl⟩
abbrev main_cst_12 : Ref sig .tc := ⟨.hbm, 99, rfl⟩
abbrev main_v69 : Ref sig .tc := ⟨.hbm, 100, rfl⟩
abbrev main_v70 : Ref sig .tc := ⟨.hbm, 101, rfl⟩
abbrev main_cst_13 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_14 : Ref sig .tc := ⟨.hbm, 107, rfl⟩
abbrev main_v75 : Ref sig .tc := ⟨.hbm, 108, rfl⟩
abbrev main_v76 : Ref sig .tc := ⟨.hbm, 109, rfl⟩
abbrev main_c_15 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_c_16 : Ref sig .tc := ⟨.hbm, 116, rfl⟩
abbrev main_v82 : Ref sig .tc := ⟨.hbm, 117, rfl⟩
abbrev main_v83 : Ref sig .tc := ⟨.hbm, 118, rfl⟩
abbrev main_c_17 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call1_v0 : Ref sig .tc := ⟨.hbm, 126, rfl⟩
abbrev main_call1_cst : Ref sig .tc := ⟨.hbm, 127, rfl⟩
abbrev main_call1_v1 : Ref sig .tc := ⟨.hbm, 128, rfl⟩
abbrev main_v90 : Ref sig .tc := ⟨.hbm, 129, rfl⟩
abbrev main_v91 : Ref sig .tc := ⟨.hbm, 130, rfl⟩
abbrev main_cst_18 : Ref sig .tc := ⟨.hbm, 131, rfl⟩
abbrev main_v92 : Ref sig .tc := ⟨.hbm, 132, rfl⟩
abbrev main_c_19 : Ref sig .tc := ⟨.hbm, 133, rfl⟩
abbrev main_v93 : Ref sig .tc := ⟨.hbm, 134, rfl⟩
abbrev main_v94 : Ref sig .tc := ⟨.hbm, 135, rfl⟩
abbrev main_c_20 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_c_21 : Ref sig .tc := ⟨.hbm, 140, rfl⟩
abbrev main_v98 : Ref sig .tc := ⟨.hbm, 141, rfl⟩
abbrev main_v99 : Ref sig .tc := ⟨.hbm, 142, rfl⟩
abbrev main_c_22 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109_0 : Ref sig .tc := ⟨.hbm, 153, rfl⟩
abbrev main_v109_1 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_23 : Ref sig .tc := ⟨.hbm, 164, rfl⟩
abbrev main_v119 : Ref sig .tc := ⟨.hbm, 165, rfl⟩
abbrev main_v120 : Ref sig .tc := ⟨.hbm, 166, rfl⟩
abbrev main_cst_24 : Ref sig .tc := ⟨.hbm, 167, rfl⟩
abbrev main_v121 : Ref sig .tc := ⟨.hbm, 168, rfl⟩
abbrev main_v122 : Ref sig .tc := ⟨.hbm, 169, rfl⟩
abbrev main_cst_25 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_c_26 : Ref sig .tc := ⟨.hbm, 175, rfl⟩
abbrev main_v127 : Ref sig .tc := ⟨.hbm, 176, rfl⟩
abbrev main_v128 : Ref sig .tc := ⟨.hbm, 177, rfl⟩
abbrev main_c_27 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_c_28 : Ref sig .tc := ⟨.hbm, 184, rfl⟩
abbrev main_v134 : Ref sig .tc := ⟨.hbm, 185, rfl⟩
abbrev main_v135 : Ref sig .tc := ⟨.hbm, 186, rfl⟩
abbrev main_c_29 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_call2_v0 : Ref sig .tc := ⟨.hbm, 194, rfl⟩
abbrev main_call2_cst : Ref sig .tc := ⟨.hbm, 195, rfl⟩
abbrev main_call2_v1 : Ref sig .tc := ⟨.hbm, 196, rfl⟩
abbrev main_v142 : Ref sig .tc := ⟨.hbm, 197, rfl⟩
abbrev main_v143 : Ref sig .tc := ⟨.hbm, 198, rfl⟩
abbrev main_cst_30 : Ref sig .tc := ⟨.hbm, 199, rfl⟩
abbrev main_v144 : Ref sig .tc := ⟨.hbm, 200, rfl⟩
abbrev main_c_31 : Ref sig .tc := ⟨.hbm, 201, rfl⟩
abbrev main_v145 : Ref sig .tc := ⟨.hbm, 202, rfl⟩
abbrev main_v146 : Ref sig .tc := ⟨.hbm, 203, rfl⟩
abbrev main_c_32 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_c_33 : Ref sig .tc := ⟨.hbm, 208, rfl⟩
abbrev main_v150 : Ref sig .tc := ⟨.hbm, 209, rfl⟩
abbrev main_v151 : Ref sig .tc := ⟨.hbm, 210, rfl⟩
abbrev main_c_34 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161_0 : Ref sig .tc := ⟨.hbm, 221, rfl⟩
abbrev main_v161_1 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_cst_35 : Ref sig .tc := ⟨.hbm, 232, rfl⟩
abbrev main_v171 : Ref sig .tc := ⟨.hbm, 233, rfl⟩
abbrev main_v172 : Ref sig .tc := ⟨.hbm, 234, rfl⟩
abbrev main_cst_36 : Ref sig .tc := ⟨.hbm, 235, rfl⟩
abbrev main_v173 : Ref sig .tc := ⟨.hbm, 236, rfl⟩
abbrev main_v174 : Ref sig .tc := ⟨.hbm, 237, rfl⟩
abbrev main_cst_37 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_c_38 : Ref sig .tc := ⟨.hbm, 243, rfl⟩
abbrev main_v179 : Ref sig .tc := ⟨.hbm, 244, rfl⟩
abbrev main_v180 : Ref sig .tc := ⟨.hbm, 245, rfl⟩
abbrev main_c_39 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_c_40 : Ref sig .tc := ⟨.hbm, 252, rfl⟩
abbrev main_v186 : Ref sig .tc := ⟨.hbm, 253, rfl⟩
abbrev main_v187 : Ref sig .tc := ⟨.hbm, 254, rfl⟩
abbrev main_c_41 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_call3_v0 : Ref sig .tc := ⟨.hbm, 262, rfl⟩
abbrev main_call3_cst : Ref sig .tc := ⟨.hbm, 263, rfl⟩
abbrev main_call3_v1 : Ref sig .tc := ⟨.hbm, 264, rfl⟩
abbrev main_v194 : Ref sig .tc := ⟨.hbm, 265, rfl⟩
abbrev main_v195 : Ref sig .tc := ⟨.hbm, 266, rfl⟩
abbrev main_cst_42 : Ref sig .tc := ⟨.hbm, 267, rfl⟩
abbrev main_v196 : Ref sig .tc := ⟨.hbm, 268, rfl⟩
abbrev main_c_43 : Ref sig .tc := ⟨.hbm, 269, rfl⟩
abbrev main_v197 : Ref sig .tc := ⟨.hbm, 270, rfl⟩
abbrev main_v198 : Ref sig .tc := ⟨.hbm, 271, rfl⟩
abbrev main_c_44 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_c_45 : Ref sig .tc := ⟨.hbm, 276, rfl⟩
abbrev main_v202 : Ref sig .tc := ⟨.hbm, 277, rfl⟩
abbrev main_v203 : Ref sig .tc := ⟨.hbm, 278, rfl⟩
abbrev main_c_46 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_call4_v0 : Ref sig .tc := ⟨.hbm, 288, rfl⟩
abbrev main_call4_cst : Ref sig .tc := ⟨.hbm, 289, rfl⟩
abbrev main_call4_v1 : Ref sig .tc := ⟨.hbm, 290, rfl⟩
abbrev main_call4_v2 : Ref sig .tc := ⟨.hbm, 291, rfl⟩
abbrev main_v212 : Ref sig .tc := ⟨.hbm, 292, rfl⟩
abbrev main_cst_47 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_call5_v0 : Ref sig .tc := ⟨.hbm, 298, rfl⟩
abbrev main_call5_cst : Ref sig .tc := ⟨.hbm, 299, rfl⟩
abbrev main_call5_v1 : Ref sig .tc := ⟨.hbm, 300, rfl⟩
abbrev main_call5_v2 : Ref sig .tc := ⟨.hbm, 301, rfl⟩
abbrev main_v217 : Ref sig .tc := ⟨.hbm, 302, rfl⟩
abbrev main_cst_48 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_call6_cst : Ref sig .tc := ⟨.hbm, 313, rfl⟩
abbrev main_call6_v0 : Ref sig .tc := ⟨.hbm, 314, rfl⟩
abbrev main_call6_cst_0 : Ref sig .tc := ⟨.hbm, 315, rfl⟩
abbrev main_call6_v1 : Ref sig .tc := ⟨.hbm, 316, rfl⟩
abbrev main_call6_v2 : Ref sig .tc := ⟨.hbm, 317, rfl⟩
abbrev main_call6_v3 : Ref sig .tc := ⟨.hbm, 318, rfl⟩
abbrev main_call6_v4 : Ref sig .tc := ⟨.hbm, 319, rfl⟩
abbrev main_call6_v5 : Ref sig .tc := ⟨.hbm, 320, rfl⟩
abbrev main_call6_v6 : Ref sig .tc := ⟨.hbm, 321, rfl⟩
abbrev main_call6_cst_1 : Ref sig .tc := ⟨.hbm, 322, rfl⟩
abbrev main_call6_v7 : Ref sig .tc := ⟨.hbm, 323, rfl⟩
abbrev main_call6_v8 : Ref sig .tc := ⟨.hbm, 324, rfl⟩
abbrev main_call6_v9 : Ref sig .tc := ⟨.hbm, 325, rfl⟩
abbrev main_call6_v10 : Ref sig .tc := ⟨.hbm, 326, rfl⟩
abbrev main_v227 : Ref sig .tc := ⟨.hbm, 327, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg5_1 : Ref sig .tc := ⟨.vmem, 40, rfl⟩
abbrev cc4_stg6_0 : Ref sig .tc := ⟨.vmem, 41, rfl⟩
abbrev cc4_stg6_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg2_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_stg3_0 : Ref sig .tc := ⟨.vmem, 59, rfl⟩
abbrev cc7_stg3_1 : Ref sig .tc := ⟨.vmem, 60, rfl⟩
abbrev cc7_stg4_0 : Ref sig .tc := ⟨.vmem, 61, rfl⟩
abbrev cc7_stg4_1 : Ref sig .tc := ⟨.vmem, 62, rfl⟩
abbrev cc8_stg0_0 : Ref sig .tc := ⟨.vmem, 63, rfl⟩
abbrev cc8_stg0_1 : Ref sig .tc := ⟨.vmem, 64, rfl⟩
abbrev cc8_stg1_0 : Ref sig .tc := ⟨.vmem, 65, rfl⟩
abbrev cc8_stg1_1 : Ref sig .tc := ⟨.vmem, 66, rfl⟩
abbrev cc8_stg2_0 : Ref sig .tc := ⟨.vmem, 67, rfl⟩
abbrev cc8_stg2_1 : Ref sig .tc := ⟨.vmem, 68, rfl⟩
abbrev cc8_stg3_0 : Ref sig .tc := ⟨.vmem, 69, rfl⟩
abbrev cc8_stg4_0 : Ref sig .tc := ⟨.vmem, 70, rfl⟩
abbrev cc8_stg5_0 : Ref sig .tc := ⟨.vmem, 71, rfl⟩
abbrev cc8_stg5_1 : Ref sig .tc := ⟨.vmem, 72, rfl⟩
abbrev cc8_stg6_0 : Ref sig .tc := ⟨.vmem, 73, rfl⟩
abbrev cc8_stg6_1 : Ref sig .tc := ⟨.vmem, 74, rfl⟩
abbrev cc9_stg0_0 : Ref sig .tc := ⟨.vmem, 75, rfl⟩
abbrev cc9_stg0_1 : Ref sig .tc := ⟨.vmem, 76, rfl⟩
abbrev cc9_stg1_0 : Ref sig .tc := ⟨.vmem, 77, rfl⟩
abbrev cc9_stg2_0 : Ref sig .tc := ⟨.vmem, 78, rfl⟩
abbrev cc9_stg2_1 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg2_0 : Ref sig .tc := ⟨.vmem, 83, rfl⟩
abbrev cc10_stg2_1 : Ref sig .tc := ⟨.vmem, 84, rfl⟩
abbrev cc11_stg0_0 : Ref sig .tc := ⟨.vmem, 85, rfl⟩
abbrev cc11_stg0_1 : Ref sig .tc := ⟨.vmem, 86, rfl⟩
abbrev cc11_stg1_0 : Ref sig .tc := ⟨.vmem, 87, rfl⟩
abbrev cc11_stg1_1 : Ref sig .tc := ⟨.vmem, 88, rfl⟩
abbrev cc11_stg2_0 : Ref sig .tc := ⟨.vmem, 89, rfl⟩
abbrev cc11_stg2_1 : Ref sig .tc := ⟨.vmem, 90, rfl⟩
abbrev cc11_stg3_0 : Ref sig .tc := ⟨.vmem, 91, rfl⟩
abbrev cc11_stg3_1 : Ref sig .tc := ⟨.vmem, 92, rfl⟩
abbrev cc11_stg4_0 : Ref sig .tc := ⟨.vmem, 93, rfl⟩
abbrev cc11_stg4_1 : Ref sig .tc := ⟨.vmem, 94, rfl⟩
abbrev cc12_stg0_0 : Ref sig .tc := ⟨.vmem, 95, rfl⟩
abbrev cc12_stg0_1 : Ref sig .tc := ⟨.vmem, 96, rfl⟩
abbrev cc12_stg1_0 : Ref sig .tc := ⟨.vmem, 97, rfl⟩
abbrev cc12_stg1_1 : Ref sig .tc := ⟨.vmem, 98, rfl⟩
abbrev cc12_stg2_0 : Ref sig .tc := ⟨.vmem, 99, rfl⟩
abbrev cc12_stg2_1 : Ref sig .tc := ⟨.vmem, 100, rfl⟩
abbrev cc12_stg3_0 : Ref sig .tc := ⟨.vmem, 101, rfl⟩
abbrev cc12_stg4_0 : Ref sig .tc := ⟨.vmem, 102, rfl⟩
abbrev cc12_stg5_0 : Ref sig .tc := ⟨.vmem, 103, rfl⟩
abbrev cc12_stg5_1 : Ref sig .tc := ⟨.vmem, 104, rfl⟩
abbrev cc12_stg6_0 : Ref sig .tc := ⟨.vmem, 105, rfl⟩
abbrev cc12_stg6_1 : Ref sig .tc := ⟨.vmem, 106, rfl⟩
abbrev cc13_stg0_0 : Ref sig .tc := ⟨.vmem, 107, rfl⟩
abbrev cc13_stg0_1 : Ref sig .tc := ⟨.vmem, 108, rfl⟩
abbrev cc13_stg1_0 : Ref sig .tc := ⟨.vmem, 109, rfl⟩
abbrev cc13_stg2_0 : Ref sig .tc := ⟨.vmem, 110, rfl⟩
abbrev cc13_stg2_1 : Ref sig .tc := ⟨.vmem, 111, rfl⟩
abbrev cc14_stg0_0 : Ref sig .tc := ⟨.vmem, 112, rfl⟩
abbrev cc14_stg0_1 : Ref sig .tc := ⟨.vmem, 113, rfl⟩
abbrev cc14_stg1_0 : Ref sig .tc := ⟨.vmem, 114, rfl⟩
abbrev cc14_stg2_0 : Ref sig .tc := ⟨.vmem, 115, rfl⟩
abbrev cc14_stg2_1 : Ref sig .tc := ⟨.vmem, 116, rfl⟩
abbrev cc15_stg0_0 : Ref sig .tc := ⟨.vmem, 117, rfl⟩
abbrev cc15_stg0_1 : Ref sig .tc := ⟨.vmem, 118, rfl⟩
abbrev cc15_stg1_0 : Ref sig .tc := ⟨.vmem, 119, rfl⟩
abbrev cc15_stg1_1 : Ref sig .tc := ⟨.vmem, 120, rfl⟩
abbrev cc15_stg2_0 : Ref sig .tc := ⟨.vmem, 121, rfl⟩
abbrev cc15_stg2_1 : Ref sig .tc := ⟨.vmem, 122, rfl⟩
abbrev cc15_stg3_0 : Ref sig .tc := ⟨.vmem, 123, rfl⟩
abbrev cc15_stg3_1 : Ref sig .tc := ⟨.vmem, 124, rfl⟩
abbrev cc15_stg4_0 : Ref sig .tc := ⟨.vmem, 125, rfl⟩
abbrev cc15_stg4_1 : Ref sig .tc := ⟨.vmem, 126, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem4_0 : DmaSem sig := 38
abbrev cc4_sem5_0 : DmaSem sig := 39
abbrev cc4_sem5_1 : DmaSem sig := 40
abbrev cc4_sem6_0 : DmaSem sig := 41
abbrev cc4_sem6_1 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem2_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem3_1 : DmaSem sig := 60
abbrev cc7_sem4_0 : DmaSem sig := 61
abbrev cc7_sem4_1 : DmaSem sig := 62
abbrev cc8_sem0_0 : DmaSem sig := 63
abbrev cc8_sem0_1 : DmaSem sig := 64
abbrev cc8_sem1_0 : DmaSem sig := 65
abbrev cc8_sem1_1 : DmaSem sig := 66
abbrev cc8_sem2_0 : DmaSem sig := 67
abbrev cc8_sem2_1 : DmaSem sig := 68
abbrev cc8_sem3_0 : DmaSem sig := 69
abbrev cc8_sem4_0 : DmaSem sig := 70
abbrev cc8_sem5_0 : DmaSem sig := 71
abbrev cc8_sem5_1 : DmaSem sig := 72
abbrev cc8_sem6_0 : DmaSem sig := 73
abbrev cc8_sem6_1 : DmaSem sig := 74
abbrev cc9_sem0_0 : DmaSem sig := 75
abbrev cc9_sem0_1 : DmaSem sig := 76
abbrev cc9_sem1_0 : DmaSem sig := 77
abbrev cc9_sem2_0 : DmaSem sig := 78
abbrev cc9_sem2_1 : DmaSem sig := 79
abbrev cc10_sem0_0 : DmaSem sig := 80
abbrev cc10_sem0_1 : DmaSem sig := 81
abbrev cc10_sem1_0 : DmaSem sig := 82
abbrev cc10_sem2_0 : DmaSem sig := 83
abbrev cc10_sem2_1 : DmaSem sig := 84
abbrev cc11_sem0_0 : DmaSem sig := 85
abbrev cc11_sem0_1 : DmaSem sig := 86
abbrev cc11_sem1_0 : DmaSem sig := 87
abbrev cc11_sem1_1 : DmaSem sig := 88
abbrev cc11_sem2_0 : DmaSem sig := 89
abbrev cc11_sem2_1 : DmaSem sig := 90
abbrev cc11_sem3_0 : DmaSem sig := 91
abbrev cc11_sem3_1 : DmaSem sig := 92
abbrev cc11_sem4_0 : DmaSem sig := 93
abbrev cc11_sem4_1 : DmaSem sig := 94
abbrev cc12_sem0_0 : DmaSem sig := 95
abbrev cc12_sem0_1 : DmaSem sig := 96
abbrev cc12_sem1_0 : DmaSem sig := 97
abbrev cc12_sem1_1 : DmaSem sig := 98
abbrev cc12_sem2_0 : DmaSem sig := 99
abbrev cc12_sem2_1 : DmaSem sig := 100
abbrev cc12_sem3_0 : DmaSem sig := 101
abbrev cc12_sem4_0 : DmaSem sig := 102
abbrev cc12_sem5_0 : DmaSem sig := 103
abbrev cc12_sem5_1 : DmaSem sig := 104
abbrev cc12_sem6_0 : DmaSem sig := 105
abbrev cc12_sem6_1 : DmaSem sig := 106
abbrev cc13_sem0_0 : DmaSem sig := 107
abbrev cc13_sem0_1 : DmaSem sig := 108
abbrev cc13_sem1_0 : DmaSem sig := 109
abbrev cc13_sem2_0 : DmaSem sig := 110
abbrev cc13_sem2_1 : DmaSem sig := 111
abbrev cc14_sem0_0 : DmaSem sig := 112
abbrev cc14_sem0_1 : DmaSem sig := 113
abbrev cc14_sem1_0 : DmaSem sig := 114
abbrev cc14_sem2_0 : DmaSem sig := 115
abbrev cc14_sem2_1 : DmaSem sig := 116
abbrev cc15_sem0_0 : DmaSem sig := 117
abbrev cc15_sem0_1 : DmaSem sig := 118
abbrev cc15_sem1_0 : DmaSem sig := 119
abbrev cc15_sem1_1 : DmaSem sig := 120
abbrev cc15_sem2_0 : DmaSem sig := 121
abbrev cc15_sem2_1 : DmaSem sig := 122
abbrev cc15_sem3_0 : DmaSem sig := 123
abbrev cc15_sem3_1 : DmaSem sig := 124
abbrev cc15_sem4_0 : DmaSem sig := 125
abbrev cc15_sem4_1 : DmaSem sig := 126

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1024x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S128x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S128x4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S4096x256 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S4096x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S128x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S128x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S4096x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S4096x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S512x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![4, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1024x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S1024x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 2 → Memref sig .tc .vmem S1024x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev grid8 : Pipeline.Grid := ⟨1, ![32], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S128x4096 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S128x4096 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S128x4096 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S4096x256 .bf16 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S4096x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S128x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S128x256 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4096x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S4096x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S512x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S512x4096 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S4096x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S512x256 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨2, ![4, 4], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_4 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage11_0 : Fin 2 → Memref sig .tc .vmem S1024x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false]

abbrev stage11_1 : Fin 2 → Memref sig .tc .vmem S1024x256 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S1024x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]

abbrev stage11_3 : Fin 2 → Memref sig .tc .vmem S1024x1024 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true]

abbrev stage11_4 : Fin 2 → Memref sig .tc .vmem S1024x1024 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true, true]

abbrev grid12 : Pipeline.Grid := ⟨1, ![32], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S128x4096 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S128x4096 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S128x4096 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S4096x256 .bf16 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S4096x256 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S128x256 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 2 → Memref sig .tc .vmem S128x256 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev grid13 : Pipeline.Grid := ⟨1, ![8], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4096x512 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S4096x256 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S512x256 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![8], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S512x4096 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S4096x256 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S512x256 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨2, ![4, 4], ![false, false]⟩

def cc15_transform_0 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc15_transform_2 (i : grid15.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc15_transform_3 (i : grid15.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc15_transform_4 (i : grid15.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage15_0 : Fin 2 → Memref sig .tc .vmem S1024x256 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, false]

abbrev stage15_1 : Fin 2 → Memref sig .tc .vmem S1024x256 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![false, true]

abbrev stage15_2 : Fin 2 → Memref sig .tc .vmem S1024x1024 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true, true]

abbrev stage15_3 : Fin 2 → Memref sig .tc .vmem S1024x1024 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true, true]

abbrev stage15_4 : Fin 2 → Memref sig .tc .vmem S1024x1024 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S128x256_S128x256_0_0 : ∀ a, (![0, 0] : Fin 2 → Nat) a + S128x256.size a ≤ S128x256.size a
  h_S128x256 : 0 < S128x256.numel
  reducesTo_S4096x256_S256_d0 : S4096x256.ReducesTo [0] S256
  h_S_ : 0 < S_.numel
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  transposes_S4096x256_S256x4096_1_0 : S4096x256.Transposes [1, 0] S256x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x256_S512x256_0_0 : ∀ a, (![0, 0] : Fin 2 → Nat) a + S512x256.size a ≤ S512x256.size a
  h_S512x256 : 0 < S512x256.numel
  bcast_S_S4096x256 : S_.BroadcastsInDim S4096x256 (![] : Fin 0 → Fin S4096x256.rank)
  bcast_S_S65536 : S_.BroadcastsInDim S65536 (![] : Fin 0 → Fin S65536.rank)
  bcast_S65536_S65536x1_0 : S65536.BroadcastsInDim S65536x1 (![0] : Fin 1 → Fin S65536x1.rank)
  reducesTo_S65536x256_S65536_d1 : S65536x256.ReducesTo [1] S65536
  bcast_S_S4096x4096 : S_.BroadcastsInDim S4096x4096 (![] : Fin 0 → Fin S4096x4096.rank)
  concatenates_S65536x1_S65536x1_S65536x2_d1 : Shape.Concatenates [S65536x1, S65536x1] S65536x2 1
  inb_S1024x256_S1024x256_0_0 : ∀ a, (![0, 0] : Fin 2 → Nat) a + S1024x256.size a ≤ S1024x256.size a
  h_S1024x256 : 0 < S1024x256.numel
  shapeCasts_S1024x1024_S1024x1024 : S1024x1024.ShapeCasts S1024x1024
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  shapeCasts_S1024x256_S1024x256 : S1024x256.ShapeCasts S1024x256
  reducesTo_S4096x256_S4096_d1 : S4096x256.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S4096x512_d1 : Shape.Concatenates [S4096x256, S4096x256] S4096x512 1
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  reducesTo_S4096x16_S4096_d1 : S4096x16.ReducesTo [1] S4096
  bcast_S_S4096 : S_.BroadcastsInDim S4096 (![] : Fin 0 → Fin S4096.rank)
  bcast_S4096x1_S4096x16_0_1 : S4096x1.BroadcastsInDim S4096x16 (![0, 1] : Fin 2 → Fin S4096x16.rank)
  dot_S128x4096_S4096x256_S128x256_1_0_0_1_n_n_wf : DotDims.WF S128x4096 S4096x256 S128x256 [1] [0] [0] [1] [] []
  dot_S256x4096_S4096x256_S256x256_1_0_0_1_n_n_wf : DotDims.WF S256x4096 S4096x256 S256x256 [1] [0] [0] [1] [] []
  dot_S4096x256_S256x256_S4096x256_1_0_0_1_n_n_wf : DotDims.WF S4096x256 S256x256 S4096x256 [1] [0] [0] [1] [] []
  dot_S512x4096_S4096x256_S512x256_1_0_0_1_n_n_wf : DotDims.WF S512x4096 S4096x256 S512x256 [1] [0] [0] [1] [] []
  gather_S4096x256_S65536x1_S65536x256_1_0_n_n_0_1_1256_wf : GatherDims.WF S4096x256 S65536x1 S65536x256 [1] [0] [] [0] [] 1 ![1, 256]
  scatter_S4096x4096_S65536x2_S65536_n_01_01_1_wf : ScatterDims.WF S4096x4096 S65536x2 S65536 [] [0, 1] [0, 1] 1
  dot_S1024x256_S1024x256_S1024x1024_1_1_0_0_n_n_wf : DotDims.WF S1024x256 S1024x256 S1024x1024 [1] [1] [0] [0] [] []
  dot_S4096x512_S4096x256_S512x256_0_0_1_1_n_n_wf : DotDims.WF S4096x512 S4096x256 S512x256 [0] [0] [1] [1] [] []
  dot_S4096x512_S512x16_S4096x16_1_0_0_1_n_n_wf : DotDims.WF S4096x512 S512x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S4096x4096.size a
  hwx1_0 : ∀ i : grid1.Coords, EltTy.bits .f32 = 32 ∨ (Rect.block (s := S4096x4096) S128x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x4096.size a ≤ S4096x4096.size a
  hwx1_1 : ∀ i : grid1.Coords, EltTy.bits .f32 = 32 ∨ (Rect.block (s := S4096x4096) S128x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S4096x256.size a
  hwx1_2 : ∀ i : grid1.Coords, EltTy.bits .bf16 = 32 ∨ (Rect.block (s := S4096x256) S4096x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S4096x256.size a
  hwx1_3 : ∀ i : grid1.Coords, EltTy.bits .f32 = 32 ∨ (Rect.block (s := S4096x256) S4096x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S4096x256.size a
  hwx1_4 : ∀ i : grid1.Coords, EltTy.bits .f32 = 32 ∨ (Rect.block (s := S4096x256) S128x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S4096x256.size a
  hwx1_5 : ∀ i : grid1.Coords, EltTy.bits .f32 = 32 ∨ (Rect.block (s := S4096x256) S128x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .bf16 = 32 ∨ (Rect.block (s := S4096x4096) S512x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S4096x256.size a
  hwx2_1 : ∀ i : grid2.Coords, EltTy.bits .f32 = 32 ∨ (Rect.block (s := S4096x256) S4096x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x256.size a ≤ S4096x256.size a
  hwx2_2 : ∀ i : grid2.Coords, EltTy.bits .f32 = 32 ∨ (Rect.block (s := S4096x256) S512x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S4096x256.size a
  hwx3_0 : ∀ i : grid3.Coords, EltTy.bits .f32 = 32 ∨ (Rect.block (s := S4096x256) S1024x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x256.size a ≤ S4096x256.size a
  hwx3_1 : ∀ i : grid3.Coords, EltTy.bits .f32 = 32 ∨ (Rect.block (s := S4096x256) S1024x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S4096x4096.size a
  hwx3_2 : ∀ i : grid3.Coords, EltTy.bits .f32 = 32 ∨ (Rect.block (s := S4096x4096) S1024x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S4096x4096.size a
  hwx3_3 : ∀ i : grid3.Coords, EltTy.bits .f32 = 32 ∨ (Rect.block (s := S4096x4096) S1024x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x1024.size a ≤ S4096x4096.size a
  hwx3_4 : ∀ i : grid3.Coords, EltTy.bits .f32 = 32 ∨ (Rect.block (s := S4096x4096) S1024x1024.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S128x4096.size a ≤ S4096x4096.size a
  hwx4_0 : ∀ i : grid4.Coords, EltTy.bits .f32 = 32 ∨ (Rect.block (s := S4096x4096) S128x4096.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S128x4096.size a ≤ S4096x4096.size a
  hwx4_1 : ∀ i : grid4.Coords, EltTy.bits .f32 = 32 ∨ (Rect.block (s := S4096x4096) S128x4096.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S128x4096.size a ≤ S4096x4096.size a
  hwx4_2 : ∀ i : grid4.Coords, EltTy.bits .f32 = 32 ∨ (Rect.block (s := S4096x4096) S128x4096.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S4096x256.size a ≤ S4096x256.size a
  hwx4_3 : ∀ i : grid4.Coords, EltTy.bits .bf16 = 32 ∨ (Rect.block (s := S4096x256) S4096x256.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S4096x256.size a ≤ S4096x256.size a
  hwx4_4 : ∀ i : grid4.Coords, EltTy.bits .f32 = 32 ∨ (Rect.block (s := S4096x256) S4096x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S128x256.size a ≤ S4096x256.size a
  hwx4_5 : ∀ i : grid4.Coords, EltTy.bits .f32 = 32 ∨ (Rect.block (s := S4096x256) S128x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S128x256.size a ≤ S4096x256.size a
  hwx4_6 : ∀ i : grid4.Coords, EltTy.bits .f32 = 32 ∨ (Rect.block (s := S4096x256) S128x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x512.size a ≤ S4096x4096.size a
  hwx5_0 : ∀ i : grid5.Coords, EltTy.bits .f32 = 32 ∨ (Rect.block (s := S4096x4096) S4096x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S4096x256.size a ≤ S4096x256.size a
  hwx5_1 : ∀ i : grid5.Coords, EltTy.bits .f32 = 32 ∨ (Rect.block (s := S4096x256) S4096x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x256.size a ≤ S4096x256.size a
  hwx5_2 : ∀ i : grid5.Coords, EltTy.bits .f32 = 32 ∨ (Rect.block (s := S4096x256) S512x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x4096.size a ≤ S4096x4096.size a
  hwx6_0 : ∀ i : grid6.Coords, EltTy.bits .bf16 = 32 ∨ (Rect.block (s := S4096x4096) S512x4096.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S4096x256.size a ≤ S4096x256.size a
  hwx6_1 : ∀ i : grid6.Coords, EltTy.bits .f32 = 32 ∨ (Rect.block (s := S4096x256) S4096x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x256.size a ≤ S4096x256.size a
  hwx6_2 : ∀ i : grid6.Coords, EltTy.bits .f32 = 32 ∨ (Rect.block (s := S4096x256) S512x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x256.size a ≤ S4096x256.size a
  hwx7_0 : ∀ i : grid7.Coords, EltTy.bits .f32 = 32 ∨ (Rect.block (s := S4096x256) S1024x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x256.size a ≤ S4096x256.size a
  hwx7_1 : ∀ i : grid7.Coords, EltTy.bits .f32 = 32 ∨ (Rect.block (s := S4096x256) S1024x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x1024.size a ≤ S4096x4096.size a
  hwx7_2 : ∀ i : grid7.Coords, EltTy.bits .f32 = 32 ∨ (Rect.block (s := S4096x4096) S1024x1024.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x1024.size a ≤ S4096x4096.size a
  hwx7_3 : ∀ i : grid7.Coords, EltTy.bits .f32 = 32 ∨ (Rect.block (s := S4096x4096) S1024x1024.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1024x1024.size a ≤ S4096x4096.size a
  hwx7_4 : ∀ i : grid7.Coords, EltTy.bits .f32 = 32 ∨ (Rect.block (s := S4096x4096) S1024x1024.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S128x4096.size a ≤ S4096x4096.size a
  hwx8_0 : ∀ i : grid8.Coords, EltTy.bits .f32 = 32 ∨ (Rect.block (s := S4096x4096) S128x4096.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S128x4096.size a ≤ S4096x4096.size a
  hwx8_1 : ∀ i : grid8.Coords, EltTy.bits .f32 = 32 ∨ (Rect.block (s := S4096x4096) S128x4096.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S128x4096.size a ≤ S4096x4096.size a
  hwx8_2 : ∀ i : grid8.Coords, EltTy.bits .f32 = 32 ∨ (Rect.block (s := S4096x4096) S128x4096.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S4096x256.size a ≤ S4096x256.size a
  hwx8_3 : ∀ i : grid8.Coords, EltTy.bits .bf16 = 32 ∨ (Rect.block (s := S4096x256) S4096x256.size (cc8_transform_3 i) (hinb8_3 i)).WholeWords (EltTy.packing .bf16)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S4096x256.size a ≤ S4096x256.size a
  hwx8_4 : ∀ i : grid8.Coords, EltTy.bits .f32 = 32 ∨ (Rect.block (s := S4096x256) S4096x256.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S128x256.size a ≤ S4096x256.size a
  hwx8_5 : ∀ i : grid8.Coords, EltTy.bits .f32 = 32 ∨ (Rect.block (s := S4096x256) S128x256.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S128x256.size a ≤ S4096x256.size a
  hwx8_6 : ∀ i : grid8.Coords, EltTy.bits .f32 = 32 ∨ (Rect.block (s := S4096x256) S128x256.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4096x512.size a ≤ S4096x4096.size a
  hwx9_0 : ∀ i : grid9.Coords, EltTy.bits .f32 = 32 ∨ (Rect.block (s := S4096x4096) S4096x512.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S4096x256.size a ≤ S4096x256.size a
  hwx9_1 : ∀ i : grid9.Coords, EltTy.bits .f32 = 32 ∨ (Rect.block (s := S4096x256) S4096x256.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S512x256.size a ≤ S4096x256.size a
  hwx9_2 : ∀ i : grid9.Coords, EltTy.bits .f32 = 32 ∨ (Rect.block (s := S4096x256) S512x256.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S512x4096.size a ≤ S4096x4096.size a
  hwx10_0 : ∀ i : grid10.Coords, EltTy.bits .bf16 = 32 ∨ (Rect.block (s := S4096x4096) S512x4096.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S4096x256.size a ≤ S4096x256.size a
  hwx10_1 : ∀ i : grid10.Coords, EltTy.bits .f32 = 32 ∨ (Rect.block (s := S4096x256) S4096x256.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S512x256.size a ≤ S4096x256.size a
  hwx10_2 : ∀ i : grid10.Coords, EltTy.bits .f32 = 32 ∨ (Rect.block (s := S4096x256) S512x256.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x256.size a ≤ S4096x256.size a
  hwx11_0 : ∀ i : grid11.Coords, EltTy.bits .f32 = 32 ∨ (Rect.block (s := S4096x256) S1024x256.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1024x256.size a ≤ S4096x256.size a
  hwx11_1 : ∀ i : grid11.Coords, EltTy.bits .f32 = 32 ∨ (Rect.block (s := S4096x256) S1024x256.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1024x1024.size a ≤ S4096x4096.size a
  hwx11_2 : ∀ i : grid11.Coords, EltTy.bits .f32 = 32 ∨ (Rect.block (s := S4096x4096) S1024x1024.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S1024x1024.size a ≤ S4096x4096.size a
  hwx11_3 : ∀ i : grid11.Coords, EltTy.bits .f32 = 32 ∨ (Rect.block (s := S4096x4096) S1024x1024.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S1024x1024.size a ≤ S4096x4096.size a
  hwx11_4 : ∀ i : grid11.Coords, EltTy.bits .f32 = 32 ∨ (Rect.block (s := S4096x4096) S1024x1024.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S128x4096.size a ≤ S4096x4096.size a
  hwx12_0 : ∀ i : grid12.Coords, EltTy.bits .f32 = 32 ∨ (Rect.block (s := S4096x4096) S128x4096.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S128x4096.size a ≤ S4096x4096.size a
  hwx12_1 : ∀ i : grid12.Coords, EltTy.bits .f32 = 32 ∨ (Rect.block (s := S4096x4096) S128x4096.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S128x4096.size a ≤ S4096x4096.size a
  hwx12_2 : ∀ i : grid12.Coords, EltTy.bits .f32 = 32 ∨ (Rect.block (s := S4096x4096) S128x4096.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S4096x256.size a ≤ S4096x256.size a
  hwx12_3 : ∀ i : grid12.Coords, EltTy.bits .bf16 = 32 ∨ (Rect.block (s := S4096x256) S4096x256.size (cc12_transform_3 i) (hinb12_3 i)).WholeWords (EltTy.packing .bf16)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S4096x256.size a ≤ S4096x256.size a
  hwx12_4 : ∀ i : grid12.Coords, EltTy.bits .f32 = 32 ∨ (Rect.block (s := S4096x256) S4096x256.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S128x256.size a ≤ S4096x256.size a
  hwx12_5 : ∀ i : grid12.Coords, EltTy.bits .f32 = 32 ∨ (Rect.block (s := S4096x256) S128x256.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S128x256.size a ≤ S4096x256.size a
  hwx12_6 : ∀ i : grid12.Coords, EltTy.bits .f32 = 32 ∨ (Rect.block (s := S4096x256) S128x256.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4096x512.size a ≤ S4096x4096.size a
  hwx13_0 : ∀ i : grid13.Coords, EltTy.bits .f32 = 32 ∨ (Rect.block (s := S4096x4096) S4096x512.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S4096x256.size a ≤ S4096x256.size a
  hwx13_1 : ∀ i : grid13.Coords, EltTy.bits .f32 = 32 ∨ (Rect.block (s := S4096x256) S4096x256.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S512x256.size a ≤ S4096x256.size a
  hwx13_2 : ∀ i : grid13.Coords, EltTy.bits .f32 = 32 ∨ (Rect.block (s := S4096x256) S512x256.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S512x4096.size a ≤ S4096x4096.size a
  hwx14_0 : ∀ i : grid14.Coords, EltTy.bits .bf16 = 32 ∨ (Rect.block (s := S4096x4096) S512x4096.size (cc14_transform_0 i) (hinb14_0 i)).WholeWords (EltTy.packing .bf16)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S4096x256.size a ≤ S4096x256.size a
  hwx14_1 : ∀ i : grid14.Coords, EltTy.bits .f32 = 32 ∨ (Rect.block (s := S4096x256) S4096x256.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S512x256.size a ≤ S4096x256.size a
  hwx14_2 : ∀ i : grid14.Coords, EltTy.bits .f32 = 32 ∨ (Rect.block (s := S4096x256) S512x256.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1024x256.size a ≤ S4096x256.size a
  hwx15_0 : ∀ i : grid15.Coords, EltTy.bits .f32 = 32 ∨ (Rect.block (s := S4096x256) S1024x256.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S1024x256.size a ≤ S4096x256.size a
  hwx15_1 : ∀ i : grid15.Coords, EltTy.bits .f32 = 32 ∨ (Rect.block (s := S4096x256) S1024x256.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S1024x1024.size a ≤ S4096x4096.size a
  hwx15_2 : ∀ i : grid15.Coords, EltTy.bits .f32 = 32 ∨ (Rect.block (s := S4096x4096) S1024x1024.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S1024x1024.size a ≤ S4096x4096.size a
  hwx15_3 : ∀ i : grid15.Coords, EltTy.bits .f32 = 32 ∨ (Rect.block (s := S4096x4096) S1024x1024.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S1024x1024.size a ≤ S4096x4096.size a
  hwx15_4 : ∀ i : grid15.Coords, EltTy.bits .f32 = 32 ∨ (Rect.block (s := S4096x4096) S1024x1024.size (cc15_transform_4 i) (hinb15_4 i)).WholeWords (EltTy.packing .f32)

variable [Facts₀]

def dot_S128x4096_S4096x256_S128x256_1_0_0_1_n_n : DotDims S128x4096 S4096x256 S128x256 where
  lhsContracting := [1]
  rhsContracting := [0]
  lhsNonContracting := [0]
  rhsNonContracting := [1]
  lhsBatch := []
  rhsBatch := []
  wf := dot_S128x4096_S4096x256_S128x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def gather_S4096x256_S65536x1_S65536x256_1_0_n_n_0_1_1256 : GatherDims S4096x256 S65536x1 S65536x256 where
  offsetDims := [1]
  collapsedSliceDims := [0]
  operandBatchingDims := []
  startIndicesBatchingDims := []
  startIndexMap := [0]
  indexVectorDim := 1
  sliceSizes := ![1, 256]
  wf := gather_S4096x256_S65536x1_S65536x256_1_0_n_n_0_1_1256_wf
def scatter_S4096x4096_S65536x2_S65536_n_01_01_1 : ScatterDims S4096x4096 S65536x2 S65536 where
  updateWindowDims := []
  insertedWindowDims := [0, 1]
  scatterDimsToOperandDims := [0, 1]
  indexVectorDim := 1
  wf := scatter_S4096x4096_S65536x2_S65536_n_01_01_1_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S4096x512_S4096x256_S512x256_0_0_1_1_n_n : DotDims S4096x512 S4096x256 S512x256 where
  lhsContracting := [0]
  rhsContracting := [0]
  lhsNonContracting := [1]
  rhsNonContracting := [1]
  lhsBatch := []
  rhsBatch := []
  wf := dot_S4096x512_S4096x256_S512x256_0_0_1_1_n_n_wf
def dot_S4096x512_S512x16_S4096x16_1_0_0_1_n_n : DotDims S4096x512 S512x16 S4096x16 where
  lhsContracting := [1]
  rhsContracting := [0]
  lhsNonContracting := [0]
  rhsNonContracting := [1]
  lhsBatch := []
  rhsBatch := []
  wf := dot_S4096x512_S512x16_S4096x16_1_0_0_1_n_n_wf

abbrev win0_0 : Pipeline.Window sig grid0 :=
  Pipeline.Window.ofSpec (Memref.whole main_arg3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg6) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S128x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S4096x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S4096x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S128x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S128x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v1) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S4096x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S512x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg0) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S1024x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v0) S1024x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1024x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1024x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg6) S128x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S128x4096.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v0) S128x4096.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v56) S4096x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v22) S4096x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v57_0) S128x256.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v57_1) S128x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v55) S4096x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v21) S4096x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v58) S512x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v1) S512x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v63) S4096x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v64) S512x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v21) S1024x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v21) S1024x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v0) S1024x1024.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v106) S1024x1024.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v107) S1024x1024.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_arg6) S128x4096.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v107) S128x4096.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v0) S128x4096.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v108) S4096x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v74) S4096x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v109_0) S128x256.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v109_1) S128x256.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v107) S4096x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v73) S4096x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v110) S512x256.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v1) S512x4096.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v115) S4096x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v116) S512x256.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v73) S1024x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v73) S1024x256.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v0) S1024x1024.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v158) S1024x1024.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v159) S1024x1024.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_arg6) S128x4096.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v159) S128x4096.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v0) S128x4096.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v160) S4096x256.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v126) S4096x256.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v161_0) S128x256.size cc12_transform_5 reads12_5 true false 2 stage12_5 sem12_5
    hrank12 hreads12_5 hinb12_5 nbuf12_5 (Memref.isWhole_whole _) hwx12_5 hstage12_5

abbrev win12_6 : Pipeline.Window sig grid12 :=
  Pipeline.Window.ofSpec (Memref.whole main_v161_1) S128x256.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v159) S4096x512.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v125) S4096x256.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v162) S512x256.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v1) S512x4096.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v167) S4096x256.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v168) S512x256.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v125) S1024x256.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v125) S1024x256.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v0) S1024x1024.size cc15_transform_2 reads15_2 false false 2 stage15_2 sem15_2
    hrank15 hreads15_2 hinb15_2 nbuf15_2 (Memref.isWhole_whole _) hwx15_2 hstage15_2

abbrev win15_3 : Pipeline.Window sig grid15 :=
  Pipeline.Window.ofSpec (Memref.whole main_v210) S1024x1024.size cc15_transform_3 reads15_3 false false 2 stage15_3 sem15_3
    hrank15 hreads15_3 hinb15_3 nbuf15_3 (Memref.isWhole_whole _) hwx15_3 hstage15_3

abbrev win15_4 : Pipeline.Window sig grid15 :=
  Pipeline.Window.ofSpec (Memref.whole main_v211) S1024x1024.size cc15_transform_4 reads15_4 true false 2 stage15_4 sem15_4
    hrank15 hreads15_4 hinb15_4 nbuf15_4 (Memref.isWhole_whole _) hwx15_4 hstage15_4

abbrev win15 : Fin 5 → Pipeline.Window sig grid15 := fun | 0 => win15_0 | 1 => win15_1 | 2 => win15_2 | 3 => win15_3 | 4 => win15_4 | ⟨_ + 5, h⟩ => absurd h (Nat.not_lt.2 (Nat.le_add_left _ _))
abbrev spec15 : Fin 5 → Pipeline.WinSpec sig grid15.rank := fun w => (win15 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S512x16 : Shape := ⟨2, ![512, 16]⟩
abbrev S16 : Shape := ⟨1, ![16]⟩
abbrev S65536 : Shape := ⟨1, ![65536]⟩
abbrev S_ : Shape := ⟨0, ![]⟩
abbrev S256x4096 : Shape := ⟨2, ![256, 4096]⟩
abbrev S65536x1 : Shape := ⟨2, ![65536, 1]⟩
abbrev S65536x256 : Shape := ⟨2, ![65536, 256]⟩
abbrev S65536x2 : Shape := ⟨2, ![65536, 2]⟩
abbrev S4096 : Shape := ⟨1, ![4096]⟩
abbrev S4096x1 : Shape := ⟨2, ![4096, 1]⟩
abbrev S4096x512 : Shape := ⟨2, ![4096, 512]⟩
abbrev S4096x16 : Shape := ⟨2, ![4096, 16]⟩
abbrev S1x16 : Shape := ⟨2, ![1, 16]⟩

abbrev nBuf : Space → Nat
  | .hbm => 377
  | .vmem => 0
  | .smem => 0
  | _ => 0

abbrev hbmTy0_0 (i : Nat) : BufTy := match i % 128 with
  | 0 => ⟨S4096x256, .f32⟩
  | 1 => ⟨S4096x256, .f32⟩
  | 2 => ⟨S4096x4096, .f32⟩
  | 3 => ⟨S4096x4096, .f32⟩
  | 4 => ⟨S512x16, .f32⟩
  | 5 => ⟨S16, .f32⟩
  | 6 => ⟨S4096x4096, .f32⟩
  | 7 => ⟨S4096x4096, .f32⟩
  | 8 => ⟨S65536, .f32⟩
  | 9 => ⟨S65536, .i32⟩
  | 10 => ⟨S65536, .i32⟩
  | 11 => ⟨S_, .f32⟩
  | 12 => ⟨S4096x4096, .f32⟩
  | 13 => ⟨S_, .f32⟩
  | 14 => ⟨S4096x4096, .f32⟩
  | 15 => ⟨S4096x4096, .f32⟩
  | 16 => ⟨S4096x4096, .f32⟩
  | 17 => ⟨S4096x4096, .f32⟩
  | 18 => ⟨S4096x4096, .f32⟩
  | 19 => ⟨S256x4096, .f32⟩
  | 20 => ⟨S4096x4096, .f32⟩
  | 21 => ⟨S4096x4096, .f32⟩
  | 22 => ⟨S4096x256, .f32⟩
  | 23 => ⟨S4096x256, .f32⟩
  | 24 => ⟨S4096x256, .f32⟩
  | 25 => ⟨S4096x256, .f32⟩
  | 26 => ⟨S4096x256, .f32⟩
  | 27 => ⟨S4096x256, .f32⟩
  | 28 => ⟨S4096x256, .f32⟩
  | 29 => ⟨S4096x256, .f32⟩
  | 30 => ⟨S_, .f32⟩
  | 31 => ⟨S4096x256, .f32⟩
  | 32 => ⟨S4096x256, .f32⟩
  | 33 => ⟨S_, .f32⟩
  | 34 => ⟨S4096x256, .f32⟩
  | 35 => ⟨S4096x256, .f32⟩
  | 36 => ⟨S_, .f32⟩
  | 37 => ⟨S4096x256, .f32⟩
  | 38 => ⟨S4096x256, .f32⟩
  | 39 => ⟨S4096x256, .f32⟩
  | 40 => ⟨S4096x256, .f32⟩
  | 41 => ⟨S4096x256, .f32⟩
  | 42 => ⟨S_, .i32⟩
  | 43 => ⟨S65536, .i32⟩
  | 44 => ⟨S65536, .i1⟩
  | 45 => ⟨S_, .i32⟩
  | 46 => ⟨S65536, .i32⟩
  | 47 => ⟨S65536, .i32⟩
  | 48 => ⟨S65536, .i32⟩
  | 49 => ⟨S65536x1, .i32⟩
  | 50 => ⟨S65536x256, .f32⟩
  | 51 => ⟨S_, .i32⟩
  | 52 => ⟨S65536, .i32⟩
  | 53 => ⟨S65536, .i1⟩
  | 54 => ⟨S_, .i32⟩
  | 55 => ⟨S65536, .i32⟩
  | 56 => ⟨S65536, .i32⟩
  | 57 => ⟨S65536, .i32⟩
  | 58 => ⟨S65536x1, .i32⟩
  | 59 => ⟨S65536x256, .f32⟩
  | 60 => ⟨S65536x256, .f32⟩
  | 61 => ⟨S65536x256, .f32⟩
  | 62 => ⟨S_, .f32⟩
  | 63 => ⟨S65536, .f32⟩
  | 64 => ⟨S65536, .f32⟩
  | 65 => ⟨S65536, .f32⟩
  | 66 => ⟨S_, .f32⟩
  | 67 => ⟨S4096x4096, .f32⟩
  | 68 => ⟨S_, .i32⟩
  | 69 => ⟨S65536, .i32⟩
  | 70 => ⟨S65536, .i1⟩
  | 71 => ⟨S_, .i32⟩
  | 72 => ⟨S65536, .i32⟩
  | 73 => ⟨S65536, .i32⟩
  | 74 => ⟨S65536, .i32⟩
  | 75 => ⟨S_, .i32⟩
  | 76 => ⟨S65536, .i32⟩
  | 77 => ⟨S65536, .i1⟩
  | 78 => ⟨S_, .i32⟩
  | 79 => ⟨S65536, .i32⟩
  | 80 => ⟨S65536, .i32⟩
  | 81 => ⟨S65536, .i32⟩
  | 82 => ⟨S65536x1, .i32⟩
  | 83 => ⟨S65536x1, .i32⟩
  | 84 => ⟨S65536x2, .i32⟩
  | 85 => ⟨S4096x4096, .f32⟩
  | 86 => ⟨S4096x4096, .f32⟩
  | 87 => ⟨S_, .f32⟩
  | 88 => ⟨S4096x4096, .f32⟩
  | 89 => ⟨S4096x4096, .f32⟩
  | 90 => ⟨S_, .f32⟩
  | 91 => ⟨S4096x4096, .f32⟩
  | 92 => ⟨S4096x4096, .f32⟩
  | 93 => ⟨S4096x4096, .f32⟩
  | 94 => ⟨S_, .f32⟩
  | 95 => ⟨S4096x4096, .f32⟩
  | 96 => ⟨S4096x4096, .f32⟩
  | 97 => ⟨S4096x4096, .f32⟩
  | 98 => ⟨S4096x4096, .f32⟩
  | 99 => ⟨S256x4096, .f32⟩
  | 100 => ⟨S4096x4096, .f32⟩
  | 101 => ⟨S4096x4096, .f32⟩
  | 102 => ⟨S4096x256, .f32⟩
  | 103 => ⟨S4096x256, .f32⟩
  | 104 => ⟨S4096x256, .f32⟩
  | 105 => ⟨S4096x256, .f32⟩
  | 106 => ⟨S4096x256, .f32⟩
  | 107 => ⟨S4096x256, .f32⟩
  | 108 => ⟨S4096x256, .f32⟩
  | 109 => ⟨S4096x256, .f32⟩
  | 110 => ⟨S_, .f32⟩
  | 111 => ⟨S4096x256, .f32⟩
  | 112 => ⟨S4096x256, .f32⟩
  | 113 => ⟨S_, .f32⟩
  | 114 => ⟨S4096x256, .f32⟩
  | 115 => ⟨S4096x256, .f32⟩
  | 116 => ⟨S_, .f32⟩
  | 117 => ⟨S4096x256, .f32⟩
  | 118 => ⟨S4096x256, .f32⟩
  | 119 => ⟨S4096x256, .f32⟩
  | 120 => ⟨S4096x256, .f32⟩
  | 121 => ⟨S4096x256, .f32⟩
  | 122 => ⟨S_, .i32⟩
  | 123 => ⟨S65536, .i32⟩
  | 124 => ⟨S65536, .i1⟩
  | 125 => ⟨S_, .i32⟩
  | 126 => ⟨S65536, .i32⟩
  | 127 => ⟨S65536, .i32⟩
  | _ => ⟨S4096x256, .f32⟩

abbrev hbmTy0_1 (i : Nat) : BufTy := match i % 128 with
  | 0 => ⟨S65536, .i32⟩
  | 1 => ⟨S65536x1, .i32⟩
  | 2 => ⟨S65536x256, .f32⟩
  | 3 => ⟨S_, .i32⟩
  | 4 => ⟨S65536, .i32⟩
  | 5 => ⟨S65536, .i1⟩
  | 6 => ⟨S_, .i32⟩
  | 7 => ⟨S65536, .i32⟩
  | 8 => ⟨S65536, .i32⟩
  | 9 => ⟨S65536, .i32⟩
  | 10 => ⟨S65536x1, .i32⟩
  | 11 => ⟨S65536x256, .f32⟩
  | 12 => ⟨S65536x256, .f32⟩
  | 13 => ⟨S65536x256, .f32⟩
  | 14 => ⟨S_, .f32⟩
  | 15 => ⟨S65536, .f32⟩
  | 16 => ⟨S65536, .f32⟩
  | 17 => ⟨S65536, .f32⟩
  | 18 => ⟨S_, .f32⟩
  | 19 => ⟨S4096x4096, .f32⟩
  | 20 => ⟨S_, .i32⟩
  | 21 => ⟨S65536, .i32⟩
  | 22 => ⟨S65536, .i1⟩
  | 23 => ⟨S_, .i32⟩
  | 24 => ⟨S65536, .i32⟩
  | 25 => ⟨S65536, .i32⟩
  | 26 => ⟨S65536, .i32⟩
  | 27 => ⟨S_, .i32⟩
  | 28 => ⟨S65536, .i32⟩
  | 29 => ⟨S65536, .i1⟩
  | 30 => ⟨S_, .i32⟩
  | 31 => ⟨S65536, .i32⟩
  | 32 => ⟨S65536, .i32⟩
  | 33 => ⟨S65536, .i32⟩
  | 34 => ⟨S65536x1, .i32⟩
  | 35 => ⟨S65536x1, .i32⟩
  | 36 => ⟨S65536x2, .i32⟩
  | 37 => ⟨S4096x4096, .f32⟩
  | 38 => ⟨S4096x4096, .f32⟩
  | 39 => ⟨S_, .f32⟩
  | 40 => ⟨S4096x4096, .f32⟩
  | 41 => ⟨S4096x4096, .f32⟩
  | 42 => ⟨S_, .f32⟩
  | 43 => ⟨S4096x4096, .f32⟩
  | 44 => ⟨S4096x4096, .f32⟩
  | 45 => ⟨S4096x4096, .f32⟩
  | 46 => ⟨S_, .f32⟩
  | 47 => ⟨S4096x4096, .f32⟩
  | 48 => ⟨S4096x4096, .f32⟩
  | 49 => ⟨S4096x4096, .f32⟩
  | 50 => ⟨S4096x4096, .f32⟩
  | 51 => ⟨S256x4096, .f32⟩
  | 52 => ⟨S4096x4096, .f32⟩
  | 53 => ⟨S4096x4096, .f32⟩
  | 54 => ⟨S4096x256, .f32⟩
  | 55 => ⟨S4096x256, .f32⟩
  | 56 => ⟨S4096x256, .f32⟩
  | 57 => ⟨S4096x256, .f32⟩
  | 58 => ⟨S4096x256, .f32⟩
  | 59 => ⟨S4096x256, .f32⟩
  | 60 => ⟨S4096x256, .f32⟩
  | 61 => ⟨S4096x256, .f32⟩
  | 62 => ⟨S_, .f32⟩
  | 63 => ⟨S4096x256, .f32⟩
  | 64 => ⟨S4096x256, .f32⟩
  | 65 => ⟨S_, .f32⟩
  | 66 => ⟨S4096x256, .f32⟩
  | 67 => ⟨S4096x256, .f32⟩
  | 68 => ⟨S_, .f32⟩
  | 69 => ⟨S4096x256, .f32⟩
  | 70 => ⟨S4096x256, .f32⟩
  | 71 => ⟨S4096x256, .f32⟩
  | 72 => ⟨S4096x256, .f32⟩
  | 73 => ⟨S4096x256, .f32⟩
  | 74 => ⟨S_, .i32⟩
  | 75 => ⟨S65536, .i32⟩
  | 76 => ⟨S65536, .i1⟩
  | 77 => ⟨S_, .i32⟩
  | 78 => ⟨S65536, .i32⟩
  | 79 => ⟨S65536, .i32⟩
  | 80 => ⟨S65536, .i32⟩
  | 81 => ⟨S65536x1, .i32⟩
  | 82 => ⟨S65536x256, .f32⟩
  | 83 => ⟨S_, .i32⟩
  | 84 => ⟨S65536, .i32⟩
  | 85 => ⟨S65536, .i1⟩
  | 86 => ⟨S_, .i32⟩
  | 87 => ⟨S65536, .i32⟩
  | 88 => ⟨S65536, .i32⟩
  | 89 => ⟨S65536, .i32⟩
  | 90 => ⟨S65536x1, .i32⟩
  | 91 => ⟨S65536x256, .f32⟩
  | 92 => ⟨S65536x256, .f32⟩
  | 93 => ⟨S65536x256, .f32⟩
  | 94 => ⟨S_, .f32⟩
  | 95 => ⟨S65536, .f32⟩
  | 96 => ⟨S65536, .f32⟩
  | 97 => ⟨S65536, .f32⟩
  | 98 => ⟨S_, .f32⟩
  | 99 => ⟨S4096x4096, .f32⟩
  | 100 => ⟨S_, .i32⟩
  | 101 => ⟨S65536, .i32⟩
  | 102 => ⟨S65536, .i1⟩
  | 103 => ⟨S_, .i32⟩
  | 104 => ⟨S65536, .i32⟩
  | 105 => ⟨S65536, .i32⟩
  | 106 => ⟨S65536, .i32⟩
  | 107 => ⟨S_, .i32⟩
  | 108 => ⟨S65536, .i32⟩
  | 109 => ⟨S65536, .i1⟩
  | 110 => ⟨S_, .i32⟩
  | 111 => ⟨S65536, .i32⟩
  | 112 => ⟨S65536, .i32⟩
  | 113 => ⟨S65536, .i32⟩
  | 114 => ⟨S65536x1, .i32⟩
  | 115 => ⟨S65536x1, .i32⟩
  | 116 => ⟨S65536x2, .i32⟩
  | 117 => ⟨S4096x4096, .f32⟩
  | 118 => ⟨S4096x4096, .f32⟩
  | 119 => ⟨S_, .f32⟩
  | 120 => ⟨S4096x4096, .f32⟩
  | 121 => ⟨S4096x4096, .f32⟩
  | 122 => ⟨S_, .f32⟩
  | 123 => ⟨S4096x4096, .f32⟩
  | 124 => ⟨S4096x4096, .f32⟩
  | 125 => ⟨S4096x4096, .f32⟩
  | 126 => ⟨S_, .f32⟩
  | 127 => ⟨S4096x4096, .f32⟩
  | _ => ⟨S4096x256, .f32⟩

abbrev hbmTy0_2 (i : Nat) : BufTy := match i % 128 with
  | 0 => ⟨S4096x4096, .f32⟩
  | 1 => ⟨S4096x4096, .f32⟩
  | 2 => ⟨S4096x4096, .f32⟩
  | 3 => ⟨S256x4096, .f32⟩
  | 4 => ⟨S4096x4096, .f32⟩
  | 5 => ⟨S4096x4096, .f32⟩
  | 6 => ⟨S4096x256, .f32⟩
  | 7 => ⟨S4096x256, .f32⟩
  | 8 => ⟨S4096x256, .f32⟩
  | 9 => ⟨S4096x256, .f32⟩
  | 10 => ⟨S4096x256, .f32⟩
  | 11 => ⟨S4096x256, .f32⟩
  | 12 => ⟨S4096x256, .f32⟩
  | 13 => ⟨S4096x256, .f32⟩
  | 14 => ⟨S_, .f32⟩
  | 15 => ⟨S4096x256, .f32⟩
  | 16 => ⟨S4096x256, .f32⟩
  | 17 => ⟨S_, .f32⟩
  | 18 => ⟨S4096x256, .f32⟩
  | 19 => ⟨S4096x256, .f32⟩
  | 20 => ⟨S_, .f32⟩
  | 21 => ⟨S4096x256, .f32⟩
  | 22 => ⟨S4096x256, .f32⟩
  | 23 => ⟨S4096x256, .f32⟩
  | 24 => ⟨S4096x256, .f32⟩
  | 25 => ⟨S4096x256, .f32⟩
  | 26 => ⟨S_, .i32⟩
  | 27 => ⟨S65536, .i32⟩
  | 28 => ⟨S65536, .i1⟩
  | 29 => ⟨S_, .i32⟩
  | 30 => ⟨S65536, .i32⟩
  | 31 => ⟨S65536, .i32⟩
  | 32 => ⟨S65536, .i32⟩
  | 33 => ⟨S65536x1, .i32⟩
  | 34 => ⟨S65536x256, .f32⟩
  | 35 => ⟨S_, .i32⟩
  | 36 => ⟨S65536, .i32⟩
  | 37 => ⟨S65536, .i1⟩
  | 38 => ⟨S_, .i32⟩
  | 39 => ⟨S65536, .i32⟩
  | 40 => ⟨S65536, .i32⟩
  | 41 => ⟨S65536, .i32⟩
  | 42 => ⟨S65536x1, .i32⟩
  | 43 => ⟨S65536x256, .f32⟩
  | 44 => ⟨S65536x256, .f32⟩
  | 45 => ⟨S65536x256, .f32⟩
  | 46 => ⟨S_, .f32⟩
  | 47 => ⟨S65536, .f32⟩
  | 48 => ⟨S65536, .f32⟩
  | 49 => ⟨S65536, .f32⟩
  | 50 => ⟨S_, .f32⟩
  | 51 => ⟨S4096x4096, .f32⟩
  | 52 => ⟨S_, .i32⟩
  | 53 => ⟨S65536, .i32⟩
  | 54 => ⟨S65536, .i1⟩
  | 55 => ⟨S_, .i32⟩
  | 56 => ⟨S65536, .i32⟩
  | 57 => ⟨S65536, .i32⟩
  | 58 => ⟨S65536, .i32⟩
  | 59 => ⟨S_, .i32⟩
  | 60 => ⟨S65536, .i32⟩
  | 61 => ⟨S65536, .i1⟩
  | 62 => ⟨S_, .i32⟩
  | 63 => ⟨S65536, .i32⟩
  | 64 => ⟨S65536, .i32⟩
  | 65 => ⟨S65536, .i32⟩
  | 66 => ⟨S65536x1, .i32⟩
  | 67 => ⟨S65536x1, .i32⟩
  | 68 => ⟨S65536x2, .i32⟩
  | 69 => ⟨S4096x4096, .f32⟩
  | 70 => ⟨S4096x4096, .f32⟩
  | 71 => ⟨S_, .f32⟩
  | 72 => ⟨S4096x4096, .f32⟩
  | 73 => ⟨S4096x4096, .f32⟩
  | 74 => ⟨S_, .f32⟩
  | 75 => ⟨S4096x4096, .f32⟩
  | 76 => ⟨S4096x4096, .f32⟩
  | 77 => ⟨S4096x4096, .f32⟩
  | 78 => ⟨S_, .f32⟩
  | 79 => ⟨S4096x4096, .f32⟩
  | 80 => ⟨S4096x4096, .f32⟩
  | 81 => ⟨S4096x256, .f32⟩
  | 82 => ⟨S_, .f32⟩
  | 83 => ⟨S4096, .f32⟩
  | 84 => ⟨S4096x1, .f32⟩
  | 85 => ⟨S4096x1, .f32⟩
  | 86 => ⟨S_, .f32⟩
  | 87 => ⟨S4096x1, .f32⟩
  | 88 => ⟨S4096x1, .f32⟩
  | 89 => ⟨S4096x256, .f32⟩
  | 90 => ⟨S4096x256, .f32⟩
  | 91 => ⟨S4096x256, .f32⟩
  | 92 => ⟨S_, .f32⟩
  | 93 => ⟨S4096, .f32⟩
  | 94 => ⟨S4096x1, .f32⟩
  | 95 => ⟨S4096x1, .f32⟩
  | 96 => ⟨S_, .f32⟩
  | 97 => ⟨S4096x1, .f32⟩
  | 98 => ⟨S4096x1, .f32⟩
  | 99 => ⟨S4096x256, .f32⟩
  | 100 => ⟨S4096x256, .f32⟩
  | 101 => ⟨S4096x512, .f32⟩
  | 102 => ⟨S4096x16, .f32⟩
  | 103 => ⟨S1x16, .f32⟩
  | 104 => ⟨S4096x16, .f32⟩
  | 105 => ⟨S4096x16, .f32⟩
  | 106 => ⟨S_, .f32⟩
  | 107 => ⟨S4096, .f32⟩
  | 108 => ⟨S_, .f32⟩
  | 109 => ⟨S4096, .f32⟩
  | 110 => ⟨S4096, .f32⟩
  | 111 => ⟨S4096x1, .f32⟩
  | 112 => ⟨S4096x16, .f32⟩
  | 113 => ⟨S4096x16, .f32⟩
  | 114 => ⟨S4096x16, .f32⟩
  | 115 => ⟨S_, .f32⟩
  | 116 => ⟨S4096, .f32⟩
  | 117 => ⟨S4096x1, .f32⟩
  | 118 => ⟨S4096x1, .f32⟩
  | 119 => ⟨S4096x16, .f32⟩
  | 120 => ⟨S4096x16, .f32⟩
  | _ => ⟨S4096x256, .f32⟩

abbrev hbmTy (i : Nat) : BufTy := match i / 128 with
  | 0 => hbmTy0_0 i
  | 1 => hbmTy0_1 i
  | 2 => hbmTy0_2 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call0_v0 : Ref sig .tc := ⟨.hbm, 61, rfl⟩
abbrev main_call0_cst : Ref sig .tc := ⟨.hbm, 62, rfl⟩
abbrev main_call0_v1 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_c_8 : Ref sig .tc := ⟨.hbm, 68, rfl⟩
abbrev main_v44 : Ref sig .tc := ⟨.hbm, 69, rfl⟩
abbrev main_v45 : Ref sig .tc := ⟨.hbm, 70, rfl⟩
abbrev main_c_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_10 : Ref sig .tc := ⟨.hbm, 75, rfl⟩
abbrev main_v49 : Ref sig .tc := ⟨.hbm, 76, rfl⟩
abbrev main_v50 : Ref sig .tc := ⟨.hbm, 77, rfl⟩
abbrev main_c_11 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_cst_16 : Ref sig .tc := ⟨.hbm, 113, rfl⟩
abbrev main_v81 : Ref sig .tc := ⟨.hbm, 114, rfl⟩
abbrev main_v82 : Ref sig .tc := ⟨.hbm, 115, rfl⟩
abbrev main_cst_17 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_18 : Ref sig .tc := ⟨.hbm, 122, rfl⟩
abbrev main_v88 : Ref sig .tc := ⟨.hbm, 123, rfl⟩
abbrev main_v89 : Ref sig .tc := ⟨.hbm, 124, rfl⟩
abbrev main_c_19 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_20 : Ref sig .tc := ⟨.hbm, 131, rfl⟩
abbrev main_v95 : Ref sig .tc := ⟨.hbm, 132, rfl⟩
abbrev main_v96 : Ref sig .tc := ⟨.hbm, 133, rfl⟩
abbrev main_c_21 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_call1_v0 : Ref sig .tc := ⟨.hbm, 141, rfl⟩
abbrev main_call1_cst : Ref sig .tc := ⟨.hbm, 142, rfl⟩
abbrev main_call1_v1 : Ref sig .tc := ⟨.hbm, 143, rfl⟩
abbrev main_v103 : Ref sig .tc := ⟨.hbm, 144, rfl⟩
abbrev main_v104 : Ref sig .tc := ⟨.hbm, 145, rfl⟩
abbrev main_cst_22 : Ref sig .tc := ⟨.hbm, 146, rfl⟩
abbrev main_v105 : Ref sig .tc := ⟨.hbm, 147, rfl⟩
abbrev main_c_23 : Ref sig .tc := ⟨.hbm, 148, rfl⟩
abbrev main_v106 : Ref sig .tc := ⟨.hbm, 149, rfl⟩
abbrev main_v107 : Ref sig .tc := ⟨.hbm, 150, rfl⟩
abbrev main_c_24 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_c_25 : Ref sig .tc := ⟨.hbm, 155, rfl⟩
abbrev main_v111 : Ref sig .tc := ⟨.hbm, 156, rfl⟩
abbrev main_v112 : Ref sig .tc := ⟨.hbm, 157, rfl⟩
abbrev main_c_26 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_27 : Ref sig .tc := ⟨.hbm, 167, rfl⟩
abbrev main_v121 : Ref sig .tc := ⟨.hbm, 168, rfl⟩
abbrev main_v122 : Ref sig .tc := ⟨.hbm, 169, rfl⟩
abbrev main_cst_28 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_cst_29 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_cst_30 : Ref sig .tc := ⟨.hbm, 190, rfl⟩
abbrev main_v141 : Ref sig .tc := ⟨.hbm, 191, rfl⟩
abbrev main_v142 : Ref sig .tc := ⟨.hbm, 192, rfl⟩
abbrev main_cst_31 : Ref sig .tc := ⟨.hbm, 193, rfl⟩
abbrev main_v143 : Ref sig .tc := ⟨.hbm, 194, rfl⟩
abbrev main_v144 : Ref sig .tc := ⟨.hbm, 195, rfl⟩
abbrev main_cst_32 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_c_33 : Ref sig .tc := ⟨.hbm, 202, rfl⟩
abbrev main_v150 : Ref sig .tc := ⟨.hbm, 203, rfl⟩
abbrev main_v151 : Ref sig .tc := ⟨.hbm, 204, rfl⟩
abbrev main_c_34 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_c_35 : Ref sig .tc := ⟨.hbm, 211, rfl⟩
abbrev main_v157 : Ref sig .tc := ⟨.hbm, 212, rfl⟩
abbrev main_v158 : Ref sig .tc := ⟨.hbm, 213, rfl⟩
abbrev main_c_36 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_call2_v0 : Ref sig .tc := ⟨.hbm, 221, rfl⟩
abbrev main_call2_cst : Ref sig .tc := ⟨.hbm, 222, rfl⟩
abbrev main_call2_v1 : Ref sig .tc := ⟨.hbm, 223, rfl⟩
abbrev main_v165 : Ref sig .tc := ⟨.hbm, 224, rfl⟩
abbrev main_v166 : Ref sig .tc := ⟨.hbm, 225, rfl⟩
abbrev main_cst_37 : Ref sig .tc := ⟨.hbm, 226, rfl⟩
abbrev main_v167 : Ref sig .tc := ⟨.hbm, 227, rfl⟩
abbrev main_c_38 : Ref sig .tc := ⟨.hbm, 228, rfl⟩
abbrev main_v168 : Ref sig .tc := ⟨.hbm, 229, rfl⟩
abbrev main_v169 : Ref sig .tc := ⟨.hbm, 230, rfl⟩
abbrev main_c_39 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_c_40 : Ref sig .tc := ⟨.hbm, 235, rfl⟩
abbrev main_v173 : Ref sig .tc := ⟨.hbm, 236, rfl⟩
abbrev main_v174 : Ref sig .tc := ⟨.hbm, 237, rfl⟩
abbrev main_c_41 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_cst_42 : Ref sig .tc := ⟨.hbm, 247, rfl⟩
abbrev main_v183 : Ref sig .tc := ⟨.hbm, 248, rfl⟩
abbrev main_v184 : Ref sig .tc := ⟨.hbm, 249, rfl⟩
abbrev main_cst_43 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_cst_44 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_cst_45 : Ref sig .tc := ⟨.hbm, 270, rfl⟩
abbrev main_v203 : Ref sig .tc := ⟨.hbm, 271, rfl⟩
abbrev main_v204 : Ref sig .tc := ⟨.hbm, 272, rfl⟩
abbrev main_cst_46 : Ref sig .tc := ⟨.hbm, 273, rfl⟩
abbrev main_v205 : Ref sig .tc := ⟨.hbm, 274, rfl⟩
abbrev main_v206 : Ref sig .tc := ⟨.hbm, 275, rfl⟩
abbrev main_cst_47 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_c_48 : Ref sig .tc := ⟨.hbm, 282, rfl⟩
abbrev main_v212 : Ref sig .tc := ⟨.hbm, 283, rfl⟩
abbrev main_v213 : Ref sig .tc := ⟨.hbm, 284, rfl⟩
abbrev main_c_49 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_c_50 : Ref sig .tc := ⟨.hbm, 291, rfl⟩
abbrev main_v219 : Ref sig .tc := ⟨.hbm, 292, rfl⟩
abbrev main_v220 : Ref sig .tc := ⟨.hbm, 293, rfl⟩
abbrev main_c_51 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_call3_v0 : Ref sig .tc := ⟨.hbm, 301, rfl⟩
abbrev main_call3_cst : Ref sig .tc := ⟨.hbm, 302, rfl⟩
abbrev main_call3_v1 : Ref sig .tc := ⟨.hbm, 303, rfl⟩
abbrev main_v227 : Ref sig .tc := ⟨.hbm, 304, rfl⟩
abbrev main_v228 : Ref sig .tc := ⟨.hbm, 305, rfl⟩
abbrev main_cst_52 : Ref sig .tc := ⟨.hbm, 306, rfl⟩
abbrev main_v229 : Ref sig .tc := ⟨.hbm, 307, rfl⟩
abbrev main_c_53 : Ref sig .tc := ⟨.hbm, 308, rfl⟩
abbrev main_v230 : Ref sig .tc := ⟨.hbm, 309, rfl⟩
abbrev main_v231 : Ref sig .tc := ⟨.hbm, 310, rfl⟩
abbrev main_c_54 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_c_55 : Ref sig .tc := ⟨.hbm, 315, rfl⟩
abbrev main_v235 : Ref sig .tc := ⟨.hbm, 316, rfl⟩
abbrev main_v236 : Ref sig .tc := ⟨.hbm, 317, rfl⟩
abbrev main_c_56 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_v242 : Ref sig .tc := ⟨.hbm, 324, rfl⟩
abbrev main_v243 : Ref sig .tc := ⟨.hbm, 325, rfl⟩
abbrev main_v244 : Ref sig .tc := ⟨.hbm, 326, rfl⟩
abbrev main_cst_57 : Ref sig .tc := ⟨.hbm, 327, rfl⟩
abbrev main_v245 : Ref sig .tc := ⟨.hbm, 328, rfl⟩
abbrev main_v246 : Ref sig .tc := ⟨.hbm, 329, rfl⟩
abbrev main_cst_58 : Ref sig .tc := ⟨.hbm, 330, rfl⟩
abbrev main_v247 : Ref sig .tc := ⟨.hbm, 331, rfl⟩
abbrev main_v248 : Ref sig .tc := ⟨.hbm, 332, rfl⟩
abbrev main_v249 : Ref sig .tc := ⟨.hbm, 333, rfl⟩
abbrev main_cst_59 : Ref sig .tc := ⟨.hbm, 334, rfl⟩
abbrev main_v250 : Ref sig .tc := ⟨.hbm, 335, rfl⟩
abbrev main_v251 : Ref sig .tc := ⟨.hbm, 336, rfl⟩
abbrev main_call4_v0 : Ref sig .tc := ⟨.hbm, 337, rfl⟩
abbrev main_call4_cst : Ref sig .tc := ⟨.hbm, 338, rfl⟩
abbrev main_call4_v1 : Ref sig .tc := ⟨.hbm, 339, rfl⟩
abbrev main_call4_v2 : Ref sig .tc := ⟨.hbm, 340, rfl⟩
abbrev main_v252 : Ref sig .tc := ⟨.hbm, 341, rfl⟩
abbrev main_cst_60 : Ref sig .tc := ⟨.hbm, 342, rfl⟩
abbrev main_v253 : Ref sig .tc := ⟨.hbm, 343, rfl⟩
abbrev main_v254 : Ref sig .tc := ⟨.hbm, 344, rfl⟩
abbrev main_v255 : Ref sig .tc := ⟨.hbm, 345, rfl⟩
abbrev main_v256 : Ref sig .tc := ⟨.hbm, 346, rfl⟩
abbrev main_call5_v0 : Ref sig .tc := ⟨.hbm, 347, rfl⟩
abbrev main_call5_cst : Ref sig .tc := ⟨.hbm, 348, rfl⟩
abbrev main_call5_v1 : Ref sig .tc := ⟨.hbm, 349, rfl⟩
abbrev main_call5_v2 : Ref sig .tc := ⟨.hbm, 350, rfl⟩
abbrev main_v257 : Ref sig .tc := ⟨.hbm, 351, rfl⟩
abbrev main_cst_61 : Ref sig .tc := ⟨.hbm, 352, rfl⟩
abbrev main_v258 : Ref sig .tc := ⟨.hbm, 353, rfl⟩
abbrev main_v259 : Ref sig .tc := ⟨.hbm, 354, rfl⟩
abbrev main_v260 : Ref sig .tc := ⟨.hbm, 355, rfl⟩
abbrev main_v261 : Ref sig .tc := ⟨.hbm, 356, rfl⟩
abbrev main_v262 : Ref sig .tc := ⟨.hbm, 357, rfl⟩
abbrev main_v263 : Ref sig .tc := ⟨.hbm, 358, rfl⟩
abbrev main_v264 : Ref sig .tc := ⟨.hbm, 359, rfl⟩
abbrev main_v265 : Ref sig .tc := ⟨.hbm, 360, rfl⟩
abbrev main_v266 : Ref sig .tc := ⟨.hbm, 361, rfl⟩
abbrev main_call6_cst : Ref sig .tc := ⟨.hbm, 362, rfl⟩
abbrev main_call6_v0 : Ref sig .tc := ⟨.hbm, 363, rfl⟩
abbrev main_call6_cst_0 : Ref sig .tc := ⟨.hbm, 364, rfl⟩
abbrev main_call6_v1 : Ref sig .tc := ⟨.hbm, 365, rfl⟩
abbrev main_call6_v2 : Ref sig .tc := ⟨.hbm, 366, rfl⟩
abbrev main_call6_v3 : Ref sig .tc := ⟨.hbm, 367, rfl⟩
abbrev main_call6_v4 : Ref sig .tc := ⟨.hbm, 368, rfl⟩
abbrev main_call6_v5 : Ref sig .tc := ⟨.hbm, 369, rfl⟩
abbrev main_call6_v6 : Ref sig .tc := ⟨.hbm, 370, rfl⟩
abbrev main_call6_cst_1 : Ref sig .tc := ⟨.hbm, 371, rfl⟩
abbrev main_call6_v7 : Ref sig .tc := ⟨.hbm, 372, rfl⟩
abbrev main_call6_v8 : Ref sig .tc := ⟨.hbm, 373, rfl⟩
abbrev main_call6_v9 : Ref sig .tc := ⟨.hbm, 374, rfl⟩
abbrev main_call6_v10 : Ref sig .tc := ⟨.hbm, 375, rfl⟩
abbrev main_v267 : Ref sig .tc := ⟨.hbm, 376, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x256_S256x4096_1_0 : S4096x256.Transposes [1, 0] S256x4096
  transposes_S4096x4096_S4096x4096_1_0 : S4096x4096.Transposes [1, 0] S4096x4096
  bcast_S_S4096x256 : S_.BroadcastsInDim S4096x256 (![] : Fin 0 → Fin S4096x256.rank)
  bcast_S_S65536 : S_.BroadcastsInDim S65536 (![] : Fin 0 → Fin S65536.rank)
  bcast_S65536_S65536x1_0 : S65536.BroadcastsInDim S65536x1 (![0] : Fin 1 → Fin S65536x1.rank)
  reducesTo_S65536x256_S65536_d1 : S65536x256.ReducesTo [1] S65536
  h_S_ : 0 < S_.numel
  concatenates_S65536x1_S65536x1_S65536x2_d1 : Shape.Concatenates [S65536x1, S65536x1] S65536x2 1
  reducesTo_S4096x256_S4096_d1 : S4096x256.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S4096x512_d1 : Shape.Concatenates [S4096x256, S4096x256] S4096x512 1
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  reducesTo_S4096x16_S4096_d1 : S4096x16.ReducesTo [1] S4096
  bcast_S_S4096 : S_.BroadcastsInDim S4096 (![] : Fin 0 → Fin S4096.rank)
  bcast_S4096x1_S4096x16_0_1 : S4096x1.BroadcastsInDim S4096x16 (![0, 1] : Fin 2 → Fin S4096x16.rank)
  dot_S4096x256_S256x4096_S4096x4096_1_0_0_1_n_n_wf : DotDims.WF S4096x256 S256x4096 S4096x4096 [1] [0] [0] [1] [] []
  dot_S4096x4096_S4096x256_S4096x256_1_0_0_1_n_n_wf : DotDims.WF S4096x4096 S4096x256 S4096x256 [1] [0] [0] [1] [] []
  gather_S4096x256_S65536x1_S65536x256_1_0_n_n_0_1_1256_wf : GatherDims.WF S4096x256 S65536x1 S65536x256 [1] [0] [] [0] [] 1 ![1, 256]
  scatter_S4096x4096_S65536x2_S65536_n_01_01_1_wf : ScatterDims.WF S4096x4096 S65536x2 S65536 [] [0, 1] [0, 1] 1
  dot_S4096x512_S512x16_S4096x16_1_0_0_1_n_n_wf : DotDims.WF S4096x512 S512x16 S4096x16 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def gather_S4096x256_S65536x1_S65536x256_1_0_n_n_0_1_1256 : GatherDims S4096x256 S65536x1 S65536x256 where
  offsetDims := [1]
  collapsedSliceDims := [0]
  operandBatchingDims := []
  startIndicesBatchingDims := []
  startIndexMap := [0]
  indexVectorDim := 1
  sliceSizes := ![1, 256]
  wf := gather_S4096x256_S65536x1_S65536x256_1_0_n_n_0_1_1256_wf
def scatter_S4096x4096_S65536x2_S65536_n_01_01_1 : ScatterDims S4096x4096 S65536x2 S65536 where
  updateWindowDims := []
  insertedWindowDims := [0, 1]
  scatterDimsToOperandDims := [0, 1]
  indexVectorDim := 1
  wf := scatter_S4096x4096_S65536x2_S65536_n_01_01_1_wf
def dot_S4096x512_S512x16_S4096x16_1_0_0_1_n_n : DotDims S4096x512 S512x16 S4096x16 where
  lhsContracting := [1]
  rhsContracting := [0]
  lhsNonContracting := [0]
  rhsNonContracting := [1]
  lhsBatch := []
  rhsBatch := []
  wf := dot_S4096x512_S512x16_S4096x16_1_0_0_1_n_n_wf

class Facts : Prop extends Facts₀ where

variable [Facts]
-- ==== Proof.K.Region0.lean ====
/- Region 0 of @main, body side: the masked edge term.

   Three 4096 x 4096 arrays cut into a 4 x 4 grid of 1024 x 1024 tiles: the edge attributes EA (window 0), the
   mask w22 (window 1) and the result mea (window 2). At a grid point the body reads the two input tiles whole and
   writes the output tile whole, entrywise   mea = (1/2 · EA) · w22 .
   Nothing is carried from one grid point to the next, so what the body leaves in the output tile is a function of
   the two input tiles at that point alone. -/
import proofs.«169176_j23261542875327_2_alg».proof.Proof.Gen.Kernel.Launch
import proofs.«169176_j23261542875327_2_alg».proof.Proof.Gen.Kernel.Skeleton
import proofs.«169176_j23261542875327_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The tiles -/

/-- Window `w`'s tile at grid point `t`, cut out of its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1024 x 1024 tile as a rectangle of itself: the one rectangle the body loads and stores through. -/
abbrev tile0 : Rect S1024x1024 := Rect.unit (s := S1024x1024) ![0, 0] S1024x1024.size inb_S1024x1024_S1024x1024_0_0

/-- The output tile after the body: one whole-tile store of (1/2 · ea) · m, entrywise, of the input tiles `ea`
    (edge attributes) and `m` (mask). -/
def left0_2 (ea m : Vec F S1024x1024 .f32) : Vec F S1024x1024 .f32 :=
  View.canon [⟨tile0, k0_pay1 (View.ld ea tile0) (View.ld m tile0)⟩]

/-- One whole-tile store fills the tile, whatever is stored. -/
theorem fills0_2 (p : Vec F S1024x1024 .f32) (y : S1024x1024.Idx) :
    ∃ pc ∈ ([⟨tile0, p⟩] : List (View.Piece (Elt F) S1024x1024 .f32)), y ∈ pc.1.set :=
  View.cover_of_tiled [⟨tile0, p⟩] S1024x1024.size (by rfl) y

/-! ## The body on three whole tiles -/

set_option maxHeartbeats 1000000 in
/-- On whole tile buffers — the inputs reading `ea` and `m`, the output holding anything — the body ends with the
    inputs as they were and the output reading `left0_2 ea m`. (It also loads the output tile before overwriting it;
    the loaded value is not used.) -/
theorem run0 (c : Dev nD) (E : Set ℕ) (i : grid0.Coords)
    (a0 : Memref sig .tc .vmem S1024x1024 .f32) (h0 : a0.IsWhole) (a1 : Memref sig .tc .vmem S1024x1024 .f32) (h1 : a1.IsWhole)
    (a2 : Memref sig .tc .vmem S1024x1024 .f32) (h2 : a2.IsWhole)
    (ea m : Vec F S1024x1024 .f32) (K : PUnit → sProp 𝕄) :
    iprop(owns (c : Thread nD τ) a0 fullShare ea ∗ owns (c : Thread nD τ) a1 fullShare m ∗ (∃ d, owns (c : Thread nD τ) a2 fullShare d)
        ∗ (iprop(owns (c : Thread nD τ) a0 fullShare ea ∗ owns (c : Thread nD τ) a1 fullShare m
            ∗ owns (c : Thread nD τ) a2 fullShare (left0_2 ea m)) -∗ K ⟨⟩))
      ⊢ wp frame (wpE (defs₀ (F := F)) Variants.none c none) E (cc0__masked_ea_kernel i a0 h0 a1 h1 a2 h2) K := by
  simp only [cc0__masked_ea_kernel_eq_skeleton]; unfold cc0__masked_ea_kernel_skel
  unfold owns
  iintro ⟨⟨%f0, %e0, H0⟩, ⟨%f1, %e1, H1⟩, ⟨%d2, %f2, -, H2⟩, Hk⟩
  subst e0; subst e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fills0_2 _)

/-! ## The proof data -/

/-- Pipeline 0's proof data on core `c`: the arrays as the region finds them; after the body at point `t` the input
    buffers still at their tiles and the output buffer at `left0_2` of the two input tiles; the invariant that of a
    body keeping nothing between points; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => left0_2 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) :
    (dat0 V c).after 2 t = left0_2 (blk0 V c 0 t) (blk0 V c 1 t) := by dsimp only [dat0]

/-! ## What the body finds in the input buffers -/

/-- The edge-attribute buffer holds its tile at every point: the body leaves it in place and the tile index moves
    with every point that fetches. -/
theorem finds0_0 (c : Dev nD) (t : Fin cfg0.N) (d) : (dat0 V c).before 0 t d = blk0 V c 0 t :=
  ((dat0 V c).before_in_eq_fetched 0 rfl (fun _ => rfl) (fun _ _ _ => rfl)
      (fun t => by rw [dat0_after_0]; unfold Dat.blockOf blk0; rw [dat0_A]; try rfl) t d).trans
    (by unfold Dat.fetched Dat.blockOf blk0; rw [dat0_A]; try rfl)

/-- The same of the mask buffer. -/
theorem finds0_1 (c : Dev nD) (t : Fin cfg0.N) (d) : (dat0 V c).before 1 t d = blk0 V c 1 t :=
  ((dat0 V c).before_in_eq_fetched 1 rfl (fun _ => rfl) (fun _ _ _ => rfl)
      (fun t => by rw [dat0_after_1]; unfold Dat.blockOf blk0; rw [dat0_A]; try rfl) t d).trans
    (by unfold Dat.fetched Dat.blockOf blk0; rw [dat0_A]; try rfl)

/-! ## The obligation at a grid point -/

/-- At any point: the input buffers hold their tiles (`finds0_0`, `finds0_1`), so `run0` applies to the three current
    buffers; the invariant and what the core owes are not touched. -/
theorem body0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.castSucc ∗ (dat0 V c).owesAt () t.castSucc
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)))
  simp only [finds0_0, finds0_1]
  rw [dat0_after_0, dat0_after_1, dat0_after_2]
  unfold bodyAt0
  iintro ⟨HΦ, Ho, ⟨%d0, H0⟩, ⟨%d1, H1⟩, ⟨%d2, H2⟩⟩
  iapply (run0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Regs
-- ==== Proof.K.Region1.lean ====
import proofs.«169176_j23261542875327_2_alg».proof.Proof.Gen.Kernel.Launch
import proofs.«169176_j23261542875327_2_alg».proof.Proof.Gen.Kernel.Skeleton
import proofs.«169176_j23261542875327_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic

-- a whole-block rectangle's membership test walks the long axis once per coordinate
set_option maxRecDepth 65536

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 1: the first layer's fused adjacency products

A row tile of 128 rows. The body forms `A = adj + mea` on the tile (windows 0 and 1, 128x4096 each) and
multiplies it into the two resident 4096x256 operands: `oy = bf16(A) · y` (window 2, bf16, into window 4)
and `oz = A · z` at full precision (window 3, into window 5), each product into a zero accumulator. -/

/-- Window `w`'s block at grid point `t`, cut out of its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The whole-block rectangles the body reads and writes through -/

/-- all of a 128x4096 row tile -/
abbrev tileR1 : Rect S128x4096 := Rect.unit (s := S128x4096) ![0, 0] S128x4096.size inb_S128x4096_S128x4096_0_0
/-- all of a 4096x256 right operand -/
abbrev rhsR1 : Rect S4096x256 := Rect.unit (s := S4096x256) ![0, 0] S4096x256.size inb_S4096x256_S4096x256_0_0
/-- all of a 128x256 product tile -/
abbrev prodR1 : Rect S128x256 := Rect.unit (s := S128x256) ![0, 0] S128x256.size inb_S128x256_S128x256_0_0

/-! ## What the body leaves in the two product buffers -/

/-- Window 4 after the body: the single whole-tile store of `bf16(adj + mea) · y`. -/
def left1_4 (x0 x1 : Vec F S128x4096 .f32) (x2 : Vec F S4096x256 .bf16) : Vec F S128x256 .f32 :=
  View.canon [⟨prodR1, k1_pay2 (View.ld x0 tileR1) (View.ld x1 tileR1) (View.ld x2 rhsR1)⟩]

/-- Window 5 after the body: the single whole-tile store of `(adj + mea) · z`. -/
def left1_5 (x0 x1 : Vec F S128x4096 .f32) (x3 : Vec F S4096x256 .f32) : Vec F S128x256 .f32 :=
  View.canon [⟨prodR1, k1_pay3 (View.ld x0 tileR1) (View.ld x1 tileR1) (View.ld x3 rhsR1)⟩]

/-- One whole-tile store covers the product tile. -/
theorem prodCover1 (p : Vec F S128x256 .f32) (y : S128x256.Idx) :
    ∃ pc ∈ ([⟨prodR1, p⟩] : List (View.Piece (Elt F) S128x256 .f32)), y ∈ pc.1.set :=
  View.cover_of_tiled [⟨prodR1, p⟩] S128x256.size (by rfl) y

/-! ## The body on whole staging buffers -/

set_option maxHeartbeats 4000000 in
/-- Run on six whole staging buffers, the four operands' reading `x0 … x3` and the two products' holding anything,
    the body returns with the operands as they were and the products at `left1_4`, `left1_5` of them. -/
theorem kernel1 (c : Dev nD) (E : Set ℕ) (i : grid1.Coords)
    (a0 : Memref sig .tc .vmem S128x4096 .f32) (h0 : a0.IsWhole) (a1 : Memref sig .tc .vmem S128x4096 .f32) (h1 : a1.IsWhole)
    (a2 : Memref sig .tc .vmem S4096x256 .bf16) (h2 : a2.IsWhole) (a3 : Memref sig .tc .vmem S4096x256 .f32) (h3 : a3.IsWhole)
    (a4 : Memref sig .tc .vmem S128x256 .f32) (h4 : a4.IsWhole) (a5 : Memref sig .tc .vmem S128x256 .f32) (h5 : a5.IsWhole)
    (x0 x1 : Vec F S128x4096 .f32) (x2 : Vec F S4096x256 .bf16) (x3 : Vec F S4096x256 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d) ∗ (∃ d, owns (c : Thread nD τ) a5 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (left1_4 x0 x1 x2)
            ∗ owns (c : Thread nD τ) a5 fullShare (left1_5 x0 x1 x3)) -∗ K ⟨⟩))
      ⊢ wp frame (wpE (defs₀ (F := F)) Variants.none c none) E (cc1__fused_a0_kernel i a0 h0 a1 h1 a2 h2 a3 h3 a4 h4 a5 h5) K := by
  simp only [cc1__fused_a0_kernel_eq_skeleton]; unfold cc1__fused_a0_kernel_skel
  unfold owns
  iintro ⟨⟨%f0, %e0, H0⟩, ⟨%f1, %e1, H1⟩, ⟨%f2, %e2, H2⟩, ⟨%f3, %e3, H3⟩, ⟨%d4, %f4, -, H4⟩, ⟨%d5, %f5, -, H5⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (prodCover1 _)
  iexists _; isplitr
  swap; · iexact H5
  ipureintro
  exact View.read_writes_eq_canon _ _ _ (prodCover1 _)

/-! ## The proof data -/

/-- Core `c`'s proof data for the region: the arrays as found; after the body at point `t` each operand's buffer
    still at its block, each product's at `left1_w` of the operand blocks there; the invariant the scoped rest and
    the generator register, untouched; nothing owed; whole shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => left1_4 (blk1 V c 0 t) (blk1 V c 1 t) (blk1 V c 2 t)
    | ⟨5, _⟩ => left1_5 (blk1 V c 0 t) (blk1 V c 1 t) (blk1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) : (dat1 V c).after 3 t = blk1 V c 3 t := by dsimp only [dat1]
theorem dat1_after_4 (c : Dev nD) (t : Fin cfg1.N) :
    (dat1 V c).after 4 t = left1_4 (blk1 V c 0 t) (blk1 V c 1 t) (blk1 V c 2 t) := by dsimp only [dat1]
theorem dat1_after_5 (c : Dev nD) (t : Fin cfg1.N) :
    (dat1 V c).after 5 t = left1_5 (blk1 V c 0 t) (blk1 V c 1 t) (blk1 V c 3 t) := by dsimp only [dat1]

/-! ## An operand's buffer holds its block at every point

The two row tiles are fetched at every point; the two right operands are fetched at the first point only and their
block index never moves. Either way the current buffer reads the window's block: the body leaves it in place. -/

theorem held1_0 (c : Dev nD) (t : Fin cfg1.N) (d) : (dat1 V c).before 0 t d = blk1 V c 0 t :=
  ((dat1 V c).before_in_eq_fetched 0 rfl (fun _ => rfl) (fun _ _ _ => rfl)
    (fun t => by rw [dat1_after_0]; unfold Dat.blockOf blk1; rw [dat1_A]; try rfl) t d).trans
    (by unfold Dat.fetched Dat.blockOf blk1; rw [dat1_A]; try rfl)
theorem held1_1 (c : Dev nD) (t : Fin cfg1.N) (d) : (dat1 V c).before 1 t d = blk1 V c 1 t :=
  ((dat1 V c).before_in_eq_fetched 1 rfl (fun _ => rfl) (fun _ _ _ => rfl)
    (fun t => by rw [dat1_after_1]; unfold Dat.blockOf blk1; rw [dat1_A]; try rfl) t d).trans
    (by unfold Dat.fetched Dat.blockOf blk1; rw [dat1_A]; try rfl)
theorem held1_2 (c : Dev nD) (t : Fin cfg1.N) (d) : (dat1 V c).before 2 t d = blk1 V c 2 t :=
  ((dat1 V c).before_in_eq_fetched 2 rfl (fun _ => rfl) (fun _ _ _ => rfl)
    (fun t => by rw [dat1_after_2]; unfold Dat.blockOf blk1; rw [dat1_A]; try rfl) t d).trans
    (by unfold Dat.fetched Dat.blockOf blk1; rw [dat1_A]; try rfl)
theorem held1_3 (c : Dev nD) (t : Fin cfg1.N) (d) : (dat1 V c).before 3 t d = blk1 V c 3 t :=
  ((dat1 V c).before_in_eq_fetched 3 rfl (fun _ => rfl) (fun _ _ _ => rfl)
    (fun t => by rw [dat1_after_3]; unfold Dat.blockOf blk1; rw [dat1_A]; try rfl) t d).trans
    (by unfold Dat.fetched Dat.blockOf blk1; rw [dat1_A]; try rfl)

/-! ## The body obligation -/

/-- What the pipeline hands the body at point `t`, window by window, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it takes back. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- At any point the operands' buffers read their blocks, so `kernel1` applies; the invariant and what the core
    owes pass through unread. -/
theorem atPoint1 (c : Dev nD) (t : Fin cfg1.N) :
    handed1 V c t ⊢ wp frame (wpE (defs₀ (F := F)) Variants.none c none) Set.univ (bodyAt1 t) (fun _ => returned1 V c t) := by
  unfold handed1 returned1 bodyAt1
  simp only [held1_0, held1_1, held1_2, held1_3]
  rw [show (dat1 V c).Φ t.succ = (dat1 V c).Φ t.castSucc from rfl,
    show (dat1 V c).owesAt () t.succ = (dat1 V c).owesAt () t.castSucc from rfl,
    dat1_after_0, dat1_after_1, dat1_after_2, dat1_after_3, dat1_after_4, dat1_after_5]
  iintro ⟨HΦ, Ho, ⟨%d0, H0⟩, ⟨%d1, H1⟩, ⟨%d2, H2⟩, ⟨%d3, H3⟩, ⟨%d4, H4⟩, ⟨%d5, H5⟩⟩
  iapply (kernel1 c Set.univ _ _ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region, at every point. -/
theorem body1 (c : Dev nD) : BodyObligation (dat1 (F := F) V c) (defs₀ (F := F)) Variants.none () Set.univ := fun t => by
  rw [bigSep_W1, bigSep_W1]
  exact atPoint1 V c t

end Cert.Kernel.Regs
-- ==== Proof.K.Region2.lean ====
/- Region 2 of @main, body side.

   A tall product  out = A · B  computed in eight row tiles. Window 0 is the left matrix A (4096 x 4096, already in
   bf16) cut into eight 512 x 4096 row tiles; window 1 is the right matrix B (4096 x 256, f32), one block that is the
   whole array and therefore stays in its buffer from the first grid point on; window 2 is the result (4096 x 256, f32)
   in eight 512 x 256 row tiles. At a grid point the body reads the row tile and B whole, rounds B to bf16, and writes
   the output tile whole:   out_tile = A_tile · bf16(B) ,  the products summed in f32 from zero.
   Nothing is carried from one grid point to the next, so what the body leaves in the output tile is a function of
   the two input blocks at that point alone. -/
import proofs.«169176_j23261542875327_2_alg».proof.Proof.Gen.Kernel.Launch
import proofs.«169176_j23261542875327_2_alg».proof.Proof.Gen.Kernel.Skeleton
import proofs.«169176_j23261542875327_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks -/

/-- Window `w`'s block at grid point `t`, cut out of its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each of the three blocks as a rectangle of itself: the body loads and stores whole blocks only. -/
abbrev lhs2 : Rect S512x4096 := Rect.unit (s := S512x4096) ![0, 0] S512x4096.size inb_S512x4096_S512x4096_0_0
abbrev rhs2 : Rect S4096x256 := Rect.unit (s := S4096x256) ![0, 0] S4096x256.size inb_S4096x256_S4096x256_0_0
abbrev res2 : Rect S512x256 := Rect.unit (s := S512x256) ![0, 0] S512x256.size inb_S512x256_S512x256_0_0

/-- The output tile after the body: one whole-tile store of the product of the row tile `a` with `b` rounded to bf16, summed from zero. -/
def left2_2 (a : Vec F S512x4096 .bf16) (b : Vec F S4096x256 .f32) : Vec F S512x256 .f32 :=
  View.canon [⟨res2, k2_pay1 (View.ld a lhs2) (View.ld b rhs2)⟩]

/-- One whole-tile store fills the tile, whatever is stored. -/
theorem fills2_2 (p : Vec F S512x256 .f32) (y : S512x256.Idx) :
    ∃ pc ∈ ([⟨res2, p⟩] : List (View.Piece (Elt F) S512x256 .f32)), y ∈ pc.1.set :=
  View.cover_of_tiled [⟨res2, p⟩] S512x256.size (by rfl) y

/-! ## The body on three whole blocks -/

set_option maxHeartbeats 1000000 in
/-- On whole block buffers — the inputs reading `a` and `b`, the output holding anything — the body ends with the
    inputs as they were and the output reading `left2_2 a b`. (It also loads the output tile before overwriting it;
    the loaded value is not used.) -/
theorem run2 (c : Dev nD) (E : Set ℕ) (i : grid2.Coords)
    (a0 : Memref sig .tc .vmem S512x4096 .bf16) (h0 : a0.IsWhole) (a1 : Memref sig .tc .vmem S4096x256 .f32) (h1 : a1.IsWhole)
    (a2 : Memref sig .tc .vmem S512x256 .f32) (h2 : a2.IsWhole)
    (a : Vec F S512x4096 .bf16) (b : Vec F S4096x256 .f32) (K : PUnit → sProp 𝕄) :
    iprop(owns (c : Thread nD τ) a0 fullShare a ∗ owns (c : Thread nD τ) a1 fullShare b ∗ (∃ d, owns (c : Thread nD τ) a2 fullShare d)
        ∗ (iprop(owns (c : Thread nD τ) a0 fullShare a ∗ owns (c : Thread nD τ) a1 fullShare b
            ∗ owns (c : Thread nD τ) a2 fullShare (left2_2 a b)) -∗ K ⟨⟩))
      ⊢ wp frame (wpE (defs₀ (F := F)) Variants.none c none) E (cc2__matmul_tall_kernel i a0 h0 a1 h1 a2 h2) K := by
  simp only [cc2__matmul_tall_kernel_eq_skeleton]; unfold cc2__matmul_tall_kernel_skel
  unfold owns
  iintro ⟨⟨%f0, %e0, H0⟩, ⟨%f1, %e1, H1⟩, ⟨%d2, %f2, -, H2⟩, Hk⟩
  subst e0; subst e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fills2_2 _)

/-! ## The proof data -/

/-- Pipeline 2's proof data on core `c`: the arrays as the region finds them; after the body at point `t` the input
    buffers still at their blocks and the output buffer at `left2_2` of the two input blocks; the invariant that of a
    body keeping nothing between points; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => left2_2 (blk2 V c 0 t) (blk2 V c 1 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) :
    (dat2 V c).after 2 t = left2_2 (blk2 V c 0 t) (blk2 V c 1 t) := by dsimp only [dat2]

/-! ## What the body finds in the input buffers -/

/-- The left factor's buffer holds its row tile of the left matrix at every point: the body leaves it in place, and it is fetched
    afresh at every point. -/
theorem finds2_0 (c : Dev nD) (t : Fin cfg2.N) (d) : (dat2 V c).before 0 t d = blk2 V c 0 t :=
  ((dat2 V c).before_in_eq_fetched 0 rfl (fun _ => rfl) (fun _ _ _ => rfl)
      (fun t => by rw [dat2_after_0]; unfold Dat.blockOf blk2; rw [dat2_A]; try rfl) t d).trans
    (by unfold Dat.fetched Dat.blockOf blk2; rw [dat2_A]; try rfl)

/-- The right factor's buffer holds the whole right matrix at every point: fetched at the first point only, its block
    index never moves afterwards and the body leaves it in place. -/
theorem finds2_1 (c : Dev nD) (t : Fin cfg2.N) (d) : (dat2 V c).before 1 t d = blk2 V c 1 t :=
  ((dat2 V c).before_in_eq_fetched 1 rfl (fun _ => rfl) (fun _ _ _ => rfl)
      (fun t => by rw [dat2_after_1]; unfold Dat.blockOf blk2; rw [dat2_A]; try rfl) t d).trans
    (by unfold Dat.fetched Dat.blockOf blk2; rw [dat2_A]; try rfl)

/-! ## The obligation at a grid point -/

/-- At any point: the input buffers hold their blocks (`finds2_0`, `finds2_1`), so `run2` applies to the three
    current buffers; the invariant and what the core owes are not touched. -/
theorem body2 (c : Dev nD) : BodyObligation (dat2 (F := F) V c) (defs₀ (F := F)) Variants.none () Set.univ := fun t => by
  rw [bigSep_W2, bigSep_W2]
  show iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) (fun _ =>
      iprop((dat2 V c).Φ t.castSucc ∗ (dat2 V c).owesAt () t.castSucc
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)))
  simp only [finds2_0, finds2_1]
  rw [dat2_after_0, dat2_after_1, dat2_after_2]
  unfold bodyAt2
  iintro ⟨HΦ, Ho, ⟨%d0, H0⟩, ⟨%d1, H1⟩, ⟨%d2, H2⟩⟩
  iapply (run2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Regs
-- ==== Proof.K.Region3.lean ====
import proofs.«169176_j23261542875327_2_alg».proof.Proof.Gen.Kernel.Launch
import proofs.«169176_j23261542875327_2_alg».proof.Proof.Gen.Kernel.Skeleton
import proofs.«169176_j23261542875327_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic

-- a whole-block rectangle's membership test walks the long axis once per coordinate
set_option maxRecDepth 65536

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 3: the edge-potential update on a 1024x1024 tile

At tile (i, j) of a 4x4 grid the body forms `EP = bf16(yᵢ) · bf16(yⱼ)ᵀ − mea − ½ M`: windows 0 and 1 are the
1024x256 row blocks i and j of ONE array y, windows 2 and 3 the tiles of mea and of M, window 4 the tile of EP;
the product goes into a zero accumulator. Row block i only moves every fourth point. -/

/-- Window `w`'s block at grid point `t`, cut out of its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The whole-block rectangles the body reads and writes through -/

/-- all of a 1024x256 row block of y -/
abbrev rowsR3 : Rect S1024x256 := Rect.unit (s := S1024x256) ![0, 0] S1024x256.size inb_S1024x256_S1024x256_0_0
/-- all of a 1024x1024 tile -/
abbrev sqR3 : Rect S1024x1024 := Rect.unit (s := S1024x1024) ![0, 0] S1024x1024.size inb_S1024x1024_S1024x1024_0_0

/-! ## What the body leaves in the EP tile's buffer -/

/-- Window 4 after the body: the single whole-tile store of `bf16(yᵢ) · bf16(yⱼ)ᵀ − mea − ½ M`. -/
def left3_4 (x0 x1 : Vec F S1024x256 .f32) (x2 x3 : Vec F S1024x1024 .f32) : Vec F S1024x1024 .f32 :=
  View.canon [⟨sqR3, k3_pay1 (View.ld x0 rowsR3) (View.ld x1 rowsR3) (View.ld x2 sqR3) (View.ld x3 sqR3)⟩]

/-- One whole-tile store covers the tile. -/
theorem sqCover3 (p : Vec F S1024x1024 .f32) (y : S1024x1024.Idx) :
    ∃ pc ∈ ([⟨sqR3, p⟩] : List (View.Piece (Elt F) S1024x1024 .f32)), y ∈ pc.1.set :=
  View.cover_of_tiled [⟨sqR3, p⟩] S1024x1024.size (by rfl) y

/-! ## The body on whole staging buffers -/

set_option maxHeartbeats 4000000 in
/-- Run on five whole staging buffers, the four operands' reading `x0 … x3` and the result's holding anything, the
    body returns with the operands as they were and the result at `left3_4` of them. -/
theorem kernel3 (c : Dev nD) (E : Set ℕ) (i : grid3.Coords)
    (a0 : Memref sig .tc .vmem S1024x256 .f32) (h0 : a0.IsWhole) (a1 : Memref sig .tc .vmem S1024x256 .f32) (h1 : a1.IsWhole)
    (a2 : Memref sig .tc .vmem S1024x1024 .f32) (h2 : a2.IsWhole) (a3 : Memref sig .tc .vmem S1024x1024 .f32) (h3 : a3.IsWhole)
    (a4 : Memref sig .tc .vmem S1024x1024 .f32) (h4 : a4.IsWhole)
    (x0 x1 : Vec F S1024x256 .f32) (x2 x3 : Vec F S1024x1024 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (left3_4 x0 x1 x2 x3)) -∗ K ⟨⟩))
      ⊢ wp frame (wpE (defs₀ (F := F)) Variants.none c none) E (cc3__fused_update_ep_kernel i a0 h0 a1 h1 a2 h2 a3 h3 a4 h4) K := by
  simp only [cc3__fused_update_ep_kernel_eq_skeleton]; unfold cc3__fused_update_ep_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (sqCover3 _)

/-! ## The proof data -/

/-- Core `c`'s proof data for the region: the arrays as found; after the body at point `t` each operand's buffer
    still at its block and the result's at `left3_4` of the operand blocks there; the invariant the scoped rest and
    the generator register, untouched; nothing owed. The two windows onto y each hold half of its share, the other
    windows their arrays' whole shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => left3_4 (blk3 V c 0 t) (blk3 V c 1 t) (blk3 V c 2 t) (blk3 V c 3 t)
  Φ _ := Pipeline.ΦA spec3 c
  q := fun
    | ⟨0, _⟩ => fullShare.left
    | ⟨1, _⟩ => fullShare.right
    | ⟨2, _⟩ => fullShare
    | ⟨3, _⟩ => fullShare
    | ⟨4, _⟩ => fullShare
  owed _ := 0

theorem dat3_A (c : Dev nD) (w : Fin cfg3.W) : (dat3 V c).A w = V c (Pipeline.arrRef spec3 w) := by
  dsimp only [dat3]

theorem dat3_after_0 (c : Dev nD) (t : Fin cfg3.N) : (dat3 V c).after 0 t = blk3 V c 0 t := by dsimp only [dat3]
theorem dat3_after_1 (c : Dev nD) (t : Fin cfg3.N) : (dat3 V c).after 1 t = blk3 V c 1 t := by dsimp only [dat3]
theorem dat3_after_2 (c : Dev nD) (t : Fin cfg3.N) : (dat3 V c).after 2 t = blk3 V c 2 t := by dsimp only [dat3]
theorem dat3_after_3 (c : Dev nD) (t : Fin cfg3.N) : (dat3 V c).after 3 t = blk3 V c 3 t := by dsimp only [dat3]
theorem dat3_after_4 (c : Dev nD) (t : Fin cfg3.N) :
    (dat3 V c).after 4 t = left3_4 (blk3 V c 0 t) (blk3 V c 1 t) (blk3 V c 2 t) (blk3 V c 3 t) := by dsimp only [dat3]

/-! ## An operand's buffer holds its block at every point

Row block i is fetched when i moves, every fourth point, and stays in its buffer in between; the other three
operands are fetched at every point. Either way the current buffer reads the window's block: the body leaves it in
place. -/

theorem held3_0 (c : Dev nD) (t : Fin cfg3.N) (d) : (dat3 V c).before 0 t d = blk3 V c 0 t :=
  ((dat3 V c).before_in_eq_fetched 0 rfl (fun _ => rfl) (fun _ _ _ => rfl)
    (fun t => by rw [dat3_after_0]; unfold Dat.blockOf blk3; rw [dat3_A]; try rfl) t d).trans
    (by unfold Dat.fetched Dat.blockOf blk3; rw [dat3_A]; try rfl)
theorem held3_1 (c : Dev nD) (t : Fin cfg3.N) (d) : (dat3 V c).before 1 t d = blk3 V c 1 t :=
  ((dat3 V c).before_in_eq_fetched 1 rfl (fun _ => rfl) (fun _ _ _ => rfl)
    (fun t => by rw [dat3_after_1]; unfold Dat.blockOf blk3; rw [dat3_A]; try rfl) t d).trans
    (by unfold Dat.fetched Dat.blockOf blk3; rw [dat3_A]; try rfl)
theorem held3_2 (c : Dev nD) (t : Fin cfg3.N) (d) : (dat3 V c).before 2 t d = blk3 V c 2 t :=
  ((dat3 V c).before_in_eq_fetched 2 rfl (fun _ => rfl) (fun _ _ _ => rfl)
    (fun t => by rw [dat3_after_2]; unfold Dat.blockOf blk3; rw [dat3_A]; try rfl) t d).trans
    (by unfold Dat.fetched Dat.blockOf blk3; rw [dat3_A]; try rfl)
theorem held3_3 (c : Dev nD) (t : Fin cfg3.N) (d) : (dat3 V c).before 3 t d = blk3 V c 3 t :=
  ((dat3 V c).before_in_eq_fetched 3 rfl (fun _ => rfl) (fun _ _ _ => rfl)
    (fun t => by rw [dat3_after_3]; unfold Dat.blockOf blk3; rw [dat3_A]; try rfl) t d).trans
    (by unfold Dat.fetched Dat.blockOf blk3; rw [dat3_A]; try rfl)

/-! ## The body obligation -/

/-- What the pipeline hands the body at point `t`, window by window, -/
def handed3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it takes back. -/
def returned3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- At any point the operands' buffers read their blocks, so `kernel3` applies; the invariant and what the core
    owes pass through unread. -/
theorem atPoint3 (c : Dev nD) (t : Fin cfg3.N) :
    handed3 V c t ⊢ wp frame (wpE (defs₀ (F := F)) Variants.none c none) Set.univ (bodyAt3 t) (fun _ => returned3 V c t) := by
  unfold handed3 returned3 bodyAt3
  simp only [held3_0, held3_1, held3_2, held3_3]
  rw [show (dat3 V c).Φ t.succ = (dat3 V c).Φ t.castSucc from rfl,
    show (dat3 V c).owesAt () t.succ = (dat3 V c).owesAt () t.castSucc from rfl,
    dat3_after_0, dat3_after_1, dat3_after_2, dat3_after_3, dat3_after_4]
  iintro ⟨HΦ, Ho, ⟨%d0, H0⟩, ⟨%d1, H1⟩, ⟨%d2, H2⟩, ⟨%d3, H3⟩, ⟨%d4, H4⟩⟩
  iapply (kernel3 c Set.univ _ _ _ _ _ _ _ _ _ _ _
    (blk3 V c 0 t) (blk3 V c 1 t) (blk3 V c 2 t) (blk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the region, at every point. -/
theorem body3 (c : Dev nD) : BodyObligation (dat3 (F := F) V c) (defs₀ (F := F)) Variants.none () Set.univ := fun t => by
  rw [bigSep_W3, bigSep_W3]
  exact atPoint3 V c t

end Cert.Kernel.Regs
-- ==== Proof.K.Region4.lean ====
import proofs.«169176_j23261542875327_2_alg».proof.Proof.Gen.Kernel.Launch
import proofs.«169176_j23261542875327_2_alg».proof.Proof.Gen.Kernel.Skeleton
import proofs.«169176_j23261542875327_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic

-- a whole-block rectangle's membership test walks the long axis once per coordinate
set_option maxRecDepth 65536

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 4: a later layer's fused adjacency products

A row tile of 128 rows. The body forms `A = adj ⊙ EP + mea` on the tile (windows 0, 1, 2, 128x4096 each; `⊙` the
entrywise product) and multiplies it into the two resident 4096x256 operands: `oy = bf16(A) · y` (window 3, bf16,
into window 5) and `oz = A · z` at full precision (window 4, into window 6), each product into a zero
accumulator. -/

/-- Window `w`'s block at grid point `t`, cut out of its array as the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The whole-block rectangles the body reads and writes through -/

/-- all of a 128x4096 row tile -/
abbrev tileR4 : Rect S128x4096 := Rect.unit (s := S128x4096) ![0, 0] S128x4096.size inb_S128x4096_S128x4096_0_0
/-- all of a 4096x256 right operand -/
abbrev rhsR4 : Rect S4096x256 := Rect.unit (s := S4096x256) ![0, 0] S4096x256.size inb_S4096x256_S4096x256_0_0
/-- all of a 128x256 product tile -/
abbrev prodR4 : Rect S128x256 := Rect.unit (s := S128x256) ![0, 0] S128x256.size inb_S128x256_S128x256_0_0

/-! ## What the body leaves in the two product buffers -/

/-- Window 5 after the body: the single whole-tile store of `bf16(adj ⊙ EP + mea) · y`. -/
def left4_5 (x0 x1 x2 : Vec F S128x4096 .f32) (x3 : Vec F S4096x256 .bf16) : Vec F S128x256 .f32 :=
  View.canon [⟨prodR4, k4_pay2 (View.ld x0 tileR4) (View.ld x1 tileR4) (View.ld x2 tileR4) (View.ld x3 rhsR4)⟩]

/-- Window 6 after the body: the single whole-tile store of `(adj ⊙ EP + mea) · z`. -/
def left4_6 (x0 x1 x2 : Vec F S128x4096 .f32) (x4 : Vec F S4096x256 .f32) : Vec F S128x256 .f32 :=
  View.canon [⟨prodR4, k4_pay3 (View.ld x0 tileR4) (View.ld x1 tileR4) (View.ld x2 tileR4) (View.ld x4 rhsR4)⟩]

/-- One whole-tile store covers the product tile. -/
theorem prodCover4 (p : Vec F S128x256 .f32) (y : S128x256.Idx) :
    ∃ pc ∈ ([⟨prodR4, p⟩] : List (View.Piece (Elt F) S128x256 .f32)), y ∈ pc.1.set :=
  View.cover_of_tiled [⟨prodR4, p⟩] S128x256.size (by rfl) y

/-! ## The body on whole staging buffers -/

set_option maxHeartbeats 4000000 in
/-- Run on seven whole staging buffers, the five operands' reading `x0 … x4` and the two products' holding anything,
    the body returns with the operands as they were and the products at `left4_5`, `left4_6` of them. -/
theorem kernel4 (c : Dev nD) (E : Set ℕ) (i : grid4.Coords)
    (a0 : Memref sig .tc .vmem S128x4096 .f32) (h0 : a0.IsWhole) (a1 : Memref sig .tc .vmem S128x4096 .f32) (h1 : a1.IsWhole)
    (a2 : Memref sig .tc .vmem S128x4096 .f32) (h2 : a2.IsWhole)
    (a3 : Memref sig .tc .vmem S4096x256 .bf16) (h3 : a3.IsWhole) (a4 : Memref sig .tc .vmem S4096x256 .f32) (h4 : a4.IsWhole)
    (a5 : Memref sig .tc .vmem S128x256 .f32) (h5 : a5.IsWhole) (a6 : Memref sig .tc .vmem S128x256 .f32) (h6 : a6.IsWhole)
    (x0 x1 x2 : Vec F S128x4096 .f32) (x3 : Vec F S4096x256 .bf16) (x4 : Vec F S4096x256 .f32) (K : PUnit → sProp 𝕄) :
    iprop(owns (c : Thread nD τ) a0 fullShare x0 ∗ owns (c : Thread nD τ) a1 fullShare x1
        ∗ owns (c : Thread nD τ) a2 fullShare x2
        ∗ owns (c : Thread nD τ) a3 fullShare x3 ∗ owns (c : Thread nD τ) a4 fullShare x4
        ∗ (∃ d, owns (c : Thread nD τ) a5 fullShare d) ∗ (∃ d, owns (c : Thread nD τ) a6 fullShare d)
        ∗ (iprop(owns (c : Thread nD τ) a0 fullShare x0 ∗ owns (c : Thread nD τ) a1 fullShare x1
            ∗ owns (c : Thread nD τ) a2 fullShare x2
            ∗ owns (c : Thread nD τ) a3 fullShare x3 ∗ owns (c : Thread nD τ) a4 fullShare x4
            ∗ owns (c : Thread nD τ) a5 fullShare (left4_5 x0 x1 x2 x3)
            ∗ owns (c : Thread nD τ) a6 fullShare (left4_6 x0 x1 x2 x4)) -∗ K ⟨⟩))
      ⊢ wp frame (wpE (defs₀ (F := F)) Variants.none c none) E (cc4__fused_a_kernel i a0 h0 a1 h1 a2 h2 a3 h3 a4 h4 a5 h5 a6 h6) K := by
  simp only [cc4__fused_a_kernel_eq_skeleton]; unfold cc4__fused_a_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (prodCover4 _)
  iexists _; isplitr
  swap; · iexact H6
  ipureintro
  exact View.read_writes_eq_canon _ _ _ (prodCover4 _)

/-! ## The proof data -/

/-- Core `c`'s proof data for the region: the arrays as found; after the body at point `t` each operand's buffer
    still at its block, each product's at `left4_w` of the operand blocks there; the invariant the scoped rest and
    the generator register, untouched; nothing owed; whole shares. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => left4_5 (blk4 V c 0 t) (blk4 V c 1 t) (blk4 V c 2 t) (blk4 V c 3 t)
    | ⟨6, _⟩ => left4_6 (blk4 V c 0 t) (blk4 V c 1 t) (blk4 V c 2 t) (blk4 V c 4 t)
  Φ _ := Pipeline.ΦA spec4 c
  q _ := fullShare
  owed _ := 0

theorem dat4_A (c : Dev nD) (w : Fin cfg4.W) : (dat4 V c).A w = V c (Pipeline.arrRef spec4 w) := by
  dsimp only [dat4]

theorem dat4_after_0 (c : Dev nD) (t : Fin cfg4.N) : (dat4 V c).after 0 t = blk4 V c 0 t := by dsimp only [dat4]
theorem dat4_after_1 (c : Dev nD) (t : Fin cfg4.N) : (dat4 V c).after 1 t = blk4 V c 1 t := by dsimp only [dat4]
theorem dat4_after_2 (c : Dev nD) (t : Fin cfg4.N) : (dat4 V c).after 2 t = blk4 V c 2 t := by dsimp only [dat4]
theorem dat4_after_3 (c : Dev nD) (t : Fin cfg4.N) : (dat4 V c).after 3 t = blk4 V c 3 t := by dsimp only [dat4]
theorem dat4_after_4 (c : Dev nD) (t : Fin cfg4.N) : (dat4 V c).after 4 t = blk4 V c 4 t := by dsimp only [dat4]
theorem dat4_after_5 (c : Dev nD) (t : Fin cfg4.N) :
    (dat4 V c).after 5 t = left4_5 (blk4 V c 0 t) (blk4 V c 1 t) (blk4 V c 2 t) (blk4 V c 3 t) := by dsimp only [dat4]
theorem dat4_after_6 (c : Dev nD) (t : Fin cfg4.N) :
    (dat4 V c).after 6 t = left4_6 (blk4 V c 0 t) (blk4 V c 1 t) (blk4 V c 2 t) (blk4 V c 4 t) := by dsimp only [dat4]

/-! ## An operand's buffer holds its block at every point

The three row tiles are fetched at every point; the two right operands are fetched at the first point only and
their block index never moves. Either way the current buffer reads the window's block: the body leaves it in place. -/

theorem held4_0 (c : Dev nD) (t : Fin cfg4.N) (d) : (dat4 V c).before 0 t d = blk4 V c 0 t :=
  ((dat4 V c).before_in_eq_fetched 0 rfl (fun _ => rfl) (fun _ _ _ => rfl)
    (fun t => by rw [dat4_after_0]; unfold Dat.blockOf blk4; rw [dat4_A]; try rfl) t d).trans
    (by unfold Dat.fetched Dat.blockOf blk4; rw [dat4_A]; try rfl)
theorem held4_1 (c : Dev nD) (t : Fin cfg4.N) (d) : (dat4 V c).before 1 t d = blk4 V c 1 t :=
  ((dat4 V c).before_in_eq_fetched 1 rfl (fun _ => rfl) (fun _ _ _ => rfl)
    (fun t => by rw [dat4_after_1]; unfold Dat.blockOf blk4; rw [dat4_A]; try rfl) t d).trans
    (by unfold Dat.fetched Dat.blockOf blk4; rw [dat4_A]; try rfl)
theorem held4_2 (c : Dev nD) (t : Fin cfg4.N) (d) : (dat4 V c).before 2 t d = blk4 V c 2 t :=
  ((dat4 V c).before_in_eq_fetched 2 rfl (fun _ => rfl) (fun _ _ _ => rfl)
    (fun t => by rw [dat4_after_2]; unfold Dat.blockOf blk4; rw [dat4_A]; try rfl) t d).trans
    (by unfold Dat.fetched Dat.blockOf blk4; rw [dat4_A]; try rfl)
theorem held4_3 (c : Dev nD) (t : Fin cfg4.N) (d) : (dat4 V c).before 3 t d = blk4 V c 3 t :=
  ((dat4 V c).before_in_eq_fetched 3 rfl (fun _ => rfl) (fun _ _ _ => rfl)
    (fun t => by rw [dat4_after_3]; unfold Dat.blockOf blk4; rw [dat4_A]; try rfl) t d).trans
    (by unfold Dat.fetched Dat.blockOf blk4; rw [dat4_A]; try rfl)
theorem held4_4 (c : Dev nD) (t : Fin cfg4.N) (d) : (dat4 V c).before 4 t d = blk4 V c 4 t :=
  ((dat4 V c).before_in_eq_fetched 4 rfl (fun _ => rfl) (fun _ _ _ => rfl)
    (fun t => by rw [dat4_after_4]; unfold Dat.blockOf blk4; rw [dat4_A]; try rfl) t d).trans
    (by unfold Dat.fetched Dat.blockOf blk4; rw [dat4_A]; try rfl)

/-! ## The body obligation -/

/-- What the pipeline hands the body at point `t`, window by window, -/
def handed4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it takes back. -/
def returned4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- At any point the operands' buffers read their blocks, so `kernel4` applies; the invariant and what the core
    owes pass through unread. -/
theorem atPoint4 (c : Dev nD) (t : Fin cfg4.N) :
    handed4 V c t ⊢ wp frame (wpE (defs₀ (F := F)) Variants.none c none) Set.univ (bodyAt4 t) (fun _ => returned4 V c t) := by
  unfold handed4 returned4 bodyAt4
  simp only [held4_0, held4_1, held4_2, held4_3, held4_4]
  rw [show (dat4 V c).Φ t.succ = (dat4 V c).Φ t.castSucc from rfl,
    show (dat4 V c).owesAt () t.succ = (dat4 V c).owesAt () t.castSucc from rfl,
    dat4_after_0, dat4_after_1, dat4_after_2, dat4_after_3, dat4_after_4, dat4_after_5, dat4_after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel4 c Set.univ _ _ _ _ _ _ _ _ _ _ _ _ _ _ _
    (blk4 V c 0 t) (blk4 V c 1 t) (blk4 V c 2 t) (blk4 V c 3 t) (blk4 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the region, at every point. -/
theorem body4 (c : Dev nD) : BodyObligation (dat4 (F := F) V c) (defs₀ (F := F)) Variants.none () Set.univ := fun t => by
  rw [bigSep_W4, bigSep_W4]
  exact atPoint4 V c t

end Cert.Kernel.Regs
-- ==== Proof.K.Region5.lean ====
/- Region 5 of @main, body side.

   A tall product with the left factor transposed,  out = Aᵀ · B , computed in eight row tiles of the result. Window 0
   is the matrix A (4096 x 4096, f32) cut into eight 4096 x 512 column strips; window 1 is the right matrix B
   (4096 x 256, f32), one block that is the whole array and therefore stays in its buffer from the first grid point on;
   window 2 is the result (4096 x 256, f32) in eight 512 x 256 row tiles. At a grid point the body reads the strip and
   B whole, rounds both to bf16, and writes the output tile whole:   out_tile = bf16(A_strip)ᵀ · bf16(B) ,  the sum
   running over the 4096 rows the strip and B share, in f32 from zero.
   Nothing is carried from one grid point to the next, so what the body leaves in the output tile is a function of
   the two input blocks at that point alone. -/
import proofs.«169176_j23261542875327_2_alg».proof.Proof.Gen.Kernel.Launch
import proofs.«169176_j23261542875327_2_alg».proof.Proof.Gen.Kernel.Skeleton
import proofs.«169176_j23261542875327_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks -/

/-- Window `w`'s block at grid point `t`, cut out of its array as the region finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Each of the three blocks as a rectangle of itself: the body loads and stores whole blocks only. -/
abbrev lhs5 : Rect S4096x512 := Rect.unit (s := S4096x512) ![0, 0] S4096x512.size inb_S4096x512_S4096x512_0_0
abbrev rhs5 : Rect S4096x256 := Rect.unit (s := S4096x256) ![0, 0] S4096x256.size inb_S4096x256_S4096x256_0_0
abbrev res5 : Rect S512x256 := Rect.unit (s := S512x256) ![0, 0] S512x256.size inb_S512x256_S512x256_0_0

/-- The output tile after the body: one whole-tile store of the product of the transposed strip `a` with `b`, both rounded to bf16, summed over their common 4096 rows from zero. -/
def left5_2 (a : Vec F S4096x512 .f32) (b : Vec F S4096x256 .f32) : Vec F S512x256 .f32 :=
  View.canon [⟨res5, k5_pay1 (View.ld a lhs5) (View.ld b rhs5)⟩]

/-- One whole-tile store fills the tile, whatever is stored. -/
theorem fills5_2 (p : Vec F S512x256 .f32) (y : S512x256.Idx) :
    ∃ pc ∈ ([⟨res5, p⟩] : List (View.Piece (Elt F) S512x256 .f32)), y ∈ pc.1.set :=
  View.cover_of_tiled [⟨res5, p⟩] S512x256.size (by rfl) y

/-! ## The body on three whole blocks -/

set_option maxHeartbeats 1000000 in
/-- On whole block buffers — the inputs reading `a` and `b`, the output holding anything — the body ends with the
    inputs as they were and the output reading `left5_2 a b`. (It also loads the output tile before overwriting it;
    the loaded value is not used.) -/
theorem run5 (c : Dev nD) (E : Set ℕ) (i : grid5.Coords)
    (a0 : Memref sig .tc .vmem S4096x512 .f32) (h0 : a0.IsWhole) (a1 : Memref sig .tc .vmem S4096x256 .f32) (h1 : a1.IsWhole)
    (a2 : Memref sig .tc .vmem S512x256 .f32) (h2 : a2.IsWhole)
    (a : Vec F S4096x512 .f32) (b : Vec F S4096x256 .f32) (K : PUnit → sProp 𝕄) :
    iprop(owns (c : Thread nD τ) a0 fullShare a ∗ owns (c : Thread nD τ) a1 fullShare b ∗ (∃ d, owns (c : Thread nD τ) a2 fullShare d)
        ∗ (iprop(owns (c : Thread nD τ) a0 fullShare a ∗ owns (c : Thread nD τ) a1 fullShare b
            ∗ owns (c : Thread nD τ) a2 fullShare (left5_2 a b)) -∗ K ⟨⟩))
      ⊢ wp frame (wpE (defs₀ (F := F)) Variants.none c none) E (cc5__matmul_tall_kernel i a0 h0 a1 h1 a2 h2) K := by
  simp only [cc5__matmul_tall_kernel_eq_skeleton]; unfold cc5__matmul_tall_kernel_skel
  unfold owns
  iintro ⟨⟨%f0, %e0, H0⟩, ⟨%f1, %e1, H1⟩, ⟨%d2, %f2, -, H2⟩, Hk⟩
  subst e0; subst e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fills5_2 _)

/-! ## The proof data -/

/-- Pipeline 5's proof data on core `c`: the arrays as the region finds them; after the body at point `t` the input
    buffers still at their blocks and the output buffer at `left5_2` of the two input blocks; the invariant that of a
    body keeping nothing between points; nothing owed; full shares. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => left5_2 (blk5 V c 0 t) (blk5 V c 1 t)
  Φ _ := Pipeline.ΦA spec5 c
  q _ := fullShare
  owed _ := 0

theorem dat5_A (c : Dev nD) (w : Fin cfg5.W) : (dat5 V c).A w = V c (Pipeline.arrRef spec5 w) := by
  dsimp only [dat5]
theorem dat5_after_0 (c : Dev nD) (t : Fin cfg5.N) : (dat5 V c).after 0 t = blk5 V c 0 t := by dsimp only [dat5]
theorem dat5_after_1 (c : Dev nD) (t : Fin cfg5.N) : (dat5 V c).after 1 t = blk5 V c 1 t := by dsimp only [dat5]
theorem dat5_after_2 (c : Dev nD) (t : Fin cfg5.N) :
    (dat5 V c).after 2 t = left5_2 (blk5 V c 0 t) (blk5 V c 1 t) := by dsimp only [dat5]

/-! ## What the body finds in the input buffers -/

/-- The left factor's buffer holds its column strip of the left matrix at every point: the body leaves it in place, and it is fetched
    afresh at every point. -/
theorem finds5_0 (c : Dev nD) (t : Fin cfg5.N) (d) : (dat5 V c).before 0 t d = blk5 V c 0 t :=
  ((dat5 V c).before_in_eq_fetched 0 rfl (fun _ => rfl) (fun _ _ _ => rfl)
      (fun t => by rw [dat5_after_0]; unfold Dat.blockOf blk5; rw [dat5_A]; try rfl) t d).trans
    (by unfold Dat.fetched Dat.blockOf blk5; rw [dat5_A]; try rfl)

/-- The right factor's buffer holds the whole right matrix at every point: fetched at the first point only, its block
    index never moves afterwards and the body leaves it in place. -/
theorem finds5_1 (c : Dev nD) (t : Fin cfg5.N) (d) : (dat5 V c).before 1 t d = blk5 V c 1 t :=
  ((dat5 V c).before_in_eq_fetched 1 rfl (fun _ => rfl) (fun _ _ _ => rfl)
      (fun t => by rw [dat5_after_1]; unfold Dat.blockOf blk5; rw [dat5_A]; try rfl) t d).trans
    (by unfold Dat.fetched Dat.blockOf blk5; rw [dat5_A]; try rfl)

/-! ## The obligation at a grid point -/

/-- At any point: the input buffers hold their blocks (`finds5_0`, `finds5_1`), so `run5` applies to the three
    current buffers; the invariant and what the core owes are not touched. -/
theorem body5 (c : Dev nD) : BodyObligation (dat5 (F := F) V c) (defs₀ (F := F)) Variants.none () Set.univ := fun t => by
  rw [bigSep_W5, bigSep_W5]
  show iprop((dat5 V c).Φ t.castSucc ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d)))
    ⊢ wp frame (wpE (defs₀ (F := F)) Variants.none c none) Set.univ (bodyAt5 t) (fun _ =>
      iprop((dat5 V c).Φ t.castSucc ∗ (dat5 V c).owesAt () t.castSucc
        ∗ owns (c : Thread nD τ) (st5_0 t) fullShare ((dat5 V c).after 0 t)
        ∗ owns (c : Thread nD τ) (st5_1 t) fullShare ((dat5 V c).after 1 t)
        ∗ owns (c : Thread nD τ) (st5_2 t) fullShare ((dat5 V c).after 2 t)))
  simp only [finds5_0, finds5_1]
  rw [dat5_after_0, dat5_after_1, dat5_after_2]
  unfold bodyAt5
  iintro ⟨HΦ, Ho, ⟨%d0, H0⟩, ⟨%d1, H1⟩, ⟨%d2, H2⟩⟩
  iapply (run5 c Set.univ _ _ _ _ _ _ _ (blk5 V c 0 t) (blk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Regs
-- ==== Proof.K.Region6.lean ====
/- Region 6 of @main, body side.

   A tall product  out = A · B  computed in eight row tiles. Window 0 is the left matrix A (4096 x 4096, already in
   bf16) cut into eight 512 x 4096 row tiles; window 1 is the right matrix B (4096 x 256, f32), one block that is the
   whole array and therefore stays in its buffer from the first grid point on; window 2 is the result (4096 x 256, f32)
   in eight 512 x 256 row tiles. At a grid point the body reads the row tile and B whole, rounds B to bf16, and writes
   the output tile whole:   out_tile = A_tile · bf16(B) ,  the products summed in f32 from zero.
   Nothing is carried from one grid point to the next, so what the body leaves in the output tile is a function of
   the two input blocks at that point alone. -/
import proofs.«169176_j23261542875327_2_alg».proof.Proof.Gen.Kernel.Launch
import proofs.«169176_j23261542875327_2_alg».proof.Proof.Gen.Kernel.Skeleton
import proofs.«169176_j23261542875327_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks -/

/-- Window `w`'s block at grid point `t`, cut out of its array as the region finds it. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Each of the three blocks as a rectangle of itself: the body loads and stores whole blocks only. -/
abbrev lhs6 : Rect S512x4096 := Rect.unit (s := S512x4096) ![0, 0] S512x4096.size inb_S512x4096_S512x4096_0_0
abbrev rhs6 : Rect S4096x256 := Rect.unit (s := S4096x256) ![0, 0] S4096x256.size inb_S4096x256_S4096x256_0_0
abbrev res6 : Rect S512x256 := Rect.unit (s := S512x256) ![0, 0] S512x256.size inb_S512x256_S512x256_0_0

/-- The output tile after the body: one whole-tile store of the product of the row tile `a` with `b` rounded to bf16, summed from zero. -/
def left6_2 (a : Vec F S512x4096 .bf16) (b : Vec F S4096x256 .f32) : Vec F S512x256 .f32 :=
  View.canon [⟨res6, k6_pay1 (View.ld a lhs6) (View.ld b rhs6)⟩]

/-- One whole-tile store fills the tile, whatever is stored. -/
theorem fills6_2 (p : Vec F S512x256 .f32) (y : S512x256.Idx) :
    ∃ pc ∈ ([⟨res6, p⟩] : List (View.Piece (Elt F) S512x256 .f32)), y ∈ pc.1.set :=
  View.cover_of_tiled [⟨res6, p⟩] S512x256.size (by rfl) y

/-! ## The body on three whole blocks -/

set_option maxHeartbeats 1000000 in
/-- On whole block buffers — the inputs reading `a` and `b`, the output holding anything — the body ends with the
    inputs as they were and the output reading `left6_2 a b`. (It also loads the output tile before overwriting it;
    the loaded value is not used.) -/
theorem run6 (c : Dev nD) (E : Set ℕ) (i : grid6.Coords)
    (a0 : Memref sig .tc .vmem S512x4096 .bf16) (h0 : a0.IsWhole) (a1 : Memref sig .tc .vmem S4096x256 .f32) (h1 : a1.IsWhole)
    (a2 : Memref sig .tc .vmem S512x256 .f32) (h2 : a2.IsWhole)
    (a : Vec F S512x4096 .bf16) (b : Vec F S4096x256 .f32) (K : PUnit → sProp 𝕄) :
    iprop(owns (c : Thread nD τ) a0 fullShare a ∗ owns (c : Thread nD τ) a1 fullShare b ∗ (∃ d, owns (c : Thread nD τ) a2 fullShare d)
        ∗ (iprop(owns (c : Thread nD τ) a0 fullShare a ∗ owns (c : Thread nD τ) a1 fullShare b
            ∗ owns (c : Thread nD τ) a2 fullShare (left6_2 a b)) -∗ K ⟨⟩))
      ⊢ wp frame (wpE (defs₀ (F := F)) Variants.none c none) E (cc6__matmul_tall_kernel i a0 h0 a1 h1 a2 h2) K := by
  simp only [cc6__matmul_tall_kernel_eq_skeleton]; unfold cc6__matmul_tall_kernel_skel
  unfold owns
  iintro ⟨⟨%f0, %e0, H0⟩, ⟨%f1, %e1, H1⟩, ⟨%d2, %f2, -, H2⟩, Hk⟩
  subst e0; subst e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fills6_2 _)

/-! ## The proof data -/

/-- Pipeline 6's proof data on core `c`: the arrays as the region finds them; after the body at point `t` the input
    buffers still at their blocks and the output buffer at `left6_2` of the two input blocks; the invariant that of a
    body keeping nothing between points; nothing owed; full shares. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => left6_2 (blk6 V c 0 t) (blk6 V c 1 t)
  Φ _ := Pipeline.ΦA spec6 c
  q _ := fullShare
  owed _ := 0

theorem dat6_A (c : Dev nD) (w : Fin cfg6.W) : (dat6 V c).A w = V c (Pipeline.arrRef spec6 w) := by
  dsimp only [dat6]
theorem dat6_after_0 (c : Dev nD) (t : Fin cfg6.N) : (dat6 V c).after 0 t = blk6 V c 0 t := by dsimp only [dat6]
theorem dat6_after_1 (c : Dev nD) (t : Fin cfg6.N) : (dat6 V c).after 1 t = blk6 V c 1 t := by dsimp only [dat6]
theorem dat6_after_2 (c : Dev nD) (t : Fin cfg6.N) :
    (dat6 V c).after 2 t = left6_2 (blk6 V c 0 t) (blk6 V c 1 t) := by dsimp only [dat6]

/-! ## What the body finds in the input buffers -/

/-- The left factor's buffer holds its row tile of the left matrix at every point: the body leaves it in place, and it is fetched
    afresh at every point. -/
theorem finds6_0 (c : Dev nD) (t : Fin cfg6.N) (d) : (dat6 V c).before 0 t d = blk6 V c 0 t :=
  ((dat6 V c).before_in_eq_fetched 0 rfl (fun _ => rfl) (fun _ _ _ => rfl)
      (fun t => by rw [dat6_after_0]; unfold Dat.blockOf blk6; rw [dat6_A]; try rfl) t d).trans
    (by unfold Dat.fetched Dat.blockOf blk6; rw [dat6_A]; try rfl)

/-- The right factor's buffer holds the whole right matrix at every point: fetched at the first point only, its block
    index never moves afterwards and the body leaves it in place. -/
theorem finds6_1 (c : Dev nD) (t : Fin cfg6.N) (d) : (dat6 V c).before 1 t d = blk6 V c 1 t :=
  ((dat6 V c).before_in_eq_fetched 1 rfl (fun _ => rfl) (fun _ _ _ => rfl)
      (fun t => by rw [dat6_after_1]; unfold Dat.blockOf blk6; rw [dat6_A]; try rfl) t d).trans
    (by unfold Dat.fetched Dat.blockOf blk6; rw [dat6_A]; try rfl)

/-! ## The obligation at a grid point -/

/-- At any point: the input buffers hold their blocks (`finds6_0`, `finds6_1`), so `run6` applies to the three
    current buffers; the invariant and what the core owes are not touched. -/
theorem body6 (c : Dev nD) : BodyObligation (dat6 (F := F) V c) (defs₀ (F := F)) Variants.none () Set.univ := fun t => by
  rw [bigSep_W6, bigSep_W6]
  show iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d)))
    ⊢ wp frame (wpE (defs₀ (F := F)) Variants.none c none) Set.univ (bodyAt6 t) (fun _ =>
      iprop((dat6 V c).Φ t.castSucc ∗ (dat6 V c).owesAt () t.castSucc
        ∗ owns (c : Thread nD τ) (st6_0 t) fullShare ((dat6 V c).after 0 t)
        ∗ owns (c : Thread nD τ) (st6_1 t) fullShare ((dat6 V c).after 1 t)
        ∗ owns (c : Thread nD τ) (st6_2 t) fullShare ((dat6 V c).after 2 t)))
  simp only [finds6_0, finds6_1]
  rw [dat6_after_0, dat6_after_1, dat6_after_2]
  unfold bodyAt6
  iintro ⟨HΦ, Ho, ⟨%d0, H0⟩, ⟨%d1, H1⟩, ⟨%d2, H2⟩⟩
  iapply (run6 c Set.univ _ _ _ _ _ _ _ (blk6 V c 0 t) (blk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Regs
-- ==== Proof.K.Region7.lean ====
import proofs.«169176_j23261542875327_2_alg».proof.Proof.Gen.Kernel.Launch
import proofs.«169176_j23261542875327_2_alg».proof.Proof.Gen.Kernel.Skeleton
import proofs.«169176_j23261542875327_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic

-- a whole-block rectangle's membership test walks the long axis once per coordinate
set_option maxRecDepth 65536

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 7: the edge-potential update on a 1024x1024 tile

At tile (i, j) of a 4x4 grid the body forms `EP = bf16(yᵢ) · bf16(yⱼ)ᵀ − mea − ½ M`: windows 0 and 1 are the
1024x256 row blocks i and j of ONE array y, windows 2 and 3 the tiles of mea and of M, window 4 the tile of EP;
the product goes into a zero accumulator. Row block i only moves every fourth point. -/

/-- Window `w`'s block at grid point `t`, cut out of its array as the region finds it. -/
def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The whole-block rectangles the body reads and writes through -/

/-- all of a 1024x256 row block of y -/
abbrev rowsR7 : Rect S1024x256 := Rect.unit (s := S1024x256) ![0, 0] S1024x256.size inb_S1024x256_S1024x256_0_0
/-- all of a 1024x1024 tile -/
abbrev sqR7 : Rect S1024x1024 := Rect.unit (s := S1024x1024) ![0, 0] S1024x1024.size inb_S1024x1024_S1024x1024_0_0

/-! ## What the body leaves in the EP tile's buffer -/

/-- Window 4 after the body: the single whole-tile store of `bf16(yᵢ) · bf16(yⱼ)ᵀ − mea − ½ M`. -/
def left7_4 (x0 x1 : Vec F S1024x256 .f32) (x2 x3 : Vec F S1024x1024 .f32) : Vec F S1024x1024 .f32 :=
  View.canon [⟨sqR7, k7_pay1 (View.ld x0 rowsR7) (View.ld x1 rowsR7) (View.ld x2 sqR7) (View.ld x3 sqR7)⟩]

/-- One whole-tile store covers the tile. -/
theorem sqCover7 (p : Vec F S1024x1024 .f32) (y : S1024x1024.Idx) :
    ∃ pc ∈ ([⟨sqR7, p⟩] : List (View.Piece (Elt F) S1024x1024 .f32)), y ∈ pc.1.set :=
  View.cover_of_tiled [⟨sqR7, p⟩] S1024x1024.size (by rfl) y

/-! ## The body on whole staging buffers -/

set_option maxHeartbeats 4000000 in
/-- Run on five whole staging buffers, the four operands' reading `x0 … x3` and the result's holding anything, the
    body returns with the operands as they were and the result at `left7_4` of them. -/
theorem kernel7 (c : Dev nD) (E : Set ℕ) (i : grid7.Coords)
    (a0 : Memref sig .tc .vmem S1024x256 .f32) (h0 : a0.IsWhole) (a1 : Memref sig .tc .vmem S1024x256 .f32) (h1 : a1.IsWhole)
    (a2 : Memref sig .tc .vmem S1024x1024 .f32) (h2 : a2.IsWhole) (a3 : Memref sig .tc .vmem S1024x1024 .f32) (h3 : a3.IsWhole)
    (a4 : Memref sig .tc .vmem S1024x1024 .f32) (h4 : a4.IsWhole)
    (x0 x1 : Vec F S1024x256 .f32) (x2 x3 : Vec F S1024x1024 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (left7_4 x0 x1 x2 x3)) -∗ K ⟨⟩))
      ⊢ wp frame (wpE (defs₀ (F := F)) Variants.none c none) E (cc7__fused_update_ep_kernel i a0 h0 a1 h1 a2 h2 a3 h3 a4 h4) K := by
  simp only [cc7__fused_update_ep_kernel_eq_skeleton]; unfold cc7__fused_update_ep_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (sqCover7 _)

/-! ## The proof data -/

/-- Core `c`'s proof data for the region: the arrays as found; after the body at point `t` each operand's buffer
    still at its block and the result's at `left7_4` of the operand blocks there; the invariant the scoped rest and
    the generator register, untouched; nothing owed. The two windows onto y each hold half of its share, the other
    windows their arrays' whole shares. -/
def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => blk7 V c 3 t
    | ⟨4, _⟩ => left7_4 (blk7 V c 0 t) (blk7 V c 1 t) (blk7 V c 2 t) (blk7 V c 3 t)
  Φ _ := Pipeline.ΦA spec7 c
  q := fun
    | ⟨0, _⟩ => fullShare.left
    | ⟨1, _⟩ => fullShare.right
    | ⟨2, _⟩ => fullShare
    | ⟨3, _⟩ => fullShare
    | ⟨4, _⟩ => fullShare
  owed _ := 0

theorem dat7_A (c : Dev nD) (w : Fin cfg7.W) : (dat7 V c).A w = V c (Pipeline.arrRef spec7 w) := by
  dsimp only [dat7]

theorem dat7_after_0 (c : Dev nD) (t : Fin cfg7.N) : (dat7 V c).after 0 t = blk7 V c 0 t := by dsimp only [dat7]
theorem dat7_after_1 (c : Dev nD) (t : Fin cfg7.N) : (dat7 V c).after 1 t = blk7 V c 1 t := by dsimp only [dat7]
theorem dat7_after_2 (c : Dev nD) (t : Fin cfg7.N) : (dat7 V c).after 2 t = blk7 V c 2 t := by dsimp only [dat7]
theorem dat7_after_3 (c : Dev nD) (t : Fin cfg7.N) : (dat7 V c).after 3 t = blk7 V c 3 t := by dsimp only [dat7]
theorem dat7_after_4 (c : Dev nD) (t : Fin cfg7.N) :
    (dat7 V c).after 4 t = left7_4 (blk7 V c 0 t) (blk7 V c 1 t) (blk7 V c 2 t) (blk7 V c 3 t) := by dsimp only [dat7]

/-! ## An operand's buffer holds its block at every point

Row block i is fetched when i moves, every fourth point, and stays in its buffer in between; the other three
operands are fetched at every point. Either way the current buffer reads the window's block: the body leaves it in
place. -/

theorem held7_0 (c : Dev nD) (t : Fin cfg7.N) (d) : (dat7 V c).before 0 t d = blk7 V c 0 t :=
  ((dat7 V c).before_in_eq_fetched 0 rfl (fun _ => rfl) (fun _ _ _ => rfl)
    (fun t => by rw [dat7_after_0]; unfold Dat.blockOf blk7; rw [dat7_A]; try rfl) t d).trans
    (by unfold Dat.fetched Dat.blockOf blk7; rw [dat7_A]; try rfl)
theorem held7_1 (c : Dev nD) (t : Fin cfg7.N) (d) : (dat7 V c).before 1 t d = blk7 V c 1 t :=
  ((dat7 V c).before_in_eq_fetched 1 rfl (fun _ => rfl) (fun _ _ _ => rfl)
    (fun t => by rw [dat7_after_1]; unfold Dat.blockOf blk7; rw [dat7_A]; try rfl) t d).trans
    (by unfold Dat.fetched Dat.blockOf blk7; rw [dat7_A]; try rfl)
theorem held7_2 (c : Dev nD) (t : Fin cfg7.N) (d) : (dat7 V c).before 2 t d = blk7 V c 2 t :=
  ((dat7 V c).before_in_eq_fetched 2 rfl (fun _ => rfl) (fun _ _ _ => rfl)
    (fun t => by rw [dat7_after_2]; unfold Dat.blockOf blk7; rw [dat7_A]; try rfl) t d).trans
    (by unfold Dat.fetched Dat.blockOf blk7; rw [dat7_A]; try rfl)
theorem held7_3 (c : Dev nD) (t : Fin cfg7.N) (d) : (dat7 V c).before 3 t d = blk7 V c 3 t :=
  ((dat7 V c).before_in_eq_fetched 3 rfl (fun _ => rfl) (fun _ _ _ => rfl)
    (fun t => by rw [dat7_after_3]; unfold Dat.blockOf blk7; rw [dat7_A]; try rfl) t d).trans
    (by unfold Dat.fetched Dat.blockOf blk7; rw [dat7_A]; try rfl)

/-! ## The body obligation -/

/-- What the pipeline hands the body at point `t`, window by window, -/
def handed7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it takes back. -/
def returned7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- At any point the operands' buffers read their blocks, so `kernel7` applies; the invariant and what the core
    owes pass through unread. -/
theorem atPoint7 (c : Dev nD) (t : Fin cfg7.N) :
    handed7 V c t ⊢ wp frame (wpE (defs₀ (F := F)) Variants.none c none) Set.univ (bodyAt7 t) (fun _ => returned7 V c t) := by
  unfold handed7 returned7 bodyAt7
  simp only [held7_0, held7_1, held7_2, held7_3]
  rw [show (dat7 V c).Φ t.succ = (dat7 V c).Φ t.castSucc from rfl,
    show (dat7 V c).owesAt () t.succ = (dat7 V c).owesAt () t.castSucc from rfl,
    dat7_after_0, dat7_after_1, dat7_after_2, dat7_after_3, dat7_after_4]
  iintro ⟨HΦ, Ho, ⟨%d0, H0⟩, ⟨%d1, H1⟩, ⟨%d2, H2⟩, ⟨%d3, H3⟩, ⟨%d4, H4⟩⟩
  iapply (kernel7 c Set.univ _ _ _ _ _ _ _ _ _ _ _
    (blk7 V c 0 t) (blk7 V c 1 t) (blk7 V c 2 t) (blk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the region, at every point. -/
theorem body7 (c : Dev nD) : BodyObligation (dat7 (F := F) V c) (defs₀ (F := F)) Variants.none () Set.univ := fun t => by
  rw [bigSep_W7, bigSep_W7]
  exact atPoint7 V c t

end Cert.Kernel.Regs
-- ==== Proof.K.Region8.lean ====
import proofs.«169176_j23261542875327_2_alg».proof.Proof.Gen.Kernel.Launch
import proofs.«169176_j23261542875327_2_alg».proof.Proof.Gen.Kernel.Skeleton
import proofs.«169176_j23261542875327_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic

-- a whole-block rectangle's membership test walks the long axis once per coordinate
set_option maxRecDepth 65536

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 8: a later layer's fused adjacency products

A row tile of 128 rows. The body forms `A = adj ⊙ EP + mea` on the tile (windows 0, 1, 2, 128x4096 each; `⊙` the
entrywise product) and multiplies it into the two resident 4096x256 operands: `oy = bf16(A) · y` (window 3, bf16,
into window 5) and `oz = A · z` at full precision (window 4, into window 6), each product into a zero
accumulator. -/

/-- Window `w`'s block at grid point `t`, cut out of its array as the region finds it. -/
def blk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The whole-block rectangles the body reads and writes through -/

/-- all of a 128x4096 row tile -/
abbrev tileR8 : Rect S128x4096 := Rect.unit (s := S128x4096) ![0, 0] S128x4096.size inb_S128x4096_S128x4096_0_0
/-- all of a 4096x256 right operand -/
abbrev rhsR8 : Rect S4096x256 := Rect.unit (s := S4096x256) ![0, 0] S4096x256.size inb_S4096x256_S4096x256_0_0
/-- all of a 128x256 product tile -/
abbrev prodR8 : Rect S128x256 := Rect.unit (s := S128x256) ![0, 0] S128x256.size inb_S128x256_S128x256_0_0

/-! ## What the body leaves in the two product buffers -/

/-- Window 5 after the body: the single whole-tile store of `bf16(adj ⊙ EP + mea) · y`. -/
def left8_5 (x0 x1 x2 : Vec F S128x4096 .f32) (x3 : Vec F S4096x256 .bf16) : Vec F S128x256 .f32 :=
  View.canon [⟨prodR8, k8_pay2 (View.ld x0 tileR8) (View.ld x1 tileR8) (View.ld x2 tileR8) (View.ld x3 rhsR8)⟩]

/-- Window 6 after the body: the single whole-tile store of `(adj ⊙ EP + mea) · z`. -/
def left8_6 (x0 x1 x2 : Vec F S128x4096 .f32) (x4 : Vec F S4096x256 .f32) : Vec F S128x256 .f32 :=
  View.canon [⟨prodR8, k8_pay3 (View.ld x0 tileR8) (View.ld x1 tileR8) (View.ld x2 tileR8) (View.ld x4 rhsR8)⟩]

/-- One whole-tile store covers the product tile. -/
theorem prodCover8 (p : Vec F S128x256 .f32) (y : S128x256.Idx) :
    ∃ pc ∈ ([⟨prodR8, p⟩] : List (View.Piece (Elt F) S128x256 .f32)), y ∈ pc.1.set :=
  View.cover_of_tiled [⟨prodR8, p⟩] S128x256.size (by rfl) y

/-! ## The body on whole staging buffers -/

set_option maxHeartbeats 4000000 in
/-- Run on seven whole staging buffers, the five operands' reading `x0 … x4` and the two products' holding anything,
    the body returns with the operands as they were and the products at `left8_5`, `left8_6` of them. -/
theorem kernel8 (c : Dev nD) (E : Set ℕ) (i : grid8.Coords)
    (a0 : Memref sig .tc .vmem S128x4096 .f32) (h0 : a0.IsWhole) (a1 : Memref sig .tc .vmem S128x4096 .f32) (h1 : a1.IsWhole)
    (a2 : Memref sig .tc .vmem S128x4096 .f32) (h2 : a2.IsWhole)
    (a3 : Memref sig .tc .vmem S4096x256 .bf16) (h3 : a3.IsWhole) (a4 : Memref sig .tc .vmem S4096x256 .f32) (h4 : a4.IsWhole)
    (a5 : Memref sig .tc .vmem S128x256 .f32) (h5 : a5.IsWhole) (a6 : Memref sig .tc .vmem S128x256 .f32) (h6 : a6.IsWhole)
    (x0 x1 x2 : Vec F S128x4096 .f32) (x3 : Vec F S4096x256 .bf16) (x4 : Vec F S4096x256 .f32) (K : PUnit → sProp 𝕄) :
    iprop(owns (c : Thread nD τ) a0 fullShare x0 ∗ owns (c : Thread nD τ) a1 fullShare x1
        ∗ owns (c : Thread nD τ) a2 fullShare x2
        ∗ owns (c : Thread nD τ) a3 fullShare x3 ∗ owns (c : Thread nD τ) a4 fullShare x4
        ∗ (∃ d, owns (c : Thread nD τ) a5 fullShare d) ∗ (∃ d, owns (c : Thread nD τ) a6 fullShare d)
        ∗ (iprop(owns (c : Thread nD τ) a0 fullShare x0 ∗ owns (c : Thread nD τ) a1 fullShare x1
            ∗ owns (c : Thread nD τ) a2 fullShare x2
            ∗ owns (c : Thread nD τ) a3 fullShare x3 ∗ owns (c : Thread nD τ) a4 fullShare x4
            ∗ owns (c : Thread nD τ) a5 fullShare (left8_5 x0 x1 x2 x3)
            ∗ owns (c : Thread nD τ) a6 fullShare (left8_6 x0 x1 x2 x4)) -∗ K ⟨⟩))
      ⊢ wp frame (wpE (defs₀ (F := F)) Variants.none c none) E (cc8__fused_a_kernel i a0 h0 a1 h1 a2 h2 a3 h3 a4 h4 a5 h5 a6 h6) K := by
  simp only [cc8__fused_a_kernel_eq_skeleton]; unfold cc8__fused_a_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (prodCover8 _)
  iexists _; isplitr
  swap; · iexact H6
  ipureintro
  exact View.read_writes_eq_canon _ _ _ (prodCover8 _)

/-! ## The proof data -/

/-- Core `c`'s proof data for the region: the arrays as found; after the body at point `t` each operand's buffer
    still at its block, each product's at `left8_w` of the operand blocks there; the invariant the scoped rest and
    the generator register, untouched; nothing owed; whole shares. -/
def dat8 (c : Dev nD) : Dat τ (Elt F) Unit ℕ (UR sig nD τ) ℕ cfg8 c where
  A w := V c (Pipeline.arrRef spec8 w)
  after w t := match w with
    | ⟨0, _⟩ => blk8 V c 0 t
    | ⟨1, _⟩ => blk8 V c 1 t
    | ⟨2, _⟩ => blk8 V c 2 t
    | ⟨3, _⟩ => blk8 V c 3 t
    | ⟨4, _⟩ => blk8 V c 4 t
    | ⟨5, _⟩ => left8_5 (blk8 V c 0 t) (blk8 V c 1 t) (blk8 V c 2 t) (blk8 V c 3 t)
    | ⟨6, _⟩ => left8_6 (blk8 V c 0 t) (blk8 V c 1 t) (blk8 V c 2 t) (blk8 V c 4 t)
  Φ _ := Pipeline.ΦA spec8 c
  q _ := fullShare
  owed _ := 0

theorem dat8_A (c : Dev nD) (w : Fin cfg8.W) : (dat8 V c).A w = V c (Pipeline.arrRef spec8 w) := by
  dsimp only [dat8]

theorem dat8_after_0 (c : Dev nD) (t : Fin cfg8.N) : (dat8 V c).after 0 t = blk8 V c 0 t := by dsimp only [dat8]
theorem dat8_after_1 (c : Dev nD) (t : Fin cfg8.N) : (dat8 V c).after 1 t = blk8 V c 1 t := by dsimp only [dat8]
theorem dat8_after_2 (c : Dev nD) (t : Fin cfg8.N) : (dat8 V c).after 2 t = blk8 V c 2 t := by dsimp only [dat8]
theorem dat8_after_3 (c : Dev nD) (t : Fin cfg8.N) : (dat8 V c).after 3 t = blk8 V c 3 t := by dsimp only [dat8]
theorem dat8_after_4 (c : Dev nD) (t : Fin cfg8.N) : (dat8 V c).after 4 t = blk8 V c 4 t := by dsimp only [dat8]
theorem dat8_after_5 (c : Dev nD) (t : Fin cfg8.N) :
    (dat8 V c).after 5 t = left8_5 (blk8 V c 0 t) (blk8 V c 1 t) (blk8 V c 2 t) (blk8 V c 3 t) := by dsimp only [dat8]
theorem dat8_after_6 (c : Dev nD) (t : Fin cfg8.N) :
    (dat8 V c).after 6 t = left8_6 (blk8 V c 0 t) (blk8 V c 1 t) (blk8 V c 2 t) (blk8 V c 4 t) := by dsimp only [dat8]

/-! ## An operand's buffer holds its block at every point

The three row tiles are fetched at every point; the two right operands are fetched at the first point only and
their block index never moves. Either way the current buffer reads the window's block: the body leaves it in place. -/

theorem held8_0 (c : Dev nD) (t : Fin cfg8.N) (d) : (dat8 V c).before 0 t d = blk8 V c 0 t :=
  ((dat8 V c).before_in_eq_fetched 0 rfl (fun _ => rfl) (fun _ _ _ => rfl)
    (fun t => by rw [dat8_after_0]; unfold Dat.blockOf blk8; rw [dat8_A]; try rfl) t d).trans
    (by unfold Dat.fetched Dat.blockOf blk8; rw [dat8_A]; try rfl)
theorem held8_1 (c : Dev nD) (t : Fin cfg8.N) (d) : (dat8 V c).before 1 t d = blk8 V c 1 t :=
  ((dat8 V c).before_in_eq_fetched 1 rfl (fun _ => rfl) (fun _ _ _ => rfl)
    (fun t => by rw [dat8_after_1]; unfold Dat.blockOf blk8; rw [dat8_A]; try rfl) t d).trans
    (by unfold Dat.fetched Dat.blockOf blk8; rw [dat8_A]; try rfl)
theorem held8_2 (c : Dev nD) (t : Fin cfg8.N) (d) : (dat8 V c).before 2 t d = blk8 V c 2 t :=
  ((dat8 V c).before_in_eq_fetched 2 rfl (fun _ => rfl) (fun _ _ _ => rfl)
    (fun t => by rw [dat8_after_2]; unfold Dat.blockOf blk8; rw [dat8_A]; try rfl) t d).trans
    (by unfold Dat.fetched Dat.blockOf blk8; rw [dat8_A]; try rfl)
theorem held8_3 (c : Dev nD) (t : Fin cfg8.N) (d) : (dat8 V c).before 3 t d = blk8 V c 3 t :=
  ((dat8 V c).before_in_eq_fetched 3 rfl (fun _ => rfl) (fun _ _ _ => rfl)
    (fun t => by rw [dat8_after_3]; unfold Dat.blockOf blk8; rw [dat8_A]; try rfl) t d).trans
    (by unfold Dat.fetched Dat.blockOf blk8; rw [dat8_A]; try rfl)
theorem held8_4 (c : Dev nD) (t : Fin cfg8.N) (d) : (dat8 V c).before 4 t d = blk8 V c 4 t :=
  ((dat8 V c).before_in_eq_fetched 4 rfl (fun _ => rfl) (fun _ _ _ => rfl)
    (fun t => by rw [dat8_after_4]; unfold Dat.blockOf blk8; rw [dat8_A]; try rfl) t d).trans
    (by unfold Dat.fetched Dat.blockOf blk8; rw [dat8_A]; try rfl)

/-! ## The body obligation -/

/-- What the pipeline hands the body at point `t`, window by window, -/
def handed8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it takes back. -/
def returned8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- At any point the operands' buffers read their blocks, so `kernel8` applies; the invariant and what the core
    owes pass through unread. -/
theorem atPoint8 (c : Dev nD) (t : Fin cfg8.N) :
    handed8 V c t ⊢ wp frame (wpE (defs₀ (F := F)) Variants.none c none) Set.univ (bodyAt8 t) (fun _ => returned8 V c t) := by
  unfold handed8 returned8 bodyAt8
  simp only [held8_0, held8_1, held8_2, held8_3, held8_4]
  rw [show (dat8 V c).Φ t.succ = (dat8 V c).Φ t.castSucc from rfl,
    show (dat8 V c).owesAt () t.succ = (dat8 V c).owesAt () t.castSucc from rfl,
    dat8_after_0, dat8_after_1, dat8_after_2, dat8_after_3, dat8_after_4, dat8_after_5, dat8_after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel8 c Set.univ _ _ _ _ _ _ _ _ _ _ _ _ _ _ _
    (blk8 V c 0 t) (blk8 V c 1 t) (blk8 V c 2 t) (blk8 V c 3 t) (blk8 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the region, at every point. -/
theorem body8 (c : Dev nD) : BodyObligation (dat8 (F := F) V c) (defs₀ (F := F)) Variants.none () Set.univ := fun t => by
  rw [bigSep_W8, bigSep_W8]
  exact atPoint8 V c t

end Cert.Kernel.Regs
-- ==== Proof.K.Region9.lean ====
/- Region 9 of @main, body side.

   A tall product with the left factor transposed,  out = Aᵀ · B , computed in eight row tiles of the result. Window 0
   is the matrix A (4096 x 4096, f32) cut into eight 4096 x 512 column strips; window 1 is the right matrix B
   (4096 x 256, f32), one block that is the whole array and therefore stays in its buffer from the first grid point on;
   window 2 is the result (4096 x 256, f32) in eight 512 x 256 row tiles. At a grid point the body reads the strip and
   B whole, rounds both to bf16, and writes the output tile whole:   out_tile = bf16(A_strip)ᵀ · bf16(B) ,  the sum
   running over the 4096 rows the strip and B share, in f32 from zero.
   Nothing is carried from one grid point to the next, so what the body leaves in the output tile is a function of
   the two input blocks at that point alone. -/
import proofs.«169176_j23261542875327_2_alg».proof.Proof.Gen.Kernel.Launch
import proofs.«169176_j23261542875327_2_alg».proof.Proof.Gen.Kernel.Skeleton
import proofs.«169176_j23261542875327_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks -/

/-- Window `w`'s block at grid point `t`, cut out of its array as the region finds it. -/
def blk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Each of the three blocks as a rectangle of itself: the body loads and stores whole blocks only. -/
abbrev lhs9 : Rect S4096x512 := Rect.unit (s := S4096x512) ![0, 0] S4096x512.size inb_S4096x512_S4096x512_0_0
abbrev rhs9 : Rect S4096x256 := Rect.unit (s := S4096x256) ![0, 0] S4096x256.size inb_S4096x256_S4096x256_0_0
abbrev res9 : Rect S512x256 := Rect.unit (s := S512x256) ![0, 0] S512x256.size inb_S512x256_S512x256_0_0

/-- The output tile after the body: one whole-tile store of the product of the transposed strip `a` with `b`, both rounded to bf16, summed over their common 4096 rows from zero. -/
def left9_2 (a : Vec F S4096x512 .f32) (b : Vec F S4096x256 .f32) : Vec F S512x256 .f32 :=
  View.canon [⟨res9, k9_pay1 (View.ld a lhs9) (View.ld b rhs9)⟩]

/-- One whole-tile store fills the tile, whatever is stored. -/
theorem fills9_2 (p : Vec F S512x256 .f32) (y : S512x256.Idx) :
    ∃ pc ∈ ([⟨res9, p⟩] : List (View.Piece (Elt F) S512x256 .f32)), y ∈ pc.1.set :=
  View.cover_of_tiled [⟨res9, p⟩] S512x256.size (by rfl) y

/-! ## The body on three whole blocks -/

set_option maxHeartbeats 1000000 in
/-- On whole block buffers — the inputs reading `a` and `b`, the output holding anything — the body ends with the
    inputs as they were and the output reading `left9_2 a b`. (It also loads the output tile before overwriting it;
    the loaded value is not used.) -/
theorem run9 (c : Dev nD) (E : Set ℕ) (i : grid9.Coords)
    (a0 : Memref sig .tc .vmem S4096x512 .f32) (h0 : a0.IsWhole) (a1 : Memref sig .tc .vmem S4096x256 .f32) (h1 : a1.IsWhole)
    (a2 : Memref sig .tc .vmem S512x256 .f32) (h2 : a2.IsWhole)
    (a : Vec F S4096x512 .f32) (b : Vec F S4096x256 .f32) (K : PUnit → sProp 𝕄) :
    iprop(owns (c : Thread nD τ) a0 fullShare a ∗ owns (c : Thread nD τ) a1 fullShare b ∗ (∃ d, owns (c : Thread nD τ) a2 fullShare d)
        ∗ (iprop(owns (c : Thread nD τ) a0 fullShare a ∗ owns (c : Thread nD τ) a1 fullShare b
            ∗ owns (c : Thread nD τ) a2 fullShare (left9_2 a b)) -∗ K ⟨⟩))
      ⊢ wp frame (wpE (defs₀ (F := F)) Variants.none c none) E (cc9__matmul_tall_kernel i a0 h0 a1 h1 a2 h2) K := by
  simp only [cc9__matmul_tall_kernel_eq_skeleton]; unfold cc9__matmul_tall_kernel_skel
  unfold owns
  iintro ⟨⟨%f0, %e0, H0⟩, ⟨%f1, %e1, H1⟩, ⟨%d2, %f2, -, H2⟩, Hk⟩
  subst e0; subst e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fills9_2 _)

/-! ## The proof data -/

/-- Pipeline 9's proof data on core `c`: the arrays as the region finds them; after the body at point `t` the input
    buffers still at their blocks and the output buffer at `left9_2` of the two input blocks; the invariant that of a
    body keeping nothing between points; nothing owed; full shares. -/
def dat9 (c : Dev nD) : Dat τ (Elt F) Unit ℕ (UR sig nD τ) ℕ cfg9 c where
  A w := V c (Pipeline.arrRef spec9 w)
  after w t := match w with
    | ⟨0, _⟩ => blk9 V c 0 t
    | ⟨1, _⟩ => blk9 V c 1 t
    | ⟨2, _⟩ => left9_2 (blk9 V c 0 t) (blk9 V c 1 t)
  Φ _ := Pipeline.ΦA spec9 c
  q _ := fullShare
  owed _ := 0

theorem dat9_A (c : Dev nD) (w : Fin cfg9.W) : (dat9 V c).A w = V c (Pipeline.arrRef spec9 w) := by
  dsimp only [dat9]
theorem dat9_after_0 (c : Dev nD) (t : Fin cfg9.N) : (dat9 V c).after 0 t = blk9 V c 0 t := by dsimp only [dat9]
theorem dat9_after_1 (c : Dev nD) (t : Fin cfg9.N) : (dat9 V c).after 1 t = blk9 V c 1 t := by dsimp only [dat9]
theorem dat9_after_2 (c : Dev nD) (t : Fin cfg9.N) :
    (dat9 V c).after 2 t = left9_2 (blk9 V c 0 t) (blk9 V c 1 t) := by dsimp only [dat9]

/-! ## What the body finds in the input buffers -/

/-- The left factor's buffer holds its column strip of the left matrix at every point: the body leaves it in place, and it is fetched
    afresh at every point. -/
theorem finds9_0 (c : Dev nD) (t : Fin cfg9.N) (d) : (dat9 V c).before 0 t d = blk9 V c 0 t :=
  ((dat9 V c).before_in_eq_fetched 0 rfl (fun _ => rfl) (fun _ _ _ => rfl)
      (fun t => by rw [dat9_after_0]; unfold Dat.blockOf blk9; rw [dat9_A]; try rfl) t d).trans
    (by unfold Dat.fetched Dat.blockOf blk9; rw [dat9_A]; try rfl)

/-- The right factor's buffer holds the whole right matrix at every point: fetched at the first point only, its block
    index never moves afterwards and the body leaves it in place. -/
theorem finds9_1 (c : Dev nD) (t : Fin cfg9.N) (d) : (dat9 V c).before 1 t d = blk9 V c 1 t :=
  ((dat9 V c).before_in_eq_fetched 1 rfl (fun _ => rfl) (fun _ _ _ => rfl)
      (fun t => by rw [dat9_after_1]; unfold Dat.blockOf blk9; rw [dat9_A]; try rfl) t d).trans
    (by unfold Dat.fetched Dat.blockOf blk9; rw [dat9_A]; try rfl)

/-! ## The obligation at a grid point -/

/-- At any point: the input buffers hold their blocks (`finds9_0`, `finds9_1`), so `run9` applies to the three
    current buffers; the invariant and what the core owes are not touched. -/
theorem body9 (c : Dev nD) : BodyObligation (dat9 (F := F) V c) (defs₀ (F := F)) Variants.none () Set.univ := fun t => by
  rw [bigSep_W9, bigSep_W9]
  show iprop((dat9 V c).Φ t.castSucc ∗ (dat9 V c).owesAt () t.castSucc
      ∗ (∃ d, owns (c : Thread nD τ) (st9_0 t) fullShare ((dat9 V c).before 0 t d))
      ∗ (∃ d, owns (c : Thread nD τ) (st9_1 t) fullShare ((dat9 V c).before 1 t d))
      ∗ (∃ d, owns (c : Thread nD τ) (st9_2 t) fullShare ((dat9 V c).before 2 t d)))
    ⊢ wp frame (wpE (defs₀ (F := F)) Variants.none c none) Set.univ (bodyAt9 t) (fun _ =>
      iprop((dat9 V c).Φ t.castSucc ∗ (dat9 V c).owesAt () t.castSucc
        ∗ owns (c : Thread nD τ) (st9_0 t) fullShare ((dat9 V c).after 0 t)
        ∗ owns (c : Thread nD τ) (st9_1 t) fullShare ((dat9 V c).after 1 t)
        ∗ owns (c : Thread nD τ) (st9_2 t) fullShare ((dat9 V c).after 2 t)))
  simp only [finds9_0, finds9_1]
  rw [dat9_after_0, dat9_after_1, dat9_after_2]
  unfold bodyAt9
  iintro ⟨HΦ, Ho, ⟨%d0, H0⟩, ⟨%d1, H1⟩, ⟨%d2, H2⟩⟩
  iapply (run9 c Set.univ _ _ _ _ _ _ _ (blk9 V c 0 t) (blk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Regs
-- ==== Proof.K.Region10.lean ====
/- Region 10 of @main, body side.

   A tall product  out = A · B  computed in eight row tiles. Window 0 is the left matrix A (4096 x 4096, already in
   bf16) cut into eight 512 x 4096 row tiles; window 1 is the right matrix B (4096 x 256, f32), one block that is the
   whole array and therefore stays in its buffer from the first grid point on; window 2 is the result (4096 x 256, f32)
   in eight 512 x 256 row tiles. At a grid point the body reads the row tile and B whole, rounds B to bf16, and writes
   the output tile whole:   out_tile = A_tile · bf16(B) ,  the products summed in f32 from zero.
   Nothing is carried from one grid point to the next, so what the body leaves in the output tile is a function of
   the two input blocks at that point alone. -/
import proofs.«169176_j23261542875327_2_alg».proof.Proof.Gen.Kernel.Launch
import proofs.«169176_j23261542875327_2_alg».proof.Proof.Gen.Kernel.Skeleton
import proofs.«169176_j23261542875327_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks -/

/-- Window `w`'s block at grid point `t`, cut out of its array as the region finds it. -/
def blk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Each of the three blocks as a rectangle of itself: the body loads and stores whole blocks only. -/
abbrev lhs10 : Rect S512x4096 := Rect.unit (s := S512x4096) ![0, 0] S512x4096.size inb_S512x4096_S512x4096_0_0
abbrev rhs10 : Rect S4096x256 := Rect.unit (s := S4096x256) ![0, 0] S4096x256.size inb_S4096x256_S4096x256_0_0
abbrev res10 : Rect S512x256 := Rect.unit (s := S512x256) ![0, 0] S512x256.size inb_S512x256_S512x256_0_0

/-- The output tile after the body: one whole-tile store of the product of the row tile `a` with `b` rounded to bf16, summed from zero. -/
def left10_2 (a : Vec F S512x4096 .bf16) (b : Vec F S4096x256 .f32) : Vec F S512x256 .f32 :=
  View.canon [⟨res10, k10_pay1 (View.ld a lhs10) (View.ld b rhs10)⟩]

/-- One whole-tile store fills the tile, whatever is stored. -/
theorem fills10_2 (p : Vec F S512x256 .f32) (y : S512x256.Idx) :
    ∃ pc ∈ ([⟨res10, p⟩] : List (View.Piece (Elt F) S512x256 .f32)), y ∈ pc.1.set :=
  View.cover_of_tiled [⟨res10, p⟩] S512x256.size (by rfl) y

/-! ## The body on three whole blocks -/

set_option maxHeartbeats 1000000 in
/-- On whole block buffers — the inputs reading `a` and `b`, the output holding anything — the body ends with the
    inputs as they were and the output reading `left10_2 a b`. (It also loads the output tile before overwriting it;
    the loaded value is not used.) -/
theorem run10 (c : Dev nD) (E : Set ℕ) (i : grid10.Coords)
    (a0 : Memref sig .tc .vmem S512x4096 .bf16) (h0 : a0.IsWhole) (a1 : Memref sig .tc .vmem S4096x256 .f32) (h1 : a1.IsWhole)
    (a2 : Memref sig .tc .vmem S512x256 .f32) (h2 : a2.IsWhole)
    (a : Vec F S512x4096 .bf16) (b : Vec F S4096x256 .f32) (K : PUnit → sProp 𝕄) :
    iprop(owns (c : Thread nD τ) a0 fullShare a ∗ owns (c : Thread nD τ) a1 fullShare b ∗ (∃ d, owns (c : Thread nD τ) a2 fullShare d)
        ∗ (iprop(owns (c : Thread nD τ) a0 fullShare a ∗ owns (c : Thread nD τ) a1 fullShare b
            ∗ owns (c : Thread nD τ) a2 fullShare (left10_2 a b)) -∗ K ⟨⟩))
      ⊢ wp frame (wpE (defs₀ (F := F)) Variants.none c none) E (cc10__matmul_tall_kernel i a0 h0 a1 h1 a2 h2) K := by
  simp only [cc10__matmul_tall_kernel_eq_skeleton]; unfold cc10__matmul_tall_kernel_skel
  unfold owns
  iintro ⟨⟨%f0, %e0, H0⟩, ⟨%f1, %e1, H1⟩, ⟨%d2, %f2, -, H2⟩, Hk⟩
  subst e0; subst e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fills10_2 _)

/-! ## The proof data -/

/-- Pipeline 10's proof data on core `c`: the arrays as the region finds them; after the body at point `t` the input
    buffers still at their blocks and the output buffer at `left10_2` of the two input blocks; the invariant that of a
    body keeping nothing between points; nothing owed; full shares. -/
def dat10 (c : Dev nD) : Dat τ (Elt F) Unit ℕ (UR sig nD τ) ℕ cfg10 c where
  A w := V c (Pipeline.arrRef spec10 w)
  after w t := match w with
    | ⟨0, _⟩ => blk10 V c 0 t
    | ⟨1, _⟩ => blk10 V c 1 t
    | ⟨2, _⟩ => left10_2 (blk10 V c 0 t) (blk10 V c 1 t)
  Φ _ := Pipeline.ΦA spec10 c
  q _ := fullShare
  owed _ := 0

theorem dat10_A (c : Dev nD) (w : Fin cfg10.W) : (dat10 V c).A w = V c (Pipeline.arrRef spec10 w) := by
  dsimp only [dat10]
theorem dat10_after_0 (c : Dev nD) (t : Fin cfg10.N) : (dat10 V c).after 0 t = blk10 V c 0 t := by dsimp only [dat10]
theorem dat10_after_1 (c : Dev nD) (t : Fin cfg10.N) : (dat10 V c).after 1 t = blk10 V c 1 t := by dsimp only [dat10]
theorem dat10_after_2 (c : Dev nD) (t : Fin cfg10.N) :
    (dat10 V c).after 2 t = left10_2 (blk10 V c 0 t) (blk10 V c 1 t) := by dsimp only [dat10]

/-! ## What the body finds in the input buffers -/

/-- The left factor's buffer holds its row tile of the left matrix at every point: the body leaves it in place, and it is fetched
    afresh at every point. -/
theorem finds10_0 (c : Dev nD) (t : Fin cfg10.N) (d) : (dat10 V c).before 0 t d = blk10 V c 0 t :=
  ((dat10 V c).before_in_eq_fetched 0 rfl (fun _ => rfl) (fun _ _ _ => rfl)
      (fun t => by rw [dat10_after_0]; unfold Dat.blockOf blk10; rw [dat10_A]; try rfl) t d).trans
    (by unfold Dat.fetched Dat.blockOf blk10; rw [dat10_A]; try rfl)

/-- The right factor's buffer holds the whole right matrix at every point: fetched at the first point only, its block
    index never moves afterwards and the body leaves it in place. -/
theorem finds10_1 (c : Dev nD) (t : Fin cfg10.N) (d) : (dat10 V c).before 1 t d = blk10 V c 1 t :=
  ((dat10 V c).before_in_eq_fetched 1 rfl (fun _ => rfl) (fun _ _ _ => rfl)
      (fun t => by rw [dat10_after_1]; unfold Dat.blockOf blk10; rw [dat10_A]; try rfl) t d).trans
    (by unfold Dat.fetched Dat.blockOf blk10; rw [dat10_A]; try rfl)

/-! ## The obligation at a grid point -/

/-- At any point: the input buffers hold their blocks (`finds10_0`, `finds10_1`), so `run10` applies to the three
    current buffers; the invariant and what the core owes are not touched. -/
theorem body10 (c : Dev nD) : BodyObligation (dat10 (F := F) V c) (defs₀ (F := F)) Variants.none () Set.univ := fun t => by
  rw [bigSep_W10, bigSep_W10]
  show iprop((dat10 V c).Φ t.castSucc ∗ (dat10 V c).owesAt () t.castSucc
      ∗ (∃ d, owns (c : Thread nD τ) (st10_0 t) fullShare ((dat10 V c).before 0 t d))
      ∗ (∃ d, owns (c : Thread nD τ) (st10_1 t) fullShare ((dat10 V c).before 1 t d))
      ∗ (∃ d, owns (c : Thread nD τ) (st10_2 t) fullShare ((dat10 V c).before 2 t d)))
    ⊢ wp frame (wpE (defs₀ (F := F)) Variants.none c none) Set.univ (bodyAt10 t) (fun _ =>
      iprop((dat10 V c).Φ t.castSucc ∗ (dat10 V c).owesAt () t.castSucc
        ∗ owns (c : Thread nD τ) (st10_0 t) fullShare ((dat10 V c).after 0 t)
        ∗ owns (c : Thread nD τ) (st10_1 t) fullShare ((dat10 V c).after 1 t)
        ∗ owns (c : Thread nD τ) (st10_2 t) fullShare ((dat10 V c).after 2 t)))
  simp only [finds10_0, finds10_1]
  rw [dat10_after_0, dat10_after_1, dat10_after_2]
  unfold bodyAt10
  iintro ⟨HΦ, Ho, ⟨%d0, H0⟩, ⟨%d1, H1⟩, ⟨%d2, H2⟩⟩
  iapply (run10 c Set.univ _ _ _ _ _ _ _ (blk10 V c 0 t) (blk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Regs
-- ==== Proof.K.Region11.lean ====
import proofs.«169176_j23261542875327_2_alg».proof.Proof.Gen.Kernel.Launch
import proofs.«169176_j23261542875327_2_alg».proof.Proof.Gen.Kernel.Skeleton
import proofs.«169176_j23261542875327_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic

-- a whole-block rectangle's membership test walks the long axis once per coordinate
set_option maxRecDepth 65536

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 11: the edge-potential update on a 1024x1024 tile

At tile (i, j) of a 4x4 grid the body forms `EP = bf16(yᵢ) · bf16(yⱼ)ᵀ − mea − ½ M`: windows 0 and 1 are the
1024x256 row blocks i and j of ONE array y, windows 2 and 3 the tiles of mea and of M, window 4 the tile of EP;
the product goes into a zero accumulator. Row block i only moves every fourth point. -/

/-- Window `w`'s block at grid point `t`, cut out of its array as the region finds it. -/
def blk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## The whole-block rectangles the body reads and writes through -/

/-- all of a 1024x256 row block of y -/
abbrev rowsR11 : Rect S1024x256 := Rect.unit (s := S1024x256) ![0, 0] S1024x256.size inb_S1024x256_S1024x256_0_0
/-- all of a 1024x1024 tile -/
abbrev sqR11 : Rect S1024x1024 := Rect.unit (s := S1024x1024) ![0, 0] S1024x1024.size inb_S1024x1024_S1024x1024_0_0

/-! ## What the body leaves in the EP tile's buffer -/

/-- Window 4 after the body: the single whole-tile store of `bf16(yᵢ) · bf16(yⱼ)ᵀ − mea − ½ M`. -/
def left11_4 (x0 x1 : Vec F S1024x256 .f32) (x2 x3 : Vec F S1024x1024 .f32) : Vec F S1024x1024 .f32 :=
  View.canon [⟨sqR11, k11_pay1 (View.ld x0 rowsR11) (View.ld x1 rowsR11) (View.ld x2 sqR11) (View.ld x3 sqR11)⟩]

/-- One whole-tile store covers the tile. -/
theorem sqCover11 (p : Vec F S1024x1024 .f32) (y : S1024x1024.Idx) :
    ∃ pc ∈ ([⟨sqR11, p⟩] : List (View.Piece (Elt F) S1024x1024 .f32)), y ∈ pc.1.set :=
  View.cover_of_tiled [⟨sqR11, p⟩] S1024x1024.size (by rfl) y

/-! ## The body on whole staging buffers -/

set_option maxHeartbeats 4000000 in
/-- Run on five whole staging buffers, the four operands' reading `x0 … x3` and the result's holding anything, the
    body returns with the operands as they were and the result at `left11_4` of them. -/
theorem kernel11 (c : Dev nD) (E : Set ℕ) (i : grid11.Coords)
    (a0 : Memref sig .tc .vmem S1024x256 .f32) (h0 : a0.IsWhole) (a1 : Memref sig .tc .vmem S1024x256 .f32) (h1 : a1.IsWhole)
    (a2 : Memref sig .tc .vmem S1024x1024 .f32) (h2 : a2.IsWhole) (a3 : Memref sig .tc .vmem S1024x1024 .f32) (h3 : a3.IsWhole)
    (a4 : Memref sig .tc .vmem S1024x1024 .f32) (h4 : a4.IsWhole)
    (x0 x1 : Vec F S1024x256 .f32) (x2 x3 : Vec F S1024x1024 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (left11_4 x0 x1 x2 x3)) -∗ K ⟨⟩))
      ⊢ wp frame (wpE (defs₀ (F := F)) Variants.none c none) E (cc11__fused_update_ep_kernel i a0 h0 a1 h1 a2 h2 a3 h3 a4 h4) K := by
  simp only [cc11__fused_update_ep_kernel_eq_skeleton]; unfold cc11__fused_update_ep_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (sqCover11 _)

/-! ## The proof data -/

/-- Core `c`'s proof data for the region: the arrays as found; after the body at point `t` each operand's buffer
    still at its block and the result's at `left11_4` of the operand blocks there; the invariant the scoped rest and
    the generator register, untouched; nothing owed. The two windows onto y each hold half of its share, the other
    windows their arrays' whole shares. -/
def dat11 (c : Dev nD) : Dat τ (Elt F) Unit ℕ (UR sig nD τ) ℕ cfg11 c where
  A w := V c (Pipeline.arrRef spec11 w)
  after w t := match w with
    | ⟨0, _⟩ => blk11 V c 0 t
    | ⟨1, _⟩ => blk11 V c 1 t
    | ⟨2, _⟩ => blk11 V c 2 t
    | ⟨3, _⟩ => blk11 V c 3 t
    | ⟨4, _⟩ => left11_4 (blk11 V c 0 t) (blk11 V c 1 t) (blk11 V c 2 t) (blk11 V c 3 t)
  Φ _ := Pipeline.ΦA spec11 c
  q := fun
    | ⟨0, _⟩ => fullShare.left
    | ⟨1, _⟩ => fullShare.right
    | ⟨2, _⟩ => fullShare
    | ⟨3, _⟩ => fullShare
    | ⟨4, _⟩ => fullShare
  owed _ := 0

theorem dat11_A (c : Dev nD) (w : Fin cfg11.W) : (dat11 V c).A w = V c (Pipeline.arrRef spec11 w) := by
  dsimp only [dat11]

theorem dat11_after_0 (c : Dev nD) (t : Fin cfg11.N) : (dat11 V c).after 0 t = blk11 V c 0 t := by dsimp only [dat11]
theorem dat11_after_1 (c : Dev nD) (t : Fin cfg11.N) : (dat11 V c).after 1 t = blk11 V c 1 t := by dsimp only [dat11]
theorem dat11_after_2 (c : Dev nD) (t : Fin cfg11.N) : (dat11 V c).after 2 t = blk11 V c 2 t := by dsimp only [dat11]
theorem dat11_after_3 (c : Dev nD) (t : Fin cfg11.N) : (dat11 V c).after 3 t = blk11 V c 3 t := by dsimp only [dat11]
theorem dat11_after_4 (c : Dev nD) (t : Fin cfg11.N) :
    (dat11 V c).after 4 t = left11_4 (blk11 V c 0 t) (blk11 V c 1 t) (blk11 V c 2 t) (blk11 V c 3 t) := by dsimp only [dat11]

/-! ## An operand's buffer holds its block at every point

Row block i is fetched when i moves, every fourth point, and stays in its buffer in between; the other three
operands are fetched at every point. Either way the current buffer reads the window's block: the body leaves it in
place. -/

theorem held11_0 (c : Dev nD) (t : Fin cfg11.N) (d) : (dat11 V c).before 0 t d = blk11 V c 0 t :=
  ((dat11 V c).before_in_eq_fetched 0 rfl (fun _ => rfl) (fun _ _ _ => rfl)
    (fun t => by rw [dat11_after_0]; unfold Dat.blockOf blk11; rw [dat11_A]; try rfl) t d).trans
    (by unfold Dat.fetched Dat.blockOf blk11; rw [dat11_A]; try rfl)
theorem held11_1 (c : Dev nD) (t : Fin cfg11.N) (d) : (dat11 V c).before 1 t d = blk11 V c 1 t :=
  ((dat11 V c).before_in_eq_fetched 1 rfl (fun _ => rfl) (fun _ _ _ => rfl)
    (fun t => by rw [dat11_after_1]; unfold Dat.blockOf blk11; rw [dat11_A]; try rfl) t d).trans
    (by unfold Dat.fetched Dat.blockOf blk11; rw [dat11_A]; try rfl)
theorem held11_2 (c : Dev nD) (t : Fin cfg11.N) (d) : (dat11 V c).before 2 t d = blk11 V c 2 t :=
  ((dat11 V c).before_in_eq_fetched 2 rfl (fun _ => rfl) (fun _ _ _ => rfl)
    (fun t => by rw [dat11_after_2]; unfold Dat.blockOf blk11; rw [dat11_A]; try rfl) t d).trans
    (by unfold Dat.fetched Dat.blockOf blk11; rw [dat11_A]; try rfl)
theorem held11_3 (c : Dev nD) (t : Fin cfg11.N) (d) : (dat11 V c).before 3 t d = blk11 V c 3 t :=
  ((dat11 V c).before_in_eq_fetched 3 rfl (fun _ => rfl) (fun _ _ _ => rfl)
    (fun t => by rw [dat11_after_3]; unfold Dat.blockOf blk11; rw [dat11_A]; try rfl) t d).trans
    (by unfold Dat.fetched Dat.blockOf blk11; rw [dat11_A]; try rfl)

/-! ## The body obligation -/

/-- What the pipeline hands the body at point `t`, window by window, -/
def handed11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what it takes back. -/
def returned11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

/-- At any point the operands' buffers read their blocks, so `kernel11` applies; the invariant and what the core
    owes pass through unread. -/
theorem atPoint11 (c : Dev nD) (t : Fin cfg11.N) :
    handed11 V c t ⊢ wp frame (wpE (defs₀ (F := F)) Variants.none c none) Set.univ (bodyAt11 t) (fun _ => returned11 V c t) := by
  unfold handed11 returned11 bodyAt11
  simp only [held11_0, held11_1, held11_2, held11_3]
  rw [show (dat11 V c).Φ t.succ = (dat11 V c).Φ t.castSucc from rfl,
    show (dat11 V c).owesAt () t.succ = (dat11 V c).owesAt () t.castSucc from rfl,
    dat11_after_0, dat11_after_1, dat11_after_2, dat11_after_3, dat11_after_4]
  iintro ⟨HΦ, Ho, ⟨%d0, H0⟩, ⟨%d1, H1⟩, ⟨%d2, H2⟩, ⟨%d3, H3⟩, ⟨%d4, H4⟩⟩
  iapply (kernel11 c Set.univ _ _ _ _ _ _ _ _ _ _ _
    (blk11 V c 0 t) (blk11 V c 1 t) (blk11 V c 2 t) (blk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the region, at every point. -/
theorem body11 (c : Dev nD) : BodyObligation (dat11 (F := F) V c) (defs₀ (F := F)) Variants.none () Set.univ := fun t => by
  rw [bigSep_W11, bigSep_W11]
  exact atPoint11 V c t

end Cert.Kernel.Regs
-- ==== Proof.K.Region12.lean ====
import proofs.«169176_j23261542875327_2_alg».proof.Proof.Gen.Kernel.Launch
import proofs.«169176_j23261542875327_2_alg».proof.Proof.Gen.Kernel.Skeleton
import proofs.«169176_j23261542875327_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic

-- a whole-block rectangle's membership test walks the long axis once per coordinate
set_option maxRecDepth 65536

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 12: a later layer's fused adjacency products

A row tile of 128 rows. The body forms `A = adj ⊙ EP + mea` on the tile (windows 0, 1, 2, 128x4096 each; `⊙` the
entrywise product) and multiplies it into the two resident 4096x256 operands: `oy = bf16(A) · y` (window 3, bf16,
into window 5) and `oz = A · z` at full precision (window 4, into window 6), each product into a zero
accumulator. -/

/-- Window `w`'s block at grid point `t`, cut out of its array as the region finds it. -/
def blk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! ## The whole-block rectangles the body reads and writes through -/

/-- all of a 128x4096 row tile -/
abbrev tileR12 : Rect S128x4096 := Rect.unit (s := S128x4096) ![0, 0] S128x4096.size inb_S128x4096_S128x4096_0_0
/-- all of a 4096x256 right operand -/
abbrev rhsR12 : Rect S4096x256 := Rect.unit (s := S4096x256) ![0, 0] S4096x256.size inb_S4096x256_S4096x256_0_0
/-- all of a 128x256 product tile -/
abbrev prodR12 : Rect S128x256 := Rect.unit (s := S128x256) ![0, 0] S128x256.size inb_S128x256_S128x256_0_0

/-! ## What the body leaves in the two product buffers -/

/-- Window 5 after the body: the single whole-tile store of `bf16(adj ⊙ EP + mea) · y`. -/
def left12_5 (x0 x1 x2 : Vec F S128x4096 .f32) (x3 : Vec F S4096x256 .bf16) : Vec F S128x256 .f32 :=
  View.canon [⟨prodR12, k12_pay2 (View.ld x0 tileR12) (View.ld x1 tileR12) (View.ld x2 tileR12) (View.ld x3 rhsR12)⟩]

/-- Window 6 after the body: the single whole-tile store of `(adj ⊙ EP + mea) · z`. -/
def left12_6 (x0 x1 x2 : Vec F S128x4096 .f32) (x4 : Vec F S4096x256 .f32) : Vec F S128x256 .f32 :=
  View.canon [⟨prodR12, k12_pay3 (View.ld x0 tileR12) (View.ld x1 tileR12) (View.ld x2 tileR12) (View.ld x4 rhsR12)⟩]

/-- One whole-tile store covers the product tile. -/
theorem prodCover12 (p : Vec F S128x256 .f32) (y : S128x256.Idx) :
    ∃ pc ∈ ([⟨prodR12, p⟩] : List (View.Piece (Elt F) S128x256 .f32)), y ∈ pc.1.set :=
  View.cover_of_tiled [⟨prodR12, p⟩] S128x256.size (by rfl) y

/-! ## The body on whole staging buffers -/

set_option maxHeartbeats 4000000 in
/-- Run on seven whole staging buffers, the five operands' reading `x0 … x4` and the two products' holding anything,
    the body returns with the operands as they were and the products at `left12_5`, `left12_6` of them. -/
theorem kernel12 (c : Dev nD) (E : Set ℕ) (i : grid12.Coords)
    (a0 : Memref sig .tc .vmem S128x4096 .f32) (h0 : a0.IsWhole) (a1 : Memref sig .tc .vmem S128x4096 .f32) (h1 : a1.IsWhole)
    (a2 : Memref sig .tc .vmem S128x4096 .f32) (h2 : a2.IsWhole)
    (a3 : Memref sig .tc .vmem S4096x256 .bf16) (h3 : a3.IsWhole) (a4 : Memref sig .tc .vmem S4096x256 .f32) (h4 : a4.IsWhole)
    (a5 : Memref sig .tc .vmem S128x256 .f32) (h5 : a5.IsWhole) (a6 : Memref sig .tc .vmem S128x256 .f32) (h6 : a6.IsWhole)
    (x0 x1 x2 : Vec F S128x4096 .f32) (x3 : Vec F S4096x256 .bf16) (x4 : Vec F S4096x256 .f32) (K : PUnit → sProp 𝕄) :
    iprop(owns (c : Thread nD τ) a0 fullShare x0 ∗ owns (c : Thread nD τ) a1 fullShare x1
        ∗ owns (c : Thread nD τ) a2 fullShare x2
        ∗ owns (c : Thread nD τ) a3 fullShare x3 ∗ owns (c : Thread nD τ) a4 fullShare x4
        ∗ (∃ d, owns (c : Thread nD τ) a5 fullShare d) ∗ (∃ d, owns (c : Thread nD τ) a6 fullShare d)
        ∗ (iprop(owns (c : Thread nD τ) a0 fullShare x0 ∗ owns (c : Thread nD τ) a1 fullShare x1
            ∗ owns (c : Thread nD τ) a2 fullShare x2
            ∗ owns (c : Thread nD τ) a3 fullShare x3 ∗ owns (c : Thread nD τ) a4 fullShare x4
            ∗ owns (c : Thread nD τ) a5 fullShare (left12_5 x0 x1 x2 x3)
            ∗ owns (c : Thread nD τ) a6 fullShare (left12_6 x0 x1 x2 x4)) -∗ K ⟨⟩))
      ⊢ wp frame (wpE (defs₀ (F := F)) Variants.none c none) E (cc12__fused_a_kernel i a0 h0 a1 h1 a2 h2 a3 h3 a4 h4 a5 h5 a6 h6) K := by
  simp only [cc12__fused_a_kernel_eq_skeleton]; unfold cc12__fused_a_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (prodCover12 _)
  iexists _; isplitr
  swap; · iexact H6
  ipureintro
  exact View.read_writes_eq_canon _ _ _ (prodCover12 _)

/-! ## The proof data -/

/-- Core `c`'s proof data for the region: the arrays as found; after the body at point `t` each operand's buffer
    still at its block, each product's at `left12_w` of the operand blocks there; the invariant the scoped rest and
    the generator register, untouched; nothing owed; whole shares. -/
def dat12 (c : Dev nD) : Dat τ (Elt F) Unit ℕ (UR sig nD τ) ℕ cfg12 c where
  A w := V c (Pipeline.arrRef spec12 w)
  after w t := match w with
    | ⟨0, _⟩ => blk12 V c 0 t
    | ⟨1, _⟩ => blk12 V c 1 t
    | ⟨2, _⟩ => blk12 V c 2 t
    | ⟨3, _⟩ => blk12 V c 3 t
    | ⟨4, _⟩ => blk12 V c 4 t
    | ⟨5, _⟩ => left12_5 (blk12 V c 0 t) (blk12 V c 1 t) (blk12 V c 2 t) (blk12 V c 3 t)
    | ⟨6, _⟩ => left12_6 (blk12 V c 0 t) (blk12 V c 1 t) (blk12 V c 2 t) (blk12 V c 4 t)
  Φ _ := Pipeline.ΦA spec12 c
  q _ := fullShare
  owed _ := 0

theorem dat12_A (c : Dev nD) (w : Fin cfg12.W) : (dat12 V c).A w = V c (Pipeline.arrRef spec12 w) := by
  dsimp only [dat12]

theorem dat12_after_0 (c : Dev nD) (t : Fin cfg12.N) : (dat12 V c).after 0 t = blk12 V c 0 t := by dsimp only [dat12]
theorem dat12_after_1 (c : Dev nD) (t : Fin cfg12.N) : (dat12 V c).after 1 t = blk12 V c 1 t := by dsimp only [dat12]
theorem dat12_after_2 (c : Dev nD) (t : Fin cfg12.N) : (dat12 V c).after 2 t = blk12 V c 2 t := by dsimp only [dat12]
theorem dat12_after_3 (c : Dev nD) (t : Fin cfg12.N) : (dat12 V c).after 3 t = blk12 V c 3 t := by dsimp only [dat12]
theorem dat12_after_4 (c : Dev nD) (t : Fin cfg12.N) : (dat12 V c).after 4 t = blk12 V c 4 t := by dsimp only [dat12]
theorem dat12_after_5 (c : Dev nD) (t : Fin cfg12.N) :
    (dat12 V c).after 5 t = left12_5 (blk12 V c 0 t) (blk12 V c 1 t) (blk12 V c 2 t) (blk12 V c 3 t) := by dsimp only [dat12]
theorem dat12_after_6 (c : Dev nD) (t : Fin cfg12.N) :
    (dat12 V c).after 6 t = left12_6 (blk12 V c 0 t) (blk12 V c 1 t) (blk12 V c 2 t) (blk12 V c 4 t) := by dsimp only [dat12]

/-! ## An operand's buffer holds its block at every point

The three row tiles are fetched at every point; the two right operands are fetched at the first point only and
their block index never moves. Either way the current buffer reads the window's block: the body leaves it in place. -/

theorem held12_0 (c : Dev nD) (t : Fin cfg12.N) (d) : (dat12 V c).before 0 t d = blk12 V c 0 t :=
  ((dat12 V c).before_in_eq_fetched 0 rfl (fun _ => rfl) (fun _ _ _ => rfl)
    (fun t => by rw [dat12_after_0]; unfold Dat.blockOf blk12; rw [dat12_A]; try rfl) t d).trans
    (by unfold Dat.fetched Dat.blockOf blk12; rw [dat12_A]; try rfl)
theorem held12_1 (c : Dev nD) (t : Fin cfg12.N) (d) : (dat12 V c).before 1 t d = blk12 V c 1 t :=
  ((dat12 V c).before_in_eq_fetched 1 rfl (fun _ => rfl) (fun _ _ _ => rfl)
    (fun t => by rw [dat12_after_1]; unfold Dat.blockOf blk12; rw [dat12_A]; try rfl) t d).trans
    (by unfold Dat.fetched Dat.blockOf blk12; rw [dat12_A]; try rfl)
theorem held12_2 (c : Dev nD) (t : Fin cfg12.N) (d) : (dat12 V c).before 2 t d = blk12 V c 2 t :=
  ((dat12 V c).before_in_eq_fetched 2 rfl (fun _ => rfl) (fun _ _ _ => rfl)
    (fun t => by rw [dat12_after_2]; unfold Dat.blockOf blk12; rw [dat12_A]; try rfl) t d).trans
    (by unfold Dat.fetched Dat.blockOf blk12; rw [dat12_A]; try rfl)
theorem held12_3 (c : Dev nD) (t : Fin cfg12.N) (d) : (dat12 V c).before 3 t d = blk12 V c 3 t :=
  ((dat12 V c).before_in_eq_fetched 3 rfl (fun _ => rfl) (fun _ _ _ => rfl)
    (fun t => by rw [dat12_after_3]; unfold Dat.blockOf blk12; rw [dat12_A]; try rfl) t d).trans
    (by unfold Dat.fetched Dat.blockOf blk12; rw [dat12_A]; try rfl)
theorem held12_4 (c : Dev nD) (t : Fin cfg12.N) (d) : (dat12 V c).before 4 t d = blk12 V c 4 t :=
  ((dat12 V c).before_in_eq_fetched 4 rfl (fun _ => rfl) (fun _ _ _ => rfl)
    (fun t => by rw [dat12_after_4]; unfold Dat.blockOf blk12; rw [dat12_A]; try rfl) t d).trans
    (by unfold Dat.fetched Dat.blockOf blk12; rw [dat12_A]; try rfl)

/-! ## The body obligation -/

/-- What the pipeline hands the body at point `t`, window by window, -/
def handed12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d)))

/-- and what it takes back. -/
def returned12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t))

/-- At any point the operands' buffers read their blocks, so `kernel12` applies; the invariant and what the core
    owes pass through unread. -/
theorem atPoint12 (c : Dev nD) (t : Fin cfg12.N) :
    handed12 V c t ⊢ wp frame (wpE (defs₀ (F := F)) Variants.none c none) Set.univ (bodyAt12 t) (fun _ => returned12 V c t) := by
  unfold handed12 returned12 bodyAt12
  simp only [held12_0, held12_1, held12_2, held12_3, held12_4]
  rw [show (dat12 V c).Φ t.succ = (dat12 V c).Φ t.castSucc from rfl,
    show (dat12 V c).owesAt () t.succ = (dat12 V c).owesAt () t.castSucc from rfl,
    dat12_after_0, dat12_after_1, dat12_after_2, dat12_after_3, dat12_after_4, dat12_after_5, dat12_after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel12 c Set.univ _ _ _ _ _ _ _ _ _ _ _ _ _ _ _
    (blk12 V c 0 t) (blk12 V c 1 t) (blk12 V c 2 t) (blk12 V c 3 t) (blk12 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the region, at every point. -/
theorem body12 (c : Dev nD) : BodyObligation (dat12 (F := F) V c) (defs₀ (F := F)) Variants.none () Set.univ := fun t => by
  rw [bigSep_W12, bigSep_W12]
  exact atPoint12 V c t

end Cert.Kernel.Regs
-- ==== Proof.K.Region13.lean ====
/- Region 13 of @main, body side.

   A tall product with the left factor transposed,  out = Aᵀ · B , computed in eight row tiles of the result. Window 0
   is the matrix A (4096 x 4096, f32) cut into eight 4096 x 512 column strips; window 1 is the right matrix B
   (4096 x 256, f32), one block that is the whole array and therefore stays in its buffer from the first grid point on;
   window 2 is the result (4096 x 256, f32) in eight 512 x 256 row tiles. At a grid point the body reads the strip and
   B whole, rounds both to bf16, and writes the output tile whole:   out_tile = bf16(A_strip)ᵀ · bf16(B) ,  the sum
   running over the 4096 rows the strip and B share, in f32 from zero.
   Nothing is carried from one grid point to the next, so what the body leaves in the output tile is a function of
   the two input blocks at that point alone. -/
import proofs.«169176_j23261542875327_2_alg».proof.Proof.Gen.Kernel.Launch
import proofs.«169176_j23261542875327_2_alg».proof.Proof.Gen.Kernel.Skeleton
import proofs.«169176_j23261542875327_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks -/

/-- Window `w`'s block at grid point `t`, cut out of its array as the region finds it. -/
def blk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Each of the three blocks as a rectangle of itself: the body loads and stores whole blocks only. -/
abbrev lhs13 : Rect S4096x512 := Rect.unit (s := S4096x512) ![0, 0] S4096x512.size inb_S4096x512_S4096x512_0_0
abbrev rhs13 : Rect S4096x256 := Rect.unit (s := S4096x256) ![0, 0] S4096x256.size inb_S4096x256_S4096x256_0_0
abbrev res13 : Rect S512x256 := Rect.unit (s := S512x256) ![0, 0] S512x256.size inb_S512x256_S512x256_0_0

/-- The output tile after the body: one whole-tile store of the product of the transposed strip `a` with `b`, both rounded to bf16, summed over their common 4096 rows from zero. -/
def left13_2 (a : Vec F S4096x512 .f32) (b : Vec F S4096x256 .f32) : Vec F S512x256 .f32 :=
  View.canon [⟨res13, k13_pay1 (View.ld a lhs13) (View.ld b rhs13)⟩]

/-- One whole-tile store fills the tile, whatever is stored. -/
theorem fills13_2 (p : Vec F S512x256 .f32) (y : S512x256.Idx) :
    ∃ pc ∈ ([⟨res13, p⟩] : List (View.Piece (Elt F) S512x256 .f32)), y ∈ pc.1.set :=
  View.cover_of_tiled [⟨res13, p⟩] S512x256.size (by rfl) y

/-! ## The body on three whole blocks -/

set_option maxHeartbeats 1000000 in
/-- On whole block buffers — the inputs reading `a` and `b`, the output holding anything — the body ends with the
    inputs as they were and the output reading `left13_2 a b`. (It also loads the output tile before overwriting it;
    the loaded value is not used.) -/
theorem run13 (c : Dev nD) (E : Set ℕ) (i : grid13.Coords)
    (a0 : Memref sig .tc .vmem S4096x512 .f32) (h0 : a0.IsWhole) (a1 : Memref sig .tc .vmem S4096x256 .f32) (h1 : a1.IsWhole)
    (a2 : Memref sig .tc .vmem S512x256 .f32) (h2 : a2.IsWhole)
    (a : Vec F S4096x512 .f32) (b : Vec F S4096x256 .f32) (K : PUnit → sProp 𝕄) :
    iprop(owns (c : Thread nD τ) a0 fullShare a ∗ owns (c : Thread nD τ) a1 fullShare b ∗ (∃ d, owns (c : Thread nD τ) a2 fullShare d)
        ∗ (iprop(owns (c : Thread nD τ) a0 fullShare a ∗ owns (c : Thread nD τ) a1 fullShare b
            ∗ owns (c : Thread nD τ) a2 fullShare (left13_2 a b)) -∗ K ⟨⟩))
      ⊢ wp frame (wpE (defs₀ (F := F)) Variants.none c none) E (cc13__matmul_tall_kernel i a0 h0 a1 h1 a2 h2) K := by
  simp only [cc13__matmul_tall_kernel_eq_skeleton]; unfold cc13__matmul_tall_kernel_skel
  unfold owns
  iintro ⟨⟨%f0, %e0, H0⟩, ⟨%f1, %e1, H1⟩, ⟨%d2, %f2, -, H2⟩, Hk⟩
  subst e0; subst e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fills13_2 _)

/-! ## The proof data -/

/-- Pipeline 13's proof data on core `c`: the arrays as the region finds them; after the body at point `t` the input
    buffers still at their blocks and the output buffer at `left13_2` of the two input blocks; the invariant that of a
    body keeping nothing between points; nothing owed; full shares. -/
def dat13 (c : Dev nD) : Dat τ (Elt F) Unit ℕ (UR sig nD τ) ℕ cfg13 c where
  A w := V c (Pipeline.arrRef spec13 w)
  after w t := match w with
    | ⟨0, _⟩ => blk13 V c 0 t
    | ⟨1, _⟩ => blk13 V c 1 t
    | ⟨2, _⟩ => left13_2 (blk13 V c 0 t) (blk13 V c 1 t)
  Φ _ := Pipeline.ΦA spec13 c
  q _ := fullShare
  owed _ := 0

theorem dat13_A (c : Dev nD) (w : Fin cfg13.W) : (dat13 V c).A w = V c (Pipeline.arrRef spec13 w) := by
  dsimp only [dat13]
theorem dat13_after_0 (c : Dev nD) (t : Fin cfg13.N) : (dat13 V c).after 0 t = blk13 V c 0 t := by dsimp only [dat13]
theorem dat13_after_1 (c : Dev nD) (t : Fin cfg13.N) : (dat13 V c).after 1 t = blk13 V c 1 t := by dsimp only [dat13]
theorem dat13_after_2 (c : Dev nD) (t : Fin cfg13.N) :
    (dat13 V c).after 2 t = left13_2 (blk13 V c 0 t) (blk13 V c 1 t) := by dsimp only [dat13]

/-! ## What the body finds in the input buffers -/

/-- The left factor's buffer holds its column strip of the left matrix at every point: the body leaves it in place, and it is fetched
    afresh at every point. -/
theorem finds13_0 (c : Dev nD) (t : Fin cfg13.N) (d) : (dat13 V c).before 0 t d = blk13 V c 0 t :=
  ((dat13 V c).before_in_eq_fetched 0 rfl (fun _ => rfl) (fun _ _ _ => rfl)
      (fun t => by rw [dat13_after_0]; unfold Dat.blockOf blk13; rw [dat13_A]; try rfl) t d).trans
    (by unfold Dat.fetched Dat.blockOf blk13; rw [dat13_A]; try rfl)

/-- The right factor's buffer holds the whole right matrix at every point: fetched at the first point only, its block
    index never moves afterwards and the body leaves it in place. -/
theorem finds13_1 (c : Dev nD) (t : Fin cfg13.N) (d) : (dat13 V c).before 1 t d = blk13 V c 1 t :=
  ((dat13 V c).before_in_eq_fetched 1 rfl (fun _ => rfl) (fun _ _ _ => rfl)
      (fun t => by rw [dat13_after_1]; unfold Dat.blockOf blk13; rw [dat13_A]; try rfl) t d).trans
    (by unfold Dat.fetched Dat.blockOf blk13; rw [dat13_A]; try rfl)

/-! ## The obligation at a grid point -/

/-- At any point: the input buffers hold their blocks (`finds13_0`, `finds13_1`), so `run13` applies to the three
    current buffers; the invariant and what the core owes are not touched. -/
theorem body13 (c : Dev nD) : BodyObligation (dat13 (F := F) V c) (defs₀ (F := F)) Variants.none () Set.univ := fun t => by
  rw [bigSep_W13, bigSep_W13]
  show iprop((dat13 V c).Φ t.castSucc ∗ (dat13 V c).owesAt () t.castSucc
      ∗ (∃ d, owns (c : Thread nD τ) (st13_0 t) fullShare ((dat13 V c).before 0 t d))
      ∗ (∃ d, owns (c : Thread nD τ) (st13_1 t) fullShare ((dat13 V c).before 1 t d))
      ∗ (∃ d, owns (c : Thread nD τ) (st13_2 t) fullShare ((dat13 V c).before 2 t d)))
    ⊢ wp frame (wpE (defs₀ (F := F)) Variants.none c none) Set.univ (bodyAt13 t) (fun _ =>
      iprop((dat13 V c).Φ t.castSucc ∗ (dat13 V c).owesAt () t.castSucc
        ∗ owns (c : Thread nD τ) (st13_0 t) fullShare ((dat13 V c).after 0 t)
        ∗ owns (c : Thread nD τ) (st13_1 t) fullShare ((dat13 V c).after 1 t)
        ∗ owns (c : Thread nD τ) (st13_2 t) fullShare ((dat13 V c).after 2 t)))
  simp only [finds13_0, finds13_1]
  rw [dat13_after_0, dat13_after_1, dat13_after_2]
  unfold bodyAt13
  iintro ⟨HΦ, Ho, ⟨%d0, H0⟩, ⟨%d1, H1⟩, ⟨%d2, H2⟩⟩
  iapply (run13 c Set.univ _ _ _ _ _ _ _ (blk13 V c 0 t) (blk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Regs
-- ==== Proof.K.Region14.lean ====
/- Region 14 of @main, body side.

   A tall product  out = A · B  computed in eight row tiles. Window 0 is the left matrix A (4096 x 4096, already in
   bf16) cut into eight 512 x 4096 row tiles; window 1 is the right matrix B (4096 x 256, f32), one block that is the
   whole array and therefore stays in its buffer from the first grid point on; window 2 is the result (4096 x 256, f32)
   in eight 512 x 256 row tiles. At a grid point the body reads the row tile and B whole, rounds B to bf16, and writes
   the output tile whole:   out_tile = A_tile · bf16(B) ,  the products summed in f32 from zero.
   Nothing is carried from one grid point to the next, so what the body leaves in the output tile is a function of
   the two input blocks at that point alone. -/
import proofs.«169176_j23261542875327_2_alg».proof.Proof.Gen.Kernel.Launch
import proofs.«169176_j23261542875327_2_alg».proof.Proof.Gen.Kernel.Skeleton
import proofs.«169176_j23261542875327_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks -/

/-- Window `w`'s block at grid point `t`, cut out of its array as the region finds it. -/
def blk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Each of the three blocks as a rectangle of itself: the body loads and stores whole blocks only. -/
abbrev lhs14 : Rect S512x4096 := Rect.unit (s := S512x4096) ![0, 0] S512x4096.size inb_S512x4096_S512x4096_0_0
abbrev rhs14 : Rect S4096x256 := Rect.unit (s := S4096x256) ![0, 0] S4096x256.size inb_S4096x256_S4096x256_0_0
abbrev res14 : Rect S512x256 := Rect.unit (s := S512x256) ![0, 0] S512x256.size inb_S512x256_S512x256_0_0

/-- The output tile after the body: one whole-tile store of the product of the row tile `a` with `b` rounded to bf16, summed from zero. -/
def left14_2 (a : Vec F S512x4096 .bf16) (b : Vec F S4096x256 .f32) : Vec F S512x256 .f32 :=
  View.canon [⟨res14, k14_pay1 (View.ld a lhs14) (View.ld b rhs14)⟩]

/-- One whole-tile store fills the tile, whatever is stored. -/
theorem fills14_2 (p : Vec F S512x256 .f32) (y : S512x256.Idx) :
    ∃ pc ∈ ([⟨res14, p⟩] : List (View.Piece (Elt F) S512x256 .f32)), y ∈ pc.1.set :=
  View.cover_of_tiled [⟨res14, p⟩] S512x256.size (by rfl) y

/-! ## The body on three whole blocks -/

set_option maxHeartbeats 1000000 in
/-- On whole block buffers — the inputs reading `a` and `b`, the output holding anything — the body ends with the
    inputs as they were and the output reading `left14_2 a b`. (It also loads the output tile before overwriting it;
    the loaded value is not used.) -/
theorem run14 (c : Dev nD) (E : Set ℕ) (i : grid14.Coords)
    (a0 : Memref sig .tc .vmem S512x4096 .bf16) (h0 : a0.IsWhole) (a1 : Memref sig .tc .vmem S4096x256 .f32) (h1 : a1.IsWhole)
    (a2 : Memref sig .tc .vmem S512x256 .f32) (h2 : a2.IsWhole)
    (a : Vec F S512x4096 .bf16) (b : Vec F S4096x256 .f32) (K : PUnit → sProp 𝕄) :
    iprop(owns (c : Thread nD τ) a0 fullShare a ∗ owns (c : Thread nD τ) a1 fullShare b ∗ (∃ d, owns (c : Thread nD τ) a2 fullShare d)
        ∗ (iprop(owns (c : Thread nD τ) a0 fullShare a ∗ owns (c : Thread nD τ) a1 fullShare b
            ∗ owns (c : Thread nD τ) a2 fullShare (left14_2 a b)) -∗ K ⟨⟩))
      ⊢ wp frame (wpE (defs₀ (F := F)) Variants.none c none) E (cc14__matmul_tall_kernel i a0 h0 a1 h1 a2 h2) K := by
  simp only [cc14__matmul_tall_kernel_eq_skeleton]; unfold cc14__matmul_tall_kernel_skel
  unfold owns
  iintro ⟨⟨%f0, %e0, H0⟩, ⟨%f1, %e1, H1⟩, ⟨%d2, %f2, -, H2⟩, Hk⟩
  subst e0; subst e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fills14_2 _)

/-! ## The proof data -/

/-- Pipeline 14's proof data on core `c`: the arrays as the region finds them; after the body at point `t` the input
    buffers still at their blocks and the output buffer at `left14_2` of the two input blocks; the invariant that of a
    body keeping nothing between points; nothing owed; full shares. -/
def dat14 (c : Dev nD) : Dat τ (Elt F) Unit ℕ (UR sig nD τ) ℕ cfg14 c where
  A w := V c (Pipeline.arrRef spec14 w)
  after w t := match w with
    | ⟨0, _⟩ => blk14 V c 0 t
    | ⟨1, _⟩ => blk14 V c 1 t
    | ⟨2, _⟩ => left14_2 (blk14 V c 0 t) (blk14 V c 1 t)
  Φ _ := Pipeline.ΦA spec14 c
  q _ := fullShare
  owed _ := 0

theorem dat14_A (c : Dev nD) (w : Fin cfg14.W) : (dat14 V c).A w = V c (Pipeline.arrRef spec14 w) := by
  dsimp only [dat14]
theorem dat14_after_0 (c : Dev nD) (t : Fin cfg14.N) : (dat14 V c).after 0 t = blk14 V c 0 t := by dsimp only [dat14]
theorem dat14_after_1 (c : Dev nD) (t : Fin cfg14.N) : (dat14 V c).after 1 t = blk14 V c 1 t := by dsimp only [dat14]
theorem dat14_after_2 (c : Dev nD) (t : Fin cfg14.N) :
    (dat14 V c).after 2 t = left14_2 (blk14 V c 0 t) (blk14 V c 1 t) := by dsimp only [dat14]

/-! ## What the body finds in the input buffers -/

/-- The left factor's buffer holds its row tile of the left matrix at every point: the body leaves it in place, and it is fetched
    afresh at every point. -/
theorem finds14_0 (c : Dev nD) (t : Fin cfg14.N) (d) : (dat14 V c).before 0 t d = blk14 V c 0 t :=
  ((dat14 V c).before_in_eq_fetched 0 rfl (fun _ => rfl) (fun _ _ _ => rfl)
      (fun t => by rw [dat14_after_0]; unfold Dat.blockOf blk14; rw [dat14_A]; try rfl) t d).trans
    (by unfold Dat.fetched Dat.blockOf blk14; rw [dat14_A]; try rfl)

/-- The right factor's buffer holds the whole right matrix at every point: fetched at the first point only, its block
    index never moves afterwards and the body leaves it in place. -/
theorem finds14_1 (c : Dev nD) (t : Fin cfg14.N) (d) : (dat14 V c).before 1 t d = blk14 V c 1 t :=
  ((dat14 V c).before_in_eq_fetched 1 rfl (fun _ => rfl) (fun _ _ _ => rfl)
      (fun t => by rw [dat14_after_1]; unfold Dat.blockOf blk14; rw [dat14_A]; try rfl) t d).trans
    (by unfold Dat.fetched Dat.blockOf blk14; rw [dat14_A]; try rfl)

/-! ## The obligation at a grid point -/

/-- At any point: the input buffers hold their blocks (`finds14_0`, `finds14_1`), so `run14` applies to the three
    current buffers; the invariant and what the core owes are not touched. -/
theorem body14 (c : Dev nD) : BodyObligation (dat14 (F := F) V c) (defs₀ (F := F)) Variants.none () Set.univ := fun t => by
  rw [bigSep_W14, bigSep_W14]
  show iprop((dat14 V c).Φ t.castSucc ∗ (dat14 V c).owesAt () t.castSucc
      ∗ (∃ d, owns (c : Thread nD τ) (st14_0 t) fullShare ((dat14 V c).before 0 t d))
      ∗ (∃ d, owns (c : Thread nD τ) (st14_1 t) fullShare ((dat14 V c).before 1 t d))
      ∗ (∃ d, owns (c : Thread nD τ) (st14_2 t) fullShare ((dat14 V c).before 2 t d)))
    ⊢ wp frame (wpE (defs₀ (F := F)) Variants.none c none) Set.univ (bodyAt14 t) (fun _ =>
      iprop((dat14 V c).Φ t.castSucc ∗ (dat14 V c).owesAt () t.castSucc
        ∗ owns (c : Thread nD τ) (st14_0 t) fullShare ((dat14 V c).after 0 t)
        ∗ owns (c : Thread nD τ) (st14_1 t) fullShare ((dat14 V c).after 1 t)
        ∗ owns (c : Thread nD τ) (st14_2 t) fullShare ((dat14 V c).after 2 t)))
  simp only [finds14_0, finds14_1]
  rw [dat14_after_0, dat14_after_1, dat14_after_2]
  unfold bodyAt14
  iintro ⟨HΦ, Ho, ⟨%d0, H0⟩, ⟨%d1, H1⟩, ⟨%d2, H2⟩⟩
  iapply (run14 c Set.univ _ _ _ _ _ _ _ (blk14 V c 0 t) (blk14 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Regs
-- ==== Proof.K.Region15.lean ====
import proofs.«169176_j23261542875327_2_alg».proof.Proof.Gen.Kernel.Launch
import proofs.«169176_j23261542875327_2_alg».proof.Proof.Gen.Kernel.Skeleton
import proofs.«169176_j23261542875327_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic

-- a whole-block rectangle's membership test walks the long axis once per coordinate
set_option maxRecDepth 65536

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 15: the edge-potential update on a 1024x1024 tile

At tile (i, j) of a 4x4 grid the body forms `EP = bf16(yᵢ) · bf16(yⱼ)ᵀ − mea − ½ M`: windows 0 and 1 are the
1024x256 row blocks i and j of ONE array y, windows 2 and 3 the tiles of mea and of M, window 4 the tile of EP;
the product goes into a zero accumulator. Row block i only moves every fourth point. -/

/-- Window `w`'s block at grid point `t`, cut out of its array as the region finds it. -/
def blk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-! ## The whole-block rectangles the body reads and writes through -/

/-- all of a 1024x256 row block of y -/
abbrev rowsR15 : Rect S1024x256 := Rect.unit (s := S1024x256) ![0, 0] S1024x256.size inb_S1024x256_S1024x256_0_0
/-- all of a 1024x1024 tile -/
abbrev sqR15 : Rect S1024x1024 := Rect.unit (s := S1024x1024) ![0, 0] S1024x1024.size inb_S1024x1024_S1024x1024_0_0

/-! ## What the body leaves in the EP tile's buffer -/

/-- Window 4 after the body: the single whole-tile store of `bf16(yᵢ) · bf16(yⱼ)ᵀ − mea − ½ M`. -/
def left15_4 (x0 x1 : Vec F S1024x256 .f32) (x2 x3 : Vec F S1024x1024 .f32) : Vec F S1024x1024 .f32 :=
  View.canon [⟨sqR15, k15_pay1 (View.ld x0 rowsR15) (View.ld x1 rowsR15) (View.ld x2 sqR15) (View.ld x3 sqR15)⟩]

/-- One whole-tile store covers the tile. -/
theorem sqCover15 (p : Vec F S1024x1024 .f32) (y : S1024x1024.Idx) :
    ∃ pc ∈ ([⟨sqR15, p⟩] : List (View.Piece (Elt F) S1024x1024 .f32)), y ∈ pc.1.set :=
  View.cover_of_tiled [⟨sqR15, p⟩] S1024x1024.size (by rfl) y

/-! ## The body on whole staging buffers -/

set_option maxHeartbeats 4000000 in
/-- Run on five whole staging buffers, the four operands' reading `x0 … x3` and the result's holding anything, the
    body returns with the operands as they were and the result at `left15_4` of them. -/
theorem kernel15 (c : Dev nD) (E : Set ℕ) (i : grid15.Coords)
    (a0 : Memref sig .tc .vmem S1024x256 .f32) (h0 : a0.IsWhole) (a1 : Memref sig .tc .vmem S1024x256 .f32) (h1 : a1.IsWhole)
    (a2 : Memref sig .tc .vmem S1024x1024 .f32) (h2 : a2.IsWhole) (a3 : Memref sig .tc .vmem S1024x1024 .f32) (h3 : a3.IsWhole)
    (a4 : Memref sig .tc .vmem S1024x1024 .f32) (h4 : a4.IsWhole)
    (x0 x1 : Vec F S1024x256 .f32) (x2 x3 : Vec F S1024x1024 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (left15_4 x0 x1 x2 x3)) -∗ K ⟨⟩))
      ⊢ wp frame (wpE (defs₀ (F := F)) Variants.none c none) E (cc15__fused_update_ep_kernel i a0 h0 a1 h1 a2 h2 a3 h3 a4 h4) K := by
  simp only [cc15__fused_update_ep_kernel_eq_skeleton]; unfold cc15__fused_update_ep_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (sqCover15 _)

/-! ## The proof data -/

/-- Core `c`'s proof data for the region: the arrays as found; after the body at point `t` each operand's buffer
    still at its block and the result's at `left15_4` of the operand blocks there; the invariant the scoped rest and
    the generator register, untouched; nothing owed. The two windows onto y each hold half of its share, the other
    windows their arrays' whole shares. -/
def dat15 (c : Dev nD) : Dat τ (Elt F) Unit ℕ (UR sig nD τ) ℕ cfg15 c where
  A w := V c (Pipeline.arrRef spec15 w)
  after w t := match w with
    | ⟨0, _⟩ => blk15 V c 0 t
    | ⟨1, _⟩ => blk15 V c 1 t
    | ⟨2, _⟩ => blk15 V c 2 t
    | ⟨3, _⟩ => blk15 V c 3 t
    | ⟨4, _⟩ => left15_4 (blk15 V c 0 t) (blk15 V c 1 t) (blk15 V c 2 t) (blk15 V c 3 t)
  Φ _ := Pipeline.ΦA spec15 c
  q := fun
    | ⟨0, _⟩ => fullShare.left
    | ⟨1, _⟩ => fullShare.right
    | ⟨2, _⟩ => fullShare
    | ⟨3, _⟩ => fullShare
    | ⟨4, _⟩ => fullShare
  owed _ := 0

theorem dat15_A (c : Dev nD) (w : Fin cfg15.W) : (dat15 V c).A w = V c (Pipeline.arrRef spec15 w) := by
  dsimp only [dat15]

theorem dat15_after_0 (c : Dev nD) (t : Fin cfg15.N) : (dat15 V c).after 0 t = blk15 V c 0 t := by dsimp only [dat15]
theorem dat15_after_1 (c : Dev nD) (t : Fin cfg15.N) : (dat15 V c).after 1 t = blk15 V c 1 t := by dsimp only [dat15]
theorem dat15_after_2 (c : Dev nD) (t : Fin cfg15.N) : (dat15 V c).after 2 t = blk15 V c 2 t := by dsimp only [dat15]
theorem dat15_after_3 (c : Dev nD) (t : Fin cfg15.N) : (dat15 V c).after 3 t = blk15 V c 3 t := by dsimp only [dat15]
theorem dat15_after_4 (c : Dev nD) (t : Fin cfg15.N) :
    (dat15 V c).after 4 t = left15_4 (blk15 V c 0 t) (blk15 V c 1 t) (blk15 V c 2 t) (blk15 V c 3 t) := by dsimp only [dat15]

/-! ## An operand's buffer holds its block at every point

Row block i is fetched when i moves, every fourth point, and stays in its buffer in between; the other three
operands are fetched at every point. Either way the current buffer reads the window's block: the body leaves it in
place. -/

theorem held15_0 (c : Dev nD) (t : Fin cfg15.N) (d) : (dat15 V c).before 0 t d = blk15 V c 0 t :=
  ((dat15 V c).before_in_eq_fetched 0 rfl (fun _ => rfl) (fun _ _ _ => rfl)
    (fun t => by rw [dat15_after_0]; unfold Dat.blockOf blk15; rw [dat15_A]; try rfl) t d).trans
    (by unfold Dat.fetched Dat.blockOf blk15; rw [dat15_A]; try rfl)
theorem held15_1 (c : Dev nD) (t : Fin cfg15.N) (d) : (dat15 V c).before 1 t d = blk15 V c 1 t :=
  ((dat15 V c).before_in_eq_fetched 1 rfl (fun _ => rfl) (fun _ _ _ => rfl)
    (fun t => by rw [dat15_after_1]; unfold Dat.blockOf blk15; rw [dat15_A]; try rfl) t d).trans
    (by unfold Dat.fetched Dat.blockOf blk15; rw [dat15_A]; try rfl)
theorem held15_2 (c : Dev nD) (t : Fin cfg15.N) (d) : (dat15 V c).before 2 t d = blk15 V c 2 t :=
  ((dat15 V c).before_in_eq_fetched 2 rfl (fun _ => rfl) (fun _ _ _ => rfl)
    (fun t => by rw [dat15_after_2]; unfold Dat.blockOf blk15; rw [dat15_A]; try rfl) t d).trans
    (by unfold Dat.fetched Dat.blockOf blk15; rw [dat15_A]; try rfl)
theorem held15_3 (c : Dev nD) (t : Fin cfg15.N) (d) : (dat15 V c).before 3 t d = blk15 V c 3 t :=
  ((dat15 V c).before_in_eq_fetched 3 rfl (fun _ => rfl) (fun _ _ _ => rfl)
    (fun t => by rw [dat15_after_3]; unfold Dat.blockOf blk15; rw [dat15_A]; try rfl) t d).trans
    (by unfold Dat.fetched Dat.blockOf blk15; rw [dat15_A]; try rfl)

/-! ## The body obligation -/

/-- What the pipeline hands the body at point `t`, window by window, -/
def handed15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d)))

/-- and what it takes back. -/
def returned15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t))

/-- At any point the operands' buffers read their blocks, so `kernel15` applies; the invariant and what the core
    owes pass through unread. -/
theorem atPoint15 (c : Dev nD) (t : Fin cfg15.N) :
    handed15 V c t ⊢ wp frame (wpE (defs₀ (F := F)) Variants.none c none) Set.univ (bodyAt15 t) (fun _ => returned15 V c t) := by
  unfold handed15 returned15 bodyAt15
  simp only [held15_0, held15_1, held15_2, held15_3]
  rw [show (dat15 V c).Φ t.succ = (dat15 V c).Φ t.castSucc from rfl,
    show (dat15 V c).owesAt () t.succ = (dat15 V c).owesAt () t.castSucc from rfl,
    dat15_after_0, dat15_after_1, dat15_after_2, dat15_after_3, dat15_after_4]
  iintro ⟨HΦ, Ho, ⟨%d0, H0⟩, ⟨%d1, H1⟩, ⟨%d2, H2⟩, ⟨%d3, H3⟩, ⟨%d4, H4⟩⟩
  iapply (kernel15 c Set.univ _ _ _ _ _ _ _ _ _ _ _
    (blk15 V c 0 t) (blk15 V c 1 t) (blk15 V c 2 t) (blk15 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the region, at every point. -/
theorem body15 (c : Dev nD) : BodyObligation (dat15 (F := F) V c) (defs₀ (F := F)) Variants.none () Set.univ := fun t => by
  rw [bigSep_W15, bigSep_W15]
  exact atPoint15 V c t

end Cert.Kernel.Regs
-- ==== Proof.LibRegionRecord.lean ====
/-
  A kernel region as a segment of @main, for a thread state that holds EVERY unscoped buffer of the core at a
  valuation — the form in which a long @main is run, its host stretches folding the valuation forward.

  The region's pipeline has no prefetched table, its kernel no semaphore of its own and owes nothing; the invariant of
  its body is the class's (the scoped buffers no window stages, and the generator register, at anything). Then the
  region is entered from the valuation `W` and left at any valuation `W'` that has each window's array at what the
  pipeline's write-backs leave there and agrees with `W` off the arrays: at the entry the windows' arrays are split out
  of the unscoped buffers, at the exit they are put back, and the generator register and the core's (empty) dues ride
  along. Two forms: the windows' arrays pairwise distinct, each held whole (`record`); and two input windows reading ONE
  array, which is then held in two halves, one per window, and rejoined at the exit (`recordShared`, through a splitting
  entailment and a joining entailment that the certificate supplies for its windows).
-/
import Idealize.ShloMosaic.Lib.Pipeline.Frame
import Idealize.ShloMosaic.Lib.Pipeline.Regions
import Idealize.ShloMosaic.Lib.Pipeline.RegionsLoop
import Idealize.ShloMosaic.Lib.Pipeline.Kit

noncomputable section

namespace Cert.LibRegionRecord

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {U : Type} [URA U]
variable {Λ₀ : Labels} {P : Type} [Fintype P]

local notation "𝕄" => MT nD τ sig Unit Val ℕ U ℕ

/-- What rides beside the buffers through every segment: the core's generator register at some state and its dues,
    at nothing. -/
abbrev Rest (c : Dev nD) : sProp 𝕄 :=
  iprop((∃ r, prngReg c r) ∗ ∃ W, owes (c : Thread nD τ) (0 : CellTallies nD τ sig Unit) W)

/-- Replacing a function's value at a point by the value a replacement there already has changes nothing more. -/
theorem update_idem {α : Type} [DecidableEq α] {β : α → Type} (f : (x : α) → β x) (a : α) (v : β a) :
    Function.update f a (Function.update f a v a) = Function.update f a v := by
  rw [Function.update_self]

/-- The same for two replacements at distinct points. -/
theorem update_idem₂ {α : Type} [DecidableEq α] {β : α → Type} (f : (x : α) → β x) (a b : α) (h : a ≠ b) (v : β a) (w : β b) :
    Function.update (Function.update f a (Function.update (Function.update f a v) b w a)) b
        (Function.update (Function.update f a v) b w b)
      = Function.update (Function.update f a v) b w := by
  rw [Function.update_self, Function.update_of_ne h, Function.update_self]

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

set_option backward.isDefEq.respectTransparency.types false in
/-- The region of pipeline `p`, its windows' arrays pairwise distinct, entered from every unscoped buffer at `W` and
    left at `W'`. -/
def record [∀ e, Nonempty (Val e)] (p : P) (hw : WinFacts (pin pcs a p).spec)
    (harr : ∀ w, ((pin pcs a p).spec w).arr.IsWhole)
    (hpos : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hbody : ∀ c, BodyObligationLoose (pdats p c) defs₀ 𝒱₀ () Set.univ)
    (howed : ∀ c t, (pdats p c).owed t = 0)
    (hrec : ∀ c t, (pdats p c).recorded t = Set.univ)
    (hshare : ∀ c w, (pdats p c).share w = fullShare)
    (hΦ : ∀ c t, (pdats p c).Φ t = ΦA (U := U) (pin pcs a p).spec c)
    (hpref : ∀ c, (BI.emp : sProp 𝕄) ⊢ prefHeld (pcs p).pre c (fun _ => fullShare) (a p).1)
    (W W' : Dev nD → Valuation τ sig Val)
    (hA : ∀ c w, (pdats p c).A w = W c (arrRef (pin pcs a p).spec w))
    (hF : ∀ c w, (pdats p c).arrAt w (pin pcs a p).N = W' c (arrRef (pin pcs a p).spec w))
    (hrest : ∀ c (b : Ref sig .tc), b ∉ Finset.univ.image (arrRef (pin pcs a p).spec) → W' c b = W c b) :
    RegionSeg pcs a pdats () defs₀ 𝒱₀ L lv p where
  win := hw.to₀
  block_pos := hpos
  stage_whole := hstage
  K := PEmpty
  osem k := k.elim
  ho := OwnSemFacts.none _
  hbody := hbody
  hwaits := hwaits_of_owed_zero pcs a pdats () L lv p howed
  pre c := iprop(StableHlo.held (c : Thread nD τ) (ucRefs τ sig) (W c) ∗ Rest c)
  post c := iprop(StableHlo.held (c : Thread nD τ) (ucRefs τ sig) (W' c) ∗ Rest c)
  X c := iprop(∃ r, prngReg c r)
  Y c := iprop(∃ r, prngReg c r)
  Z c := unscopedRest (Ix := Unit) (Name := ℕ) (U := U) (Lvl := ℕ) (pin pcs a p).spec c (fun b => W c b)
  hentry c := by
    rw [ownSems0_none]
    have hsplit := arrays_of_unscopedBufs (p := p) pcs a pdats hw harr c (hshare c) (fun b => W c b) (hA c)
    rw [unscopedBufs_held] at hsplit
    iintro ⟨⟨Hub, Hp, HO⟩, -, -⟩
    ihave H := hsplit $$ Hub
    icases H with ⟨Ha, Hrest⟩
    imodintro
    isplitl [Ha]; · iexact Ha
    isplitr; · iapply (hpref c); iempintro
    isplitl [HO]
    · unfold Dat.owesAt owesWithin
      rw [howed c 0]
      icases HO with ⟨%W₀, HO⟩; iexists W₀; isplitr; · ipureintro; exact fun _ _ => Or.inl (by rw [hrec c 0]; trivial)
      iexact HO
    isplitl [Hp]; · iexact Hp
    iexact Hrest
  hin c := by
    rw [hΦ c 0]; unfold ΦA
    iintro ⟨Hp, -, Hr⟩
    isplitl [Hr]; · iexact Hr
    iexact Hp
  hout c := by
    rw [ownSems0_none, hΦ c (Fin.last _)]; unfold ΦA
    iintro ⟨Hr, Hp⟩
    isplitl [Hp]; · iexact Hp
    isplitr; · iempintro
    iexact Hr
  hexit c := by
    have hjoin := unscopedBufs_of_arrays (p := p) pcs a (Ix := Unit) (Name := ℕ) (U := U) (Lvl := ℕ)
      hw harr c pdats (hshare c) (fun b => W c b) (fun b => W' c b) ((pdats p c).arrAt · (pin pcs a p).N) (hF c) (hrest c)
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin
    rw [howed c (Fin.last _)]
    icases HO with ⟨%W₀, -, HO⟩; iexists W₀; iexact HO

set_option backward.isDefEq.respectTransparency.types false in
/-- The region of pipeline `p` when several input windows may read one array: as `record`, but the certificate says
    how the distinct buffers behind the arrays, whole at the entry contents, make the proof data's arrays at entry
    (`hsplit`: a buffer read by two windows split in two shares) and how the arrays at their last contents make those
    buffers at the exit contents (`hjoin`). -/
def recordShared [∀ e, Nonempty (Val e)] (p : P) (hw : WinFacts₀ (pin pcs a p).spec)
    (harr : ∀ w, ((pin pcs a p).spec w).arr.IsWhole)
    (hpos : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hbody : ∀ c, BodyObligationLoose (pdats p c) defs₀ 𝒱₀ () Set.univ)
    (howed : ∀ c t, (pdats p c).owed t = 0)
    (hrec : ∀ c t, (pdats p c).recorded t = Set.univ)
    (hΦ : ∀ c t, (pdats p c).Φ t = ΦA (U := U) (pin pcs a p).spec c)
    (hpref : ∀ c, (BI.emp : sProp 𝕄) ⊢ prefHeld (pcs p).pre c (fun _ => fullShare) (a p).1)
    (W W' : Dev nD → Valuation τ sig Val)
    (hrest : ∀ c (b : Ref sig .tc), b ∉ Finset.univ.image (arrRef (pin pcs a p).spec) → W' c b = W c b)
    (hsplit : ∀ c, (arrBufs (pin pcs a p).spec c (fun b => W c b) : sProp 𝕄) ⊢ (pdats p c).arrays ((pdats p c).arrAt · 0))
    (hjoin : ∀ c, ((pdats p c).arrays ((pdats p c).arrAt · (pin pcs a p).N) : sProp 𝕄) ⊢ arrBufs (pin pcs a p).spec c (fun b => W' c b)) :
    RegionSeg pcs a pdats () defs₀ 𝒱₀ L lv p where
  win := hw
  block_pos := hpos
  stage_whole := hstage
  K := PEmpty
  osem k := k.elim
  ho := OwnSemFacts.none _
  hbody := hbody
  hwaits := hwaits_of_owed_zero pcs a pdats () L lv p howed
  pre c := iprop(StableHlo.held (c : Thread nD τ) (ucRefs τ sig) (W c) ∗ Rest c)
  post c := iprop(StableHlo.held (c : Thread nD τ) (ucRefs τ sig) (W' c) ∗ Rest c)
  X c := iprop(∃ r, prngReg c r)
  Y c := iprop(∃ r, prngReg c r)
  Z c := unscopedRest (Ix := Unit) (Name := ℕ) (U := U) (Lvl := ℕ) (pin pcs a p).spec c (fun b => W c b)
  hentry c := by
    rw [ownSems0_none]
    have hs : (unscopedBufs c (fun b => W c b) : sProp 𝕄)
        ⊢ iprop((pdats p c).arrays ((pdats p c).arrAt · 0) ∗ unscopedRest (pin pcs a p).spec c (fun b => W c b)) := by
      rw [unscopedBufs_split₀ (pin pcs a) p hw.arr_unscoped c (fun b => W c b)]
      exact sep_mono (hsplit c) .rfl
    rw [unscopedBufs_held] at hs
    iintro ⟨⟨Hub, Hp, HO⟩, -, -⟩
    ihave H := hs $$ Hub
    icases H with ⟨Ha, Hrest⟩
    imodintro
    isplitl [Ha]; · iexact Ha
    isplitr; · iapply (hpref c); iempintro
    isplitl [HO]
    · unfold Dat.owesAt owesWithin
      rw [howed c 0]
      icases HO with ⟨%W₀, HO⟩; iexists W₀; isplitr; · ipureintro; exact fun _ _ => Or.inl (by rw [hrec c 0]; trivial)
      iexact HO
    isplitl [Hp]; · iexact Hp
    iexact Hrest
  hin c := by
    rw [hΦ c 0]; unfold ΦA
    iintro ⟨Hp, -, Hr⟩
    isplitl [Hr]; · iexact Hr
    iexact Hp
  hout c := by
    rw [ownSems0_none, hΦ c (Fin.last _)]; unfold ΦA
    iintro ⟨Hr, Hp⟩
    isplitl [Hp]; · iexact Hp
    isplitr; · iempintro
    iexact Hr
  hexit c := by
    have hj : iprop((pdats p c).arrays ((pdats p c).arrAt · (pin pcs a p).N) ∗ unscopedRest (pin pcs a p).spec c (fun b => W c b))
        ⊢ (unscopedBufs c (fun b => W' c b) : sProp 𝕄) := by
      rw [unscopedBufs_split₀ (pin pcs a) p hw.arr_unscoped c (fun b => W' c b)]
      refine sep_mono (hjoin c) (Entails.of_eq ?_)
      unfold unscopedRest
      exact bigSep_congr fun b hb => by beta_reduce; rw [hrest c b (Finset.mem_sdiff.mp hb).2]
    rw [unscopedBufs_held] at hj
    iintro ⟨Ha, HO, HY, Hrest⟩
    imodintro
    isplitl [Ha Hrest]
    · iapply hj; isplitl [Ha] <;> iassumption
    isplitl [HY]; · iexact HY
    unfold Dat.owesAt owesWithin
    rw [howed c (Fin.last _)]
    icases HO with ⟨%W₀, -, HO⟩; iexists W₀; iexact HO

/-! ## The launch and the end of a program run over such thread states -/

/-- The launch's element of the user algebra is the pipeline library's, beside nothing per core. -/
theorem launch_element (u : U) :
    (ownU u : sProp 𝕄) ⊢ |={Set.univ}=> iprop(BI.own ((emb₁ : Emb U 𝕄) u) ∗ bigSep Finset.univ fun _ : Dev nD => (BI.emp : sProp 𝕄)) := by
  iintro Hu; imodintro
  isplitl [Hu]
  · iapply (show (ownU u : sProp 𝕄) ⊢ BI.own ((emb₁ : Emb U 𝕄) u) from .rfl)
    iexact Hu
  iapply (show (BI.emp : sProp 𝕄) ⊢ bigSep Finset.univ (fun _ : Dev nD => (BI.emp : sProp 𝕄)) from by rw [BI.bigSep_emp_const])
  iempintro

/-- What the launch deals every core beside its buffers — its unscoped semaphores at zero, its dues at nothing, its
    generator register — makes the rest state on every core. -/
theorem rest_of_launch (ρ : Dev nD → PrngReg) :
    iprop((bigSep Finset.univ fun c : Dev nD => iprop(unscopedSems0 c ∗ owes (c : Thread nD τ) ((0 : Dev nD → CellTallies nD τ sig Unit) c) ∅
        ∗ launchCred (0 : Dev nD → CellTallies nD τ sig Unit) c ∗ prngReg c (ρ c) ∗ ((fun _ : Dev nD => (BI.emp : sProp 𝕄)) c))) ∗ levAts L lv)
      ⊢ (|={Set.univ}=> bigSep Finset.univ (fun c : Dev nD => (Rest c : sProp 𝕄)) : sProp 𝕄) := by
  have h1 : ∀ c : Dev nD, iprop(unscopedSems0 c ∗ owes (c : Thread nD τ) ((0 : Dev nD → CellTallies nD τ sig Unit) c) ∅
        ∗ launchCred (0 : Dev nD → CellTallies nD τ sig Unit) c ∗ prngReg c (ρ c) ∗ ((fun _ : Dev nD => (BI.emp : sProp 𝕄)) c))
      ⊢ (Rest c : sProp 𝕄) := fun c => by
    iintro ⟨-, HO, -, Hp, -⟩
    isplitl [Hp]; · iexists _; iexact Hp
    iexists ∅; iexact HO
  have h2 : (bigSep Finset.univ fun c : Dev nD => iprop(unscopedSems0 c ∗ owes (c : Thread nD τ) ((0 : Dev nD → CellTallies nD τ sig Unit) c) ∅
        ∗ launchCred (0 : Dev nD → CellTallies nD τ sig Unit) c ∗ prngReg c (ρ c) ∗ ((fun _ : Dev nD => (BI.emp : sProp 𝕄)) c)) : sProp 𝕄)
      ⊢ bigSep Finset.univ (fun c : Dev nD => (Rest c : sProp 𝕄)) :=
    bigSep_mono (s := Finset.univ) fun (c : Dev nD) (_ : c ∈ Finset.univ) => h1 c
  iintro ⟨H, -⟩
  imodintro
  iapply h2
  iexact H

/-- The rest state ends owing nothing. -/
theorem rest_owes (c : Dev nD) :
    (Rest c : sProp 𝕄) ⊢ iprop(∃ W, owes (c : Thread nD τ) (0 : CellTallies nD τ sig Unit) W) := by
  iintro ⟨-, HO⟩; iexact HO

end Cert.LibRegionRecord

end
-- ==== Proof.K.Stages.lean ====
/-
  The contents of every unscoped buffer of a core at each boundary between two items of @main — a kernel region or a
  stretch of host operations —, as a fold from the launch memory: a host stretch applies its operations' fold; a kernel
  region replaces the array of each of its output windows by what the pipeline's write-backs leave there (the region's
  proof data read at its last point) and touches nothing else. Each region's proof data is stated at the contents the
  region is entered from. The conditional frame is stated over unknown region results; `results` names them, and each
  of its valuations is then the corresponding boundary here.
-/
import proofs.«169176_j23261542875327_2_alg».proof.Proof.K.RegionsP
import proofs.«169176_j23261542875327_2_alg».proof.Proof.K.Region0
import proofs.«169176_j23261542875327_2_alg».proof.Proof.K.Region1
import proofs.«169176_j23261542875327_2_alg».proof.Proof.K.Region2
import proofs.«169176_j23261542875327_2_alg».proof.Proof.K.Region3
import proofs.«169176_j23261542875327_2_alg».proof.Proof.K.Region4
import proofs.«169176_j23261542875327_2_alg».proof.Proof.K.Region5
import proofs.«169176_j23261542875327_2_alg».proof.Proof.K.Region6
import proofs.«169176_j23261542875327_2_alg».proof.Proof.K.Region7
import proofs.«169176_j23261542875327_2_alg».proof.Proof.K.Region8
import proofs.«169176_j23261542875327_2_alg».proof.Proof.K.Region9
import proofs.«169176_j23261542875327_2_alg».proof.Proof.K.Region10
import proofs.«169176_j23261542875327_2_alg».proof.Proof.K.Region11
import proofs.«169176_j23261542875327_2_alg».proof.Proof.K.Region12
import proofs.«169176_j23261542875327_2_alg».proof.Proof.K.Region13
import proofs.«169176_j23261542875327_2_alg».proof.Proof.K.Region14
import proofs.«169176_j23261542875327_2_alg».proof.Proof.K.Region15
import proofs.«169176_j23261542875327_2_alg».proof.Proof.LibRegionRecord
import Idealize.ShloMosaic.Lib.Pipeline.Frame
import Idealize.ShloMosaic.Lib.Pipeline.Kit

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen Cert.Kernel.GenP Cert.Kernel.Regs Cert.LibRegionRecord

variable {F : FTy → Type} [FloatOps F]

variable (m : (ℓ : Loc nD τ sig) → Buf (Elt F) ℓ)

/-! ## The boundaries -/

/-- Core `c`'s buffers at launch. -/
abbrev S0 (c : Dev nD) : Valuation τ sig (Elt F) := fun b => m (c, b)
/-- The same read at the TensorCore's references (what a region's proof data take). -/
abbrev T0 : (c : Dev nD) → (b : Ref sig .tc) → Buf (Elt F) ((c : Thread nD τ).loc b) := fun c b => S0 m c b
/-- After region 0: the array of its output window at what the write-backs leave. -/
def S1 (c : Dev nD) : Valuation τ sig (Elt F) :=
  Function.update (S0 m c) main_v0 ((dat0 (T0 m) c).arrAt 2 cfg0.N : Buf (Elt F) ((c : Thread nD τ).loc main_v0))
abbrev T1 : (c : Dev nD) → (b : Ref sig .tc) → Buf (Elt F) ((c : Thread nD τ).loc b) := fun c b => S1 m c b
/-- After the host stretch `hostOps1`. -/
abbrev S2 (c : Dev nD) : Valuation τ sig (Elt F) := StableHlo.after hostOps1 (S1 m c)
abbrev T2 : (c : Dev nD) → (b : Ref sig .tc) → Buf (Elt F) ((c : Thread nD τ).loc b) := fun c b => S2 m c b
/-- After region 1: the arrays of its two output windows at what the write-backs leave. -/
def S3 (c : Dev nD) : Valuation τ sig (Elt F) :=
  Function.update (Function.update (S2 m c) main_v3_0 ((dat1 (T2 m) c).arrAt 4 cfg1.N : Buf (Elt F) ((c : Thread nD τ).loc main_v3_0)))
    main_v3_1 ((dat1 (T2 m) c).arrAt 5 cfg1.N : Buf (Elt F) ((c : Thread nD τ).loc main_v3_1))
abbrev T3 : (c : Dev nD) → (b : Ref sig .tc) → Buf (Elt F) ((c : Thread nD τ).loc b) := fun c b => S3 m c b
/-- After the host stretch `hostOps2`. -/
abbrev S4 (c : Dev nD) : Valuation τ sig (Elt F) := StableHlo.after hostOps2 (S3 m c)
abbrev T4 : (c : Dev nD) → (b : Ref sig .tc) → Buf (Elt F) ((c : Thread nD τ).loc b) := fun c b => S4 m c b
/-- After region 2: the array of its output window at what the write-backs leave. -/
def S5 (c : Dev nD) : Valuation τ sig (Elt F) :=
  Function.update (S4 m c) main_v12 ((dat2 (T4 m) c).arrAt 2 cfg2.N : Buf (Elt F) ((c : Thread nD τ).loc main_v12))
abbrev T5 : (c : Dev nD) → (b : Ref sig .tc) → Buf (Elt F) ((c : Thread nD τ).loc b) := fun c b => S5 m c b
/-- After the host stretch `hostOps3`. -/
abbrev S6 (c : Dev nD) : Valuation τ sig (Elt F) := StableHlo.after hostOps3 (S5 m c)
abbrev T6 : (c : Dev nD) → (b : Ref sig .tc) → Buf (Elt F) ((c : Thread nD τ).loc b) := fun c b => S6 m c b
/-- After the host stretch `hostOps3_1`. -/
abbrev S7 (c : Dev nD) : Valuation τ sig (Elt F) := StableHlo.after hostOps3_1 (S6 m c)
abbrev T7 : (c : Dev nD) → (b : Ref sig .tc) → Buf (Elt F) ((c : Thread nD τ).loc b) := fun c b => S7 m c b
/-- After the host stretch `hostOps3_2`. -/
abbrev S8 (c : Dev nD) : Valuation τ sig (Elt F) := StableHlo.after hostOps3_2 (S7 m c)
abbrev T8 : (c : Dev nD) → (b : Ref sig .tc) → Buf (Elt F) ((c : Thread nD τ).loc b) := fun c b => S8 m c b
/-- After region 3: the array of its output window at what the write-backs leave. -/
def S9 (c : Dev nD) : Valuation τ sig (Elt F) :=
  Function.update (S8 m c) main_v55 ((dat3 (T8 m) c).arrAt 4 cfg3.N : Buf (Elt F) ((c : Thread nD τ).loc main_v55))
abbrev T9 : (c : Dev nD) → (b : Ref sig .tc) → Buf (Elt F) ((c : Thread nD τ).loc b) := fun c b => S9 m c b
/-- After the host stretch `hostOps4`. -/
abbrev S10 (c : Dev nD) : Valuation τ sig (Elt F) := StableHlo.after hostOps4 (S9 m c)
abbrev T10 : (c : Dev nD) → (b : Ref sig .tc) → Buf (Elt F) ((c : Thread nD τ).loc b) := fun c b => S10 m c b
/-- After region 4: the arrays of its two output windows at what the write-backs leave. -/
def S11 (c : Dev nD) : Valuation τ sig (Elt F) :=
  Function.update (Function.update (S10 m c) main_v57_0 ((dat4 (T10 m) c).arrAt 5 cfg4.N : Buf (Elt F) ((c : Thread nD τ).loc main_v57_0)))
    main_v57_1 ((dat4 (T10 m) c).arrAt 6 cfg4.N : Buf (Elt F) ((c : Thread nD τ).loc main_v57_1))
abbrev T11 : (c : Dev nD) → (b : Ref sig .tc) → Buf (Elt F) ((c : Thread nD τ).loc b) := fun c b => S11 m c b
/-- After region 5: the array of its output window at what the write-backs leave. -/
def S12 (c : Dev nD) : Valuation τ sig (Elt F) :=
  Function.update (S11 m c) main_v58 ((dat5 (T11 m) c).arrAt 2 cfg5.N : Buf (Elt F) ((c : Thread nD τ).loc main_v58))
abbrev T12 : (c : Dev nD) → (b : Ref sig .tc) → Buf (Elt F) ((c : Thread nD τ).loc b) := fun c b => S12 m c b
/-- After the host stretch `hostOps6`. -/
abbrev S13 (c : Dev nD) : Valuation τ sig (Elt F) := StableHlo.after hostOps6 (S12 m c)
abbrev T13 : (c : Dev nD) → (b : Ref sig .tc) → Buf (Elt F) ((c : Thread nD τ).loc b) := fun c b => S13 m c b
/-- After region 6: the array of its output window at what the write-backs leave. -/
def S14 (c : Dev nD) : Valuation τ sig (Elt F) :=
  Function.update (S13 m c) main_v64 ((dat6 (T13 m) c).arrAt 2 cfg6.N : Buf (Elt F) ((c : Thread nD τ).loc main_v64))
abbrev T14 : (c : Dev nD) → (b : Ref sig .tc) → Buf (Elt F) ((c : Thread nD τ).loc b) := fun c b => S14 m c b
/-- After the host stretch `hostOps7`. -/
abbrev S15 (c : Dev nD) : Valuation τ sig (Elt F) := StableHlo.after hostOps7 (S14 m c)
abbrev T15 : (c : Dev nD) → (b : Ref sig .tc) → Buf (Elt F) ((c : Thread nD τ).loc b) := fun c b => S15 m c b
/-- After the host stretch `hostOps7_1`. -/
abbrev S16 (c : Dev nD) : Valuation τ sig (Elt F) := StableHlo.after hostOps7_1 (S15 m c)
abbrev T16 : (c : Dev nD) → (b : Ref sig .tc) → Buf (Elt F) ((c : Thread nD τ).loc b) := fun c b => S16 m c b
/-- After the host stretch `hostOps7_2`. -/
abbrev S17 (c : Dev nD) : Valuation τ sig (Elt F) := StableHlo.after hostOps7_2 (S16 m c)
abbrev T17 : (c : Dev nD) → (b : Ref sig .tc) → Buf (Elt F) ((c : Thread nD τ).loc b) := fun c b => S17 m c b
/-- After region 7: the array of its output window at what the write-backs leave. -/
def S18 (c : Dev nD) : Valuation τ sig (Elt F) :=
  Function.update (S17 m c) main_v107 ((dat7 (T17 m) c).arrAt 4 cfg7.N : Buf (Elt F) ((c : Thread nD τ).loc main_v107))
abbrev T18 : (c : Dev nD) → (b : Ref sig .tc) → Buf (Elt F) ((c : Thread nD τ).loc b) := fun c b => S18 m c b
/-- After the host stretch `hostOps8`. -/
abbrev S19 (c : Dev nD) : Valuation τ sig (Elt F) := StableHlo.after hostOps8 (S18 m c)
abbrev T19 : (c : Dev nD) → (b : Ref sig .tc) → Buf (Elt F) ((c : Thread nD τ).loc b) := fun c b => S19 m c b
/-- After region 8: the arrays of its two output windows at what the write-backs leave. -/
def S20 (c : Dev nD) : Valuation τ sig (Elt F) :=
  Function.update (Function.update (S19 m c) main_v109_0 ((dat8 (T19 m) c).arrAt 5 cfg8.N : Buf (Elt F) ((c : Thread nD τ).loc main_v109_0)))
    main_v109_1 ((dat8 (T19 m) c).arrAt 6 cfg8.N : Buf (Elt F) ((c : Thread nD τ).loc main_v109_1))
abbrev T20 : (c : Dev nD) → (b : Ref sig .tc) → Buf (Elt F) ((c : Thread nD τ).loc b) := fun c b => S20 m c b
/-- After region 9: the array of its output window at what the write-backs leave. -/
def S21 (c : Dev nD) : Valuation τ sig (Elt F) :=
  Function.update (S20 m c) main_v110 ((dat9 (T20 m) c).arrAt 2 cfg9.N : Buf (Elt F) ((c : Thread nD τ).loc main_v110))
abbrev T21 : (c : Dev nD) → (b : Ref sig .tc) → Buf (Elt F) ((c : Thread nD τ).loc b) := fun c b => S21 m c b
/-- After the host stretch `hostOps10`. -/
abbrev S22 (c : Dev nD) : Valuation τ sig (Elt F) := StableHlo.after hostOps10 (S21 m c)
abbrev T22 : (c : Dev nD) → (b : Ref sig .tc) → Buf (Elt F) ((c : Thread nD τ).loc b) := fun c b => S22 m c b
/-- After region 10: the array of its output window at what the write-backs leave. -/
def S23 (c : Dev nD) : Valuation τ sig (Elt F) :=
  Function.update (S22 m c) main_v116 ((dat10 (T22 m) c).arrAt 2 cfg10.N : Buf (Elt F) ((c : Thread nD τ).loc main_v116))
abbrev T23 : (c : Dev nD) → (b : Ref sig .tc) → Buf (Elt F) ((c : Thread nD τ).loc b) := fun c b => S23 m c b
/-- After the host stretch `hostOps11`. -/
abbrev S24 (c : Dev nD) : Valuation τ sig (Elt F) := StableHlo.after hostOps11 (S23 m c)
abbrev T24 : (c : Dev nD) → (b : Ref sig .tc) → Buf (Elt F) ((c : Thread nD τ).loc b) := fun c b => S24 m c b
/-- After the host stretch `hostOps11_1`. -/
abbrev S25 (c : Dev nD) : Valuation τ sig (Elt F) := StableHlo.after hostOps11_1 (S24 m c)
abbrev T25 : (c : Dev nD) → (b : Ref sig .tc) → Buf (Elt F) ((c : Thread nD τ).loc b) := fun c b => S25 m c b
/-- After the host stretch `hostOps11_2`. -/
abbrev S26 (c : Dev nD) : Valuation τ sig (Elt F) := StableHlo.after hostOps11_2 (S25 m c)
abbrev T26 : (c : Dev nD) → (b : Ref sig .tc) → Buf (Elt F) ((c : Thread nD τ).loc b) := fun c b => S26 m c b
/-- After region 11: the array of its output window at what the write-backs leave. -/
def S27 (c : Dev nD) : Valuation τ sig (Elt F) :=
  Function.update (S26 m c) main_v159 ((dat11 (T26 m) c).arrAt 4 cfg11.N : Buf (Elt F) ((c : Thread nD τ).loc main_v159))
abbrev T27 : (c : Dev nD) → (b : Ref sig .tc) → Buf (Elt F) ((c : Thread nD τ).loc b) := fun c b => S27 m c b
/-- After the host stretch `hostOps12`. -/
abbrev S28 (c : Dev nD) : Valuation τ sig (Elt F) := StableHlo.after hostOps12 (S27 m c)
abbrev T28 : (c : Dev nD) → (b : Ref sig .tc) → Buf (Elt F) ((c : Thread nD τ).loc b) := fun c b => S28 m c b
/-- After region 12: the arrays of its two output windows at what the write-backs leave. -/
def S29 (c : Dev nD) : Valuation τ sig (Elt F) :=
  Function.update (Function.update (S28 m c) main_v161_0 ((dat12 (T28 m) c).arrAt 5 cfg12.N : Buf (Elt F) ((c : Thread nD τ).loc main_v161_0)))
    main_v161_1 ((dat12 (T28 m) c).arrAt 6 cfg12.N : Buf (Elt F) ((c : Thread nD τ).loc main_v161_1))
abbrev T29 : (c : Dev nD) → (b : Ref sig .tc) → Buf (Elt F) ((c : Thread nD τ).loc b) := fun c b => S29 m c b
/-- After region 13: the array of its output window at what the write-backs leave. -/
def S30 (c : Dev nD) : Valuation τ sig (Elt F) :=
  Function.update (S29 m c) main_v162 ((dat13 (T29 m) c).arrAt 2 cfg13.N : Buf (Elt F) ((c : Thread nD τ).loc main_v162))
abbrev T30 : (c : Dev nD) → (b : Ref sig .tc) → Buf (Elt F) ((c : Thread nD τ).loc b) := fun c b => S30 m c b
/-- After the host stretch `hostOps14`. -/
abbrev S31 (c : Dev nD) : Valuation τ sig (Elt F) := StableHlo.after hostOps14 (S30 m c)
abbrev T31 : (c : Dev nD) → (b : Ref sig .tc) → Buf (Elt F) ((c : Thread nD τ).loc b) := fun c b => S31 m c b
/-- After region 14: the array of its output window at what the write-backs leave. -/
def S32 (c : Dev nD) : Valuation τ sig (Elt F) :=
  Function.update (S31 m c) main_v168 ((dat14 (T31 m) c).arrAt 2 cfg14.N : Buf (Elt F) ((c : Thread nD τ).loc main_v168))
abbrev T32 : (c : Dev nD) → (b : Ref sig .tc) → Buf (Elt F) ((c : Thread nD τ).loc b) := fun c b => S32 m c b
/-- After the host stretch `hostOps15`. -/
abbrev S33 (c : Dev nD) : Valuation τ sig (Elt F) := StableHlo.after hostOps15 (S32 m c)
abbrev T33 : (c : Dev nD) → (b : Ref sig .tc) → Buf (Elt F) ((c : Thread nD τ).loc b) := fun c b => S33 m c b
/-- After the host stretch `hostOps15_1`. -/
abbrev S34 (c : Dev nD) : Valuation τ sig (Elt F) := StableHlo.after hostOps15_1 (S33 m c)
abbrev T34 : (c : Dev nD) → (b : Ref sig .tc) → Buf (Elt F) ((c : Thread nD τ).loc b) := fun c b => S34 m c b
/-- After the host stretch `hostOps15_2`. -/
abbrev S35 (c : Dev nD) : Valuation τ sig (Elt F) := StableHlo.after hostOps15_2 (S34 m c)
abbrev T35 : (c : Dev nD) → (b : Ref sig .tc) → Buf (Elt F) ((c : Thread nD τ).loc b) := fun c b => S35 m c b
/-- After region 15: the array of its output window at what the write-backs leave. -/
def S36 (c : Dev nD) : Valuation τ sig (Elt F) :=
  Function.update (S35 m c) main_v211 ((dat15 (T35 m) c).arrAt 4 cfg15.N : Buf (Elt F) ((c : Thread nD τ).loc main_v211))
abbrev T36 : (c : Dev nD) → (b : Ref sig .tc) → Buf (Elt F) ((c : Thread nD τ).loc b) := fun c b => S36 m c b
/-- After the host stretch `hostOps16`. -/
abbrev S37 (c : Dev nD) : Valuation τ sig (Elt F) := StableHlo.after hostOps16 (S36 m c)
abbrev T37 : (c : Dev nD) → (b : Ref sig .tc) → Buf (Elt F) ((c : Thread nD τ).loc b) := fun c b => S37 m c b
/-- After the host stretch `hostOps16_1`. -/
abbrev S38 (c : Dev nD) : Valuation τ sig (Elt F) := StableHlo.after hostOps16_1 (S37 m c)
abbrev T38 : (c : Dev nD) → (b : Ref sig .tc) → Buf (Elt F) ((c : Thread nD τ).loc b) := fun c b => S38 m c b
/-- After the host stretch `hostOps16_2`. -/
abbrev S39 (c : Dev nD) : Valuation τ sig (Elt F) := StableHlo.after hostOps16_2 (S38 m c)
abbrev T39 : (c : Dev nD) → (b : Ref sig .tc) → Buf (Elt F) ((c : Thread nD τ).loc b) := fun c b => S39 m c b
/-- After the host stretch `hostOps16_3`. -/
abbrev S40 (c : Dev nD) : Valuation τ sig (Elt F) := StableHlo.after hostOps16_3 (S39 m c)
abbrev T40 : (c : Dev nD) → (b : Ref sig .tc) → Buf (Elt F) ((c : Thread nD τ).loc b) := fun c b => S40 m c b
/-- After the host stretch `hostOps16_4`. -/
abbrev S41 (c : Dev nD) : Valuation τ sig (Elt F) := StableHlo.after hostOps16_4 (S40 m c)
abbrev T41 : (c : Dev nD) → (b : Ref sig .tc) → Buf (Elt F) ((c : Thread nD τ).loc b) := fun c b => S41 m c b

/-! ## The regions' results, and the conditional frame's valuations -/

/-- What the regions leave in the buffers they may change: the boundary after the region, read at the buffer. -/
def results : Outs (F := F) := fun J r c =>
  match J with
  | 1 => S1 m c r
  | 3 => S3 m c r
  | 5 => S5 m c r
  | 9 => S9 m c r
  | 11 => S11 m c r
  | 12 => S12 m c r
  | 14 => S14 m c r
  | 18 => S18 m c r
  | 20 => S20 m c r
  | 21 => S21 m c r
  | 23 => S23 m c r
  | 27 => S27 m c r
  | 29 => S29 m c r
  | 30 => S30 m c r
  | 32 => S32 m c r
  | 36 => S36 m c r
  | _ => S0 m c r

theorem V0_eq (c : Dev nD) : V0 m c = S0 m c := rfl
theorem V1_eq (c : Dev nD) : V1 m (results m) c = S1 m c := by
  show Function.update (V0 m c) main_v0 (S1 m c main_v0) = _
  rw [V0_eq]; unfold S1; exact update_idem _ _ _
theorem V2_eq (c : Dev nD) : V2 m (results m) c = S2 m c := by
  show StableHlo.after hostOps1 (V1 m (results m) c) = _
  rw [V1_eq]
theorem V3_eq (c : Dev nD) : V3 m (results m) c = S3 m c := by
  show Function.update (Function.update (V2 m (results m) c) main_v3_0 (S3 m c main_v3_0)) main_v3_1 (S3 m c main_v3_1) = _
  rw [V2_eq]; unfold S3
  exact update_idem₂ _ _ _ (StableHlo.devRef_ne_of_ne (by decide)) _ _
theorem V4_eq (c : Dev nD) : V4 m (results m) c = S4 m c := by
  show StableHlo.after hostOps2 (V3 m (results m) c) = _
  rw [V3_eq]
theorem V5_eq (c : Dev nD) : V5 m (results m) c = S5 m c := by
  show Function.update (V4 m (results m) c) main_v12 (S5 m c main_v12) = _
  rw [V4_eq]; unfold S5; exact update_idem _ _ _
theorem V6_eq (c : Dev nD) : V6 m (results m) c = S6 m c := by
  show StableHlo.after hostOps3 (V5 m (results m) c) = _
  rw [V5_eq]
theorem V7_eq (c : Dev nD) : V7 m (results m) c = S7 m c := by
  show StableHlo.after hostOps3_1 (V6 m (results m) c) = _
  rw [V6_eq]
theorem V8_eq (c : Dev nD) : V8 m (results m) c = S8 m c := by
  show StableHlo.after hostOps3_2 (V7 m (results m) c) = _
  rw [V7_eq]
theorem V9_eq (c : Dev nD) : V9 m (results m) c = S9 m c := by
  show Function.update (V8 m (results m) c) main_v55 (S9 m c main_v55) = _
  rw [V8_eq]; unfold S9; exact update_idem _ _ _
theorem V10_eq (c : Dev nD) : V10 m (results m) c = S10 m c := by
  show StableHlo.after hostOps4 (V9 m (results m) c) = _
  rw [V9_eq]
theorem V11_eq (c : Dev nD) : V11 m (results m) c = S11 m c := by
  show Function.update (Function.update (V10 m (results m) c) main_v57_0 (S11 m c main_v57_0)) main_v57_1 (S11 m c main_v57_1) = _
  rw [V10_eq]; unfold S11
  exact update_idem₂ _ _ _ (StableHlo.devRef_ne_of_ne (by decide)) _ _
theorem V12_eq (c : Dev nD) : V12 m (results m) c = S12 m c := by
  show Function.update (V11 m (results m) c) main_v58 (S12 m c main_v58) = _
  rw [V11_eq]; unfold S12; exact update_idem _ _ _
theorem V13_eq (c : Dev nD) : V13 m (results m) c = S13 m c := by
  show StableHlo.after hostOps6 (V12 m (results m) c) = _
  rw [V12_eq]
theorem V14_eq (c : Dev nD) : V14 m (results m) c = S14 m c := by
  show Function.update (V13 m (results m) c) main_v64 (S14 m c main_v64) = _
  rw [V13_eq]; unfold S14; exact update_idem _ _ _
theorem V15_eq (c : Dev nD) : V15 m (results m) c = S15 m c := by
  show StableHlo.after hostOps7 (V14 m (results m) c) = _
  rw [V14_eq]
theorem V16_eq (c : Dev nD) : V16 m (results m) c = S16 m c := by
  show StableHlo.after hostOps7_1 (V15 m (results m) c) = _
  rw [V15_eq]
theorem V17_eq (c : Dev nD) : V17 m (results m) c = S17 m c := by
  show StableHlo.after hostOps7_2 (V16 m (results m) c) = _
  rw [V16_eq]
theorem V18_eq (c : Dev nD) : V18 m (results m) c = S18 m c := by
  show Function.update (V17 m (results m) c) main_v107 (S18 m c main_v107) = _
  rw [V17_eq]; unfold S18; exact update_idem _ _ _
theorem V19_eq (c : Dev nD) : V19 m (results m) c = S19 m c := by
  show StableHlo.after hostOps8 (V18 m (results m) c) = _
  rw [V18_eq]
theorem V20_eq (c : Dev nD) : V20 m (results m) c = S20 m c := by
  show Function.update (Function.update (V19 m (results m) c) main_v109_0 (S20 m c main_v109_0)) main_v109_1 (S20 m c main_v109_1) = _
  rw [V19_eq]; unfold S20
  exact update_idem₂ _ _ _ (StableHlo.devRef_ne_of_ne (by decide)) _ _
theorem V21_eq (c : Dev nD) : V21 m (results m) c = S21 m c := by
  show Function.update (V20 m (results m) c) main_v110 (S21 m c main_v110) = _
  rw [V20_eq]; unfold S21; exact update_idem _ _ _
theorem V22_eq (c : Dev nD) : V22 m (results m) c = S22 m c := by
  show StableHlo.after hostOps10 (V21 m (results m) c) = _
  rw [V21_eq]
theorem V23_eq (c : Dev nD) : V23 m (results m) c = S23 m c := by
  show Function.update (V22 m (results m) c) main_v116 (S23 m c main_v116) = _
  rw [V22_eq]; unfold S23; exact update_idem _ _ _
theorem V24_eq (c : Dev nD) : V24 m (results m) c = S24 m c := by
  show StableHlo.after hostOps11 (V23 m (results m) c) = _
  rw [V23_eq]
theorem V25_eq (c : Dev nD) : V25 m (results m) c = S25 m c := by
  show StableHlo.after hostOps11_1 (V24 m (results m) c) = _
  rw [V24_eq]
theorem V26_eq (c : Dev nD) : V26 m (results m) c = S26 m c := by
  show StableHlo.after hostOps11_2 (V25 m (results m) c) = _
  rw [V25_eq]
theorem V27_eq (c : Dev nD) : V27 m (results m) c = S27 m c := by
  show Function.update (V26 m (results m) c) main_v159 (S27 m c main_v159) = _
  rw [V26_eq]; unfold S27; exact update_idem _ _ _
theorem V28_eq (c : Dev nD) : V28 m (results m) c = S28 m c := by
  show StableHlo.after hostOps12 (V27 m (results m) c) = _
  rw [V27_eq]
theorem V29_eq (c : Dev nD) : V29 m (results m) c = S29 m c := by
  show Function.update (Function.update (V28 m (results m) c) main_v161_0 (S29 m c main_v161_0)) main_v161_1 (S29 m c main_v161_1) = _
  rw [V28_eq]; unfold S29
  exact update_idem₂ _ _ _ (StableHlo.devRef_ne_of_ne (by decide)) _ _
theorem V30_eq (c : Dev nD) : V30 m (results m) c = S30 m c := by
  show Function.update (V29 m (results m) c) main_v162 (S30 m c main_v162) = _
  rw [V29_eq]; unfold S30; exact update_idem _ _ _
theorem V31_eq (c : Dev nD) : V31 m (results m) c = S31 m c := by
  show StableHlo.after hostOps14 (V30 m (results m) c) = _
  rw [V30_eq]
theorem V32_eq (c : Dev nD) : V32 m (results m) c = S32 m c := by
  show Function.update (V31 m (results m) c) main_v168 (S32 m c main_v168) = _
  rw [V31_eq]; unfold S32; exact update_idem _ _ _
theorem V33_eq (c : Dev nD) : V33 m (results m) c = S33 m c := by
  show StableHlo.after hostOps15 (V32 m (results m) c) = _
  rw [V32_eq]
theorem V34_eq (c : Dev nD) : V34 m (results m) c = S34 m c := by
  show StableHlo.after hostOps15_1 (V33 m (results m) c) = _
  rw [V33_eq]
theorem V35_eq (c : Dev nD) : V35 m (results m) c = S35 m c := by
  show StableHlo.after hostOps15_2 (V34 m (results m) c) = _
  rw [V34_eq]
theorem V36_eq (c : Dev nD) : V36 m (results m) c = S36 m c := by
  show Function.update (V35 m (results m) c) main_v211 (S36 m c main_v211) = _
  rw [V35_eq]; unfold S36; exact update_idem _ _ _
theorem V37_eq (c : Dev nD) : V37 m (results m) c = S37 m c := by
  show StableHlo.after hostOps16 (V36 m (results m) c) = _
  rw [V36_eq]
theorem V38_eq (c : Dev nD) : V38 m (results m) c = S38 m c := by
  show StableHlo.after hostOps16_1 (V37 m (results m) c) = _
  rw [V37_eq]
theorem V39_eq (c : Dev nD) : V39 m (results m) c = S39 m c := by
  show StableHlo.after hostOps16_2 (V38 m (results m) c) = _
  rw [V38_eq]
theorem V40_eq (c : Dev nD) : V40 m (results m) c = S40 m c := by
  show StableHlo.after hostOps16_3 (V39 m (results m) c) = _
  rw [V39_eq]
theorem V41_eq (c : Dev nD) : V41 m (results m) c = S41 m c := by
  show StableHlo.after hostOps16_4 (V40 m (results m) c) = _
  rw [V40_eq]

/-! ## The proof data of every pipeline, each at its region's entry contents -/

/-- A literal match on the pipeline, so that the data of pipeline K reduce to region K's. -/
def pdats : (p : Fin 16) → (c : Dev nD) → Dat τ (Elt F) Unit ℕ (UR sig nD τ) ℕ (cfgs p) c
  | ⟨0, _⟩ => fun c => dat0 (T0 m) c
  | ⟨1, _⟩ => fun c => dat1 (T2 m) c
  | ⟨2, _⟩ => fun c => dat2 (T4 m) c
  | ⟨3, _⟩ => fun c => dat3 (T8 m) c
  | ⟨4, _⟩ => fun c => dat4 (T10 m) c
  | ⟨5, _⟩ => fun c => dat5 (T11 m) c
  | ⟨6, _⟩ => fun c => dat6 (T13 m) c
  | ⟨7, _⟩ => fun c => dat7 (T17 m) c
  | ⟨8, _⟩ => fun c => dat8 (T19 m) c
  | ⟨9, _⟩ => fun c => dat9 (T20 m) c
  | ⟨10, _⟩ => fun c => dat10 (T22 m) c
  | ⟨11, _⟩ => fun c => dat11 (T26 m) c
  | ⟨12, _⟩ => fun c => dat12 (T28 m) c
  | ⟨13, _⟩ => fun c => dat13 (T29 m) c
  | ⟨14, _⟩ => fun c => dat14 (T31 m) c
  | ⟨15, _⟩ => fun c => dat15 (T35 m) c
  | ⟨_ + 16, h⟩ => absurd h (Nat.not_lt.2 (Nat.le_add_left _ _))

end Cert.Kernel.Run

end
-- ==== Proof.K.Shared3.lean ====
/- Region 3 of @main: entering and leaving it when two windows read one array.

   Windows 0 and 1 of this region are row blocks i and j of ONE array y; windows 2, 3, 4 stand on mea, M and the result
   EP. So five windows stand on four buffers, and the region is entered by splitting y's buffer between its two readers
   and left by joining the two halves again. -/
import proofs.«169176_j23261542875327_2_alg».proof.Proof.K.Region3
import Idealize.ShloMosaic.Lib.Pipeline.Launch
import Idealize.ShloMosaic.Lib.Pipeline.Regions
import Idealize.ShloMosaic.Lib.Pipeline.Kit

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V V' : (c : Dev nD) → (b : Ref sig .tc) → Buf (Elt F) ((c : Thread nD τ).loc b))

/-- The five windows stand on four arrays: y (read through windows 0 and 1), mea, M and the result EP. -/
theorem refs3 : Finset.univ.image (Pipeline.arrRef spec3) = {main_arg0, main_v0, main_v54, main_v55} := by decide

/-- Every window's array is a whole buffer. -/
theorem whole3 (w : Fin cfg3.W) : (cfg3.win w).arr.view.set = Finset.univ := (arr_whole3 w).set_eq_univ

/-- The shares the windows hold their arrays at: y's two readers a half each, the others whole. -/
theorem share3_0 (c : Dev nD) : (dat3 V c).share 0 = fullShare.left := rfl
theorem share3_1 (c : Dev nD) : (dat3 V c).share 1 = fullShare.right := rfl
theorem share3_2 (c : Dev nD) : (dat3 V c).share 2 = fullShare := rfl
theorem share3_3 (c : Dev nD) : (dat3 V c).share 3 = fullShare := rfl
theorem share3_4 (c : Dev nD) : (dat3 V c).share 4 = fullShare := rfl

set_option maxHeartbeats 1000000 in
/-- ENTRY. The four buffers held whole at the contents `V` give the five windows their arrays: y's buffer is split in
    its two halves, one per reading window, both at y's contents; mea, M and EP pass through. -/
theorem split3 (c : Dev nD) :
    (Pipeline.arrBufs (Ix := Unit) (Name := ℕ) (U := UR sig nD τ) (Lvl := ℕ) spec3 c (V c) : sProp 𝕄)
      ⊢ (dat3 V c).arrays ((dat3 V c).arrAt · 0) := by
  unfold Pipeline.arrBufs Dat.arrays
  rw [refs3, bigSep_W3, bigSep_insert (by decide), bigSep_insert (by decide), bigSep_insert (by decide), bigSep_singleton]
  simp only [share3_0, share3_1, share3_2, share3_3, share3_4, whole3 0, whole3 1, whole3 2, whole3 3, whole3 4]
  show iprop(((c : Thread nD τ).loc main_arg0 ↦{fullShare} V c main_arg0) ∗ ((c : Thread nD τ).loc main_v0 ↦{fullShare} V c main_v0)
      ∗ ((c : Thread nD τ).loc main_v54 ↦{fullShare} V c main_v54) ∗ ((c : Thread nD τ).loc main_v55 ↦{fullShare} V c main_v55))
    ⊢ (iprop(((c : Thread nD τ).loc main_arg0 ↦{fullShare.left} V c main_arg0) ∗ ((c : Thread nD τ).loc main_arg0 ↦{fullShare.right} V c main_arg0)
      ∗ ((c : Thread nD τ).loc main_v0 ↦{fullShare} V c main_v0) ∗ ((c : Thread nD τ).loc main_v54 ↦{fullShare} V c main_v54)
      ∗ ((c : Thread nD τ).loc main_v55 ↦{fullShare} V c main_v55)) : sProp 𝕄)
  iintro ⟨Hy, Hmea, HM, Hout⟩
  ihave Hy := (pointsTo_share (PosShare.mem_left_op_right fullShare)).1 $$ Hy
  icases Hy with ⟨Hl, Hr⟩
  isplitl [Hl]; · iexact Hl
  isplitl [Hr]; · iexact Hr
  isplitl [Hmea]; · iexact Hmea
  isplitl [HM]; · iexact HM
  iexact Hout

set_option maxHeartbeats 1000000 in
/-- EXIT. When every window's array ends at the contents `V'` (`hF`), the five windows' arrays give back the four
    buffers whole at `V'`: y's two halves, both at the one contents `V'` has for y, join to the whole; mea, M and EP pass
    through. -/
theorem join3 (c : Dev nD)
    (hF : ∀ w : Fin cfg3.W, (dat3 V c).arrAt w cfg3.N = V' c (Pipeline.arrRef spec3 w)) :
    ((dat3 V c).arrays ((dat3 V c).arrAt · cfg3.N) : sProp 𝕄)
      ⊢ Pipeline.arrBufs (Ix := Unit) (Name := ℕ) (U := UR sig nD τ) (Lvl := ℕ) spec3 c (V' c) := by
  unfold Pipeline.arrBufs Dat.arrays
  rw [refs3, bigSep_W3, bigSep_insert (by decide), bigSep_insert (by decide), bigSep_insert (by decide), bigSep_singleton]
  simp only [share3_0, share3_1, share3_2, share3_3, share3_4, whole3 0, whole3 1, whole3 2, whole3 3, whole3 4, hF]
  show (iprop(((c : Thread nD τ).loc main_arg0 ↦{fullShare.left} V' c main_arg0) ∗ ((c : Thread nD τ).loc main_arg0 ↦{fullShare.right} V' c main_arg0)
      ∗ ((c : Thread nD τ).loc main_v0 ↦{fullShare} V' c main_v0) ∗ ((c : Thread nD τ).loc main_v54 ↦{fullShare} V' c main_v54)
      ∗ ((c : Thread nD τ).loc main_v55 ↦{fullShare} V' c main_v55)) : sProp 𝕄)
    ⊢ iprop(((c : Thread nD τ).loc main_arg0 ↦{fullShare} V' c main_arg0) ∗ ((c : Thread nD τ).loc main_v0 ↦{fullShare} V' c main_v0)
      ∗ ((c : Thread nD τ).loc main_v54 ↦{fullShare} V' c main_v54) ∗ ((c : Thread nD τ).loc main_v55 ↦{fullShare} V' c main_v55))
  iintro ⟨Hl, Hr, Hmea, HM, Hout⟩
  isplitl [Hl Hr]
  · iapply (pointsTo_share (PosShare.mem_left_op_right fullShare)).2
    isplitl [Hl]; · iexact Hl
    iexact Hr
  isplitl [Hmea]; · iexact Hmea
  isplitl [HM]; · iexact HM
  iexact Hout

end Cert.Kernel.Regs
-- ==== Proof.K.Shared7.lean ====
/- Region 7 of @main: entering and leaving it when two windows read one array.

   Windows 0 and 1 of this region are row blocks i and j of ONE array y; windows 2, 3, 4 stand on mea, M and the result
   EP. So five windows stand on four buffers, and the region is entered by splitting y's buffer between its two readers
   and left by joining the two halves again. -/
import proofs.«169176_j23261542875327_2_alg».proof.Proof.K.Region7
import Idealize.ShloMosaic.Lib.Pipeline.Launch
import Idealize.ShloMosaic.Lib.Pipeline.Regions
import Idealize.ShloMosaic.Lib.Pipeline.Kit

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V V' : (c : Dev nD) → (b : Ref sig .tc) → Buf (Elt F) ((c : Thread nD τ).loc b))

/-- The five windows stand on four arrays: y (read through windows 0 and 1), mea, M and the result EP. -/
theorem refs7 : Finset.univ.image (Pipeline.arrRef spec7) = {main_v21, main_v0, main_v106, main_v107} := by decide

/-- Every window's array is a whole buffer. -/
theorem whole7 (w : Fin cfg7.W) : (cfg7.win w).arr.view.set = Finset.univ := (arr_whole7 w).set_eq_univ

/-- The shares the windows hold their arrays at: y's two readers a half each, the others whole. -/
theorem share7_0 (c : Dev nD) : (dat7 V c).share 0 = fullShare.left := rfl
theorem share7_1 (c : Dev nD) : (dat7 V c).share 1 = fullShare.right := rfl
theorem share7_2 (c : Dev nD) : (dat7 V c).share 2 = fullShare := rfl
theorem share7_3 (c : Dev nD) : (dat7 V c).share 3 = fullShare := rfl
theorem share7_4 (c : Dev nD) : (dat7 V c).share 4 = fullShare := rfl

set_option maxHeartbeats 1000000 in
/-- ENTRY. The four buffers held whole at the contents `V` give the five windows their arrays: y's buffer is split in
    its two halves, one per reading window, both at y's contents; mea, M and EP pass through. -/
theorem split7 (c : Dev nD) :
    (Pipeline.arrBufs (Ix := Unit) (Name := ℕ) (U := UR sig nD τ) (Lvl := ℕ) spec7 c (V c) : sProp 𝕄)
      ⊢ (dat7 V c).arrays ((dat7 V c).arrAt · 0) := by
  unfold Pipeline.arrBufs Dat.arrays
  rw [refs7, bigSep_W7, bigSep_insert (by decide), bigSep_insert (by decide), bigSep_insert (by decide), bigSep_singleton]
  simp only [share7_0, share7_1, share7_2, share7_3, share7_4, whole7 0, whole7 1, whole7 2, whole7 3, whole7 4]
  show iprop(((c : Thread nD τ).loc main_v21 ↦{fullShare} V c main_v21) ∗ ((c : Thread nD τ).loc main_v0 ↦{fullShare} V c main_v0)
      ∗ ((c : Thread nD τ).loc main_v106 ↦{fullShare} V c main_v106) ∗ ((c : Thread nD τ).loc main_v107 ↦{fullShare} V c main_v107))
    ⊢ (iprop(((c : Thread nD τ).loc main_v21 ↦{fullShare.left} V c main_v21) ∗ ((c : Thread nD τ).loc main_v21 ↦{fullShare.right} V c main_v21)
      ∗ ((c : Thread nD τ).loc main_v0 ↦{fullShare} V c main_v0) ∗ ((c : Thread nD τ).loc main_v106 ↦{fullShare} V c main_v106)
      ∗ ((c : Thread nD τ).loc main_v107 ↦{fullShare} V c main_v107)) : sProp 𝕄)
  iintro ⟨Hy, Hmea, HM, Hout⟩
  ihave Hy := (pointsTo_share (PosShare.mem_left_op_right fullShare)).1 $$ Hy
  icases Hy with ⟨Hl, Hr⟩
  isplitl [Hl]; · iexact Hl
  isplitl [Hr]; · iexact Hr
  isplitl [Hmea]; · iexact Hmea
  isplitl [HM]; · iexact HM
  iexact Hout

set_option maxHeartbeats 1000000 in
/-- EXIT. When every window's array ends at the contents `V'` (`hF`), the five windows' arrays give back the four
    buffers whole at `V'`: y's two halves, both at the one contents `V'` has for y, join to the whole; mea, M and EP pass
    through. -/
theorem join7 (c : Dev nD)
    (hF : ∀ w : Fin cfg7.W, (dat7 V c).arrAt w cfg7.N = V' c (Pipeline.arrRef spec7 w)) :
    ((dat7 V c).arrays ((dat7 V c).arrAt · cfg7.N) : sProp 𝕄)
      ⊢ Pipeline.arrBufs (Ix := Unit) (Name := ℕ) (U := UR sig nD τ) (Lvl := ℕ) spec7 c (V' c) := by
  unfold Pipeline.arrBufs Dat.arrays
  rw [refs7, bigSep_W7, bigSep_insert (by decide), bigSep_insert (by decide), bigSep_insert (by decide), bigSep_singleton]
  simp only [share7_0, share7_1, share7_2, share7_3, share7_4, whole7 0, whole7 1, whole7 2, whole7 3, whole7 4, hF]
  show (iprop(((c : Thread nD τ).loc main_v21 ↦{fullShare.left} V' c main_v21) ∗ ((c : Thread nD τ).loc main_v21 ↦{fullShare.right} V' c main_v21)
      ∗ ((c : Thread nD τ).loc main_v0 ↦{fullShare} V' c main_v0) ∗ ((c : Thread nD τ).loc main_v106 ↦{fullShare} V' c main_v106)
      ∗ ((c : Thread nD τ).loc main_v107 ↦{fullShare} V' c main_v107)) : sProp 𝕄)
    ⊢ iprop(((c : Thread nD τ).loc main_v21 ↦{fullShare} V' c main_v21) ∗ ((c : Thread nD τ).loc main_v0 ↦{fullShare} V' c main_v0)
      ∗ ((c : Thread nD τ).loc main_v106 ↦{fullShare} V' c main_v106) ∗ ((c : Thread nD τ).loc main_v107 ↦{fullShare} V' c main_v107))
  iintro ⟨Hl, Hr, Hmea, HM, Hout⟩
  isplitl [Hl Hr]
  · iapply (pointsTo_share (PosShare.mem_left_op_right fullShare)).2
    isplitl [Hl]; · iexact Hl
    iexact Hr
  isplitl [Hmea]; · iexact Hmea
  isplitl [HM]; · iexact HM
  iexact Hout

end Cert.Kernel.Regs
-- ==== Proof.K.Shared11.lean ====
/- Region 11 of @main: entering and leaving it when two windows read one array.

   Windows 0 and 1 of this region are row blocks i and j of ONE array y; windows 2, 3, 4 stand on mea, M and the result
   EP. So five windows stand on four buffers, and the region is entered by splitting y's buffer between its two readers
   and left by joining the two halves again. -/
import proofs.«169176_j23261542875327_2_alg».proof.Proof.K.Region11
import Idealize.ShloMosaic.Lib.Pipeline.Launch
import Idealize.ShloMosaic.Lib.Pipeline.Regions
import Idealize.ShloMosaic.Lib.Pipeline.Kit

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V V' : (c : Dev nD) → (b : Ref sig .tc) → Buf (Elt F) ((c : Thread nD τ).loc b))

/-- The five windows stand on four arrays: y (read through windows 0 and 1), mea, M and the result EP. -/
theorem refs11 : Finset.univ.image (Pipeline.arrRef spec11) = {main_v73, main_v0, main_v158, main_v159} := by decide

/-- Every window's array is a whole buffer. -/
theorem whole11 (w : Fin cfg11.W) : (cfg11.win w).arr.view.set = Finset.univ := (arr_whole11 w).set_eq_univ

/-- The shares the windows hold their arrays at: y's two readers a half each, the others whole. -/
theorem share11_0 (c : Dev nD) : (dat11 V c).share 0 = fullShare.left := rfl
theorem share11_1 (c : Dev nD) : (dat11 V c).share 1 = fullShare.right := rfl
theorem share11_2 (c : Dev nD) : (dat11 V c).share 2 = fullShare := rfl
theorem share11_3 (c : Dev nD) : (dat11 V c).share 3 = fullShare := rfl
theorem share11_4 (c : Dev nD) : (dat11 V c).share 4 = fullShare := rfl

set_option maxHeartbeats 1000000 in
/-- ENTRY. The four buffers held whole at the contents `V` give the five windows their arrays: y's buffer is split in
    its two halves, one per reading window, both at y's contents; mea, M and EP pass through. -/
theorem split11 (c : Dev nD) :
    (Pipeline.arrBufs (Ix := Unit) (Name := ℕ) (U := UR sig nD τ) (Lvl := ℕ) spec11 c (V c) : sProp 𝕄)
      ⊢ (dat11 V c).arrays ((dat11 V c).arrAt · 0) := by
  unfold Pipeline.arrBufs Dat.arrays
  rw [refs11, bigSep_W11, bigSep_insert (by decide), bigSep_insert (by decide), bigSep_insert (by decide), bigSep_singleton]
  simp only [share11_0, share11_1, share11_2, share11_3, share11_4, whole11 0, whole11 1, whole11 2, whole11 3, whole11 4]
  show iprop(((c : Thread nD τ).loc main_v73 ↦{fullShare} V c main_v73) ∗ ((c : Thread nD τ).loc main_v0 ↦{fullShare} V c main_v0)
      ∗ ((c : Thread nD τ).loc main_v158 ↦{fullShare} V c main_v158) ∗ ((c : Thread nD τ).loc main_v159 ↦{fullShare} V c main_v159))
    ⊢ (iprop(((c : Thread nD τ).loc main_v73 ↦{fullShare.left} V c main_v73) ∗ ((c : Thread nD τ).loc main_v73 ↦{fullShare.right} V c main_v73)
      ∗ ((c : Thread nD τ).loc main_v0 ↦{fullShare} V c main_v0) ∗ ((c : Thread nD τ).loc main_v158 ↦{fullShare} V c main_v158)
      ∗ ((c : Thread nD τ).loc main_v159 ↦{fullShare} V c main_v159)) : sProp 𝕄)
  iintro ⟨Hy, Hmea, HM, Hout⟩
  ihave Hy := (pointsTo_share (PosShare.mem_left_op_right fullShare)).1 $$ Hy
  icases Hy with ⟨Hl, Hr⟩
  isplitl [Hl]; · iexact Hl
  isplitl [Hr]; · iexact Hr
  isplitl [Hmea]; · iexact Hmea
  isplitl [HM]; · iexact HM
  iexact Hout

set_option maxHeartbeats 1000000 in
/-- EXIT. When every window's array ends at the contents `V'` (`hF`), the five windows' arrays give back the four
    buffers whole at `V'`: y's two halves, both at the one contents `V'` has for y, join to the whole; mea, M and EP pass
    through. -/
theorem join11 (c : Dev nD)
    (hF : ∀ w : Fin cfg11.W, (dat11 V c).arrAt w cfg11.N = V' c (Pipeline.arrRef spec11 w)) :
    ((dat11 V c).arrays ((dat11 V c).arrAt · cfg11.N) : sProp 𝕄)
      ⊢ Pipeline.arrBufs (Ix := Unit) (Name := ℕ) (U := UR sig nD τ) (Lvl := ℕ) spec11 c (V' c) := by
  unfold Pipeline.arrBufs Dat.arrays
  rw [refs11, bigSep_W11, bigSep_insert (by decide), bigSep_insert (by decide), bigSep_insert (by decide), bigSep_singleton]
  simp only [share11_0, share11_1, share11_2, share11_3, share11_4, whole11 0, whole11 1, whole11 2, whole11 3, whole11 4, hF]
  show (iprop(((c : Thread nD τ).loc main_v73 ↦{fullShare.left} V' c main_v73) ∗ ((c : Thread nD τ).loc main_v73 ↦{fullShare.right} V' c main_v73)
      ∗ ((c : Thread nD τ).loc main_v0 ↦{fullShare} V' c main_v0) ∗ ((c : Thread nD τ).loc main_v158 ↦{fullShare} V' c main_v158)
      ∗ ((c : Thread nD τ).loc main_v159 ↦{fullShare} V' c main_v159)) : sProp 𝕄)
    ⊢ iprop(((c : Thread nD τ).loc main_v73 ↦{fullShare} V' c main_v73) ∗ ((c : Thread nD τ).loc main_v0 ↦{fullShare} V' c main_v0)
      ∗ ((c : Thread nD τ).loc main_v158 ↦{fullShare} V' c main_v158) ∗ ((c : Thread nD τ).loc main_v159 ↦{fullShare} V' c main_v159))
  iintro ⟨Hl, Hr, Hmea, HM, Hout⟩
  isplitl [Hl Hr]
  · iapply (pointsTo_share (PosShare.mem_left_op_right fullShare)).2
    isplitl [Hl]; · iexact Hl
    iexact Hr
  isplitl [Hmea]; · iexact Hmea
  isplitl [HM]; · iexact HM
  iexact Hout

end Cert.Kernel.Regs
-- ==== Proof.K.Shared15.lean ====
/- Region 15 of @main: entering and leaving it when two windows read one array.

   Windows 0 and 1 of this region are row blocks i and j of ONE array y; windows 2, 3, 4 stand on mea, M and the result
   EP. So five windows stand on four buffers, and the region is entered by splitting y's buffer between its two readers
   and left by joining the two halves again. -/
import proofs.«169176_j23261542875327_2_alg».proof.Proof.K.Region15
import Idealize.ShloMosaic.Lib.Pipeline.Launch
import Idealize.ShloMosaic.Lib.Pipeline.Regions
import Idealize.ShloMosaic.Lib.Pipeline.Kit

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V V' : (c : Dev nD) → (b : Ref sig .tc) → Buf (Elt F) ((c : Thread nD τ).loc b))

/-- The five windows stand on four arrays: y (read through windows 0 and 1), mea, M and the result EP. -/
theorem refs15 : Finset.univ.image (Pipeline.arrRef spec15) = {main_v125, main_v0, main_v210, main_v211} := by decide

/-- Every window's array is a whole buffer. -/
theorem whole15 (w : Fin cfg15.W) : (cfg15.win w).arr.view.set = Finset.univ := (arr_whole15 w).set_eq_univ

/-- The shares the windows hold their arrays at: y's two readers a half each, the others whole. -/
theorem share15_0 (c : Dev nD) : (dat15 V c).share 0 = fullShare.left := rfl
theorem share15_1 (c : Dev nD) : (dat15 V c).share 1 = fullShare.right := rfl
theorem share15_2 (c : Dev nD) : (dat15 V c).share 2 = fullShare := rfl
theorem share15_3 (c : Dev nD) : (dat15 V c).share 3 = fullShare := rfl
theorem share15_4 (c : Dev nD) : (dat15 V c).share 4 = fullShare := rfl

set_option maxHeartbeats 1000000 in
/-- ENTRY. The four buffers held whole at the contents `V` give the five windows their arrays: y's buffer is split in
    its two halves, one per reading window, both at y's contents; mea, M and EP pass through. -/
theorem split15 (c : Dev nD) :
    (Pipeline.arrBufs (Ix := Unit) (Name := ℕ) (U := UR sig nD τ) (Lvl := ℕ) spec15 c (V c) : sProp 𝕄)
      ⊢ (dat15 V c).arrays ((dat15 V c).arrAt · 0) := by
  unfold Pipeline.arrBufs Dat.arrays
  rw [refs15, bigSep_W15, bigSep_insert (by decide), bigSep_insert (by decide), bigSep_insert (by decide), bigSep_singleton]
  simp only [share15_0, share15_1, share15_2, share15_3, share15_4, whole15 0, whole15 1, whole15 2, whole15 3, whole15 4]
  show iprop(((c : Thread nD τ).loc main_v125 ↦{fullShare} V c main_v125) ∗ ((c : Thread nD τ).loc main_v0 ↦{fullShare} V c main_v0)
      ∗ ((c : Thread nD τ).loc main_v210 ↦{fullShare} V c main_v210) ∗ ((c : Thread nD τ).loc main_v211 ↦{fullShare} V c main_v211))
    ⊢ (iprop(((c : Thread nD τ).loc main_v125 ↦{fullShare.left} V c main_v125) ∗ ((c : Thread nD τ).loc main_v125 ↦{fullShare.right} V c main_v125)
      ∗ ((c : Thread nD τ).loc main_v0 ↦{fullShare} V c main_v0) ∗ ((c : Thread nD τ).loc main_v210 ↦{fullShare} V c main_v210)
      ∗ ((c : Thread nD τ).loc main_v211 ↦{fullShare} V c main_v211)) : sProp 𝕄)
  iintro ⟨Hy, Hmea, HM, Hout⟩
  ihave Hy := (pointsTo_share (PosShare.mem_left_op_right fullShare)).1 $$ Hy
  icases Hy with ⟨Hl, Hr⟩
  isplitl [Hl]; · iexact Hl
  isplitl [Hr]; · iexact Hr
  isplitl [Hmea]; · iexact Hmea
  isplitl [HM]; · iexact HM
  iexact Hout

set_option maxHeartbeats 1000000 in
/-- EXIT. When every window's array ends at the contents `V'` (`hF`), the five windows' arrays give back the four
    buffers whole at `V'`: y's two halves, both at the one contents `V'` has for y, join to the whole; mea, M and EP pass
    through. -/
theorem join15 (c : Dev nD)
    (hF : ∀ w : Fin cfg15.W, (dat15 V c).arrAt w cfg15.N = V' c (Pipeline.arrRef spec15 w)) :
    ((dat15 V c).arrays ((dat15 V c).arrAt · cfg15.N) : sProp 𝕄)
      ⊢ Pipeline.arrBufs (Ix := Unit) (Name := ℕ) (U := UR sig nD τ) (Lvl := ℕ) spec15 c (V' c) := by
  unfold Pipeline.arrBufs Dat.arrays
  rw [refs15, bigSep_W15, bigSep_insert (by decide), bigSep_insert (by decide), bigSep_insert (by decide), bigSep_singleton]
  simp only [share15_0, share15_1, share15_2, share15_3, share15_4, whole15 0, whole15 1, whole15 2, whole15 3, whole15 4, hF]
  show (iprop(((c : Thread nD τ).loc main_v125 ↦{fullShare.left} V' c main_v125) ∗ ((c : Thread nD τ).loc main_v125 ↦{fullShare.right} V' c main_v125)
      ∗ ((c : Thread nD τ).loc main_v0 ↦{fullShare} V' c main_v0) ∗ ((c : Thread nD τ).loc main_v210 ↦{fullShare} V' c main_v210)
      ∗ ((c : Thread nD τ).loc main_v211 ↦{fullShare} V' c main_v211)) : sProp 𝕄)
    ⊢ iprop(((c : Thread nD τ).loc main_v125 ↦{fullShare} V' c main_v125) ∗ ((c : Thread nD τ).loc main_v0 ↦{fullShare} V' c main_v0)
      ∗ ((c : Thread nD τ).loc main_v210 ↦{fullShare} V' c main_v210) ∗ ((c : Thread nD τ).loc main_v211 ↦{fullShare} V' c main_v211))
  iintro ⟨Hl, Hr, Hmea, HM, Hout⟩
  isplitl [Hl Hr]
  · iapply (pointsTo_share (PosShare.mem_left_op_right fullShare)).2
    isplitl [Hl]; · iexact Hl
    iexact Hr
  isplitl [Hmea]; · iexact Hmea
  isplitl [HM]; · iexact HM
  iexact Hout

end Cert.Kernel.Regs
-- ==== Proof.K.Records.lean ====
/-
  Each kernel region of @main as a segment between two boundaries: entered from every unscoped buffer at the boundary
  before it, left at the boundary after it. Per region two facts about the boundary after it — each window's array is
  there what the pipeline leaves (an input's array what it was, an output's its write-backs), and every other buffer is
  what it was — and the record itself, which is the general region record at those facts.
-/
import proofs.«169176_j23261542875327_2_alg».proof.Proof.K.Stages
import proofs.«169176_j23261542875327_2_alg».proof.Proof.K.Shared3
import proofs.«169176_j23261542875327_2_alg».proof.Proof.K.Shared7
import proofs.«169176_j23261542875327_2_alg».proof.Proof.K.Shared11
import proofs.«169176_j23261542875327_2_alg».proof.Proof.K.Shared15
import proofs.«169176_j23261542875327_2_alg».proof.Proof.LibRegionRecord
import Idealize.ShloMosaic.Lib.Pipeline.Frame
import Idealize.ShloMosaic.Lib.Pipeline.Kit
import Idealize.ShloMosaic.Lib.Pipeline.Regions

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen Cert.Kernel.GenP Cert.Kernel.Regs Cert.LibRegionRecord

variable {F : FTy → Type} [FloatOps F]

variable (m : (ℓ : Loc nD τ sig) → Buf (Elt F) ℓ)

local notation "𝕄" => MT nD τ sig Unit (Elt F) ℕ (UR sig nD τ) ℕ

/-- No core owes another anything: no level is assigned. -/
abbrev Lz : GSem nD τ sig → Finset Unit := fun _ => ∅
abbrev lvz : GSem nD τ sig → Unit → ℕ := fun _ _ => 0

/-! ## Region 0 -/

theorem keeps0 (c : Dev nD) (b : Ref sig .tc) (hb : b ∉ Finset.univ.image (Pipeline.arrRef spec0)) : S1 m c b = S0 m c b := by
  have hne0 : b ≠ main_v0 := fun e => hb (Finset.mem_image.mpr ⟨2, Finset.mem_univ _, (e.symm : Pipeline.arrRef spec0 2 = b)⟩)
  unfold S1; rw [Function.update_of_ne (StableHlo.devRef_ne_of_ne hne0)]
set_option maxHeartbeats 2000000 in
theorem ends0 (c : Dev nD) : ∀ w : Fin cfg0.W, (dat0 (T0 m) c).arrAt w cfg0.N = S1 m c (Pipeline.arrRef spec0 w)
  | ⟨0, _⟩ => ((dat0 (T0 m) c).arrAt_in 0 rfl _).trans ((dat0_A (T0 m) c 0).trans (by show S0 m c main_arg3 = S1 m c main_arg3; unfold S1; rw [Function.update_of_ne (StableHlo.devRef_ne_of_ne (by decide : main_arg3 ≠ main_v0))]))
  | ⟨1, _⟩ => ((dat0 (T0 m) c).arrAt_in 1 rfl _).trans ((dat0_A (T0 m) c 1).trans (by show S0 m c main_arg7 = S1 m c main_arg7; unfold S1; rw [Function.update_of_ne (StableHlo.devRef_ne_of_ne (by decide : main_arg7 ≠ main_v0))]))
  | ⟨2, _⟩ => by unfold S1; show _ = Function.update (S0 m c) (Proc.devRef .tc main_v0) _ (Proc.devRef .tc main_v0); rw [Function.update_self]; rfl
set_option backward.isDefEq.respectTransparency.types false in
def reg0 : Pipeline.RegionSeg (pcfgs (F := F)) adm (pdats m) () defs₀ Variants.none Lz lvz 0 :=
  record (pcfgs (F := F)) adm (pdats m) defs₀ Variants.none Lz lvz 0 launch0.win launch0.arr_whole launch0.block_pos launch0.stage_whole
    (fun c => (body0 (T0 m) c).loose) (fun _ _ => rfl) (fun _ _ => rfl) (fun c => (pdats m 0 c).share_full fun _ => rfl) (fun _ _ => rfl)
    (fun c => by unfold Pipeline.prefHeld; rw [show (Finset.univ : Finset (Fin 0)) = ∅ from rfl, BI.bigSep_empty])
    (S0 m) (S1 m) (fun c w => dat0_A (T0 m) c w) (ends0 m) (keeps0 m)
/-! ## Region 1 -/

theorem keeps1 (c : Dev nD) (b : Ref sig .tc) (hb : b ∉ Finset.univ.image (Pipeline.arrRef spec1)) : S3 m c b = S2 m c b := by
  have hne0 : b ≠ main_v3_0 := fun e => hb (Finset.mem_image.mpr ⟨4, Finset.mem_univ _, (e.symm : Pipeline.arrRef spec1 4 = b)⟩)
  have hne1 : b ≠ main_v3_1 := fun e => hb (Finset.mem_image.mpr ⟨5, Finset.mem_univ _, (e.symm : Pipeline.arrRef spec1 5 = b)⟩)
  unfold S3; rw [Function.update_of_ne (StableHlo.devRef_ne_of_ne hne1), Function.update_of_ne (StableHlo.devRef_ne_of_ne hne0)]
set_option maxHeartbeats 2000000 in
theorem ends1 (c : Dev nD) : ∀ w : Fin cfg1.W, (dat1 (T2 m) c).arrAt w cfg1.N = S3 m c (Pipeline.arrRef spec1 w)
  | ⟨0, _⟩ => ((dat1 (T2 m) c).arrAt_in 0 rfl _).trans ((dat1_A (T2 m) c 0).trans (by show S2 m c main_arg6 = S3 m c main_arg6; unfold S3; rw [Function.update_of_ne (StableHlo.devRef_ne_of_ne (by decide : main_arg6 ≠ main_v3_1)), Function.update_of_ne (StableHlo.devRef_ne_of_ne (by decide : main_arg6 ≠ main_v3_0))]))
  | ⟨1, _⟩ => ((dat1 (T2 m) c).arrAt_in 1 rfl _).trans ((dat1_A (T2 m) c 1).trans (by show S2 m c main_v0 = S3 m c main_v0; unfold S3; rw [Function.update_of_ne (StableHlo.devRef_ne_of_ne (by decide : main_v0 ≠ main_v3_1)), Function.update_of_ne (StableHlo.devRef_ne_of_ne (by decide : main_v0 ≠ main_v3_0))]))
  | ⟨2, _⟩ => ((dat1 (T2 m) c).arrAt_in 2 rfl _).trans ((dat1_A (T2 m) c 2).trans (by show S2 m c main_v2 = S3 m c main_v2; unfold S3; rw [Function.update_of_ne (StableHlo.devRef_ne_of_ne (by decide : main_v2 ≠ main_v3_1)), Function.update_of_ne (StableHlo.devRef_ne_of_ne (by decide : main_v2 ≠ main_v3_0))]))
  | ⟨3, _⟩ => ((dat1 (T2 m) c).arrAt_in 3 rfl _).trans ((dat1_A (T2 m) c 3).trans (by show S2 m c main_arg1 = S3 m c main_arg1; unfold S3; rw [Function.update_of_ne (StableHlo.devRef_ne_of_ne (by decide : main_arg1 ≠ main_v3_1)), Function.update_of_ne (StableHlo.devRef_ne_of_ne (by decide : main_arg1 ≠ main_v3_0))]))
  | ⟨4, _⟩ => by unfold S3; show _ = Function.update (Function.update (S2 m c) (Proc.devRef .tc main_v3_0) _) (Proc.devRef .tc main_v3_1) _ (Proc.devRef .tc main_v3_0); rw [Function.update_of_ne (StableHlo.devRef_ne_of_ne (by decide : main_v3_0 ≠ main_v3_1)), Function.update_self]; rfl
  | ⟨5, _⟩ => by unfold S3; show _ = Function.update (Function.update (S2 m c) (Proc.devRef .tc main_v3_0) _) (Proc.devRef .tc main_v3_1) _ (Proc.devRef .tc main_v3_1); rw [Function.update_self]; rfl
set_option backward.isDefEq.respectTransparency.types false in
def reg1 : Pipeline.RegionSeg (pcfgs (F := F)) adm (pdats m) () defs₀ Variants.none Lz lvz 1 :=
  record (pcfgs (F := F)) adm (pdats m) defs₀ Variants.none Lz lvz 1 launch1.win launch1.arr_whole launch1.block_pos launch1.stage_whole
    (fun c => (body1 (T2 m) c).loose) (fun _ _ => rfl) (fun _ _ => rfl) (fun c => (pdats m 1 c).share_full fun _ => rfl) (fun _ _ => rfl)
    (fun c => by unfold Pipeline.prefHeld; rw [show (Finset.univ : Finset (Fin 0)) = ∅ from rfl, BI.bigSep_empty])
    (S2 m) (S3 m) (fun c w => dat1_A (T2 m) c w) (ends1 m) (keeps1 m)
/-! ## Region 2 -/

theorem keeps2 (c : Dev nD) (b : Ref sig .tc) (hb : b ∉ Finset.univ.image (Pipeline.arrRef spec2)) : S5 m c b = S4 m c b := by
  have hne0 : b ≠ main_v12 := fun e => hb (Finset.mem_image.mpr ⟨2, Finset.mem_univ _, (e.symm : Pipeline.arrRef spec2 2 = b)⟩)
  unfold S5; rw [Function.update_of_ne (StableHlo.devRef_ne_of_ne hne0)]
set_option maxHeartbeats 2000000 in
theorem ends2 (c : Dev nD) : ∀ w : Fin cfg2.W, (dat2 (T4 m) c).arrAt w cfg2.N = S5 m c (Pipeline.arrRef spec2 w)
  | ⟨0, _⟩ => ((dat2 (T4 m) c).arrAt_in 0 rfl _).trans ((dat2_A (T4 m) c 0).trans (by show S4 m c main_v1 = S5 m c main_v1; unfold S5; rw [Function.update_of_ne (StableHlo.devRef_ne_of_ne (by decide : main_v1 ≠ main_v12))]))
  | ⟨1, _⟩ => ((dat2 (T4 m) c).arrAt_in 1 rfl _).trans ((dat2_A (T4 m) c 1).trans (by show S4 m c main_v11 = S5 m c main_v11; unfold S5; rw [Function.update_of_ne (StableHlo.devRef_ne_of_ne (by decide : main_v11 ≠ main_v12))]))
  | ⟨2, _⟩ => by unfold S5; show _ = Function.update (S4 m c) (Proc.devRef .tc main_v12) _ (Proc.devRef .tc main_v12); rw [Function.update_self]; rfl
set_option backward.isDefEq.respectTransparency.types false in
def reg2 : Pipeline.RegionSeg (pcfgs (F := F)) adm (pdats m) () defs₀ Variants.none Lz lvz 2 :=
  record (pcfgs (F := F)) adm (pdats m) defs₀ Variants.none Lz lvz 2 launch2.win launch2.arr_whole launch2.block_pos launch2.stage_whole
    (fun c => (body2 (T4 m) c).loose) (fun _ _ => rfl) (fun _ _ => rfl) (fun c => (pdats m 2 c).share_full fun _ => rfl) (fun _ _ => rfl)
    (fun c => by unfold Pipeline.prefHeld; rw [show (Finset.univ : Finset (Fin 0)) = ∅ from rfl, BI.bigSep_empty])
    (S4 m) (S5 m) (fun c w => dat2_A (T4 m) c w) (ends2 m) (keeps2 m)
/-! ## Region 3 -/

theorem keeps3 (c : Dev nD) (b : Ref sig .tc) (hb : b ∉ Finset.univ.image (Pipeline.arrRef spec3)) : S9 m c b = S8 m c b := by
  have hne0 : b ≠ main_v55 := fun e => hb (Finset.mem_image.mpr ⟨4, Finset.mem_univ _, (e.symm : Pipeline.arrRef spec3 4 = b)⟩)
  unfold S9; rw [Function.update_of_ne (StableHlo.devRef_ne_of_ne hne0)]
set_option maxHeartbeats 2000000 in
theorem ends3 (c : Dev nD) : ∀ w : Fin cfg3.W, (dat3 (T8 m) c).arrAt w cfg3.N = S9 m c (Pipeline.arrRef spec3 w)
  | ⟨0, _⟩ => ((dat3 (T8 m) c).arrAt_in 0 rfl _).trans ((dat3_A (T8 m) c 0).trans (by show S8 m c main_arg0 = S9 m c main_arg0; unfold S9; rw [Function.update_of_ne (StableHlo.devRef_ne_of_ne (by decide : main_arg0 ≠ main_v55))]))
  | ⟨1, _⟩ => ((dat3 (T8 m) c).arrAt_in 1 rfl _).trans ((dat3_A (T8 m) c 1).trans (by show S8 m c main_arg0 = S9 m c main_arg0; unfold S9; rw [Function.update_of_ne (StableHlo.devRef_ne_of_ne (by decide : main_arg0 ≠ main_v55))]))
  | ⟨2, _⟩ => ((dat3 (T8 m) c).arrAt_in 2 rfl _).trans ((dat3_A (T8 m) c 2).trans (by show S8 m c main_v0 = S9 m c main_v0; unfold S9; rw [Function.update_of_ne (StableHlo.devRef_ne_of_ne (by decide : main_v0 ≠ main_v55))]))
  | ⟨3, _⟩ => ((dat3 (T8 m) c).arrAt_in 3 rfl _).trans ((dat3_A (T8 m) c 3).trans (by show S8 m c main_v54 = S9 m c main_v54; unfold S9; rw [Function.update_of_ne (StableHlo.devRef_ne_of_ne (by decide : main_v54 ≠ main_v55))]))
  | ⟨4, _⟩ => by unfold S9; show _ = Function.update (S8 m c) (Proc.devRef .tc main_v55) _ (Proc.devRef .tc main_v55); rw [Function.update_self]; rfl
set_option backward.isDefEq.respectTransparency.types false in
def reg3 : Pipeline.RegionSeg (pcfgs (F := F)) adm (pdats m) () defs₀ Variants.none Lz lvz 3 :=
  recordShared (pcfgs (F := F)) adm (pdats m) defs₀ Variants.none Lz lvz 3 winFacts₀3 arr_whole3 block_pos3 stage_whole3
    (fun c => (body3 (T8 m) c).loose) (fun _ _ => rfl) (fun _ _ => rfl) (fun _ _ => rfl)
    (fun c => by unfold Pipeline.prefHeld; rw [show (Finset.univ : Finset (Fin 0)) = ∅ from rfl, BI.bigSep_empty])
    (S8 m) (S9 m) (keeps3 m)
    (fun c => split3 (T8 m) c) (fun c => join3 (T8 m) (T9 m) c (ends3 m c))
/-! ## Region 4 -/

theorem keeps4 (c : Dev nD) (b : Ref sig .tc) (hb : b ∉ Finset.univ.image (Pipeline.arrRef spec4)) : S11 m c b = S10 m c b := by
  have hne0 : b ≠ main_v57_0 := fun e => hb (Finset.mem_image.mpr ⟨5, Finset.mem_univ _, (e.symm : Pipeline.arrRef spec4 5 = b)⟩)
  have hne1 : b ≠ main_v57_1 := fun e => hb (Finset.mem_image.mpr ⟨6, Finset.mem_univ _, (e.symm : Pipeline.arrRef spec4 6 = b)⟩)
  unfold S11; rw [Function.update_of_ne (StableHlo.devRef_ne_of_ne hne1), Function.update_of_ne (StableHlo.devRef_ne_of_ne hne0)]
set_option maxHeartbeats 2000000 in
theorem ends4 (c : Dev nD) : ∀ w : Fin cfg4.W, (dat4 (T10 m) c).arrAt w cfg4.N = S11 m c (Pipeline.arrRef spec4 w)
  | ⟨0, _⟩ => ((dat4 (T10 m) c).arrAt_in 0 rfl _).trans ((dat4_A (T10 m) c 0).trans (by show S10 m c main_arg6 = S11 m c main_arg6; unfold S11; rw [Function.update_of_ne (StableHlo.devRef_ne_of_ne (by decide : main_arg6 ≠ main_v57_1)), Function.update_of_ne (StableHlo.devRef_ne_of_ne (by decide : main_arg6 ≠ main_v57_0))]))
  | ⟨1, _⟩ => ((dat4 (T10 m) c).arrAt_in 1 rfl _).trans ((dat4_A (T10 m) c 1).trans (by show S10 m c main_v55 = S11 m c main_v55; unfold S11; rw [Function.update_of_ne (StableHlo.devRef_ne_of_ne (by decide : main_v55 ≠ main_v57_1)), Function.update_of_ne (StableHlo.devRef_ne_of_ne (by decide : main_v55 ≠ main_v57_0))]))
  | ⟨2, _⟩ => ((dat4 (T10 m) c).arrAt_in 2 rfl _).trans ((dat4_A (T10 m) c 2).trans (by show S10 m c main_v0 = S11 m c main_v0; unfold S11; rw [Function.update_of_ne (StableHlo.devRef_ne_of_ne (by decide : main_v0 ≠ main_v57_1)), Function.update_of_ne (StableHlo.devRef_ne_of_ne (by decide : main_v0 ≠ main_v57_0))]))
  | ⟨3, _⟩ => ((dat4 (T10 m) c).arrAt_in 3 rfl _).trans ((dat4_A (T10 m) c 3).trans (by show S10 m c main_v56 = S11 m c main_v56; unfold S11; rw [Function.update_of_ne (StableHlo.devRef_ne_of_ne (by decide : main_v56 ≠ main_v57_1)), Function.update_of_ne (StableHlo.devRef_ne_of_ne (by decide : main_v56 ≠ main_v57_0))]))
  | ⟨4, _⟩ => ((dat4 (T10 m) c).arrAt_in 4 rfl _).trans ((dat4_A (T10 m) c 4).trans (by show S10 m c main_v22 = S11 m c main_v22; unfold S11; rw [Function.update_of_ne (StableHlo.devRef_ne_of_ne (by decide : main_v22 ≠ main_v57_1)), Function.update_of_ne (StableHlo.devRef_ne_of_ne (by decide : main_v22 ≠ main_v57_0))]))
  | ⟨5, _⟩ => by unfold S11; show _ = Function.update (Function.update (S10 m c) (Proc.devRef .tc main_v57_0) _) (Proc.devRef .tc main_v57_1) _ (Proc.devRef .tc main_v57_0); rw [Function.update_of_ne (StableHlo.devRef_ne_of_ne (by decide : main_v57_0 ≠ main_v57_1)), Function.update_self]; rfl
  | ⟨6, _⟩ => by unfold S11; show _ = Function.update (Function.update (S10 m c) (Proc.devRef .tc main_v57_0) _) (Proc.devRef .tc main_v57_1) _ (Proc.devRef .tc main_v57_1); rw [Function.update_self]; rfl
set_option backward.isDefEq.respectTransparency.types false in
def reg4 : Pipeline.RegionSeg (pcfgs (F := F)) adm (pdats m) () defs₀ Variants.none Lz lvz 4 :=
  record (pcfgs (F := F)) adm (pdats m) defs₀ Variants.none Lz lvz 4 launch4.win launch4.arr_whole launch4.block_pos launch4.stage_whole
    (fun c => (body4 (T10 m) c).loose) (fun _ _ => rfl) (fun _ _ => rfl) (fun c => (pdats m 4 c).share_full fun _ => rfl) (fun _ _ => rfl)
    (fun c => by unfold Pipeline.prefHeld; rw [show (Finset.univ : Finset (Fin 0)) = ∅ from rfl, BI.bigSep_empty])
    (S10 m) (S11 m) (fun c w => dat4_A (T10 m) c w) (ends4 m) (keeps4 m)
/-! ## Region 5 -/

theorem keeps5 (c : Dev nD) (b : Ref sig .tc) (hb : b ∉ Finset.univ.image (Pipeline.arrRef spec5)) : S12 m c b = S11 m c b := by
  have hne0 : b ≠ main_v58 := fun e => hb (Finset.mem_image.mpr ⟨2, Finset.mem_univ _, (e.symm : Pipeline.arrRef spec5 2 = b)⟩)
  unfold S12; rw [Function.update_of_ne (StableHlo.devRef_ne_of_ne hne0)]
set_option maxHeartbeats 2000000 in
theorem ends5 (c : Dev nD) : ∀ w : Fin cfg5.W, (dat5 (T11 m) c).arrAt w cfg5.N = S12 m c (Pipeline.arrRef spec5 w)
  | ⟨0, _⟩ => ((dat5 (T11 m) c).arrAt_in 0 rfl _).trans ((dat5_A (T11 m) c 0).trans (by show S11 m c main_v55 = S12 m c main_v55; unfold S12; rw [Function.update_of_ne (StableHlo.devRef_ne_of_ne (by decide : main_v55 ≠ main_v58))]))
  | ⟨1, _⟩ => ((dat5 (T11 m) c).arrAt_in 1 rfl _).trans ((dat5_A (T11 m) c 1).trans (by show S11 m c main_v21 = S12 m c main_v21; unfold S12; rw [Function.update_of_ne (StableHlo.devRef_ne_of_ne (by decide : main_v21 ≠ main_v58))]))
  | ⟨2, _⟩ => by unfold S12; show _ = Function.update (S11 m c) (Proc.devRef .tc main_v58) _ (Proc.devRef .tc main_v58); rw [Function.update_self]; rfl
set_option backward.isDefEq.respectTransparency.types false in
def reg5 : Pipeline.RegionSeg (pcfgs (F := F)) adm (pdats m) () defs₀ Variants.none Lz lvz 5 :=
  record (pcfgs (F := F)) adm (pdats m) defs₀ Variants.none Lz lvz 5 launch5.win launch5.arr_whole launch5.block_pos launch5.stage_whole
    (fun c => (body5 (T11 m) c).loose) (fun _ _ => rfl) (fun _ _ => rfl) (fun c => (pdats m 5 c).share_full fun _ => rfl) (fun _ _ => rfl)
    (fun c => by unfold Pipeline.prefHeld; rw [show (Finset.univ : Finset (Fin 0)) = ∅ from rfl, BI.bigSep_empty])
    (S11 m) (S12 m) (fun c w => dat5_A (T11 m) c w) (ends5 m) (keeps5 m)
/-! ## Region 6 -/

theorem keeps6 (c : Dev nD) (b : Ref sig .tc) (hb : b ∉ Finset.univ.image (Pipeline.arrRef spec6)) : S14 m c b = S13 m c b := by
  have hne0 : b ≠ main_v64 := fun e => hb (Finset.mem_image.mpr ⟨2, Finset.mem_univ _, (e.symm : Pipeline.arrRef spec6 2 = b)⟩)
  unfold S14; rw [Function.update_of_ne (StableHlo.devRef_ne_of_ne hne0)]
set_option maxHeartbeats 2000000 in
theorem ends6 (c : Dev nD) : ∀ w : Fin cfg6.W, (dat6 (T13 m) c).arrAt w cfg6.N = S14 m c (Pipeline.arrRef spec6 w)
  | ⟨0, _⟩ => ((dat6 (T13 m) c).arrAt_in 0 rfl _).trans ((dat6_A (T13 m) c 0).trans (by show S13 m c main_v1 = S14 m c main_v1; unfold S14; rw [Function.update_of_ne (StableHlo.devRef_ne_of_ne (by decide : main_v1 ≠ main_v64))]))
  | ⟨1, _⟩ => ((dat6 (T13 m) c).arrAt_in 1 rfl _).trans ((dat6_A (T13 m) c 1).trans (by show S13 m c main_v63 = S14 m c main_v63; unfold S14; rw [Function.update_of_ne (StableHlo.devRef_ne_of_ne (by decide : main_v63 ≠ main_v64))]))
  | ⟨2, _⟩ => by unfold S14; show _ = Function.update (S13 m c) (Proc.devRef .tc main_v64) _ (Proc.devRef .tc main_v64); rw [Function.update_self]; rfl
set_option backward.isDefEq.respectTransparency.types false in
def reg6 : Pipeline.RegionSeg (pcfgs (F := F)) adm (pdats m) () defs₀ Variants.none Lz lvz 6 :=
  record (pcfgs (F := F)) adm (pdats m) defs₀ Variants.none Lz lvz 6 launch6.win launch6.arr_whole launch6.block_pos launch6.stage_whole
    (fun c => (body6 (T13 m) c).loose) (fun _ _ => rfl) (fun _ _ => rfl) (fun c => (pdats m 6 c).share_full fun _ => rfl) (fun _ _ => rfl)
    (fun c => by unfold Pipeline.prefHeld; rw [show (Finset.univ : Finset (Fin 0)) = ∅ from rfl, BI.bigSep_empty])
    (S13 m) (S14 m) (fun c w => dat6_A (T13 m) c w) (ends6 m) (keeps6 m)
/-! ## Region 7 -/

theorem keeps7 (c : Dev nD) (b : Ref sig .tc) (hb : b ∉ Finset.univ.image (Pipeline.arrRef spec7)) : S18 m c b = S17 m c b := by
  have hne0 : b ≠ main_v107 := fun e => hb (Finset.mem_image.mpr ⟨4, Finset.mem_univ _, (e.symm : Pipeline.arrRef spec7 4 = b)⟩)
  unfold S18; rw [Function.update_of_ne (StableHlo.devRef_ne_of_ne hne0)]
set_option maxHeartbeats 2000000 in
theorem ends7 (c : Dev nD) : ∀ w : Fin cfg7.W, (dat7 (T17 m) c).arrAt w cfg7.N = S18 m c (Pipeline.arrRef spec7 w)
  | ⟨0, _⟩ => ((dat7 (T17 m) c).arrAt_in 0 rfl _).trans ((dat7_A (T17 m) c 0).trans (by show S17 m c main_v21 = S18 m c main_v21; unfold S18; rw [Function.update_of_ne (StableHlo.devRef_ne_of_ne (by decide : main_v21 ≠ main_v107))]))
  | ⟨1, _⟩ => ((dat7 (T17 m) c).arrAt_in 1 rfl _).trans ((dat7_A (T17 m) c 1).trans (by show S17 m c main_v21 = S18 m c main_v21; unfold S18; rw [Function.update_of_ne (StableHlo.devRef_ne_of_ne (by decide : main_v21 ≠ main_v107))]))
  | ⟨2, _⟩ => ((dat7 (T17 m) c).arrAt_in 2 rfl _).trans ((dat7_A (T17 m) c 2).trans (by show S17 m c main_v0 = S18 m c main_v0; unfold S18; rw [Function.update_of_ne (StableHlo.devRef_ne_of_ne (by decide : main_v0 ≠ main_v107))]))
  | ⟨3, _⟩ => ((dat7 (T17 m) c).arrAt_in 3 rfl _).trans ((dat7_A (T17 m) c 3).trans (by show S17 m c main_v106 = S18 m c main_v106; unfold S18; rw [Function.update_of_ne (StableHlo.devRef_ne_of_ne (by decide : main_v106 ≠ main_v107))]))
  | ⟨4, _⟩ => by unfold S18; show _ = Function.update (S17 m c) (Proc.devRef .tc main_v107) _ (Proc.devRef .tc main_v107); rw [Function.update_self]; rfl
set_option backward.isDefEq.respectTransparency.types false in
def reg7 : Pipeline.RegionSeg (pcfgs (F := F)) adm (pdats m) () defs₀ Variants.none Lz lvz 7 :=
  recordShared (pcfgs (F := F)) adm (pdats m) defs₀ Variants.none Lz lvz 7 winFacts₀7 arr_whole7 block_pos7 stage_whole7
    (fun c => (body7 (T17 m) c).loose) (fun _ _ => rfl) (fun _ _ => rfl) (fun _ _ => rfl)
    (fun c => by unfold Pipeline.prefHeld; rw [show (Finset.univ : Finset (Fin 0)) = ∅ from rfl, BI.bigSep_empty])
    (S17 m) (S18 m) (keeps7 m)
    (fun c => split7 (T17 m) c) (fun c => join7 (T17 m) (T18 m) c (ends7 m c))
/-! ## Region 8 -/

theorem keeps8 (c : Dev nD) (b : Ref sig .tc) (hb : b ∉ Finset.univ.image (Pipeline.arrRef spec8)) : S20 m c b = S19 m c b := by
  have hne0 : b ≠ main_v109_0 := fun e => hb (Finset.mem_image.mpr ⟨5, Finset.mem_univ _, (e.symm : Pipeline.arrRef spec8 5 = b)⟩)
  have hne1 : b ≠ main_v109_1 := fun e => hb (Finset.mem_image.mpr ⟨6, Finset.mem_univ _, (e.symm : Pipeline.arrRef spec8 6 = b)⟩)
  unfold S20; rw [Function.update_of_ne (StableHlo.devRef_ne_of_ne hne1), Function.update_of_ne (StableHlo.devRef_ne_of_ne hne0)]
set_option maxHeartbeats 2000000 in
theorem ends8 (c : Dev nD) : ∀ w : Fin cfg8.W, (dat8 (T19 m) c).arrAt w cfg8.N = S20 m c (Pipeline.arrRef spec8 w)
  | ⟨0, _⟩ => ((dat8 (T19 m) c).arrAt_in 0 rfl _).trans ((dat8_A (T19 m) c 0).trans (by show S19 m c main_arg6 = S20 m c main_arg6; unfold S20; rw [Function.update_of_ne (StableHlo.devRef_ne_of_ne (by decide : main_arg6 ≠ main_v109_1)), Function.update_of_ne (StableHlo.devRef_ne_of_ne (by decide : main_arg6 ≠ main_v109_0))]))
  | ⟨1, _⟩ => ((dat8 (T19 m) c).arrAt_in 1 rfl _).trans ((dat8_A (T19 m) c 1).trans (by show S19 m c main_v107 = S20 m c main_v107; unfold S20; rw [Function.update_of_ne (StableHlo.devRef_ne_of_ne (by decide : main_v107 ≠ main_v109_1)), Function.update_of_ne (StableHlo.devRef_ne_of_ne (by decide : main_v107 ≠ main_v109_0))]))
  | ⟨2, _⟩ => ((dat8 (T19 m) c).arrAt_in 2 rfl _).trans ((dat8_A (T19 m) c 2).trans (by show S19 m c main_v0 = S20 m c main_v0; unfold S20; rw [Function.update_of_ne (StableHlo.devRef_ne_of_ne (by decide : main_v0 ≠ main_v109_1)), Function.update_of_ne (StableHlo.devRef_ne_of_ne (by decide : main_v0 ≠ main_v109_0))]))
  | ⟨3, _⟩ => ((dat8 (T19 m) c).arrAt_in 3 rfl _).trans ((dat8_A (T19 m) c 3).trans (by show S19 m c main_v108 = S20 m c main_v108; unfold S20; rw [Function.update_of_ne (StableHlo.devRef_ne_of_ne (by decide : main_v108 ≠ main_v109_1)), Function.update_of_ne (StableHlo.devRef_ne_of_ne (by decide : main_v108 ≠ main_v109_0))]))
  | ⟨4, _⟩ => ((dat8 (T19 m) c).arrAt_in 4 rfl _).trans ((dat8_A (T19 m) c 4).trans (by show S19 m c main_v74 = S20 m c main_v74; unfold S20; rw [Function.update_of_ne (StableHlo.devRef_ne_of_ne (by decide : main_v74 ≠ main_v109_1)), Function.update_of_ne (StableHlo.devRef_ne_of_ne (by decide : main_v74 ≠ main_v109_0))]))
  | ⟨5, _⟩ => by unfold S20; show _ = Function.update (Function.update (S19 m c) (Proc.devRef .tc main_v109_0) _) (Proc.devRef .tc main_v109_1) _ (Proc.devRef .tc main_v109_0); rw [Function.update_of_ne (StableHlo.devRef_ne_of_ne (by decide : main_v109_0 ≠ main_v109_1)), Function.update_self]; rfl
  | ⟨6, _⟩ => by unfold S20; show _ = Function.update (Function.update (S19 m c) (Proc.devRef .tc main_v109_0) _) (Proc.devRef .tc main_v109_1) _ (Proc.devRef .tc main_v109_1); rw [Function.update_self]; rfl
set_option backward.isDefEq.respectTransparency.types false in
def reg8 : Pipeline.RegionSeg (pcfgs (F := F)) adm (pdats m) () defs₀ Variants.none Lz lvz 8 :=
  record (pcfgs (F := F)) adm (pdats m) defs₀ Variants.none Lz lvz 8 launch8.win launch8.arr_whole launch8.block_pos launch8.stage_whole
    (fun c => (body8 (T19 m) c).loose) (fun _ _ => rfl) (fun _ _ => rfl) (fun c => (pdats m 8 c).share_full fun _ => rfl) (fun _ _ => rfl)
    (fun c => by unfold Pipeline.prefHeld; rw [show (Finset.univ : Finset (Fin 0)) = ∅ from rfl, BI.bigSep_empty])
    (S19 m) (S20 m) (fun c w => dat8_A (T19 m) c w) (ends8 m) (keeps8 m)
/-! ## Region 9 -/

theorem keeps9 (c : Dev nD) (b : Ref sig .tc) (hb : b ∉ Finset.univ.image (Pipeline.arrRef spec9)) : S21 m c b = S20 m c b := by
  have hne0 : b ≠ main_v110 := fun e => hb (Finset.mem_image.mpr ⟨2, Finset.mem_univ _, (e.symm : Pipeline.arrRef spec9 2 = b)⟩)
  unfold S21; rw [Function.update_of_ne (StableHlo.devRef_ne_of_ne hne0)]
set_option maxHeartbeats 2000000 in
theorem ends9 (c : Dev nD) : ∀ w : Fin cfg9.W, (dat9 (T20 m) c).arrAt w cfg9.N = S21 m c (Pipeline.arrRef spec9 w)
  | ⟨0, _⟩ => ((dat9 (T20 m) c).arrAt_in 0 rfl _).trans ((dat9_A (T20 m) c 0).trans (by show S20 m c main_v107 = S21 m c main_v107; unfold S21; rw [Function.update_of_ne (StableHlo.devRef_ne_of_ne (by decide : main_v107 ≠ main_v110))]))
  | ⟨1, _⟩ => ((dat9 (T20 m) c).arrAt_in 1 rfl _).trans ((dat9_A (T20 m) c 1).trans (by show S20 m c main_v73 = S21 m c main_v73; unfold S21; rw [Function.update_of_ne (StableHlo.devRef_ne_of_ne (by decide : main_v73 ≠ main_v110))]))
  | ⟨2, _⟩ => by unfold S21; show _ = Function.update (S20 m c) (Proc.devRef .tc main_v110) _ (Proc.devRef .tc main_v110); rw [Function.update_self]; rfl
set_option backward.isDefEq.respectTransparency.types false in
def reg9 : Pipeline.RegionSeg (pcfgs (F := F)) adm (pdats m) () defs₀ Variants.none Lz lvz 9 :=
  record (pcfgs (F := F)) adm (pdats m) defs₀ Variants.none Lz lvz 9 launch9.win launch9.arr_whole launch9.block_pos launch9.stage_whole
    (fun c => (body9 (T20 m) c).loose) (fun _ _ => rfl) (fun _ _ => rfl) (fun c => (pdats m 9 c).share_full fun _ => rfl) (fun _ _ => rfl)
    (fun c => by unfold Pipeline.prefHeld; rw [show (Finset.univ : Finset (Fin 0)) = ∅ from rfl, BI.bigSep_empty])
    (S20 m) (S21 m) (fun c w => dat9_A (T20 m) c w) (ends9 m) (keeps9 m)
/-! ## Region 10 -/

theorem keeps10 (c : Dev nD) (b : Ref sig .tc) (hb : b ∉ Finset.univ.image (Pipeline.arrRef spec10)) : S23 m c b = S22 m c b := by
  have hne0 : b ≠ main_v116 := fun e => hb (Finset.mem_image.mpr ⟨2, Finset.mem_univ _, (e.symm : Pipeline.arrRef spec10 2 = b)⟩)
  unfold S23; rw [Function.update_of_ne (StableHlo.devRef_ne_of_ne hne0)]
set_option maxHeartbeats 2000000 in
theorem ends10 (c : Dev nD) : ∀ w : Fin cfg10.W, (dat10 (T22 m) c).arrAt w cfg10.N = S23 m c (Pipeline.arrRef spec10 w)
  | ⟨0, _⟩ => ((dat10 (T22 m) c).arrAt_in 0 rfl _).trans ((dat10_A (T22 m) c 0).trans (by show S22 m c main_v1 = S23 m c main_v1; unfold S23; rw [Function.update_of_ne (StableHlo.devRef_ne_of_ne (by decide : main_v1 ≠ main_v116))]))
  | ⟨1, _⟩ => ((dat10 (T22 m) c).arrAt_in 1 rfl _).trans ((dat10_A (T22 m) c 1).trans (by show S22 m c main_v115 = S23 m c main_v115; unfold S23; rw [Function.update_of_ne (StableHlo.devRef_ne_of_ne (by decide : main_v115 ≠ main_v116))]))
  | ⟨2, _⟩ => by unfold S23; show _ = Function.update (S22 m c) (Proc.devRef .tc main_v116) _ (Proc.devRef .tc main_v116); rw [Function.update_self]; rfl
set_option backward.isDefEq.respectTransparency.types false in
def reg10 : Pipeline.RegionSeg (pcfgs (F := F)) adm (pdats m) () defs₀ Variants.none Lz lvz 10 :=
  record (pcfgs (F := F)) adm (pdats m) defs₀ Variants.none Lz lvz 10 launch10.win launch10.arr_whole launch10.block_pos launch10.stage_whole
    (fun c => (body10 (T22 m) c).loose) (fun _ _ => rfl) (fun _ _ => rfl) (fun c => (pdats m 10 c).share_full fun _ => rfl) (fun _ _ => rfl)
    (fun c => by unfold Pipeline.prefHeld; rw [show (Finset.univ : Finset (Fin 0)) = ∅ from rfl, BI.bigSep_empty])
    (S22 m) (S23 m) (fun c w => dat10_A (T22 m) c w) (ends10 m) (keeps10 m)
/-! ## Region 11 -/

theorem keeps11 (c : Dev nD) (b : Ref sig .tc) (hb : b ∉ Finset.univ.image (Pipeline.arrRef spec11)) : S27 m c b = S26 m c b := by
  have hne0 : b ≠ main_v159 := fun e => hb (Finset.mem_image.mpr ⟨4, Finset.mem_univ _, (e.symm : Pipeline.arrRef spec11 4 = b)⟩)
  unfold S27; rw [Function.update_of_ne (StableHlo.devRef_ne_of_ne hne0)]
set_option maxHeartbeats 2000000 in
theorem ends11 (c : Dev nD) : ∀ w : Fin cfg11.W, (dat11 (T26 m) c).arrAt w cfg11.N = S27 m c (Pipeline.arrRef spec11 w)
  | ⟨0, _⟩ => ((dat11 (T26 m) c).arrAt_in 0 rfl _).trans ((dat11_A (T26 m) c 0).trans (by show S26 m c main_v73 = S27 m c main_v73; unfold S27; rw [Function.update_of_ne (StableHlo.devRef_ne_of_ne (by decide : main_v73 ≠ main_v159))]))
  | ⟨1, _⟩ => ((dat11 (T26 m) c).arrAt_in 1 rfl _).trans ((dat11_A (T26 m) c 1).trans (by show S26 m c main_v73 = S27 m c main_v73; unfold S27; rw [Function.update_of_ne (StableHlo.devRef_ne_of_ne (by decide : main_v73 ≠ main_v159))]))
  | ⟨2, _⟩ => ((dat11 (T26 m) c).arrAt_in 2 rfl _).trans ((dat11_A (T26 m) c 2).trans (by show S26 m c main_v0 = S27 m c main_v0; unfold S27; rw [Function.update_of_ne (StableHlo.devRef_ne_of_ne (by decide : main_v0 ≠ main_v159))]))
  | ⟨3, _⟩ => ((dat11 (T26 m) c).arrAt_in 3 rfl _).trans ((dat11_A (T26 m) c 3).trans (by show S26 m c main_v158 = S27 m c main_v158; unfold S27; rw [Function.update_of_ne (StableHlo.devRef_ne_of_ne (by decide : main_v158 ≠ main_v159))]))
  | ⟨4, _⟩ => by unfold S27; show _ = Function.update (S26 m c) (Proc.devRef .tc main_v159) _ (Proc.devRef .tc main_v159); rw [Function.update_self]; rfl
set_option backward.isDefEq.respectTransparency.types false in
def reg11 : Pipeline.RegionSeg (pcfgs (F := F)) adm (pdats m) () defs₀ Variants.none Lz lvz 11 :=
  recordShared (pcfgs (F := F)) adm (pdats m) defs₀ Variants.none Lz lvz 11 winFacts₀11 arr_whole11 block_pos11 stage_whole11
    (fun c => (body11 (T26 m) c).loose) (fun _ _ => rfl) (fun _ _ => rfl) (fun _ _ => rfl)
    (fun c => by unfold Pipeline.prefHeld; rw [show (Finset.univ : Finset (Fin 0)) = ∅ from rfl, BI.bigSep_empty])
    (S26 m) (S27 m) (keeps11 m)
    (fun c => split11 (T26 m) c) (fun c => join11 (T26 m) (T27 m) c (ends11 m c))
/-! ## Region 12 -/

theorem keeps12 (c : Dev nD) (b : Ref sig .tc) (hb : b ∉ Finset.univ.image (Pipeline.arrRef spec12)) : S29 m c b = S28 m c b := by
  have hne0 : b ≠ main_v161_0 := fun e => hb (Finset.mem_image.mpr ⟨5, Finset.mem_univ _, (e.symm : Pipeline.arrRef spec12 5 = b)⟩)
  have hne1 : b ≠ main_v161_1 := fun e => hb (Finset.mem_image.mpr ⟨6, Finset.mem_univ _, (e.symm : Pipeline.arrRef spec12 6 = b)⟩)
  unfold S29; rw [Function.update_of_ne (StableHlo.devRef_ne_of_ne hne1), Function.update_of_ne (StableHlo.devRef_ne_of_ne hne0)]
set_option maxHeartbeats 2000000 in
theorem ends12 (c : Dev nD) : ∀ w : Fin cfg12.W, (dat12 (T28 m) c).arrAt w cfg12.N = S29 m c (Pipeline.arrRef spec12 w)
  | ⟨0, _⟩ => ((dat12 (T28 m) c).arrAt_in 0 rfl _).trans ((dat12_A (T28 m) c 0).trans (by show S28 m c main_arg6 = S29 m c main_arg6; unfold S29; rw [Function.update_of_ne (StableHlo.devRef_ne_of_ne (by decide : main_arg6 ≠ main_v161_1)), Function.update_of_ne (StableHlo.devRef_ne_of_ne (by decide : main_arg6 ≠ main_v161_0))]))
  | ⟨1, _⟩ => ((dat12 (T28 m) c).arrAt_in 1 rfl _).trans ((dat12_A (T28 m) c 1).trans (by show S28 m c main_v159 = S29 m c main_v159; unfold S29; rw [Function.update_of_ne (StableHlo.devRef_ne_of_ne (by decide : main_v159 ≠ main_v161_1)), Function.update_of_ne (StableHlo.devRef_ne_of_ne (by decide : main_v159 ≠ main_v161_0))]))
  | ⟨2, _⟩ => ((dat12 (T28 m) c).arrAt_in 2 rfl _).trans ((dat12_A (T28 m) c 2).trans (by show S28 m c main_v0 = S29 m c main_v0; unfold S29; rw [Function.update_of_ne (StableHlo.devRef_ne_of_ne (by decide : main_v0 ≠ main_v161_1)), Function.update_of_ne (StableHlo.devRef_ne_of_ne (by decide : main_v0 ≠ main_v161_0))]))
  | ⟨3, _⟩ => ((dat12 (T28 m) c).arrAt_in 3 rfl _).trans ((dat12_A (T28 m) c 3).trans (by show S28 m c main_v160 = S29 m c main_v160; unfold S29; rw [Function.update_of_ne (StableHlo.devRef_ne_of_ne (by decide : main_v160 ≠ main_v161_1)), Function.update_of_ne (StableHlo.devRef_ne_of_ne (by decide : main_v160 ≠ main_v161_0))]))
  | ⟨4, _⟩ => ((dat12 (T28 m) c).arrAt_in 4 rfl _).trans ((dat12_A (T28 m) c 4).trans (by show S28 m c main_v126 = S29 m c main_v126; unfold S29; rw [Function.update_of_ne (StableHlo.devRef_ne_of_ne (by decide : main_v126 ≠ main_v161_1)), Function.update_of_ne (StableHlo.devRef_ne_of_ne (by decide : main_v126 ≠ main_v161_0))]))
  | ⟨5, _⟩ => by unfold S29; show _ = Function.update (Function.update (S28 m c) (Proc.devRef .tc main_v161_0) _) (Proc.devRef .tc main_v161_1) _ (Proc.devRef .tc main_v161_0); rw [Function.update_of_ne (StableHlo.devRef_ne_of_ne (by decide : main_v161_0 ≠ main_v161_1)), Function.update_self]; rfl
  | ⟨6, _⟩ => by unfold S29; show _ = Function.update (Function.update (S28 m c) (Proc.devRef .tc main_v161_0) _) (Proc.devRef .tc main_v161_1) _ (Proc.devRef .tc main_v161_1); rw [Function.update_self]; rfl
set_option backward.isDefEq.respectTransparency.types false in
def reg12 : Pipeline.RegionSeg (pcfgs (F := F)) adm (pdats m) () defs₀ Variants.none Lz lvz 12 :=
  record (pcfgs (F := F)) adm (pdats m) defs₀ Variants.none Lz lvz 12 launch12.win launch12.arr_whole launch12.block_pos launch12.stage_whole
    (fun c => (body12 (T28 m) c).loose) (fun _ _ => rfl) (fun _ _ => rfl) (fun c => (pdats m 12 c).share_full fun _ => rfl) (fun _ _ => rfl)
    (fun c => by unfold Pipeline.prefHeld; rw [show (Finset.univ : Finset (Fin 0)) = ∅ from rfl, BI.bigSep_empty])
    (S28 m) (S29 m) (fun c w => dat12_A (T28 m) c w) (ends12 m) (keeps12 m)
/-! ## Region 13 -/

theorem keeps13 (c : Dev nD) (b : Ref sig .tc) (hb : b ∉ Finset.univ.image (Pipeline.arrRef spec13)) : S30 m c b = S29 m c b := by
  have hne0 : b ≠ main_v162 := fun e => hb (Finset.mem_image.mpr ⟨2, Finset.mem_univ _, (e.symm : Pipeline.arrRef spec13 2 = b)⟩)
  unfold S30; rw [Function.update_of_ne (StableHlo.devRef_ne_of_ne hne0)]
set_option maxHeartbeats 2000000 in
theorem ends13 (c : Dev nD) : ∀ w : Fin cfg13.W, (dat13 (T29 m) c).arrAt w cfg13.N = S30 m c (Pipeline.arrRef spec13 w)
  | ⟨0, _⟩ => ((dat13 (T29 m) c).arrAt_in 0 rfl _).trans ((dat13_A (T29 m) c 0).trans (by show S29 m c main_v159 = S30 m c main_v159; unfold S30; rw [Function.update_of_ne (StableHlo.devRef_ne_of_ne (by decide : main_v159 ≠ main_v162))]))
  | ⟨1, _⟩ => ((dat13 (T29 m) c).arrAt_in 1 rfl _).trans ((dat13_A (T29 m) c 1).trans (by show S29 m c main_v125 = S30 m c main_v125; unfold S30; rw [Function.update_of_ne (StableHlo.devRef_ne_of_ne (by decide : main_v125 ≠ main_v162))]))
  | ⟨2, _⟩ => by unfold S30; show _ = Function.update (S29 m c) (Proc.devRef .tc main_v162) _ (Proc.devRef .tc main_v162); rw [Function.update_self]; rfl
set_option backward.isDefEq.respectTransparency.types false in
def reg13 : Pipeline.RegionSeg (pcfgs (F := F)) adm (pdats m) () defs₀ Variants.none Lz lvz 13 :=
  record (pcfgs (F := F)) adm (pdats m) defs₀ Variants.none Lz lvz 13 launch13.win launch13.arr_whole launch13.block_pos launch13.stage_whole
    (fun c => (body13 (T29 m) c).loose) (fun _ _ => rfl) (fun _ _ => rfl) (fun c => (pdats m 13 c).share_full fun _ => rfl) (fun _ _ => rfl)
    (fun c => by unfold Pipeline.prefHeld; rw [show (Finset.univ : Finset (Fin 0)) = ∅ from rfl, BI.bigSep_empty])
    (S29 m) (S30 m) (fun c w => dat13_A (T29 m) c w) (ends13 m) (keeps13 m)
/-! ## Region 14 -/

theorem keeps14 (c : Dev nD) (b : Ref sig .tc) (hb : b ∉ Finset.univ.image (Pipeline.arrRef spec14)) : S32 m c b = S31 m c b := by
  have hne0 : b ≠ main_v168 := fun e => hb (Finset.mem_image.mpr ⟨2, Finset.mem_univ _, (e.symm : Pipeline.arrRef spec14 2 = b)⟩)
  unfold S32; rw [Function.update_of_ne (StableHlo.devRef_ne_of_ne hne0)]
set_option maxHeartbeats 2000000 in
theorem ends14 (c : Dev nD) : ∀ w : Fin cfg14.W, (dat14 (T31 m) c).arrAt w cfg14.N = S32 m c (Pipeline.arrRef spec14 w)
  | ⟨0, _⟩ => ((dat14 (T31 m) c).arrAt_in 0 rfl _).trans ((dat14_A (T31 m) c 0).trans (by show S31 m c main_v1 = S32 m c main_v1; unfold S32; rw [Function.update_of_ne (StableHlo.devRef_ne_of_ne (by decide : main_v1 ≠ main_v168))]))
  | ⟨1, _⟩ => ((dat14 (T31 m) c).arrAt_in 1 rfl _).trans ((dat14_A (T31 m) c 1).trans (by show S31 m c main_v167 = S32 m c main_v167; unfold S32; rw [Function.update_of_ne (StableHlo.devRef_ne_of_ne (by decide : main_v167 ≠ main_v168))]))
  | ⟨2, _⟩ => by unfold S32; show _ = Function.update (S31 m c) (Proc.devRef .tc main_v168) _ (Proc.devRef .tc main_v168); rw [Function.update_self]; rfl
set_option backward.isDefEq.respectTransparency.types false in
def reg14 : Pipeline.RegionSeg (pcfgs (F := F)) adm (pdats m) () defs₀ Variants.none Lz lvz 14 :=
  record (pcfgs (F := F)) adm (pdats m) defs₀ Variants.none Lz lvz 14 launch14.win launch14.arr_whole launch14.block_pos launch14.stage_whole
    (fun c => (body14 (T31 m) c).loose) (fun _ _ => rfl) (fun _ _ => rfl) (fun c => (pdats m 14 c).share_full fun _ => rfl) (fun _ _ => rfl)
    (fun c => by unfold Pipeline.prefHeld; rw [show (Finset.univ : Finset (Fin 0)) = ∅ from rfl, BI.bigSep_empty])
    (S31 m) (S32 m) (fun c w => dat14_A (T31 m) c w) (ends14 m) (keeps14 m)
/-! ## Region 15 -/

theorem keeps15 (c : Dev nD) (b : Ref sig .tc) (hb : b ∉ Finset.univ.image (Pipeline.arrRef spec15)) : S36 m c b = S35 m c b := by
  have hne0 : b ≠ main_v211 := fun e => hb (Finset.mem_image.mpr ⟨4, Finset.mem_univ _, (e.symm : Pipeline.arrRef spec15 4 = b)⟩)
  unfold S36; rw [Function.update_of_ne (StableHlo.devRef_ne_of_ne hne0)]
set_option maxHeartbeats 2000000 in
theorem ends15 (c : Dev nD) : ∀ w : Fin cfg15.W, (dat15 (T35 m) c).arrAt w cfg15.N = S36 m c (Pipeline.arrRef spec15 w)
  | ⟨0, _⟩ => ((dat15 (T35 m) c).arrAt_in 0 rfl _).trans ((dat15_A (T35 m) c 0).trans (by show S35 m c main_v125 = S36 m c main_v125; unfold S36; rw [Function.update_of_ne (StableHlo.devRef_ne_of_ne (by decide : main_v125 ≠ main_v211))]))
  | ⟨1, _⟩ => ((dat15 (T35 m) c).arrAt_in 1 rfl _).trans ((dat15_A (T35 m) c 1).trans (by show S35 m c main_v125 = S36 m c main_v125; unfold S36; rw [Function.update_of_ne (StableHlo.devRef_ne_of_ne (by decide : main_v125 ≠ main_v211))]))
  | ⟨2, _⟩ => ((dat15 (T35 m) c).arrAt_in 2 rfl _).trans ((dat15_A (T35 m) c 2).trans (by show S35 m c main_v0 = S36 m c main_v0; unfold S36; rw [Function.update_of_ne (StableHlo.devRef_ne_of_ne (by decide : main_v0 ≠ main_v211))]))
  | ⟨3, _⟩ => ((dat15 (T35 m) c).arrAt_in 3 rfl _).trans ((dat15_A (T35 m) c 3).trans (by show S35 m c main_v210 = S36 m c main_v210; unfold S36; rw [Function.update_of_ne (StableHlo.devRef_ne_of_ne (by decide : main_v210 ≠ main_v211))]))
  | ⟨4, _⟩ => by unfold S36; show _ = Function.update (S35 m c) (Proc.devRef .tc main_v211) _ (Proc.devRef .tc main_v211); rw [Function.update_self]; rfl
set_option backward.isDefEq.respectTransparency.types false in
def reg15 : Pipeline.RegionSeg (pcfgs (F := F)) adm (pdats m) () defs₀ Variants.none Lz lvz 15 :=
  recordShared (pcfgs (F := F)) adm (pdats m) defs₀ Variants.none Lz lvz 15 winFacts₀15 arr_whole15 block_pos15 stage_whole15
    (fun c => (body15 (T35 m) c).loose) (fun _ _ => rfl) (fun _ _ => rfl) (fun _ _ => rfl)
    (fun c => by unfold Pipeline.prefHeld; rw [show (Finset.univ : Finset (Fin 0)) = ∅ from rfl, BI.bigSep_empty])
    (S35 m) (S36 m) (keeps15 m)
    (fun c => split15 (T35 m) c) (fun c => join15 (T35 m) (T36 m) c (ends15 m c))

end Cert.Kernel.Run

end
-- ==== Proof.K.Frame.lean ====
/-
  The frame of the program: every weakly fair execution of @main from any memory with zero counters terminates without a
  fault, and every final memory holds each argument array as launched — the conditional frame at the regions' records,
  each entered from the boundary before it and left at the boundary after it, the generator register and the (empty)
  dues riding along.
-/
import proofs.«169176_j23261542875327_2_alg».proof.Proof.K.Records

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen Cert.Kernel.GenP Cert.Kernel.Regs Cert.LibRegionRecord

variable {F : FTy → Type} [FloatOps F]

variable (m : (ℓ : Loc nD τ sig) → Buf (Elt F) ℓ) (ρ : Dev nD → PrngReg)

set_option maxHeartbeats 4000000 in
set_option backward.isDefEq.respectTransparency.types false in
/-- The frame, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (Ix := Unit) (U := UR sig nD τ) (Lvl := ℕ) emb₁ () Variants.none Lz lvz (fun _ _ => rfl) ρ (results m) (pdats m)
    0 (fun _ => iprop(emp)) (initOf (Pipeline.cells cfgs cellOf_inj) (Pipeline.launchToks cfgs cellOf_inj)) (launch_element _)
    (fun _ c => Rest c) (rest_of_launch Lz lvz ρ) (fun c => rest_owes c)
    (reg0 m) (fun c => by exact .rfl) (fun c => by rw [V1_eq]; exact .rfl)
    (reg1 m) (fun c => by rw [V2_eq]; exact .rfl) (fun c => by rw [V3_eq]; exact .rfl)
    (reg2 m) (fun c => by rw [V4_eq]; exact .rfl) (fun c => by rw [V5_eq]; exact .rfl)
    (reg3 m) (fun c => by rw [V8_eq]; exact .rfl) (fun c => by rw [V9_eq]; exact .rfl)
    (reg4 m) (fun c => by rw [V10_eq]; exact .rfl) (fun c => by rw [V11_eq]; exact .rfl)
    (reg5 m) (fun c => by rw [V11_eq]; exact .rfl) (fun c => by rw [V12_eq]; exact .rfl)
    (reg6 m) (fun c => by rw [V13_eq]; exact .rfl) (fun c => by rw [V14_eq]; exact .rfl)
    (reg7 m) (fun c => by rw [V17_eq]; exact .rfl) (fun c => by rw [V18_eq]; exact .rfl)
    (reg8 m) (fun c => by rw [V19_eq]; exact .rfl) (fun c => by rw [V20_eq]; exact .rfl)
    (reg9 m) (fun c => by rw [V20_eq]; exact .rfl) (fun c => by rw [V21_eq]; exact .rfl)
    (reg10 m) (fun c => by rw [V22_eq]; exact .rfl) (fun c => by rw [V23_eq]; exact .rfl)
    (reg11 m) (fun c => by rw [V26_eq]; exact .rfl) (fun c => by rw [V27_eq]; exact .rfl)
    (reg12 m) (fun c => by rw [V28_eq]; exact .rfl) (fun c => by rw [V29_eq]; exact .rfl)
    (reg13 m) (fun c => by rw [V29_eq]; exact .rfl) (fun c => by rw [V30_eq]; exact .rfl)
    (reg14 m) (fun c => by rw [V31_eq]; exact .rfl) (fun c => by rw [V32_eq]; exact .rfl)
    (reg15 m) (fun c => by rw [V35_eq]; exact .rfl) (fun c => by rw [V36_eq]; exact .rfl)

end Cert.Kernel.Run

end
-- ==== Proof.KI.Region0.lean ====
/- Region 0 of @main, body side: the masked edge term.

   Three 4096 x 4096 arrays cut into a 4 x 4 grid of 1024 x 1024 tiles: the edge attributes EA (window 0), the
   mask w22 (window 1) and the result mea (window 2). At a grid point the body reads the two input tiles whole and
   writes the output tile whole, entrywise   mea = (1/2 · EA) · w22 .
   Nothing is carried from one grid point to the next, so what the body leaves in the output tile is a function of
   the two input tiles at that point alone. -/
import proofs.«169176_j23261542875327_2_alg».proof.Proof.Gen.KernelIdeal.Launch
import proofs.«169176_j23261542875327_2_alg».proof.Proof.Gen.KernelIdeal.Skeleton
import proofs.«169176_j23261542875327_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The tiles -/

/-- Window `w`'s tile at grid point `t`, cut out of its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1024 x 1024 tile as a rectangle of itself: the one rectangle the body loads and stores through. -/
abbrev tile0 : Rect S1024x1024 := Rect.unit (s := S1024x1024) ![0, 0] S1024x1024.size inb_S1024x1024_S1024x1024_0_0

/-- The output tile after the body: one whole-tile store of (1/2 · ea) · m, entrywise, of the input tiles `ea`
    (edge attributes) and `m` (mask). -/
def left0_2 (ea m : Vec F S1024x1024 .f32) : Vec F S1024x1024 .f32 :=
  View.canon [⟨tile0, k0_pay1 (View.ld ea tile0) (View.ld m tile0)⟩]

/-- One whole-tile store fills the tile, whatever is stored. -/
theorem fills0_2 (p : Vec F S1024x1024 .f32) (y : S1024x1024.Idx) :
    ∃ pc ∈ ([⟨tile0, p⟩] : List (View.Piece (Elt F) S1024x1024 .f32)), y ∈ pc.1.set :=
  View.cover_of_tiled [⟨tile0, p⟩] S1024x1024.size (by rfl) y

/-! ## The body on three whole tiles -/

set_option maxHeartbeats 1000000 in
/-- On whole tile buffers — the inputs reading `ea` and `m`, the output holding anything — the body ends with the
    inputs as they were and the output reading `left0_2 ea m`. (It also loads the output tile before overwriting it;
    the loaded value is not used.) -/
theorem run0 (c : Dev nD) (E : Set ℕ) (i : grid0.Coords)
    (a0 : Memref sig .tc .vmem S1024x1024 .f32) (h0 : a0.IsWhole) (a1 : Memref sig .tc .vmem S1024x1024 .f32) (h1 : a1.IsWhole)
    (a2 : Memref sig .tc .vmem S1024x1024 .f32) (h2 : a2.IsWhole)
    (ea m : Vec F S1024x1024 .f32) (K : PUnit → sProp 𝕄) :
    iprop(owns (c : Thread nD τ) a0 fullShare ea ∗ owns (c : Thread nD τ) a1 fullShare m ∗ (∃ d, owns (c : Thread nD τ) a2 fullShare d)
        ∗ (iprop(owns (c : Thread nD τ) a0 fullShare ea ∗ owns (c : Thread nD τ) a1 fullShare m
            ∗ owns (c : Thread nD τ) a2 fullShare (left0_2 ea m)) -∗ K ⟨⟩))
      ⊢ wp frame (wpE (defs₀ (F := F)) Variants.none c none) E (cc0__masked_ea_kernel i a0 h0 a1 h1 a2 h2) K := by
  simp only [cc0__masked_ea_kernel_eq_skeleton]; unfold cc0__masked_ea_kernel_skel
  unfold owns
  iintro ⟨⟨%f0, %e0, H0⟩, ⟨%f1, %e1, H1⟩, ⟨%d2, %f2, -, H2⟩, Hk⟩
  subst e0; subst e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fills0_2 _)

/-! ## The proof data -/

/-- Pipeline 0's proof data on core `c`: the arrays as the region finds them; after the body at point `t` the input
    buffers still at their tiles and the output buffer at `left0_2` of the two input tiles; the invariant that of a
    body keeping nothing between points; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => left0_2 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) :
    (dat0 V c).after 2 t = left0_2 (blk0 V c 0 t) (blk0 V c 1 t) := by dsimp only [dat0]

/-! ## What the body finds in the input buffers -/

/-- The edge-attribute buffer holds its tile at every point: the body leaves it in place and the tile index moves
    with every point that fetches. -/
theorem finds0_0 (c : Dev nD) (t : Fin cfg0.N) (d) : (dat0 V c).before 0 t d = blk0 V c 0 t :=
  ((dat0 V c).before_in_eq_fetched 0 rfl (fun _ => rfl) (fun _ _ _ => rfl)
      (fun t => by rw [dat0_after_0]; unfold Dat.blockOf blk0; rw [dat0_A]; try rfl) t d).trans
    (by unfold Dat.fetched Dat.blockOf blk0; rw [dat0_A]; try rfl)

/-- The same of the mask buffer. -/
theorem finds0_1 (c : Dev nD) (t : Fin cfg0.N) (d) : (dat0 V c).before 1 t d = blk0 V c 1 t :=
  ((dat0 V c).before_in_eq_fetched 1 rfl (fun _ => rfl) (fun _ _ _ => rfl)
      (fun t => by rw [dat0_after_1]; unfold Dat.blockOf blk0; rw [dat0_A]; try rfl) t d).trans
    (by unfold Dat.fetched Dat.blockOf blk0; rw [dat0_A]; try rfl)

/-! ## The obligation at a grid point -/

/-- At any point: the input buffers hold their tiles (`finds0_0`, `finds0_1`), so `run0` applies to the three current
    buffers; the invariant and what the core owes are not touched. -/
theorem body0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.castSucc ∗ (dat0 V c).owesAt () t.castSucc
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)))
  simp only [finds0_0, finds0_1]
  rw [dat0_after_0, dat0_after_1, dat0_after_2]
  unfold bodyAt0
  iintro ⟨HΦ, Ho, ⟨%d0, H0⟩, ⟨%d1, H1⟩, ⟨%d2, H2⟩⟩
  iapply (run0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Regs
-- ==== Proof.KI.Region1.lean ====
import proofs.«169176_j23261542875327_2_alg».proof.Proof.Gen.KernelIdeal.Launch
import proofs.«169176_j23261542875327_2_alg».proof.Proof.Gen.KernelIdeal.Skeleton
import proofs.«169176_j23261542875327_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic

-- a whole-block rectangle's membership test walks the long axis once per coordinate
set_option maxRecDepth 65536

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 1: the first layer's fused adjacency products

A row tile of 128 rows. The body forms `A = adj + mea` on the tile (windows 0 and 1, 128x4096 each) and
multiplies it into the two resident 4096x256 operands: `oy = bf16(A) · y` (window 2, bf16, into window 4)
and `oz = A · z` at full precision (window 3, into window 5), each product into a zero accumulator. -/

/-- Window `w`'s block at grid point `t`, cut out of its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The whole-block rectangles the body reads and writes through -/

/-- all of a 128x4096 row tile -/
abbrev tileR1 : Rect S128x4096 := Rect.unit (s := S128x4096) ![0, 0] S128x4096.size inb_S128x4096_S128x4096_0_0
/-- all of a 4096x256 right operand -/
abbrev rhsR1 : Rect S4096x256 := Rect.unit (s := S4096x256) ![0, 0] S4096x256.size inb_S4096x256_S4096x256_0_0
/-- all of a 128x256 product tile -/
abbrev prodR1 : Rect S128x256 := Rect.unit (s := S128x256) ![0, 0] S128x256.size inb_S128x256_S128x256_0_0

/-! ## What the body leaves in the two product buffers -/

/-- Window 4 after the body: the single whole-tile store of `bf16(adj + mea) · y`. -/
def left1_4 (x0 x1 : Vec F S128x4096 .f32) (x2 : Vec F S4096x256 .bf16) : Vec F S128x256 .f32 :=
  View.canon [⟨prodR1, k1_pay2 (View.ld x0 tileR1) (View.ld x1 tileR1) (View.ld x2 rhsR1)⟩]

/-- Window 5 after the body: the single whole-tile store of `(adj + mea) · z`. -/
def left1_5 (x0 x1 : Vec F S128x4096 .f32) (x3 : Vec F S4096x256 .f32) : Vec F S128x256 .f32 :=
  View.canon [⟨prodR1, k1_pay3 (View.ld x0 tileR1) (View.ld x1 tileR1) (View.ld x3 rhsR1)⟩]

/-- One whole-tile store covers the product tile. -/
theorem prodCover1 (p : Vec F S128x256 .f32) (y : S128x256.Idx) :
    ∃ pc ∈ ([⟨prodR1, p⟩] : List (View.Piece (Elt F) S128x256 .f32)), y ∈ pc.1.set :=
  View.cover_of_tiled [⟨prodR1, p⟩] S128x256.size (by rfl) y

/-! ## The body on whole staging buffers -/

set_option maxHeartbeats 4000000 in
/-- Run on six whole staging buffers, the four operands' reading `x0 … x3` and the two products' holding anything,
    the body returns with the operands as they were and the products at `left1_4`, `left1_5` of them. -/
theorem kernel1 (c : Dev nD) (E : Set ℕ) (i : grid1.Coords)
    (a0 : Memref sig .tc .vmem S128x4096 .f32) (h0 : a0.IsWhole) (a1 : Memref sig .tc .vmem S128x4096 .f32) (h1 : a1.IsWhole)
    (a2 : Memref sig .tc .vmem S4096x256 .bf16) (h2 : a2.IsWhole) (a3 : Memref sig .tc .vmem S4096x256 .f32) (h3 : a3.IsWhole)
    (a4 : Memref sig .tc .vmem S128x256 .f32) (h4 : a4.IsWhole) (a5 : Memref sig .tc .vmem S128x256 .f32) (h5 : a5.IsWhole)
    (x0 x1 : Vec F S128x4096 .f32) (x2 : Vec F S4096x256 .bf16) (x3 : Vec F S4096x256 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d) ∗ (∃ d, owns (c : Thread nD τ) a5 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (left1_4 x0 x1 x2)
            ∗ owns (c : Thread nD τ) a5 fullShare (left1_5 x0 x1 x3)) -∗ K ⟨⟩))
      ⊢ wp frame (wpE (defs₀ (F := F)) Variants.none c none) E (cc1__fused_a0_kernel i a0 h0 a1 h1 a2 h2 a3 h3 a4 h4 a5 h5) K := by
  simp only [cc1__fused_a0_kernel_eq_skeleton]; unfold cc1__fused_a0_kernel_skel
  unfold owns
  iintro ⟨⟨%f0, %e0, H0⟩, ⟨%f1, %e1, H1⟩, ⟨%f2, %e2, H2⟩, ⟨%f3, %e3, H3⟩, ⟨%d4, %f4, -, H4⟩, ⟨%d5, %f5, -, H5⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (prodCover1 _)
  iexists _; isplitr
  swap; · iexact H5
  ipureintro
  exact View.read_writes_eq_canon _ _ _ (prodCover1 _)

/-! ## The proof data -/

/-- Core `c`'s proof data for the region: the arrays as found; after the body at point `t` each operand's buffer
    still at its block, each product's at `left1_w` of the operand blocks there; the invariant the scoped rest and
    the generator register, untouched; nothing owed; whole shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => left1_4 (blk1 V c 0 t) (blk1 V c 1 t) (blk1 V c 2 t)
    | ⟨5, _⟩ => left1_5 (blk1 V c 0 t) (blk1 V c 1 t) (blk1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) : (dat1 V c).after 3 t = blk1 V c 3 t := by dsimp only [dat1]
theorem dat1_after_4 (c : Dev nD) (t : Fin cfg1.N) :
    (dat1 V c).after 4 t = left1_4 (blk1 V c 0 t) (blk1 V c 1 t) (blk1 V c 2 t) := by dsimp only [dat1]
theorem dat1_after_5 (c : Dev nD) (t : Fin cfg1.N) :
    (dat1 V c).after 5 t = left1_5 (blk1 V c 0 t) (blk1 V c 1 t) (blk1 V c 3 t) := by dsimp only [dat1]

/-! ## An operand's buffer holds its block at every point

The two row tiles are fetched at every point; the two right operands are fetched at the first point only and their
block index never moves. Either way the current buffer reads the window's block: the body leaves it in place. -/

theorem held1_0 (c : Dev nD) (t : Fin cfg1.N) (d) : (dat1 V c).before 0 t d = blk1 V c 0 t :=
  ((dat1 V c).before_in_eq_fetched 0 rfl (fun _ => rfl) (fun _ _ _ => rfl)
    (fun t => by rw [dat1_after_0]; unfold Dat.blockOf blk1; rw [dat1_A]; try rfl) t d).trans
    (by unfold Dat.fetched Dat.blockOf blk1; rw [dat1_A]; try rfl)
theorem held1_1 (c : Dev nD) (t : Fin cfg1.N) (d) : (dat1 V c).before 1 t d = blk1 V c 1 t :=
  ((dat1 V c).before_in_eq_fetched 1 rfl (fun _ => rfl) (fun _ _ _ => rfl)
    (fun t => by rw [dat1_after_1]; unfold Dat.blockOf blk1; rw [dat1_A]; try rfl) t d).trans
    (by unfold Dat.fetched Dat.blockOf blk1; rw [dat1_A]; try rfl)
theorem held1_2 (c : Dev nD) (t : Fin cfg1.N) (d) : (dat1 V c).before 2 t d = blk1 V c 2 t :=
  ((dat1 V c).before_in_eq_fetched 2 rfl (fun _ => rfl) (fun _ _ _ => rfl)
    (fun t => by rw [dat1_after_2]; unfold Dat.blockOf blk1; rw [dat1_A]; try rfl) t d).trans
    (by unfold Dat.fetched Dat.blockOf blk1; rw [dat1_A]; try rfl)
theorem held1_3 (c : Dev nD) (t : Fin cfg1.N) (d) : (dat1 V c).before 3 t d = blk1 V c 3 t :=
  ((dat1 V c).before_in_eq_fetched 3 rfl (fun _ => rfl) (fun _ _ _ => rfl)
    (fun t => by rw [dat1_after_3]; unfold Dat.blockOf blk1; rw [dat1_A]; try rfl) t d).trans
    (by unfold Dat.fetched Dat.blockOf blk1; rw [dat1_A]; try rfl)

/-! ## The body obligation -/

/-- What the pipeline hands the body at point `t`, window by window, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it takes back. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- At any point the operands' buffers read their blocks, so `kernel1` applies; the invariant and what the core
    owes pass through unread. -/
theorem atPoint1 (c : Dev nD) (t : Fin cfg1.N) :
    handed1 V c t ⊢ wp frame (wpE (defs₀ (F := F)) Variants.none c none) Set.univ (bodyAt1 t) (fun _ => returned1 V c t) := by
  unfold handed1 returned1 bodyAt1
  simp only [held1_0, held1_1, held1_2, held1_3]
  rw [show (dat1 V c).Φ t.succ = (dat1 V c).Φ t.castSucc from rfl,
    show (dat1 V c).owesAt () t.succ = (dat1 V c).owesAt () t.castSucc from rfl,
    dat1_after_0, dat1_after_1, dat1_after_2, dat1_after_3, dat1_after_4, dat1_after_5]
  iintro ⟨HΦ, Ho, ⟨%d0, H0⟩, ⟨%d1, H1⟩, ⟨%d2, H2⟩, ⟨%d3, H3⟩, ⟨%d4, H4⟩, ⟨%d5, H5⟩⟩
  iapply (kernel1 c Set.univ _ _ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region, at every point. -/
theorem body1 (c : Dev nD) : BodyObligation (dat1 (F := F) V c) (defs₀ (F := F)) Variants.none () Set.univ := fun t => by
  rw [bigSep_W1, bigSep_W1]
  exact atPoint1 V c t

end Cert.KernelIdeal.Regs
-- ==== Proof.KI.Region2.lean ====
/- Region 2 of @main, body side.

   A tall product  out = A · B  computed in eight row tiles. Window 0 is the left matrix A (4096 x 4096, already in
   bf16) cut into eight 512 x 4096 row tiles; window 1 is the right matrix B (4096 x 256, f32), one block that is the
   whole array and therefore stays in its buffer from the first grid point on; window 2 is the result (4096 x 256, f32)
   in eight 512 x 256 row tiles. At a grid point the body reads the row tile and B whole, rounds B to bf16, and writes
   the output tile whole:   out_tile = A_tile · bf16(B) ,  the products summed in f32 from zero.
   Nothing is carried from one grid point to the next, so what the body leaves in the output tile is a function of
   the two input blocks at that point alone. -/
import proofs.«169176_j23261542875327_2_alg».proof.Proof.Gen.KernelIdeal.Launch
import proofs.«169176_j23261542875327_2_alg».proof.Proof.Gen.KernelIdeal.Skeleton
import proofs.«169176_j23261542875327_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks -/

/-- Window `w`'s block at grid point `t`, cut out of its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each of the three blocks as a rectangle of itself: the body loads and stores whole blocks only. -/
abbrev lhs2 : Rect S512x4096 := Rect.unit (s := S512x4096) ![0, 0] S512x4096.size inb_S512x4096_S512x4096_0_0
abbrev rhs2 : Rect S4096x256 := Rect.unit (s := S4096x256) ![0, 0] S4096x256.size inb_S4096x256_S4096x256_0_0
abbrev res2 : Rect S512x256 := Rect.unit (s := S512x256) ![0, 0] S512x256.size inb_S512x256_S512x256_0_0

/-- The output tile after the body: one whole-tile store of the product of the row tile `a` with `b` rounded to bf16, summed from zero. -/
def left2_2 (a : Vec F S512x4096 .bf16) (b : Vec F S4096x256 .f32) : Vec F S512x256 .f32 :=
  View.canon [⟨res2, k2_pay1 (View.ld a lhs2) (View.ld b rhs2)⟩]

/-- One whole-tile store fills the tile, whatever is stored. -/
theorem fills2_2 (p : Vec F S512x256 .f32) (y : S512x256.Idx) :
    ∃ pc ∈ ([⟨res2, p⟩] : List (View.Piece (Elt F) S512x256 .f32)), y ∈ pc.1.set :=
  View.cover_of_tiled [⟨res2, p⟩] S512x256.size (by rfl) y

/-! ## The body on three whole blocks -/

set_option maxHeartbeats 1000000 in
/-- On whole block buffers — the inputs reading `a` and `b`, the output holding anything — the body ends with the
    inputs as they were and the output reading `left2_2 a b`. (It also loads the output tile before overwriting it;
    the loaded value is not used.) -/
theorem run2 (c : Dev nD) (E : Set ℕ) (i : grid2.Coords)
    (a0 : Memref sig .tc .vmem S512x4096 .bf16) (h0 : a0.IsWhole) (a1 : Memref sig .tc .vmem S4096x256 .f32) (h1 : a1.IsWhole)
    (a2 : Memref sig .tc .vmem S512x256 .f32) (h2 : a2.IsWhole)
    (a : Vec F S512x4096 .bf16) (b : Vec F S4096x256 .f32) (K : PUnit → sProp 𝕄) :
    iprop(owns (c : Thread nD τ) a0 fullShare a ∗ owns (c : Thread nD τ) a1 fullShare b ∗ (∃ d, owns (c : Thread nD τ) a2 fullShare d)
        ∗ (iprop(owns (c : Thread nD τ) a0 fullShare a ∗ owns (c : Thread nD τ) a1 fullShare b
            ∗ owns (c : Thread nD τ) a2 fullShare (left2_2 a b)) -∗ K ⟨⟩))
      ⊢ wp frame (wpE (defs₀ (F := F)) Variants.none c none) E (cc2__matmul_tall_kernel i a0 h0 a1 h1 a2 h2) K := by
  simp only [cc2__matmul_tall_kernel_eq_skeleton]; unfold cc2__matmul_tall_kernel_skel
  unfold owns
  iintro ⟨⟨%f0, %e0, H0⟩, ⟨%f1, %e1, H1⟩, ⟨%d2, %f2, -, H2⟩, Hk⟩
  subst e0; subst e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fills2_2 _)

/-! ## The proof data -/

/-- Pipeline 2's proof data on core `c`: the arrays as the region finds them; after the body at point `t` the input
    buffers still at their blocks and the output buffer at `left2_2` of the two input blocks; the invariant that of a
    body keeping nothing between points; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => left2_2 (blk2 V c 0 t) (blk2 V c 1 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) :
    (dat2 V c).after 2 t = left2_2 (blk2 V c 0 t) (blk2 V c 1 t) := by dsimp only [dat2]

/-! ## What the body finds in the input buffers -/

/-- The left factor's buffer holds its row tile of the left matrix at every point: the body leaves it in place, and it is fetched
    afresh at every point. -/
theorem finds2_0 (c : Dev nD) (t : Fin cfg2.N) (d) : (dat2 V c).before 0 t d = blk2 V c 0 t :=
  ((dat2 V c).before_in_eq_fetched 0 rfl (fun _ => rfl) (fun _ _ _ => rfl)
      (fun t => by rw [dat2_after_0]; unfold Dat.blockOf blk2; rw [dat2_A]; try rfl) t d).trans
    (by unfold Dat.fetched Dat.blockOf blk2; rw [dat2_A]; try rfl)

/-- The right factor's buffer holds the whole right matrix at every point: fetched at the first point only, its block
    index never moves afterwards and the body leaves it in place. -/
theorem finds2_1 (c : Dev nD) (t : Fin cfg2.N) (d) : (dat2 V c).before 1 t d = blk2 V c 1 t :=
  ((dat2 V c).before_in_eq_fetched 1 rfl (fun _ => rfl) (fun _ _ _ => rfl)
      (fun t => by rw [dat2_after_1]; unfold Dat.blockOf blk2; rw [dat2_A]; try rfl) t d).trans
    (by unfold Dat.fetched Dat.blockOf blk2; rw [dat2_A]; try rfl)

/-! ## The obligation at a grid point -/

/-- At any point: the input buffers hold their blocks (`finds2_0`, `finds2_1`), so `run2` applies to the three
    current buffers; the invariant and what the core owes are not touched. -/
theorem body2 (c : Dev nD) : BodyObligation (dat2 (F := F) V c) (defs₀ (F := F)) Variants.none () Set.univ := fun t => by
  rw [bigSep_W2, bigSep_W2]
  show iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) (fun _ =>
      iprop((dat2 V c).Φ t.castSucc ∗ (dat2 V c).owesAt () t.castSucc
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)))
  simp only [finds2_0, finds2_1]
  rw [dat2_after_0, dat2_after_1, dat2_after_2]
  unfold bodyAt2
  iintro ⟨HΦ, Ho, ⟨%d0, H0⟩, ⟨%d1, H1⟩, ⟨%d2, H2⟩⟩
  iapply (run2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Regs
-- ==== Proof.KI.Region3.lean ====
import proofs.«169176_j23261542875327_2_alg».proof.Proof.Gen.KernelIdeal.Launch
import proofs.«169176_j23261542875327_2_alg».proof.Proof.Gen.KernelIdeal.Skeleton
import proofs.«169176_j23261542875327_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic

-- a whole-block rectangle's membership test walks the long axis once per coordinate
set_option maxRecDepth 65536

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 3: the edge-potential update on a 1024x1024 tile

At tile (i, j) of a 4x4 grid the body forms `EP = bf16(yᵢ) · bf16(yⱼ)ᵀ − mea − ½ M`: windows 0 and 1 are the
1024x256 row blocks i and j of ONE array y, windows 2 and 3 the tiles of mea and of M, window 4 the tile of EP;
the product goes into a zero accumulator. Row block i only moves every fourth point. -/

/-- Window `w`'s block at grid point `t`, cut out of its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The whole-block rectangles the body reads and writes through -/

/-- all of a 1024x256 row block of y -/
abbrev rowsR3 : Rect S1024x256 := Rect.unit (s := S1024x256) ![0, 0] S1024x256.size inb_S1024x256_S1024x256_0_0
/-- all of a 1024x1024 tile -/
abbrev sqR3 : Rect S1024x1024 := Rect.unit (s := S1024x1024) ![0, 0] S1024x1024.size inb_S1024x1024_S1024x1024_0_0

/-! ## What the body leaves in the EP tile's buffer -/

/-- Window 4 after the body: the single whole-tile store of `bf16(yᵢ) · bf16(yⱼ)ᵀ − mea − ½ M`. -/
def left3_4 (x0 x1 : Vec F S1024x256 .f32) (x2 x3 : Vec F S1024x1024 .f32) : Vec F S1024x1024 .f32 :=
  View.canon [⟨sqR3, k3_pay1 (View.ld x0 rowsR3) (View.ld x1 rowsR3) (View.ld x2 sqR3) (View.ld x3 sqR3)⟩]

/-- One whole-tile store covers the tile. -/
theorem sqCover3 (p : Vec F S1024x1024 .f32) (y : S1024x1024.Idx) :
    ∃ pc ∈ ([⟨sqR3, p⟩] : List (View.Piece (Elt F) S1024x1024 .f32)), y ∈ pc.1.set :=
  View.cover_of_tiled [⟨sqR3, p⟩] S1024x1024.size (by rfl) y

/-! ## The body on whole staging buffers -/

set_option maxHeartbeats 4000000 in
/-- Run on five whole staging buffers, the four operands' reading `x0 … x3` and the result's holding anything, the
    body returns with the operands as they were and the result at `left3_4` of them. -/
theorem kernel3 (c : Dev nD) (E : Set ℕ) (i : grid3.Coords)
    (a0 : Memref sig .tc .vmem S1024x256 .f32) (h0 : a0.IsWhole) (a1 : Memref sig .tc .vmem S1024x256 .f32) (h1 : a1.IsWhole)
    (a2 : Memref sig .tc .vmem S1024x1024 .f32) (h2 : a2.IsWhole) (a3 : Memref sig .tc .vmem S1024x1024 .f32) (h3 : a3.IsWhole)
    (a4 : Memref sig .tc .vmem S1024x1024 .f32) (h4 : a4.IsWhole)
    (x0 x1 : Vec F S1024x256 .f32) (x2 x3 : Vec F S1024x1024 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (left3_4 x0 x1 x2 x3)) -∗ K ⟨⟩))
      ⊢ wp frame (wpE (defs₀ (F := F)) Variants.none c none) E (cc3__fused_update_ep_kernel i a0 h0 a1 h1 a2 h2 a3 h3 a4 h4) K := by
  simp only [cc3__fused_update_ep_kernel_eq_skeleton]; unfold cc3__fused_update_ep_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (sqCover3 _)

/-! ## The proof data -/

/-- Core `c`'s proof data for the region: the arrays as found; after the body at point `t` each operand's buffer
    still at its block and the result's at `left3_4` of the operand blocks there; the invariant the scoped rest and
    the generator register, untouched; nothing owed. The two windows onto y each hold half of its share, the other
    windows their arrays' whole shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => left3_4 (blk3 V c 0 t) (blk3 V c 1 t) (blk3 V c 2 t) (blk3 V c 3 t)
  Φ _ := Pipeline.ΦA spec3 c
  q := fun
    | ⟨0, _⟩ => fullShare.left
    | ⟨1, _⟩ => fullShare.right
    | ⟨2, _⟩ => fullShare
    | ⟨3, _⟩ => fullShare
    | ⟨4, _⟩ => fullShare
  owed _ := 0

theorem dat3_A (c : Dev nD) (w : Fin cfg3.W) : (dat3 V c).A w = V c (Pipeline.arrRef spec3 w) := by
  dsimp only [dat3]

theorem dat3_after_0 (c : Dev nD) (t : Fin cfg3.N) : (dat3 V c).after 0 t = blk3 V c 0 t := by dsimp only [dat3]
theorem dat3_after_1 (c : Dev nD) (t : Fin cfg3.N) : (dat3 V c).after 1 t = blk3 V c 1 t := by dsimp only [dat3]
theorem dat3_after_2 (c : Dev nD) (t : Fin cfg3.N) : (dat3 V c).after 2 t = blk3 V c 2 t := by dsimp only [dat3]
theorem dat3_after_3 (c : Dev nD) (t : Fin cfg3.N) : (dat3 V c).after 3 t = blk3 V c 3 t := by dsimp only [dat3]
theorem dat3_after_4 (c : Dev nD) (t : Fin cfg3.N) :
    (dat3 V c).after 4 t = left3_4 (blk3 V c 0 t) (blk3 V c 1 t) (blk3 V c 2 t) (blk3 V c 3 t) := by dsimp only [dat3]

/-! ## An operand's buffer holds its block at every point

Row block i is fetched when i moves, every fourth point, and stays in its buffer in between; the other three
operands are fetched at every point. Either way the current buffer reads the window's block: the body leaves it in
place. -/

theorem held3_0 (c : Dev nD) (t : Fin cfg3.N) (d) : (dat3 V c).before 0 t d = blk3 V c 0 t :=
  ((dat3 V c).before_in_eq_fetched 0 rfl (fun _ => rfl) (fun _ _ _ => rfl)
    (fun t => by rw [dat3_after_0]; unfold Dat.blockOf blk3; rw [dat3_A]; try rfl) t d).trans
    (by unfold Dat.fetched Dat.blockOf blk3; rw [dat3_A]; try rfl)
theorem held3_1 (c : Dev nD) (t : Fin cfg3.N) (d) : (dat3 V c).before 1 t d = blk3 V c 1 t :=
  ((dat3 V c).before_in_eq_fetched 1 rfl (fun _ => rfl) (fun _ _ _ => rfl)
    (fun t => by rw [dat3_after_1]; unfold Dat.blockOf blk3; rw [dat3_A]; try rfl) t d).trans
    (by unfold Dat.fetched Dat.blockOf blk3; rw [dat3_A]; try rfl)
theorem held3_2 (c : Dev nD) (t : Fin cfg3.N) (d) : (dat3 V c).before 2 t d = blk3 V c 2 t :=
  ((dat3 V c).before_in_eq_fetched 2 rfl (fun _ => rfl) (fun _ _ _ => rfl)
    (fun t => by rw [dat3_after_2]; unfold Dat.blockOf blk3; rw [dat3_A]; try rfl) t d).trans
    (by unfold Dat.fetched Dat.blockOf blk3; rw [dat3_A]; try rfl)
theorem held3_3 (c : Dev nD) (t : Fin cfg3.N) (d) : (dat3 V c).before 3 t d = blk3 V c 3 t :=
  ((dat3 V c).before_in_eq_fetched 3 rfl (fun _ => rfl) (fun _ _ _ => rfl)
    (fun t => by rw [dat3_after_3]; unfold Dat.blockOf blk3; rw [dat3_A]; try rfl) t d).trans
    (by unfold Dat.fetched Dat.blockOf blk3; rw [dat3_A]; try rfl)

/-! ## The body obligation -/

/-- What the pipeline hands the body at point `t`, window by window, -/
def handed3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it takes back. -/
def returned3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- At any point the operands' buffers read their blocks, so `kernel3` applies; the invariant and what the core
    owes pass through unread. -/
theorem atPoint3 (c : Dev nD) (t : Fin cfg3.N) :
    handed3 V c t ⊢ wp frame (wpE (defs₀ (F := F)) Variants.none c none) Set.univ (bodyAt3 t) (fun _ => returned3 V c t) := by
  unfold handed3 returned3 bodyAt3
  simp only [held3_0, held3_1, held3_2, held3_3]
  rw [show (dat3 V c).Φ t.succ = (dat3 V c).Φ t.castSucc from rfl,
    show (dat3 V c).owesAt () t.succ = (dat3 V c).owesAt () t.castSucc from rfl,
    dat3_after_0, dat3_after_1, dat3_after_2, dat3_after_3, dat3_after_4]
  iintro ⟨HΦ, Ho, ⟨%d0, H0⟩, ⟨%d1, H1⟩, ⟨%d2, H2⟩, ⟨%d3, H3⟩, ⟨%d4, H4⟩⟩
  iapply (kernel3 c Set.univ _ _ _ _ _ _ _ _ _ _ _
    (blk3 V c 0 t) (blk3 V c 1 t) (blk3 V c 2 t) (blk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the region, at every point. -/
theorem body3 (c : Dev nD) : BodyObligation (dat3 (F := F) V c) (defs₀ (F := F)) Variants.none () Set.univ := fun t => by
  rw [bigSep_W3, bigSep_W3]
  exact atPoint3 V c t

end Cert.KernelIdeal.Regs
-- ==== Proof.KI.Region4.lean ====
import proofs.«169176_j23261542875327_2_alg».proof.Proof.Gen.KernelIdeal.Launch
import proofs.«169176_j23261542875327_2_alg».proof.Proof.Gen.KernelIdeal.Skeleton
import proofs.«169176_j23261542875327_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic

-- a whole-block rectangle's membership test walks the long axis once per coordinate
set_option maxRecDepth 65536

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 4: a later layer's fused adjacency products

A row tile of 128 rows. The body forms `A = adj ⊙ EP + mea` on the tile (windows 0, 1, 2, 128x4096 each; `⊙` the
entrywise product) and multiplies it into the two resident 4096x256 operands: `oy = bf16(A) · y` (window 3, bf16,
into window 5) and `oz = A · z` at full precision (window 4, into window 6), each product into a zero
accumulator. -/

/-- Window `w`'s block at grid point `t`, cut out of its array as the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The whole-block rectangles the body reads and writes through -/

/-- all of a 128x4096 row tile -/
abbrev tileR4 : Rect S128x4096 := Rect.unit (s := S128x4096) ![0, 0] S128x4096.size inb_S128x4096_S128x4096_0_0
/-- all of a 4096x256 right operand -/
abbrev rhsR4 : Rect S4096x256 := Rect.unit (s := S4096x256) ![0, 0] S4096x256.size inb_S4096x256_S4096x256_0_0
/-- all of a 128x256 product tile -/
abbrev prodR4 : Rect S128x256 := Rect.unit (s := S128x256) ![0, 0] S128x256.size inb_S128x256_S128x256_0_0

/-! ## What the body leaves in the two product buffers -/

/-- Window 5 after the body: the single whole-tile store of `bf16(adj ⊙ EP + mea) · y`. -/
def left4_5 (x0 x1 x2 : Vec F S128x4096 .f32) (x3 : Vec F S4096x256 .bf16) : Vec F S128x256 .f32 :=
  View.canon [⟨prodR4, k4_pay2 (View.ld x0 tileR4) (View.ld x1 tileR4) (View.ld x2 tileR4) (View.ld x3 rhsR4)⟩]

/-- Window 6 after the body: the single whole-tile store of `(adj ⊙ EP + mea) · z`. -/
def left4_6 (x0 x1 x2 : Vec F S128x4096 .f32) (x4 : Vec F S4096x256 .f32) : Vec F S128x256 .f32 :=
  View.canon [⟨prodR4, k4_pay3 (View.ld x0 tileR4) (View.ld x1 tileR4) (View.ld x2 tileR4) (View.ld x4 rhsR4)⟩]

/-- One whole-tile store covers the product tile. -/
theorem prodCover4 (p : Vec F S128x256 .f32) (y : S128x256.Idx) :
    ∃ pc ∈ ([⟨prodR4, p⟩] : List (View.Piece (Elt F) S128x256 .f32)), y ∈ pc.1.set :=
  View.cover_of_tiled [⟨prodR4, p⟩] S128x256.size (by rfl) y

/-! ## The body on whole staging buffers -/

set_option maxHeartbeats 4000000 in
/-- Run on seven whole staging buffers, the five operands' reading `x0 … x4` and the two products' holding anything,
    the body returns with the operands as they were and the products at `left4_5`, `left4_6` of them. -/
theorem kernel4 (c : Dev nD) (E : Set ℕ) (i : grid4.Coords)
    (a0 : Memref sig .tc .vmem S128x4096 .f32) (h0 : a0.IsWhole) (a1 : Memref sig .tc .vmem S128x4096 .f32) (h1 : a1.IsWhole)
    (a2 : Memref sig .tc .vmem S128x4096 .f32) (h2 : a2.IsWhole)
    (a3 : Memref sig .tc .vmem S4096x256 .bf16) (h3 : a3.IsWhole) (a4 : Memref sig .tc .vmem S4096x256 .f32) (h4 : a4.IsWhole)
    (a5 : Memref sig .tc .vmem S128x256 .f32) (h5 : a5.IsWhole) (a6 : Memref sig .tc .vmem S128x256 .f32) (h6 : a6.IsWhole)
    (x0 x1 x2 : Vec F S128x4096 .f32) (x3 : Vec F S4096x256 .bf16) (x4 : Vec F S4096x256 .f32) (K : PUnit → sProp 𝕄) :
    iprop(owns (c : Thread nD τ) a0 fullShare x0 ∗ owns (c : Thread nD τ) a1 fullShare x1
        ∗ owns (c : Thread nD τ) a2 fullShare x2
        ∗ owns (c : Thread nD τ) a3 fullShare x3 ∗ owns (c : Thread nD τ) a4 fullShare x4
        ∗ (∃ d, owns (c : Thread nD τ) a5 fullShare d) ∗ (∃ d, owns (c : Thread nD τ) a6 fullShare d)
        ∗ (iprop(owns (c : Thread nD τ) a0 fullShare x0 ∗ owns (c : Thread nD τ) a1 fullShare x1
            ∗ owns (c : Thread nD τ) a2 fullShare x2
            ∗ owns (c : Thread nD τ) a3 fullShare x3 ∗ owns (c : Thread nD τ) a4 fullShare x4
            ∗ owns (c : Thread nD τ) a5 fullShare (left4_5 x0 x1 x2 x3)
            ∗ owns (c : Thread nD τ) a6 fullShare (left4_6 x0 x1 x2 x4)) -∗ K ⟨⟩))
      ⊢ wp frame (wpE (defs₀ (F := F)) Variants.none c none) E (cc4__fused_a_kernel i a0 h0 a1 h1 a2 h2 a3 h3 a4 h4 a5 h5 a6 h6) K := by
  simp only [cc4__fused_a_kernel_eq_skeleton]; unfold cc4__fused_a_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (prodCover4 _)
  iexists _; isplitr
  swap; · iexact H6
  ipureintro
  exact View.read_writes_eq_canon _ _ _ (prodCover4 _)

/-! ## The proof data -/

/-- Core `c`'s proof data for the region: the arrays as found; after the body at point `t` each operand's buffer
    still at its block, each product's at `left4_w` of the operand blocks there; the invariant the scoped rest and
    the generator register, untouched; nothing owed; whole shares. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => left4_5 (blk4 V c 0 t) (blk4 V c 1 t) (blk4 V c 2 t) (blk4 V c 3 t)
    | ⟨6, _⟩ => left4_6 (blk4 V c 0 t) (blk4 V c 1 t) (blk4 V c 2 t) (blk4 V c 4 t)
  Φ _ := Pipeline.ΦA spec4 c
  q _ := fullShare
  owed _ := 0

theorem dat4_A (c : Dev nD) (w : Fin cfg4.W) : (dat4 V c).A w = V c (Pipeline.arrRef spec4 w) := by
  dsimp only [dat4]

theorem dat4_after_0 (c : Dev nD) (t : Fin cfg4.N) : (dat4 V c).after 0 t = blk4 V c 0 t := by dsimp only [dat4]
theorem dat4_after_1 (c : Dev nD) (t : Fin cfg4.N) : (dat4 V c).after 1 t = blk4 V c 1 t := by dsimp only [dat4]
theorem dat4_after_2 (c : Dev nD) (t : Fin cfg4.N) : (dat4 V c).after 2 t = blk4 V c 2 t := by dsimp only [dat4]
theorem dat4_after_3 (c : Dev nD) (t : Fin cfg4.N) : (dat4 V c).after 3 t = blk4 V c 3 t := by dsimp only [dat4]
theorem dat4_after_4 (c : Dev nD) (t : Fin cfg4.N) : (dat4 V c).after 4 t = blk4 V c 4 t := by dsimp only [dat4]
theorem dat4_after_5 (c : Dev nD) (t : Fin cfg4.N) :
    (dat4 V c).after 5 t = left4_5 (blk4 V c 0 t) (blk4 V c 1 t) (blk4 V c 2 t) (blk4 V c 3 t) := by dsimp only [dat4]
theorem dat4_after_6 (c : Dev nD) (t : Fin cfg4.N) :
    (dat4 V c).after 6 t = left4_6 (blk4 V c 0 t) (blk4 V c 1 t) (blk4 V c 2 t) (blk4 V c 4 t) := by dsimp only [dat4]

/-! ## An operand's buffer holds its block at every point

The three row tiles are fetched at every point; the two right operands are fetched at the first point only and
their block index never moves. Either way the current buffer reads the window's block: the body leaves it in place. -/

theorem held4_0 (c : Dev nD) (t : Fin cfg4.N) (d) : (dat4 V c).before 0 t d = blk4 V c 0 t :=
  ((dat4 V c).before_in_eq_fetched 0 rfl (fun _ => rfl) (fun _ _ _ => rfl)
    (fun t => by rw [dat4_after_0]; unfold Dat.blockOf blk4; rw [dat4_A]; try rfl) t d).trans
    (by unfold Dat.fetched Dat.blockOf blk4; rw [dat4_A]; try rfl)
theorem held4_1 (c : Dev nD) (t : Fin cfg4.N) (d) : (dat4 V c).before 1 t d = blk4 V c 1 t :=
  ((dat4 V c).before_in_eq_fetched 1 rfl (fun _ => rfl) (fun _ _ _ => rfl)
    (fun t => by rw [dat4_after_1]; unfold Dat.blockOf blk4; rw [dat4_A]; try rfl) t d).trans
    (by unfold Dat.fetched Dat.blockOf blk4; rw [dat4_A]; try rfl)
theorem held4_2 (c : Dev nD) (t : Fin cfg4.N) (d) : (dat4 V c).before 2 t d = blk4 V c 2 t :=
  ((dat4 V c).before_in_eq_fetched 2 rfl (fun _ => rfl) (fun _ _ _ => rfl)
    (fun t => by rw [dat4_after_2]; unfold Dat.blockOf blk4; rw [dat4_A]; try rfl) t d).trans
    (by unfold Dat.fetched Dat.blockOf blk4; rw [dat4_A]; try rfl)
theorem held4_3 (c : Dev nD) (t : Fin cfg4.N) (d) : (dat4 V c).before 3 t d = blk4 V c 3 t :=
  ((dat4 V c).before_in_eq_fetched 3 rfl (fun _ => rfl) (fun _ _ _ => rfl)
    (fun t => by rw [dat4_after_3]; unfold Dat.blockOf blk4; rw [dat4_A]; try rfl) t d).trans
    (by unfold Dat.fetched Dat.blockOf blk4; rw [dat4_A]; try rfl)
theorem held4_4 (c : Dev nD) (t : Fin cfg4.N) (d) : (dat4 V c).before 4 t d = blk4 V c 4 t :=
  ((dat4 V c).before_in_eq_fetched 4 rfl (fun _ => rfl) (fun _ _ _ => rfl)
    (fun t => by rw [dat4_after_4]; unfold Dat.blockOf blk4; rw [dat4_A]; try rfl) t d).trans
    (by unfold Dat.fetched Dat.blockOf blk4; rw [dat4_A]; try rfl)

/-! ## The body obligation -/

/-- What the pipeline hands the body at point `t`, window by window, -/
def handed4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it takes back. -/
def returned4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- At any point the operands' buffers read their blocks, so `kernel4` applies; the invariant and what the core
    owes pass through unread. -/
theorem atPoint4 (c : Dev nD) (t : Fin cfg4.N) :
    handed4 V c t ⊢ wp frame (wpE (defs₀ (F := F)) Variants.none c none) Set.univ (bodyAt4 t) (fun _ => returned4 V c t) := by
  unfold handed4 returned4 bodyAt4
  simp only [held4_0, held4_1, held4_2, held4_3, held4_4]
  rw [show (dat4 V c).Φ t.succ = (dat4 V c).Φ t.castSucc from rfl,
    show (dat4 V c).owesAt () t.succ = (dat4 V c).owesAt () t.castSucc from rfl,
    dat4_after_0, dat4_after_1, dat4_after_2, dat4_after_3, dat4_after_4, dat4_after_5, dat4_after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel4 c Set.univ _ _ _ _ _ _ _ _ _ _ _ _ _ _ _
    (blk4 V c 0 t) (blk4 V c 1 t) (blk4 V c 2 t) (blk4 V c 3 t) (blk4 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the region, at every point. -/
theorem body4 (c : Dev nD) : BodyObligation (dat4 (F := F) V c) (defs₀ (F := F)) Variants.none () Set.univ := fun t => by
  rw [bigSep_W4, bigSep_W4]
  exact atPoint4 V c t

end Cert.KernelIdeal.Regs
-- ==== Proof.KI.Region5.lean ====
/- Region 5 of @main, body side.

   A tall product with the left factor transposed,  out = Aᵀ · B , computed in eight row tiles of the result. Window 0
   is the matrix A (4096 x 4096, f32) cut into eight 4096 x 512 column strips; window 1 is the right matrix B
   (4096 x 256, f32), one block that is the whole array and therefore stays in its buffer from the first grid point on;
   window 2 is the result (4096 x 256, f32) in eight 512 x 256 row tiles. At a grid point the body reads the strip and
   B whole, rounds both to bf16, and writes the output tile whole:   out_tile = bf16(A_strip)ᵀ · bf16(B) ,  the sum
   running over the 4096 rows the strip and B share, in f32 from zero.
   Nothing is carried from one grid point to the next, so what the body leaves in the output tile is a function of
   the two input blocks at that point alone. -/
import proofs.«169176_j23261542875327_2_alg».proof.Proof.Gen.KernelIdeal.Launch
import proofs.«169176_j23261542875327_2_alg».proof.Proof.Gen.KernelIdeal.Skeleton
import proofs.«169176_j23261542875327_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks -/

/-- Window `w`'s block at grid point `t`, cut out of its array as the region finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Each of the three blocks as a rectangle of itself: the body loads and stores whole blocks only. -/
abbrev lhs5 : Rect S4096x512 := Rect.unit (s := S4096x512) ![0, 0] S4096x512.size inb_S4096x512_S4096x512_0_0
abbrev rhs5 : Rect S4096x256 := Rect.unit (s := S4096x256) ![0, 0] S4096x256.size inb_S4096x256_S4096x256_0_0
abbrev res5 : Rect S512x256 := Rect.unit (s := S512x256) ![0, 0] S512x256.size inb_S512x256_S512x256_0_0

/-- The output tile after the body: one whole-tile store of the product of the transposed strip `a` with `b`, both rounded to bf16, summed over their common 4096 rows from zero. -/
def left5_2 (a : Vec F S4096x512 .f32) (b : Vec F S4096x256 .f32) : Vec F S512x256 .f32 :=
  View.canon [⟨res5, k5_pay1 (View.ld a lhs5) (View.ld b rhs5)⟩]

/-- One whole-tile store fills the tile, whatever is stored. -/
theorem fills5_2 (p : Vec F S512x256 .f32) (y : S512x256.Idx) :
    ∃ pc ∈ ([⟨res5, p⟩] : List (View.Piece (Elt F) S512x256 .f32)), y ∈ pc.1.set :=
  View.cover_of_tiled [⟨res5, p⟩] S512x256.size (by rfl) y

/-! ## The body on three whole blocks -/

set_option maxHeartbeats 1000000 in
/-- On whole block buffers — the inputs reading `a` and `b`, the output holding anything — the body ends with the
    inputs as they were and the output reading `left5_2 a b`. (It also loads the output tile before overwriting it;
    the loaded value is not used.) -/
theorem run5 (c : Dev nD) (E : Set ℕ) (i : grid5.Coords)
    (a0 : Memref sig .tc .vmem S4096x512 .f32) (h0 : a0.IsWhole) (a1 : Memref sig .tc .vmem S4096x256 .f32) (h1 : a1.IsWhole)
    (a2 : Memref sig .tc .vmem S512x256 .f32) (h2 : a2.IsWhole)
    (a : Vec F S4096x512 .f32) (b : Vec F S4096x256 .f32) (K : PUnit → sProp 𝕄) :
    iprop(owns (c : Thread nD τ) a0 fullShare a ∗ owns (c : Thread nD τ) a1 fullShare b ∗ (∃ d, owns (c : Thread nD τ) a2 fullShare d)
        ∗ (iprop(owns (c : Thread nD τ) a0 fullShare a ∗ owns (c : Thread nD τ) a1 fullShare b
            ∗ owns (c : Thread nD τ) a2 fullShare (left5_2 a b)) -∗ K ⟨⟩))
      ⊢ wp frame (wpE (defs₀ (F := F)) Variants.none c none) E (cc5__matmul_tall_kernel i a0 h0 a1 h1 a2 h2) K := by
  simp only [cc5__matmul_tall_kernel_eq_skeleton]; unfold cc5__matmul_tall_kernel_skel
  unfold owns
  iintro ⟨⟨%f0, %e0, H0⟩, ⟨%f1, %e1, H1⟩, ⟨%d2, %f2, -, H2⟩, Hk⟩
  subst e0; subst e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fills5_2 _)

/-! ## The proof data -/

/-- Pipeline 5's proof data on core `c`: the arrays as the region finds them; after the body at point `t` the input
    buffers still at their blocks and the output buffer at `left5_2` of the two input blocks; the invariant that of a
    body keeping nothing between points; nothing owed; full shares. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => left5_2 (blk5 V c 0 t) (blk5 V c 1 t)
  Φ _ := Pipeline.ΦA spec5 c
  q _ := fullShare
  owed _ := 0

theorem dat5_A (c : Dev nD) (w : Fin cfg5.W) : (dat5 V c).A w = V c (Pipeline.arrRef spec5 w) := by
  dsimp only [dat5]
theorem dat5_after_0 (c : Dev nD) (t : Fin cfg5.N) : (dat5 V c).after 0 t = blk5 V c 0 t := by dsimp only [dat5]
theorem dat5_after_1 (c : Dev nD) (t : Fin cfg5.N) : (dat5 V c).after 1 t = blk5 V c 1 t := by dsimp only [dat5]
theorem dat5_after_2 (c : Dev nD) (t : Fin cfg5.N) :
    (dat5 V c).after 2 t = left5_2 (blk5 V c 0 t) (blk5 V c 1 t) := by dsimp only [dat5]

/-! ## What the body finds in the input buffers -/

/-- The left factor's buffer holds its column strip of the left matrix at every point: the body leaves it in place, and it is fetched
    afresh at every point. -/
theorem finds5_0 (c : Dev nD) (t : Fin cfg5.N) (d) : (dat5 V c).before 0 t d = blk5 V c 0 t :=
  ((dat5 V c).before_in_eq_fetched 0 rfl (fun _ => rfl) (fun _ _ _ => rfl)
      (fun t => by rw [dat5_after_0]; unfold Dat.blockOf blk5; rw [dat5_A]; try rfl) t d).trans
    (by unfold Dat.fetched Dat.blockOf blk5; rw [dat5_A]; try rfl)

/-- The right factor's buffer holds the whole right matrix at every point: fetched at the first point only, its block
    index never moves afterwards and the body leaves it in place. -/
theorem finds5_1 (c : Dev nD) (t : Fin cfg5.N) (d) : (dat5 V c).before 1 t d = blk5 V c 1 t :=
  ((dat5 V c).before_in_eq_fetched 1 rfl (fun _ => rfl) (fun _ _ _ => rfl)
      (fun t => by rw [dat5_after_1]; unfold Dat.blockOf blk5; rw [dat5_A]; try rfl) t d).trans
    (by unfold Dat.fetched Dat.blockOf blk5; rw [dat5_A]; try rfl)

/-! ## The obligation at a grid point -/

/-- At any point: the input buffers hold their blocks (`finds5_0`, `finds5_1`), so `run5` applies to the three
    current buffers; the invariant and what the core owes are not touched. -/
theorem body5 (c : Dev nD) : BodyObligation (dat5 (F := F) V c) (defs₀ (F := F)) Variants.none () Set.univ := fun t => by
  rw [bigSep_W5, bigSep_W5]
  show iprop((dat5 V c).Φ t.castSucc ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d)))
    ⊢ wp frame (wpE (defs₀ (F := F)) Variants.none c none) Set.univ (bodyAt5 t) (fun _ =>
      iprop((dat5 V c).Φ t.castSucc ∗ (dat5 V c).owesAt () t.castSucc
        ∗ owns (c : Thread nD τ) (st5_0 t) fullShare ((dat5 V c).after 0 t)
        ∗ owns (c : Thread nD τ) (st5_1 t) fullShare ((dat5 V c).after 1 t)
        ∗ owns (c : Thread nD τ) (st5_2 t) fullShare ((dat5 V c).after 2 t)))
  simp only [finds5_0, finds5_1]
  rw [dat5_after_0, dat5_after_1, dat5_after_2]
  unfold bodyAt5
  iintro ⟨HΦ, Ho, ⟨%d0, H0⟩, ⟨%d1, H1⟩, ⟨%d2, H2⟩⟩
  iapply (run5 c Set.univ _ _ _ _ _ _ _ (blk5 V c 0 t) (blk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Regs
-- ==== Proof.KI.Region6.lean ====
/- Region 6 of @main, body side.

   A tall product  out = A · B  computed in eight row tiles. Window 0 is the left matrix A (4096 x 4096, already in
   bf16) cut into eight 512 x 4096 row tiles; window 1 is the right matrix B (4096 x 256, f32), one block that is the
   whole array and therefore stays in its buffer from the first grid point on; window 2 is the result (4096 x 256, f32)
   in eight 512 x 256 row tiles. At a grid point the body reads the row tile and B whole, rounds B to bf16, and writes
   the output tile whole:   out_tile = A_tile · bf16(B) ,  the products summed in f32 from zero.
   Nothing is carried from one grid point to the next, so what the body leaves in the output tile is a function of
   the two input blocks at that point alone. -/
import proofs.«169176_j23261542875327_2_alg».proof.Proof.Gen.KernelIdeal.Launch
import proofs.«169176_j23261542875327_2_alg».proof.Proof.Gen.KernelIdeal.Skeleton
import proofs.«169176_j23261542875327_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks -/

/-- Window `w`'s block at grid point `t`, cut out of its array as the region finds it. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Each of the three blocks as a rectangle of itself: the body loads and stores whole blocks only. -/
abbrev lhs6 : Rect S512x4096 := Rect.unit (s := S512x4096) ![0, 0] S512x4096.size inb_S512x4096_S512x4096_0_0
abbrev rhs6 : Rect S4096x256 := Rect.unit (s := S4096x256) ![0, 0] S4096x256.size inb_S4096x256_S4096x256_0_0
abbrev res6 : Rect S512x256 := Rect.unit (s := S512x256) ![0, 0] S512x256.size inb_S512x256_S512x256_0_0

/-- The output tile after the body: one whole-tile store of the product of the row tile `a` with `b` rounded to bf16, summed from zero. -/
def left6_2 (a : Vec F S512x4096 .bf16) (b : Vec F S4096x256 .f32) : Vec F S512x256 .f32 :=
  View.canon [⟨res6, k6_pay1 (View.ld a lhs6) (View.ld b rhs6)⟩]

/-- One whole-tile store fills the tile, whatever is stored. -/
theorem fills6_2 (p : Vec F S512x256 .f32) (y : S512x256.Idx) :
    ∃ pc ∈ ([⟨res6, p⟩] : List (View.Piece (Elt F) S512x256 .f32)), y ∈ pc.1.set :=
  View.cover_of_tiled [⟨res6, p⟩] S512x256.size (by rfl) y

/-! ## The body on three whole blocks -/

set_option maxHeartbeats 1000000 in
/-- On whole block buffers — the inputs reading `a` and `b`, the output holding anything — the body ends with the
    inputs as they were and the output reading `left6_2 a b`. (It also loads the output tile before overwriting it;
    the loaded value is not used.) -/
theorem run6 (c : Dev nD) (E : Set ℕ) (i : grid6.Coords)
    (a0 : Memref sig .tc .vmem S512x4096 .bf16) (h0 : a0.IsWhole) (a1 : Memref sig .tc .vmem S4096x256 .f32) (h1 : a1.IsWhole)
    (a2 : Memref sig .tc .vmem S512x256 .f32) (h2 : a2.IsWhole)
    (a : Vec F S512x4096 .bf16) (b : Vec F S4096x256 .f32) (K : PUnit → sProp 𝕄) :
    iprop(owns (c : Thread nD τ) a0 fullShare a ∗ owns (c : Thread nD τ) a1 fullShare b ∗ (∃ d, owns (c : Thread nD τ) a2 fullShare d)
        ∗ (iprop(owns (c : Thread nD τ) a0 fullShare a ∗ owns (c : Thread nD τ) a1 fullShare b
            ∗ owns (c : Thread nD τ) a2 fullShare (left6_2 a b)) -∗ K ⟨⟩))
      ⊢ wp frame (wpE (defs₀ (F := F)) Variants.none c none) E (cc6__matmul_tall_kernel i a0 h0 a1 h1 a2 h2) K := by
  simp only [cc6__matmul_tall_kernel_eq_skeleton]; unfold cc6__matmul_tall_kernel_skel
  unfold owns
  iintro ⟨⟨%f0, %e0, H0⟩, ⟨%f1, %e1, H1⟩, ⟨%d2, %f2, -, H2⟩, Hk⟩
  subst e0; subst e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fills6_2 _)

/-! ## The proof data -/

/-- Pipeline 6's proof data on core `c`: the arrays as the region finds them; after the body at point `t` the input
    buffers still at their blocks and the output buffer at `left6_2` of the two input blocks; the invariant that of a
    body keeping nothing between points; nothing owed; full shares. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => left6_2 (blk6 V c 0 t) (blk6 V c 1 t)
  Φ _ := Pipeline.ΦA spec6 c
  q _ := fullShare
  owed _ := 0

theorem dat6_A (c : Dev nD) (w : Fin cfg6.W) : (dat6 V c).A w = V c (Pipeline.arrRef spec6 w) := by
  dsimp only [dat6]
theorem dat6_after_0 (c : Dev nD) (t : Fin cfg6.N) : (dat6 V c).after 0 t = blk6 V c 0 t := by dsimp only [dat6]
theorem dat6_after_1 (c : Dev nD) (t : Fin cfg6.N) : (dat6 V c).after 1 t = blk6 V c 1 t := by dsimp only [dat6]
theorem dat6_after_2 (c : Dev nD) (t : Fin cfg6.N) :
    (dat6 V c).after 2 t = left6_2 (blk6 V c 0 t) (blk6 V c 1 t) := by dsimp only [dat6]

/-! ## What the body finds in the input buffers -/

/-- The left factor's buffer holds its row tile of the left matrix at every point: the body leaves it in place, and it is fetched
    afresh at every point. -/
theorem finds6_0 (c : Dev nD) (t : Fin cfg6.N) (d) : (dat6 V c).before 0 t d = blk6 V c 0 t :=
  ((dat6 V c).before_in_eq_fetched 0 rfl (fun _ => rfl) (fun _ _ _ => rfl)
      (fun t => by rw [dat6_after_0]; unfold Dat.blockOf blk6; rw [dat6_A]; try rfl) t d).trans
    (by unfold Dat.fetched Dat.blockOf blk6; rw [dat6_A]; try rfl)

/-- The right factor's buffer holds the whole right matrix at every point: fetched at the first point only, its block
    index never moves afterwards and the body leaves it in place. -/
theorem finds6_1 (c : Dev nD) (t : Fin cfg6.N) (d) : (dat6 V c).before 1 t d = blk6 V c 1 t :=
  ((dat6 V c).before_in_eq_fetched 1 rfl (fun _ => rfl) (fun _ _ _ => rfl)
      (fun t => by rw [dat6_after_1]; unfold Dat.blockOf blk6; rw [dat6_A]; try rfl) t d).trans
    (by unfold Dat.fetched Dat.blockOf blk6; rw [dat6_A]; try rfl)

/-! ## The obligation at a grid point -/

/-- At any point: the input buffers hold their blocks (`finds6_0`, `finds6_1`), so `run6` applies to the three
    current buffers; the invariant and what the core owes are not touched. -/
theorem body6 (c : Dev nD) : BodyObligation (dat6 (F := F) V c) (defs₀ (F := F)) Variants.none () Set.univ := fun t => by
  rw [bigSep_W6, bigSep_W6]
  show iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d)))
    ⊢ wp frame (wpE (defs₀ (F := F)) Variants.none c none) Set.univ (bodyAt6 t) (fun _ =>
      iprop((dat6 V c).Φ t.castSucc ∗ (dat6 V c).owesAt () t.castSucc
        ∗ owns (c : Thread nD τ) (st6_0 t) fullShare ((dat6 V c).after 0 t)
        ∗ owns (c : Thread nD τ) (st6_1 t) fullShare ((dat6 V c).after 1 t)
        ∗ owns (c : Thread nD τ) (st6_2 t) fullShare ((dat6 V c).after 2 t)))
  simp only [finds6_0, finds6_1]
  rw [dat6_after_0, dat6_after_1, dat6_after_2]
  unfold bodyAt6
  iintro ⟨HΦ, Ho, ⟨%d0, H0⟩, ⟨%d1, H1⟩, ⟨%d2, H2⟩⟩
  iapply (run6 c Set.univ _ _ _ _ _ _ _ (blk6 V c 0 t) (blk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Regs
-- ==== Proof.KI.Region7.lean ====
import proofs.«169176_j23261542875327_2_alg».proof.Proof.Gen.KernelIdeal.Launch
import proofs.«169176_j23261542875327_2_alg».proof.Proof.Gen.KernelIdeal.Skeleton
import proofs.«169176_j23261542875327_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic

-- a whole-block rectangle's membership test walks the long axis once per coordinate
set_option maxRecDepth 65536

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 7: the edge-potential update on a 1024x1024 tile

At tile (i, j) of a 4x4 grid the body forms `EP = bf16(yᵢ) · bf16(yⱼ)ᵀ − mea − ½ M`: windows 0 and 1 are the
1024x256 row blocks i and j of ONE array y, windows 2 and 3 the tiles of mea and of M, window 4 the tile of EP;
the product goes into a zero accumulator. Row block i only moves every fourth point. -/

/-- Window `w`'s block at grid point `t`, cut out of its array as the region finds it. -/
def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The whole-block rectangles the body reads and writes through -/

/-- all of a 1024x256 row block of y -/
abbrev rowsR7 : Rect S1024x256 := Rect.unit (s := S1024x256) ![0, 0] S1024x256.size inb_S1024x256_S1024x256_0_0
/-- all of a 1024x1024 tile -/
abbrev sqR7 : Rect S1024x1024 := Rect.unit (s := S1024x1024) ![0, 0] S1024x1024.size inb_S1024x1024_S1024x1024_0_0

/-! ## What the body leaves in the EP tile's buffer -/

/-- Window 4 after the body: the single whole-tile store of `bf16(yᵢ) · bf16(yⱼ)ᵀ − mea − ½ M`. -/
def left7_4 (x0 x1 : Vec F S1024x256 .f32) (x2 x3 : Vec F S1024x1024 .f32) : Vec F S1024x1024 .f32 :=
  View.canon [⟨sqR7, k7_pay1 (View.ld x0 rowsR7) (View.ld x1 rowsR7) (View.ld x2 sqR7) (View.ld x3 sqR7)⟩]

/-- One whole-tile store covers the tile. -/
theorem sqCover7 (p : Vec F S1024x1024 .f32) (y : S1024x1024.Idx) :
    ∃ pc ∈ ([⟨sqR7, p⟩] : List (View.Piece (Elt F) S1024x1024 .f32)), y ∈ pc.1.set :=
  View.cover_of_tiled [⟨sqR7, p⟩] S1024x1024.size (by rfl) y

/-! ## The body on whole staging buffers -/

set_option maxHeartbeats 4000000 in
/-- Run on five whole staging buffers, the four operands' reading `x0 … x3` and the result's holding anything, the
    body returns with the operands as they were and the result at `left7_4` of them. -/
theorem kernel7 (c : Dev nD) (E : Set ℕ) (i : grid7.Coords)
    (a0 : Memref sig .tc .vmem S1024x256 .f32) (h0 : a0.IsWhole) (a1 : Memref sig .tc .vmem S1024x256 .f32) (h1 : a1.IsWhole)
    (a2 : Memref sig .tc .vmem S1024x1024 .f32) (h2 : a2.IsWhole) (a3 : Memref sig .tc .vmem S1024x1024 .f32) (h3 : a3.IsWhole)
    (a4 : Memref sig .tc .vmem S1024x1024 .f32) (h4 : a4.IsWhole)
    (x0 x1 : Vec F S1024x256 .f32) (x2 x3 : Vec F S1024x1024 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (left7_4 x0 x1 x2 x3)) -∗ K ⟨⟩))
      ⊢ wp frame (wpE (defs₀ (F := F)) Variants.none c none) E (cc7__fused_update_ep_kernel i a0 h0 a1 h1 a2 h2 a3 h3 a4 h4) K := by
  simp only [cc7__fused_update_ep_kernel_eq_skeleton]; unfold cc7__fused_update_ep_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (sqCover7 _)

/-! ## The proof data -/

/-- Core `c`'s proof data for the region: the arrays as found; after the body at point `t` each operand's buffer
    still at its block and the result's at `left7_4` of the operand blocks there; the invariant the scoped rest and
    the generator register, untouched; nothing owed. The two windows onto y each hold half of its share, the other
    windows their arrays' whole shares. -/
def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => blk7 V c 3 t
    | ⟨4, _⟩ => left7_4 (blk7 V c 0 t) (blk7 V c 1 t) (blk7 V c 2 t) (blk7 V c 3 t)
  Φ _ := Pipeline.ΦA spec7 c
  q := fun
    | ⟨0, _⟩ => fullShare.left
    | ⟨1, _⟩ => fullShare.right
    | ⟨2, _⟩ => fullShare
    | ⟨3, _⟩ => fullShare
    | ⟨4, _⟩ => fullShare
  owed _ := 0

theorem dat7_A (c : Dev nD) (w : Fin cfg7.W) : (dat7 V c).A w = V c (Pipeline.arrRef spec7 w) := by
  dsimp only [dat7]

theorem dat7_after_0 (c : Dev nD) (t : Fin cfg7.N) : (dat7 V c).after 0 t = blk7 V c 0 t := by dsimp only [dat7]
theorem dat7_after_1 (c : Dev nD) (t : Fin cfg7.N) : (dat7 V c).after 1 t = blk7 V c 1 t := by dsimp only [dat7]
theorem dat7_after_2 (c : Dev nD) (t : Fin cfg7.N) : (dat7 V c).after 2 t = blk7 V c 2 t := by dsimp only [dat7]
theorem dat7_after_3 (c : Dev nD) (t : Fin cfg7.N) : (dat7 V c).after 3 t = blk7 V c 3 t := by dsimp only [dat7]
theorem dat7_after_4 (c : Dev nD) (t : Fin cfg7.N) :
    (dat7 V c).after 4 t = left7_4 (blk7 V c 0 t) (blk7 V c 1 t) (blk7 V c 2 t) (blk7 V c 3 t) := by dsimp only [dat7]

/-! ## An operand's buffer holds its block at every point

Row block i is fetched when i moves, every fourth point, and stays in its buffer in between; the other three
operands are fetched at every point. Either way the current buffer reads the window's block: the body leaves it in
place. -/

theorem held7_0 (c : Dev nD) (t : Fin cfg7.N) (d) : (dat7 V c).before 0 t d = blk7 V c 0 t :=
  ((dat7 V c).before_in_eq_fetched 0 rfl (fun _ => rfl) (fun _ _ _ => rfl)
    (fun t => by rw [dat7_after_0]; unfold Dat.blockOf blk7; rw [dat7_A]; try rfl) t d).trans
    (by unfold Dat.fetched Dat.blockOf blk7; rw [dat7_A]; try rfl)
theorem held7_1 (c : Dev nD) (t : Fin cfg7.N) (d) : (dat7 V c).before 1 t d = blk7 V c 1 t :=
  ((dat7 V c).before_in_eq_fetched 1 rfl (fun _ => rfl) (fun _ _ _ => rfl)
    (fun t => by rw [dat7_after_1]; unfold Dat.blockOf blk7; rw [dat7_A]; try rfl) t d).trans
    (by unfold Dat.fetched Dat.blockOf blk7; rw [dat7_A]; try rfl)
theorem held7_2 (c : Dev nD) (t : Fin cfg7.N) (d) : (dat7 V c).before 2 t d = blk7 V c 2 t :=
  ((dat7 V c).before_in_eq_fetched 2 rfl (fun _ => rfl) (fun _ _ _ => rfl)
    (fun t => by rw [dat7_after_2]; unfold Dat.blockOf blk7; rw [dat7_A]; try rfl) t d).trans
    (by unfold Dat.fetched Dat.blockOf blk7; rw [dat7_A]; try rfl)
theorem held7_3 (c : Dev nD) (t : Fin cfg7.N) (d) : (dat7 V c).before 3 t d = blk7 V c 3 t :=
  ((dat7 V c).before_in_eq_fetched 3 rfl (fun _ => rfl) (fun _ _ _ => rfl)
    (fun t => by rw [dat7_after_3]; unfold Dat.blockOf blk7; rw [dat7_A]; try rfl) t d).trans
    (by unfold Dat.fetched Dat.blockOf blk7; rw [dat7_A]; try rfl)

/-! ## The body obligation -/

/-- What the pipeline hands the body at point `t`, window by window, -/
def handed7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it takes back. -/
def returned7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- At any point the operands' buffers read their blocks, so `kernel7` applies; the invariant and what the core
    owes pass through unread. -/
theorem atPoint7 (c : Dev nD) (t : Fin cfg7.N) :
    handed7 V c t ⊢ wp frame (wpE (defs₀ (F := F)) Variants.none c none) Set.univ (bodyAt7 t) (fun _ => returned7 V c t) := by
  unfold handed7 returned7 bodyAt7
  simp only [held7_0, held7_1, held7_2, held7_3]
  rw [show (dat7 V c).Φ t.succ = (dat7 V c).Φ t.castSucc from rfl,
    show (dat7 V c).owesAt () t.succ = (dat7 V c).owesAt () t.castSucc from rfl,
    dat7_after_0, dat7_after_1, dat7_after_2, dat7_after_3, dat7_after_4]
  iintro ⟨HΦ, Ho, ⟨%d0, H0⟩, ⟨%d1, H1⟩, ⟨%d2, H2⟩, ⟨%d3, H3⟩, ⟨%d4, H4⟩⟩
  iapply (kernel7 c Set.univ _ _ _ _ _ _ _ _ _ _ _
    (blk7 V c 0 t) (blk7 V c 1 t) (blk7 V c 2 t) (blk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the region, at every point. -/
theorem body7 (c : Dev nD) : BodyObligation (dat7 (F := F) V c) (defs₀ (F := F)) Variants.none () Set.univ := fun t => by
  rw [bigSep_W7, bigSep_W7]
  exact atPoint7 V c t

end Cert.KernelIdeal.Regs
-- ==== Proof.KI.Region8.lean ====
import proofs.«169176_j23261542875327_2_alg».proof.Proof.Gen.KernelIdeal.Launch
import proofs.«169176_j23261542875327_2_alg».proof.Proof.Gen.KernelIdeal.Skeleton
import proofs.«169176_j23261542875327_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic

-- a whole-block rectangle's membership test walks the long axis once per coordinate
set_option maxRecDepth 65536

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 8: a later layer's fused adjacency products

A row tile of 128 rows. The body forms `A = adj ⊙ EP + mea` on the tile (windows 0, 1, 2, 128x4096 each; `⊙` the
entrywise product) and multiplies it into the two resident 4096x256 operands: `oy = bf16(A) · y` (window 3, bf16,
into window 5) and `oz = A · z` at full precision (window 4, into window 6), each product into a zero
accumulator. -/

/-- Window `w`'s block at grid point `t`, cut out of its array as the region finds it. -/
def blk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The whole-block rectangles the body reads and writes through -/

/-- all of a 128x4096 row tile -/
abbrev tileR8 : Rect S128x4096 := Rect.unit (s := S128x4096) ![0, 0] S128x4096.size inb_S128x4096_S128x4096_0_0
/-- all of a 4096x256 right operand -/
abbrev rhsR8 : Rect S4096x256 := Rect.unit (s := S4096x256) ![0, 0] S4096x256.size inb_S4096x256_S4096x256_0_0
/-- all of a 128x256 product tile -/
abbrev prodR8 : Rect S128x256 := Rect.unit (s := S128x256) ![0, 0] S128x256.size inb_S128x256_S128x256_0_0

/-! ## What the body leaves in the two product buffers -/

/-- Window 5 after the body: the single whole-tile store of `bf16(adj ⊙ EP + mea) · y`. -/
def left8_5 (x0 x1 x2 : Vec F S128x4096 .f32) (x3 : Vec F S4096x256 .bf16) : Vec F S128x256 .f32 :=
  View.canon [⟨prodR8, k8_pay2 (View.ld x0 tileR8) (View.ld x1 tileR8) (View.ld x2 tileR8) (View.ld x3 rhsR8)⟩]

/-- Window 6 after the body: the single whole-tile store of `(adj ⊙ EP + mea) · z`. -/
def left8_6 (x0 x1 x2 : Vec F S128x4096 .f32) (x4 : Vec F S4096x256 .f32) : Vec F S128x256 .f32 :=
  View.canon [⟨prodR8, k8_pay3 (View.ld x0 tileR8) (View.ld x1 tileR8) (View.ld x2 tileR8) (View.ld x4 rhsR8)⟩]

/-- One whole-tile store covers the product tile. -/
theorem prodCover8 (p : Vec F S128x256 .f32) (y : S128x256.Idx) :
    ∃ pc ∈ ([⟨prodR8, p⟩] : List (View.Piece (Elt F) S128x256 .f32)), y ∈ pc.1.set :=
  View.cover_of_tiled [⟨prodR8, p⟩] S128x256.size (by rfl) y

/-! ## The body on whole staging buffers -/

set_option maxHeartbeats 4000000 in
/-- Run on seven whole staging buffers, the five operands' reading `x0 … x4` and the two products' holding anything,
    the body returns with the operands as they were and the products at `left8_5`, `left8_6` of them. -/
theorem kernel8 (c : Dev nD) (E : Set ℕ) (i : grid8.Coords)
    (a0 : Memref sig .tc .vmem S128x4096 .f32) (h0 : a0.IsWhole) (a1 : Memref sig .tc .vmem S128x4096 .f32) (h1 : a1.IsWhole)
    (a2 : Memref sig .tc .vmem S128x4096 .f32) (h2 : a2.IsWhole)
    (a3 : Memref sig .tc .vmem S4096x256 .bf16) (h3 : a3.IsWhole) (a4 : Memref sig .tc .vmem S4096x256 .f32) (h4 : a4.IsWhole)
    (a5 : Memref sig .tc .vmem S128x256 .f32) (h5 : a5.IsWhole) (a6 : Memref sig .tc .vmem S128x256 .f32) (h6 : a6.IsWhole)
    (x0 x1 x2 : Vec F S128x4096 .f32) (x3 : Vec F S4096x256 .bf16) (x4 : Vec F S4096x256 .f32) (K : PUnit → sProp 𝕄) :
    iprop(owns (c : Thread nD τ) a0 fullShare x0 ∗ owns (c : Thread nD τ) a1 fullShare x1
        ∗ owns (c : Thread nD τ) a2 fullShare x2
        ∗ owns (c : Thread nD τ) a3 fullShare x3 ∗ owns (c : Thread nD τ) a4 fullShare x4
        ∗ (∃ d, owns (c : Thread nD τ) a5 fullShare d) ∗ (∃ d, owns (c : Thread nD τ) a6 fullShare d)
        ∗ (iprop(owns (c : Thread nD τ) a0 fullShare x0 ∗ owns (c : Thread nD τ) a1 fullShare x1
            ∗ owns (c : Thread nD τ) a2 fullShare x2
            ∗ owns (c : Thread nD τ) a3 fullShare x3 ∗ owns (c : Thread nD τ) a4 fullShare x4
            ∗ owns (c : Thread nD τ) a5 fullShare (left8_5 x0 x1 x2 x3)
            ∗ owns (c : Thread nD τ) a6 fullShare (left8_6 x0 x1 x2 x4)) -∗ K ⟨⟩))
      ⊢ wp frame (wpE (defs₀ (F := F)) Variants.none c none) E (cc8__fused_a_kernel i a0 h0 a1 h1 a2 h2 a3 h3 a4 h4 a5 h5 a6 h6) K := by
  simp only [cc8__fused_a_kernel_eq_skeleton]; unfold cc8__fused_a_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (prodCover8 _)
  iexists _; isplitr
  swap; · iexact H6
  ipureintro
  exact View.read_writes_eq_canon _ _ _ (prodCover8 _)

/-! ## The proof data -/

/-- Core `c`'s proof data for the region: the arrays as found; after the body at point `t` each operand's buffer
    still at its block, each product's at `left8_w` of the operand blocks there; the invariant the scoped rest and
    the generator register, untouched; nothing owed; whole shares. -/
def dat8 (c : Dev nD) : Dat τ (Elt F) Unit ℕ (UR sig nD τ) ℕ cfg8 c where
  A w := V c (Pipeline.arrRef spec8 w)
  after w t := match w with
    | ⟨0, _⟩ => blk8 V c 0 t
    | ⟨1, _⟩ => blk8 V c 1 t
    | ⟨2, _⟩ => blk8 V c 2 t
    | ⟨3, _⟩ => blk8 V c 3 t
    | ⟨4, _⟩ => blk8 V c 4 t
    | ⟨5, _⟩ => left8_5 (blk8 V c 0 t) (blk8 V c 1 t) (blk8 V c 2 t) (blk8 V c 3 t)
    | ⟨6, _⟩ => left8_6 (blk8 V c 0 t) (blk8 V c 1 t) (blk8 V c 2 t) (blk8 V c 4 t)
  Φ _ := Pipeline.ΦA spec8 c
  q _ := fullShare
  owed _ := 0

theorem dat8_A (c : Dev nD) (w : Fin cfg8.W) : (dat8 V c).A w = V c (Pipeline.arrRef spec8 w) := by
  dsimp only [dat8]

theorem dat8_after_0 (c : Dev nD) (t : Fin cfg8.N) : (dat8 V c).after 0 t = blk8 V c 0 t := by dsimp only [dat8]
theorem dat8_after_1 (c : Dev nD) (t : Fin cfg8.N) : (dat8 V c).after 1 t = blk8 V c 1 t := by dsimp only [dat8]
theorem dat8_after_2 (c : Dev nD) (t : Fin cfg8.N) : (dat8 V c).after 2 t = blk8 V c 2 t := by dsimp only [dat8]
theorem dat8_after_3 (c : Dev nD) (t : Fin cfg8.N) : (dat8 V c).after 3 t = blk8 V c 3 t := by dsimp only [dat8]
theorem dat8_after_4 (c : Dev nD) (t : Fin cfg8.N) : (dat8 V c).after 4 t = blk8 V c 4 t := by dsimp only [dat8]
theorem dat8_after_5 (c : Dev nD) (t : Fin cfg8.N) :
    (dat8 V c).after 5 t = left8_5 (blk8 V c 0 t) (blk8 V c 1 t) (blk8 V c 2 t) (blk8 V c 3 t) := by dsimp only [dat8]
theorem dat8_after_6 (c : Dev nD) (t : Fin cfg8.N) :
    (dat8 V c).after 6 t = left8_6 (blk8 V c 0 t) (blk8 V c 1 t) (blk8 V c 2 t) (blk8 V c 4 t) := by dsimp only [dat8]

/-! ## An operand's buffer holds its block at every point

The three row tiles are fetched at every point; the two right operands are fetched at the first point only and
their block index never moves. Either way the current buffer reads the window's block: the body leaves it in place. -/

theorem held8_0 (c : Dev nD) (t : Fin cfg8.N) (d) : (dat8 V c).before 0 t d = blk8 V c 0 t :=
  ((dat8 V c).before_in_eq_fetched 0 rfl (fun _ => rfl) (fun _ _ _ => rfl)
    (fun t => by rw [dat8_after_0]; unfold Dat.blockOf blk8; rw [dat8_A]; try rfl) t d).trans
    (by unfold Dat.fetched Dat.blockOf blk8; rw [dat8_A]; try rfl)
theorem held8_1 (c : Dev nD) (t : Fin cfg8.N) (d) : (dat8 V c).before 1 t d = blk8 V c 1 t :=
  ((dat8 V c).before_in_eq_fetched 1 rfl (fun _ => rfl) (fun _ _ _ => rfl)
    (fun t => by rw [dat8_after_1]; unfold Dat.blockOf blk8; rw [dat8_A]; try rfl) t d).trans
    (by unfold Dat.fetched Dat.blockOf blk8; rw [dat8_A]; try rfl)
theorem held8_2 (c : Dev nD) (t : Fin cfg8.N) (d) : (dat8 V c).before 2 t d = blk8 V c 2 t :=
  ((dat8 V c).before_in_eq_fetched 2 rfl (fun _ => rfl) (fun _ _ _ => rfl)
    (fun t => by rw [dat8_after_2]; unfold Dat.blockOf blk8; rw [dat8_A]; try rfl) t d).trans
    (by unfold Dat.fetched Dat.blockOf blk8; rw [dat8_A]; try rfl)
theorem held8_3 (c : Dev nD) (t : Fin cfg8.N) (d) : (dat8 V c).before 3 t d = blk8 V c 3 t :=
  ((dat8 V c).before_in_eq_fetched 3 rfl (fun _ => rfl) (fun _ _ _ => rfl)
    (fun t => by rw [dat8_after_3]; unfold Dat.blockOf blk8; rw [dat8_A]; try rfl) t d).trans
    (by unfold Dat.fetched Dat.blockOf blk8; rw [dat8_A]; try rfl)
theorem held8_4 (c : Dev nD) (t : Fin cfg8.N) (d) : (dat8 V c).before 4 t d = blk8 V c 4 t :=
  ((dat8 V c).before_in_eq_fetched 4 rfl (fun _ => rfl) (fun _ _ _ => rfl)
    (fun t => by rw [dat8_after_4]; unfold Dat.blockOf blk8; rw [dat8_A]; try rfl) t d).trans
    (by unfold Dat.fetched Dat.blockOf blk8; rw [dat8_A]; try rfl)

/-! ## The body obligation -/

/-- What the pipeline hands the body at point `t`, window by window, -/
def handed8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it takes back. -/
def returned8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- At any point the operands' buffers read their blocks, so `kernel8` applies; the invariant and what the core
    owes pass through unread. -/
theorem atPoint8 (c : Dev nD) (t : Fin cfg8.N) :
    handed8 V c t ⊢ wp frame (wpE (defs₀ (F := F)) Variants.none c none) Set.univ (bodyAt8 t) (fun _ => returned8 V c t) := by
  unfold handed8 returned8 bodyAt8
  simp only [held8_0, held8_1, held8_2, held8_3, held8_4]
  rw [show (dat8 V c).Φ t.succ = (dat8 V c).Φ t.castSucc from rfl,
    show (dat8 V c).owesAt () t.succ = (dat8 V c).owesAt () t.castSucc from rfl,
    dat8_after_0, dat8_after_1, dat8_after_2, dat8_after_3, dat8_after_4, dat8_after_5, dat8_after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel8 c Set.univ _ _ _ _ _ _ _ _ _ _ _ _ _ _ _
    (blk8 V c 0 t) (blk8 V c 1 t) (blk8 V c 2 t) (blk8 V c 3 t) (blk8 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the region, at every point. -/
theorem body8 (c : Dev nD) : BodyObligation (dat8 (F := F) V c) (defs₀ (F := F)) Variants.none () Set.univ := fun t => by
  rw [bigSep_W8, bigSep_W8]
  exact atPoint8 V c t

end Cert.KernelIdeal.Regs
-- ==== Proof.KI.Region9.lean ====
/- Region 9 of @main, body side.

   A tall product with the left factor transposed,  out = Aᵀ · B , computed in eight row tiles of the result. Window 0
   is the matrix A (4096 x 4096, f32) cut into eight 4096 x 512 column strips; window 1 is the right matrix B
   (4096 x 256, f32), one block that is the whole array and therefore stays in its buffer from the first grid point on;
   window 2 is the result (4096 x 256, f32) in eight 512 x 256 row tiles. At a grid point the body reads the strip and
   B whole, rounds both to bf16, and writes the output tile whole:   out_tile = bf16(A_strip)ᵀ · bf16(B) ,  the sum
   running over the 4096 rows the strip and B share, in f32 from zero.
   Nothing is carried from one grid point to the next, so what the body leaves in the output tile is a function of
   the two input blocks at that point alone. -/
import proofs.«169176_j23261542875327_2_alg».proof.Proof.Gen.KernelIdeal.Launch
import proofs.«169176_j23261542875327_2_alg».proof.Proof.Gen.KernelIdeal.Skeleton
import proofs.«169176_j23261542875327_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks -/

/-- Window `w`'s block at grid point `t`, cut out of its array as the region finds it. -/
def blk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Each of the three blocks as a rectangle of itself: the body loads and stores whole blocks only. -/
abbrev lhs9 : Rect S4096x512 := Rect.unit (s := S4096x512) ![0, 0] S4096x512.size inb_S4096x512_S4096x512_0_0
abbrev rhs9 : Rect S4096x256 := Rect.unit (s := S4096x256) ![0, 0] S4096x256.size inb_S4096x256_S4096x256_0_0
abbrev res9 : Rect S512x256 := Rect.unit (s := S512x256) ![0, 0] S512x256.size inb_S512x256_S512x256_0_0

/-- The output tile after the body: one whole-tile store of the product of the transposed strip `a` with `b`, both rounded to bf16, summed over their common 4096 rows from zero. -/
def left9_2 (a : Vec F S4096x512 .f32) (b : Vec F S4096x256 .f32) : Vec F S512x256 .f32 :=
  View.canon [⟨res9, k9_pay1 (View.ld a lhs9) (View.ld b rhs9)⟩]

/-- One whole-tile store fills the tile, whatever is stored. -/
theorem fills9_2 (p : Vec F S512x256 .f32) (y : S512x256.Idx) :
    ∃ pc ∈ ([⟨res9, p⟩] : List (View.Piece (Elt F) S512x256 .f32)), y ∈ pc.1.set :=
  View.cover_of_tiled [⟨res9, p⟩] S512x256.size (by rfl) y

/-! ## The body on three whole blocks -/

set_option maxHeartbeats 1000000 in
/-- On whole block buffers — the inputs reading `a` and `b`, the output holding anything — the body ends with the
    inputs as they were and the output reading `left9_2 a b`. (It also loads the output tile before overwriting it;
    the loaded value is not used.) -/
theorem run9 (c : Dev nD) (E : Set ℕ) (i : grid9.Coords)
    (a0 : Memref sig .tc .vmem S4096x512 .f32) (h0 : a0.IsWhole) (a1 : Memref sig .tc .vmem S4096x256 .f32) (h1 : a1.IsWhole)
    (a2 : Memref sig .tc .vmem S512x256 .f32) (h2 : a2.IsWhole)
    (a : Vec F S4096x512 .f32) (b : Vec F S4096x256 .f32) (K : PUnit → sProp 𝕄) :
    iprop(owns (c : Thread nD τ) a0 fullShare a ∗ owns (c : Thread nD τ) a1 fullShare b ∗ (∃ d, owns (c : Thread nD τ) a2 fullShare d)
        ∗ (iprop(owns (c : Thread nD τ) a0 fullShare a ∗ owns (c : Thread nD τ) a1 fullShare b
            ∗ owns (c : Thread nD τ) a2 fullShare (left9_2 a b)) -∗ K ⟨⟩))
      ⊢ wp frame (wpE (defs₀ (F := F)) Variants.none c none) E (cc9__matmul_tall_kernel i a0 h0 a1 h1 a2 h2) K := by
  simp only [cc9__matmul_tall_kernel_eq_skeleton]; unfold cc9__matmul_tall_kernel_skel
  unfold owns
  iintro ⟨⟨%f0, %e0, H0⟩, ⟨%f1, %e1, H1⟩, ⟨%d2, %f2, -, H2⟩, Hk⟩
  subst e0; subst e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fills9_2 _)

/-! ## The proof data -/

/-- Pipeline 9's proof data on core `c`: the arrays as the region finds them; after the body at point `t` the input
    buffers still at their blocks and the output buffer at `left9_2` of the two input blocks; the invariant that of a
    body keeping nothing between points; nothing owed; full shares. -/
def dat9 (c : Dev nD) : Dat τ (Elt F) Unit ℕ (UR sig nD τ) ℕ cfg9 c where
  A w := V c (Pipeline.arrRef spec9 w)
  after w t := match w with
    | ⟨0, _⟩ => blk9 V c 0 t
    | ⟨1, _⟩ => blk9 V c 1 t
    | ⟨2, _⟩ => left9_2 (blk9 V c 0 t) (blk9 V c 1 t)
  Φ _ := Pipeline.ΦA spec9 c
  q _ := fullShare
  owed _ := 0

theorem dat9_A (c : Dev nD) (w : Fin cfg9.W) : (dat9 V c).A w = V c (Pipeline.arrRef spec9 w) := by
  dsimp only [dat9]
theorem dat9_after_0 (c : Dev nD) (t : Fin cfg9.N) : (dat9 V c).after 0 t = blk9 V c 0 t := by dsimp only [dat9]
theorem dat9_after_1 (c : Dev nD) (t : Fin cfg9.N) : (dat9 V c).after 1 t = blk9 V c 1 t := by dsimp only [dat9]
theorem dat9_after_2 (c : Dev nD) (t : Fin cfg9.N) :
    (dat9 V c).after 2 t = left9_2 (blk9 V c 0 t) (blk9 V c 1 t) := by dsimp only [dat9]

/-! ## What the body finds in the input buffers -/

/-- The left factor's buffer holds its column strip of the left matrix at every point: the body leaves it in place, and it is fetched
    afresh at every point. -/
theorem finds9_0 (c : Dev nD) (t : Fin cfg9.N) (d) : (dat9 V c).before 0 t d = blk9 V c 0 t :=
  ((dat9 V c).before_in_eq_fetched 0 rfl (fun _ => rfl) (fun _ _ _ => rfl)
      (fun t => by rw [dat9_after_0]; unfold Dat.blockOf blk9; rw [dat9_A]; try rfl) t d).trans
    (by unfold Dat.fetched Dat.blockOf blk9; rw [dat9_A]; try rfl)

/-- The right factor's buffer holds the whole right matrix at every point: fetched at the first point only, its block
    index never moves afterwards and the body leaves it in place. -/
theorem finds9_1 (c : Dev nD) (t : Fin cfg9.N) (d) : (dat9 V c).before 1 t d = blk9 V c 1 t :=
  ((dat9 V c).before_in_eq_fetched 1 rfl (fun _ => rfl) (fun _ _ _ => rfl)
      (fun t => by rw [dat9_after_1]; unfold Dat.blockOf blk9; rw [dat9_A]; try rfl) t d).trans
    (by unfold Dat.fetched Dat.blockOf blk9; rw [dat9_A]; try rfl)

/-! ## The obligation at a grid point -/

/-- At any point: the input buffers hold their blocks (`finds9_0`, `finds9_1`), so `run9` applies to the three
    current buffers; the invariant and what the core owes are not touched. -/
theorem body9 (c : Dev nD) : BodyObligation (dat9 (F := F) V c) (defs₀ (F := F)) Variants.none () Set.univ := fun t => by
  rw [bigSep_W9, bigSep_W9]
  show iprop((dat9 V c).Φ t.castSucc ∗ (dat9 V c).owesAt () t.castSucc
      ∗ (∃ d, owns (c : Thread nD τ) (st9_0 t) fullShare ((dat9 V c).before 0 t d))
      ∗ (∃ d, owns (c : Thread nD τ) (st9_1 t) fullShare ((dat9 V c).before 1 t d))
      ∗ (∃ d, owns (c : Thread nD τ) (st9_2 t) fullShare ((dat9 V c).before 2 t d)))
    ⊢ wp frame (wpE (defs₀ (F := F)) Variants.none c none) Set.univ (bodyAt9 t) (fun _ =>
      iprop((dat9 V c).Φ t.castSucc ∗ (dat9 V c).owesAt () t.castSucc
        ∗ owns (c : Thread nD τ) (st9_0 t) fullShare ((dat9 V c).after 0 t)
        ∗ owns (c : Thread nD τ) (st9_1 t) fullShare ((dat9 V c).after 1 t)
        ∗ owns (c : Thread nD τ) (st9_2 t) fullShare ((dat9 V c).after 2 t)))
  simp only [finds9_0, finds9_1]
  rw [dat9_after_0, dat9_after_1, dat9_after_2]
  unfold bodyAt9
  iintro ⟨HΦ, Ho, ⟨%d0, H0⟩, ⟨%d1, H1⟩, ⟨%d2, H2⟩⟩
  iapply (run9 c Set.univ _ _ _ _ _ _ _ (blk9 V c 0 t) (blk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Regs
-- ==== Proof.KI.Region10.lean ====
/- Region 10 of @main, body side.

   A tall product  out = A · B  computed in eight row tiles. Window 0 is the left matrix A (4096 x 4096, already in
   bf16) cut into eight 512 x 4096 row tiles; window 1 is the right matrix B (4096 x 256, f32), one block that is the
   whole array and therefore stays in its buffer from the first grid point on; window 2 is the result (4096 x 256, f32)
   in eight 512 x 256 row tiles. At a grid point the body reads the row tile and B whole, rounds B to bf16, and writes
   the output tile whole:   out_tile = A_tile · bf16(B) ,  the products summed in f32 from zero.
   Nothing is carried from one grid point to the next, so what the body leaves in the output tile is a function of
   the two input blocks at that point alone. -/
import proofs.«169176_j23261542875327_2_alg».proof.Proof.Gen.KernelIdeal.Launch
import proofs.«169176_j23261542875327_2_alg».proof.Proof.Gen.KernelIdeal.Skeleton
import proofs.«169176_j23261542875327_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks -/

/-- Window `w`'s block at grid point `t`, cut out of its array as the region finds it. -/
def blk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Each of the three blocks as a rectangle of itself: the body loads and stores whole blocks only. -/
abbrev lhs10 : Rect S512x4096 := Rect.unit (s := S512x4096) ![0, 0] S512x4096.size inb_S512x4096_S512x4096_0_0
abbrev rhs10 : Rect S4096x256 := Rect.unit (s := S4096x256) ![0, 0] S4096x256.size inb_S4096x256_S4096x256_0_0
abbrev res10 : Rect S512x256 := Rect.unit (s := S512x256) ![0, 0] S512x256.size inb_S512x256_S512x256_0_0

/-- The output tile after the body: one whole-tile store of the product of the row tile `a` with `b` rounded to bf16, summed from zero. -/
def left10_2 (a : Vec F S512x4096 .bf16) (b : Vec F S4096x256 .f32) : Vec F S512x256 .f32 :=
  View.canon [⟨res10, k10_pay1 (View.ld a lhs10) (View.ld b rhs10)⟩]

/-- One whole-tile store fills the tile, whatever is stored. -/
theorem fills10_2 (p : Vec F S512x256 .f32) (y : S512x256.Idx) :
    ∃ pc ∈ ([⟨res10, p⟩] : List (View.Piece (Elt F) S512x256 .f32)), y ∈ pc.1.set :=
  View.cover_of_tiled [⟨res10, p⟩] S512x256.size (by rfl) y

/-! ## The body on three whole blocks -/

set_option maxHeartbeats 1000000 in
/-- On whole block buffers — the inputs reading `a` and `b`, the output holding anything — the body ends with the
    inputs as they were and the output reading `left10_2 a b`. (It also loads the output tile before overwriting it;
    the loaded value is not used.) -/
theorem run10 (c : Dev nD) (E : Set ℕ) (i : grid10.Coords)
    (a0 : Memref sig .tc .vmem S512x4096 .bf16) (h0 : a0.IsWhole) (a1 : Memref sig .tc .vmem S4096x256 .f32) (h1 : a1.IsWhole)
    (a2 : Memref sig .tc .vmem S512x256 .f32) (h2 : a2.IsWhole)
    (a : Vec F S512x4096 .bf16) (b : Vec F S4096x256 .f32) (K : PUnit → sProp 𝕄) :
    iprop(owns (c : Thread nD τ) a0 fullShare a ∗ owns (c : Thread nD τ) a1 fullShare b ∗ (∃ d, owns (c : Thread nD τ) a2 fullShare d)
        ∗ (iprop(owns (c : Thread nD τ) a0 fullShare a ∗ owns (c : Thread nD τ) a1 fullShare b
            ∗ owns (c : Thread nD τ) a2 fullShare (left10_2 a b)) -∗ K ⟨⟩))
      ⊢ wp frame (wpE (defs₀ (F := F)) Variants.none c none) E (cc10__matmul_tall_kernel i a0 h0 a1 h1 a2 h2) K := by
  simp only [cc10__matmul_tall_kernel_eq_skeleton]; unfold cc10__matmul_tall_kernel_skel
  unfold owns
  iintro ⟨⟨%f0, %e0, H0⟩, ⟨%f1, %e1, H1⟩, ⟨%d2, %f2, -, H2⟩, Hk⟩
  subst e0; subst e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fills10_2 _)

/-! ## The proof data -/

/-- Pipeline 10's proof data on core `c`: the arrays as the region finds them; after the body at point `t` the input
    buffers still at their blocks and the output buffer at `left10_2` of the two input blocks; the invariant that of a
    body keeping nothing between points; nothing owed; full shares. -/
def dat10 (c : Dev nD) : Dat τ (Elt F) Unit ℕ (UR sig nD τ) ℕ cfg10 c where
  A w := V c (Pipeline.arrRef spec10 w)
  after w t := match w with
    | ⟨0, _⟩ => blk10 V c 0 t
    | ⟨1, _⟩ => blk10 V c 1 t
    | ⟨2, _⟩ => left10_2 (blk10 V c 0 t) (blk10 V c 1 t)
  Φ _ := Pipeline.ΦA spec10 c
  q _ := fullShare
  owed _ := 0

theorem dat10_A (c : Dev nD) (w : Fin cfg10.W) : (dat10 V c).A w = V c (Pipeline.arrRef spec10 w) := by
  dsimp only [dat10]
theorem dat10_after_0 (c : Dev nD) (t : Fin cfg10.N) : (dat10 V c).after 0 t = blk10 V c 0 t := by dsimp only [dat10]
theorem dat10_after_1 (c : Dev nD) (t : Fin cfg10.N) : (dat10 V c).after 1 t = blk10 V c 1 t := by dsimp only [dat10]
theorem dat10_after_2 (c : Dev nD) (t : Fin cfg10.N) :
    (dat10 V c).after 2 t = left10_2 (blk10 V c 0 t) (blk10 V c 1 t) := by dsimp only [dat10]

/-! ## What the body finds in the input buffers -/

/-- The left factor's buffer holds its row tile of the left matrix at every point: the body leaves it in place, and it is fetched
    afresh at every point. -/
theorem finds10_0 (c : Dev nD) (t : Fin cfg10.N) (d) : (dat10 V c).before 0 t d = blk10 V c 0 t :=
  ((dat10 V c).before_in_eq_fetched 0 rfl (fun _ => rfl) (fun _ _ _ => rfl)
      (fun t => by rw [dat10_after_0]; unfold Dat.blockOf blk10; rw [dat10_A]; try rfl) t d).trans
    (by unfold Dat.fetched Dat.blockOf blk10; rw [dat10_A]; try rfl)

/-- The right factor's buffer holds the whole right matrix at every point: fetched at the first point only, its block
    index never moves afterwards and the body leaves it in place. -/
theorem finds10_1 (c : Dev nD) (t : Fin cfg10.N) (d) : (dat10 V c).before 1 t d = blk10 V c 1 t :=
  ((dat10 V c).before_in_eq_fetched 1 rfl (fun _ => rfl) (fun _ _ _ => rfl)
      (fun t => by rw [dat10_after_1]; unfold Dat.blockOf blk10; rw [dat10_A]; try rfl) t d).trans
    (by unfold Dat.fetched Dat.blockOf blk10; rw [dat10_A]; try rfl)

/-! ## The obligation at a grid point -/

/-- At any point: the input buffers hold their blocks (`finds10_0`, `finds10_1`), so `run10` applies to the three
    current buffers; the invariant and what the core owes are not touched. -/
theorem body10 (c : Dev nD) : BodyObligation (dat10 (F := F) V c) (defs₀ (F := F)) Variants.none () Set.univ := fun t => by
  rw [bigSep_W10, bigSep_W10]
  show iprop((dat10 V c).Φ t.castSucc ∗ (dat10 V c).owesAt () t.castSucc
      ∗ (∃ d, owns (c : Thread nD τ) (st10_0 t) fullShare ((dat10 V c).before 0 t d))
      ∗ (∃ d, owns (c : Thread nD τ) (st10_1 t) fullShare ((dat10 V c).before 1 t d))
      ∗ (∃ d, owns (c : Thread nD τ) (st10_2 t) fullShare ((dat10 V c).before 2 t d)))
    ⊢ wp frame (wpE (defs₀ (F := F)) Variants.none c none) Set.univ (bodyAt10 t) (fun _ =>
      iprop((dat10 V c).Φ t.castSucc ∗ (dat10 V c).owesAt () t.castSucc
        ∗ owns (c : Thread nD τ) (st10_0 t) fullShare ((dat10 V c).after 0 t)
        ∗ owns (c : Thread nD τ) (st10_1 t) fullShare ((dat10 V c).after 1 t)
        ∗ owns (c : Thread nD τ) (st10_2 t) fullShare ((dat10 V c).after 2 t)))
  simp only [finds10_0, finds10_1]
  rw [dat10_after_0, dat10_after_1, dat10_after_2]
  unfold bodyAt10
  iintro ⟨HΦ, Ho, ⟨%d0, H0⟩, ⟨%d1, H1⟩, ⟨%d2, H2⟩⟩
  iapply (run10 c Set.univ _ _ _ _ _ _ _ (blk10 V c 0 t) (blk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Regs
-- ==== Proof.KI.Region11.lean ====
import proofs.«169176_j23261542875327_2_alg».proof.Proof.Gen.KernelIdeal.Launch
import proofs.«169176_j23261542875327_2_alg».proof.Proof.Gen.KernelIdeal.Skeleton
import proofs.«169176_j23261542875327_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic

-- a whole-block rectangle's membership test walks the long axis once per coordinate
set_option maxRecDepth 65536

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 11: the edge-potential update on a 1024x1024 tile

At tile (i, j) of a 4x4 grid the body forms `EP = bf16(yᵢ) · bf16(yⱼ)ᵀ − mea − ½ M`: windows 0 and 1 are the
1024x256 row blocks i and j of ONE array y, windows 2 and 3 the tiles of mea and of M, window 4 the tile of EP;
the product goes into a zero accumulator. Row block i only moves every fourth point. -/

/-- Window `w`'s block at grid point `t`, cut out of its array as the region finds it. -/
def blk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## The whole-block rectangles the body reads and writes through -/

/-- all of a 1024x256 row block of y -/
abbrev rowsR11 : Rect S1024x256 := Rect.unit (s := S1024x256) ![0, 0] S1024x256.size inb_S1024x256_S1024x256_0_0
/-- all of a 1024x1024 tile -/
abbrev sqR11 : Rect S1024x1024 := Rect.unit (s := S1024x1024) ![0, 0] S1024x1024.size inb_S1024x1024_S1024x1024_0_0

/-! ## What the body leaves in the EP tile's buffer -/

/-- Window 4 after the body: the single whole-tile store of `bf16(yᵢ) · bf16(yⱼ)ᵀ − mea − ½ M`. -/
def left11_4 (x0 x1 : Vec F S1024x256 .f32) (x2 x3 : Vec F S1024x1024 .f32) : Vec F S1024x1024 .f32 :=
  View.canon [⟨sqR11, k11_pay1 (View.ld x0 rowsR11) (View.ld x1 rowsR11) (View.ld x2 sqR11) (View.ld x3 sqR11)⟩]

/-- One whole-tile store covers the tile. -/
theorem sqCover11 (p : Vec F S1024x1024 .f32) (y : S1024x1024.Idx) :
    ∃ pc ∈ ([⟨sqR11, p⟩] : List (View.Piece (Elt F) S1024x1024 .f32)), y ∈ pc.1.set :=
  View.cover_of_tiled [⟨sqR11, p⟩] S1024x1024.size (by rfl) y

/-! ## The body on whole staging buffers -/

set_option maxHeartbeats 4000000 in
/-- Run on five whole staging buffers, the four operands' reading `x0 … x3` and the result's holding anything, the
    body returns with the operands as they were and the result at `left11_4` of them. -/
theorem kernel11 (c : Dev nD) (E : Set ℕ) (i : grid11.Coords)
    (a0 : Memref sig .tc .vmem S1024x256 .f32) (h0 : a0.IsWhole) (a1 : Memref sig .tc .vmem S1024x256 .f32) (h1 : a1.IsWhole)
    (a2 : Memref sig .tc .vmem S1024x1024 .f32) (h2 : a2.IsWhole) (a3 : Memref sig .tc .vmem S1024x1024 .f32) (h3 : a3.IsWhole)
    (a4 : Memref sig .tc .vmem S1024x1024 .f32) (h4 : a4.IsWhole)
    (x0 x1 : Vec F S1024x256 .f32) (x2 x3 : Vec F S1024x1024 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (left11_4 x0 x1 x2 x3)) -∗ K ⟨⟩))
      ⊢ wp frame (wpE (defs₀ (F := F)) Variants.none c none) E (cc11__fused_update_ep_kernel i a0 h0 a1 h1 a2 h2 a3 h3 a4 h4) K := by
  simp only [cc11__fused_update_ep_kernel_eq_skeleton]; unfold cc11__fused_update_ep_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (sqCover11 _)

/-! ## The proof data -/

/-- Core `c`'s proof data for the region: the arrays as found; after the body at point `t` each operand's buffer
    still at its block and the result's at `left11_4` of the operand blocks there; the invariant the scoped rest and
    the generator register, untouched; nothing owed. The two windows onto y each hold half of its share, the other
    windows their arrays' whole shares. -/
def dat11 (c : Dev nD) : Dat τ (Elt F) Unit ℕ (UR sig nD τ) ℕ cfg11 c where
  A w := V c (Pipeline.arrRef spec11 w)
  after w t := match w with
    | ⟨0, _⟩ => blk11 V c 0 t
    | ⟨1, _⟩ => blk11 V c 1 t
    | ⟨2, _⟩ => blk11 V c 2 t
    | ⟨3, _⟩ => blk11 V c 3 t
    | ⟨4, _⟩ => left11_4 (blk11 V c 0 t) (blk11 V c 1 t) (blk11 V c 2 t) (blk11 V c 3 t)
  Φ _ := Pipeline.ΦA spec11 c
  q := fun
    | ⟨0, _⟩ => fullShare.left
    | ⟨1, _⟩ => fullShare.right
    | ⟨2, _⟩ => fullShare
    | ⟨3, _⟩ => fullShare
    | ⟨4, _⟩ => fullShare
  owed _ := 0

theorem dat11_A (c : Dev nD) (w : Fin cfg11.W) : (dat11 V c).A w = V c (Pipeline.arrRef spec11 w) := by
  dsimp only [dat11]

theorem dat11_after_0 (c : Dev nD) (t : Fin cfg11.N) : (dat11 V c).after 0 t = blk11 V c 0 t := by dsimp only [dat11]
theorem dat11_after_1 (c : Dev nD) (t : Fin cfg11.N) : (dat11 V c).after 1 t = blk11 V c 1 t := by dsimp only [dat11]
theorem dat11_after_2 (c : Dev nD) (t : Fin cfg11.N) : (dat11 V c).after 2 t = blk11 V c 2 t := by dsimp only [dat11]
theorem dat11_after_3 (c : Dev nD) (t : Fin cfg11.N) : (dat11 V c).after 3 t = blk11 V c 3 t := by dsimp only [dat11]
theorem dat11_after_4 (c : Dev nD) (t : Fin cfg11.N) :
    (dat11 V c).after 4 t = left11_4 (blk11 V c 0 t) (blk11 V c 1 t) (blk11 V c 2 t) (blk11 V c 3 t) := by dsimp only [dat11]

/-! ## An operand's buffer holds its block at every point

Row block i is fetched when i moves, every fourth point, and stays in its buffer in between; the other three
operands are fetched at every point. Either way the current buffer reads the window's block: the body leaves it in
place. -/

theorem held11_0 (c : Dev nD) (t : Fin cfg11.N) (d) : (dat11 V c).before 0 t d = blk11 V c 0 t :=
  ((dat11 V c).before_in_eq_fetched 0 rfl (fun _ => rfl) (fun _ _ _ => rfl)
    (fun t => by rw [dat11_after_0]; unfold Dat.blockOf blk11; rw [dat11_A]; try rfl) t d).trans
    (by unfold Dat.fetched Dat.blockOf blk11; rw [dat11_A]; try rfl)
theorem held11_1 (c : Dev nD) (t : Fin cfg11.N) (d) : (dat11 V c).before 1 t d = blk11 V c 1 t :=
  ((dat11 V c).before_in_eq_fetched 1 rfl (fun _ => rfl) (fun _ _ _ => rfl)
    (fun t => by rw [dat11_after_1]; unfold Dat.blockOf blk11; rw [dat11_A]; try rfl) t d).trans
    (by unfold Dat.fetched Dat.blockOf blk11; rw [dat11_A]; try rfl)
theorem held11_2 (c : Dev nD) (t : Fin cfg11.N) (d) : (dat11 V c).before 2 t d = blk11 V c 2 t :=
  ((dat11 V c).before_in_eq_fetched 2 rfl (fun _ => rfl) (fun _ _ _ => rfl)
    (fun t => by rw [dat11_after_2]; unfold Dat.blockOf blk11; rw [dat11_A]; try rfl) t d).trans
    (by unfold Dat.fetched Dat.blockOf blk11; rw [dat11_A]; try rfl)
theorem held11_3 (c : Dev nD) (t : Fin cfg11.N) (d) : (dat11 V c).before 3 t d = blk11 V c 3 t :=
  ((dat11 V c).before_in_eq_fetched 3 rfl (fun _ => rfl) (fun _ _ _ => rfl)
    (fun t => by rw [dat11_after_3]; unfold Dat.blockOf blk11; rw [dat11_A]; try rfl) t d).trans
    (by unfold Dat.fetched Dat.blockOf blk11; rw [dat11_A]; try rfl)

/-! ## The body obligation -/

/-- What the pipeline hands the body at point `t`, window by window, -/
def handed11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what it takes back. -/
def returned11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

/-- At any point the operands' buffers read their blocks, so `kernel11` applies; the invariant and what the core
    owes pass through unread. -/
theorem atPoint11 (c : Dev nD) (t : Fin cfg11.N) :
    handed11 V c t ⊢ wp frame (wpE (defs₀ (F := F)) Variants.none c none) Set.univ (bodyAt11 t) (fun _ => returned11 V c t) := by
  unfold handed11 returned11 bodyAt11
  simp only [held11_0, held11_1, held11_2, held11_3]
  rw [show (dat11 V c).Φ t.succ = (dat11 V c).Φ t.castSucc from rfl,
    show (dat11 V c).owesAt () t.succ = (dat11 V c).owesAt () t.castSucc from rfl,
    dat11_after_0, dat11_after_1, dat11_after_2, dat11_after_3, dat11_after_4]
  iintro ⟨HΦ, Ho, ⟨%d0, H0⟩, ⟨%d1, H1⟩, ⟨%d2, H2⟩, ⟨%d3, H3⟩, ⟨%d4, H4⟩⟩
  iapply (kernel11 c Set.univ _ _ _ _ _ _ _ _ _ _ _
    (blk11 V c 0 t) (blk11 V c 1 t) (blk11 V c 2 t) (blk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the region, at every point. -/
theorem body11 (c : Dev nD) : BodyObligation (dat11 (F := F) V c) (defs₀ (F := F)) Variants.none () Set.univ := fun t => by
  rw [bigSep_W11, bigSep_W11]
  exact atPoint11 V c t

end Cert.KernelIdeal.Regs
-- ==== Proof.KI.Region12.lean ====
import proofs.«169176_j23261542875327_2_alg».proof.Proof.Gen.KernelIdeal.Launch
import proofs.«169176_j23261542875327_2_alg».proof.Proof.Gen.KernelIdeal.Skeleton
import proofs.«169176_j23261542875327_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic

-- a whole-block rectangle's membership test walks the long axis once per coordinate
set_option maxRecDepth 65536

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 12: a later layer's fused adjacency products

A row tile of 128 rows. The body forms `A = adj ⊙ EP + mea` on the tile (windows 0, 1, 2, 128x4096 each; `⊙` the
entrywise product) and multiplies it into the two resident 4096x256 operands: `oy = bf16(A) · y` (window 3, bf16,
into window 5) and `oz = A · z` at full precision (window 4, into window 6), each product into a zero
accumulator. -/

/-- Window `w`'s block at grid point `t`, cut out of its array as the region finds it. -/
def blk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! ## The whole-block rectangles the body reads and writes through -/

/-- all of a 128x4096 row tile -/
abbrev tileR12 : Rect S128x4096 := Rect.unit (s := S128x4096) ![0, 0] S128x4096.size inb_S128x4096_S128x4096_0_0
/-- all of a 4096x256 right operand -/
abbrev rhsR12 : Rect S4096x256 := Rect.unit (s := S4096x256) ![0, 0] S4096x256.size inb_S4096x256_S4096x256_0_0
/-- all of a 128x256 product tile -/
abbrev prodR12 : Rect S128x256 := Rect.unit (s := S128x256) ![0, 0] S128x256.size inb_S128x256_S128x256_0_0

/-! ## What the body leaves in the two product buffers -/

/-- Window 5 after the body: the single whole-tile store of `bf16(adj ⊙ EP + mea) · y`. -/
def left12_5 (x0 x1 x2 : Vec F S128x4096 .f32) (x3 : Vec F S4096x256 .bf16) : Vec F S128x256 .f32 :=
  View.canon [⟨prodR12, k12_pay2 (View.ld x0 tileR12) (View.ld x1 tileR12) (View.ld x2 tileR12) (View.ld x3 rhsR12)⟩]

/-- Window 6 after the body: the single whole-tile store of `(adj ⊙ EP + mea) · z`. -/
def left12_6 (x0 x1 x2 : Vec F S128x4096 .f32) (x4 : Vec F S4096x256 .f32) : Vec F S128x256 .f32 :=
  View.canon [⟨prodR12, k12_pay3 (View.ld x0 tileR12) (View.ld x1 tileR12) (View.ld x2 tileR12) (View.ld x4 rhsR12)⟩]

/-- One whole-tile store covers the product tile. -/
theorem prodCover12 (p : Vec F S128x256 .f32) (y : S128x256.Idx) :
    ∃ pc ∈ ([⟨prodR12, p⟩] : List (View.Piece (Elt F) S128x256 .f32)), y ∈ pc.1.set :=
  View.cover_of_tiled [⟨prodR12, p⟩] S128x256.size (by rfl) y

/-! ## The body on whole staging buffers -/

set_option maxHeartbeats 4000000 in
/-- Run on seven whole staging buffers, the five operands' reading `x0 … x4` and the two products' holding anything,
    the body returns with the operands as they were and the products at `left12_5`, `left12_6` of them. -/
theorem kernel12 (c : Dev nD) (E : Set ℕ) (i : grid12.Coords)
    (a0 : Memref sig .tc .vmem S128x4096 .f32) (h0 : a0.IsWhole) (a1 : Memref sig .tc .vmem S128x4096 .f32) (h1 : a1.IsWhole)
    (a2 : Memref sig .tc .vmem S128x4096 .f32) (h2 : a2.IsWhole)
    (a3 : Memref sig .tc .vmem S4096x256 .bf16) (h3 : a3.IsWhole) (a4 : Memref sig .tc .vmem S4096x256 .f32) (h4 : a4.IsWhole)
    (a5 : Memref sig .tc .vmem S128x256 .f32) (h5 : a5.IsWhole) (a6 : Memref sig .tc .vmem S128x256 .f32) (h6 : a6.IsWhole)
    (x0 x1 x2 : Vec F S128x4096 .f32) (x3 : Vec F S4096x256 .bf16) (x4 : Vec F S4096x256 .f32) (K : PUnit → sProp 𝕄) :
    iprop(owns (c : Thread nD τ) a0 fullShare x0 ∗ owns (c : Thread nD τ) a1 fullShare x1
        ∗ owns (c : Thread nD τ) a2 fullShare x2
        ∗ owns (c : Thread nD τ) a3 fullShare x3 ∗ owns (c : Thread nD τ) a4 fullShare x4
        ∗ (∃ d, owns (c : Thread nD τ) a5 fullShare d) ∗ (∃ d, owns (c : Thread nD τ) a6 fullShare d)
        ∗ (iprop(owns (c : Thread nD τ) a0 fullShare x0 ∗ owns (c : Thread nD τ) a1 fullShare x1
            ∗ owns (c : Thread nD τ) a2 fullShare x2
            ∗ owns (c : Thread nD τ) a3 fullShare x3 ∗ owns (c : Thread nD τ) a4 fullShare x4
            ∗ owns (c : Thread nD τ) a5 fullShare (left12_5 x0 x1 x2 x3)
            ∗ owns (c : Thread nD τ) a6 fullShare (left12_6 x0 x1 x2 x4)) -∗ K ⟨⟩))
      ⊢ wp frame (wpE (defs₀ (F := F)) Variants.none c none) E (cc12__fused_a_kernel i a0 h0 a1 h1 a2 h2 a3 h3 a4 h4 a5 h5 a6 h6) K := by
  simp only [cc12__fused_a_kernel_eq_skeleton]; unfold cc12__fused_a_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (prodCover12 _)
  iexists _; isplitr
  swap; · iexact H6
  ipureintro
  exact View.read_writes_eq_canon _ _ _ (prodCover12 _)

/-! ## The proof data -/

/-- Core `c`'s proof data for the region: the arrays as found; after the body at point `t` each operand's buffer
    still at its block, each product's at `left12_w` of the operand blocks there; the invariant the scoped rest and
    the generator register, untouched; nothing owed; whole shares. -/
def dat12 (c : Dev nD) : Dat τ (Elt F) Unit ℕ (UR sig nD τ) ℕ cfg12 c where
  A w := V c (Pipeline.arrRef spec12 w)
  after w t := match w with
    | ⟨0, _⟩ => blk12 V c 0 t
    | ⟨1, _⟩ => blk12 V c 1 t
    | ⟨2, _⟩ => blk12 V c 2 t
    | ⟨3, _⟩ => blk12 V c 3 t
    | ⟨4, _⟩ => blk12 V c 4 t
    | ⟨5, _⟩ => left12_5 (blk12 V c 0 t) (blk12 V c 1 t) (blk12 V c 2 t) (blk12 V c 3 t)
    | ⟨6, _⟩ => left12_6 (blk12 V c 0 t) (blk12 V c 1 t) (blk12 V c 2 t) (blk12 V c 4 t)
  Φ _ := Pipeline.ΦA spec12 c
  q _ := fullShare
  owed _ := 0

theorem dat12_A (c : Dev nD) (w : Fin cfg12.W) : (dat12 V c).A w = V c (Pipeline.arrRef spec12 w) := by
  dsimp only [dat12]

theorem dat12_after_0 (c : Dev nD) (t : Fin cfg12.N) : (dat12 V c).after 0 t = blk12 V c 0 t := by dsimp only [dat12]
theorem dat12_after_1 (c : Dev nD) (t : Fin cfg12.N) : (dat12 V c).after 1 t = blk12 V c 1 t := by dsimp only [dat12]
theorem dat12_after_2 (c : Dev nD) (t : Fin cfg12.N) : (dat12 V c).after 2 t = blk12 V c 2 t := by dsimp only [dat12]
theorem dat12_after_3 (c : Dev nD) (t : Fin cfg12.N) : (dat12 V c).after 3 t = blk12 V c 3 t := by dsimp only [dat12]
theorem dat12_after_4 (c : Dev nD) (t : Fin cfg12.N) : (dat12 V c).after 4 t = blk12 V c 4 t := by dsimp only [dat12]
theorem dat12_after_5 (c : Dev nD) (t : Fin cfg12.N) :
    (dat12 V c).after 5 t = left12_5 (blk12 V c 0 t) (blk12 V c 1 t) (blk12 V c 2 t) (blk12 V c 3 t) := by dsimp only [dat12]
theorem dat12_after_6 (c : Dev nD) (t : Fin cfg12.N) :
    (dat12 V c).after 6 t = left12_6 (blk12 V c 0 t) (blk12 V c 1 t) (blk12 V c 2 t) (blk12 V c 4 t) := by dsimp only [dat12]

/-! ## An operand's buffer holds its block at every point

The three row tiles are fetched at every point; the two right operands are fetched at the first point only and
their block index never moves. Either way the current buffer reads the window's block: the body leaves it in place. -/

theorem held12_0 (c : Dev nD) (t : Fin cfg12.N) (d) : (dat12 V c).before 0 t d = blk12 V c 0 t :=
  ((dat12 V c).before_in_eq_fetched 0 rfl (fun _ => rfl) (fun _ _ _ => rfl)
    (fun t => by rw [dat12_after_0]; unfold Dat.blockOf blk12; rw [dat12_A]; try rfl) t d).trans
    (by unfold Dat.fetched Dat.blockOf blk12; rw [dat12_A]; try rfl)
theorem held12_1 (c : Dev nD) (t : Fin cfg12.N) (d) : (dat12 V c).before 1 t d = blk12 V c 1 t :=
  ((dat12 V c).before_in_eq_fetched 1 rfl (fun _ => rfl) (fun _ _ _ => rfl)
    (fun t => by rw [dat12_after_1]; unfold Dat.blockOf blk12; rw [dat12_A]; try rfl) t d).trans
    (by unfold Dat.fetched Dat.blockOf blk12; rw [dat12_A]; try rfl)
theorem held12_2 (c : Dev nD) (t : Fin cfg12.N) (d) : (dat12 V c).before 2 t d = blk12 V c 2 t :=
  ((dat12 V c).before_in_eq_fetched 2 rfl (fun _ => rfl) (fun _ _ _ => rfl)
    (fun t => by rw [dat12_after_2]; unfold Dat.blockOf blk12; rw [dat12_A]; try rfl) t d).trans
    (by unfold Dat.fetched Dat.blockOf blk12; rw [dat12_A]; try rfl)
theorem held12_3 (c : Dev nD) (t : Fin cfg12.N) (d) : (dat12 V c).before 3 t d = blk12 V c 3 t :=
  ((dat12 V c).before_in_eq_fetched 3 rfl (fun _ => rfl) (fun _ _ _ => rfl)
    (fun t => by rw [dat12_after_3]; unfold Dat.blockOf blk12; rw [dat12_A]; try rfl) t d).trans
    (by unfold Dat.fetched Dat.blockOf blk12; rw [dat12_A]; try rfl)
theorem held12_4 (c : Dev nD) (t : Fin cfg12.N) (d) : (dat12 V c).before 4 t d = blk12 V c 4 t :=
  ((dat12 V c).before_in_eq_fetched 4 rfl (fun _ => rfl) (fun _ _ _ => rfl)
    (fun t => by rw [dat12_after_4]; unfold Dat.blockOf blk12; rw [dat12_A]; try rfl) t d).trans
    (by unfold Dat.fetched Dat.blockOf blk12; rw [dat12_A]; try rfl)

/-! ## The body obligation -/

/-- What the pipeline hands the body at point `t`, window by window, -/
def handed12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d)))

/-- and what it takes back. -/
def returned12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t))

/-- At any point the operands' buffers read their blocks, so `kernel12` applies; the invariant and what the core
    owes pass through unread. -/
theorem atPoint12 (c : Dev nD) (t : Fin cfg12.N) :
    handed12 V c t ⊢ wp frame (wpE (defs₀ (F := F)) Variants.none c none) Set.univ (bodyAt12 t) (fun _ => returned12 V c t) := by
  unfold handed12 returned12 bodyAt12
  simp only [held12_0, held12_1, held12_2, held12_3, held12_4]
  rw [show (dat12 V c).Φ t.succ = (dat12 V c).Φ t.castSucc from rfl,
    show (dat12 V c).owesAt () t.succ = (dat12 V c).owesAt () t.castSucc from rfl,
    dat12_after_0, dat12_after_1, dat12_after_2, dat12_after_3, dat12_after_4, dat12_after_5, dat12_after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel12 c Set.univ _ _ _ _ _ _ _ _ _ _ _ _ _ _ _
    (blk12 V c 0 t) (blk12 V c 1 t) (blk12 V c 2 t) (blk12 V c 3 t) (blk12 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the region, at every point. -/
theorem body12 (c : Dev nD) : BodyObligation (dat12 (F := F) V c) (defs₀ (F := F)) Variants.none () Set.univ := fun t => by
  rw [bigSep_W12, bigSep_W12]
  exact atPoint12 V c t

end Cert.KernelIdeal.Regs
-- ==== Proof.KI.Region13.lean ====
/- Region 13 of @main, body side.

   A tall product with the left factor transposed,  out = Aᵀ · B , computed in eight row tiles of the result. Window 0
   is the matrix A (4096 x 4096, f32) cut into eight 4096 x 512 column strips; window 1 is the right matrix B
   (4096 x 256, f32), one block that is the whole array and therefore stays in its buffer from the first grid point on;
   window 2 is the result (4096 x 256, f32) in eight 512 x 256 row tiles. At a grid point the body reads the strip and
   B whole, rounds both to bf16, and writes the output tile whole:   out_tile = bf16(A_strip)ᵀ · bf16(B) ,  the sum
   running over the 4096 rows the strip and B share, in f32 from zero.
   Nothing is carried from one grid point to the next, so what the body leaves in the output tile is a function of
   the two input blocks at that point alone. -/
import proofs.«169176_j23261542875327_2_alg».proof.Proof.Gen.KernelIdeal.Launch
import proofs.«169176_j23261542875327_2_alg».proof.Proof.Gen.KernelIdeal.Skeleton
import proofs.«169176_j23261542875327_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks -/

/-- Window `w`'s block at grid point `t`, cut out of its array as the region finds it. -/
def blk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Each of the three blocks as a rectangle of itself: the body loads and stores whole blocks only. -/
abbrev lhs13 : Rect S4096x512 := Rect.unit (s := S4096x512) ![0, 0] S4096x512.size inb_S4096x512_S4096x512_0_0
abbrev rhs13 : Rect S4096x256 := Rect.unit (s := S4096x256) ![0, 0] S4096x256.size inb_S4096x256_S4096x256_0_0
abbrev res13 : Rect S512x256 := Rect.unit (s := S512x256) ![0, 0] S512x256.size inb_S512x256_S512x256_0_0

/-- The output tile after the body: one whole-tile store of the product of the transposed strip `a` with `b`, both rounded to bf16, summed over their common 4096 rows from zero. -/
def left13_2 (a : Vec F S4096x512 .f32) (b : Vec F S4096x256 .f32) : Vec F S512x256 .f32 :=
  View.canon [⟨res13, k13_pay1 (View.ld a lhs13) (View.ld b rhs13)⟩]

/-- One whole-tile store fills the tile, whatever is stored. -/
theorem fills13_2 (p : Vec F S512x256 .f32) (y : S512x256.Idx) :
    ∃ pc ∈ ([⟨res13, p⟩] : List (View.Piece (Elt F) S512x256 .f32)), y ∈ pc.1.set :=
  View.cover_of_tiled [⟨res13, p⟩] S512x256.size (by rfl) y

/-! ## The body on three whole blocks -/

set_option maxHeartbeats 1000000 in
/-- On whole block buffers — the inputs reading `a` and `b`, the output holding anything — the body ends with the
    inputs as they were and the output reading `left13_2 a b`. (It also loads the output tile before overwriting it;
    the loaded value is not used.) -/
theorem run13 (c : Dev nD) (E : Set ℕ) (i : grid13.Coords)
    (a0 : Memref sig .tc .vmem S4096x512 .f32) (h0 : a0.IsWhole) (a1 : Memref sig .tc .vmem S4096x256 .f32) (h1 : a1.IsWhole)
    (a2 : Memref sig .tc .vmem S512x256 .f32) (h2 : a2.IsWhole)
    (a : Vec F S4096x512 .f32) (b : Vec F S4096x256 .f32) (K : PUnit → sProp 𝕄) :
    iprop(owns (c : Thread nD τ) a0 fullShare a ∗ owns (c : Thread nD τ) a1 fullShare b ∗ (∃ d, owns (c : Thread nD τ) a2 fullShare d)
        ∗ (iprop(owns (c : Thread nD τ) a0 fullShare a ∗ owns (c : Thread nD τ) a1 fullShare b
            ∗ owns (c : Thread nD τ) a2 fullShare (left13_2 a b)) -∗ K ⟨⟩))
      ⊢ wp frame (wpE (defs₀ (F := F)) Variants.none c none) E (cc13__matmul_tall_kernel i a0 h0 a1 h1 a2 h2) K := by
  simp only [cc13__matmul_tall_kernel_eq_skeleton]; unfold cc13__matmul_tall_kernel_skel
  unfold owns
  iintro ⟨⟨%f0, %e0, H0⟩, ⟨%f1, %e1, H1⟩, ⟨%d2, %f2, -, H2⟩, Hk⟩
  subst e0; subst e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fills13_2 _)

/-! ## The proof data -/

/-- Pipeline 13's proof data on core `c`: the arrays as the region finds them; after the body at point `t` the input
    buffers still at their blocks and the output buffer at `left13_2` of the two input blocks; the invariant that of a
    body keeping nothing between points; nothing owed; full shares. -/
def dat13 (c : Dev nD) : Dat τ (Elt F) Unit ℕ (UR sig nD τ) ℕ cfg13 c where
  A w := V c (Pipeline.arrRef spec13 w)
  after w t := match w with
    | ⟨0, _⟩ => blk13 V c 0 t
    | ⟨1, _⟩ => blk13 V c 1 t
    | ⟨2, _⟩ => left13_2 (blk13 V c 0 t) (blk13 V c 1 t)
  Φ _ := Pipeline.ΦA spec13 c
  q _ := fullShare
  owed _ := 0

theorem dat13_A (c : Dev nD) (w : Fin cfg13.W) : (dat13 V c).A w = V c (Pipeline.arrRef spec13 w) := by
  dsimp only [dat13]
theorem dat13_after_0 (c : Dev nD) (t : Fin cfg13.N) : (dat13 V c).after 0 t = blk13 V c 0 t := by dsimp only [dat13]
theorem dat13_after_1 (c : Dev nD) (t : Fin cfg13.N) : (dat13 V c).after 1 t = blk13 V c 1 t := by dsimp only [dat13]
theorem dat13_after_2 (c : Dev nD) (t : Fin cfg13.N) :
    (dat13 V c).after 2 t = left13_2 (blk13 V c 0 t) (blk13 V c 1 t) := by dsimp only [dat13]

/-! ## What the body finds in the input buffers -/

/-- The left factor's buffer holds its column strip of the left matrix at every point: the body leaves it in place, and it is fetched
    afresh at every point. -/
theorem finds13_0 (c : Dev nD) (t : Fin cfg13.N) (d) : (dat13 V c).before 0 t d = blk13 V c 0 t :=
  ((dat13 V c).before_in_eq_fetched 0 rfl (fun _ => rfl) (fun _ _ _ => rfl)
      (fun t => by rw [dat13_after_0]; unfold Dat.blockOf blk13; rw [dat13_A]; try rfl) t d).trans
    (by unfold Dat.fetched Dat.blockOf blk13; rw [dat13_A]; try rfl)

/-- The right factor's buffer holds the whole right matrix at every point: fetched at the first point only, its block
    index never moves afterwards and the body leaves it in place. -/
theorem finds13_1 (c : Dev nD) (t : Fin cfg13.N) (d) : (dat13 V c).before 1 t d = blk13 V c 1 t :=
  ((dat13 V c).before_in_eq_fetched 1 rfl (fun _ => rfl) (fun _ _ _ => rfl)
      (fun t => by rw [dat13_after_1]; unfold Dat.blockOf blk13; rw [dat13_A]; try rfl) t d).trans
    (by unfold Dat.fetched Dat.blockOf blk13; rw [dat13_A]; try rfl)

/-! ## The obligation at a grid point -/

/-- At any point: the input buffers hold their blocks (`finds13_0`, `finds13_1`), so `run13` applies to the three
    current buffers; the invariant and what the core owes are not touched. -/
theorem body13 (c : Dev nD) : BodyObligation (dat13 (F := F) V c) (defs₀ (F := F)) Variants.none () Set.univ := fun t => by
  rw [bigSep_W13, bigSep_W13]
  show iprop((dat13 V c).Φ t.castSucc ∗ (dat13 V c).owesAt () t.castSucc
      ∗ (∃ d, owns (c : Thread nD τ) (st13_0 t) fullShare ((dat13 V c).before 0 t d))
      ∗ (∃ d, owns (c : Thread nD τ) (st13_1 t) fullShare ((dat13 V c).before 1 t d))
      ∗ (∃ d, owns (c : Thread nD τ) (st13_2 t) fullShare ((dat13 V c).before 2 t d)))
    ⊢ wp frame (wpE (defs₀ (F := F)) Variants.none c none) Set.univ (bodyAt13 t) (fun _ =>
      iprop((dat13 V c).Φ t.castSucc ∗ (dat13 V c).owesAt () t.castSucc
        ∗ owns (c : Thread nD τ) (st13_0 t) fullShare ((dat13 V c).after 0 t)
        ∗ owns (c : Thread nD τ) (st13_1 t) fullShare ((dat13 V c).after 1 t)
        ∗ owns (c : Thread nD τ) (st13_2 t) fullShare ((dat13 V c).after 2 t)))
  simp only [finds13_0, finds13_1]
  rw [dat13_after_0, dat13_after_1, dat13_after_2]
  unfold bodyAt13
  iintro ⟨HΦ, Ho, ⟨%d0, H0⟩, ⟨%d1, H1⟩, ⟨%d2, H2⟩⟩
  iapply (run13 c Set.univ _ _ _ _ _ _ _ (blk13 V c 0 t) (blk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Regs
-- ==== Proof.KI.Region14.lean ====
/- Region 14 of @main, body side.

   A tall product  out = A · B  computed in eight row tiles. Window 0 is the left matrix A (4096 x 4096, already in
   bf16) cut into eight 512 x 4096 row tiles; window 1 is the right matrix B (4096 x 256, f32), one block that is the
   whole array and therefore stays in its buffer from the first grid point on; window 2 is the result (4096 x 256, f32)
   in eight 512 x 256 row tiles. At a grid point the body reads the row tile and B whole, rounds B to bf16, and writes
   the output tile whole:   out_tile = A_tile · bf16(B) ,  the products summed in f32 from zero.
   Nothing is carried from one grid point to the next, so what the body leaves in the output tile is a function of
   the two input blocks at that point alone. -/
import proofs.«169176_j23261542875327_2_alg».proof.Proof.Gen.KernelIdeal.Launch
import proofs.«169176_j23261542875327_2_alg».proof.Proof.Gen.KernelIdeal.Skeleton
import proofs.«169176_j23261542875327_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks -/

/-- Window `w`'s block at grid point `t`, cut out of its array as the region finds it. -/
def blk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Each of the three blocks as a rectangle of itself: the body loads and stores whole blocks only. -/
abbrev lhs14 : Rect S512x4096 := Rect.unit (s := S512x4096) ![0, 0] S512x4096.size inb_S512x4096_S512x4096_0_0
abbrev rhs14 : Rect S4096x256 := Rect.unit (s := S4096x256) ![0, 0] S4096x256.size inb_S4096x256_S4096x256_0_0
abbrev res14 : Rect S512x256 := Rect.unit (s := S512x256) ![0, 0] S512x256.size inb_S512x256_S512x256_0_0

/-- The output tile after the body: one whole-tile store of the product of the row tile `a` with `b` rounded to bf16, summed from zero. -/
def left14_2 (a : Vec F S512x4096 .bf16) (b : Vec F S4096x256 .f32) : Vec F S512x256 .f32 :=
  View.canon [⟨res14, k14_pay1 (View.ld a lhs14) (View.ld b rhs14)⟩]

/-- One whole-tile store fills the tile, whatever is stored. -/
theorem fills14_2 (p : Vec F S512x256 .f32) (y : S512x256.Idx) :
    ∃ pc ∈ ([⟨res14, p⟩] : List (View.Piece (Elt F) S512x256 .f32)), y ∈ pc.1.set :=
  View.cover_of_tiled [⟨res14, p⟩] S512x256.size (by rfl) y

/-! ## The body on three whole blocks -/

set_option maxHeartbeats 1000000 in
/-- On whole block buffers — the inputs reading `a` and `b`, the output holding anything — the body ends with the
    inputs as they were and the output reading `left14_2 a b`. (It also loads the output tile before overwriting it;
    the loaded value is not used.) -/
theorem run14 (c : Dev nD) (E : Set ℕ) (i : grid14.Coords)
    (a0 : Memref sig .tc .vmem S512x4096 .bf16) (h0 : a0.IsWhole) (a1 : Memref sig .tc .vmem S4096x256 .f32) (h1 : a1.IsWhole)
    (a2 : Memref sig .tc .vmem S512x256 .f32) (h2 : a2.IsWhole)
    (a : Vec F S512x4096 .bf16) (b : Vec F S4096x256 .f32) (K : PUnit → sProp 𝕄) :
    iprop(owns (c : Thread nD τ) a0 fullShare a ∗ owns (c : Thread nD τ) a1 fullShare b ∗ (∃ d, owns (c : Thread nD τ) a2 fullShare d)
        ∗ (iprop(owns (c : Thread nD τ) a0 fullShare a ∗ owns (c : Thread nD τ) a1 fullShare b
            ∗ owns (c : Thread nD τ) a2 fullShare (left14_2 a b)) -∗ K ⟨⟩))
      ⊢ wp frame (wpE (defs₀ (F := F)) Variants.none c none) E (cc14__matmul_tall_kernel i a0 h0 a1 h1 a2 h2) K := by
  simp only [cc14__matmul_tall_kernel_eq_skeleton]; unfold cc14__matmul_tall_kernel_skel
  unfold owns
  iintro ⟨⟨%f0, %e0, H0⟩, ⟨%f1, %e1, H1⟩, ⟨%d2, %f2, -, H2⟩, Hk⟩
  subst e0; subst e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fills14_2 _)

/-! ## The proof data -/

/-- Pipeline 14's proof data on core `c`: the arrays as the region finds them; after the body at point `t` the input
    buffers still at their blocks and the output buffer at `left14_2` of the two input blocks; the invariant that of a
    body keeping nothing between points; nothing owed; full shares. -/
def dat14 (c : Dev nD) : Dat τ (Elt F) Unit ℕ (UR sig nD τ) ℕ cfg14 c where
  A w := V c (Pipeline.arrRef spec14 w)
  after w t := match w with
    | ⟨0, _⟩ => blk14 V c 0 t
    | ⟨1, _⟩ => blk14 V c 1 t
    | ⟨2, _⟩ => left14_2 (blk14 V c 0 t) (blk14 V c 1 t)
  Φ _ := Pipeline.ΦA spec14 c
  q _ := fullShare
  owed _ := 0

theorem dat14_A (c : Dev nD) (w : Fin cfg14.W) : (dat14 V c).A w = V c (Pipeline.arrRef spec14 w) := by
  dsimp only [dat14]
theorem dat14_after_0 (c : Dev nD) (t : Fin cfg14.N) : (dat14 V c).after 0 t = blk14 V c 0 t := by dsimp only [dat14]
theorem dat14_after_1 (c : Dev nD) (t : Fin cfg14.N) : (dat14 V c).after 1 t = blk14 V c 1 t := by dsimp only [dat14]
theorem dat14_after_2 (c : Dev nD) (t : Fin cfg14.N) :
    (dat14 V c).after 2 t = left14_2 (blk14 V c 0 t) (blk14 V c 1 t) := by dsimp only [dat14]

/-! ## What the body finds in the input buffers -/

/-- The left factor's buffer holds its row tile of the left matrix at every point: the body leaves it in place, and it is fetched
    afresh at every point. -/
theorem finds14_0 (c : Dev nD) (t : Fin cfg14.N) (d) : (dat14 V c).before 0 t d = blk14 V c 0 t :=
  ((dat14 V c).before_in_eq_fetched 0 rfl (fun _ => rfl) (fun _ _ _ => rfl)
      (fun t => by rw [dat14_after_0]; unfold Dat.blockOf blk14; rw [dat14_A]; try rfl) t d).trans
    (by unfold Dat.fetched Dat.blockOf blk14; rw [dat14_A]; try rfl)

/-- The right factor's buffer holds the whole right matrix at every point: fetched at the first point only, its block
    index never moves afterwards and the body leaves it in place. -/
theorem finds14_1 (c : Dev nD) (t : Fin cfg14.N) (d) : (dat14 V c).before 1 t d = blk14 V c 1 t :=
  ((dat14 V c).before_in_eq_fetched 1 rfl (fun _ => rfl) (fun _ _ _ => rfl)
      (fun t => by rw [dat14_after_1]; unfold Dat.blockOf blk14; rw [dat14_A]; try rfl) t d).trans
    (by unfold Dat.fetched Dat.blockOf blk14; rw [dat14_A]; try rfl)

/-! ## The obligation at a grid point -/

/-- At any point: the input buffers hold their blocks (`finds14_0`, `finds14_1`), so `run14` applies to the three
    current buffers; the invariant and what the core owes are not touched. -/
theorem body14 (c : Dev nD) : BodyObligation (dat14 (F := F) V c) (defs₀ (F := F)) Variants.none () Set.univ := fun t => by
  rw [bigSep_W14, bigSep_W14]
  show iprop((dat14 V c).Φ t.castSucc ∗ (dat14 V c).owesAt () t.castSucc
      ∗ (∃ d, owns (c : Thread nD τ) (st14_0 t) fullShare ((dat14 V c).before 0 t d))
      ∗ (∃ d, owns (c : Thread nD τ) (st14_1 t) fullShare ((dat14 V c).before 1 t d))
      ∗ (∃ d, owns (c : Thread nD τ) (st14_2 t) fullShare ((dat14 V c).before 2 t d)))
    ⊢ wp frame (wpE (defs₀ (F := F)) Variants.none c none) Set.univ (bodyAt14 t) (fun _ =>
      iprop((dat14 V c).Φ t.castSucc ∗ (dat14 V c).owesAt () t.castSucc
        ∗ owns (c : Thread nD τ) (st14_0 t) fullShare ((dat14 V c).after 0 t)
        ∗ owns (c : Thread nD τ) (st14_1 t) fullShare ((dat14 V c).after 1 t)
        ∗ owns (c : Thread nD τ) (st14_2 t) fullShare ((dat14 V c).after 2 t)))
  simp only [finds14_0, finds14_1]
  rw [dat14_after_0, dat14_after_1, dat14_after_2]
  unfold bodyAt14
  iintro ⟨HΦ, Ho, ⟨%d0, H0⟩, ⟨%d1, H1⟩, ⟨%d2, H2⟩⟩
  iapply (run14 c Set.univ _ _ _ _ _ _ _ (blk14 V c 0 t) (blk14 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Regs
-- ==== Proof.KI.Region15.lean ====
import proofs.«169176_j23261542875327_2_alg».proof.Proof.Gen.KernelIdeal.Launch
import proofs.«169176_j23261542875327_2_alg».proof.Proof.Gen.KernelIdeal.Skeleton
import proofs.«169176_j23261542875327_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic

-- a whole-block rectangle's membership test walks the long axis once per coordinate
set_option maxRecDepth 65536

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 15: the edge-potential update on a 1024x1024 tile

At tile (i, j) of a 4x4 grid the body forms `EP = bf16(yᵢ) · bf16(yⱼ)ᵀ − mea − ½ M`: windows 0 and 1 are the
1024x256 row blocks i and j of ONE array y, windows 2 and 3 the tiles of mea and of M, window 4 the tile of EP;
the product goes into a zero accumulator. Row block i only moves every fourth point. -/

/-- Window `w`'s block at grid point `t`, cut out of its array as the region finds it. -/
def blk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-! ## The whole-block rectangles the body reads and writes through -/

/-- all of a 1024x256 row block of y -/
abbrev rowsR15 : Rect S1024x256 := Rect.unit (s := S1024x256) ![0, 0] S1024x256.size inb_S1024x256_S1024x256_0_0
/-- all of a 1024x1024 tile -/
abbrev sqR15 : Rect S1024x1024 := Rect.unit (s := S1024x1024) ![0, 0] S1024x1024.size inb_S1024x1024_S1024x1024_0_0

/-! ## What the body leaves in the EP tile's buffer -/

/-- Window 4 after the body: the single whole-tile store of `bf16(yᵢ) · bf16(yⱼ)ᵀ − mea − ½ M`. -/
def left15_4 (x0 x1 : Vec F S1024x256 .f32) (x2 x3 : Vec F S1024x1024 .f32) : Vec F S1024x1024 .f32 :=
  View.canon [⟨sqR15, k15_pay1 (View.ld x0 rowsR15) (View.ld x1 rowsR15) (View.ld x2 sqR15) (View.ld x3 sqR15)⟩]

/-- One whole-tile store covers the tile. -/
theorem sqCover15 (p : Vec F S1024x1024 .f32) (y : S1024x1024.Idx) :
    ∃ pc ∈ ([⟨sqR15, p⟩] : List (View.Piece (Elt F) S1024x1024 .f32)), y ∈ pc.1.set :=
  View.cover_of_tiled [⟨sqR15, p⟩] S1024x1024.size (by rfl) y

/-! ## The body on whole staging buffers -/

set_option maxHeartbeats 4000000 in
/-- Run on five whole staging buffers, the four operands' reading `x0 … x3` and the result's holding anything, the
    body returns with the operands as they were and the result at `left15_4` of them. -/
theorem kernel15 (c : Dev nD) (E : Set ℕ) (i : grid15.Coords)
    (a0 : Memref sig .tc .vmem S1024x256 .f32) (h0 : a0.IsWhole) (a1 : Memref sig .tc .vmem S1024x256 .f32) (h1 : a1.IsWhole)
    (a2 : Memref sig .tc .vmem S1024x1024 .f32) (h2 : a2.IsWhole) (a3 : Memref sig .tc .vmem S1024x1024 .f32) (h3 : a3.IsWhole)
    (a4 : Memref sig .tc .vmem S1024x1024 .f32) (h4 : a4.IsWhole)
    (x0 x1 : Vec F S1024x256 .f32) (x2 x3 : Vec F S1024x1024 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (left15_4 x0 x1 x2 x3)) -∗ K ⟨⟩))
      ⊢ wp frame (wpE (defs₀ (F := F)) Variants.none c none) E (cc15__fused_update_ep_kernel i a0 h0 a1 h1 a2 h2 a3 h3 a4 h4) K := by
  simp only [cc15__fused_update_ep_kernel_eq_skeleton]; unfold cc15__fused_update_ep_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (sqCover15 _)

/-! ## The proof data -/

/-- Core `c`'s proof data for the region: the arrays as found; after the body at point `t` each operand's buffer
    still at its block and the result's at `left15_4` of the operand blocks there; the invariant the scoped rest and
    the generator register, untouched; nothing owed. The two windows onto y each hold half of its share, the other
    windows their arrays' whole shares. -/
def dat15 (c : Dev nD) : Dat τ (Elt F) Unit ℕ (UR sig nD τ) ℕ cfg15 c where
  A w := V c (Pipeline.arrRef spec15 w)
  after w t := match w with
    | ⟨0, _⟩ => blk15 V c 0 t
    | ⟨1, _⟩ => blk15 V c 1 t
    | ⟨2, _⟩ => blk15 V c 2 t
    | ⟨3, _⟩ => blk15 V c 3 t
    | ⟨4, _⟩ => left15_4 (blk15 V c 0 t) (blk15 V c 1 t) (blk15 V c 2 t) (blk15 V c 3 t)
  Φ _ := Pipeline.ΦA spec15 c
  q := fun
    | ⟨0, _⟩ => fullShare.left
    | ⟨1, _⟩ => fullShare.right
    | ⟨2, _⟩ => fullShare
    | ⟨3, _⟩ => fullShare
    | ⟨4, _⟩ => fullShare
  owed _ := 0

theorem dat15_A (c : Dev nD) (w : Fin cfg15.W) : (dat15 V c).A w = V c (Pipeline.arrRef spec15 w) := by
  dsimp only [dat15]

theorem dat15_after_0 (c : Dev nD) (t : Fin cfg15.N) : (dat15 V c).after 0 t = blk15 V c 0 t := by dsimp only [dat15]
theorem dat15_after_1 (c : Dev nD) (t : Fin cfg15.N) : (dat15 V c).after 1 t = blk15 V c 1 t := by dsimp only [dat15]
theorem dat15_after_2 (c : Dev nD) (t : Fin cfg15.N) : (dat15 V c).after 2 t = blk15 V c 2 t := by dsimp only [dat15]
theorem dat15_after_3 (c : Dev nD) (t : Fin cfg15.N) : (dat15 V c).after 3 t = blk15 V c 3 t := by dsimp only [dat15]
theorem dat15_after_4 (c : Dev nD) (t : Fin cfg15.N) :
    (dat15 V c).after 4 t = left15_4 (blk15 V c 0 t) (blk15 V c 1 t) (blk15 V c 2 t) (blk15 V c 3 t) := by dsimp only [dat15]

/-! ## An operand's buffer holds its block at every point

Row block i is fetched when i moves, every fourth point, and stays in its buffer in between; the other three
operands are fetched at every point. Either way the current buffer reads the window's block: the body leaves it in
place. -/

theorem held15_0 (c : Dev nD) (t : Fin cfg15.N) (d) : (dat15 V c).before 0 t d = blk15 V c 0 t :=
  ((dat15 V c).before_in_eq_fetched 0 rfl (fun _ => rfl) (fun _ _ _ => rfl)
    (fun t => by rw [dat15_after_0]; unfold Dat.blockOf blk15; rw [dat15_A]; try rfl) t d).trans
    (by unfold Dat.fetched Dat.blockOf blk15; rw [dat15_A]; try rfl)
theorem held15_1 (c : Dev nD) (t : Fin cfg15.N) (d) : (dat15 V c).before 1 t d = blk15 V c 1 t :=
  ((dat15 V c).before_in_eq_fetched 1 rfl (fun _ => rfl) (fun _ _ _ => rfl)
    (fun t => by rw [dat15_after_1]; unfold Dat.blockOf blk15; rw [dat15_A]; try rfl) t d).trans
    (by unfold Dat.fetched Dat.blockOf blk15; rw [dat15_A]; try rfl)
theorem held15_2 (c : Dev nD) (t : Fin cfg15.N) (d) : (dat15 V c).before 2 t d = blk15 V c 2 t :=
  ((dat15 V c).before_in_eq_fetched 2 rfl (fun _ => rfl) (fun _ _ _ => rfl)
    (fun t => by rw [dat15_after_2]; unfold Dat.blockOf blk15; rw [dat15_A]; try rfl) t d).trans
    (by unfold Dat.fetched Dat.blockOf blk15; rw [dat15_A]; try rfl)
theorem held15_3 (c : Dev nD) (t : Fin cfg15.N) (d) : (dat15 V c).before 3 t d = blk15 V c 3 t :=
  ((dat15 V c).before_in_eq_fetched 3 rfl (fun _ => rfl) (fun _ _ _ => rfl)
    (fun t => by rw [dat15_after_3]; unfold Dat.blockOf blk15; rw [dat15_A]; try rfl) t d).trans
    (by unfold Dat.fetched Dat.blockOf blk15; rw [dat15_A]; try rfl)

/-! ## The body obligation -/

/-- What the pipeline hands the body at point `t`, window by window, -/
def handed15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d)))

/-- and what it takes back. -/
def returned15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t))

/-- At any point the operands' buffers read their blocks, so `kernel15` applies; the invariant and what the core
    owes pass through unread. -/
theorem atPoint15 (c : Dev nD) (t : Fin cfg15.N) :
    handed15 V c t ⊢ wp frame (wpE (defs₀ (F := F)) Variants.none c none) Set.univ (bodyAt15 t) (fun _ => returned15 V c t) := by
  unfold handed15 returned15 bodyAt15
  simp only [held15_0, held15_1, held15_2, held15_3]
  rw [show (dat15 V c).Φ t.succ = (dat15 V c).Φ t.castSucc from rfl,
    show (dat15 V c).owesAt () t.succ = (dat15 V c).owesAt () t.castSucc from rfl,
    dat15_after_0, dat15_after_1, dat15_after_2, dat15_after_3, dat15_after_4]
  iintro ⟨HΦ, Ho, ⟨%d0, H0⟩, ⟨%d1, H1⟩, ⟨%d2, H2⟩, ⟨%d3, H3⟩, ⟨%d4, H4⟩⟩
  iapply (kernel15 c Set.univ _ _ _ _ _ _ _ _ _ _ _
    (blk15 V c 0 t) (blk15 V c 1 t) (blk15 V c 2 t) (blk15 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the region, at every point. -/
theorem body15 (c : Dev nD) : BodyObligation (dat15 (F := F) V c) (defs₀ (F := F)) Variants.none () Set.univ := fun t => by
  rw [bigSep_W15, bigSep_W15]
  exact atPoint15 V c t

end Cert.KernelIdeal.Regs
-- ==== Proof.KI.Stages.lean ====
/-
  The contents of every unscoped buffer of a core at each boundary between two items of @main — a kernel region or a
  stretch of host operations —, as a fold from the launch memory: a host stretch applies its operations' fold; a kernel
  region replaces the array of each of its output windows by what the pipeline's write-backs leave there (the region's
  proof data read at its last point) and touches nothing else. Each region's proof data is stated at the contents the
  region is entered from. The conditional frame is stated over unknown region results; `results` names them, and each
  of its valuations is then the corresponding boundary here.
-/
import proofs.«169176_j23261542875327_2_alg».proof.Proof.KI.RegionsP
import proofs.«169176_j23261542875327_2_alg».proof.Proof.KI.Region0
import proofs.«169176_j23261542875327_2_alg».proof.Proof.KI.Region1
import proofs.«169176_j23261542875327_2_alg».proof.Proof.KI.Region2
import proofs.«169176_j23261542875327_2_alg».proof.Proof.KI.Region3
import proofs.«169176_j23261542875327_2_alg».proof.Proof.KI.Region4
import proofs.«169176_j23261542875327_2_alg».proof.Proof.KI.Region5
import proofs.«169176_j23261542875327_2_alg».proof.Proof.KI.Region6
import proofs.«169176_j23261542875327_2_alg».proof.Proof.KI.Region7
import proofs.«169176_j23261542875327_2_alg».proof.Proof.KI.Region8
import proofs.«169176_j23261542875327_2_alg».proof.Proof.KI.Region9
import proofs.«169176_j23261542875327_2_alg».proof.Proof.KI.Region10
import proofs.«169176_j23261542875327_2_alg».proof.Proof.KI.Region11
import proofs.«169176_j23261542875327_2_alg».proof.Proof.KI.Region12
import proofs.«169176_j23261542875327_2_alg».proof.Proof.KI.Region13
import proofs.«169176_j23261542875327_2_alg».proof.Proof.KI.Region14
import proofs.«169176_j23261542875327_2_alg».proof.Proof.KI.Region15
import proofs.«169176_j23261542875327_2_alg».proof.Proof.LibRegionRecord
import Idealize.ShloMosaic.Lib.Pipeline.Frame
import Idealize.ShloMosaic.Lib.Pipeline.Kit

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen Cert.KernelIdeal.GenP Cert.KernelIdeal.Regs Cert.LibRegionRecord

variable {F : FTy → Type} [FloatOps F]

variable (m : (ℓ : Loc nD τ sig) → Buf (Elt F) ℓ)

/-! ## The boundaries -/

/-- Core `c`'s buffers at launch. -/
abbrev S0 (c : Dev nD) : Valuation τ sig (Elt F) := fun b => m (c, b)
/-- The same read at the TensorCore's references (what a region's proof data take). -/
abbrev T0 : (c : Dev nD) → (b : Ref sig .tc) → Buf (Elt F) ((c : Thread nD τ).loc b) := fun c b => S0 m c b
/-- After region 0: the array of its output window at what the write-backs leave. -/
def S1 (c : Dev nD) : Valuation τ sig (Elt F) :=
  Function.update (S0 m c) main_v0 ((dat0 (T0 m) c).arrAt 2 cfg0.N : Buf (Elt F) ((c : Thread nD τ).loc main_v0))
abbrev T1 : (c : Dev nD) → (b : Ref sig .tc) → Buf (Elt F) ((c : Thread nD τ).loc b) := fun c b => S1 m c b
/-- After the host stretch `hostOps1`. -/
abbrev S2 (c : Dev nD) : Valuation τ sig (Elt F) := StableHlo.after hostOps1 (S1 m c)
abbrev T2 : (c : Dev nD) → (b : Ref sig .tc) → Buf (Elt F) ((c : Thread nD τ).loc b) := fun c b => S2 m c b
/-- After region 1: the arrays of its two output windows at what the write-backs leave. -/
def S3 (c : Dev nD) : Valuation τ sig (Elt F) :=
  Function.update (Function.update (S2 m c) main_v3_0 ((dat1 (T2 m) c).arrAt 4 cfg1.N : Buf (Elt F) ((c : Thread nD τ).loc main_v3_0)))
    main_v3_1 ((dat1 (T2 m) c).arrAt 5 cfg1.N : Buf (Elt F) ((c : Thread nD τ).loc main_v3_1))
abbrev T3 : (c : Dev nD) → (b : Ref sig .tc) → Buf (Elt F) ((c : Thread nD τ).loc b) := fun c b => S3 m c b
/-- After the host stretch `hostOps2`. -/
abbrev S4 (c : Dev nD) : Valuation τ sig (Elt F) := StableHlo.after hostOps2 (S3 m c)
abbrev T4 : (c : Dev nD) → (b : Ref sig .tc) → Buf (Elt F) ((c : Thread nD τ).loc b) := fun c b => S4 m c b
/-- After region 2: the array of its output window at what the write-backs leave. -/
def S5 (c : Dev nD) : Valuation τ sig (Elt F) :=
  Function.update (S4 m c) main_v12 ((dat2 (T4 m) c).arrAt 2 cfg2.N : Buf (Elt F) ((c : Thread nD τ).loc main_v12))
abbrev T5 : (c : Dev nD) → (b : Ref sig .tc) → Buf (Elt F) ((c : Thread nD τ).loc b) := fun c b => S5 m c b
/-- After the host stretch `hostOps3`. -/
abbrev S6 (c : Dev nD) : Valuation τ sig (Elt F) := StableHlo.after hostOps3 (S5 m c)
abbrev T6 : (c : Dev nD) → (b : Ref sig .tc) → Buf (Elt F) ((c : Thread nD τ).loc b) := fun c b => S6 m c b
/-- After the host stretch `hostOps3_1`. -/
abbrev S7 (c : Dev nD) : Valuation τ sig (Elt F) := StableHlo.after hostOps3_1 (S6 m c)
abbrev T7 : (c : Dev nD) → (b : Ref sig .tc) → Buf (Elt F) ((c : Thread nD τ).loc b) := fun c b => S7 m c b
/-- After the host stretch `hostOps3_2`. -/
abbrev S8 (c : Dev nD) : Valuation τ sig (Elt F) := StableHlo.after hostOps3_2 (S7 m c)
abbrev T8 : (c : Dev nD) → (b : Ref sig .tc) → Buf (Elt F) ((c : Thread nD τ).loc b) := fun c b => S8 m c b
/-- After region 3: the array of its output window at what the write-backs leave. -/
def S9 (c : Dev nD) : Valuation τ sig (Elt F) :=
  Function.update (S8 m c) main_v55 ((dat3 (T8 m) c).arrAt 4 cfg3.N : Buf (Elt F) ((c : Thread nD τ).loc main_v55))
abbrev T9 : (c : Dev nD) → (b : Ref sig .tc) → Buf (Elt F) ((c : Thread nD τ).loc b) := fun c b => S9 m c b
/-- After the host stretch `hostOps4`. -/
abbrev S10 (c : Dev nD) : Valuation τ sig (Elt F) := StableHlo.after hostOps4 (S9 m c)
abbrev T10 : (c : Dev nD) → (b : Ref sig .tc) → Buf (Elt F) ((c : Thread nD τ).loc b) := fun c b => S10 m c b
/-- After region 4: the arrays of its two output windows at what the write-backs leave. -/
def S11 (c : Dev nD) : Valuation τ sig (Elt F) :=
  Function.update (Function.update (S10 m c) main_v57_0 ((dat4 (T10 m) c).arrAt 5 cfg4.N : Buf (Elt F) ((c : Thread nD τ).loc main_v57_0)))
    main_v57_1 ((dat4 (T10 m) c).arrAt 6 cfg4.N : Buf (Elt F) ((c : Thread nD τ).loc main_v57_1))
abbrev T11 : (c : Dev nD) → (b : Ref sig .tc) → Buf (Elt F) ((c : Thread nD τ).loc b) := fun c b => S11 m c b
/-- After region 5: the array of its output window at what the write-backs leave. -/
def S12 (c : Dev nD) : Valuation τ sig (Elt F) :=
  Function.update (S11 m c) main_v58 ((dat5 (T11 m) c).arrAt 2 cfg5.N : Buf (Elt F) ((c : Thread nD τ).loc main_v58))
abbrev T12 : (c : Dev nD) → (b : Ref sig .tc) → Buf (Elt F) ((c : Thread nD τ).loc b) := fun c b => S12 m c b
/-- After the host stretch `hostOps6`. -/
abbrev S13 (c : Dev nD) : Valuation τ sig (Elt F) := StableHlo.after hostOps6 (S12 m c)
abbrev T13 : (c : Dev nD) → (b : Ref sig .tc) → Buf (Elt F) ((c : Thread nD τ).loc b) := fun c b => S13 m c b
/-- After region 6: the array of its output window at what the write-backs leave. -/
def S14 (c : Dev nD) : Valuation τ sig (Elt F) :=
  Function.update (S13 m c) main_v64 ((dat6 (T13 m) c).arrAt 2 cfg6.N : Buf (Elt F) ((c : Thread nD τ).loc main_v64))
abbrev T14 : (c : Dev nD) → (b : Ref sig .tc) → Buf (Elt F) ((c : Thread nD τ).loc b) := fun c b => S14 m c b
/-- After the host stretch `hostOps7`. -/
abbrev S15 (c : Dev nD) : Valuation τ sig (Elt F) := StableHlo.after hostOps7 (S14 m c)
abbrev T15 : (c : Dev nD) → (b : Ref sig .tc) → Buf (Elt F) ((c : Thread nD τ).loc b) := fun c b => S15 m c b
/-- After the host stretch `hostOps7_1`. -/
abbrev S16 (c : Dev nD) : Valuation τ sig (Elt F) := StableHlo.after hostOps7_1 (S15 m c)
abbrev T16 : (c : Dev nD) → (b : Ref sig .tc) → Buf (Elt F) ((c : Thread nD τ).loc b) := fun c b => S16 m c b
/-- After the host stretch `hostOps7_2`. -/
abbrev S17 (c : Dev nD) : Valuation τ sig (Elt F) := StableHlo.after hostOps7_2 (S16 m c)
abbrev T17 : (c : Dev nD) → (b : Ref sig .tc) → Buf (Elt F) ((c : Thread nD τ).loc b) := fun c b => S17 m c b
/-- After region 7: the array of its output window at what the write-backs leave. -/
def S18 (c : Dev nD) : Valuation τ sig (Elt F) :=
  Function.update (S17 m c) main_v107 ((dat7 (T17 m) c).arrAt 4 cfg7.N : Buf (Elt F) ((c : Thread nD τ).loc main_v107))
abbrev T18 : (c : Dev nD) → (b : Ref sig .tc) → Buf (Elt F) ((c : Thread nD τ).loc b) := fun c b => S18 m c b
/-- After the host stretch `hostOps8`. -/
abbrev S19 (c : Dev nD) : Valuation τ sig (Elt F) := StableHlo.after hostOps8 (S18 m c)
abbrev T19 : (c : Dev nD) → (b : Ref sig .tc) → Buf (Elt F) ((c : Thread nD τ).loc b) := fun c b => S19 m c b
/-- After region 8: the arrays of its two output windows at what the write-backs leave. -/
def S20 (c : Dev nD) : Valuation τ sig (Elt F) :=
  Function.update (Function.update (S19 m c) main_v109_0 ((dat8 (T19 m) c).arrAt 5 cfg8.N : Buf (Elt F) ((c : Thread nD τ).loc main_v109_0)))
    main_v109_1 ((dat8 (T19 m) c).arrAt 6 cfg8.N : Buf (Elt F) ((c : Thread nD τ).loc main_v109_1))
abbrev T20 : (c : Dev nD) → (b : Ref sig .tc) → Buf (Elt F) ((c : Thread nD τ).loc b) := fun c b => S20 m c b
/-- After region 9: the array of its output window at what the write-backs leave. -/
def S21 (c : Dev nD) : Valuation τ sig (Elt F) :=
  Function.update (S20 m c) main_v110 ((dat9 (T20 m) c).arrAt 2 cfg9.N : Buf (Elt F) ((c : Thread nD τ).loc main_v110))
abbrev T21 : (c : Dev nD) → (b : Ref sig .tc) → Buf (Elt F) ((c : Thread nD τ).loc b) := fun c b => S21 m c b
/-- After the host stretch `hostOps10`. -/
abbrev S22 (c : Dev nD) : Valuation τ sig (Elt F) := StableHlo.after hostOps10 (S21 m c)
abbrev T22 : (c : Dev nD) → (b : Ref sig .tc) → Buf (Elt F) ((c : Thread nD τ).loc b) := fun c b => S22 m c b
/-- After region 10: the array of its output window at what the write-backs leave. -/
def S23 (c : Dev nD) : Valuation τ sig (Elt F) :=
  Function.update (S22 m c) main_v116 ((dat10 (T22 m) c).arrAt 2 cfg10.N : Buf (Elt F) ((c : Thread nD τ).loc main_v116))
abbrev T23 : (c : Dev nD) → (b : Ref sig .tc) → Buf (Elt F) ((c : Thread nD τ).loc b) := fun c b => S23 m c b
/-- After the host stretch `hostOps11`. -/
abbrev S24 (c : Dev nD) : Valuation τ sig (Elt F) := StableHlo.after hostOps11 (S23 m c)
abbrev T24 : (c : Dev nD) → (b : Ref sig .tc) → Buf (Elt F) ((c : Thread nD τ).loc b) := fun c b => S24 m c b
/-- After the host stretch `hostOps11_1`. -/
abbrev S25 (c : Dev nD) : Valuation τ sig (Elt F) := StableHlo.after hostOps11_1 (S24 m c)
abbrev T25 : (c : Dev nD) → (b : Ref sig .tc) → Buf (Elt F) ((c : Thread nD τ).loc b) := fun c b => S25 m c b
/-- After the host stretch `hostOps11_2`. -/
abbrev S26 (c : Dev nD) : Valuation τ sig (Elt F) := StableHlo.after hostOps11_2 (S25 m c)
abbrev T26 : (c : Dev nD) → (b : Ref sig .tc) → Buf (Elt F) ((c : Thread nD τ).loc b) := fun c b => S26 m c b
/-- After region 11: the array of its output window at what the write-backs leave. -/
def S27 (c : Dev nD) : Valuation τ sig (Elt F) :=
  Function.update (S26 m c) main_v159 ((dat11 (T26 m) c).arrAt 4 cfg11.N : Buf (Elt F) ((c : Thread nD τ).loc main_v159))
abbrev T27 : (c : Dev nD) → (b : Ref sig .tc) → Buf (Elt F) ((c : Thread nD τ).loc b) := fun c b => S27 m c b
/-- After the host stretch `hostOps12`. -/
abbrev S28 (c : Dev nD) : Valuation τ sig (Elt F) := StableHlo.after hostOps12 (S27 m c)
abbrev T28 : (c : Dev nD) → (b : Ref sig .tc) → Buf (Elt F) ((c : Thread nD τ).loc b) := fun c b => S28 m c b
/-- After region 12: the arrays of its two output windows at what the write-backs leave. -/
def S29 (c : Dev nD) : Valuation τ sig (Elt F) :=
  Function.update (Function.update (S28 m c) main_v161_0 ((dat12 (T28 m) c).arrAt 5 cfg12.N : Buf (Elt F) ((c : Thread nD τ).loc main_v161_0)))
    main_v161_1 ((dat12 (T28 m) c).arrAt 6 cfg12.N : Buf (Elt F) ((c : Thread nD τ).loc main_v161_1))
abbrev T29 : (c : Dev nD) → (b : Ref sig .tc) → Buf (Elt F) ((c : Thread nD τ).loc b) := fun c b => S29 m c b
/-- After region 13: the array of its output window at what the write-backs leave. -/
def S30 (c : Dev nD) : Valuation τ sig (Elt F) :=
  Function.update (S29 m c) main_v162 ((dat13 (T29 m) c).arrAt 2 cfg13.N : Buf (Elt F) ((c : Thread nD τ).loc main_v162))
abbrev T30 : (c : Dev nD) → (b : Ref sig .tc) → Buf (Elt F) ((c : Thread nD τ).loc b) := fun c b => S30 m c b
/-- After the host stretch `hostOps14`. -/
abbrev S31 (c : Dev nD) : Valuation τ sig (Elt F) := StableHlo.after hostOps14 (S30 m c)
abbrev T31 : (c : Dev nD) → (b : Ref sig .tc) → Buf (Elt F) ((c : Thread nD τ).loc b) := fun c b => S31 m c b
/-- After region 14: the array of its output window at what the write-backs leave. -/
def S32 (c : Dev nD) : Valuation τ sig (Elt F) :=
  Function.update (S31 m c) main_v168 ((dat14 (T31 m) c).arrAt 2 cfg14.N : Buf (Elt F) ((c : Thread nD τ).loc main_v168))
abbrev T32 : (c : Dev nD) → (b : Ref sig .tc) → Buf (Elt F) ((c : Thread nD τ).loc b) := fun c b => S32 m c b
/-- After the host stretch `hostOps15`. -/
abbrev S33 (c : Dev nD) : Valuation τ sig (Elt F) := StableHlo.after hostOps15 (S32 m c)
abbrev T33 : (c : Dev nD) → (b : Ref sig .tc) → Buf (Elt F) ((c : Thread nD τ).loc b) := fun c b => S33 m c b
/-- After the host stretch `hostOps15_1`. -/
abbrev S34 (c : Dev nD) : Valuation τ sig (Elt F) := StableHlo.after hostOps15_1 (S33 m c)
abbrev T34 : (c : Dev nD) → (b : Ref sig .tc) → Buf (Elt F) ((c : Thread nD τ).loc b) := fun c b => S34 m c b
/-- After the host stretch `hostOps15_2`. -/
abbrev S35 (c : Dev nD) : Valuation τ sig (Elt F) := StableHlo.after hostOps15_2 (S34 m c)
abbrev T35 : (c : Dev nD) → (b : Ref sig .tc) → Buf (Elt F) ((c : Thread nD τ).loc b) := fun c b => S35 m c b
/-- After region 15: the array of its output window at what the write-backs leave. -/
def S36 (c : Dev nD) : Valuation τ sig (Elt F) :=
  Function.update (S35 m c) main_v211 ((dat15 (T35 m) c).arrAt 4 cfg15.N : Buf (Elt F) ((c : Thread nD τ).loc main_v211))
abbrev T36 : (c : Dev nD) → (b : Ref sig .tc) → Buf (Elt F) ((c : Thread nD τ).loc b) := fun c b => S36 m c b
/-- After the host stretch `hostOps16`. -/
abbrev S37 (c : Dev nD) : Valuation τ sig (Elt F) := StableHlo.after hostOps16 (S36 m c)
abbrev T37 : (c : Dev nD) → (b : Ref sig .tc) → Buf (Elt F) ((c : Thread nD τ).loc b) := fun c b => S37 m c b
/-- After the host stretch `hostOps16_1`. -/
abbrev S38 (c : Dev nD) : Valuation τ sig (Elt F) := StableHlo.after hostOps16_1 (S37 m c)
abbrev T38 : (c : Dev nD) → (b : Ref sig .tc) → Buf (Elt F) ((c : Thread nD τ).loc b) := fun c b => S38 m c b
/-- After the host stretch `hostOps16_2`. -/
abbrev S39 (c : Dev nD) : Valuation τ sig (Elt F) := StableHlo.after hostOps16_2 (S38 m c)
abbrev T39 : (c : Dev nD) → (b : Ref sig .tc) → Buf (Elt F) ((c : Thread nD τ).loc b) := fun c b => S39 m c b
/-- After the host stretch `hostOps16_3`. -/
abbrev S40 (c : Dev nD) : Valuation τ sig (Elt F) := StableHlo.after hostOps16_3 (S39 m c)
abbrev T40 : (c : Dev nD) → (b : Ref sig .tc) → Buf (Elt F) ((c : Thread nD τ).loc b) := fun c b => S40 m c b
/-- After the host stretch `hostOps16_4`. -/
abbrev S41 (c : Dev nD) : Valuation τ sig (Elt F) := StableHlo.after hostOps16_4 (S40 m c)
abbrev T41 : (c : Dev nD) → (b : Ref sig .tc) → Buf (Elt F) ((c : Thread nD τ).loc b) := fun c b => S41 m c b

/-! ## The regions' results, and the conditional frame's valuations -/

/-- What the regions leave in the buffers they may change: the boundary after the region, read at the buffer. -/
def results : Outs (F := F) := fun J r c =>
  match J with
  | 1 => S1 m c r
  | 3 => S3 m c r
  | 5 => S5 m c r
  | 9 => S9 m c r
  | 11 => S11 m c r
  | 12 => S12 m c r
  | 14 => S14 m c r
  | 18 => S18 m c r
  | 20 => S20 m c r
  | 21 => S21 m c r
  | 23 => S23 m c r
  | 27 => S27 m c r
  | 29 => S29 m c r
  | 30 => S30 m c r
  | 32 => S32 m c r
  | 36 => S36 m c r
  | _ => S0 m c r

theorem V0_eq (c : Dev nD) : V0 m c = S0 m c := rfl
theorem V1_eq (c : Dev nD) : V1 m (results m) c = S1 m c := by
  show Function.update (V0 m c) main_v0 (S1 m c main_v0) = _
  rw [V0_eq]; unfold S1; exact update_idem _ _ _
theorem V2_eq (c : Dev nD) : V2 m (results m) c = S2 m c := by
  show StableHlo.after hostOps1 (V1 m (results m) c) = _
  rw [V1_eq]
theorem V3_eq (c : Dev nD) : V3 m (results m) c = S3 m c := by
  show Function.update (Function.update (V2 m (results m) c) main_v3_0 (S3 m c main_v3_0)) main_v3_1 (S3 m c main_v3_1) = _
  rw [V2_eq]; unfold S3
  exact update_idem₂ _ _ _ (StableHlo.devRef_ne_of_ne (by decide)) _ _
theorem V4_eq (c : Dev nD) : V4 m (results m) c = S4 m c := by
  show StableHlo.after hostOps2 (V3 m (results m) c) = _
  rw [V3_eq]
theorem V5_eq (c : Dev nD) : V5 m (results m) c = S5 m c := by
  show Function.update (V4 m (results m) c) main_v12 (S5 m c main_v12) = _
  rw [V4_eq]; unfold S5; exact update_idem _ _ _
theorem V6_eq (c : Dev nD) : V6 m (results m) c = S6 m c := by
  show StableHlo.after hostOps3 (V5 m (results m) c) = _
  rw [V5_eq]
theorem V7_eq (c : Dev nD) : V7 m (results m) c = S7 m c := by
  show StableHlo.after hostOps3_1 (V6 m (results m) c) = _
  rw [V6_eq]
theorem V8_eq (c : Dev nD) : V8 m (results m) c = S8 m c := by
  show StableHlo.after hostOps3_2 (V7 m (results m) c) = _
  rw [V7_eq]
theorem V9_eq (c : Dev nD) : V9 m (results m) c = S9 m c := by
  show Function.update (V8 m (results m) c) main_v55 (S9 m c main_v55) = _
  rw [V8_eq]; unfold S9; exact update_idem _ _ _
theorem V10_eq (c : Dev nD) : V10 m (results m) c = S10 m c := by
  show StableHlo.after hostOps4 (V9 m (results m) c) = _
  rw [V9_eq]
theorem V11_eq (c : Dev nD) : V11 m (results m) c = S11 m c := by
  show Function.update (Function.update (V10 m (results m) c) main_v57_0 (S11 m c main_v57_0)) main_v57_1 (S11 m c main_v57_1) = _
  rw [V10_eq]; unfold S11
  exact update_idem₂ _ _ _ (StableHlo.devRef_ne_of_ne (by decide)) _ _
theorem V12_eq (c : Dev nD) : V12 m (results m) c = S12 m c := by
  show Function.update (V11 m (results m) c) main_v58 (S12 m c main_v58) = _
  rw [V11_eq]; unfold S12; exact update_idem _ _ _
theorem V13_eq (c : Dev nD) : V13 m (results m) c = S13 m c := by
  show StableHlo.after hostOps6 (V12 m (results m) c) = _
  rw [V12_eq]
theorem V14_eq (c : Dev nD) : V14 m (results m) c = S14 m c := by
  show Function.update (V13 m (results m) c) main_v64 (S14 m c main_v64) = _
  rw [V13_eq]; unfold S14; exact update_idem _ _ _
theorem V15_eq (c : Dev nD) : V15 m (results m) c = S15 m c := by
  show StableHlo.after hostOps7 (V14 m (results m) c) = _
  rw [V14_eq]
theorem V16_eq (c : Dev nD) : V16 m (results m) c = S16 m c := by
  show StableHlo.after hostOps7_1 (V15 m (results m) c) = _
  rw [V15_eq]
theorem V17_eq (c : Dev nD) : V17 m (results m) c = S17 m c := by
  show StableHlo.after hostOps7_2 (V16 m (results m) c) = _
  rw [V16_eq]
theorem V18_eq (c : Dev nD) : V18 m (results m) c = S18 m c := by
  show Function.update (V17 m (results m) c) main_v107 (S18 m c main_v107) = _
  rw [V17_eq]; unfold S18; exact update_idem _ _ _
theorem V19_eq (c : Dev nD) : V19 m (results m) c = S19 m c := by
  show StableHlo.after hostOps8 (V18 m (results m) c) = _
  rw [V18_eq]
theorem V20_eq (c : Dev nD) : V20 m (results m) c = S20 m c := by
  show Function.update (Function.update (V19 m (results m) c) main_v109_0 (S20 m c main_v109_0)) main_v109_1 (S20 m c main_v109_1) = _
  rw [V19_eq]; unfold S20
  exact update_idem₂ _ _ _ (StableHlo.devRef_ne_of_ne (by decide)) _ _
theorem V21_eq (c : Dev nD) : V21 m (results m) c = S21 m c := by
  show Function.update (V20 m (results m) c) main_v110 (S21 m c main_v110) = _
  rw [V20_eq]; unfold S21; exact update_idem _ _ _
theorem V22_eq (c : Dev nD) : V22 m (results m) c = S22 m c := by
  show StableHlo.after hostOps10 (V21 m (results m) c) = _
  rw [V21_eq]
theorem V23_eq (c : Dev nD) : V23 m (results m) c = S23 m c := by
  show Function.update (V22 m (results m) c) main_v116 (S23 m c main_v116) = _
  rw [V22_eq]; unfold S23; exact update_idem _ _ _
theorem V24_eq (c : Dev nD) : V24 m (results m) c = S24 m c := by
  show StableHlo.after hostOps11 (V23 m (results m) c) = _
  rw [V23_eq]
theorem V25_eq (c : Dev nD) : V25 m (results m) c = S25 m c := by
  show StableHlo.after hostOps11_1 (V24 m (results m) c) = _
  rw [V24_eq]
theorem V26_eq (c : Dev nD) : V26 m (results m) c = S26 m c := by
  show StableHlo.after hostOps11_2 (V25 m (results m) c) = _
  rw [V25_eq]
theorem V27_eq (c : Dev nD) : V27 m (results m) c = S27 m c := by
  show Function.update (V26 m (results m) c) main_v159 (S27 m c main_v159) = _
  rw [V26_eq]; unfold S27; exact update_idem _ _ _
theorem V28_eq (c : Dev nD) : V28 m (results m) c = S28 m c := by
  show StableHlo.after hostOps12 (V27 m (results m) c) = _
  rw [V27_eq]
theorem V29_eq (c : Dev nD) : V29 m (results m) c = S29 m c := by
  show Function.update (Function.update (V28 m (results m) c) main_v161_0 (S29 m c main_v161_0)) main_v161_1 (S29 m c main_v161_1) = _
  rw [V28_eq]; unfold S29
  exact update_idem₂ _ _ _ (StableHlo.devRef_ne_of_ne (by decide)) _ _
theorem V30_eq (c : Dev nD) : V30 m (results m) c = S30 m c := by
  show Function.update (V29 m (results m) c) main_v162 (S30 m c main_v162) = _
  rw [V29_eq]; unfold S30; exact update_idem _ _ _
theorem V31_eq (c : Dev nD) : V31 m (results m) c = S31 m c := by
  show StableHlo.after hostOps14 (V30 m (results m) c) = _
  rw [V30_eq]
theorem V32_eq (c : Dev nD) : V32 m (results m) c = S32 m c := by
  show Function.update (V31 m (results m) c) main_v168 (S32 m c main_v168) = _
  rw [V31_eq]; unfold S32; exact update_idem _ _ _
theorem V33_eq (c : Dev nD) : V33 m (results m) c = S33 m c := by
  show StableHlo.after hostOps15 (V32 m (results m) c) = _
  rw [V32_eq]
theorem V34_eq (c : Dev nD) : V34 m (results m) c = S34 m c := by
  show StableHlo.after hostOps15_1 (V33 m (results m) c) = _
  rw [V33_eq]
theorem V35_eq (c : Dev nD) : V35 m (results m) c = S35 m c := by
  show StableHlo.after hostOps15_2 (V34 m (results m) c) = _
  rw [V34_eq]
theorem V36_eq (c : Dev nD) : V36 m (results m) c = S36 m c := by
  show Function.update (V35 m (results m) c) main_v211 (S36 m c main_v211) = _
  rw [V35_eq]; unfold S36; exact update_idem _ _ _
theorem V37_eq (c : Dev nD) : V37 m (results m) c = S37 m c := by
  show StableHlo.after hostOps16 (V36 m (results m) c) = _
  rw [V36_eq]
theorem V38_eq (c : Dev nD) : V38 m (results m) c = S38 m c := by
  show StableHlo.after hostOps16_1 (V37 m (results m) c) = _
  rw [V37_eq]
theorem V39_eq (c : Dev nD) : V39 m (results m) c = S39 m c := by
  show StableHlo.after hostOps16_2 (V38 m (results m) c) = _
  rw [V38_eq]
theorem V40_eq (c : Dev nD) : V40 m (results m) c = S40 m c := by
  show StableHlo.after hostOps16_3 (V39 m (results m) c) = _
  rw [V39_eq]
theorem V41_eq (c : Dev nD) : V41 m (results m) c = S41 m c := by
  show StableHlo.after hostOps16_4 (V40 m (results m) c) = _
  rw [V40_eq]

/-! ## The proof data of every pipeline, each at its region's entry contents -/

/-- A literal match on the pipeline, so that the data of pipeline K reduce to region K's. -/
def pdats : (p : Fin 16) → (c : Dev nD) → Dat τ (Elt F) Unit ℕ (UR sig nD τ) ℕ (cfgs p) c
  | ⟨0, _⟩ => fun c => dat0 (T0 m) c
  | ⟨1, _⟩ => fun c => dat1 (T2 m) c
  | ⟨2, _⟩ => fun c => dat2 (T4 m) c
  | ⟨3, _⟩ => fun c => dat3 (T8 m) c
  | ⟨4, _⟩ => fun c => dat4 (T10 m) c
  | ⟨5, _⟩ => fun c => dat5 (T11 m) c
  | ⟨6, _⟩ => fun c => dat6 (T13 m) c
  | ⟨7, _⟩ => fun c => dat7 (T17 m) c
  | ⟨8, _⟩ => fun c => dat8 (T19 m) c
  | ⟨9, _⟩ => fun c => dat9 (T20 m) c
  | ⟨10, _⟩ => fun c => dat10 (T22 m) c
  | ⟨11, _⟩ => fun c => dat11 (T26 m) c
  | ⟨12, _⟩ => fun c => dat12 (T28 m) c
  | ⟨13, _⟩ => fun c => dat13 (T29 m) c
  | ⟨14, _⟩ => fun c => dat14 (T31 m) c
  | ⟨15, _⟩ => fun c => dat15 (T35 m) c
  | ⟨_ + 16, h⟩ => absurd h (Nat.not_lt.2 (Nat.le_add_left _ _))

end Cert.KernelIdeal.Run

end
-- ==== Proof.KI.Shared3.lean ====
/- Region 3 of @main: entering and leaving it when two windows read one array.

   Windows 0 and 1 of this region are row blocks i and j of ONE array y; windows 2, 3, 4 stand on mea, M and the result
   EP. So five windows stand on four buffers, and the region is entered by splitting y's buffer between its two readers
   and left by joining the two halves again. -/
import proofs.«169176_j23261542875327_2_alg».proof.Proof.KI.Region3
import Idealize.ShloMosaic.Lib.Pipeline.Launch
import Idealize.ShloMosaic.Lib.Pipeline.Regions
import Idealize.ShloMosaic.Lib.Pipeline.Kit

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V V' : (c : Dev nD) → (b : Ref sig .tc) → Buf (Elt F) ((c : Thread nD τ).loc b))

/-- The five windows stand on four arrays: y (read through windows 0 and 1), mea, M and the result EP. -/
theorem refs3 : Finset.univ.image (Pipeline.arrRef spec3) = {main_arg0, main_v0, main_v54, main_v55} := by decide

/-- Every window's array is a whole buffer. -/
theorem whole3 (w : Fin cfg3.W) : (cfg3.win w).arr.view.set = Finset.univ := (arr_whole3 w).set_eq_univ

/-- The shares the windows hold their arrays at: y's two readers a half each, the others whole. -/
theorem share3_0 (c : Dev nD) : (dat3 V c).share 0 = fullShare.left := rfl
theorem share3_1 (c : Dev nD) : (dat3 V c).share 1 = fullShare.right := rfl
theorem share3_2 (c : Dev nD) : (dat3 V c).share 2 = fullShare := rfl
theorem share3_3 (c : Dev nD) : (dat3 V c).share 3 = fullShare := rfl
theorem share3_4 (c : Dev nD) : (dat3 V c).share 4 = fullShare := rfl

set_option maxHeartbeats 1000000 in
/-- ENTRY. The four buffers held whole at the contents `V` give the five windows their arrays: y's buffer is split in
    its two halves, one per reading window, both at y's contents; mea, M and EP pass through. -/
theorem split3 (c : Dev nD) :
    (Pipeline.arrBufs (Ix := Unit) (Name := ℕ) (U := UR sig nD τ) (Lvl := ℕ) spec3 c (V c) : sProp 𝕄)
      ⊢ (dat3 V c).arrays ((dat3 V c).arrAt · 0) := by
  unfold Pipeline.arrBufs Dat.arrays
  rw [refs3, bigSep_W3, bigSep_insert (by decide), bigSep_insert (by decide), bigSep_insert (by decide), bigSep_singleton]
  simp only [share3_0, share3_1, share3_2, share3_3, share3_4, whole3 0, whole3 1, whole3 2, whole3 3, whole3 4]
  show iprop(((c : Thread nD τ).loc main_arg0 ↦{fullShare} V c main_arg0) ∗ ((c : Thread nD τ).loc main_v0 ↦{fullShare} V c main_v0)
      ∗ ((c : Thread nD τ).loc main_v54 ↦{fullShare} V c main_v54) ∗ ((c : Thread nD τ).loc main_v55 ↦{fullShare} V c main_v55))
    ⊢ (iprop(((c : Thread nD τ).loc main_arg0 ↦{fullShare.left} V c main_arg0) ∗ ((c : Thread nD τ).loc main_arg0 ↦{fullShare.right} V c main_arg0)
      ∗ ((c : Thread nD τ).loc main_v0 ↦{fullShare} V c main_v0) ∗ ((c : Thread nD τ).loc main_v54 ↦{fullShare} V c main_v54)
      ∗ ((c : Thread nD τ).loc main_v55 ↦{fullShare} V c main_v55)) : sProp 𝕄)
  iintro ⟨Hy, Hmea, HM, Hout⟩
  ihave Hy := (pointsTo_share (PosShare.mem_left_op_right fullShare)).1 $$ Hy
  icases Hy with ⟨Hl, Hr⟩
  isplitl [Hl]; · iexact Hl
  isplitl [Hr]; · iexact Hr
  isplitl [Hmea]; · iexact Hmea
  isplitl [HM]; · iexact HM
  iexact Hout

set_option maxHeartbeats 1000000 in
/-- EXIT. When every window's array ends at the contents `V'` (`hF`), the five windows' arrays give back the four
    buffers whole at `V'`: y's two halves, both at the one contents `V'` has for y, join to the whole; mea, M and EP pass
    through. -/
theorem join3 (c : Dev nD)
    (hF : ∀ w : Fin cfg3.W, (dat3 V c).arrAt w cfg3.N = V' c (Pipeline.arrRef spec3 w)) :
    ((dat3 V c).arrays ((dat3 V c).arrAt · cfg3.N) : sProp 𝕄)
      ⊢ Pipeline.arrBufs (Ix := Unit) (Name := ℕ) (U := UR sig nD τ) (Lvl := ℕ) spec3 c (V' c) := by
  unfold Pipeline.arrBufs Dat.arrays
  rw [refs3, bigSep_W3, bigSep_insert (by decide), bigSep_insert (by decide), bigSep_insert (by decide), bigSep_singleton]
  simp only [share3_0, share3_1, share3_2, share3_3, share3_4, whole3 0, whole3 1, whole3 2, whole3 3, whole3 4, hF]
  show (iprop(((c : Thread nD τ).loc main_arg0 ↦{fullShare.left} V' c main_arg0) ∗ ((c : Thread nD τ).loc main_arg0 ↦{fullShare.right} V' c main_arg0)
      ∗ ((c : Thread nD τ).loc main_v0 ↦{fullShare} V' c main_v0) ∗ ((c : Thread nD τ).loc main_v54 ↦{fullShare} V' c main_v54)
      ∗ ((c : Thread nD τ).loc main_v55 ↦{fullShare} V' c main_v55)) : sProp 𝕄)
    ⊢ iprop(((c : Thread nD τ).loc main_arg0 ↦{fullShare} V' c main_arg0) ∗ ((c : Thread nD τ).loc main_v0 ↦{fullShare} V' c main_v0)
      ∗ ((c : Thread nD τ).loc main_v54 ↦{fullShare} V' c main_v54) ∗ ((c : Thread nD τ).loc main_v55 ↦{fullShare} V' c main_v55))
  iintro ⟨Hl, Hr, Hmea, HM, Hout⟩
  isplitl [Hl Hr]
  · iapply (pointsTo_share (PosShare.mem_left_op_right fullShare)).2
    isplitl [Hl]; · iexact Hl
    iexact Hr
  isplitl [Hmea]; · iexact Hmea
  isplitl [HM]; · iexact HM
  iexact Hout

end Cert.KernelIdeal.Regs
-- ==== Proof.KI.Shared7.lean ====
/- Region 7 of @main: entering and leaving it when two windows read one array.

   Windows 0 and 1 of this region are row blocks i and j of ONE array y; windows 2, 3, 4 stand on mea, M and the result
   EP. So five windows stand on four buffers, and the region is entered by splitting y's buffer between its two readers
   and left by joining the two halves again. -/
import proofs.«169176_j23261542875327_2_alg».proof.Proof.KI.Region7
import Idealize.ShloMosaic.Lib.Pipeline.Launch
import Idealize.ShloMosaic.Lib.Pipeline.Regions
import Idealize.ShloMosaic.Lib.Pipeline.Kit

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V V' : (c : Dev nD) → (b : Ref sig .tc) → Buf (Elt F) ((c : Thread nD τ).loc b))

/-- The five windows stand on four arrays: y (read through windows 0 and 1), mea, M and the result EP. -/
theorem refs7 : Finset.univ.image (Pipeline.arrRef spec7) = {main_v21, main_v0, main_v106, main_v107} := by decide

/-- Every window's array is a whole buffer. -/
theorem whole7 (w : Fin cfg7.W) : (cfg7.win w).arr.view.set = Finset.univ := (arr_whole7 w).set_eq_univ

/-- The shares the windows hold their arrays at: y's two readers a half each, the others whole. -/
theorem share7_0 (c : Dev nD) : (dat7 V c).share 0 = fullShare.left := rfl
theorem share7_1 (c : Dev nD) : (dat7 V c).share 1 = fullShare.right := rfl
theorem share7_2 (c : Dev nD) : (dat7 V c).share 2 = fullShare := rfl
theorem share7_3 (c : Dev nD) : (dat7 V c).share 3 = fullShare := rfl
theorem share7_4 (c : Dev nD) : (dat7 V c).share 4 = fullShare := rfl

set_option maxHeartbeats 1000000 in
/-- ENTRY. The four buffers held whole at the contents `V` give the five windows their arrays: y's buffer is split in
    its two halves, one per reading window, both at y's contents; mea, M and EP pass through. -/
theorem split7 (c : Dev nD) :
    (Pipeline.arrBufs (Ix := Unit) (Name := ℕ) (U := UR sig nD τ) (Lvl := ℕ) spec7 c (V c) : sProp 𝕄)
      ⊢ (dat7 V c).arrays ((dat7 V c).arrAt · 0) := by
  unfold Pipeline.arrBufs Dat.arrays
  rw [refs7, bigSep_W7, bigSep_insert (by decide), bigSep_insert (by decide), bigSep_insert (by decide), bigSep_singleton]
  simp only [share7_0, share7_1, share7_2, share7_3, share7_4, whole7 0, whole7 1, whole7 2, whole7 3, whole7 4]
  show iprop(((c : Thread nD τ).loc main_v21 ↦{fullShare} V c main_v21) ∗ ((c : Thread nD τ).loc main_v0 ↦{fullShare} V c main_v0)
      ∗ ((c : Thread nD τ).loc main_v106 ↦{fullShare} V c main_v106) ∗ ((c : Thread nD τ).loc main_v107 ↦{fullShare} V c main_v107))
    ⊢ (iprop(((c : Thread nD τ).loc main_v21 ↦{fullShare.left} V c main_v21) ∗ ((c : Thread nD τ).loc main_v21 ↦{fullShare.right} V c main_v21)
      ∗ ((c : Thread nD τ).loc main_v0 ↦{fullShare} V c main_v0) ∗ ((c : Thread nD τ).loc main_v106 ↦{fullShare} V c main_v106)
      ∗ ((c : Thread nD τ).loc main_v107 ↦{fullShare} V c main_v107)) : sProp 𝕄)
  iintro ⟨Hy, Hmea, HM, Hout⟩
  ihave Hy := (pointsTo_share (PosShare.mem_left_op_right fullShare)).1 $$ Hy
  icases Hy with ⟨Hl, Hr⟩
  isplitl [Hl]; · iexact Hl
  isplitl [Hr]; · iexact Hr
  isplitl [Hmea]; · iexact Hmea
  isplitl [HM]; · iexact HM
  iexact Hout

set_option maxHeartbeats 1000000 in
/-- EXIT. When every window's array ends at the contents `V'` (`hF`), the five windows' arrays give back the four
    buffers whole at `V'`: y's two halves, both at the one contents `V'` has for y, join to the whole; mea, M and EP pass
    through. -/
theorem join7 (c : Dev nD)
    (hF : ∀ w : Fin cfg7.W, (dat7 V c).arrAt w cfg7.N = V' c (Pipeline.arrRef spec7 w)) :
    ((dat7 V c).arrays ((dat7 V c).arrAt · cfg7.N) : sProp 𝕄)
      ⊢ Pipeline.arrBufs (Ix := Unit) (Name := ℕ) (U := UR sig nD τ) (Lvl := ℕ) spec7 c (V' c) := by
  unfold Pipeline.arrBufs Dat.arrays
  rw [refs7, bigSep_W7, bigSep_insert (by decide), bigSep_insert (by decide), bigSep_insert (by decide), bigSep_singleton]
  simp only [share7_0, share7_1, share7_2, share7_3, share7_4, whole7 0, whole7 1, whole7 2, whole7 3, whole7 4, hF]
  show (iprop(((c : Thread nD τ).loc main_v21 ↦{fullShare.left} V' c main_v21) ∗ ((c : Thread nD τ).loc main_v21 ↦{fullShare.right} V' c main_v21)
      ∗ ((c : Thread nD τ).loc main_v0 ↦{fullShare} V' c main_v0) ∗ ((c : Thread nD τ).loc main_v106 ↦{fullShare} V' c main_v106)
      ∗ ((c : Thread nD τ).loc main_v107 ↦{fullShare} V' c main_v107)) : sProp 𝕄)
    ⊢ iprop(((c : Thread nD τ).loc main_v21 ↦{fullShare} V' c main_v21) ∗ ((c : Thread nD τ).loc main_v0 ↦{fullShare} V' c main_v0)
      ∗ ((c : Thread nD τ).loc main_v106 ↦{fullShare} V' c main_v106) ∗ ((c : Thread nD τ).loc main_v107 ↦{fullShare} V' c main_v107))
  iintro ⟨Hl, Hr, Hmea, HM, Hout⟩
  isplitl [Hl Hr]
  · iapply (pointsTo_share (PosShare.mem_left_op_right fullShare)).2
    isplitl [Hl]; · iexact Hl
    iexact Hr
  isplitl [Hmea]; · iexact Hmea
  isplitl [HM]; · iexact HM
  iexact Hout

end Cert.KernelIdeal.Regs
-- ==== Proof.KI.Shared11.lean ====
/- Region 11 of @main: entering and leaving it when two windows read one array.

   Windows 0 and 1 of this region are row blocks i and j of ONE array y; windows 2, 3, 4 stand on mea, M and the result
   EP. So five windows stand on four buffers, and the region is entered by splitting y's buffer between its two readers
   and left by joining the two halves again. -/
import proofs.«169176_j23261542875327_2_alg».proof.Proof.KI.Region11
import Idealize.ShloMosaic.Lib.Pipeline.Launch
import Idealize.ShloMosaic.Lib.Pipeline.Regions
import Idealize.ShloMosaic.Lib.Pipeline.Kit

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V V' : (c : Dev nD) → (b : Ref sig .tc) → Buf (Elt F) ((c : Thread nD τ).loc b))

/-- The five windows stand on four arrays: y (read through windows 0 and 1), mea, M and the result EP. -/
theorem refs11 : Finset.univ.image (Pipeline.arrRef spec11) = {main_v73, main_v0, main_v158, main_v159} := by decide

/-- Every window's array is a whole buffer. -/
theorem whole11 (w : Fin cfg11.W) : (cfg11.win w).arr.view.set = Finset.univ := (arr_whole11 w).set_eq_univ

/-- The shares the windows hold their arrays at: y's two readers a half each, the others whole. -/
theorem share11_0 (c : Dev nD) : (dat11 V c).share 0 = fullShare.left := rfl
theorem share11_1 (c : Dev nD) : (dat11 V c).share 1 = fullShare.right := rfl
theorem share11_2 (c : Dev nD) : (dat11 V c).share 2 = fullShare := rfl
theorem share11_3 (c : Dev nD) : (dat11 V c).share 3 = fullShare := rfl
theorem share11_4 (c : Dev nD) : (dat11 V c).share 4 = fullShare := rfl

set_option maxHeartbeats 1000000 in
/-- ENTRY. The four buffers held whole at the contents `V` give the five windows their arrays: y's buffer is split in
    its two halves, one per reading window, both at y's contents; mea, M and EP pass through. -/
theorem split11 (c : Dev nD) :
    (Pipeline.arrBufs (Ix := Unit) (Name := ℕ) (U := UR sig nD τ) (Lvl := ℕ) spec11 c (V c) : sProp 𝕄)
      ⊢ (dat11 V c).arrays ((dat11 V c).arrAt · 0) := by
  unfold Pipeline.arrBufs Dat.arrays
  rw [refs11, bigSep_W11, bigSep_insert (by decide), bigSep_insert (by decide), bigSep_insert (by decide), bigSep_singleton]
  simp only [share11_0, share11_1, share11_2, share11_3, share11_4, whole11 0, whole11 1, whole11 2, whole11 3, whole11 4]
  show iprop(((c : Thread nD τ).loc main_v73 ↦{fullShare} V c main_v73) ∗ ((c : Thread nD τ).loc main_v0 ↦{fullShare} V c main_v0)
      ∗ ((c : Thread nD τ).loc main_v158 ↦{fullShare} V c main_v158) ∗ ((c : Thread nD τ).loc main_v159 ↦{fullShare} V c main_v159))
    ⊢ (iprop(((c : Thread nD τ).loc main_v73 ↦{fullShare.left} V c main_v73) ∗ ((c : Thread nD τ).loc main_v73 ↦{fullShare.right} V c main_v73)
      ∗ ((c : Thread nD τ).loc main_v0 ↦{fullShare} V c main_v0) ∗ ((c : Thread nD τ).loc main_v158 ↦{fullShare} V c main_v158)
      ∗ ((c : Thread nD τ).loc main_v159 ↦{fullShare} V c main_v159)) : sProp 𝕄)
  iintro ⟨Hy, Hmea, HM, Hout⟩
  ihave Hy := (pointsTo_share (PosShare.mem_left_op_right fullShare)).1 $$ Hy
  icases Hy with ⟨Hl, Hr⟩
  isplitl [Hl]; · iexact Hl
  isplitl [Hr]; · iexact Hr
  isplitl [Hmea]; · iexact Hmea
  isplitl [HM]; · iexact HM
  iexact Hout

set_option maxHeartbeats 1000000 in
/-- EXIT. When every window's array ends at the contents `V'` (`hF`), the five windows' arrays give back the four
    buffers whole at `V'`: y's two halves, both at the one contents `V'` has for y, join to the whole; mea, M and EP pass
    through. -/
theorem join11 (c : Dev nD)
    (hF : ∀ w : Fin cfg11.W, (dat11 V c).arrAt w cfg11.N = V' c (Pipeline.arrRef spec11 w)) :
    ((dat11 V c).arrays ((dat11 V c).arrAt · cfg11.N) : sProp 𝕄)
      ⊢ Pipeline.arrBufs (Ix := Unit) (Name := ℕ) (U := UR sig nD τ) (Lvl := ℕ) spec11 c (V' c) := by
  unfold Pipeline.arrBufs Dat.arrays
  rw [refs11, bigSep_W11, bigSep_insert (by decide), bigSep_insert (by decide), bigSep_insert (by decide), bigSep_singleton]
  simp only [share11_0, share11_1, share11_2, share11_3, share11_4, whole11 0, whole11 1, whole11 2, whole11 3, whole11 4, hF]
  show (iprop(((c : Thread nD τ).loc main_v73 ↦{fullShare.left} V' c main_v73) ∗ ((c : Thread nD τ).loc main_v73 ↦{fullShare.right} V' c main_v73)
      ∗ ((c : Thread nD τ).loc main_v0 ↦{fullShare} V' c main_v0) ∗ ((c : Thread nD τ).loc main_v158 ↦{fullShare} V' c main_v158)
      ∗ ((c : Thread nD τ).loc main_v159 ↦{fullShare} V' c main_v159)) : sProp 𝕄)
    ⊢ iprop(((c : Thread nD τ).loc main_v73 ↦{fullShare} V' c main_v73) ∗ ((c : Thread nD τ).loc main_v0 ↦{fullShare} V' c main_v0)
      ∗ ((c : Thread nD τ).loc main_v158 ↦{fullShare} V' c main_v158) ∗ ((c : Thread nD τ).loc main_v159 ↦{fullShare} V' c main_v159))
  iintro ⟨Hl, Hr, Hmea, HM, Hout⟩
  isplitl [Hl Hr]
  · iapply (pointsTo_share (PosShare.mem_left_op_right fullShare)).2
    isplitl [Hl]; · iexact Hl
    iexact Hr
  isplitl [Hmea]; · iexact Hmea
  isplitl [HM]; · iexact HM
  iexact Hout

end Cert.KernelIdeal.Regs
-- ==== Proof.KI.Shared15.lean ====
/- Region 15 of @main: entering and leaving it when two windows read one array.

   Windows 0 and 1 of this region are row blocks i and j of ONE array y; windows 2, 3, 4 stand on mea, M and the result
   EP. So five windows stand on four buffers, and the region is entered by splitting y's buffer between its two readers
   and left by joining the two halves again. -/
import proofs.«169176_j23261542875327_2_alg».proof.Proof.KI.Region15
import Idealize.ShloMosaic.Lib.Pipeline.Launch
import Idealize.ShloMosaic.Lib.Pipeline.Regions
import Idealize.ShloMosaic.Lib.Pipeline.Kit

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V V' : (c : Dev nD) → (b : Ref sig .tc) → Buf (Elt F) ((c : Thread nD τ).loc b))

/-- The five windows stand on four arrays: y (read through windows 0 and 1), mea, M and the result EP. -/
theorem refs15 : Finset.univ.image (Pipeline.arrRef spec15) = {main_v125, main_v0, main_v210, main_v211} := by decide

/-- Every window's array is a whole buffer. -/
theorem whole15 (w : Fin cfg15.W) : (cfg15.win w).arr.view.set = Finset.univ := (arr_whole15 w).set_eq_univ

/-- The shares the windows hold their arrays at: y's two readers a half each, the others whole. -/
theorem share15_0 (c : Dev nD) : (dat15 V c).share 0 = fullShare.left := rfl
theorem share15_1 (c : Dev nD) : (dat15 V c).share 1 = fullShare.right := rfl
theorem share15_2 (c : Dev nD) : (dat15 V c).share 2 = fullShare := rfl
theorem share15_3 (c : Dev nD) : (dat15 V c).share 3 = fullShare := rfl
theorem share15_4 (c : Dev nD) : (dat15 V c).share 4 = fullShare := rfl

set_option maxHeartbeats 1000000 in
/-- ENTRY. The four buffers held whole at the contents `V` give the five windows their arrays: y's buffer is split in
    its two halves, one per reading window, both at y's contents; mea, M and EP pass through. -/
theorem split15 (c : Dev nD) :
    (Pipeline.arrBufs (Ix := Unit) (Name := ℕ) (U := UR sig nD τ) (Lvl := ℕ) spec15 c (V c) : sProp 𝕄)
      ⊢ (dat15 V c).arrays ((dat15 V c).arrAt · 0) := by
  unfold Pipeline.arrBufs Dat.arrays
  rw [refs15, bigSep_W15, bigSep_insert (by decide), bigSep_insert (by decide), bigSep_insert (by decide), bigSep_singleton]
  simp only [share15_0, share15_1, share15_2, share15_3, share15_4, whole15 0, whole15 1, whole15 2, whole15 3, whole15 4]
  show iprop(((c : Thread nD τ).loc main_v125 ↦{fullShare} V c main_v125) ∗ ((c : Thread nD τ).loc main_v0 ↦{fullShare} V c main_v0)
      ∗ ((c : Thread nD τ).loc main_v210 ↦{fullShare} V c main_v210) ∗ ((c : Thread nD τ).loc main_v211 ↦{fullShare} V c main_v211))
    ⊢ (iprop(((c : Thread nD τ).loc main_v125 ↦{fullShare.left} V c main_v125) ∗ ((c : Thread nD τ).loc main_v125 ↦{fullShare.right} V c main_v125)
      ∗ ((c : Thread nD τ).loc main_v0 ↦{fullShare} V c main_v0) ∗ ((c : Thread nD τ).loc main_v210 ↦{fullShare} V c main_v210)
      ∗ ((c : Thread nD τ).loc main_v211 ↦{fullShare} V c main_v211)) : sProp 𝕄)
  iintro ⟨Hy, Hmea, HM, Hout⟩
  ihave Hy := (pointsTo_share (PosShare.mem_left_op_right fullShare)).1 $$ Hy
  icases Hy with ⟨Hl, Hr⟩
  isplitl [Hl]; · iexact Hl
  isplitl [Hr]; · iexact Hr
  isplitl [Hmea]; · iexact Hmea
  isplitl [HM]; · iexact HM
  iexact Hout

set_option maxHeartbeats 1000000 in
/-- EXIT. When every window's array ends at the contents `V'` (`hF`), the five windows' arrays give back the four
    buffers whole at `V'`: y's two halves, both at the one contents `V'` has for y, join to the whole; mea, M and EP pass
    through. -/
theorem join15 (c : Dev nD)
    (hF : ∀ w : Fin cfg15.W, (dat15 V c).arrAt w cfg15.N = V' c (Pipeline.arrRef spec15 w)) :
    ((dat15 V c).arrays ((dat15 V c).arrAt · cfg15.N) : sProp 𝕄)
      ⊢ Pipeline.arrBufs (Ix := Unit) (Name := ℕ) (U := UR sig nD τ) (Lvl := ℕ) spec15 c (V' c) := by
  unfold Pipeline.arrBufs Dat.arrays
  rw [refs15, bigSep_W15, bigSep_insert (by decide), bigSep_insert (by decide), bigSep_insert (by decide), bigSep_singleton]
  simp only [share15_0, share15_1, share15_2, share15_3, share15_4, whole15 0, whole15 1, whole15 2, whole15 3, whole15 4, hF]
  show (iprop(((c : Thread nD τ).loc main_v125 ↦{fullShare.left} V' c main_v125) ∗ ((c : Thread nD τ).loc main_v125 ↦{fullShare.right} V' c main_v125)
      ∗ ((c : Thread nD τ).loc main_v0 ↦{fullShare} V' c main_v0) ∗ ((c : Thread nD τ).loc main_v210 ↦{fullShare} V' c main_v210)
      ∗ ((c : Thread nD τ).loc main_v211 ↦{fullShare} V' c main_v211)) : sProp 𝕄)
    ⊢ iprop(((c : Thread nD τ).loc main_v125 ↦{fullShare} V' c main_v125) ∗ ((c : Thread nD τ).loc main_v0 ↦{fullShare} V' c main_v0)
      ∗ ((c : Thread nD τ).loc main_v210 ↦{fullShare} V' c main_v210) ∗ ((c : Thread nD τ).loc main_v211 ↦{fullShare} V' c main_v211))
  iintro ⟨Hl, Hr, Hmea, HM, Hout⟩
  isplitl [Hl Hr]
  · iapply (pointsTo_share (PosShare.mem_left_op_right fullShare)).2
    isplitl [Hl]; · iexact Hl
    iexact Hr
  isplitl [Hmea]; · iexact Hmea
  isplitl [HM]; · iexact HM
  iexact Hout

end Cert.KernelIdeal.Regs
-- ==== Proof.KI.Records.lean ====
/-
  Each kernel region of @main as a segment between two boundaries: entered from every unscoped buffer at the boundary
  before it, left at the boundary after it. Per region two facts about the boundary after it — each window's array is
  there what the pipeline leaves (an input's array what it was, an output's its write-backs), and every other buffer is
  what it was — and the record itself, which is the general region record at those facts.
-/
import proofs.«169176_j23261542875327_2_alg».proof.Proof.KI.Stages
import proofs.«169176_j23261542875327_2_alg».proof.Proof.KI.Shared3
import proofs.«169176_j23261542875327_2_alg».proof.Proof.KI.Shared7
import proofs.«169176_j23261542875327_2_alg».proof.Proof.KI.Shared11
import proofs.«169176_j23261542875327_2_alg».proof.Proof.KI.Shared15
import proofs.«169176_j23261542875327_2_alg».proof.Proof.LibRegionRecord
import Idealize.ShloMosaic.Lib.Pipeline.Frame
import Idealize.ShloMosaic.Lib.Pipeline.Kit
import Idealize.ShloMosaic.Lib.Pipeline.Regions

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen Cert.KernelIdeal.GenP Cert.KernelIdeal.Regs Cert.LibRegionRecord

variable {F : FTy → Type} [FloatOps F]

variable (m : (ℓ : Loc nD τ sig) → Buf (Elt F) ℓ)

local notation "𝕄" => MT nD τ sig Unit (Elt F) ℕ (UR sig nD τ) ℕ

/-- No core owes another anything: no level is assigned. -/
abbrev Lz : GSem nD τ sig → Finset Unit := fun _ => ∅
abbrev lvz : GSem nD τ sig → Unit → ℕ := fun _ _ => 0

/-! ## Region 0 -/

theorem keeps0 (c : Dev nD) (b : Ref sig .tc) (hb : b ∉ Finset.univ.image (Pipeline.arrRef spec0)) : S1 m c b = S0 m c b := by
  have hne0 : b ≠ main_v0 := fun e => hb (Finset.mem_image.mpr ⟨2, Finset.mem_univ _, (e.symm : Pipeline.arrRef spec0 2 = b)⟩)
  unfold S1; rw [Function.update_of_ne (StableHlo.devRef_ne_of_ne hne0)]
set_option maxHeartbeats 2000000 in
theorem ends0 (c : Dev nD) : ∀ w : Fin cfg0.W, (dat0 (T0 m) c).arrAt w cfg0.N = S1 m c (Pipeline.arrRef spec0 w)
  | ⟨0, _⟩ => ((dat0 (T0 m) c).arrAt_in 0 rfl _).trans ((dat0_A (T0 m) c 0).trans (by show S0 m c main_arg3 = S1 m c main_arg3; unfold S1; rw [Function.update_of_ne (StableHlo.devRef_ne_of_ne (by decide : main_arg3 ≠ main_v0))]))
  | ⟨1, _⟩ => ((dat0 (T0 m) c).arrAt_in 1 rfl _).trans ((dat0_A (T0 m) c 1).trans (by show S0 m c main_arg7 = S1 m c main_arg7; unfold S1; rw [Function.update_of_ne (StableHlo.devRef_ne_of_ne (by decide : main_arg7 ≠ main_v0))]))
  | ⟨2, _⟩ => by unfold S1; show _ = Function.update (S0 m c) (Proc.devRef .tc main_v0) _ (Proc.devRef .tc main_v0); rw [Function.update_self]; rfl
set_option backward.isDefEq.respectTransparency.types false in
def reg0 : Pipeline.RegionSeg (pcfgs (F := F)) adm (pdats m) () defs₀ Variants.none Lz lvz 0 :=
  record (pcfgs (F := F)) adm (pdats m) defs₀ Variants.none Lz lvz 0 launch0.win launch0.arr_whole launch0.block_pos launch0.stage_whole
    (fun c => (body0 (T0 m) c).loose) (fun _ _ => rfl) (fun _ _ => rfl) (fun c => (pdats m 0 c).share_full fun _ => rfl) (fun _ _ => rfl)
    (fun c => by unfold Pipeline.prefHeld; rw [show (Finset.univ : Finset (Fin 0)) = ∅ from rfl, BI.bigSep_empty])
    (S0 m) (S1 m) (fun c w => dat0_A (T0 m) c w) (ends0 m) (keeps0 m)
/-! ## Region 1 -/

theorem keeps1 (c : Dev nD) (b : Ref sig .tc) (hb : b ∉ Finset.univ.image (Pipeline.arrRef spec1)) : S3 m c b = S2 m c b := by
  have hne0 : b ≠ main_v3_0 := fun e => hb (Finset.mem_image.mpr ⟨4, Finset.mem_univ _, (e.symm : Pipeline.arrRef spec1 4 = b)⟩)
  have hne1 : b ≠ main_v3_1 := fun e => hb (Finset.mem_image.mpr ⟨5, Finset.mem_univ _, (e.symm : Pipeline.arrRef spec1 5 = b)⟩)
  unfold S3; rw [Function.update_of_ne (StableHlo.devRef_ne_of_ne hne1), Function.update_of_ne (StableHlo.devRef_ne_of_ne hne0)]
set_option maxHeartbeats 2000000 in
theorem ends1 (c : Dev nD) : ∀ w : Fin cfg1.W, (dat1 (T2 m) c).arrAt w cfg1.N = S3 m c (Pipeline.arrRef spec1 w)
  | ⟨0, _⟩ => ((dat1 (T2 m) c).arrAt_in 0 rfl _).trans ((dat1_A (T2 m) c 0).trans (by show S2 m c main_arg6 = S3 m c main_arg6; unfold S3; rw [Function.update_of_ne (StableHlo.devRef_ne_of_ne (by decide : main_arg6 ≠ main_v3_1)), Function.update_of_ne (StableHlo.devRef_ne_of_ne (by decide : main_arg6 ≠ main_v3_0))]))
  | ⟨1, _⟩ => ((dat1 (T2 m) c).arrAt_in 1 rfl _).trans ((dat1_A (T2 m) c 1).trans (by show S2 m c main_v0 = S3 m c main_v0; unfold S3; rw [Function.update_of_ne (StableHlo.devRef_ne_of_ne (by decide : main_v0 ≠ main_v3_1)), Function.update_of_ne (StableHlo.devRef_ne_of_ne (by decide : main_v0 ≠ main_v3_0))]))
  | ⟨2, _⟩ => ((dat1 (T2 m) c).arrAt_in 2 rfl _).trans ((dat1_A (T2 m) c 2).trans (by show S2 m c main_v2 = S3 m c main_v2; unfold S3; rw [Function.update_of_ne (StableHlo.devRef_ne_of_ne (by decide : main_v2 ≠ main_v3_1)), Function.update_of_ne (StableHlo.devRef_ne_of_ne (by decide : main_v2 ≠ main_v3_0))]))
  | ⟨3, _⟩ => ((dat1 (T2 m) c).arrAt_in 3 rfl _).trans ((dat1_A (T2 m) c 3).trans (by show S2 m c main_arg1 = S3 m c main_arg1; unfold S3; rw [Function.update_of_ne (StableHlo.devRef_ne_of_ne (by decide : main_arg1 ≠ main_v3_1)), Function.update_of_ne (StableHlo.devRef_ne_of_ne (by decide : main_arg1 ≠ main_v3_0))]))
  | ⟨4, _⟩ => by unfold S3; show _ = Function.update (Function.update (S2 m c) (Proc.devRef .tc main_v3_0) _) (Proc.devRef .tc main_v3_1) _ (Proc.devRef .tc main_v3_0); rw [Function.update_of_ne (StableHlo.devRef_ne_of_ne (by decide : main_v3_0 ≠ main_v3_1)), Function.update_self]; rfl
  | ⟨5, _⟩ => by unfold S3; show _ = Function.update (Function.update (S2 m c) (Proc.devRef .tc main_v3_0) _) (Proc.devRef .tc main_v3_1) _ (Proc.devRef .tc main_v3_1); rw [Function.update_self]; rfl
set_option backward.isDefEq.respectTransparency.types false in
def reg1 : Pipeline.RegionSeg (pcfgs (F := F)) adm (pdats m) () defs₀ Variants.none Lz lvz 1 :=
  record (pcfgs (F := F)) adm (pdats m) defs₀ Variants.none Lz lvz 1 launch1.win launch1.arr_whole launch1.block_pos launch1.stage_whole
    (fun c => (body1 (T2 m) c).loose) (fun _ _ => rfl) (fun _ _ => rfl) (fun c => (pdats m 1 c).share_full fun _ => rfl) (fun _ _ => rfl)
    (fun c => by unfold Pipeline.prefHeld; rw [show (Finset.univ : Finset (Fin 0)) = ∅ from rfl, BI.bigSep_empty])
    (S2 m) (S3 m) (fun c w => dat1_A (T2 m) c w) (ends1 m) (keeps1 m)
/-! ## Region 2 -/

theorem keeps2 (c : Dev nD) (b : Ref sig .tc) (hb : b ∉ Finset.univ.image (Pipeline.arrRef spec2)) : S5 m c b = S4 m c b := by
  have hne0 : b ≠ main_v12 := fun e => hb (Finset.mem_image.mpr ⟨2, Finset.mem_univ _, (e.symm : Pipeline.arrRef spec2 2 = b)⟩)
  unfold S5; rw [Function.update_of_ne (StableHlo.devRef_ne_of_ne hne0)]
set_option maxHeartbeats 2000000 in
theorem ends2 (c : Dev nD) : ∀ w : Fin cfg2.W, (dat2 (T4 m) c).arrAt w cfg2.N = S5 m c (Pipeline.arrRef spec2 w)
  | ⟨0, _⟩ => ((dat2 (T4 m) c).arrAt_in 0 rfl _).trans ((dat2_A (T4 m) c 0).trans (by show S4 m c main_v1 = S5 m c main_v1; unfold S5; rw [Function.update_of_ne (StableHlo.devRef_ne_of_ne (by decide : main_v1 ≠ main_v12))]))
  | ⟨1, _⟩ => ((dat2 (T4 m) c).arrAt_in 1 rfl _).trans ((dat2_A (T4 m) c 1).trans (by show S4 m c main_v11 = S5 m c main_v11; unfold S5; rw [Function.update_of_ne (StableHlo.devRef_ne_of_ne (by decide : main_v11 ≠ main_v12))]))
  | ⟨2, _⟩ => by unfold S5; show _ = Function.update (S4 m c) (Proc.devRef .tc main_v12) _ (Proc.devRef .tc main_v12); rw [Function.update_self]; rfl
set_option backward.isDefEq.respectTransparency.types false in
def reg2 : Pipeline.RegionSeg (pcfgs (F := F)) adm (pdats m) () defs₀ Variants.none Lz lvz 2 :=
  record (pcfgs (F := F)) adm (pdats m) defs₀ Variants.none Lz lvz 2 launch2.win launch2.arr_whole launch2.block_pos launch2.stage_whole
    (fun c => (body2 (T4 m) c).loose) (fun _ _ => rfl) (fun _ _ => rfl) (fun c => (pdats m 2 c).share_full fun _ => rfl) (fun _ _ => rfl)
    (fun c => by unfold Pipeline.prefHeld; rw [show (Finset.univ : Finset (Fin 0)) = ∅ from rfl, BI.bigSep_empty])
    (S4 m) (S5 m) (fun c w => dat2_A (T4 m) c w) (ends2 m) (keeps2 m)
/-! ## Region 3 -/

theorem keeps3 (c : Dev nD) (b : Ref sig .tc) (hb : b ∉ Finset.univ.image (Pipeline.arrRef spec3)) : S9 m c b = S8 m c b := by
  have hne0 : b ≠ main_v55 := fun e => hb (Finset.mem_image.mpr ⟨4, Finset.mem_univ _, (e.symm : Pipeline.arrRef spec3 4 = b)⟩)
  unfold S9; rw [Function.update_of_ne (StableHlo.devRef_ne_of_ne hne0)]
set_option maxHeartbeats 2000000 in
theorem ends3 (c : Dev nD) : ∀ w : Fin cfg3.W, (dat3 (T8 m) c).arrAt w cfg3.N = S9 m c (Pipeline.arrRef spec3 w)
  | ⟨0, _⟩ => ((dat3 (T8 m) c).arrAt_in 0 rfl _).trans ((dat3_A (T8 m) c 0).trans (by show S8 m c main_arg0 = S9 m c main_arg0; unfold S9; rw [Function.update_of_ne (StableHlo.devRef_ne_of_ne (by decide : main_arg0 ≠ main_v55))]))
  | ⟨1, _⟩ => ((dat3 (T8 m) c).arrAt_in 1 rfl _).trans ((dat3_A (T8 m) c 1).trans (by show S8 m c main_arg0 = S9 m c main_arg0; unfold S9; rw [Function.update_of_ne (StableHlo.devRef_ne_of_ne (by decide : main_arg0 ≠ main_v55))]))
  | ⟨2, _⟩ => ((dat3 (T8 m) c).arrAt_in 2 rfl _).trans ((dat3_A (T8 m) c 2).trans (by show S8 m c main_v0 = S9 m c main_v0; unfold S9; rw [Function.update_of_ne (StableHlo.devRef_ne_of_ne (by decide : main_v0 ≠ main_v55))]))
  | ⟨3, _⟩ => ((dat3 (T8 m) c).arrAt_in 3 rfl _).trans ((dat3_A (T8 m) c 3).trans (by show S8 m c main_v54 = S9 m c main_v54; unfold S9; rw [Function.update_of_ne (StableHlo.devRef_ne_of_ne (by decide : main_v54 ≠ main_v55))]))
  | ⟨4, _⟩ => by unfold S9; show _ = Function.update (S8 m c) (Proc.devRef .tc main_v55) _ (Proc.devRef .tc main_v55); rw [Function.update_self]; rfl
set_option backward.isDefEq.respectTransparency.types false in
def reg3 : Pipeline.RegionSeg (pcfgs (F := F)) adm (pdats m) () defs₀ Variants.none Lz lvz 3 :=
  recordShared (pcfgs (F := F)) adm (pdats m) defs₀ Variants.none Lz lvz 3 winFacts₀3 arr_whole3 block_pos3 stage_whole3
    (fun c => (body3 (T8 m) c).loose) (fun _ _ => rfl) (fun _ _ => rfl) (fun _ _ => rfl)
    (fun c => by unfold Pipeline.prefHeld; rw [show (Finset.univ : Finset (Fin 0)) = ∅ from rfl, BI.bigSep_empty])
    (S8 m) (S9 m) (keeps3 m)
    (fun c => split3 (T8 m) c) (fun c => join3 (T8 m) (T9 m) c (ends3 m c))
/-! ## Region 4 -/

theorem keeps4 (c : Dev nD) (b : Ref sig .tc) (hb : b ∉ Finset.univ.image (Pipeline.arrRef spec4)) : S11 m c b = S10 m c b := by
  have hne0 : b ≠ main_v57_0 := fun e => hb (Finset.mem_image.mpr ⟨5, Finset.mem_univ _, (e.symm : Pipeline.arrRef spec4 5 = b)⟩)
  have hne1 : b ≠ main_v57_1 := fun e => hb (Finset.mem_image.mpr ⟨6, Finset.mem_univ _, (e.symm : Pipeline.arrRef spec4 6 = b)⟩)
  unfold S11; rw [Function.update_of_ne (StableHlo.devRef_ne_of_ne hne1), Function.update_of_ne (StableHlo.devRef_ne_of_ne hne0)]
set_option maxHeartbeats 2000000 in
theorem ends4 (c : Dev nD) : ∀ w : Fin cfg4.W, (dat4 (T10 m) c).arrAt w cfg4.N = S11 m c (Pipeline.arrRef spec4 w)
  | ⟨0, _⟩ => ((dat4 (T10 m) c).arrAt_in 0 rfl _).trans ((dat4_A (T10 m) c 0).trans (by show S10 m c main_arg6 = S11 m c main_arg6; unfold S11; rw [Function.update_of_ne (StableHlo.devRef_ne_of_ne (by decide : main_arg6 ≠ main_v57_1)), Function.update_of_ne (StableHlo.devRef_ne_of_ne (by decide : main_arg6 ≠ main_v57_0))]))
  | ⟨1, _⟩ => ((dat4 (T10 m) c).arrAt_in 1 rfl _).trans ((dat4_A (T10 m) c 1).trans (by show S10 m c main_v55 = S11 m c main_v55; unfold S11; rw [Function.update_of_ne (StableHlo.devRef_ne_of_ne (by decide : main_v55 ≠ main_v57_1)), Function.update_of_ne (StableHlo.devRef_ne_of_ne (by decide : main_v55 ≠ main_v57_0))]))
  | ⟨2, _⟩ => ((dat4 (T10 m) c).arrAt_in 2 rfl _).trans ((dat4_A (T10 m) c 2).trans (by show S10 m c main_v0 = S11 m c main_v0; unfold S11; rw [Function.update_of_ne (StableHlo.devRef_ne_of_ne (by decide : main_v0 ≠ main_v57_1)), Function.update_of_ne (StableHlo.devRef_ne_of_ne (by decide : main_v0 ≠ main_v57_0))]))
  | ⟨3, _⟩ => ((dat4 (T10 m) c).arrAt_in 3 rfl _).trans ((dat4_A (T10 m) c 3).trans (by show S10 m c main_v56 = S11 m c main_v56; unfold S11; rw [Function.update_of_ne (StableHlo.devRef_ne_of_ne (by decide : main_v56 ≠ main_v57_1)), Function.update_of_ne (StableHlo.devRef_ne_of_ne (by decide : main_v56 ≠ main_v57_0))]))
  | ⟨4, _⟩ => ((dat4 (T10 m) c).arrAt_in 4 rfl _).trans ((dat4_A (T10 m) c 4).trans (by show S10 m c main_v22 = S11 m c main_v22; unfold S11; rw [Function.update_of_ne (StableHlo.devRef_ne_of_ne (by decide : main_v22 ≠ main_v57_1)), Function.update_of_ne (StableHlo.devRef_ne_of_ne (by decide : main_v22 ≠ main_v57_0))]))
  | ⟨5, _⟩ => by unfold S11; show _ = Function.update (Function.update (S10 m c) (Proc.devRef .tc main_v57_0) _) (Proc.devRef .tc main_v57_1) _ (Proc.devRef .tc main_v57_0); rw [Function.update_of_ne (StableHlo.devRef_ne_of_ne (by decide : main_v57_0 ≠ main_v57_1)), Function.update_self]; rfl
  | ⟨6, _⟩ => by unfold S11; show _ = Function.update (Function.update (S10 m c) (Proc.devRef .tc main_v57_0) _) (Proc.devRef .tc main_v57_1) _ (Proc.devRef .tc main_v57_1); rw [Function.update_self]; rfl
set_option backward.isDefEq.respectTransparency.types false in
def reg4 : Pipeline.RegionSeg (pcfgs (F := F)) adm (pdats m) () defs₀ Variants.none Lz lvz 4 :=
  record (pcfgs (F := F)) adm (pdats m) defs₀ Variants.none Lz lvz 4 launch4.win launch4.arr_whole launch4.block_pos launch4.stage_whole
    (fun c => (body4 (T10 m) c).loose) (fun _ _ => rfl) (fun _ _ => rfl) (fun c => (pdats m 4 c).share_full fun _ => rfl) (fun _ _ => rfl)
    (fun c => by unfold Pipeline.prefHeld; rw [show (Finset.univ : Finset (Fin 0)) = ∅ from rfl, BI.bigSep_empty])
    (S10 m) (S11 m) (fun c w => dat4_A (T10 m) c w) (ends4 m) (keeps4 m)
/-! ## Region 5 -/

theorem keeps5 (c : Dev nD) (b : Ref sig .tc) (hb : b ∉ Finset.univ.image (Pipeline.arrRef spec5)) : S12 m c b = S11 m c b := by
  have hne0 : b ≠ main_v58 := fun e => hb (Finset.mem_image.mpr ⟨2, Finset.mem_univ _, (e.symm : Pipeline.arrRef spec5 2 = b)⟩)
  unfold S12; rw [Function.update_of_ne (StableHlo.devRef_ne_of_ne hne0)]
set_option maxHeartbeats 2000000 in
theorem ends5 (c : Dev nD) : ∀ w : Fin cfg5.W, (dat5 (T11 m) c).arrAt w cfg5.N = S12 m c (Pipeline.arrRef spec5 w)
  | ⟨0, _⟩ => ((dat5 (T11 m) c).arrAt_in 0 rfl _).trans ((dat5_A (T11 m) c 0).trans (by show S11 m c main_v55 = S12 m c main_v55; unfold S12; rw [Function.update_of_ne (StableHlo.devRef_ne_of_ne (by decide : main_v55 ≠ main_v58))]))
  | ⟨1, _⟩ => ((dat5 (T11 m) c).arrAt_in 1 rfl _).trans ((dat5_A (T11 m) c 1).trans (by show S11 m c main_v21 = S12 m c main_v21; unfold S12; rw [Function.update_of_ne (StableHlo.devRef_ne_of_ne (by decide : main_v21 ≠ main_v58))]))
  | ⟨2, _⟩ => by unfold S12; show _ = Function.update (S11 m c) (Proc.devRef .tc main_v58) _ (Proc.devRef .tc main_v58); rw [Function.update_self]; rfl
set_option backward.isDefEq.respectTransparency.types false in
def reg5 : Pipeline.RegionSeg (pcfgs (F := F)) adm (pdats m) () defs₀ Variants.none Lz lvz 5 :=
  record (pcfgs (F := F)) adm (pdats m) defs₀ Variants.none Lz lvz 5 launch5.win launch5.arr_whole launch5.block_pos launch5.stage_whole
    (fun c => (body5 (T11 m) c).loose) (fun _ _ => rfl) (fun _ _ => rfl) (fun c => (pdats m 5 c).share_full fun _ => rfl) (fun _ _ => rfl)
    (fun c => by unfold Pipeline.prefHeld; rw [show (Finset.univ : Finset (Fin 0)) = ∅ from rfl, BI.bigSep_empty])
    (S11 m) (S12 m) (fun c w => dat5_A (T11 m) c w) (ends5 m) (keeps5 m)
/-! ## Region 6 -/

theorem keeps6 (c : Dev nD) (b : Ref sig .tc) (hb : b ∉ Finset.univ.image (Pipeline.arrRef spec6)) : S14 m c b = S13 m c b := by
  have hne0 : b ≠ main_v64 := fun e => hb (Finset.mem_image.mpr ⟨2, Finset.mem_univ _, (e.symm : Pipeline.arrRef spec6 2 = b)⟩)
  unfold S14; rw [Function.update_of_ne (StableHlo.devRef_ne_of_ne hne0)]
set_option maxHeartbeats 2000000 in
theorem ends6 (c : Dev nD) : ∀ w : Fin cfg6.W, (dat6 (T13 m) c).arrAt w cfg6.N = S14 m c (Pipeline.arrRef spec6 w)
  | ⟨0, _⟩ => ((dat6 (T13 m) c).arrAt_in 0 rfl _).trans ((dat6_A (T13 m) c 0).trans (by show S13 m c main_v1 = S14 m c main_v1; unfold S14; rw [Function.update_of_ne (StableHlo.devRef_ne_of_ne (by decide : main_v1 ≠ main_v64))]))
  | ⟨1, _⟩ => ((dat6 (T13 m) c).arrAt_in 1 rfl _).trans ((dat6_A (T13 m) c 1).trans (by show S13 m c main_v63 = S14 m c main_v63; unfold S14; rw [Function.update_of_ne (StableHlo.devRef_ne_of_ne (by decide : main_v63 ≠ main_v64))]))
  | ⟨2, _⟩ => by unfold S14; show _ = Function.update (S13 m c) (Proc.devRef .tc main_v64) _ (Proc.devRef .tc main_v64); rw [Function.update_self]; rfl
set_option backward.isDefEq.respectTransparency.types false in
def reg6 : Pipeline.RegionSeg (pcfgs (F := F)) adm (pdats m) () defs₀ Variants.none Lz lvz 6 :=
  record (pcfgs (F := F)) adm (pdats m) defs₀ Variants.none Lz lvz 6 launch6.win launch6.arr_whole launch6.block_pos launch6.stage_whole
    (fun c => (body6 (T13 m) c).loose) (fun _ _ => rfl) (fun _ _ => rfl) (fun c => (pdats m 6 c).share_full fun _ => rfl) (fun _ _ => rfl)
    (fun c => by unfold Pipeline.prefHeld; rw [show (Finset.univ : Finset (Fin 0)) = ∅ from rfl, BI.bigSep_empty])
    (S13 m) (S14 m) (fun c w => dat6_A (T13 m) c w) (ends6 m) (keeps6 m)
/-! ## Region 7 -/

theorem keeps7 (c : Dev nD) (b : Ref sig .tc) (hb : b ∉ Finset.univ.image (Pipeline.arrRef spec7)) : S18 m c b = S17 m c b := by
  have hne0 : b ≠ main_v107 := fun e => hb (Finset.mem_image.mpr ⟨4, Finset.mem_univ _, (e.symm : Pipeline.arrRef spec7 4 = b)⟩)
  unfold S18; rw [Function.update_of_ne (StableHlo.devRef_ne_of_ne hne0)]
set_option maxHeartbeats 2000000 in
theorem ends7 (c : Dev nD) : ∀ w : Fin cfg7.W, (dat7 (T17 m) c).arrAt w cfg7.N = S18 m c (Pipeline.arrRef spec7 w)
  | ⟨0, _⟩ => ((dat7 (T17 m) c).arrAt_in 0 rfl _).trans ((dat7_A (T17 m) c 0).trans (by show S17 m c main_v21 = S18 m c main_v21; unfold S18; rw [Function.update_of_ne (StableHlo.devRef_ne_of_ne (by decide : main_v21 ≠ main_v107))]))
  | ⟨1, _⟩ => ((dat7 (T17 m) c).arrAt_in 1 rfl _).trans ((dat7_A (T17 m) c 1).trans (by show S17 m c main_v21 = S18 m c main_v21; unfold S18; rw [Function.update_of_ne (StableHlo.devRef_ne_of_ne (by decide : main_v21 ≠ main_v107))]))
  | ⟨2, _⟩ => ((dat7 (T17 m) c).arrAt_in 2 rfl _).trans ((dat7_A (T17 m) c 2).trans (by show S17 m c main_v0 = S18 m c main_v0; unfold S18; rw [Function.update_of_ne (StableHlo.devRef_ne_of_ne (by decide : main_v0 ≠ main_v107))]))
  | ⟨3, _⟩ => ((dat7 (T17 m) c).arrAt_in 3 rfl _).trans ((dat7_A (T17 m) c 3).trans (by show S17 m c main_v106 = S18 m c main_v106; unfold S18; rw [Function.update_of_ne (StableHlo.devRef_ne_of_ne (by decide : main_v106 ≠ main_v107))]))
  | ⟨4, _⟩ => by unfold S18; show _ = Function.update (S17 m c) (Proc.devRef .tc main_v107) _ (Proc.devRef .tc main_v107); rw [Function.update_self]; rfl
set_option backward.isDefEq.respectTransparency.types false in
def reg7 : Pipeline.RegionSeg (pcfgs (F := F)) adm (pdats m) () defs₀ Variants.none Lz lvz 7 :=
  recordShared (pcfgs (F := F)) adm (pdats m) defs₀ Variants.none Lz lvz 7 winFacts₀7 arr_whole7 block_pos7 stage_whole7
    (fun c => (body7 (T17 m) c).loose) (fun _ _ => rfl) (fun _ _ => rfl) (fun _ _ => rfl)
    (fun c => by unfold Pipeline.prefHeld; rw [show (Finset.univ : Finset (Fin 0)) = ∅ from rfl, BI.bigSep_empty])
    (S17 m) (S18 m) (keeps7 m)
    (fun c => split7 (T17 m) c) (fun c => join7 (T17 m) (T18 m) c (ends7 m c))
/-! ## Region 8 -/

theorem keeps8 (c : Dev nD) (b : Ref sig .tc) (hb : b ∉ Finset.univ.image (Pipeline.arrRef spec8)) : S20 m c b = S19 m c b := by
  have hne0 : b ≠ main_v109_0 := fun e => hb (Finset.mem_image.mpr ⟨5, Finset.mem_univ _, (e.symm : Pipeline.arrRef spec8 5 = b)⟩)
  have hne1 : b ≠ main_v109_1 := fun e => hb (Finset.mem_image.mpr ⟨6, Finset.mem_univ _, (e.symm : Pipeline.arrRef spec8 6 = b)⟩)
  unfold S20; rw [Function.update_of_ne (StableHlo.devRef_ne_of_ne hne1), Function.update_of_ne (StableHlo.devRef_ne_of_ne hne0)]
set_option maxHeartbeats 2000000 in
theorem ends8 (c : Dev nD) : ∀ w : Fin cfg8.W, (dat8 (T19 m) c).arrAt w cfg8.N = S20 m c (Pipeline.arrRef spec8 w)
  | ⟨0, _⟩ => ((dat8 (T19 m) c).arrAt_in 0 rfl _).trans ((dat8_A (T19 m) c 0).trans (by show S19 m c main_arg6 = S20 m c main_arg6; unfold S20; rw [Function.update_of_ne (StableHlo.devRef_ne_of_ne (by decide : main_arg6 ≠ main_v109_1)), Function.update_of_ne (StableHlo.devRef_ne_of_ne (by decide : main_arg6 ≠ main_v109_0))]))
  | ⟨1, _⟩ => ((dat8 (T19 m) c).arrAt_in 1 rfl _).trans ((dat8_A (T19 m) c 1).trans (by show S19 m c main_v107 = S20 m c main_v107; unfold S20; rw [Function.update_of_ne (StableHlo.devRef_ne_of_ne (by decide : main_v107 ≠ main_v109_1)), Function.update_of_ne (StableHlo.devRef_ne_of_ne (by decide : main_v107 ≠ main_v109_0))]))
  | ⟨2, _⟩ => ((dat8 (T19 m) c).arrAt_in 2 rfl _).trans ((dat8_A (T19 m) c 2).trans (by show S19 m c main_v0 = S20 m c main_v0; unfold S20; rw [Function.update_of_ne (StableHlo.devRef_ne_of_ne (by decide : main_v0 ≠ main_v109_1)), Function.update_of_ne (StableHlo.devRef_ne_of_ne (by decide : main_v0 ≠ main_v109_0))]))
  | ⟨3, _⟩ => ((dat8 (T19 m) c).arrAt_in 3 rfl _).trans ((dat8_A (T19 m) c 3).trans (by show S19 m c main_v108 = S20 m c main_v108; unfold S20; rw [Function.update_of_ne (StableHlo.devRef_ne_of_ne (by decide : main_v108 ≠ main_v109_1)), Function.update_of_ne (StableHlo.devRef_ne_of_ne (by decide : main_v108 ≠ main_v109_0))]))
  | ⟨4, _⟩ => ((dat8 (T19 m) c).arrAt_in 4 rfl _).trans ((dat8_A (T19 m) c 4).trans (by show S19 m c main_v74 = S20 m c main_v74; unfold S20; rw [Function.update_of_ne (StableHlo.devRef_ne_of_ne (by decide : main_v74 ≠ main_v109_1)), Function.update_of_ne (StableHlo.devRef_ne_of_ne (by decide : main_v74 ≠ main_v109_0))]))
  | ⟨5, _⟩ => by unfold S20; show _ = Function.update (Function.update (S19 m c) (Proc.devRef .tc main_v109_0) _) (Proc.devRef .tc main_v109_1) _ (Proc.devRef .tc main_v109_0); rw [Function.update_of_ne (StableHlo.devRef_ne_of_ne (by decide : main_v109_0 ≠ main_v109_1)), Function.update_self]; rfl
  | ⟨6, _⟩ => by unfold S20; show _ = Function.update (Function.update (S19 m c) (Proc.devRef .tc main_v109_0) _) (Proc.devRef .tc main_v109_1) _ (Proc.devRef .tc main_v109_1); rw [Function.update_self]; rfl
set_option backward.isDefEq.respectTransparency.types false in
def reg8 : Pipeline.RegionSeg (pcfgs (F := F)) adm (pdats m) () defs₀ Variants.none Lz lvz 8 :=
  record (pcfgs (F := F)) adm (pdats m) defs₀ Variants.none Lz lvz 8 launch8.win launch8.arr_whole launch8.block_pos launch8.stage_whole
    (fun c => (body8 (T19 m) c).loose) (fun _ _ => rfl) (fun _ _ => rfl) (fun c => (pdats m 8 c).share_full fun _ => rfl) (fun _ _ => rfl)
    (fun c => by unfold Pipeline.prefHeld; rw [show (Finset.univ : Finset (Fin 0)) = ∅ from rfl, BI.bigSep_empty])
    (S19 m) (S20 m) (fun c w => dat8_A (T19 m) c w) (ends8 m) (keeps8 m)
/-! ## Region 9 -/

theorem keeps9 (c : Dev nD) (b : Ref sig .tc) (hb : b ∉ Finset.univ.image (Pipeline.arrRef spec9)) : S21 m c b = S20 m c b := by
  have hne0 : b ≠ main_v110 := fun e => hb (Finset.mem_image.mpr ⟨2, Finset.mem_univ _, (e.symm : Pipeline.arrRef spec9 2 = b)⟩)
  unfold S21; rw [Function.update_of_ne (StableHlo.devRef_ne_of_ne hne0)]
set_option maxHeartbeats 2000000 in
theorem ends9 (c : Dev nD) : ∀ w : Fin cfg9.W, (dat9 (T20 m) c).arrAt w cfg9.N = S21 m c (Pipeline.arrRef spec9 w)
  | ⟨0, _⟩ => ((dat9 (T20 m) c).arrAt_in 0 rfl _).trans ((dat9_A (T20 m) c 0).trans (by show S20 m c main_v107 = S21 m c main_v107; unfold S21; rw [Function.update_of_ne (StableHlo.devRef_ne_of_ne (by decide : main_v107 ≠ main_v110))]))
  | ⟨1, _⟩ => ((dat9 (T20 m) c).arrAt_in 1 rfl _).trans ((dat9_A (T20 m) c 1).trans (by show S20 m c main_v73 = S21 m c main_v73; unfold S21; rw [Function.update_of_ne (StableHlo.devRef_ne_of_ne (by decide : main_v73 ≠ main_v110))]))
  | ⟨2, _⟩ => by unfold S21; show _ = Function.update (S20 m c) (Proc.devRef .tc main_v110) _ (Proc.devRef .tc main_v110); rw [Function.update_self]; rfl
set_option backward.isDefEq.respectTransparency.types false in
def reg9 : Pipeline.RegionSeg (pcfgs (F := F)) adm (pdats m) () defs₀ Variants.none Lz lvz 9 :=
  record (pcfgs (F := F)) adm (pdats m) defs₀ Variants.none Lz lvz 9 launch9.win launch9.arr_whole launch9.block_pos launch9.stage_whole
    (fun c => (body9 (T20 m) c).loose) (fun _ _ => rfl) (fun _ _ => rfl) (fun c => (pdats m 9 c).share_full fun _ => rfl) (fun _ _ => rfl)
    (fun c => by unfold Pipeline.prefHeld; rw [show (Finset.univ : Finset (Fin 0)) = ∅ from rfl, BI.bigSep_empty])
    (S20 m) (S21 m) (fun c w => dat9_A (T20 m) c w) (ends9 m) (keeps9 m)
/-! ## Region 10 -/

theorem keeps10 (c : Dev nD) (b : Ref sig .tc) (hb : b ∉ Finset.univ.image (Pipeline.arrRef spec10)) : S23 m c b = S22 m c b := by
  have hne0 : b ≠ main_v116 := fun e => hb (Finset.mem_image.mpr ⟨2, Finset.mem_univ _, (e.symm : Pipeline.arrRef spec10 2 = b)⟩)
  unfold S23; rw [Function.update_of_ne (StableHlo.devRef_ne_of_ne hne0)]
set_option maxHeartbeats 2000000 in
theorem ends10 (c : Dev nD) : ∀ w : Fin cfg10.W, (dat10 (T22 m) c).arrAt w cfg10.N = S23 m c (Pipeline.arrRef spec10 w)
  | ⟨0, _⟩ => ((dat10 (T22 m) c).arrAt_in 0 rfl _).trans ((dat10_A (T22 m) c 0).trans (by show S22 m c main_v1 = S23 m c main_v1; unfold S23; rw [Function.update_of_ne (StableHlo.devRef_ne_of_ne (by decide : main_v1 ≠ main_v116))]))
  | ⟨1, _⟩ => ((dat10 (T22 m) c).arrAt_in 1 rfl _).trans ((dat10_A (T22 m) c 1).trans (by show S22 m c main_v115 = S23 m c main_v115; unfold S23; rw [Function.update_of_ne (StableHlo.devRef_ne_of_ne (by decide : main_v115 ≠ main_v116))]))
  | ⟨2, _⟩ => by unfold S23; show _ = Function.update (S22 m c) (Proc.devRef .tc main_v116) _ (Proc.devRef .tc main_v116); rw [Function.update_self]; rfl
set_option backward.isDefEq.respectTransparency.types false in
def reg10 : Pipeline.RegionSeg (pcfgs (F := F)) adm (pdats m) () defs₀ Variants.none Lz lvz 10 :=
  record (pcfgs (F := F)) adm (pdats m) defs₀ Variants.none Lz lvz 10 launch10.win launch10.arr_whole launch10.block_pos launch10.stage_whole
    (fun c => (body10 (T22 m) c).loose) (fun _ _ => rfl) (fun _ _ => rfl) (fun c => (pdats m 10 c).share_full fun _ => rfl) (fun _ _ => rfl)
    (fun c => by unfold Pipeline.prefHeld; rw [show (Finset.univ : Finset (Fin 0)) = ∅ from rfl, BI.bigSep_empty])
    (S22 m) (S23 m) (fun c w => dat10_A (T22 m) c w) (ends10 m) (keeps10 m)
/-! ## Region 11 -/

theorem keeps11 (c : Dev nD) (b : Ref sig .tc) (hb : b ∉ Finset.univ.image (Pipeline.arrRef spec11)) : S27 m c b = S26 m c b := by
  have hne0 : b ≠ main_v159 := fun e => hb (Finset.mem_image.mpr ⟨4, Finset.mem_univ _, (e.symm : Pipeline.arrRef spec11 4 = b)⟩)
  unfold S27; rw [Function.update_of_ne (StableHlo.devRef_ne_of_ne hne0)]
set_option maxHeartbeats 2000000 in
theorem ends11 (c : Dev nD) : ∀ w : Fin cfg11.W, (dat11 (T26 m) c).arrAt w cfg11.N = S27 m c (Pipeline.arrRef spec11 w)
  | ⟨0, _⟩ => ((dat11 (T26 m) c).arrAt_in 0 rfl _).trans ((dat11_A (T26 m) c 0).trans (by show S26 m c main_v73 = S27 m c main_v73; unfold S27; rw [Function.update_of_ne (StableHlo.devRef_ne_of_ne (by decide : main_v73 ≠ main_v159))]))
  | ⟨1, _⟩ => ((dat11 (T26 m) c).arrAt_in 1 rfl _).trans ((dat11_A (T26 m) c 1).trans (by show S26 m c main_v73 = S27 m c main_v73; unfold S27; rw [Function.update_of_ne (StableHlo.devRef_ne_of_ne (by decide : main_v73 ≠ main_v159))]))
  | ⟨2, _⟩ => ((dat11 (T26 m) c).arrAt_in 2 rfl _).trans ((dat11_A (T26 m) c 2).trans (by show S26 m c main_v0 = S27 m c main_v0; unfold S27; rw [Function.update_of_ne (StableHlo.devRef_ne_of_ne (by decide : main_v0 ≠ main_v159))]))
  | ⟨3, _⟩ => ((dat11 (T26 m) c).arrAt_in 3 rfl _).trans ((dat11_A (T26 m) c 3).trans (by show S26 m c main_v158 = S27 m c main_v158; unfold S27; rw [Function.update_of_ne (StableHlo.devRef_ne_of_ne (by decide : main_v158 ≠ main_v159))]))
  | ⟨4, _⟩ => by unfold S27; show _ = Function.update (S26 m c) (Proc.devRef .tc main_v159) _ (Proc.devRef .tc main_v159); rw [Function.update_self]; rfl
set_option backward.isDefEq.respectTransparency.types false in
def reg11 : Pipeline.RegionSeg (pcfgs (F := F)) adm (pdats m) () defs₀ Variants.none Lz lvz 11 :=
  recordShared (pcfgs (F := F)) adm (pdats m) defs₀ Variants.none Lz lvz 11 winFacts₀11 arr_whole11 block_pos11 stage_whole11
    (fun c => (body11 (T26 m) c).loose) (fun _ _ => rfl) (fun _ _ => rfl) (fun _ _ => rfl)
    (fun c => by unfold Pipeline.prefHeld; rw [show (Finset.univ : Finset (Fin 0)) = ∅ from rfl, BI.bigSep_empty])
    (S26 m) (S27 m) (keeps11 m)
    (fun c => split11 (T26 m) c) (fun c => join11 (T26 m) (T27 m) c (ends11 m c))
/-! ## Region 12 -/

theorem keeps12 (c : Dev nD) (b : Ref sig .tc) (hb : b ∉ Finset.univ.image (Pipeline.arrRef spec12)) : S29 m c b = S28 m c b := by
  have hne0 : b ≠ main_v161_0 := fun e => hb (Finset.mem_image.mpr ⟨5, Finset.mem_univ _, (e.symm : Pipeline.arrRef spec12 5 = b)⟩)
  have hne1 : b ≠ main_v161_1 := fun e => hb (Finset.mem_image.mpr ⟨6, Finset.mem_univ _, (e.symm : Pipeline.arrRef spec12 6 = b)⟩)
  unfold S29; rw [Function.update_of_ne (StableHlo.devRef_ne_of_ne hne1), Function.update_of_ne (StableHlo.devRef_ne_of_ne hne0)]
set_option maxHeartbeats 2000000 in
theorem ends12 (c : Dev nD) : ∀ w : Fin cfg12.W, (dat12 (T28 m) c).arrAt w cfg12.N = S29 m c (Pipeline.arrRef spec12 w)
  | ⟨0, _⟩ => ((dat12 (T28 m) c).arrAt_in 0 rfl _).trans ((dat12_A (T28 m) c 0).trans (by show S28 m c main_arg6 = S29 m c main_arg6; unfold S29; rw [Function.update_of_ne (StableHlo.devRef_ne_of_ne (by decide : main_arg6 ≠ main_v161_1)), Function.update_of_ne (StableHlo.devRef_ne_of_ne (by decide : main_arg6 ≠ main_v161_0))]))
  | ⟨1, _⟩ => ((dat12 (T28 m) c).arrAt_in 1 rfl _).trans ((dat12_A (T28 m) c 1).trans (by show S28 m c main_v159 = S29 m c main_v159; unfold S29; rw [Function.update_of_ne (StableHlo.devRef_ne_of_ne (by decide : main_v159 ≠ main_v161_1)), Function.update_of_ne (StableHlo.devRef_ne_of_ne (by decide : main_v159 ≠ main_v161_0))]))
  | ⟨2, _⟩ => ((dat12 (T28 m) c).arrAt_in 2 rfl _).trans ((dat12_A (T28 m) c 2).trans (by show S28 m c main_v0 = S29 m c main_v0; unfold S29; rw [Function.update_of_ne (StableHlo.devRef_ne_of_ne (by decide : main_v0 ≠ main_v161_1)), Function.update_of_ne (StableHlo.devRef_ne_of_ne (by decide : main_v0 ≠ main_v161_0))]))
  | ⟨3, _⟩ => ((dat12 (T28 m) c).arrAt_in 3 rfl _).trans ((dat12_A (T28 m) c 3).trans (by show S28 m c main_v160 = S29 m c main_v160; unfold S29; rw [Function.update_of_ne (StableHlo.devRef_ne_of_ne (by decide : main_v160 ≠ main_v161_1)), Function.update_of_ne (StableHlo.devRef_ne_of_ne (by decide : main_v160 ≠ main_v161_0))]))
  | ⟨4, _⟩ => ((dat12 (T28 m) c).arrAt_in 4 rfl _).trans ((dat12_A (T28 m) c 4).trans (by show S28 m c main_v126 = S29 m c main_v126; unfold S29; rw [Function.update_of_ne (StableHlo.devRef_ne_of_ne (by decide : main_v126 ≠ main_v161_1)), Function.update_of_ne (StableHlo.devRef_ne_of_ne (by decide : main_v126 ≠ main_v161_0))]))
  | ⟨5, _⟩ => by unfold S29; show _ = Function.update (Function.update (S28 m c) (Proc.devRef .tc main_v161_0) _) (Proc.devRef .tc main_v161_1) _ (Proc.devRef .tc main_v161_0); rw [Function.update_of_ne (StableHlo.devRef_ne_of_ne (by decide : main_v161_0 ≠ main_v161_1)), Function.update_self]; rfl
  | ⟨6, _⟩ => by unfold S29; show _ = Function.update (Function.update (S28 m c) (Proc.devRef .tc main_v161_0) _) (Proc.devRef .tc main_v161_1) _ (Proc.devRef .tc main_v161_1); rw [Function.update_self]; rfl
set_option backward.isDefEq.respectTransparency.types false in
def reg12 : Pipeline.RegionSeg (pcfgs (F := F)) adm (pdats m) () defs₀ Variants.none Lz lvz 12 :=
  record (pcfgs (F := F)) adm (pdats m) defs₀ Variants.none Lz lvz 12 launch12.win launch12.arr_whole launch12.block_pos launch12.stage_whole
    (fun c => (body12 (T28 m) c).loose) (fun _ _ => rfl) (fun _ _ => rfl) (fun c => (pdats m 12 c).share_full fun _ => rfl) (fun _ _ => rfl)
    (fun c => by unfold Pipeline.prefHeld; rw [show (Finset.univ : Finset (Fin 0)) = ∅ from rfl, BI.bigSep_empty])
    (S28 m) (S29 m) (fun c w => dat12_A (T28 m) c w) (ends12 m) (keeps12 m)
/-! ## Region 13 -/

theorem keeps13 (c : Dev nD) (b : Ref sig .tc) (hb : b ∉ Finset.univ.image (Pipeline.arrRef spec13)) : S30 m c b = S29 m c b := by
  have hne0 : b ≠ main_v162 := fun e => hb (Finset.mem_image.mpr ⟨2, Finset.mem_univ _, (e.symm : Pipeline.arrRef spec13 2 = b)⟩)
  unfold S30; rw [Function.update_of_ne (StableHlo.devRef_ne_of_ne hne0)]
set_option maxHeartbeats 2000000 in
theorem ends13 (c : Dev nD) : ∀ w : Fin cfg13.W, (dat13 (T29 m) c).arrAt w cfg13.N = S30 m c (Pipeline.arrRef spec13 w)
  | ⟨0, _⟩ => ((dat13 (T29 m) c).arrAt_in 0 rfl _).trans ((dat13_A (T29 m) c 0).trans (by show S29 m c main_v159 = S30 m c main_v159; unfold S30; rw [Function.update_of_ne (StableHlo.devRef_ne_of_ne (by decide : main_v159 ≠ main_v162))]))
  | ⟨1, _⟩ => ((dat13 (T29 m) c).arrAt_in 1 rfl _).trans ((dat13_A (T29 m) c 1).trans (by show S29 m c main_v125 = S30 m c main_v125; unfold S30; rw [Function.update_of_ne (StableHlo.devRef_ne_of_ne (by decide : main_v125 ≠ main_v162))]))
  | ⟨2, _⟩ => by unfold S30; show _ = Function.update (S29 m c) (Proc.devRef .tc main_v162) _ (Proc.devRef .tc main_v162); rw [Function.update_self]; rfl
set_option backward.isDefEq.respectTransparency.types false in
def reg13 : Pipeline.RegionSeg (pcfgs (F := F)) adm (pdats m) () defs₀ Variants.none Lz lvz 13 :=
  record (pcfgs (F := F)) adm (pdats m) defs₀ Variants.none Lz lvz 13 launch13.win launch13.arr_whole launch13.block_pos launch13.stage_whole
    (fun c => (body13 (T29 m) c).loose) (fun _ _ => rfl) (fun _ _ => rfl) (fun c => (pdats m 13 c).share_full fun _ => rfl) (fun _ _ => rfl)
    (fun c => by unfold Pipeline.prefHeld; rw [show (Finset.univ : Finset (Fin 0)) = ∅ from rfl, BI.bigSep_empty])
    (S29 m) (S30 m) (fun c w => dat13_A (T29 m) c w) (ends13 m) (keeps13 m)
/-! ## Region 14 -/

theorem keeps14 (c : Dev nD) (b : Ref sig .tc) (hb : b ∉ Finset.univ.image (Pipeline.arrRef spec14)) : S32 m c b = S31 m c b := by
  have hne0 : b ≠ main_v168 := fun e => hb (Finset.mem_image.mpr ⟨2, Finset.mem_univ _, (e.symm : Pipeline.arrRef spec14 2 = b)⟩)
  unfold S32; rw [Function.update_of_ne (StableHlo.devRef_ne_of_ne hne0)]
set_option maxHeartbeats 2000000 in
theorem ends14 (c : Dev nD) : ∀ w : Fin cfg14.W, (dat14 (T31 m) c).arrAt w cfg14.N = S32 m c (Pipeline.arrRef spec14 w)
  | ⟨0, _⟩ => ((dat14 (T31 m) c).arrAt_in 0 rfl _).trans ((dat14_A (T31 m) c 0).trans (by show S31 m c main_v1 = S32 m c main_v1; unfold S32; rw [Function.update_of_ne (StableHlo.devRef_ne_of_ne (by decide : main_v1 ≠ main_v168))]))
  | ⟨1, _⟩ => ((dat14 (T31 m) c).arrAt_in 1 rfl _).trans ((dat14_A (T31 m) c 1).trans (by show S31 m c main_v167 = S32 m c main_v167; unfold S32; rw [Function.update_of_ne (StableHlo.devRef_ne_of_ne (by decide : main_v167 ≠ main_v168))]))
  | ⟨2, _⟩ => by unfold S32; show _ = Function.update (S31 m c) (Proc.devRef .tc main_v168) _ (Proc.devRef .tc main_v168); rw [Function.update_self]; rfl
set_option backward.isDefEq.respectTransparency.types false in
def reg14 : Pipeline.RegionSeg (pcfgs (F := F)) adm (pdats m) () defs₀ Variants.none Lz lvz 14 :=
  record (pcfgs (F := F)) adm (pdats m) defs₀ Variants.none Lz lvz 14 launch14.win launch14.arr_whole launch14.block_pos launch14.stage_whole
    (fun c => (body14 (T31 m) c).loose) (fun _ _ => rfl) (fun _ _ => rfl) (fun c => (pdats m 14 c).share_full fun _ => rfl) (fun _ _ => rfl)
    (fun c => by unfold Pipeline.prefHeld; rw [show (Finset.univ : Finset (Fin 0)) = ∅ from rfl, BI.bigSep_empty])
    (S31 m) (S32 m) (fun c w => dat14_A (T31 m) c w) (ends14 m) (keeps14 m)
/-! ## Region 15 -/

theorem keeps15 (c : Dev nD) (b : Ref sig .tc) (hb : b ∉ Finset.univ.image (Pipeline.arrRef spec15)) : S36 m c b = S35 m c b := by
  have hne0 : b ≠ main_v211 := fun e => hb (Finset.mem_image.mpr ⟨4, Finset.mem_univ _, (e.symm : Pipeline.arrRef spec15 4 = b)⟩)
  unfold S36; rw [Function.update_of_ne (StableHlo.devRef_ne_of_ne hne0)]
set_option maxHeartbeats 2000000 in
theorem ends15 (c : Dev nD) : ∀ w : Fin cfg15.W, (dat15 (T35 m) c).arrAt w cfg15.N = S36 m c (Pipeline.arrRef spec15 w)
  | ⟨0, _⟩ => ((dat15 (T35 m) c).arrAt_in 0 rfl _).trans ((dat15_A (T35 m) c 0).trans (by show S35 m c main_v125 = S36 m c main_v125; unfold S36; rw [Function.update_of_ne (StableHlo.devRef_ne_of_ne (by decide : main_v125 ≠ main_v211))]))
  | ⟨1, _⟩ => ((dat15 (T35 m) c).arrAt_in 1 rfl _).trans ((dat15_A (T35 m) c 1).trans (by show S35 m c main_v125 = S36 m c main_v125; unfold S36; rw [Function.update_of_ne (StableHlo.devRef_ne_of_ne (by decide : main_v125 ≠ main_v211))]))
  | ⟨2, _⟩ => ((dat15 (T35 m) c).arrAt_in 2 rfl _).trans ((dat15_A (T35 m) c 2).trans (by show S35 m c main_v0 = S36 m c main_v0; unfold S36; rw [Function.update_of_ne (StableHlo.devRef_ne_of_ne (by decide : main_v0 ≠ main_v211))]))
  | ⟨3, _⟩ => ((dat15 (T35 m) c).arrAt_in 3 rfl _).trans ((dat15_A (T35 m) c 3).trans (by show S35 m c main_v210 = S36 m c main_v210; unfold S36; rw [Function.update_of_ne (StableHlo.devRef_ne_of_ne (by decide : main_v210 ≠ main_v211))]))
  | ⟨4, _⟩ => by unfold S36; show _ = Function.update (S35 m c) (Proc.devRef .tc main_v211) _ (Proc.devRef .tc main_v211); rw [Function.update_self]; rfl
set_option backward.isDefEq.respectTransparency.types false in
def reg15 : Pipeline.RegionSeg (pcfgs (F := F)) adm (pdats m) () defs₀ Variants.none Lz lvz 15 :=
  recordShared (pcfgs (F := F)) adm (pdats m) defs₀ Variants.none Lz lvz 15 winFacts₀15 arr_whole15 block_pos15 stage_whole15
    (fun c => (body15 (T35 m) c).loose) (fun _ _ => rfl) (fun _ _ => rfl) (fun _ _ => rfl)
    (fun c => by unfold Pipeline.prefHeld; rw [show (Finset.univ : Finset (Fin 0)) = ∅ from rfl, BI.bigSep_empty])
    (S35 m) (S36 m) (keeps15 m)
    (fun c => split15 (T35 m) c) (fun c => join15 (T35 m) (T36 m) c (ends15 m c))

end Cert.KernelIdeal.Run

end
-- ==== Proof.KI.RunCond.lean ====
/-
  The run of the idealized kernel program read back: every weakly fair execution of @main terminates without a fault, and
  every final memory holds the program's result at what the last boundary valuation has at the result's buffer, beside
  each argument as launched — given one segment record per kernel region, exactly as the conditional frame is.
-/
import proofs.«169176_j23261542875327_2_alg».proof.Proof.KI.RegionsP
import Idealize.ShloMosaic.Lib.Pipeline.Frame
import Idealize.ShloMosaic.Lib.Pipeline.Regions

set_option maxRecDepth 65536

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen Cert.KernelIdeal.GenP

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option maxHeartbeats 4000000 in
set_option backward.isDefEq.respectTransparency.types false in
/-- The conditional run: as the conditional frame, with the program's result buffer read off the last valuation too —
    every final memory holds the result at what the last boundary has there, and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 16) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 17 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE16 : ∀ c : Dev nD, E 16 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V10 m outs c) ∗ E 4 c) ⊢ R4.pre c)
    (hpost4 : ∀ c : Dev nD, R4.post c ⊢ iprop(StableHlo.held (c : Thread nD τ) (Pipeline.ucRefs τ sig) (V11 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V17 m outs c) ∗ E 7 c) ⊢ R7.pre c)
    (hpost7 : ∀ c : Dev nD, R7.post c ⊢ iprop(StableHlo.held (c : Thread nD τ) (Pipeline.ucRefs τ sig) (V18 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V19 m outs c) ∗ E 8 c) ⊢ R8.pre c)
    (hpost8 : ∀ c : Dev nD, R8.post c ⊢ iprop(StableHlo.held (c : Thread nD τ) (Pipeline.ucRefs τ sig) (V20 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V20 m outs c) ∗ E 9 c) ⊢ R9.pre c)
    (hpost9 : ∀ c : Dev nD, R9.post c ⊢ iprop(StableHlo.held (c : Thread nD τ) (Pipeline.ucRefs τ sig) (V21 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V22 m outs c) ∗ E 10 c) ⊢ R10.pre c)
    (hpost10 : ∀ c : Dev nD, R10.post c ⊢ iprop(StableHlo.held (c : Thread nD τ) (Pipeline.ucRefs τ sig) (V23 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V26 m outs c) ∗ E 11 c) ⊢ R11.pre c)
    (hpost11 : ∀ c : Dev nD, R11.post c ⊢ iprop(StableHlo.held (c : Thread nD τ) (Pipeline.ucRefs τ sig) (V27 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V28 m outs c) ∗ E 12 c) ⊢ R12.pre c)
    (hpost12 : ∀ c : Dev nD, R12.post c ⊢ iprop(StableHlo.held (c : Thread nD τ) (Pipeline.ucRefs τ sig) (V29 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V29 m outs c) ∗ E 13 c) ⊢ R13.pre c)
    (hpost13 : ∀ c : Dev nD, R13.post c ⊢ iprop(StableHlo.held (c : Thread nD τ) (Pipeline.ucRefs τ sig) (V30 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V31 m outs c) ∗ E 14 c) ⊢ R14.pre c)
    (hpost14 : ∀ c : Dev nD, R14.post c ⊢ iprop(StableHlo.held (c : Thread nD τ) (Pipeline.ucRefs τ sig) (V32 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V35 m outs c) ∗ E 15 c) ⊢ R15.pre c)
    (hpost15 : ∀ c : Dev nD, R15.post c ⊢ iprop(StableHlo.held (c : Thread nD τ) (Pipeline.ucRefs τ sig) (V36 m outs c) ∗ E 16 c)) :
    θ_run defs (onTc (τ := τ) (main (F := F))) ⟨m, fun _ => 0, ρ⟩ (fun r => ∀ c : Dev nD,
      r.2.mem ((c.tc : Thread nD τ).loc main_v227) = V41 m outs c main_v227
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15)
    (fun c Q => by
      rewrite [main_chain c, Seg.run_eq_chain,
        show (segs m outs 𝒱₀ L lv E ι pdats R0 R1 R2 R3 R4 R5 R6 R7 R8 R9 R10 R11 R12 R13 R14 R15 c).map Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          Prog.lift (.customCall (Pipeline.entry 4) ()),
          Prog.lift (.customCall (Pipeline.entry 5) ()),
          StableHlo.seq hostOps6,
          Prog.lift (.customCall (Pipeline.entry 6) ()),
          StableHlo.seq hostOps7,
          StableHlo.seq hostOps7_1,
          StableHlo.seq hostOps7_2,
          Prog.lift (.customCall (Pipeline.entry 7) ()),
          StableHlo.seq hostOps8,
          Prog.lift (.customCall (Pipeline.entry 8) ()),
          Prog.lift (.customCall (Pipeline.entry 9) ()),
          StableHlo.seq hostOps10,
          Prog.lift (.customCall (Pipeline.entry 10) ()),
          StableHlo.seq hostOps11,
          StableHlo.seq hostOps11_1,
          StableHlo.seq hostOps11_2,
          Prog.lift (.customCall (Pipeline.entry 11) ()),
          StableHlo.seq hostOps12,
          Prog.lift (.customCall (Pipeline.entry 12) ()),
          Prog.lift (.customCall (Pipeline.entry 13) ()),
          StableHlo.seq hostOps14,
          Prog.lift (.customCall (Pipeline.entry 14) ()),
          StableHlo.seq hostOps15,
          StableHlo.seq hostOps15_1,
          StableHlo.seq hostOps15_2,
          Prog.lift (.customCall (Pipeline.entry 15) ()),
          StableHlo.seq hostOps16,
          StableHlo.seq hostOps16_1,
          StableHlo.seq hostOps16_2,
          StableHlo.seq hostOps16_3,
          StableHlo.seq hostOps16_4 ] from rfl]
      exact .rfl)
    (fun c => by simp only [segs, Seg.pipes_host, Seg.pipes_region, Seg.pipes_nil]; decide +kernel) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V41 m outs c))
    (hch := fun c => ⟨hpre0 c, hpost0 c, hpre1 c, hpost1 c, hpre2 c, hpost2 c, .rfl, .rfl, hpre3 c, hpost3 c, hpre4 c, (hpost4 c).trans (hpre5 c), hpost5 c, hpre6 c, hpost6 c, .rfl, .rfl, hpre7 c, hpost7 c, hpre8 c, (hpost8 c).trans (hpre9 c), hpost9 c, hpre10 c, hpost10 c, .rfl, .rfl, hpre11 c, hpost11 c, hpre12 c, (hpost12 c).trans (hpre13 c), hpost13 c, hpre14 c, hpost14 c, .rfl, .rfl, hpre15 c, hpost15 c, .rfl, .rfl, .rfl, .rfl, sep_mono .rfl (hE16 c)⟩)
    (hinit := ?_) (QY := fun c s => s.mem ((c.tc : Thread nD τ).loc main_v227) = V41 m outs c main_v227 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V41 m outs c) s') $$ [Hh HSI]
    · isplitl [Hh] <;> iassumption
    icases Hr with ⟨%h, HSI⟩
    imodintro
    isplitr
    · ipureintro
      exact ⟨h (Proc.devRef .tc main_v227) (Finset.mem_filter.mpr ⟨StableHlo.devRef_mem_tcRefs main_v227, by decide⟩),
        (h (Proc.devRef .tc main_arg0) (Finset.mem_filter.mpr ⟨StableHlo.devRef_mem_tcRefs main_arg0, by decide⟩)).trans (V41_main_arg0 m outs c),
        (h (Proc.devRef .tc main_arg1) (Finset.mem_filter.mpr ⟨StableHlo.devRef_mem_tcRefs main_arg1, by decide⟩)).trans (V41_main_arg1 m outs c),
        (h (Proc.devRef .tc main_arg2) (Finset.mem_filter.mpr ⟨StableHlo.devRef_mem_tcRefs main_arg2, by decide⟩)).trans (V41_main_arg2 m outs c),
        (h (Proc.devRef .tc main_arg3) (Finset.mem_filter.mpr ⟨StableHlo.devRef_mem_tcRefs main_arg3, by decide⟩)).trans (V41_main_arg3 m outs c),
        (h (Proc.devRef .tc main_arg4) (Finset.mem_filter.mpr ⟨StableHlo.devRef_mem_tcRefs main_arg4, by decide⟩)).trans (V41_main_arg4 m outs c),
        (h (Proc.devRef .tc main_arg5) (Finset.mem_filter.mpr ⟨StableHlo.devRef_mem_tcRefs main_arg5, by decide⟩)).trans (V41_main_arg5 m outs c),
        (h (Proc.devRef .tc main_arg6) (Finset.mem_filter.mpr ⟨StableHlo.devRef_mem_tcRefs main_arg6, by decide⟩)).trans (V41_main_arg6 m outs c),
        (h (Proc.devRef .tc main_arg7) (Finset.mem_filter.mpr ⟨StableHlo.devRef_mem_tcRefs main_arg7, by decide⟩)).trans (V41_main_arg7 m outs c),
        (h (Proc.devRef .tc main_arg8) (Finset.mem_filter.mpr ⟨StableHlo.devRef_mem_tcRefs main_arg8, by decide⟩)).trans (V41_main_arg8 m outs c),
        (h (Proc.devRef .tc main_arg9) (Finset.mem_filter.mpr ⟨StableHlo.devRef_mem_tcRefs main_arg9, by decide⟩)).trans (V41_main_arg9 m outs c),
        (h (Proc.devRef .tc main_arg10) (Finset.mem_filter.mpr ⟨StableHlo.devRef_mem_tcRefs main_arg10, by decide⟩)).trans (V41_main_arg10 m outs c)⟩
    · iexact HSI

end Cert.KernelIdeal.Run

end
-- ==== Proof.KI.Frame.lean ====
/-
  The frame of the program: every weakly fair execution of @main from any memory with zero counters terminates without a
  fault, and every final memory holds each argument array as launched — the conditional frame at the regions' records,
  each entered from the boundary before it and left at the boundary after it, the generator register and the (empty)
  dues riding along; first with the program's result buffer read back too: it ends at what the last boundary has there.
-/
import proofs.«169176_j23261542875327_2_alg».proof.Proof.KI.Records
import proofs.«169176_j23261542875327_2_alg».proof.Proof.KI.RunCond

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen Cert.KernelIdeal.GenP Cert.KernelIdeal.Regs Cert.LibRegionRecord

variable {F : FTy → Type} [FloatOps F]

variable (m : (ℓ : Loc nD τ sig) → Buf (Elt F) ℓ) (ρ : Dev nD → PrngReg)

set_option maxHeartbeats 4000000 in
set_option backward.isDefEq.respectTransparency.types false in
/-- The run read back: the result buffer ends at the last boundary's contents, the arguments as launched. -/
theorem run_main : θ_run defs (onTc (τ := τ) (main (F := F))) ⟨m, fun _ => 0, ρ⟩ (fun r => ∀ c : Dev nD,
      r.2.mem ((c.tc : Thread nD τ).loc main_v227) = S41 m c main_v227
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (congrFun (V41_eq m c) _), (h c).2⟩)
    (run_cond m (Ix := Unit) (U := UR sig nD τ) (Lvl := ℕ) emb₁ () Variants.none Lz lvz (fun _ _ => rfl) ρ (results m) (pdats m)
    0 (fun _ => iprop(emp)) (initOf (Pipeline.cells cfgs cellOf_inj) (Pipeline.launchToks cfgs cellOf_inj)) (launch_element _)
    (fun _ c => Rest c) (rest_of_launch Lz lvz ρ) (fun c => rest_owes c)
    (reg0 m) (fun c => by exact .rfl) (fun c => by rw [V1_eq]; exact .rfl)
    (reg1 m) (fun c => by rw [V2_eq]; exact .rfl) (fun c => by rw [V3_eq]; exact .rfl)
    (reg2 m) (fun c => by rw [V4_eq]; exact .rfl) (fun c => by rw [V5_eq]; exact .rfl)
    (reg3 m) (fun c => by rw [V8_eq]; exact .rfl) (fun c => by rw [V9_eq]; exact .rfl)
    (reg4 m) (fun c => by rw [V10_eq]; exact .rfl) (fun c => by rw [V11_eq]; exact .rfl)
    (reg5 m) (fun c => by rw [V11_eq]; exact .rfl) (fun c => by rw [V12_eq]; exact .rfl)
    (reg6 m) (fun c => by rw [V13_eq]; exact .rfl) (fun c => by rw [V14_eq]; exact .rfl)
    (reg7 m) (fun c => by rw [V17_eq]; exact .rfl) (fun c => by rw [V18_eq]; exact .rfl)
    (reg8 m) (fun c => by rw [V19_eq]; exact .rfl) (fun c => by rw [V20_eq]; exact .rfl)
    (reg9 m) (fun c => by rw [V20_eq]; exact .rfl) (fun c => by rw [V21_eq]; exact .rfl)
    (reg10 m) (fun c => by rw [V22_eq]; exact .rfl) (fun c => by rw [V23_eq]; exact .rfl)
    (reg11 m) (fun c => by rw [V26_eq]; exact .rfl) (fun c => by rw [V27_eq]; exact .rfl)
    (reg12 m) (fun c => by rw [V28_eq]; exact .rfl) (fun c => by rw [V29_eq]; exact .rfl)
    (reg13 m) (fun c => by rw [V29_eq]; exact .rfl) (fun c => by rw [V30_eq]; exact .rfl)
    (reg14 m) (fun c => by rw [V31_eq]; exact .rfl) (fun c => by rw [V32_eq]; exact .rfl)
    (reg15 m) (fun c => by rw [V35_eq]; exact .rfl) (fun c => by rw [V36_eq]; exact .rfl))

/-- The frame, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_main m ρ)

end Cert.KernelIdeal.Run

end
-- ==== Proof.LibHostLine.lean ====
import Idealize.ShloMosaic.Lib.StableHlo.Run

/-! # A straight line of host operations, read off the program

A host program with no kernel launch is a straight line of whole-array operations.  The library runs such a line
from its LIST of operations (`StableHlo.seq`, `StableHlo.run_seq`).  When the program is long and printed in
windows, writing that list out a second time is expensive; this file reads it off the program term instead.

* `opsOf p` — the operations a program `p` requests, in order (the continuation of each request probed once);
* `IsLine keep p` — `p` is a line: each step is one `hlo` operation continued by a program that does not depend on
  the response, each operation touches TensorCore buffers only, allocates nothing, and writes no buffer of `keep`;
* for a line: `p = seq (opsOf p)`, the side conditions `run_seq` asks for, closure under sequencing
  (`IsLine.bind`, `opsOf_bind`), and every buffer of `keep` unchanged by `after (opsOf p)`. -/

noncomputable section

namespace Idealize.ShloMosaic.StableHlo

open Idealize.ShloMosaic Idealize.SL.Sem

variable {nD : Nat} {τ : Topo} {sig : RefSig} {Val : EltTy → Type} {Λ : Labels}

/-- The operations a program requests, in order: each `hloBegin` contributes its operation; every other request is
    passed over, its continuation probed at one response. -/
def opsOf [∀ e, Nonempty (Val e)] {α : Type} : Prog (TpuEff nD τ sig Val Λ .tc) α → List (HloOp τ sig Val)
  | .ret _ => []
  | .op (.hloBegin _ op) k => op :: opsOf (k ⟨⟩)
  | .op (.hloEnd _ _) k => opsOf (k fun _ => Classical.arbitrary _)
  | .op _ _ => []

variable [∀ e, Nonempty (Val e)]

/-- `p` is a straight line of host operations that keeps the buffers `keep`. -/
inductive IsLine (keep : Finset (DevRef τ sig)) : Prog (TpuEff nD τ sig Val Λ .tc) PUnit → Prop
  | ret : IsLine keep (.ret ⟨⟩)
  | step (op : HloOp τ sig Val) (p : Prog (TpuEff nD τ sig Val Λ .tc) PUnit) :
      IsLine keep p → op.bufs ⊆ tcRefs τ sig → op.fresh = ∅ → (∀ b ∈ keep, b ∉ op.writes) →
      IsLine keep (hlo rfl op fun _ => p)

variable {keep : Finset (DevRef τ sig)} {p q : Prog (TpuEff nD τ sig Val Λ .tc) PUnit}

/-- A line is the library's line over its own operations. -/
theorem IsLine.eq_seq (h : IsLine keep p) : p = seq (opsOf p) := by
  induction h with
  | ret => rfl
  | step op p _ _ _ _ ih =>
    show hlo rfl op (fun _ => p) = (hlo rfl op fun _ => .ret (⟨⟩ : PUnit)) >>= fun _ => seq (opsOf p)
    rw [← ih]
    rfl

/-- Every operation of a line touches TensorCore buffers only, allocates nothing and writes no kept buffer. -/
theorem IsLine.forall_mem (h : IsLine keep p) :
    ∀ op ∈ opsOf p, op.bufs ⊆ tcRefs τ sig ∧ op.fresh = ∅ ∧ ∀ b ∈ keep, b ∉ op.writes := by
  induction h with
  | ret => intro op hop; exact absurd hop List.not_mem_nil
  | step op p _ hb hf hk ih =>
    intro o ho
    have ho' : o ∈ op :: opsOf p := ho
    rcases List.mem_cons.mp ho' with rfl | ho''
    · exact ⟨hb, hf, hk⟩
    · exact ih o ho''

/-- Two lines one after the other are a line … -/
theorem IsLine.bind (h : IsLine keep p) (hq : IsLine keep q) : IsLine keep (p >>= fun _ => q) := by
  induction h with
  | ret => exact hq
  | step op p _ hb hf hk ih => exact .step op (p >>= fun _ => q) ih hb hf hk

/-- … whose operations are the first line's followed by the second's. -/
theorem IsLine.opsOf_bind (h : IsLine keep p) (q : Prog (TpuEff nD τ sig Val Λ .tc) PUnit) :
    opsOf (p >>= fun _ => q) = opsOf p ++ opsOf q := by
  induction h with
  | ret => rfl
  | step op p _ _ _ _ ih =>
    show op :: opsOf (p >>= fun _ => q) = op :: (opsOf p ++ opsOf q)
    rw [ih]

/-- A kept buffer holds after the line what it held before. -/
theorem IsLine.after_keep (h : IsLine keep p) (V : Valuation τ sig Val) (b : DevRef τ sig) (hb : b ∈ keep) :
    after (opsOf p) V b = V b :=
  after_of_forall_not_mem _ V fun op hop => (h.forall_mem op hop).2.2 b hb

/-- THE RUN OF A LINE: on a signature that scopes nothing, every weakly fair execution of a program whose @main is a
    line terminates with each TensorCore buffer at the fold of the line's operations over its launch contents. -/
theorem run_line (hR : (Finset.univ.filter fun b : Ref sig .tc => b.isScoped) = ∅)
    (hC : (Finset.univ.filter fun sm : SemLoc sig => sm.isScoped .tc) = ∅)
    (defs : Defs nD τ sig Val Λ) (main : Dev nD → Prog (TpuEff nD τ sig Val Λ .tc) PUnit)
    (keep : Finset (DevRef τ sig)) (hl : ∀ d, IsLine keep (main d))
    (m : (ℓ : Loc nD τ sig) → Buf Val ℓ) (ρ : Dev nD → PrngReg) :
    θ_run defs (onTc (τ := τ) main) ⟨m, fun _ => 0, ρ⟩ fun r =>
      ∀ (d : Dev nD) (b : Ref sig .tc), r.2.mem ((d.tc : Thread nD τ).loc b)
        = after (opsOf (main d)) (launchContents m d) (Proc.devRef .tc b) :=
  run_seq hR hC defs main (fun d => opsOf (main d)) (fun d => (hl d).eq_seq)
    (fun d => List.forall_iff_forall_mem.mpr fun op hop => ((hl d).forall_mem op hop).1) m ρ
    (fun d op hop => ((hl d).forall_mem op hop).2.1)

end Idealize.ShloMosaic.StableHlo

end
-- ==== Proof.RefLine.lean ====
/-
  The reference program is a straight line of host operations: each step of @main is one whole-array operation
  continued by a program that does not read the response, every operation touches TensorCore buffers only, allocates
  nothing, and writes a buffer that is not one of the eleven argument arrays.  From this the run of the line follows:
  every weakly fair execution terminates with each buffer at the fold of the line's operations over the launch
  contents, and each argument array ends as it was launched.
-/
import proofs.«169176_j23261542875327_2_alg».proof.ReferenceIdeal
import proofs.«169176_j23261542875327_2_alg».proof.Proof.Gen.ReferenceIdeal
import proofs.«169176_j23261542875327_2_alg».proof.Proof.LibHostLine

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The eleven argument arrays, as references. -/
def argList : List (Ref sig .tc) :=
  [main_arg0, main_arg1, main_arg2, main_arg3, main_arg4, main_arg5, main_arg6, main_arg7, main_arg8, main_arg9, main_arg10]

/-- The argument arrays, as device buffers: what the line keeps. -/
def keep : Finset (DevRef τ sig) := (argList.map (Proc.devRef (τ := τ) .tc)).toFinset

theorem mem_keep {r : Ref sig .tc} (h : r ∈ argList) : Proc.devRef (τ := τ) .tc r ∈ keep :=
  List.mem_toFinset.mpr (List.mem_map_of_mem h)

/-- An operation whose one written buffer is a reference outside the argument list writes no kept buffer. -/
theorem keep_ok (op : HloOp τ sig (Elt F)) (y : Ref sig .tc) (hw : op.writes = {Proc.devRef .tc y}) (hy : y ∉ argList) :
    ∀ b ∈ keep, b ∉ op.writes := by
  intro b hb hbw
  rw [hw, Finset.mem_singleton] at hbw
  subst hbw
  obtain ⟨x, hx, he⟩ := List.mem_map.mp (List.mem_toFinset.mp hb)
  exact hy (Proc.devRef_injective _ he ▸ hx)

/-- One step of a printed line: an operation continued by nothing, then the rest. -/
theorem step_bind {Λ : Labels} {kp : Finset (DevRef τ sig)} (op : HloOp τ sig (Elt F))
    (q : Prog (TpuEff nD τ sig (Elt F) Λ .tc) PUnit) (h : IsLine kp q)
    (hb : op.bufs ⊆ tcRefs τ sig) (hf : op.fresh = ∅) (hk : ∀ b ∈ kp, b ∉ op.writes) :
    IsLine kp ((hlo rfl op fun _ => .ret (⟨⟩ : PUnit)) >>= fun _ => q) :=
  IsLine.step op q h hb hf hk

/-- One step: the operation's buffers are TensorCore references, it allocates nothing, and its result buffer is no argument. -/
macro "line_step" : tactic =>
  `(tactic| (
      refine step_bind _ _ ?_ ?_ ?_ ?_
      rotate_left
      · first | exact nullary_bufs_sub .. | exact unary_bufs_sub .. | exact binary_bufs_sub .. | exact ternary_bufs_sub ..
      · rfl
      · exact keep_ok _ _ rfl (by decide)))

set_option maxRecDepth 8192 in
set_option maxHeartbeats 4000000 in
/-- The statements of window 0 form a line that keeps the arguments. -/
theorem line_part0 (d : Dev nD) : IsLine keep (main_part0 (F := F) d) := by
  unfold main_part0
  iterate 50 line_step
  refine IsLine.bind ?_ ?_
  · unfold fn_norm.body
    iterate 4 line_step
    exact .ret
  iterate 9 line_step
  exact .ret

set_option maxRecDepth 8192 in
set_option maxHeartbeats 4000000 in
/-- The statements of window 1 form a line that keeps the arguments. -/
theorem line_part1 (d : Dev nD) : IsLine keep (main_part1 (F := F) d) := by
  unfold main_part1
  iterate 60 line_step
  exact .ret

set_option maxRecDepth 8192 in
set_option maxHeartbeats 4000000 in
/-- The statements of window 2 form a line that keeps the arguments. -/
theorem line_part2 (d : Dev nD) : IsLine keep (main_part2 (F := F) d) := by
  unfold main_part2
  iterate 7 line_step
  refine IsLine.bind ?_ ?_
  · unfold fn_norm.body
    iterate 4 line_step
    exact .ret
  iterate 52 line_step
  exact .ret

set_option maxRecDepth 8192 in
set_option maxHeartbeats 4000000 in
/-- The statements of window 3 form a line that keeps the arguments. -/
theorem line_part3 (d : Dev nD) : IsLine keep (main_part3 (F := F) d) := by
  unfold main_part3
  iterate 24 line_step
  refine IsLine.bind ?_ ?_
  · unfold fn_norm.body
    iterate 4 line_step
    exact .ret
  iterate 35 line_step
  exact .ret

set_option maxRecDepth 8192 in
set_option maxHeartbeats 4000000 in
/-- The statements of window 4 form a line that keeps the arguments. -/
theorem line_part4 (d : Dev nD) : IsLine keep (main_part4 (F := F) d) := by
  unfold main_part4
  iterate 41 line_step
  refine IsLine.bind ?_ ?_
  · unfold fn_norm.body
    iterate 4 line_step
    exact .ret
  iterate 18 line_step
  exact .ret

set_option maxRecDepth 8192 in
set_option maxHeartbeats 4000000 in
/-- The statements of window 5 form a line that keeps the arguments. -/
theorem line_part5 (d : Dev nD) : IsLine keep (main_part5 (F := F) d) := by
  unfold main_part5
  iterate 14 line_step
  refine IsLine.bind ?_ ?_
  · unfold fn_norm_0.body
    iterate 5 line_step
    exact .ret
  iterate 5 line_step
  refine IsLine.bind ?_ ?_
  · unfold fn_norm_0.body
    iterate 5 line_step
    exact .ret
  iterate 10 line_step
  refine IsLine.bind ?_ ?_
  · unfold fn_log_softmax.body
    iterate 15 line_step
    exact .ret
  exact .ret

/-- @main is a line that keeps the arguments. -/
theorem line_main (d : Dev nD) : IsLine (keep) (main (F := F) d) :=
  (line_part0 d).bind ((line_part1 d).bind ((line_part2 d).bind ((line_part3 d).bind ((line_part4 d).bind (line_part5 d)))))

theorem scopedRefs_eq : (Finset.univ.filter fun b : Ref sig .tc => b.isScoped) = ∅ := by decide
theorem scopedSems_eq : (Finset.univ.filter fun sm : SemLoc sig => sm.isScoped .tc) = ∅ := by decide

/-- The operations of @main, in order, read off the program. -/
def ops (d : Dev nD) : List (HloOp τ sig (Elt F)) := opsOf (main (F := F) d)

/-- THE RUN: every weakly fair execution of the reference terminates, each buffer at the fold of the operations over the
    launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (ops (F := F) d) (launchContents m d) (Proc.devRef .tc b) :=
  run_line scopedRefs_eq scopedSems_eq defs main keep line_main m ρ

/-- An argument array holds after the line what it held at launch. -/
theorem after_arg (d : Dev nD) (V : Valuation τ sig (Elt F)) {r : Ref sig .tc} (h : r ∈ argList) :
    after (ops (F := F) d) V (Proc.devRef .tc r) = V (Proc.devRef .tc r) :=
  (line_main d).after_keep V _ (mem_keep h)

/-- The reference runs to the end without a fault, its eleven argument arrays unchanged. -/
theorem run_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨(h c main_arg0).trans (after_arg c _ (by decide)), (h c main_arg1).trans (after_arg c _ (by decide)),
     (h c main_arg2).trans (after_arg c _ (by decide)), (h c main_arg3).trans (after_arg c _ (by decide)),
     (h c main_arg4).trans (after_arg c _ (by decide)), (h c main_arg5).trans (after_arg c _ (by decide)),
     (h c main_arg6).trans (after_arg c _ (by decide)), (h c main_arg7).trans (after_arg c _ (by decide)),
     (h c main_arg8).trans (after_arg c _ (by decide)), (h c main_arg9).trans (after_arg c _ (by decide)),
     (h c main_arg10).trans (after_arg c _ (by decide))⟩) (run_after m ρ)

end Cert.ReferenceIdeal.RefValue

end
-- ==== Proof.RefFrame.lean ====
/-
  The reference program's frame: every weakly fair execution of the reference's @main — a straight line of host
  operations, no kernel region — terminates without a fault and leaves each of the eleven argument arrays as it was
  launched: no operation of the line writes an argument array.
-/
import proofs.«169176_j23261542875327_2_alg».proof.Defs
import proofs.«169176_j23261542875327_2_alg».proof.Proof.Gen.ReferenceIdeal
import proofs.«169176_j23261542875327_2_alg».proof.Proof.Gen.Pre_finite_inputs
import proofs.«169176_j23261542875327_2_alg».proof.Proof.RefLine

noncomputable section

namespace Cert.ReferenceIdeal.RefValue

open Idealize.ShloMosaic Idealize.SL.Sem

/-- The reference runs to the end without a fault, its argument arrays unchanged. -/
theorem frame_ri [hR : Cert.ReferenceIdeal.Facts] [hP : Cert.Pre_finite_inputs.Facts] : Cert.frame_ReferenceIdeal :=
  fun m ρ _ => run_frame (F := Ideal) m ρ

end Cert.ReferenceIdeal.RefValue

end
-- ==== Proof.NetSpec.lean ====
/-
  The whole-array functions the kernel regions compute, entry by entry.

  N = 4096 nodes, 256 features.  Square arrays are indexed by a rank-2 index over 4096 x 4096, tall ones over 4096 x 256;
  entries are extended reals.  Each function is a formula for the entry at (p, q), every contraction a plain sum:

    mea      (1/2 · ea) · m                                   the masked edge term
    mm       Σ_k a(p,k) · b(k,q)                              a square array times a tall one
    mmT      Σ_k a(k,p) · b(k,q)                              the transposed square array times a tall one
    sumProd  Σ_k (a(p,k) + m(p,k)) · r(k,q)                   (a + m) times a tall array
    mixProd  Σ_k (a(p,k) · e(p,k) + m(p,k)) · r(k,q)          (a ∘ e + m) times a tall array
    gramUpd  ((Σ_l y(p,l) · y(q,l)) − e(p,q)) − 1/2 · m(p,q)  the edge-weight update from the Gram matrix of y

  No program is imported: these are the common vocabulary of the two programs' value statements.
-/
import Idealize.ShloMosaic.PureOps.Ideal
import Idealize.ShloMosaic.Lib.ValueIdx

noncomputable section

namespace Cert.Net

open Idealize.ShloMosaic Idealize.ShloMosaic.ValueIdx

/-- A 4096 x 4096 array of extended reals. -/
abbrev Sq : Type := (⟨2, ![4096, 4096]⟩ : Shape).Idx → EReal
/-- A 4096 x 256 array of extended reals. -/
abbrev Tall : Type := (⟨2, ![4096, 256]⟩ : Shape).Idx → EReal

/-- The masked edge term: (1/2 · ea) · m, entry by entry. -/
def mea (ea m : Sq) : Sq := fun i => (Ideal.ofBits .f32 0x3F000000#32 * ea i) * m i

/-- a · b. -/
def mm (a : Sq) (b : Tall) : Tall := fun i => ∑ k : Fin 4096, a (ix2 (i 0) k) * b (ix2 k (i 1))

/-- aᵀ · b. -/
def mmT (a : Sq) (b : Tall) : Tall := fun i => ∑ k : Fin 4096, a (ix2 k (i 0)) * b (ix2 k (i 1))

/-- (a + m) · r. -/
def sumProd (a m : Sq) (r : Tall) : Tall :=
  fun i => ∑ k : Fin 4096, (a (ix2 (i 0) k) + m (ix2 (i 0) k)) * r (ix2 k (i 1))

/-- (a ∘ e + m) · r. -/
def mixProd (a e m : Sq) (r : Tall) : Tall :=
  fun i => ∑ k : Fin 4096, (a (ix2 (i 0) k) * e (ix2 (i 0) k) + m (ix2 (i 0) k)) * r (ix2 k (i 1))

/-- (y · yᵀ − e) − 1/2 · m. -/
def gramUpd (y : Tall) (e m : Sq) : Sq :=
  fun i => ((∑ l : Fin 256, y (ix2 (i 0) l) * y (ix2 (i 1) l)) - e i) - Ideal.ofBits .f32 0x3F000000#32 * m i

theorem mm_apply (a : Sq) (b : Tall) (p : Fin 4096) (q : Fin 256) :
    mm a b (ix2 p q) = ∑ k : Fin 4096, a (ix2 p k) * b (ix2 k q) := rfl
theorem mmT_apply (a : Sq) (b : Tall) (p : Fin 4096) (q : Fin 256) :
    mmT a b (ix2 p q) = ∑ k : Fin 4096, a (ix2 k p) * b (ix2 k q) := rfl
theorem sumProd_apply (a m : Sq) (r : Tall) (p : Fin 4096) (q : Fin 256) :
    sumProd a m r (ix2 p q) = ∑ k : Fin 4096, (a (ix2 p k) + m (ix2 p k)) * r (ix2 k q) := rfl
theorem mixProd_apply (a e m : Sq) (r : Tall) (p : Fin 4096) (q : Fin 256) :
    mixProd a e m r (ix2 p q) = ∑ k : Fin 4096, (a (ix2 p k) * e (ix2 p k) + m (ix2 p k)) * r (ix2 k q) := rfl
theorem gramUpd_apply (y : Tall) (e m : Sq) (p q : Fin 4096) :
    gramUpd y e m (ix2 p q)
      = ((∑ l : Fin 256, y (ix2 p l) * y (ix2 q l)) - e (ix2 p q)) - Ideal.ofBits .f32 0x3F000000#32 * m (ix2 p q) := rfl

end Cert.Net

end
-- ==== Proof.KDefs.lean ====
/-
  The idealized kernel program's computation, as named functions of the eleven argument arrays.

  The program runs the same four-layer network as the reference, with the work split between sixteen kernel regions
  and stretches of whole-array host operations.  Each region's output is given here by its whole-array formula (the
  entrywise functions of Cert.Net); each host stretch is the composition of the whole-array operations the program
  performs, in the program's order.  With mea = (1/2 · EA) · w22, y₀ = feat, z₀ = z0:

      layer 0:   oy = (adj + mea) · y,   oz = (adj + mea) · z,   t1 = the column sums of y on every row
      layer > 0: oy = (adj ∘ EP + mea) · y,   oz = (adj ∘ EP + mea) · z,   t1 = EPᵀ · y
      always:    t3   = y · (yᵀ · y)
                 temp = (t1 + oy) − t3
                 y'   = 0.5 · (1 / (1 + exp (−(w1 · temp)))) + feat
                 z'   = z − oz
                 M    = the edge numbers ‖z[i_e] − z[j_e]‖ · val_e scatter-added into a zero matrix
                 EP'  = (y · yᵀ − mea) − 0.5 · M

  and the result is log_softmax ([ẑ | ŷ] w2_w + w2_b), ŷ and ẑ the last y and z with every row divided by
  max (its Euclidean norm, 1e-12).  A change of float format is part of the program's text (w1 and y are handed to
  the regions rounded to bf16); at the extended reals it is the identity.
-/
import proofs.«169176_j23261542875327_2_alg».proof.KernelIdeal
import proofs.«169176_j23261542875327_2_alg».proof.Proof.Gen.KernelIdeal
import proofs.«169176_j23261542875327_2_alg».proof.Proof.NetSpec

noncomputable section

namespace Cert.KernelIdeal.KDefs

open Cert.KernelIdeal Idealize.ShloMosaic Idealize.SL.Sem
open Cert.KernelIdeal.Facts₀

/-! ## The array types -/

abbrev T0 (F : FTy → Type) : Type := (⟨S_, .f32⟩ : BufTy).Contents (Elt F)
abbrev T42 (F : FTy → Type) : Type := (⟨S4096x256, .f32⟩ : BufTy).Contents (Elt F)
abbrev T24 (F : FTy → Type) : Type := (⟨S256x4096, .f32⟩ : BufTy).Contents (Elt F)
abbrev T44 (F : FTy → Type) : Type := (⟨S4096x4096, .f32⟩ : BufTy).Contents (Elt F)
abbrev T41 (F : FTy → Type) : Type := (⟨S4096x1, .f32⟩ : BufTy).Contents (Elt F)
abbrev T4 (F : FTy → Type) : Type := (⟨S4096, .f32⟩ : BufTy).Contents (Elt F)
abbrev T45 (F : FTy → Type) : Type := (⟨S4096x512, .f32⟩ : BufTy).Contents (Elt F)
abbrev T416 (F : FTy → Type) : Type := (⟨S4096x16, .f32⟩ : BufTy).Contents (Elt F)
abbrev TW (F : FTy → Type) : Type := (⟨S512x16, .f32⟩ : BufTy).Contents (Elt F)
abbrev TB16 (F : FTy → Type) : Type := (⟨S16, .f32⟩ : BufTy).Contents (Elt F)
abbrev T116 (F : FTy → Type) : Type := (⟨S1x16, .f32⟩ : BufTy).Contents (Elt F)
abbrev TE (F : FTy → Type) : Type := (⟨S65536, .f32⟩ : BufTy).Contents (Elt F)
abbrev TE2 (F : FTy → Type) : Type := (⟨S65536x256, .f32⟩ : BufTy).Contents (Elt F)
abbrev TI (F : FTy → Type) : Type := (⟨S65536, .i32⟩ : BufTy).Contents (Elt F)
abbrev TI0 (F : FTy → Type) : Type := (⟨S_, .i32⟩ : BufTy).Contents (Elt F)
abbrev TI1 (F : FTy → Type) : Type := (⟨S65536x1, .i32⟩ : BufTy).Contents (Elt F)
abbrev TI2 (F : FTy → Type) : Type := (⟨S65536x2, .i32⟩ : BufTy).Contents (Elt F)
abbrev TBool (F : FTy → Type) : Type := (⟨S65536, .i1⟩ : BufTy).Contents (Elt F)

abbrev T42b (F : FTy → Type) : Type := (⟨S4096x256, .bf16⟩ : BufTy).Contents (Elt F)
abbrev T44b (F : FTy → Type) : Type := (⟨S4096x4096, .bf16⟩ : BufTy).Contents (Elt F)
abbrev T256 (F : FTy → Type) : Type := (⟨S256, .f32⟩ : BufTy).Contents (Elt F)
abbrev T1256 (F : FTy → Type) : Type := (⟨S1x256, .f32⟩ : BufTy).Contents (Elt F)
abbrev T2256 (F : FTy → Type) : Type := (⟨S256x256, .f32⟩ : BufTy).Contents (Elt F)

variable {F : FTy → Type} [FloatOps F]

/-! ## Constant arrays -/

def one0 : T0 F := constant S_ .f32 0x3F800000#32
def half0 : T0 F := constant S_ .f32 0x3F000000#32
def zero0 : T0 F := constant S_ .f32 0x00000000#32
def ones44 : T44 F := (broadcastInDim S4096x4096 ![] bcast_S_S4096x4096 : T0 F → T44 F) one0
def halves44 : T44 F := (broadcastInDim S4096x4096 ![] bcast_S_S4096x4096 : T0 F → T44 F) half0
def zeros44 : T44 F := (broadcastInDim S4096x4096 ![] bcast_S_S4096x4096 : T0 F → T44 F) zero0
def ones42 : T42 F := (broadcastInDim S4096x256 ![] bcast_S_S4096x256 : T0 F → T42 F) one0
def halves42 : T42 F := (broadcastInDim S4096x256 ![] bcast_S_S4096x256 : T0 F → T42 F) half0

/-! ## The host stretches of one layer -/

/-- A square array rounded to bf16. -/
def bf44 (w : T44 F) : T44b F := ((truncf .bf16 · bitsLt_bf16_f32) : T44 F → T44b F) w

/-- A tall array rounded to bf16. -/
def bf42 (y : T42 F) : T42b F := ((truncf .bf16 · bitsLt_bf16_f32) : T42 F → T42b F) y

/-- The column sums of y, on every row. -/
def colSum (y : T42 F) : T42 F :=
  (broadcastInDim S4096x256 ![0, 1] bcast_S1x256_S4096x256_0_1 : T1256 F → T42 F)
    ((broadcastInDim S1x256 ![1] bcast_S256_S1x256_1 : T256 F → T1256 F)
      (((fun x v => Host.reduceAdd x v reducesTo_S4096x256_S256_d0 h_S_) : T42 F → T0 F → T256 F) y zero0))

/-- yᵀ. -/
def tr (y : T42 F) : T24 F := ((transpose S256x4096 [1, 0] · transposes_S4096x256_S256x4096_1_0) : T42 F → T24 F) y

/-- yᵀ y, 256 x 256. -/
def gram (y : T42 F) : T2256 F :=
  ((fun l r => Host.dotGeneral dot_S256x4096_S4096x256_S256x256_1_0_0_1_n_n none l r) : T24 F → T42 F → T2256 F) (tr y) y

/-- y (yᵀ y). -/
def gramTimes (y : T42 F) : T42 F :=
  ((fun l r => Host.dotGeneral dot_S4096x256_S256x256_S4096x256_1_0_0_1_n_n none l r) : T42 F → T2256 F → T42 F) y (gram y)

/-- temp = (t1 + oy) − t3. -/
def tempOf (t1 oy t3 : T42 F) : T42 F :=
  (subf : T42 F → T42 F → T42 F) ((addf : T42 F → T42 F → T42 F) t1 oy) t3

/-- 1 / (1 + exp (−t)). -/
def sigOf (t : T42 F) : T42 F :=
  (Host.divf : T42 F → T42 F → T42 F) ones42
    ((addf : T42 F → T42 F → T42 F) ones42 ((Host.exp : T42 F → T42 F) ((Host.negf : T42 F → T42 F) t)))

/-- y' = 0.5 · s + feat. -/
def yNext (s feat : T42 F) : T42 F :=
  (addf : T42 F → T42 F → T42 F) ((mulf : T42 F → T42 F → T42 F) halves42 s) feat

/-- z' = z − oz. -/
def zNext (z oz : T42 F) : T42 F := (subf : T42 F → T42 F → T42 F) z oz

/-! ### The edge chain: node indices, gathered rows, edge numbers, the scattered matrix -/

def zerosI : TI F := (broadcastInDim S65536 ![] bcast_S_S65536 : TI0 F → TI F) (constantI S_ 32 0#32)
def nodesI : TI F := (broadcastInDim S65536 ![] bcast_S_S65536 : TI0 F → TI F) (constantI S_ 32 4096#32)
/-- idx < 0. -/
def ltz (idx : TI F) : TBool F := (cmpi .slt : TI F → TI F → TBool F) idx (zerosI (F := F))
/-- idx + N. -/
def plusN (idx : TI F) : TI F := (addi : TI F → TI F → TI F) idx (nodesI (F := F))
/-- A node index with a negative one wrapped once. -/
def nidx (idx : TI F) : TI F := (select : TBool F → TI F → TI F → TI F) (ltz idx) (plusN idx) idx
/-- The wrapped indices as a column. -/
def col (idx : TI F) : TI1 F := (broadcastInDim S65536x1 ![0] bcast_S65536_S65536x1_0 : TI F → TI1 F) (nidx idx)
/-- Row idx_e of z, for every edge e. -/
def gath (z : T42 F) (idx : TI F) : TE2 F :=
  ((fun x i => Host.gather gather_S4096x256_S65536x1_S65536x256_1_0_n_n_0_1_1256 x i) : T42 F → TI1 F → TE2 F) z (col idx)
/-- z[i_e] − z[j_e]. -/
def edgeDiff (z : T42 F) (ei ej : TI F) : TE2 F := (subf : TE2 F → TE2 F → TE2 F) (gath z ei) (gath z ej)
/-- The Euclidean norm of every row. -/
def rowNormE (d : TE2 F) : TE F :=
  Host.sqrt (Host.reduceAdd ((mulf : TE2 F → TE2 F → TE2 F) d d) (zero0 : T0 F) reducesTo_S65536x256_S65536_d1 h_S_)
/-- P_e = ‖z[i_e] − z[j_e]‖ · val_e. -/
def edgeP (z : T42 F) (ei ej : TI F) (ev : TE F) : TE F :=
  (mulf : TE F → TE F → TE F) (rowNormE (edgeDiff z ei ej)) ev
/-- The index pairs (i_e, j_e). -/
def pairIdx (ei ej : TI F) : TI2 F :=
  ((fun a b => concatenate S65536x2 1 [⟨S65536x1, a⟩, ⟨S65536x1, b⟩] concatenates_S65536x1_S65536x1_S65536x2_d1) : TI1 F → TI1 F → TI2 F)
    (col ei) (col ej)
/-- M: the edge numbers scatter-added into a zero matrix. -/
def edgeM (P : TE F) (ei ej : TI F) : T44 F :=
  ((fun x i u => Host.scatterAdd scatter_S4096x4096_S65536x2_S65536_n_01_01_1 x i u) : T44 F → TI2 F → TE F → T44 F)
    zeros44 (pairIdx ei ej) P

/-! ## The tail: row normalisation, concatenation, the last matmul with bias, log_softmax -/

def rowNorm (y : T42 F) : T41 F :=
  Host.sqrt ((broadcastInDim S4096x1 ![0] bcast_S4096_S4096x1_0 : T4 F → T41 F)
    (Host.reduceAdd ((mulf : T42 F → T42 F → T42 F) y y) (zero0 : T0 F) reducesTo_S4096x256_S4096_d1 h_S_))
def epsCol : T41 F := (broadcastInDim S4096x1 ![] bcast_S_S4096x1 : T0 F → T41 F) (constant S_ .f32 0x2B8CBCCC#32)
/-- Every row divided by max (its norm, eps). -/
def normalize (y : T42 F) : T42 F :=
  (Host.divf : T42 F → T42 F → T42 F) y
    ((broadcastInDim S4096x256 ![0, 1] bcast_S4096x1_S4096x256_0_1 : T41 F → T42 F) ((maximumf : T41 F → T41 F → T41 F) (rowNorm y) epsCol))
/-- [ẑ | ŷ] w2_w + w2_b. -/
def logits (zn yn : T42 F) (w2w : TW F) (w2b : TB16 F) : T416 F :=
  (addf : T416 F → T416 F → T416 F)
    (((fun l r => Host.dotGeneral dot_S4096x512_S512x16_S4096x16_1_0_0_1_n_n none l r) : T45 F → TW F → T416 F)
      (((fun a b => concatenate S4096x512 1 [⟨S4096x256, a⟩, ⟨S4096x256, b⟩] concatenates_S4096x256_S4096x256_S4096x512_d1) : T42 F → T42 F → T45 F) zn yn) w2w)
    ((broadcastInDim S4096x16 ![0, 1] bcast_S1x16_S4096x16_0_1 : T116 F → T416 F)
      ((broadcastInDim S1x16 ![1] bcast_S16_S1x16_1 : TB16 F → T116 F) w2b))
def negInf0 : T0 F := constant S_ .f32 0xFF800000#32
/-- x minus its row maximum. -/
def shifted (x : T416 F) : T416 F :=
  (subf : T416 F → T416 F → T416 F) x
    ((broadcastInDim S4096x16 ![0, 1] bcast_S4096x1_S4096x16_0_1 : T41 F → T416 F)
      ((broadcastInDim S4096x1 ![0] bcast_S4096_S4096x1_0 : T4 F → T41 F)
        ((maximumf : T4 F → T4 F → T4 F) ((broadcastInDim S4096 ![] bcast_S_S4096 : T0 F → T4 F) negInf0)
          (Host.reduce FloatOps.maximumf x (negInf0 : T0 F) reducesTo_S4096x16_S4096_d1 h_S_))))
/-- log_softmax over the rows. -/
def logSoftmax (x : T416 F) : T416 F :=
  (subf : T416 F → T416 F → T416 F) (shifted x)
    ((broadcastInDim S4096x16 ![0, 1] bcast_S4096x1_S4096x16_0_1 : T41 F → T416 F)
      (Host.log ((broadcastInDim S4096x1 ![0] bcast_S4096_S4096x1_0 : T4 F → T41 F)
        (Host.reduceAdd (Host.exp (shifted x)) (zero0 : T0 F) reducesTo_S4096x16_S4096_d1 h_S_))))
/-- The result from the last y and z. -/
def tailOut (y z : T42 F) (w2w : TW F) (w2b : TB16 F) : T416 F := logSoftmax (logits (normalize z) (normalize y) w2w w2b)

/-! ## The four layers, unrolled, at the extended reals -/

/-- The eleven argument arrays, in the program's order. -/
structure Args where
  feat : T42 Ideal
  z0 : T42 Ideal
  w1 : T44 Ideal
  EA : T44 Ideal
  w2w : TW Ideal
  w2b : TB16 Ideal
  adj : T44 Ideal
  w22 : T44 Ideal
  ev : TE Ideal
  ei : TI Ideal
  ej : TI Ideal

namespace Args
variable (a : Args)

/-- Region 0. -/
def mea : T44 Ideal := Net.mea a.EA a.w22
/-- w1 as the regions receive it. -/
def w1b : T44b Ideal := bf44 a.w1

/-- Region 1, first output. -/
def oy0 : T42 Ideal := Net.sumProd a.adj a.mea (bf42 a.feat)
/-- Region 1, second output. -/
def oz0 : T42 Ideal := Net.sumProd a.adj a.mea a.z0
def temp0 : T42 Ideal := tempOf (colSum a.feat) a.oy0 (gramTimes a.feat)
/-- Region 2. -/
def u0 : T42 Ideal := Net.mm a.w1b a.temp0
def y1 : T42 Ideal := yNext (sigOf a.u0) a.feat
def z1 : T42 Ideal := zNext a.z0 a.oz0
def M0 : T44 Ideal := edgeM (edgeP a.z0 a.ei a.ej a.ev) a.ei a.ej
/-- Region 3. -/
def EP1 : T44 Ideal := Net.gramUpd a.feat a.mea a.M0

/-- Region 4, first output. -/
def oy1 : T42 Ideal := Net.mixProd a.adj a.EP1 a.mea (bf42 a.y1)
/-- Region 4, second output. -/
def oz1 : T42 Ideal := Net.mixProd a.adj a.EP1 a.mea a.z1
/-- Region 5. -/
def t1 : T42 Ideal := Net.mmT a.EP1 a.y1
def temp1 : T42 Ideal := tempOf a.t1 a.oy1 (gramTimes a.y1)
/-- Region 6. -/
def u1 : T42 Ideal := Net.mm a.w1b a.temp1
def y2 : T42 Ideal := yNext (sigOf a.u1) a.feat
def z2 : T42 Ideal := zNext a.z1 a.oz1
def M1 : T44 Ideal := edgeM (edgeP a.z1 a.ei a.ej a.ev) a.ei a.ej
/-- Region 7. -/
def EP2 : T44 Ideal := Net.gramUpd a.y1 a.mea a.M1

/-- Region 8, first output. -/
def oy2 : T42 Ideal := Net.mixProd a.adj a.EP2 a.mea (bf42 a.y2)
/-- Region 8, second output. -/
def oz2 : T42 Ideal := Net.mixProd a.adj a.EP2 a.mea a.z2
/-- Region 9. -/
def t2 : T42 Ideal := Net.mmT a.EP2 a.y2
def temp2 : T42 Ideal := tempOf a.t2 a.oy2 (gramTimes a.y2)
/-- Region 10. -/
def u2 : T42 Ideal := Net.mm a.w1b a.temp2
def y3 : T42 Ideal := yNext (sigOf a.u2) a.feat
def z3 : T42 Ideal := zNext a.z2 a.oz2
def M2 : T44 Ideal := edgeM (edgeP a.z2 a.ei a.ej a.ev) a.ei a.ej
/-- Region 11. -/
def EP3 : T44 Ideal := Net.gramUpd a.y2 a.mea a.M2

/-- Region 12, first output. -/
def oy3 : T42 Ideal := Net.mixProd a.adj a.EP3 a.mea (bf42 a.y3)
/-- Region 12, second output. -/
def oz3 : T42 Ideal := Net.mixProd a.adj a.EP3 a.mea a.z3
/-- Region 13. -/
def t3 : T42 Ideal := Net.mmT a.EP3 a.y3
def temp3 : T42 Ideal := tempOf a.t3 a.oy3 (gramTimes a.y3)
/-- Region 14. -/
def u3 : T42 Ideal := Net.mm a.w1b a.temp3
def y4 : T42 Ideal := yNext (sigOf a.u3) a.feat
def z4 : T42 Ideal := zNext a.z3 a.oz3
def M3 : T44 Ideal := edgeM (edgeP a.z3 a.ei a.ej a.ev) a.ei a.ej
/-- Region 15 (computed, not used by the result). -/
def EP4 : T44 Ideal := Net.gramUpd a.y3 a.mea a.M3

/-- The kernel program's result. -/
def out : T416 Ideal := tailOut a.y4 a.z4 a.w2w a.w2b

end Args

end Cert.KernelIdeal.KDefs

end
-- ==== Proof.KI.HostAt.lean ====
/-
  The network's state at the boundaries between layers, as the buffers of a core hold it.

  The idealized kernel program's computation is named, array by array, as a function of the eleven argument arrays
  (the record of arguments and its fields y2, z2, EP2, …).  Here: the arguments as the launch memory holds them on a
  core, and, for the boundaries 18, 27 and 36 of @main — before layer 2, between layers 2 and 3, after layer 3 —, the
  statement that the core's buffers there hold the features y, the positions z, the edge potential EP, the masked edge
  term, w1 as the regions receive it and the arguments the rest of the program reads.  A layer's reading takes one of
  these statements to the next.
-/
import proofs.«169176_j23261542875327_2_alg».proof.Proof.KI.Stages
import proofs.«169176_j23261542875327_2_alg».proof.Proof.KDefs
import Idealize.ShloMosaic.PureOps.Ideal

set_option maxRecDepth 65536

noncomputable section

namespace Cert.KernelIdeal.Run

open Idealize.ShloMosaic Idealize.ShloMosaic.TcCoe Idealize.SL.Sem
open Cert.KernelIdeal Cert.KernelIdeal.Gen Cert.KernelIdeal.GenP

/-- Equality at a stated type: the two sides are buffers' contents and named arrays, equal as arrays of that type. -/
local notation:50 a " =[" T "] " b => @Eq T a b

variable (m : (ℓ : Loc nD τ sig) → Buf (Elt Ideal) ℓ)

/-- The eleven argument arrays as the launch memory holds them on core `c`, in the program's order. -/
def argsOf (c : Dev nD) : KDefs.Args where
  feat := m (c, Proc.devRef .tc main_arg0)
  z0 := m (c, Proc.devRef .tc main_arg1)
  w1 := m (c, Proc.devRef .tc main_arg2)
  EA := m (c, Proc.devRef .tc main_arg3)
  w2w := m (c, Proc.devRef .tc main_arg4)
  w2b := m (c, Proc.devRef .tc main_arg5)
  adj := m (c, Proc.devRef .tc main_arg6)
  w22 := m (c, Proc.devRef .tc main_arg7)
  ev := m (c, Proc.devRef .tc main_arg8)
  ei := m (c, Proc.devRef .tc main_arg9)
  ej := m (c, Proc.devRef .tc main_arg10)

/-- At the boundary before layer 2 core `c`'s buffers hold the network's state after 2 layers: the features y, the
    positions z, the edge potential EP, the masked edge term, w1 as the regions receive it, and the arguments the rest of
    the program reads. -/
structure At18 (a : KDefs.Args) (c : Dev nD) : Prop where
  y : S18 m c main_v73 =[KDefs.T42 Ideal] a.y2
  z : S18 m c main_v74 =[KDefs.T42 Ideal] a.z2
  EP : S18 m c main_v107 =[KDefs.T44 Ideal] a.EP2
  mea : S18 m c main_v0 =[KDefs.T44 Ideal] a.mea
  w1b : S18 m c main_v1 =[KDefs.T44b Ideal] a.w1b
  feat : S18 m c main_arg0 =[KDefs.T42 Ideal] a.feat
  adj : S18 m c main_arg6 =[KDefs.T44 Ideal] a.adj
  ev : S18 m c main_arg8 =[KDefs.TE Ideal] a.ev
  ei : S18 m c main_arg9 =[KDefs.TI Ideal] a.ei
  ej : S18 m c main_arg10 =[KDefs.TI Ideal] a.ej
  w2w : S18 m c main_arg4 =[KDefs.TW Ideal] a.w2w
  w2b : S18 m c main_arg5 =[KDefs.TB16 Ideal] a.w2b

/-- At the boundary after layer 2 the same of the state after 3 layers. -/
structure At27 (a : KDefs.Args) (c : Dev nD) : Prop where
  y : S27 m c main_v125 =[KDefs.T42 Ideal] a.y3
  z : S27 m c main_v126 =[KDefs.T42 Ideal] a.z3
  EP : S27 m c main_v159 =[KDefs.T44 Ideal] a.EP3
  mea : S27 m c main_v0 =[KDefs.T44 Ideal] a.mea
  w1b : S27 m c main_v1 =[KDefs.T44b Ideal] a.w1b
  feat : S27 m c main_arg0 =[KDefs.T42 Ideal] a.feat
  adj : S27 m c main_arg6 =[KDefs.T44 Ideal] a.adj
  ev : S27 m c main_arg8 =[KDefs.TE Ideal] a.ev
  ei : S27 m c main_arg9 =[KDefs.TI Ideal] a.ei
  ej : S27 m c main_arg10 =[KDefs.TI Ideal] a.ej
  w2w : S27 m c main_arg4 =[KDefs.TW Ideal] a.w2w
  w2b : S27 m c main_arg5 =[KDefs.TB16 Ideal] a.w2b

/-- At the boundary after layer 3 the same of the state after 4 layers. -/
structure At36 (a : KDefs.Args) (c : Dev nD) : Prop where
  y : S36 m c main_v177 =[KDefs.T42 Ideal] a.y4
  z : S36 m c main_v178 =[KDefs.T42 Ideal] a.z4
  EP : S36 m c main_v211 =[KDefs.T44 Ideal] a.EP4
  mea : S36 m c main_v0 =[KDefs.T44 Ideal] a.mea
  w1b : S36 m c main_v1 =[KDefs.T44b Ideal] a.w1b
  feat : S36 m c main_arg0 =[KDefs.T42 Ideal] a.feat
  adj : S36 m c main_arg6 =[KDefs.T44 Ideal] a.adj
  ev : S36 m c main_arg8 =[KDefs.TE Ideal] a.ev
  ei : S36 m c main_arg9 =[KDefs.TI Ideal] a.ei
  ej : S36 m c main_arg10 =[KDefs.TI Ideal] a.ej
  w2w : S36 m c main_arg4 =[KDefs.TW Ideal] a.w2w
  w2b : S36 m c main_arg5 =[KDefs.TB16 Ideal] a.w2b

end Cert.KernelIdeal.Run

end
-- ==== Proof.KI.HostKeep.lean ====
/- The kernel program between its items: which buffers an item leaves alone.

   @main is a sequence of 41 items, kernel regions and stretches of whole-array host operations. Each item changes a
   short list of buffers — a stretch the results of its operations, a region the arrays of its output windows — and
   every other buffer holds after the item what it held before. In particular the eleven argument arrays hold the
   launch memory's contents at every boundary. -/
import proofs.«169176_j23261542875327_2_alg».proof.Proof.KI.Stages
import Idealize.ShloMosaic.Lib.StableHlo.Run
import Idealize.ShloMosaic.PureOps.Ideal

set_option maxRecDepth 65536

noncomputable section

namespace Cert.KernelIdeal.Run

open Idealize.ShloMosaic Idealize.ShloMosaic.TcCoe
open Idealize.SL Idealize.SL.Sem
open Cert.KernelIdeal Cert.KernelIdeal.Gen Cert.KernelIdeal.GenP Cert.KernelIdeal.Regs

variable (m : (ℓ : Loc nD τ sig) → Buf (Elt Ideal) ℓ)

/-! ## What an item of @main leaves alone

A stretch of host operations changes only the buffers its operations write; a kernel region changes only the arrays of
its output windows. -/

theorem S1_keep (c : Dev nD) (r : Ref sig .tc) (h : r ∉ ([main_v0] : List (Ref sig .tc))) : S1 m c r = S0 m c r := by
  simp only [S1, Function.update_of_ne (StableHlo.devRef_ne_of_ne (List.ne_of_not_mem_cons h) : (Proc.devRef .tc r : DevRef τ sig) ≠ Proc.devRef .tc main_v0)]
theorem S2_keep (c : Dev nD) (r : Ref sig .tc) (h : r ∉ hostOps1_W) : S2 m c r = S1 m c r :=
  StableHlo.after_of_writes_sub hostOps1 _ hostOps1_writes h
theorem S3_keep (c : Dev nD) (r : Ref sig .tc) (h : r ∉ ([main_v3_0, main_v3_1] : List (Ref sig .tc))) : S3 m c r = S2 m c r := by
  simp only [S3, Function.update_of_ne (StableHlo.devRef_ne_of_ne (List.ne_of_not_mem_cons h) : (Proc.devRef .tc r : DevRef τ sig) ≠ Proc.devRef .tc main_v3_0), Function.update_of_ne (StableHlo.devRef_ne_of_ne (List.ne_of_not_mem_cons (List.not_mem_of_not_mem_cons h)) : (Proc.devRef .tc r : DevRef τ sig) ≠ Proc.devRef .tc main_v3_1)]
theorem S4_keep (c : Dev nD) (r : Ref sig .tc) (h : r ∉ hostOps2_W) : S4 m c r = S3 m c r :=
  StableHlo.after_of_writes_sub hostOps2 _ hostOps2_writes h
theorem S5_keep (c : Dev nD) (r : Ref sig .tc) (h : r ∉ ([main_v12] : List (Ref sig .tc))) : S5 m c r = S4 m c r := by
  simp only [S5, Function.update_of_ne (StableHlo.devRef_ne_of_ne (List.ne_of_not_mem_cons h) : (Proc.devRef .tc r : DevRef τ sig) ≠ Proc.devRef .tc main_v12)]
theorem S6_keep (c : Dev nD) (r : Ref sig .tc) (h : r ∉ hostOps3_W) : S6 m c r = S5 m c r :=
  StableHlo.after_of_writes_sub hostOps3 _ hostOps3_writes h
theorem S7_keep (c : Dev nD) (r : Ref sig .tc) (h : r ∉ hostOps3_1_W) : S7 m c r = S6 m c r :=
  StableHlo.after_of_writes_sub hostOps3_1 _ hostOps3_1_writes h
theorem S8_keep (c : Dev nD) (r : Ref sig .tc) (h : r ∉ hostOps3_2_W) : S8 m c r = S7 m c r :=
  StableHlo.after_of_writes_sub hostOps3_2 _ hostOps3_2_writes h
theorem S9_keep (c : Dev nD) (r : Ref sig .tc) (h : r ∉ ([main_v55] : List (Ref sig .tc))) : S9 m c r = S8 m c r := by
  simp only [S9, Function.update_of_ne (StableHlo.devRef_ne_of_ne (List.ne_of_not_mem_cons h) : (Proc.devRef .tc r : DevRef τ sig) ≠ Proc.devRef .tc main_v55)]
theorem S10_keep (c : Dev nD) (r : Ref sig .tc) (h : r ∉ hostOps4_W) : S10 m c r = S9 m c r :=
  StableHlo.after_of_writes_sub hostOps4 _ hostOps4_writes h
theorem S11_keep (c : Dev nD) (r : Ref sig .tc) (h : r ∉ ([main_v57_0, main_v57_1] : List (Ref sig .tc))) : S11 m c r = S10 m c r := by
  simp only [S11, Function.update_of_ne (StableHlo.devRef_ne_of_ne (List.ne_of_not_mem_cons h) : (Proc.devRef .tc r : DevRef τ sig) ≠ Proc.devRef .tc main_v57_0), Function.update_of_ne (StableHlo.devRef_ne_of_ne (List.ne_of_not_mem_cons (List.not_mem_of_not_mem_cons h)) : (Proc.devRef .tc r : DevRef τ sig) ≠ Proc.devRef .tc main_v57_1)]
theorem S12_keep (c : Dev nD) (r : Ref sig .tc) (h : r ∉ ([main_v58] : List (Ref sig .tc))) : S12 m c r = S11 m c r := by
  simp only [S12, Function.update_of_ne (StableHlo.devRef_ne_of_ne (List.ne_of_not_mem_cons h) : (Proc.devRef .tc r : DevRef τ sig) ≠ Proc.devRef .tc main_v58)]
theorem S13_keep (c : Dev nD) (r : Ref sig .tc) (h : r ∉ hostOps6_W) : S13 m c r = S12 m c r :=
  StableHlo.after_of_writes_sub hostOps6 _ hostOps6_writes h
theorem S14_keep (c : Dev nD) (r : Ref sig .tc) (h : r ∉ ([main_v64] : List (Ref sig .tc))) : S14 m c r = S13 m c r := by
  simp only [S14, Function.update_of_ne (StableHlo.devRef_ne_of_ne (List.ne_of_not_mem_cons h) : (Proc.devRef .tc r : DevRef τ sig) ≠ Proc.devRef .tc main_v64)]
theorem S15_keep (c : Dev nD) (r : Ref sig .tc) (h : r ∉ hostOps7_W) : S15 m c r = S14 m c r :=
  StableHlo.after_of_writes_sub hostOps7 _ hostOps7_writes h
theorem S16_keep (c : Dev nD) (r : Ref sig .tc) (h : r ∉ hostOps7_1_W) : S16 m c r = S15 m c r :=
  StableHlo.after_of_writes_sub hostOps7_1 _ hostOps7_1_writes h
theorem S17_keep (c : Dev nD) (r : Ref sig .tc) (h : r ∉ hostOps7_2_W) : S17 m c r = S16 m c r :=
  StableHlo.after_of_writes_sub hostOps7_2 _ hostOps7_2_writes h
theorem S18_keep (c : Dev nD) (r : Ref sig .tc) (h : r ∉ ([main_v107] : List (Ref sig .tc))) : S18 m c r = S17 m c r := by
  simp only [S18, Function.update_of_ne (StableHlo.devRef_ne_of_ne (List.ne_of_not_mem_cons h) : (Proc.devRef .tc r : DevRef τ sig) ≠ Proc.devRef .tc main_v107)]
theorem S19_keep (c : Dev nD) (r : Ref sig .tc) (h : r ∉ hostOps8_W) : S19 m c r = S18 m c r :=
  StableHlo.after_of_writes_sub hostOps8 _ hostOps8_writes h
theorem S20_keep (c : Dev nD) (r : Ref sig .tc) (h : r ∉ ([main_v109_0, main_v109_1] : List (Ref sig .tc))) : S20 m c r = S19 m c r := by
  simp only [S20, Function.update_of_ne (StableHlo.devRef_ne_of_ne (List.ne_of_not_mem_cons h) : (Proc.devRef .tc r : DevRef τ sig) ≠ Proc.devRef .tc main_v109_0), Function.update_of_ne (StableHlo.devRef_ne_of_ne (List.ne_of_not_mem_cons (List.not_mem_of_not_mem_cons h)) : (Proc.devRef .tc r : DevRef τ sig) ≠ Proc.devRef .tc main_v109_1)]
theorem S21_keep (c : Dev nD) (r : Ref sig .tc) (h : r ∉ ([main_v110] : List (Ref sig .tc))) : S21 m c r = S20 m c r := by
  simp only [S21, Function.update_of_ne (StableHlo.devRef_ne_of_ne (List.ne_of_not_mem_cons h) : (Proc.devRef .tc r : DevRef τ sig) ≠ Proc.devRef .tc main_v110)]
theorem S22_keep (c : Dev nD) (r : Ref sig .tc) (h : r ∉ hostOps10_W) : S22 m c r = S21 m c r :=
  StableHlo.after_of_writes_sub hostOps10 _ hostOps10_writes h
theorem S23_keep (c : Dev nD) (r : Ref sig .tc) (h : r ∉ ([main_v116] : List (Ref sig .tc))) : S23 m c r = S22 m c r := by
  simp only [S23, Function.update_of_ne (StableHlo.devRef_ne_of_ne (List.ne_of_not_mem_cons h) : (Proc.devRef .tc r : DevRef τ sig) ≠ Proc.devRef .tc main_v116)]
theorem S24_keep (c : Dev nD) (r : Ref sig .tc) (h : r ∉ hostOps11_W) : S24 m c r = S23 m c r :=
  StableHlo.after_of_writes_sub hostOps11 _ hostOps11_writes h
theorem S25_keep (c : Dev nD) (r : Ref sig .tc) (h : r ∉ hostOps11_1_W) : S25 m c r = S24 m c r :=
  StableHlo.after_of_writes_sub hostOps11_1 _ hostOps11_1_writes h
theorem S26_keep (c : Dev nD) (r : Ref sig .tc) (h : r ∉ hostOps11_2_W) : S26 m c r = S25 m c r :=
  StableHlo.after_of_writes_sub hostOps11_2 _ hostOps11_2_writes h
theorem S27_keep (c : Dev nD) (r : Ref sig .tc) (h : r ∉ ([main_v159] : List (Ref sig .tc))) : S27 m c r = S26 m c r := by
  simp only [S27, Function.update_of_ne (StableHlo.devRef_ne_of_ne (List.ne_of_not_mem_cons h) : (Proc.devRef .tc r : DevRef τ sig) ≠ Proc.devRef .tc main_v159)]
theorem S28_keep (c : Dev nD) (r : Ref sig .tc) (h : r ∉ hostOps12_W) : S28 m c r = S27 m c r :=
  StableHlo.after_of_writes_sub hostOps12 _ hostOps12_writes h
theorem S29_keep (c : Dev nD) (r : Ref sig .tc) (h : r ∉ ([main_v161_0, main_v161_1] : List (Ref sig .tc))) : S29 m c r = S28 m c r := by
  simp only [S29, Function.update_of_ne (StableHlo.devRef_ne_of_ne (List.ne_of_not_mem_cons h) : (Proc.devRef .tc r : DevRef τ sig) ≠ Proc.devRef .tc main_v161_0), Function.update_of_ne (StableHlo.devRef_ne_of_ne (List.ne_of_not_mem_cons (List.not_mem_of_not_mem_cons h)) : (Proc.devRef .tc r : DevRef τ sig) ≠ Proc.devRef .tc main_v161_1)]
theorem S30_keep (c : Dev nD) (r : Ref sig .tc) (h : r ∉ ([main_v162] : List (Ref sig .tc))) : S30 m c r = S29 m c r := by
  simp only [S30, Function.update_of_ne (StableHlo.devRef_ne_of_ne (List.ne_of_not_mem_cons h) : (Proc.devRef .tc r : DevRef τ sig) ≠ Proc.devRef .tc main_v162)]
theorem S31_keep (c : Dev nD) (r : Ref sig .tc) (h : r ∉ hostOps14_W) : S31 m c r = S30 m c r :=
  StableHlo.after_of_writes_sub hostOps14 _ hostOps14_writes h
theorem S32_keep (c : Dev nD) (r : Ref sig .tc) (h : r ∉ ([main_v168] : List (Ref sig .tc))) : S32 m c r = S31 m c r := by
  simp only [S32, Function.update_of_ne (StableHlo.devRef_ne_of_ne (List.ne_of_not_mem_cons h) : (Proc.devRef .tc r : DevRef τ sig) ≠ Proc.devRef .tc main_v168)]
theorem S33_keep (c : Dev nD) (r : Ref sig .tc) (h : r ∉ hostOps15_W) : S33 m c r = S32 m c r :=
  StableHlo.after_of_writes_sub hostOps15 _ hostOps15_writes h
theorem S34_keep (c : Dev nD) (r : Ref sig .tc) (h : r ∉ hostOps15_1_W) : S34 m c r = S33 m c r :=
  StableHlo.after_of_writes_sub hostOps15_1 _ hostOps15_1_writes h
theorem S35_keep (c : Dev nD) (r : Ref sig .tc) (h : r ∉ hostOps15_2_W) : S35 m c r = S34 m c r :=
  StableHlo.after_of_writes_sub hostOps15_2 _ hostOps15_2_writes h
theorem S36_keep (c : Dev nD) (r : Ref sig .tc) (h : r ∉ ([main_v211] : List (Ref sig .tc))) : S36 m c r = S35 m c r := by
  simp only [S36, Function.update_of_ne (StableHlo.devRef_ne_of_ne (List.ne_of_not_mem_cons h) : (Proc.devRef .tc r : DevRef τ sig) ≠ Proc.devRef .tc main_v211)]
theorem S37_keep (c : Dev nD) (r : Ref sig .tc) (h : r ∉ hostOps16_W) : S37 m c r = S36 m c r :=
  StableHlo.after_of_writes_sub hostOps16 _ hostOps16_writes h
theorem S38_keep (c : Dev nD) (r : Ref sig .tc) (h : r ∉ hostOps16_1_W) : S38 m c r = S37 m c r :=
  StableHlo.after_of_writes_sub hostOps16_1 _ hostOps16_1_writes h
theorem S39_keep (c : Dev nD) (r : Ref sig .tc) (h : r ∉ hostOps16_2_W) : S39 m c r = S38 m c r :=
  StableHlo.after_of_writes_sub hostOps16_2 _ hostOps16_2_writes h
theorem S40_keep (c : Dev nD) (r : Ref sig .tc) (h : r ∉ hostOps16_3_W) : S40 m c r = S39 m c r :=
  StableHlo.after_of_writes_sub hostOps16_3 _ hostOps16_3_writes h
theorem S41_keep (c : Dev nD) (r : Ref sig .tc) (h : r ∉ hostOps16_4_W) : S41 m c r = S40 m c r :=
  StableHlo.after_of_writes_sub hostOps16_4 _ hostOps16_4_writes h

/-! ## The eleven arguments of @main are never written: at every boundary they hold what the launch memory holds -/

/-- The argument arrays. -/
abbrev argRefs : List (Ref sig .tc) := [main_arg0, main_arg1, main_arg2, main_arg3, main_arg4, main_arg5, main_arg6, main_arg7, main_arg8, main_arg9, main_arg10]

theorem S0_arg (c : Dev nD) (r : Ref sig .tc) : S0 m c r = m (c, Proc.devRef .tc r) := rfl
theorem S1_arg (c : Dev nD) (r : Ref sig .tc) (h : r ∈ argRefs) : S1 m c r = m (c, Proc.devRef .tc r) :=
  S1_keep m c r ((by decide : ∀ r ∈ argRefs, r ∉ ([main_v0] : List (Ref sig .tc))) r h)
theorem S2_arg (c : Dev nD) (r : Ref sig .tc) (h : r ∈ argRefs) : S2 m c r = m (c, Proc.devRef .tc r) :=
  (S2_keep m c r ((by decide : ∀ r ∈ argRefs, r ∉ hostOps1_W) r h)).trans (S1_arg m c r h)
theorem S3_arg (c : Dev nD) (r : Ref sig .tc) (h : r ∈ argRefs) : S3 m c r = m (c, Proc.devRef .tc r) :=
  (S3_keep m c r ((by decide : ∀ r ∈ argRefs, r ∉ ([main_v3_0, main_v3_1] : List (Ref sig .tc))) r h)).trans (S2_arg m c r h)
theorem S4_arg (c : Dev nD) (r : Ref sig .tc) (h : r ∈ argRefs) : S4 m c r = m (c, Proc.devRef .tc r) :=
  (S4_keep m c r ((by decide : ∀ r ∈ argRefs, r ∉ hostOps2_W) r h)).trans (S3_arg m c r h)
theorem S5_arg (c : Dev nD) (r : Ref sig .tc) (h : r ∈ argRefs) : S5 m c r = m (c, Proc.devRef .tc r) :=
  (S5_keep m c r ((by decide : ∀ r ∈ argRefs, r ∉ ([main_v12] : List (Ref sig .tc))) r h)).trans (S4_arg m c r h)
theorem S6_arg (c : Dev nD) (r : Ref sig .tc) (h : r ∈ argRefs) : S6 m c r = m (c, Proc.devRef .tc r) :=
  (S6_keep m c r ((by decide : ∀ r ∈ argRefs, r ∉ hostOps3_W) r h)).trans (S5_arg m c r h)
theorem S7_arg (c : Dev nD) (r : Ref sig .tc) (h : r ∈ argRefs) : S7 m c r = m (c, Proc.devRef .tc r) :=
  (S7_keep m c r ((by decide : ∀ r ∈ argRefs, r ∉ hostOps3_1_W) r h)).trans (S6_arg m c r h)
theorem S8_arg (c : Dev nD) (r : Ref sig .tc) (h : r ∈ argRefs) : S8 m c r = m (c, Proc.devRef .tc r) :=
  (S8_keep m c r ((by decide : ∀ r ∈ argRefs, r ∉ hostOps3_2_W) r h)).trans (S7_arg m c r h)
theorem S9_arg (c : Dev nD) (r : Ref sig .tc) (h : r ∈ argRefs) : S9 m c r = m (c, Proc.devRef .tc r) :=
  (S9_keep m c r ((by decide : ∀ r ∈ argRefs, r ∉ ([main_v55] : List (Ref sig .tc))) r h)).trans (S8_arg m c r h)
theorem S10_arg (c : Dev nD) (r : Ref sig .tc) (h : r ∈ argRefs) : S10 m c r = m (c, Proc.devRef .tc r) :=
  (S10_keep m c r ((by decide : ∀ r ∈ argRefs, r ∉ hostOps4_W) r h)).trans (S9_arg m c r h)
theorem S11_arg (c : Dev nD) (r : Ref sig .tc) (h : r ∈ argRefs) : S11 m c r = m (c, Proc.devRef .tc r) :=
  (S11_keep m c r ((by decide : ∀ r ∈ argRefs, r ∉ ([main_v57_0, main_v57_1] : List (Ref sig .tc))) r h)).trans (S10_arg m c r h)
theorem S12_arg (c : Dev nD) (r : Ref sig .tc) (h : r ∈ argRefs) : S12 m c r = m (c, Proc.devRef .tc r) :=
  (S12_keep m c r ((by decide : ∀ r ∈ argRefs, r ∉ ([main_v58] : List (Ref sig .tc))) r h)).trans (S11_arg m c r h)
theorem S13_arg (c : Dev nD) (r : Ref sig .tc) (h : r ∈ argRefs) : S13 m c r = m (c, Proc.devRef .tc r) :=
  (S13_keep m c r ((by decide : ∀ r ∈ argRefs, r ∉ hostOps6_W) r h)).trans (S12_arg m c r h)
theorem S14_arg (c : Dev nD) (r : Ref sig .tc) (h : r ∈ argRefs) : S14 m c r = m (c, Proc.devRef .tc r) :=
  (S14_keep m c r ((by decide : ∀ r ∈ argRefs, r ∉ ([main_v64] : List (Ref sig .tc))) r h)).trans (S13_arg m c r h)
theorem S15_arg (c : Dev nD) (r : Ref sig .tc) (h : r ∈ argRefs) : S15 m c r = m (c, Proc.devRef .tc r) :=
  (S15_keep m c r ((by decide : ∀ r ∈ argRefs, r ∉ hostOps7_W) r h)).trans (S14_arg m c r h)
theorem S16_arg (c : Dev nD) (r : Ref sig .tc) (h : r ∈ argRefs) : S16 m c r = m (c, Proc.devRef .tc r) :=
  (S16_keep m c r ((by decide : ∀ r ∈ argRefs, r ∉ hostOps7_1_W) r h)).trans (S15_arg m c r h)
theorem S17_arg (c : Dev nD) (r : Ref sig .tc) (h : r ∈ argRefs) : S17 m c r = m (c, Proc.devRef .tc r) :=
  (S17_keep m c r ((by decide : ∀ r ∈ argRefs, r ∉ hostOps7_2_W) r h)).trans (S16_arg m c r h)
theorem S18_arg (c : Dev nD) (r : Ref sig .tc) (h : r ∈ argRefs) : S18 m c r = m (c, Proc.devRef .tc r) :=
  (S18_keep m c r ((by decide : ∀ r ∈ argRefs, r ∉ ([main_v107] : List (Ref sig .tc))) r h)).trans (S17_arg m c r h)
theorem S19_arg (c : Dev nD) (r : Ref sig .tc) (h : r ∈ argRefs) : S19 m c r = m (c, Proc.devRef .tc r) :=
  (S19_keep m c r ((by decide : ∀ r ∈ argRefs, r ∉ hostOps8_W) r h)).trans (S18_arg m c r h)
theorem S20_arg (c : Dev nD) (r : Ref sig .tc) (h : r ∈ argRefs) : S20 m c r = m (c, Proc.devRef .tc r) :=
  (S20_keep m c r ((by decide : ∀ r ∈ argRefs, r ∉ ([main_v109_0, main_v109_1] : List (Ref sig .tc))) r h)).trans (S19_arg m c r h)
theorem S21_arg (c : Dev nD) (r : Ref sig .tc) (h : r ∈ argRefs) : S21 m c r = m (c, Proc.devRef .tc r) :=
  (S21_keep m c r ((by decide : ∀ r ∈ argRefs, r ∉ ([main_v110] : List (Ref sig .tc))) r h)).trans (S20_arg m c r h)
theorem S22_arg (c : Dev nD) (r : Ref sig .tc) (h : r ∈ argRefs) : S22 m c r = m (c, Proc.devRef .tc r) :=
  (S22_keep m c r ((by decide : ∀ r ∈ argRefs, r ∉ hostOps10_W) r h)).trans (S21_arg m c r h)
theorem S23_arg (c : Dev nD) (r : Ref sig .tc) (h : r ∈ argRefs) : S23 m c r = m (c, Proc.devRef .tc r) :=
  (S23_keep m c r ((by decide : ∀ r ∈ argRefs, r ∉ ([main_v116] : List (Ref sig .tc))) r h)).trans (S22_arg m c r h)
theorem S24_arg (c : Dev nD) (r : Ref sig .tc) (h : r ∈ argRefs) : S24 m c r = m (c, Proc.devRef .tc r) :=
  (S24_keep m c r ((by decide : ∀ r ∈ argRefs, r ∉ hostOps11_W) r h)).trans (S23_arg m c r h)
theorem S25_arg (c : Dev nD) (r : Ref sig .tc) (h : r ∈ argRefs) : S25 m c r = m (c, Proc.devRef .tc r) :=
  (S25_keep m c r ((by decide : ∀ r ∈ argRefs, r ∉ hostOps11_1_W) r h)).trans (S24_arg m c r h)
theorem S26_arg (c : Dev nD) (r : Ref sig .tc) (h : r ∈ argRefs) : S26 m c r = m (c, Proc.devRef .tc r) :=
  (S26_keep m c r ((by decide : ∀ r ∈ argRefs, r ∉ hostOps11_2_W) r h)).trans (S25_arg m c r h)
theorem S27_arg (c : Dev nD) (r : Ref sig .tc) (h : r ∈ argRefs) : S27 m c r = m (c, Proc.devRef .tc r) :=
  (S27_keep m c r ((by decide : ∀ r ∈ argRefs, r ∉ ([main_v159] : List (Ref sig .tc))) r h)).trans (S26_arg m c r h)
theorem S28_arg (c : Dev nD) (r : Ref sig .tc) (h : r ∈ argRefs) : S28 m c r = m (c, Proc.devRef .tc r) :=
  (S28_keep m c r ((by decide : ∀ r ∈ argRefs, r ∉ hostOps12_W) r h)).trans (S27_arg m c r h)
theorem S29_arg (c : Dev nD) (r : Ref sig .tc) (h : r ∈ argRefs) : S29 m c r = m (c, Proc.devRef .tc r) :=
  (S29_keep m c r ((by decide : ∀ r ∈ argRefs, r ∉ ([main_v161_0, main_v161_1] : List (Ref sig .tc))) r h)).trans (S28_arg m c r h)
theorem S30_arg (c : Dev nD) (r : Ref sig .tc) (h : r ∈ argRefs) : S30 m c r = m (c, Proc.devRef .tc r) :=
  (S30_keep m c r ((by decide : ∀ r ∈ argRefs, r ∉ ([main_v162] : List (Ref sig .tc))) r h)).trans (S29_arg m c r h)
theorem S31_arg (c : Dev nD) (r : Ref sig .tc) (h : r ∈ argRefs) : S31 m c r = m (c, Proc.devRef .tc r) :=
  (S31_keep m c r ((by decide : ∀ r ∈ argRefs, r ∉ hostOps14_W) r h)).trans (S30_arg m c r h)
theorem S32_arg (c : Dev nD) (r : Ref sig .tc) (h : r ∈ argRefs) : S32 m c r = m (c, Proc.devRef .tc r) :=
  (S32_keep m c r ((by decide : ∀ r ∈ argRefs, r ∉ ([main_v168] : List (Ref sig .tc))) r h)).trans (S31_arg m c r h)
theorem S33_arg (c : Dev nD) (r : Ref sig .tc) (h : r ∈ argRefs) : S33 m c r = m (c, Proc.devRef .tc r) :=
  (S33_keep m c r ((by decide : ∀ r ∈ argRefs, r ∉ hostOps15_W) r h)).trans (S32_arg m c r h)
theorem S34_arg (c : Dev nD) (r : Ref sig .tc) (h : r ∈ argRefs) : S34 m c r = m (c, Proc.devRef .tc r) :=
  (S34_keep m c r ((by decide : ∀ r ∈ argRefs, r ∉ hostOps15_1_W) r h)).trans (S33_arg m c r h)
theorem S35_arg (c : Dev nD) (r : Ref sig .tc) (h : r ∈ argRefs) : S35 m c r = m (c, Proc.devRef .tc r) :=
  (S35_keep m c r ((by decide : ∀ r ∈ argRefs, r ∉ hostOps15_2_W) r h)).trans (S34_arg m c r h)
theorem S36_arg (c : Dev nD) (r : Ref sig .tc) (h : r ∈ argRefs) : S36 m c r = m (c, Proc.devRef .tc r) :=
  (S36_keep m c r ((by decide : ∀ r ∈ argRefs, r ∉ ([main_v211] : List (Ref sig .tc))) r h)).trans (S35_arg m c r h)
theorem S37_arg (c : Dev nD) (r : Ref sig .tc) (h : r ∈ argRefs) : S37 m c r = m (c, Proc.devRef .tc r) :=
  (S37_keep m c r ((by decide : ∀ r ∈ argRefs, r ∉ hostOps16_W) r h)).trans (S36_arg m c r h)
theorem S38_arg (c : Dev nD) (r : Ref sig .tc) (h : r ∈ argRefs) : S38 m c r = m (c, Proc.devRef .tc r) :=
  (S38_keep m c r ((by decide : ∀ r ∈ argRefs, r ∉ hostOps16_1_W) r h)).trans (S37_arg m c r h)
theorem S39_arg (c : Dev nD) (r : Ref sig .tc) (h : r ∈ argRefs) : S39 m c r = m (c, Proc.devRef .tc r) :=
  (S39_keep m c r ((by decide : ∀ r ∈ argRefs, r ∉ hostOps16_2_W) r h)).trans (S38_arg m c r h)
theorem S40_arg (c : Dev nD) (r : Ref sig .tc) (h : r ∈ argRefs) : S40 m c r = m (c, Proc.devRef .tc r) :=
  (S40_keep m c r ((by decide : ∀ r ∈ argRefs, r ∉ hostOps16_3_W) r h)).trans (S39_arg m c r h)
theorem S41_arg (c : Dev nD) (r : Ref sig .tc) (h : r ∈ argRefs) : S41 m c r = m (c, Proc.devRef .tc r) :=
  (S41_keep m c r ((by decide : ∀ r ∈ argRefs, r ∉ hostOps16_4_W) r h)).trans (S40_arg m c r h)

end Cert.KernelIdeal.Run
-- ==== Proof.KI.Value0.lean ====
/- Region 0 of @main, value side: the masked edge term as one function of the arrays the region is entered with.

   The region cuts the 4096 x 4096 arrays EA, w22 and mea into a 4 x 4 grid of 1024 x 1024 tiles, all three by the same
   index map (tile (a, b) at grid point (a, b)), and at each point writes   mea = (1/2 · EA) · w22   entrywise on the
   tile.  An entrywise map commutes with cutting out a tile, so what each point writes back is its tile of the
   whole-array function   mea p q = (1/2 · EA p q) · w22 p q ;   the sixteen tiles cover the array (entry (p, q) lies
   in tile (p / 1024, q / 1024)), so after the region the array IS that function. -/
import proofs.«169176_j23261542875327_2_alg».proof.Proof.KI.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal Cert.KernelIdeal.Gen Cert.KernelIdeal.Regs
open Idealize.ShloMosaic Idealize.ShloMosaic.TcCoe Idealize.SL.Sem
open Idealize.ShloMosaic.Pipeline (Dat)

-- what the TensorCore's buffers hold when the region is entered
variable (V : (c : Dev nD) → (b : Ref sig .tc) → Buf (Elt Ideal) ((c : Thread nD τ).loc b))

/-- The zero offsets of a whole-tile rectangle, as the constant function. -/
theorem zeros0 : (![0, 0] : Fin 2 → Nat) = fun _ => 0 := funext fun a => by fin_cases a <;> rfl

/-- The masked edge term of whole arrays: (1/2 · ea) · m, entry by entry. -/
def mea0 (ea m : S4096x4096.Idx → EReal) : S4096x4096.Idx → EReal :=
  fun i => (Ideal.ofBits .f32 0x3F000000#32 * ea i) * m i

/-- The body's payload on two tiles is the same entrywise map. -/
theorem pay0 (x0 x1 : Vec Ideal S1024x1024 .f32) :
    k0_pay1 (F := Ideal) x0 x1 = fun j => (Ideal.ofBits .f32 0x3F000000#32 * x0 j) * x1 j := rfl

/-- The three windows' index maps agree at every grid point. -/
theorem idx0 : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every tile position is some grid point's. -/
theorem onto0 : ∀ (q0 q1 : Fin 4), ∃ t : Fin cfg0.N, win0_2.index t = ![q0.val, q1.val] :=
  (by decide +kernel : ∀ (q0 q1 : Fin 4), ∃ t : Fin grid0.N, win0_2.index t = ![q0.val, q1.val])

/-- What grid point t writes back is its tile of the whole-array function. -/
theorem flushed0_2 (c : Dev nD) (t : Fin cfg0.N) :
    (dat0 (F := Ideal) V c).flushed 2 t
      = ((cfg0.win 2).blk t).view.read (Elt Ideal) (mea0 (V c main_arg3) (V c main_arg7)) := by
  show (cfg0.win 2).cut (grid0.coords t) ((dat0 (F := Ideal) V c).after 2 t) = _
  rw [dat0_after_2]
  unfold left0_2
  rw [View.canon_unit_zero zeros0]
  simp only [View.ld_unit_zero (S := S1024x1024) zeros0]
  rw [pay0]
  obtain ⟨e0, e1, e2, e3⟩ := idx0 t
  funext j
  show (Ideal.ofBits .f32 0x3F000000#32 * V c main_arg3 (((cfg0.win 0).blk t).view.emb j))
        * V c main_arg7 (((cfg0.win 1).blk t).view.emb j)
      = (Ideal.ofBits .f32 0x3F000000#32 * V c main_arg3 (((cfg0.win 2).blk t).view.emb j))
        * V c main_arg7 (((cfg0.win 2).blk t).view.emb j)
  have h0 : ((cfg0.win 0).blk t).view.emb j = ((cfg0.win 2).blk t).view.emb j := by
    funext a; apply Fin.ext
    match a with
    | ⟨0, _⟩ => show win0_0.index t (0 : Fin 2) * 1024 + 1 * (j 0).val = win0_2.index t (0 : Fin 2) * 1024 + 1 * (j 0).val; rw [e0]
    | ⟨1, _⟩ => show win0_0.index t (1 : Fin 2) * 1024 + 1 * (j 1).val = win0_2.index t (1 : Fin 2) * 1024 + 1 * (j 1).val; rw [e1]
  have h1 : ((cfg0.win 1).blk t).view.emb j = ((cfg0.win 2).blk t).view.emb j := by
    funext a; apply Fin.ext
    match a with
    | ⟨0, _⟩ => show win0_1.index t (0 : Fin 2) * 1024 + 1 * (j 0).val = win0_2.index t (0 : Fin 2) * 1024 + 1 * (j 0).val; rw [e2]
    | ⟨1, _⟩ => show win0_1.index t (1 : Fin 2) * 1024 + 1 * (j 1).val = win0_2.index t (1 : Fin 2) * 1024 + 1 * (j 1).val; rw [e3]
  rw [h0, h1]

/-- An entry of the array is in point t's tile iff each coordinate is in the tile's range on its axis. -/
theorem mem_blk0_2 (t : Fin cfg0.N) (i : S4096x4096.Idx) :
    i ∈ ((cfg0.win 2).blk t).view.set
      ↔ ∀ a : Fin 2, win0_2.index t a * S1024x1024.size a ≤ (i a).val
          ∧ (i a).val < win0_2.index t a * S1024x1024.size a + S1024x1024.size a := by
  show i ∈ ((View.whole main_v0).slice (win0_2.rect t)).set ↔ _
  rw [View.set_slice_whole, Rect.mem_set_unit]
  exact Iff.rfl

/-- The tiles cover the array: entry (p, q) is in the tile of the point whose index is (p / 1024, q / 1024). -/
theorem cover0_2 (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := onto0 ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk0_2]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- After the region the result array is the masked edge term of the two input arrays as the region found them. -/
theorem arr0_2 (c : Dev nD) :
    (dat0 (F := Ideal) V c).arrAt 2 cfg0.N = mea0 (V c main_arg3) (V c main_arg7) :=
  (dat0 (F := Ideal) V c).arrAt_eq_of_cover 2 (mea0 (V c main_arg3) (V c main_arg7))
    (fun t _ => flushed0_2 V c t) cover0_2

/-- Entry by entry: mea p q = (1/2 · EA p q) · w22 p q. -/
theorem value0_2 (c : Dev nD) (p q : Fin 4096) :
    (dat0 (F := Ideal) V c).arrAt 2 cfg0.N (ValueIdx.ix2 p q)
      = (Ideal.ofBits .f32 0x3F000000#32 * (V c main_arg3 : S4096x4096.Idx → EReal) (ValueIdx.ix2 p q))
        * (V c main_arg7 : S4096x4096.Idx → EReal) (ValueIdx.ix2 p q) :=
  congrFun (arr0_2 V c) (ValueIdx.ix2 p q)

end Cert.KernelIdeal.Vals

end
-- ==== Proof.KI.Value1.lean ====
/- Region 1 of @main, value side: the first layer's two adjacency products as functions of the arrays the region
   is entered with.

   With A = adj + mea (4096 x 4096) the region computes  oy = A · y  and  oz = A · z  (y, z of 4096 x 256) in 32 row
   tiles: at grid point t it reads rows 128 t … 128 t + 127 of adj and of mea and the whole of y and z, and writes the
   same rows of both products, each entry the sum over the 4096 contracted positions of the products (a change of
   float format is the identity on the extended reals, and a sum started from the zero accumulator is the sum).  Row r
   of a product depends on row r of adj and mea alone, so what each point writes back is its row tile of the
   whole-array function
       out p q = Σ_k (adj p k + mea p k) · r k q        (r = y, z);
   the 32 row tiles cover the array (row p lies in tile p / 128), so after the region each array IS that function. -/
import proofs.«169176_j23261542875327_2_alg».proof.Proof.KI.Region1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal Cert.KernelIdeal.Gen Cert.KernelIdeal.Regs
open Idealize.ShloMosaic Idealize.ShloMosaic.TcCoe Idealize.SL.Sem Idealize.ShloMosaic.ValueIdx
open Idealize.ShloMosaic.Pipeline (Dat)

-- what the TensorCore's buffers hold when the region is entered
variable (V : (c : Dev nD) → (b : Ref sig .tc) → Buf (Elt Ideal) ((c : Thread nD τ).loc b))

/-- The zero offsets of a whole-block rectangle, as the constant function. -/
theorem zeros1 : (![0, 0] : Fin 2 → Nat) = fun _ => 0 := funext fun a => by fin_cases a <;> rfl

/-- The product of a sum of two whole arrays with a third, entry by entry: out p q = Σ_k (a p k + m p k) · r k q. -/
def sumProd1 (a m : S4096x4096.Idx → EReal) (r : S4096x256.Idx → EReal) : S4096x256.Idx → EReal :=
  fun i => ∑ k : Fin 4096, (a (ix2 (i 0) k) + m (ix2 (i 0) k)) * r (ix2 k (i 1))

/-- The index maps at every grid point: the two row tiles and the two product tiles move together along the rows and
    sit at column block 0; the right operands' blocks never move. -/
theorem idx1 : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (1 : Fin 2) = 0
    ∧ win1_5.index t (0 : Fin 2) = win1_4.index t (0 : Fin 2)
    ∧ win1_5.index t (1 : Fin 2) = 0 :=
  (by decide +kernel : ∀ t : Fin grid1.N, _)

/-- Every row tile is some grid point's, for both products. -/
theorem onto1 : ∀ q0 : Fin 32, ∃ t : Fin cfg1.N, win1_4.index t = ![q0.val, 0] ∧ win1_5.index t = ![q0.val, 0] :=
  (by decide +kernel : ∀ q0 : Fin 32, ∃ t : Fin grid1.N, win1_4.index t = ![q0.val, 0] ∧ win1_5.index t = ![q0.val, 0])

/-! ## Output window 4: oy = (adj + mea) · y, the left factor and y read as bf16 -/

/-- The body's payload for window 4 at an entry of the product tile: the contraction over the 4096 shared positions of
    the summed row against the right operand's column. -/
theorem pay1_4_at (x0 x1 : Vec Ideal S128x4096 .f32) (x2 : Vec Ideal S4096x256 .bf16) (p : Fin 128) (q : Fin 256) :
    k1_pay2 (F := Ideal) x0 x1 x2 (ix2 p q) = ∑ k : Fin 4096, (x0 (ix2 p k) + x1 (ix2 p k)) * x2 (ix2 k q) := by
  unfold k1_pay2 k1_pay1
  simp only [shapeCast_self, matmul]
  rw [Ideal.matmul_constant_zero_apply,
    ← Equiv.sum_comp (contrEquiv1 dot_S128x4096_S4096x256_S128x256_1_0_0_1_n_n 4096 rfl rfl).symm]
  refine Finset.sum_congr rfl fun k _ => ?_
  have ck := contrEquiv1_symm_val dot_S128x4096_S4096x256_S128x256_1_0_0_1_n_n 4096 rfl rfl k
  have hl : DotDims.lhsIdx dot_S128x4096_S4096x256_S128x256_1_0_0_1_n_n (ix2 p q)
      ((contrEquiv1 dot_S128x4096_S4096x256_S128x256_1_0_0_1_n_n 4096 rfl rfl).symm k) = ix2 p k := by
    funext ax; apply Fin.ext
    match ax with
    | ⟨0, _⟩ => simp [DotDims.lhsIdx, dot_S128x4096_S4096x256_S128x256_1_0_0_1_n_n]; rfl
    | ⟨1, _⟩ => simp [DotDims.lhsIdx, dot_S128x4096_S4096x256_S128x256_1_0_0_1_n_n]; exact ck
  have hr : DotDims.rhsIdx dot_S128x4096_S4096x256_S128x256_1_0_0_1_n_n (ix2 p q)
      ((contrEquiv1 dot_S128x4096_S4096x256_S128x256_1_0_0_1_n_n 4096 rfl rfl).symm k) = ix2 k q := by
    funext ax; apply Fin.ext
    match ax with
    | ⟨0, _⟩ => simp [DotDims.rhsIdx, dot_S128x4096_S4096x256_S128x256_1_0_0_1_n_n]; exact ck
    | ⟨1, _⟩ => simp [DotDims.rhsIdx, dot_S128x4096_S4096x256_S128x256_1_0_0_1_n_n]; rfl
  rw [hl, hr]
  rfl

/-- Tiles whose rows are rows of the two left arrays, against a block that is the right array, give those rows of
    the whole-array function. -/
theorem pay1_4_rows (A M : S4096x4096.Idx → EReal) (R : S4096x256.Idx → EReal)
    (x0 x1 : Vec Ideal S128x4096 .f32) (x2 : Vec Ideal S4096x256 .bf16) (j : S128x256.Idx) (i : S4096x256.Idx)
    (h0 : ∀ k : Fin 4096, x0 (ix2 (j 0) k) = A (ix2 (i 0) k)) (h1 : ∀ k : Fin 4096, x1 (ix2 (j 0) k) = M (ix2 (i 0) k))
    (h2 : ∀ k : Fin 4096, x2 (ix2 k (j 1)) = R (ix2 k (i 1))) :
    k1_pay2 (F := Ideal) x0 x1 x2 j = sumProd1 A M R i := by
  obtain ⟨p, q, rfl⟩ : ∃ (p : Fin 128) (q : Fin 256), j = ix2 p q := ⟨j 0, j 1, eq_ix2 j⟩
  rw [pay1_4_at]
  exact Finset.sum_congr rfl fun k _ => by rw [h0 k, h1 k, h2 k]

/-- What grid point t writes back through window 4 is its row tile of the whole-array function. -/
theorem flushed1_4 (c : Dev nD) (t : Fin cfg1.N) :
    (dat1 (F := Ideal) V c).flushed 4 t
      = ((cfg1.win 4).blk t).view.read (Elt Ideal) (sumProd1 (V c main_arg6) (V c main_v0) (V c main_v2)) := by
  show (cfg1.win 4).cut (grid1.coords t) ((dat1 (F := Ideal) V c).after 4 t) = _
  rw [dat1_after_4]
  unfold left1_4
  rw [View.canon_unit_zero zeros1]
  simp only [View.ld_unit_zero (S := S128x4096) zeros1, View.ld_unit_zero (S := S4096x256) zeros1]
  obtain ⟨e0, e1, e2, e3, e4, e5, e6, e7, e8, e9, e10⟩ := idx1 t
  funext j
  refine pay1_4_rows (V c main_arg6) (V c main_v0) (V c main_v2) _ _ _ _ (((cfg1.win 4).blk t).view.emb j)
    (fun k => ?_) (fun k => ?_) (fun k => ?_)
  · show V c main_arg6 (((cfg1.win 0).blk t).view.emb (ix2 (j 0) k)) = V c main_arg6 (ix2 ((((cfg1.win 4).blk t).view.emb j) 0) k)
    congr 1
    funext a; apply Fin.ext
    match a with
    | ⟨0, _⟩ => show win1_0.index t (0 : Fin 2) * 128 + 1 * (j 0).val = win1_4.index t (0 : Fin 2) * 128 + 1 * (j 0).val; rw [e0]
    | ⟨1, _⟩ => show win1_0.index t (1 : Fin 2) * 4096 + 1 * k.val = k.val; rw [e1]; omega
  · show V c main_v0 (((cfg1.win 1).blk t).view.emb (ix2 (j 0) k)) = V c main_v0 (ix2 ((((cfg1.win 4).blk t).view.emb j) 0) k)
    congr 1
    funext a; apply Fin.ext
    match a with
    | ⟨0, _⟩ => show win1_1.index t (0 : Fin 2) * 128 + 1 * (j 0).val = win1_4.index t (0 : Fin 2) * 128 + 1 * (j 0).val; rw [e2]
    | ⟨1, _⟩ => show win1_1.index t (1 : Fin 2) * 4096 + 1 * k.val = k.val; rw [e3]; omega
  · show V c main_v2 (((cfg1.win 2).blk t).view.emb (ix2 k (j 1))) = V c main_v2 (ix2 k ((((cfg1.win 4).blk t).view.emb j) 1))
    congr 1
    funext a; apply Fin.ext
    match a with
    | ⟨0, _⟩ => show win1_2.index t (0 : Fin 2) * 4096 + 1 * k.val = k.val; rw [e4]; omega
    | ⟨1, _⟩ => show win1_2.index t (1 : Fin 2) * 256 + 1 * (j 1).val = win1_4.index t (1 : Fin 2) * 256 + 1 * (j 1).val; rw [e5, e8]

/-- An entry of the array is in point t's tile iff each coordinate is in the tile's range on its axis. -/
theorem mem_blk1_4 (t : Fin cfg1.N) (i : S4096x256.Idx) :
    i ∈ ((cfg1.win 4).blk t).view.set
      ↔ ∀ a : Fin 2, win1_4.index t a * S128x256.size a ≤ (i a).val
          ∧ (i a).val < win1_4.index t a * S128x256.size a + S128x256.size a := by
  show i ∈ ((View.whole main_v3_0).slice (win1_4.rect t)).set ↔ _
  rw [View.set_slice_whole, Rect.mem_set_unit]
  exact Iff.rfl

/-- The row tiles cover the array: row p is in the tile of the point whose index is (p / 128, 0). -/
theorem cover1_4 (i : S4096x256.Idx) :
    ∃ t : Fin cfg1.N, (cfg1.win 4).flush t = true ∧ i ∈ ((cfg1.win 4).blk t).view.set := by
  have hi0 : (i 0).val < 4096 := (i 0).isLt
  have hi1 : (i 1).val < 256 := (i 1).isLt
  obtain ⟨t, ht4, ht5⟩ := onto1 ⟨(i 0).val / 128, by omega⟩
  have q0 : win1_4.index t (0 : Fin 2) = (i 0).val / 128 := congrFun ht4 0
  have q1 : win1_4.index t (1 : Fin 2) = 0 := congrFun ht4 1
  refine ⟨t, flush1_4 t, ?_⟩
  rw [mem_blk1_4]
  intro a
  match a with
  | ⟨0, _⟩ => show win1_4.index t (0 : Fin 2) * 128 ≤ (i 0).val ∧ (i 0).val < win1_4.index t (0 : Fin 2) * 128 + 128; omega
  | ⟨1, _⟩ => show win1_4.index t (1 : Fin 2) * 256 ≤ (i 1).val ∧ (i 1).val < win1_4.index t (1 : Fin 2) * 256 + 256; omega

/-- After the region the array of window 4 is the whole-array function of the arrays the region found. -/
theorem arr1_4 (c : Dev nD) :
    (dat1 (F := Ideal) V c).arrAt 4 cfg1.N = sumProd1 (V c main_arg6) (V c main_v0) (V c main_v2) :=
  (dat1 (F := Ideal) V c).arrAt_eq_of_cover 4 (sumProd1 (V c main_arg6) (V c main_v0) (V c main_v2))
    (fun t _ => flushed1_4 V c t) cover1_4

/-- Entry by entry: out p q = Σ_k (adj p k + mea p k) · r k q. -/
theorem value1_4 (c : Dev nD) (p : Fin 4096) (q : Fin 256) :
    @Eq EReal ((dat1 (F := Ideal) V c).arrAt 4 cfg1.N (ix2 p q))
      (∑ k : Fin 4096, HMul.hMul (α := EReal) (β := EReal) (γ := EReal)
        (HAdd.hAdd (α := EReal) (β := EReal) (γ := EReal) (V c main_arg6 (ix2 p k)) (V c main_v0 (ix2 p k)))
        (V c main_v2 (ix2 k q))) :=
  congrFun (arr1_4 V c) (ix2 p q)

/-! ## Output window 5: oz = (adj + mea) · z at full precision -/

/-- The body's payload for window 5 at an entry of the product tile: the contraction over the 4096 shared positions of
    the summed row against the right operand's column. -/
theorem pay1_5_at (x0 x1 : Vec Ideal S128x4096 .f32) (x3 : Vec Ideal S4096x256 .f32) (p : Fin 128) (q : Fin 256) :
    k1_pay3 (F := Ideal) x0 x1 x3 (ix2 p q) = ∑ k : Fin 4096, (x0 (ix2 p k) + x1 (ix2 p k)) * x3 (ix2 k q) := by
  unfold k1_pay3 k1_pay1
  simp only [shapeCast_self, matmul]
  rw [Ideal.matmul_constant_zero_apply,
    ← Equiv.sum_comp (contrEquiv1 dot_S128x4096_S4096x256_S128x256_1_0_0_1_n_n 4096 rfl rfl).symm]
  refine Finset.sum_congr rfl fun k _ => ?_
  have ck := contrEquiv1_symm_val dot_S128x4096_S4096x256_S128x256_1_0_0_1_n_n 4096 rfl rfl k
  have hl : DotDims.lhsIdx dot_S128x4096_S4096x256_S128x256_1_0_0_1_n_n (ix2 p q)
      ((contrEquiv1 dot_S128x4096_S4096x256_S128x256_1_0_0_1_n_n 4096 rfl rfl).symm k) = ix2 p k := by
    funext ax; apply Fin.ext
    match ax with
    | ⟨0, _⟩ => simp [DotDims.lhsIdx, dot_S128x4096_S4096x256_S128x256_1_0_0_1_n_n]; rfl
    | ⟨1, _⟩ => simp [DotDims.lhsIdx, dot_S128x4096_S4096x256_S128x256_1_0_0_1_n_n]; exact ck
  have hr : DotDims.rhsIdx dot_S128x4096_S4096x256_S128x256_1_0_0_1_n_n (ix2 p q)
      ((contrEquiv1 dot_S128x4096_S4096x256_S128x256_1_0_0_1_n_n 4096 rfl rfl).symm k) = ix2 k q := by
    funext ax; apply Fin.ext
    match ax with
    | ⟨0, _⟩ => simp [DotDims.rhsIdx, dot_S128x4096_S4096x256_S128x256_1_0_0_1_n_n]; exact ck
    | ⟨1, _⟩ => simp [DotDims.rhsIdx, dot_S128x4096_S4096x256_S128x256_1_0_0_1_n_n]; rfl
  rw [hl, hr]
  rfl

/-- Tiles whose rows are rows of the two left arrays, against a block that is the right array, give those rows of
    the whole-array function. -/
theorem pay1_5_rows (A M : S4096x4096.Idx → EReal) (R : S4096x256.Idx → EReal)
    (x0 x1 : Vec Ideal S128x4096 .f32) (x3 : Vec Ideal S4096x256 .f32) (j : S128x256.Idx) (i : S4096x256.Idx)
    (h0 : ∀ k : Fin 4096, x0 (ix2 (j 0) k) = A (ix2 (i 0) k)) (h1 : ∀ k : Fin 4096, x1 (ix2 (j 0) k) = M (ix2 (i 0) k))
    (h2 : ∀ k : Fin 4096, x3 (ix2 k (j 1)) = R (ix2 k (i 1))) :
    k1_pay3 (F := Ideal) x0 x1 x3 j = sumProd1 A M R i := by
  obtain ⟨p, q, rfl⟩ : ∃ (p : Fin 128) (q : Fin 256), j = ix2 p q := ⟨j 0, j 1, eq_ix2 j⟩
  rw [pay1_5_at]
  exact Finset.sum_congr rfl fun k _ => by rw [h0 k, h1 k, h2 k]

/-- What grid point t writes back through window 5 is its row tile of the whole-array function. -/
theorem flushed1_5 (c : Dev nD) (t : Fin cfg1.N) :
    (dat1 (F := Ideal) V c).flushed 5 t
      = ((cfg1.win 5).blk t).view.read (Elt Ideal) (sumProd1 (V c main_arg6) (V c main_v0) (V c main_arg1)) := by
  show (cfg1.win 5).cut (grid1.coords t) ((dat1 (F := Ideal) V c).after 5 t) = _
  rw [dat1_after_5]
  unfold left1_5
  rw [View.canon_unit_zero zeros1]
  simp only [View.ld_unit_zero (S := S128x4096) zeros1, View.ld_unit_zero (S := S4096x256) zeros1]
  obtain ⟨e0, e1, e2, e3, e4, e5, e6, e7, e8, e9, e10⟩ := idx1 t
  funext j
  refine pay1_5_rows (V c main_arg6) (V c main_v0) (V c main_arg1) _ _ _ _ (((cfg1.win 5).blk t).view.emb j)
    (fun k => ?_) (fun k => ?_) (fun k => ?_)
  · show V c main_arg6 (((cfg1.win 0).blk t).view.emb (ix2 (j 0) k)) = V c main_arg6 (ix2 ((((cfg1.win 5).blk t).view.emb j) 0) k)
    congr 1
    funext a; apply Fin.ext
    match a with
    | ⟨0, _⟩ => show win1_0.index t (0 : Fin 2) * 128 + 1 * (j 0).val = win1_5.index t (0 : Fin 2) * 128 + 1 * (j 0).val; rw [e0, e9]
    | ⟨1, _⟩ => show win1_0.index t (1 : Fin 2) * 4096 + 1 * k.val = k.val; rw [e1]; omega
  · show V c main_v0 (((cfg1.win 1).blk t).view.emb (ix2 (j 0) k)) = V c main_v0 (ix2 ((((cfg1.win 5).blk t).view.emb j) 0) k)
    congr 1
    funext a; apply Fin.ext
    match a with
    | ⟨0, _⟩ => show win1_1.index t (0 : Fin 2) * 128 + 1 * (j 0).val = win1_5.index t (0 : Fin 2) * 128 + 1 * (j 0).val; rw [e2, e9]
    | ⟨1, _⟩ => show win1_1.index t (1 : Fin 2) * 4096 + 1 * k.val = k.val; rw [e3]; omega
  · show V c main_arg1 (((cfg1.win 3).blk t).view.emb (ix2 k (j 1))) = V c main_arg1 (ix2 k ((((cfg1.win 5).blk t).view.emb j) 1))
    congr 1
    funext a; apply Fin.ext
    match a with
    | ⟨0, _⟩ => show win1_3.index t (0 : Fin 2) * 4096 + 1 * k.val = k.val; rw [e6]; omega
    | ⟨1, _⟩ => show win1_3.index t (1 : Fin 2) * 256 + 1 * (j 1).val = win1_5.index t (1 : Fin 2) * 256 + 1 * (j 1).val; rw [e7, e10]

/-- An entry of the array is in point t's tile iff each coordinate is in the tile's range on its axis. -/
theorem mem_blk1_5 (t : Fin cfg1.N) (i : S4096x256.Idx) :
    i ∈ ((cfg1.win 5).blk t).view.set
      ↔ ∀ a : Fin 2, win1_5.index t a * S128x256.size a ≤ (i a).val
          ∧ (i a).val < win1_5.index t a * S128x256.size a + S128x256.size a := by
  show i ∈ ((View.whole main_v3_1).slice (win1_5.rect t)).set ↔ _
  rw [View.set_slice_whole, Rect.mem_set_unit]
  exact Iff.rfl

/-- The row tiles cover the array: row p is in the tile of the point whose index is (p / 128, 0). -/
theorem cover1_5 (i : S4096x256.Idx) :
    ∃ t : Fin cfg1.N, (cfg1.win 5).flush t = true ∧ i ∈ ((cfg1.win 5).blk t).view.set := by
  have hi0 : (i 0).val < 4096 := (i 0).isLt
  have hi1 : (i 1).val < 256 := (i 1).isLt
  obtain ⟨t, ht4, ht5⟩ := onto1 ⟨(i 0).val / 128, by omega⟩
  have q0 : win1_5.index t (0 : Fin 2) = (i 0).val / 128 := congrFun ht5 0
  have q1 : win1_5.index t (1 : Fin 2) = 0 := congrFun ht5 1
  refine ⟨t, flush1_5 t, ?_⟩
  rw [mem_blk1_5]
  intro a
  match a with
  | ⟨0, _⟩ => show win1_5.index t (0 : Fin 2) * 128 ≤ (i 0).val ∧ (i 0).val < win1_5.index t (0 : Fin 2) * 128 + 128; omega
  | ⟨1, _⟩ => show win1_5.index t (1 : Fin 2) * 256 ≤ (i 1).val ∧ (i 1).val < win1_5.index t (1 : Fin 2) * 256 + 256; omega

/-- After the region the array of window 5 is the whole-array function of the arrays the region found. -/
theorem arr1_5 (c : Dev nD) :
    (dat1 (F := Ideal) V c).arrAt 5 cfg1.N = sumProd1 (V c main_arg6) (V c main_v0) (V c main_arg1) :=
  (dat1 (F := Ideal) V c).arrAt_eq_of_cover 5 (sumProd1 (V c main_arg6) (V c main_v0) (V c main_arg1))
    (fun t _ => flushed1_5 V c t) cover1_5

/-- Entry by entry: out p q = Σ_k (adj p k + mea p k) · r k q. -/
theorem value1_5 (c : Dev nD) (p : Fin 4096) (q : Fin 256) :
    @Eq EReal ((dat1 (F := Ideal) V c).arrAt 5 cfg1.N (ix2 p q))
      (∑ k : Fin 4096, HMul.hMul (α := EReal) (β := EReal) (γ := EReal)
        (HAdd.hAdd (α := EReal) (β := EReal) (γ := EReal) (V c main_arg6 (ix2 p k)) (V c main_v0 (ix2 p k)))
        (V c main_arg1 (ix2 k q))) :=
  congrFun (arr1_5 V c) (ix2 p q)

end Cert.KernelIdeal.Vals

end
-- ==== Proof.KI.Value2.lean ====
/- Region 2 of @main, value side: a tall matrix product as one function of the arrays the region is entered with.

   The region computes  out = A · B  for A of 4096 x 4096 and B of 4096 x 256 in eight row tiles: at grid point t it
   reads rows 512 t … 512 t + 511 of A and the whole of B and writes the same rows of out, each entry the sum over the
   4096 contracted positions of the products (a change of float format is the identity on the extended reals, and a
   sum started from the zero accumulator is the sum).  Row r of the product depends on row r of A alone, so what each
   point writes back is its row tile of the whole-array function
       out p q = Σ_k A p k · B k q ;
   the eight row tiles cover the array (row p lies in tile p / 512), so after the region the array IS that function. -/
import proofs.«169176_j23261542875327_2_alg».proof.Proof.KI.Region2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal Cert.KernelIdeal.Gen Cert.KernelIdeal.Regs
open Idealize.ShloMosaic Idealize.ShloMosaic.TcCoe Idealize.SL.Sem Idealize.ShloMosaic.ValueIdx
open Idealize.ShloMosaic.Pipeline (Dat)

-- what the TensorCore's buffers hold when the region is entered
variable (V : (c : Dev nD) → (b : Ref sig .tc) → Buf (Elt Ideal) ((c : Thread nD τ).loc b))

/-- The zero offsets of a whole-block rectangle, as the constant function. -/
theorem zeros2 : (![0, 0] : Fin 2 → Nat) = fun _ => 0 := funext fun a => by fin_cases a <;> rfl

/-- The product of whole arrays, entry by entry: out p q = Σ_k a p k · b k q. -/
def mm2 (a : S4096x4096.Idx → EReal) (b : S4096x256.Idx → EReal) : S4096x256.Idx → EReal :=
  fun i => ∑ k : Fin 4096, a (ix2 (i 0) k) * b (ix2 k (i 1))

/-- The body's payload on a row tile and the right matrix, at an entry of the output tile: the contraction over the
    4096 shared positions. -/
theorem pay2_at (x0 : Vec Ideal S512x4096 .bf16) (x1 : Vec Ideal S4096x256 .f32) (p : Fin 512) (q : Fin 256) :
    k2_pay1 (F := Ideal) x0 x1 (ix2 p q) = ∑ k : Fin 4096, x0 (ix2 p k) * x1 (ix2 k q) := by
  unfold k2_pay1
  simp only [shapeCast_self, matmul]
  rw [Ideal.matmul_constant_zero_apply,
    ← Equiv.sum_comp (contrEquiv1 dot_S512x4096_S4096x256_S512x256_1_0_0_1_n_n 4096 rfl rfl).symm]
  refine Finset.sum_congr rfl fun k _ => ?_
  have ck := contrEquiv1_symm_val dot_S512x4096_S4096x256_S512x256_1_0_0_1_n_n 4096 rfl rfl k
  have hl : DotDims.lhsIdx dot_S512x4096_S4096x256_S512x256_1_0_0_1_n_n (ix2 p q)
      ((contrEquiv1 dot_S512x4096_S4096x256_S512x256_1_0_0_1_n_n 4096 rfl rfl).symm k) = ix2 p k := by
    funext ax; apply Fin.ext
    match ax with
    | ⟨0, _⟩ => simp [DotDims.lhsIdx, dot_S512x4096_S4096x256_S512x256_1_0_0_1_n_n]; rfl
    | ⟨1, _⟩ => simp [DotDims.lhsIdx, dot_S512x4096_S4096x256_S512x256_1_0_0_1_n_n]; exact ck
  have hr : DotDims.rhsIdx dot_S512x4096_S4096x256_S512x256_1_0_0_1_n_n (ix2 p q)
      ((contrEquiv1 dot_S512x4096_S4096x256_S512x256_1_0_0_1_n_n 4096 rfl rfl).symm k) = ix2 k q := by
    funext ax; apply Fin.ext
    match ax with
    | ⟨0, _⟩ => simp [DotDims.rhsIdx, dot_S512x4096_S4096x256_S512x256_1_0_0_1_n_n]; exact ck
    | ⟨1, _⟩ => simp [DotDims.rhsIdx, dot_S512x4096_S4096x256_S512x256_1_0_0_1_n_n]; rfl
  rw [hl, hr]
  rfl

/-- The same at any entry of the output tile, named by its two coordinates. -/
theorem pay2_idx (x0 : Vec Ideal S512x4096 .bf16) (x1 : Vec Ideal S4096x256 .f32) (j : S512x256.Idx) :
    k2_pay1 (F := Ideal) x0 x1 j = ∑ k : Fin 4096, x0 (ix2 (j 0) k) * x1 (ix2 k (j 1)) := by
  obtain ⟨p, q, rfl⟩ : ∃ (p : Fin 512) (q : Fin 256), j = ix2 p q := ⟨j 0, j 1, eq_ix2 j⟩
  exact pay2_at x0 x1 p q

/-- A tile whose rows are rows of A, against a block that is B, gives those rows of the product. -/
theorem pay2_rows (A : S4096x4096.Idx → EReal) (B : S4096x256.Idx → EReal)
    (x0 : Vec Ideal S512x4096 .bf16) (x1 : Vec Ideal S4096x256 .f32) (j : S512x256.Idx) (i : S4096x256.Idx)
    (h0 : ∀ k : Fin 4096, x0 (ix2 (j 0) k) = A (ix2 (i 0) k)) (h1 : ∀ k : Fin 4096, x1 (ix2 k (j 1)) = B (ix2 k (i 1))) :
    k2_pay1 (F := Ideal) x0 x1 j = mm2 A B i := by
  rw [pay2_idx]
  exact Finset.sum_congr rfl fun k _ => by rw [h0 k, h1 k]

/-- The index maps at every grid point: the row tile of A and of the result move together along the rows and sit at
    column block 0; B's block never moves. -/
theorem idx2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every row tile is some grid point's. -/
theorem onto2 : ∀ q0 : Fin 8, ∃ t : Fin cfg2.N, win2_2.index t = ![q0.val, 0] :=
  (by decide +kernel : ∀ q0 : Fin 8, ∃ t : Fin grid2.N, win2_2.index t = ![q0.val, 0])

/-- What grid point t writes back is its row tile of the whole-array product. -/
theorem flushed2_2 (c : Dev nD) (t : Fin cfg2.N) :
    (dat2 (F := Ideal) V c).flushed 2 t
      = ((cfg2.win 2).blk t).view.read (Elt Ideal) (mm2 (V c main_v1) (V c main_v11)) := by
  show (cfg2.win 2).cut (grid2.coords t) ((dat2 (F := Ideal) V c).after 2 t) = _
  rw [dat2_after_2]
  unfold left2_2
  rw [View.canon_unit_zero zeros2]
  simp only [View.ld_unit_zero (S := S512x4096) zeros2, View.ld_unit_zero (S := S4096x256) zeros2]
  obtain ⟨e0, e1, e2, e3, e4⟩ := idx2 t
  funext j
  refine pay2_rows (V c main_v1) (V c main_v11) _ _ _ (((cfg2.win 2).blk t).view.emb j) (fun k => ?_) (fun k => ?_)
  · show V c main_v1 (((cfg2.win 0).blk t).view.emb (ix2 (j 0) k)) = V c main_v1 (ix2 ((((cfg2.win 2).blk t).view.emb j) 0) k)
    congr 1
    funext a; apply Fin.ext
    match a with
    | ⟨0, _⟩ => show win2_0.index t (0 : Fin 2) * 512 + 1 * (j 0).val = win2_2.index t (0 : Fin 2) * 512 + 1 * (j 0).val; rw [e0]
    | ⟨1, _⟩ => show win2_0.index t (1 : Fin 2) * 4096 + 1 * k.val = k.val; rw [e1]; omega
  · show V c main_v11 (((cfg2.win 1).blk t).view.emb (ix2 k (j 1))) = V c main_v11 (ix2 k ((((cfg2.win 2).blk t).view.emb j) 1))
    congr 1
    funext a; apply Fin.ext
    match a with
    | ⟨0, _⟩ => show win2_1.index t (0 : Fin 2) * 4096 + 1 * k.val = k.val; rw [e2]; omega
    | ⟨1, _⟩ => show win2_1.index t (1 : Fin 2) * 256 + 1 * (j 1).val = win2_2.index t (1 : Fin 2) * 256 + 1 * (j 1).val; rw [e3, e4]

/-- An entry of the array is in point t's tile iff each coordinate is in the tile's range on its axis. -/
theorem mem_blk2_2 (t : Fin cfg2.N) (i : S4096x256.Idx) :
    i ∈ ((cfg2.win 2).blk t).view.set
      ↔ ∀ a : Fin 2, win2_2.index t a * S512x256.size a ≤ (i a).val
          ∧ (i a).val < win2_2.index t a * S512x256.size a + S512x256.size a := by
  show i ∈ ((View.whole main_v12).slice (win2_2.rect t)).set ↔ _
  rw [View.set_slice_whole, Rect.mem_set_unit]
  exact Iff.rfl

/-- The row tiles cover the array: row p is in the tile of the point whose index is (p / 512, 0). -/
theorem cover2_2 (i : S4096x256.Idx) :
    ∃ t : Fin cfg2.N, (cfg2.win 2).flush t = true ∧ i ∈ ((cfg2.win 2).blk t).view.set := by
  have hi0 : (i 0).val < 4096 := (i 0).isLt
  have hi1 : (i 1).val < 256 := (i 1).isLt
  obtain ⟨t, ht⟩ := onto2 ⟨(i 0).val / 512, by omega⟩
  have q0 : win2_2.index t (0 : Fin 2) = (i 0).val / 512 := congrFun ht 0
  have q1 : win2_2.index t (1 : Fin 2) = 0 := congrFun ht 1
  refine ⟨t, flush2_2 t, ?_⟩
  rw [mem_blk2_2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 256 ≤ (i 1).val ∧ (i 1).val < win2_2.index t (1 : Fin 2) * 256 + 256; omega

/-- After the region the result array is the product of the two input arrays as the region found them. -/
theorem arr2_2 (c : Dev nD) :
    (dat2 (F := Ideal) V c).arrAt 2 cfg2.N = mm2 (V c main_v1) (V c main_v11) :=
  (dat2 (F := Ideal) V c).arrAt_eq_of_cover 2 (mm2 (V c main_v1) (V c main_v11))
    (fun t _ => flushed2_2 V c t) cover2_2

/-- Entry by entry: out p q = Σ_k A p k · B k q. -/
theorem value2_2 (c : Dev nD) (p : Fin 4096) (q : Fin 256) :
    @Eq EReal ((dat2 (F := Ideal) V c).arrAt 2 cfg2.N (ix2 p q))
      (∑ k : Fin 4096, HMul.hMul (α := EReal) (β := EReal) (γ := EReal) (V c main_v1 (ix2 p k)) (V c main_v11 (ix2 k q))) :=
  congrFun (arr2_2 V c) (ix2 p q)

end Cert.KernelIdeal.Vals

end
-- ==== Proof.KI.Value3.lean ====
/- Region 3 of @main, value side: the edge-potential update as one function of the arrays the region is entered
   with.

   The region computes  EP = y · yᵀ − mea − ½ M  (y of 4096 x 256; mea, M, EP of 4096 x 4096) in a 4 x 4 grid of
   1024 x 1024 tiles: at grid point (i, j) it reads row blocks i and j of y and tile (i, j) of mea and of M, and writes
   tile (i, j) of EP, each entry the sum over the 256 contracted positions of the products of the two rows of y (a
   change of float format is the identity on the extended reals, and a sum started from the zero accumulator is the
   sum), less the entry of mea, less half the entry of M.  Entry (p, q) depends on rows p and q of y and on entry
   (p, q) of mea and M alone, so what each point writes back is its tile of the whole-array function
       EP p q = ((Σ_l y p l · y q l) − mea p q) − ½ · M p q ;
   the sixteen tiles cover the array (entry (p, q) lies in tile (p / 1024, q / 1024)), so after the region the array
   IS that function. -/
import proofs.«169176_j23261542875327_2_alg».proof.Proof.KI.Region3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal Cert.KernelIdeal.Gen Cert.KernelIdeal.Regs
open Idealize.ShloMosaic Idealize.ShloMosaic.TcCoe Idealize.SL.Sem Idealize.ShloMosaic.ValueIdx
open Idealize.ShloMosaic.Pipeline (Dat)

-- what the TensorCore's buffers hold when the region is entered
variable (V : (c : Dev nD) → (b : Ref sig .tc) → Buf (Elt Ideal) ((c : Thread nD τ).loc b))

/-- The zero offsets of a whole-block rectangle, as the constant function. -/
theorem zeros3 : (![0, 0] : Fin 2 → Nat) = fun _ => 0 := funext fun a => by fin_cases a <;> rfl

/-- The updated edge potential of whole arrays, entry by entry: out p q = ((Σ_l y p l · y q l) − e p q) − ½ · m p q. -/
def gramUpd3 (y : S4096x256.Idx → EReal) (e m : S4096x4096.Idx → EReal) : S4096x4096.Idx → EReal :=
  fun i => ((∑ l : Fin 256, y (ix2 (i 0) l) * y (ix2 (i 1) l)) - e i) - Ideal.ofBits .f32 0x3F000000#32 * m i

/-- The product of a 1024 x 256 block with the transpose of another into the zero accumulator, at an entry: the sum
    over the 256 shared positions of the products of the two rows. -/
theorem gram3_at (a b : FVec Ideal S1024x256 .bf16) (p q : Fin 1024) :
    matmul dot_S1024x256_S1024x256_S1024x1024_1_1_0_0_n_n none a b (constant (F := Ideal) S1024x1024 .f32 0x00000000#32) (ix2 p q)
      = ∑ l : Fin 256, a (ix2 p l) * b (ix2 q l) := by
  simp only [matmul]
  rw [Ideal.matmul_constant_zero_apply,
    ← Equiv.sum_comp (contrEquiv1 dot_S1024x256_S1024x256_S1024x1024_1_1_0_0_n_n 256 rfl rfl).symm]
  refine Finset.sum_congr rfl fun k _ => ?_
  have ck := contrEquiv1_symm_val dot_S1024x256_S1024x256_S1024x1024_1_1_0_0_n_n 256 rfl rfl k
  have hl : DotDims.lhsIdx dot_S1024x256_S1024x256_S1024x1024_1_1_0_0_n_n (ix2 p q)
      ((contrEquiv1 dot_S1024x256_S1024x256_S1024x1024_1_1_0_0_n_n 256 rfl rfl).symm k) = ix2 p k := by
    funext ax; apply Fin.ext
    match ax with
    | ⟨0, _⟩ => simp [DotDims.lhsIdx, dot_S1024x256_S1024x256_S1024x1024_1_1_0_0_n_n]; rfl
    | ⟨1, _⟩ => simp [DotDims.lhsIdx, dot_S1024x256_S1024x256_S1024x1024_1_1_0_0_n_n]; exact ck
  have hr : DotDims.rhsIdx dot_S1024x256_S1024x256_S1024x1024_1_1_0_0_n_n (ix2 p q)
      ((contrEquiv1 dot_S1024x256_S1024x256_S1024x1024_1_1_0_0_n_n 256 rfl rfl).symm k) = ix2 q k := by
    funext ax; apply Fin.ext
    match ax with
    | ⟨0, _⟩ => simp [DotDims.rhsIdx, dot_S1024x256_S1024x256_S1024x1024_1_1_0_0_n_n]; rfl
    | ⟨1, _⟩ => simp [DotDims.rhsIdx, dot_S1024x256_S1024x256_S1024x1024_1_1_0_0_n_n]; exact ck
  rw [hl, hr]

/-- The body's payload at an entry of the tile. -/
theorem pay3_at (x0 x1 : Vec Ideal S1024x256 .f32) (x2 x3 : Vec Ideal S1024x1024 .f32) (p q : Fin 1024) :
    k3_pay1 (F := Ideal) x0 x1 x2 x3 (ix2 p q)
      = ((∑ l : Fin 256, x0 (ix2 p l) * x1 (ix2 q l)) - x2 (ix2 p q)) - Ideal.ofBits .f32 0x3F000000#32 * x3 (ix2 p q) := by
  unfold k3_pay1
  simp only [shapeCast_self, subf_apply, mulf_apply, broadcast_apply]
  rw [gram3_at]
  rfl

/-- The same at any entry of the tile, named by its two coordinates. -/
theorem pay3_idx (x0 x1 : Vec Ideal S1024x256 .f32) (x2 x3 : Vec Ideal S1024x1024 .f32) (j : S1024x1024.Idx) :
    k3_pay1 (F := Ideal) x0 x1 x2 x3 j
      = ((∑ l : Fin 256, x0 (ix2 (j 0) l) * x1 (ix2 (j 1) l)) - x2 j) - Ideal.ofBits .f32 0x3F000000#32 * x3 j := by
  obtain ⟨p, q, rfl⟩ : ∃ (p : Fin 1024) (q : Fin 1024), j = ix2 p q := ⟨j 0, j 1, eq_ix2 j⟩
  exact pay3_at x0 x1 x2 x3 p q

/-- Blocks whose rows are rows of y, and tiles whose entry is the entry of the two square arrays, give that entry of
    the whole-array function. -/
theorem pay3_rows (Y : S4096x256.Idx → EReal) (E M : S4096x4096.Idx → EReal)
    (x0 x1 : Vec Ideal S1024x256 .f32) (x2 x3 : Vec Ideal S1024x1024 .f32) (j : S1024x1024.Idx) (i : S4096x4096.Idx)
    (h0 : ∀ l : Fin 256, x0 (ix2 (j 0) l) = Y (ix2 (i 0) l)) (h1 : ∀ l : Fin 256, x1 (ix2 (j 1) l) = Y (ix2 (i 1) l))
    (h2 : x2 j = E i) (h3 : x3 j = M i) :
    k3_pay1 (F := Ideal) x0 x1 x2 x3 j = gramUpd3 Y E M i := by
  have hs : (∑ l : Fin 256, x0 (ix2 (j 0) l) * x1 (ix2 (j 1) l)) = ∑ l : Fin 256, Y (ix2 (i 0) l) * Y (ix2 (i 1) l) :=
    Finset.sum_congr rfl fun l _ => by rw [h0 l, h1 l]
  rw [pay3_idx, hs, h2, h3]
  rfl

/-- The index maps at every grid point: the first block of y sits at the tile's row block and the second at its column
    block, both at column block 0; the tiles of the two square operands sit where the result's tile does. -/
theorem idx3 : ∀ t : Fin cfg3.N, win3_0.index t (0 : Fin 2) = win3_4.index t (0 : Fin 2)
    ∧ win3_0.index t (1 : Fin 2) = 0
    ∧ win3_1.index t (0 : Fin 2) = win3_4.index t (1 : Fin 2)
    ∧ win3_1.index t (1 : Fin 2) = 0
    ∧ win3_2.index t (0 : Fin 2) = win3_4.index t (0 : Fin 2)
    ∧ win3_2.index t (1 : Fin 2) = win3_4.index t (1 : Fin 2)
    ∧ win3_3.index t (0 : Fin 2) = win3_4.index t (0 : Fin 2)
    ∧ win3_3.index t (1 : Fin 2) = win3_4.index t (1 : Fin 2) :=
  (by decide +kernel : ∀ t : Fin grid3.N, _)

/-- Every tile is some grid point's. -/
theorem onto3 : ∀ q0 q1 : Fin 4, ∃ t : Fin cfg3.N, win3_4.index t = ![q0.val, q1.val] :=
  (by decide +kernel : ∀ q0 q1 : Fin 4, ∃ t : Fin grid3.N, win3_4.index t = ![q0.val, q1.val])

/-- What grid point t writes back is its tile of the whole-array function. -/
theorem flushed3_4 (c : Dev nD) (t : Fin cfg3.N) :
    (dat3 (F := Ideal) V c).flushed 4 t
      = ((cfg3.win 4).blk t).view.read (Elt Ideal) (gramUpd3 (V c main_arg0) (V c main_v0) (V c main_v54)) := by
  show (cfg3.win 4).cut (grid3.coords t) ((dat3 (F := Ideal) V c).after 4 t) = _
  rw [dat3_after_4]
  unfold left3_4
  rw [View.canon_unit_zero zeros3]
  simp only [View.ld_unit_zero (S := S1024x256) zeros3, View.ld_unit_zero (S := S1024x1024) zeros3]
  obtain ⟨e0, e1, e2, e3, e4, e5, e6, e7⟩ := idx3 t
  funext j
  refine pay3_rows (V c main_arg0) (V c main_v0) (V c main_v54) _ _ _ _ _ (((cfg3.win 4).blk t).view.emb j)
    (fun l => ?_) (fun l => ?_) ?_ ?_
  · show V c main_arg0 (((cfg3.win 0).blk t).view.emb (ix2 (j 0) l)) = V c main_arg0 (ix2 ((((cfg3.win 4).blk t).view.emb j) 0) l)
    refine congrArg (V c main_arg0) ?_
    funext a; apply Fin.ext
    match a with
    | ⟨0, _⟩ => show win3_0.index t (0 : Fin 2) * 1024 + 1 * (j 0).val = win3_4.index t (0 : Fin 2) * 1024 + 1 * (j 0).val; rw [e0]
    | ⟨1, _⟩ => show win3_0.index t (1 : Fin 2) * 256 + 1 * l.val = l.val; rw [e1]; omega
  · show V c main_arg0 (((cfg3.win 1).blk t).view.emb (ix2 (j 1) l)) = V c main_arg0 (ix2 ((((cfg3.win 4).blk t).view.emb j) 1) l)
    refine congrArg (V c main_arg0) ?_
    funext a; apply Fin.ext
    match a with
    | ⟨0, _⟩ => show win3_1.index t (0 : Fin 2) * 1024 + 1 * (j 1).val = win3_4.index t (1 : Fin 2) * 1024 + 1 * (j 1).val; rw [e2]
    | ⟨1, _⟩ => show win3_1.index t (1 : Fin 2) * 256 + 1 * l.val = l.val; rw [e3]; omega
  · show V c main_v0 (((cfg3.win 2).blk t).view.emb j) = V c main_v0 (((cfg3.win 4).blk t).view.emb j)
    refine congrArg (V c main_v0) ?_
    funext a; apply Fin.ext
    match a with
    | ⟨0, _⟩ => show win3_2.index t (0 : Fin 2) * 1024 + 1 * (j 0).val = win3_4.index t (0 : Fin 2) * 1024 + 1 * (j 0).val; rw [e4]
    | ⟨1, _⟩ => show win3_2.index t (1 : Fin 2) * 1024 + 1 * (j 1).val = win3_4.index t (1 : Fin 2) * 1024 + 1 * (j 1).val; rw [e5]
  · show V c main_v54 (((cfg3.win 3).blk t).view.emb j) = V c main_v54 (((cfg3.win 4).blk t).view.emb j)
    refine congrArg (V c main_v54) ?_
    funext a; apply Fin.ext
    match a with
    | ⟨0, _⟩ => show win3_3.index t (0 : Fin 2) * 1024 + 1 * (j 0).val = win3_4.index t (0 : Fin 2) * 1024 + 1 * (j 0).val; rw [e6]
    | ⟨1, _⟩ => show win3_3.index t (1 : Fin 2) * 1024 + 1 * (j 1).val = win3_4.index t (1 : Fin 2) * 1024 + 1 * (j 1).val; rw [e7]

/-- An entry of the array is in point t's tile iff each coordinate is in the tile's range on its axis. -/
theorem mem_blk3_4 (t : Fin cfg3.N) (i : S4096x4096.Idx) :
    i ∈ ((cfg3.win 4).blk t).view.set
      ↔ ∀ a : Fin 2, win3_4.index t a * S1024x1024.size a ≤ (i a).val
          ∧ (i a).val < win3_4.index t a * S1024x1024.size a + S1024x1024.size a := by
  show i ∈ ((View.whole main_v55).slice (win3_4.rect t)).set ↔ _
  rw [View.set_slice_whole, Rect.mem_set_unit]
  exact Iff.rfl

/-- The tiles cover the array: entry (p, q) is in the tile of the point whose index is (p / 1024, q / 1024). -/
theorem cover3_4 (i : S4096x4096.Idx) :
    ∃ t : Fin cfg3.N, (cfg3.win 4).flush t = true ∧ i ∈ ((cfg3.win 4).blk t).view.set := by
  have hi0 : (i 0).val < 4096 := (i 0).isLt
  have hi1 : (i 1).val < 4096 := (i 1).isLt
  obtain ⟨t, ht⟩ := onto3 ⟨(i 0).val / 1024, by omega⟩ ⟨(i 1).val / 1024, by omega⟩
  have q0 : win3_4.index t (0 : Fin 2) = (i 0).val / 1024 := congrFun ht 0
  have q1 : win3_4.index t (1 : Fin 2) = (i 1).val / 1024 := congrFun ht 1
  refine ⟨t, flush3_4 t, ?_⟩
  rw [mem_blk3_4]
  intro a
  match a with
  | ⟨0, _⟩ => show win3_4.index t (0 : Fin 2) * 1024 ≤ (i 0).val ∧ (i 0).val < win3_4.index t (0 : Fin 2) * 1024 + 1024; omega
  | ⟨1, _⟩ => show win3_4.index t (1 : Fin 2) * 1024 ≤ (i 1).val ∧ (i 1).val < win3_4.index t (1 : Fin 2) * 1024 + 1024; omega

/-- After the region the result array is the whole-array function of the arrays the region found. -/
theorem arr3_4 (c : Dev nD) :
    (dat3 (F := Ideal) V c).arrAt 4 cfg3.N = gramUpd3 (V c main_arg0) (V c main_v0) (V c main_v54) :=
  (dat3 (F := Ideal) V c).arrAt_eq_of_cover 4 (gramUpd3 (V c main_arg0) (V c main_v0) (V c main_v54))
    (fun t _ => flushed3_4 V c t) cover3_4

/-- Entry by entry: EP p q = ((Σ_l y p l · y q l) − mea p q) − ½ · M p q. -/
theorem value3_4 (c : Dev nD) (p q : Fin 4096) :
    @Eq EReal ((dat3 (F := Ideal) V c).arrAt 4 cfg3.N (ix2 p q))
      (HSub.hSub (α := EReal) (β := EReal) (γ := EReal)
        (HSub.hSub (α := EReal) (β := EReal) (γ := EReal)
          (∑ l : Fin 256, HMul.hMul (α := EReal) (β := EReal) (γ := EReal) (V c main_arg0 (ix2 p l)) (V c main_arg0 (ix2 q l)))
          (V c main_v0 (ix2 p q)))
        (HMul.hMul (α := EReal) (β := EReal) (γ := EReal) (Ideal.ofBits .f32 0x3F000000#32) (V c main_v54 (ix2 p q)))) :=
  congrFun (arr3_4 V c) (ix2 p q)

end Cert.KernelIdeal.Vals

end
-- ==== Proof.KI.Value4.lean ====
/- Region 4 of @main, value side: a later layer's two adjacency products as functions of the arrays the region is
   entered with.

   With A = adj ⊙ EP + mea (4096 x 4096, ⊙ the entrywise product) the region computes  oy = A · y  and  oz = A · z
   (y, z of 4096 x 256) in 32 row tiles: at grid point t it reads rows 128 t … 128 t + 127 of adj, EP and mea and the
   whole of y and z, and writes the same rows of both products, each entry the sum over the 4096 contracted positions of
   the products (a change of float format is the identity on the extended reals, and a sum started from the zero
   accumulator is the sum).  Row r of a product depends on row r of the three left arrays alone, so what each point
   writes back is its row tile of the whole-array function
       out p q = Σ_k (adj p k · EP p k + mea p k) · r k q        (r = y, z);
   the 32 row tiles cover the array (row p lies in tile p / 128), so after the region each array IS that function. -/
import proofs.«169176_j23261542875327_2_alg».proof.Proof.KI.Region4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal Cert.KernelIdeal.Gen Cert.KernelIdeal.Regs
open Idealize.ShloMosaic Idealize.ShloMosaic.TcCoe Idealize.SL.Sem Idealize.ShloMosaic.ValueIdx
open Idealize.ShloMosaic.Pipeline (Dat)

-- what the TensorCore's buffers hold when the region is entered
variable (V : (c : Dev nD) → (b : Ref sig .tc) → Buf (Elt Ideal) ((c : Thread nD τ).loc b))

/-- The zero offsets of a whole-block rectangle, as the constant function. -/
theorem zeros4 : (![0, 0] : Fin 2 → Nat) = fun _ => 0 := funext fun a => by fin_cases a <;> rfl

/-- The product of `a ⊙ e + m` with a fourth array, entry by entry: out p q = Σ_k (a p k · e p k + m p k) · r k q. -/
def mixProd4 (a e m : S4096x4096.Idx → EReal) (r : S4096x256.Idx → EReal) : S4096x256.Idx → EReal :=
  fun i => ∑ k : Fin 4096, (a (ix2 (i 0) k) * e (ix2 (i 0) k) + m (ix2 (i 0) k)) * r (ix2 k (i 1))

/-- The index maps at every grid point: the three row tiles and the two product tiles move together along the rows
    and sit at column block 0; the right operands' blocks never move. -/
theorem idx4 : ∀ t : Fin cfg4.N, win4_0.index t (0 : Fin 2) = win4_5.index t (0 : Fin 2)
    ∧ win4_0.index t (1 : Fin 2) = 0
    ∧ win4_1.index t (0 : Fin 2) = win4_5.index t (0 : Fin 2)
    ∧ win4_1.index t (1 : Fin 2) = 0
    ∧ win4_2.index t (0 : Fin 2) = win4_5.index t (0 : Fin 2)
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (1 : Fin 2) = 0
    ∧ win4_6.index t (0 : Fin 2) = win4_5.index t (0 : Fin 2)
    ∧ win4_6.index t (1 : Fin 2) = 0 :=
  (by decide +kernel : ∀ t : Fin grid4.N, _)

/-- Every row tile is some grid point's, for both products. -/
theorem onto4 : ∀ q0 : Fin 32, ∃ t : Fin cfg4.N, win4_5.index t = ![q0.val, 0] ∧ win4_6.index t = ![q0.val, 0] :=
  (by decide +kernel : ∀ q0 : Fin 32, ∃ t : Fin grid4.N, win4_5.index t = ![q0.val, 0] ∧ win4_6.index t = ![q0.val, 0])

/-! ## Output window 5: oy = (adj ⊙ EP + mea) · y, the left factor and y read as bf16 -/

/-- The body's payload for window 5 at an entry of the product tile: the contraction over the 4096 shared positions of
    the combined row against the right operand's column. -/
theorem pay4_5_at (x0 x1 x2 : Vec Ideal S128x4096 .f32) (x3 : Vec Ideal S4096x256 .bf16) (p : Fin 128) (q : Fin 256) :
    k4_pay2 (F := Ideal) x0 x1 x2 x3 (ix2 p q)
      = ∑ k : Fin 4096, (x0 (ix2 p k) * x1 (ix2 p k) + x2 (ix2 p k)) * x3 (ix2 k q) := by
  unfold k4_pay2 k4_pay1
  simp only [shapeCast_self, matmul]
  rw [Ideal.matmul_constant_zero_apply,
    ← Equiv.sum_comp (contrEquiv1 dot_S128x4096_S4096x256_S128x256_1_0_0_1_n_n 4096 rfl rfl).symm]
  refine Finset.sum_congr rfl fun k _ => ?_
  have ck := contrEquiv1_symm_val dot_S128x4096_S4096x256_S128x256_1_0_0_1_n_n 4096 rfl rfl k
  have hl : DotDims.lhsIdx dot_S128x4096_S4096x256_S128x256_1_0_0_1_n_n (ix2 p q)
      ((contrEquiv1 dot_S128x4096_S4096x256_S128x256_1_0_0_1_n_n 4096 rfl rfl).symm k) = ix2 p k := by
    funext ax; apply Fin.ext
    match ax with
    | ⟨0, _⟩ => simp [DotDims.lhsIdx, dot_S128x4096_S4096x256_S128x256_1_0_0_1_n_n]; rfl
    | ⟨1, _⟩ => simp [DotDims.lhsIdx, dot_S128x4096_S4096x256_S128x256_1_0_0_1_n_n]; exact ck
  have hr : DotDims.rhsIdx dot_S128x4096_S4096x256_S128x256_1_0_0_1_n_n (ix2 p q)
      ((contrEquiv1 dot_S128x4096_S4096x256_S128x256_1_0_0_1_n_n 4096 rfl rfl).symm k) = ix2 k q := by
    funext ax; apply Fin.ext
    match ax with
    | ⟨0, _⟩ => simp [DotDims.rhsIdx, dot_S128x4096_S4096x256_S128x256_1_0_0_1_n_n]; exact ck
    | ⟨1, _⟩ => simp [DotDims.rhsIdx, dot_S128x4096_S4096x256_S128x256_1_0_0_1_n_n]; rfl
  rw [hl, hr]
  rfl

/-- The same at any entry of the product tile, named by its two coordinates. -/
theorem pay4_5_idx (x0 x1 x2 : Vec Ideal S128x4096 .f32) (x3 : Vec Ideal S4096x256 .bf16) (j : S128x256.Idx) :
    k4_pay2 (F := Ideal) x0 x1 x2 x3 j
      = ∑ k : Fin 4096, (x0 (ix2 (j 0) k) * x1 (ix2 (j 0) k) + x2 (ix2 (j 0) k)) * x3 (ix2 k (j 1)) := by
  obtain ⟨p, q, rfl⟩ : ∃ (p : Fin 128) (q : Fin 256), j = ix2 p q := ⟨j 0, j 1, eq_ix2 j⟩
  exact pay4_5_at x0 x1 x2 x3 p q

/-- Tiles whose rows are rows of the three left arrays, against a block that is the right array, give those rows of
    the whole-array function. -/
theorem pay4_5_rows (A E M : S4096x4096.Idx → EReal) (R : S4096x256.Idx → EReal)
    (x0 x1 x2 : Vec Ideal S128x4096 .f32) (x3 : Vec Ideal S4096x256 .bf16) (j : S128x256.Idx) (i : S4096x256.Idx)
    (h0 : ∀ k : Fin 4096, x0 (ix2 (j 0) k) = A (ix2 (i 0) k)) (h1 : ∀ k : Fin 4096, x1 (ix2 (j 0) k) = E (ix2 (i 0) k))
    (h2 : ∀ k : Fin 4096, x2 (ix2 (j 0) k) = M (ix2 (i 0) k))
    (h3 : ∀ k : Fin 4096, x3 (ix2 k (j 1)) = R (ix2 k (i 1))) :
    k4_pay2 (F := Ideal) x0 x1 x2 x3 j = mixProd4 A E M R i := by
  rw [pay4_5_idx]
  exact Finset.sum_congr rfl fun k _ => by rw [h0 k, h1 k, h2 k, h3 k]

set_option maxHeartbeats 2000000 in
/-- What grid point t writes back through window 5 is its row tile of the whole-array function. -/
theorem flushed4_5 (c : Dev nD) (t : Fin cfg4.N) :
    (dat4 (F := Ideal) V c).flushed 5 t
      = ((cfg4.win 5).blk t).view.read (Elt Ideal) (mixProd4 (V c main_arg6) (V c main_v55) (V c main_v0) (V c main_v56)) := by
  show (cfg4.win 5).cut (grid4.coords t) ((dat4 (F := Ideal) V c).after 5 t) = _
  rw [dat4_after_5]
  unfold left4_5
  rw [View.canon_unit_zero zeros4]
  simp only [View.ld_unit_zero (S := S128x4096) zeros4, View.ld_unit_zero (S := S4096x256) zeros4]
  obtain ⟨e0, e1, e2, e3, e4, e5, e6, e7, e8, e9, e10, e11, e12⟩ := idx4 t
  funext j
  refine pay4_5_rows (V c main_arg6) (V c main_v55) (V c main_v0) (V c main_v56) _ _ _ _ _ (((cfg4.win 5).blk t).view.emb j)
    (fun k => ?_) (fun k => ?_) (fun k => ?_) (fun k => ?_)
  · show V c main_arg6 (((cfg4.win 0).blk t).view.emb (ix2 (j 0) k)) = V c main_arg6 (ix2 ((((cfg4.win 5).blk t).view.emb j) 0) k)
    refine congrArg (V c main_arg6) ?_
    funext a; apply Fin.ext
    match a with
    | ⟨0, _⟩ => show win4_0.index t (0 : Fin 2) * 128 + 1 * (j 0).val = win4_5.index t (0 : Fin 2) * 128 + 1 * (j 0).val; rw [e0]
    | ⟨1, _⟩ => show win4_0.index t (1 : Fin 2) * 4096 + 1 * k.val = k.val; rw [e1]; omega
  · show V c main_v55 (((cfg4.win 1).blk t).view.emb (ix2 (j 0) k)) = V c main_v55 (ix2 ((((cfg4.win 5).blk t).view.emb j) 0) k)
    refine congrArg (V c main_v55) ?_
    funext a; apply Fin.ext
    match a with
    | ⟨0, _⟩ => show win4_1.index t (0 : Fin 2) * 128 + 1 * (j 0).val = win4_5.index t (0 : Fin 2) * 128 + 1 * (j 0).val; rw [e2]
    | ⟨1, _⟩ => show win4_1.index t (1 : Fin 2) * 4096 + 1 * k.val = k.val; rw [e3]; omega
  · show V c main_v0 (((cfg4.win 2).blk t).view.emb (ix2 (j 0) k)) = V c main_v0 (ix2 ((((cfg4.win 5).blk t).view.emb j) 0) k)
    refine congrArg (V c main_v0) ?_
    funext a; apply Fin.ext
    match a with
    | ⟨0, _⟩ => show win4_2.index t (0 : Fin 2) * 128 + 1 * (j 0).val = win4_5.index t (0 : Fin 2) * 128 + 1 * (j 0).val; rw [e4]
    | ⟨1, _⟩ => show win4_2.index t (1 : Fin 2) * 4096 + 1 * k.val = k.val; rw [e5]; omega
  · show V c main_v56 (((cfg4.win 3).blk t).view.emb (ix2 k (j 1))) = V c main_v56 (ix2 k ((((cfg4.win 5).blk t).view.emb j) 1))
    refine congrArg (V c main_v56) ?_
    funext a; apply Fin.ext
    match a with
    | ⟨0, _⟩ => show win4_3.index t (0 : Fin 2) * 4096 + 1 * k.val = k.val; rw [e6]; omega
    | ⟨1, _⟩ => show win4_3.index t (1 : Fin 2) * 256 + 1 * (j 1).val = win4_5.index t (1 : Fin 2) * 256 + 1 * (j 1).val; rw [e7, e10]

/-- An entry of the array is in point t's tile iff each coordinate is in the tile's range on its axis. -/
theorem mem_blk4_5 (t : Fin cfg4.N) (i : S4096x256.Idx) :
    i ∈ ((cfg4.win 5).blk t).view.set
      ↔ ∀ a : Fin 2, win4_5.index t a * S128x256.size a ≤ (i a).val
          ∧ (i a).val < win4_5.index t a * S128x256.size a + S128x256.size a := by
  show i ∈ ((View.whole main_v57_0).slice (win4_5.rect t)).set ↔ _
  rw [View.set_slice_whole, Rect.mem_set_unit]
  exact Iff.rfl

/-- The row tiles cover the array: row p is in the tile of the point whose index is (p / 128, 0). -/
theorem cover4_5 (i : S4096x256.Idx) :
    ∃ t : Fin cfg4.N, (cfg4.win 5).flush t = true ∧ i ∈ ((cfg4.win 5).blk t).view.set := by
  have hi0 : (i 0).val < 4096 := (i 0).isLt
  have hi1 : (i 1).val < 256 := (i 1).isLt
  obtain ⟨t, ht5, ht6⟩ := onto4 ⟨(i 0).val / 128, by omega⟩
  have q0 : win4_5.index t (0 : Fin 2) = (i 0).val / 128 := congrFun ht5 0
  have q1 : win4_5.index t (1 : Fin 2) = 0 := congrFun ht5 1
  refine ⟨t, flush4_5 t, ?_⟩
  rw [mem_blk4_5]
  intro a
  match a with
  | ⟨0, _⟩ => show win4_5.index t (0 : Fin 2) * 128 ≤ (i 0).val ∧ (i 0).val < win4_5.index t (0 : Fin 2) * 128 + 128; omega
  | ⟨1, _⟩ => show win4_5.index t (1 : Fin 2) * 256 ≤ (i 1).val ∧ (i 1).val < win4_5.index t (1 : Fin 2) * 256 + 256; omega

/-- After the region the array of window 5 is the whole-array function of the arrays the region found. -/
theorem arr4_5 (c : Dev nD) :
    (dat4 (F := Ideal) V c).arrAt 5 cfg4.N = mixProd4 (V c main_arg6) (V c main_v55) (V c main_v0) (V c main_v56) :=
  (dat4 (F := Ideal) V c).arrAt_eq_of_cover 5 (mixProd4 (V c main_arg6) (V c main_v55) (V c main_v0) (V c main_v56))
    (fun t _ => flushed4_5 V c t) cover4_5

/-- Entry by entry: out p q = Σ_k (adj p k · EP p k + mea p k) · r k q. -/
theorem value4_5 (c : Dev nD) (p : Fin 4096) (q : Fin 256) :
    @Eq EReal ((dat4 (F := Ideal) V c).arrAt 5 cfg4.N (ix2 p q))
      (∑ k : Fin 4096, HMul.hMul (α := EReal) (β := EReal) (γ := EReal)
        (HAdd.hAdd (α := EReal) (β := EReal) (γ := EReal)
          (HMul.hMul (α := EReal) (β := EReal) (γ := EReal) (V c main_arg6 (ix2 p k)) (V c main_v55 (ix2 p k)))
          (V c main_v0 (ix2 p k)))
        (V c main_v56 (ix2 k q))) :=
  congrFun (arr4_5 V c) (ix2 p q)

/-! ## Output window 6: oz = (adj ⊙ EP + mea) · z at full precision -/

/-- The body's payload for window 6 at an entry of the product tile: the contraction over the 4096 shared positions of
    the combined row against the right operand's column. -/
theorem pay4_6_at (x0 x1 x2 : Vec Ideal S128x4096 .f32) (x4 : Vec Ideal S4096x256 .f32) (p : Fin 128) (q : Fin 256) :
    k4_pay3 (F := Ideal) x0 x1 x2 x4 (ix2 p q)
      = ∑ k : Fin 4096, (x0 (ix2 p k) * x1 (ix2 p k) + x2 (ix2 p k)) * x4 (ix2 k q) := by
  unfold k4_pay3 k4_pay1
  simp only [shapeCast_self, matmul]
  rw [Ideal.matmul_constant_zero_apply,
    ← Equiv.sum_comp (contrEquiv1 dot_S128x4096_S4096x256_S128x256_1_0_0_1_n_n 4096 rfl rfl).symm]
  refine Finset.sum_congr rfl fun k _ => ?_
  have ck := contrEquiv1_symm_val dot_S128x4096_S4096x256_S128x256_1_0_0_1_n_n 4096 rfl rfl k
  have hl : DotDims.lhsIdx dot_S128x4096_S4096x256_S128x256_1_0_0_1_n_n (ix2 p q)
      ((contrEquiv1 dot_S128x4096_S4096x256_S128x256_1_0_0_1_n_n 4096 rfl rfl).symm k) = ix2 p k := by
    funext ax; apply Fin.ext
    match ax with
    | ⟨0, _⟩ => simp [DotDims.lhsIdx, dot_S128x4096_S4096x256_S128x256_1_0_0_1_n_n]; rfl
    | ⟨1, _⟩ => simp [DotDims.lhsIdx, dot_S128x4096_S4096x256_S128x256_1_0_0_1_n_n]; exact ck
  have hr : DotDims.rhsIdx dot_S128x4096_S4096x256_S128x256_1_0_0_1_n_n (ix2 p q)
      ((contrEquiv1 dot_S128x4096_S4096x256_S128x256_1_0_0_1_n_n 4096 rfl rfl).symm k) = ix2 k q := by
    funext ax; apply Fin.ext
    match ax with
    | ⟨0, _⟩ => simp [DotDims.rhsIdx, dot_S128x4096_S4096x256_S128x256_1_0_0_1_n_n]; exact ck
    | ⟨1, _⟩ => simp [DotDims.rhsIdx, dot_S128x4096_S4096x256_S128x256_1_0_0_1_n_n]; rfl
  rw [hl, hr]
  rfl

/-- The same at any entry of the product tile, named by its two coordinates. -/
theorem pay4_6_idx (x0 x1 x2 : Vec Ideal S128x4096 .f32) (x4 : Vec Ideal S4096x256 .f32) (j : S128x256.Idx) :
    k4_pay3 (F := Ideal) x0 x1 x2 x4 j
      = ∑ k : Fin 4096, (x0 (ix2 (j 0) k) * x1 (ix2 (j 0) k) + x2 (ix2 (j 0) k)) * x4 (ix2 k (j 1)) := by
  obtain ⟨p, q, rfl⟩ : ∃ (p : Fin 128) (q : Fin 256), j = ix2 p q := ⟨j 0, j 1, eq_ix2 j⟩
  exact pay4_6_at x0 x1 x2 x4 p q

/-- Tiles whose rows are rows of the three left arrays, against a block that is the right array, give those rows of
    the whole-array function. -/
theorem pay4_6_rows (A E M : S4096x4096.Idx → EReal) (R : S4096x256.Idx → EReal)
    (x0 x1 x2 : Vec Ideal S128x4096 .f32) (x4 : Vec Ideal S4096x256 .f32) (j : S128x256.Idx) (i : S4096x256.Idx)
    (h0 : ∀ k : Fin 4096, x0 (ix2 (j 0) k) = A (ix2 (i 0) k)) (h1 : ∀ k : Fin 4096, x1 (ix2 (j 0) k) = E (ix2 (i 0) k))
    (h2 : ∀ k : Fin 4096, x2 (ix2 (j 0) k) = M (ix2 (i 0) k))
    (h3 : ∀ k : Fin 4096, x4 (ix2 k (j 1)) = R (ix2 k (i 1))) :
    k4_pay3 (F := Ideal) x0 x1 x2 x4 j = mixProd4 A E M R i := by
  rw [pay4_6_idx]
  exact Finset.sum_congr rfl fun k _ => by rw [h0 k, h1 k, h2 k, h3 k]

set_option maxHeartbeats 2000000 in
/-- What grid point t writes back through window 6 is its row tile of the whole-array function. -/
theorem flushed4_6 (c : Dev nD) (t : Fin cfg4.N) :
    (dat4 (F := Ideal) V c).flushed 6 t
      = ((cfg4.win 6).blk t).view.read (Elt Ideal) (mixProd4 (V c main_arg6) (V c main_v55) (V c main_v0) (V c main_v22)) := by
  show (cfg4.win 6).cut (grid4.coords t) ((dat4 (F := Ideal) V c).after 6 t) = _
  rw [dat4_after_6]
  unfold left4_6
  rw [View.canon_unit_zero zeros4]
  simp only [View.ld_unit_zero (S := S128x4096) zeros4, View.ld_unit_zero (S := S4096x256) zeros4]
  obtain ⟨e0, e1, e2, e3, e4, e5, e6, e7, e8, e9, e10, e11, e12⟩ := idx4 t
  funext j
  refine pay4_6_rows (V c main_arg6) (V c main_v55) (V c main_v0) (V c main_v22) _ _ _ _ _ (((cfg4.win 6).blk t).view.emb j)
    (fun k => ?_) (fun k => ?_) (fun k => ?_) (fun k => ?_)
  · show V c main_arg6 (((cfg4.win 0).blk t).view.emb (ix2 (j 0) k)) = V c main_arg6 (ix2 ((((cfg4.win 6).blk t).view.emb j) 0) k)
    refine congrArg (V c main_arg6) ?_
    funext a; apply Fin.ext
    match a with
    | ⟨0, _⟩ => show win4_0.index t (0 : Fin 2) * 128 + 1 * (j 0).val = win4_6.index t (0 : Fin 2) * 128 + 1 * (j 0).val; rw [e0, e11]
    | ⟨1, _⟩ => show win4_0.index t (1 : Fin 2) * 4096 + 1 * k.val = k.val; rw [e1]; omega
  · show V c main_v55 (((cfg4.win 1).blk t).view.emb (ix2 (j 0) k)) = V c main_v55 (ix2 ((((cfg4.win 6).blk t).view.emb j) 0) k)
    refine congrArg (V c main_v55) ?_
    funext a; apply Fin.ext
    match a with
    | ⟨0, _⟩ => show win4_1.index t (0 : Fin 2) * 128 + 1 * (j 0).val = win4_6.index t (0 : Fin 2) * 128 + 1 * (j 0).val; rw [e2, e11]
    | ⟨1, _⟩ => show win4_1.index t (1 : Fin 2) * 4096 + 1 * k.val = k.val; rw [e3]; omega
  · show V c main_v0 (((cfg4.win 2).blk t).view.emb (ix2 (j 0) k)) = V c main_v0 (ix2 ((((cfg4.win 6).blk t).view.emb j) 0) k)
    refine congrArg (V c main_v0) ?_
    funext a; apply Fin.ext
    match a with
    | ⟨0, _⟩ => show win4_2.index t (0 : Fin 2) * 128 + 1 * (j 0).val = win4_6.index t (0 : Fin 2) * 128 + 1 * (j 0).val; rw [e4, e11]
    | ⟨1, _⟩ => show win4_2.index t (1 : Fin 2) * 4096 + 1 * k.val = k.val; rw [e5]; omega
  · show V c main_v22 (((cfg4.win 4).blk t).view.emb (ix2 k (j 1))) = V c main_v22 (ix2 k ((((cfg4.win 6).blk t).view.emb j) 1))
    refine congrArg (V c main_v22) ?_
    funext a; apply Fin.ext
    match a with
    | ⟨0, _⟩ => show win4_4.index t (0 : Fin 2) * 4096 + 1 * k.val = k.val; rw [e8]; omega
    | ⟨1, _⟩ => show win4_4.index t (1 : Fin 2) * 256 + 1 * (j 1).val = win4_6.index t (1 : Fin 2) * 256 + 1 * (j 1).val; rw [e9, e12]

/-- An entry of the array is in point t's tile iff each coordinate is in the tile's range on its axis. -/
theorem mem_blk4_6 (t : Fin cfg4.N) (i : S4096x256.Idx) :
    i ∈ ((cfg4.win 6).blk t).view.set
      ↔ ∀ a : Fin 2, win4_6.index t a * S128x256.size a ≤ (i a).val
          ∧ (i a).val < win4_6.index t a * S128x256.size a + S128x256.size a := by
  show i ∈ ((View.whole main_v57_1).slice (win4_6.rect t)).set ↔ _
  rw [View.set_slice_whole, Rect.mem_set_unit]
  exact Iff.rfl

/-- The row tiles cover the array: row p is in the tile of the point whose index is (p / 128, 0). -/
theorem cover4_6 (i : S4096x256.Idx) :
    ∃ t : Fin cfg4.N, (cfg4.win 6).flush t = true ∧ i ∈ ((cfg4.win 6).blk t).view.set := by
  have hi0 : (i 0).val < 4096 := (i 0).isLt
  have hi1 : (i 1).val < 256 := (i 1).isLt
  obtain ⟨t, ht5, ht6⟩ := onto4 ⟨(i 0).val / 128, by omega⟩
  have q0 : win4_6.index t (0 : Fin 2) = (i 0).val / 128 := congrFun ht6 0
  have q1 : win4_6.index t (1 : Fin 2) = 0 := congrFun ht6 1
  refine ⟨t, flush4_6 t, ?_⟩
  rw [mem_blk4_6]
  intro a
  match a with
  | ⟨0, _⟩ => show win4_6.index t (0 : Fin 2) * 128 ≤ (i 0).val ∧ (i 0).val < win4_6.index t (0 : Fin 2) * 128 + 128; omega
  | ⟨1, _⟩ => show win4_6.index t (1 : Fin 2) * 256 ≤ (i 1).val ∧ (i 1).val < win4_6.index t (1 : Fin 2) * 256 + 256; omega

/-- After the region the array of window 6 is the whole-array function of the arrays the region found. -/
theorem arr4_6 (c : Dev nD) :
    (dat4 (F := Ideal) V c).arrAt 6 cfg4.N = mixProd4 (V c main_arg6) (V c main_v55) (V c main_v0) (V c main_v22) :=
  (dat4 (F := Ideal) V c).arrAt_eq_of_cover 6 (mixProd4 (V c main_arg6) (V c main_v55) (V c main_v0) (V c main_v22))
    (fun t _ => flushed4_6 V c t) cover4_6

/-- Entry by entry: out p q = Σ_k (adj p k · EP p k + mea p k) · r k q. -/
theorem value4_6 (c : Dev nD) (p : Fin 4096) (q : Fin 256) :
    @Eq EReal ((dat4 (F := Ideal) V c).arrAt 6 cfg4.N (ix2 p q))
      (∑ k : Fin 4096, HMul.hMul (α := EReal) (β := EReal) (γ := EReal)
        (HAdd.hAdd (α := EReal) (β := EReal) (γ := EReal)
          (HMul.hMul (α := EReal) (β := EReal) (γ := EReal) (V c main_arg6 (ix2 p k)) (V c main_v55 (ix2 p k)))
          (V c main_v0 (ix2 p k)))
        (V c main_v22 (ix2 k q))) :=
  congrFun (arr4_6 V c) (ix2 p q)

end Cert.KernelIdeal.Vals

end
-- ==== Proof.KI.Value5.lean ====
/- Region 5 of @main, value side: a tall matrix product with the left factor transposed, as one function of the arrays
   the region is entered with.

   The region computes  out = Aᵀ · B  for A of 4096 x 4096 and B of 4096 x 256 in eight row tiles of the result: at
   grid point t it reads columns 512 t … 512 t + 511 of A (a 4096 x 512 strip) and the whole of B and writes rows
   512 t … 512 t + 511 of out, each entry the sum over the 4096 shared rows of the products (a change of float format
   is the identity on the extended reals, and a sum started from the zero accumulator is the sum).  Row r of Aᵀ · B
   depends on column r of A alone, so what each point writes back is its row tile of the whole-array function
       out p q = Σ_k A k p · B k q ;
   the eight row tiles cover the array (row p lies in tile p / 512), so after the region the array IS that function. -/
import proofs.«169176_j23261542875327_2_alg».proof.Proof.KI.Region5
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal Cert.KernelIdeal.Gen Cert.KernelIdeal.Regs
open Idealize.ShloMosaic Idealize.ShloMosaic.TcCoe Idealize.SL.Sem Idealize.ShloMosaic.ValueIdx
open Idealize.ShloMosaic.Pipeline (Dat)

-- what the TensorCore's buffers hold when the region is entered
variable (V : (c : Dev nD) → (b : Ref sig .tc) → Buf (Elt Ideal) ((c : Thread nD τ).loc b))

/-- The zero offsets of a whole-block rectangle, as the constant function. -/
theorem zeros5 : (![0, 0] : Fin 2 → Nat) = fun _ => 0 := funext fun a => by fin_cases a <;> rfl

/-- The transposed product of whole arrays, entry by entry: out p q = Σ_k a k p · b k q. -/
def mmT5 (a : S4096x4096.Idx → EReal) (b : S4096x256.Idx → EReal) : S4096x256.Idx → EReal :=
  fun i => ∑ k : Fin 4096, a (ix2 k (i 0)) * b (ix2 k (i 1))

/-- The body's payload on a column strip and the right matrix, at an entry of the output tile: the contraction over
    the 4096 shared rows. -/
theorem pay5_at (x0 : Vec Ideal S4096x512 .f32) (x1 : Vec Ideal S4096x256 .f32) (p : Fin 512) (q : Fin 256) :
    k5_pay1 (F := Ideal) x0 x1 (ix2 p q) = ∑ k : Fin 4096, x0 (ix2 k p) * x1 (ix2 k q) := by
  unfold k5_pay1
  simp only [shapeCast_self, matmul]
  rw [Ideal.matmul_constant_zero_apply,
    ← Equiv.sum_comp (contrEquiv1 dot_S4096x512_S4096x256_S512x256_0_0_1_1_n_n 4096 rfl rfl).symm]
  refine Finset.sum_congr rfl fun k _ => ?_
  have ck := contrEquiv1_symm_val dot_S4096x512_S4096x256_S512x256_0_0_1_1_n_n 4096 rfl rfl k
  have hl : DotDims.lhsIdx dot_S4096x512_S4096x256_S512x256_0_0_1_1_n_n (ix2 p q)
      ((contrEquiv1 dot_S4096x512_S4096x256_S512x256_0_0_1_1_n_n 4096 rfl rfl).symm k) = ix2 k p := by
    funext ax; apply Fin.ext
    match ax with
    | ⟨0, _⟩ => simp [DotDims.lhsIdx, dot_S4096x512_S4096x256_S512x256_0_0_1_1_n_n]; exact ck
    | ⟨1, _⟩ => simp [DotDims.lhsIdx, dot_S4096x512_S4096x256_S512x256_0_0_1_1_n_n]; rfl
  have hr : DotDims.rhsIdx dot_S4096x512_S4096x256_S512x256_0_0_1_1_n_n (ix2 p q)
      ((contrEquiv1 dot_S4096x512_S4096x256_S512x256_0_0_1_1_n_n 4096 rfl rfl).symm k) = ix2 k q := by
    funext ax; apply Fin.ext
    match ax with
    | ⟨0, _⟩ => simp [DotDims.rhsIdx, dot_S4096x512_S4096x256_S512x256_0_0_1_1_n_n]; exact ck
    | ⟨1, _⟩ => simp [DotDims.rhsIdx, dot_S4096x512_S4096x256_S512x256_0_0_1_1_n_n]; rfl
  rw [hl, hr]
  rfl

/-- The same at any entry of the output tile, named by its two coordinates. -/
theorem pay5_idx (x0 : Vec Ideal S4096x512 .f32) (x1 : Vec Ideal S4096x256 .f32) (j : S512x256.Idx) :
    k5_pay1 (F := Ideal) x0 x1 j = ∑ k : Fin 4096, x0 (ix2 k (j 0)) * x1 (ix2 k (j 1)) := by
  obtain ⟨p, q, rfl⟩ : ∃ (p : Fin 512) (q : Fin 256), j = ix2 p q := ⟨j 0, j 1, eq_ix2 j⟩
  exact pay5_at x0 x1 p q

/-- A strip whose columns are columns of A, against a block that is B, gives those rows of the transposed product. -/
theorem pay5_rows (A : S4096x4096.Idx → EReal) (B : S4096x256.Idx → EReal)
    (x0 : Vec Ideal S4096x512 .f32) (x1 : Vec Ideal S4096x256 .f32) (j : S512x256.Idx) (i : S4096x256.Idx)
    (h0 : ∀ k : Fin 4096, x0 (ix2 k (j 0)) = A (ix2 k (i 0))) (h1 : ∀ k : Fin 4096, x1 (ix2 k (j 1)) = B (ix2 k (i 1))) :
    k5_pay1 (F := Ideal) x0 x1 j = mmT5 A B i := by
  rw [pay5_idx]
  exact Finset.sum_congr rfl fun k _ => by rw [h0 k, h1 k]

/-- The index maps at every grid point: the column strip of A sits at row block 0 and moves along the columns as the
    result's row tile moves along the rows; B's block never moves; the result sits at column block 0. -/
theorem idx5 : ∀ t : Fin cfg5.N, win5_0.index t (0 : Fin 2) = 0
    ∧ win5_0.index t (1 : Fin 2) = win5_2.index t (0 : Fin 2)
    ∧ win5_1.index t (0 : Fin 2) = 0
    ∧ win5_1.index t (1 : Fin 2) = 0
    ∧ win5_2.index t (1 : Fin 2) = 0 :=
  (by decide +kernel : ∀ t : Fin grid5.N, _)

/-- Every row tile is some grid point's. -/
theorem onto5 : ∀ q0 : Fin 8, ∃ t : Fin cfg5.N, win5_2.index t = ![q0.val, 0] :=
  (by decide +kernel : ∀ q0 : Fin 8, ∃ t : Fin grid5.N, win5_2.index t = ![q0.val, 0])

set_option maxHeartbeats 1000000 in
/-- What grid point t writes back is its row tile of the whole-array transposed product. -/
theorem flushed5_2 (c : Dev nD) (t : Fin cfg5.N) :
    (dat5 (F := Ideal) V c).flushed 2 t
      = ((cfg5.win 2).blk t).view.read (Elt Ideal) (mmT5 (V c main_v55) (V c main_v21)) := by
  show (cfg5.win 2).cut (grid5.coords t) ((dat5 (F := Ideal) V c).after 2 t) = _
  rw [dat5_after_2]
  unfold left5_2
  rw [View.canon_unit_zero zeros5]
  simp only [View.ld_unit_zero (S := S4096x512) zeros5, View.ld_unit_zero (S := S4096x256) zeros5]
  obtain ⟨e0, e1, e2, e3, e4⟩ := idx5 t
  funext j
  refine pay5_rows (V c main_v55) (V c main_v21) _ _ _ (((cfg5.win 2).blk t).view.emb j) (fun k => ?_) (fun k => ?_)
  · show V c main_v55 (((cfg5.win 0).blk t).view.emb (ix2 k (j 0))) = V c main_v55 (ix2 k ((((cfg5.win 2).blk t).view.emb j) 0))
    congr 1
    funext a; apply Fin.ext
    match a with
    | ⟨0, _⟩ => show win5_0.index t (0 : Fin 2) * 4096 + 1 * k.val = k.val; rw [e0]; omega
    | ⟨1, _⟩ => show win5_0.index t (1 : Fin 2) * 512 + 1 * (j 0).val = win5_2.index t (0 : Fin 2) * 512 + 1 * (j 0).val; rw [e1]
  · show V c main_v21 (((cfg5.win 1).blk t).view.emb (ix2 k (j 1))) = V c main_v21 (ix2 k ((((cfg5.win 2).blk t).view.emb j) 1))
    congr 1
    funext a; apply Fin.ext
    match a with
    | ⟨0, _⟩ => show win5_1.index t (0 : Fin 2) * 4096 + 1 * k.val = k.val; rw [e2]; omega
    | ⟨1, _⟩ => show win5_1.index t (1 : Fin 2) * 256 + 1 * (j 1).val = win5_2.index t (1 : Fin 2) * 256 + 1 * (j 1).val; rw [e3, e4]

/-- An entry of the array is in point t's tile iff each coordinate is in the tile's range on its axis. -/
theorem mem_blk5_2 (t : Fin cfg5.N) (i : S4096x256.Idx) :
    i ∈ ((cfg5.win 2).blk t).view.set
      ↔ ∀ a : Fin 2, win5_2.index t a * S512x256.size a ≤ (i a).val
          ∧ (i a).val < win5_2.index t a * S512x256.size a + S512x256.size a := by
  show i ∈ ((View.whole main_v58).slice (win5_2.rect t)).set ↔ _
  rw [View.set_slice_whole, Rect.mem_set_unit]
  exact Iff.rfl

/-- The row tiles cover the array: row p is in the tile of the point whose index is (p / 512, 0). -/
theorem cover5_2 (i : S4096x256.Idx) :
    ∃ t : Fin cfg5.N, (cfg5.win 2).flush t = true ∧ i ∈ ((cfg5.win 2).blk t).view.set := by
  have hi0 : (i 0).val < 4096 := (i 0).isLt
  have hi1 : (i 1).val < 256 := (i 1).isLt
  obtain ⟨t, ht⟩ := onto5 ⟨(i 0).val / 512, by omega⟩
  have q0 : win5_2.index t (0 : Fin 2) = (i 0).val / 512 := congrFun ht 0
  have q1 : win5_2.index t (1 : Fin 2) = 0 := congrFun ht 1
  refine ⟨t, flush5_2 t, ?_⟩
  rw [mem_blk5_2]
  intro a
  match a with
  | ⟨0, _⟩ => show win5_2.index t (0 : Fin 2) * 512 ≤ (i 0).val ∧ (i 0).val < win5_2.index t (0 : Fin 2) * 512 + 512; omega
  | ⟨1, _⟩ => show win5_2.index t (1 : Fin 2) * 256 ≤ (i 1).val ∧ (i 1).val < win5_2.index t (1 : Fin 2) * 256 + 256; omega

/-- After the region the result array is the transposed product of the two input arrays as the region found them. -/
theorem arr5_2 (c : Dev nD) :
    (dat5 (F := Ideal) V c).arrAt 2 cfg5.N = mmT5 (V c main_v55) (V c main_v21) :=
  (dat5 (F := Ideal) V c).arrAt_eq_of_cover 2 (mmT5 (V c main_v55) (V c main_v21))
    (fun t _ => flushed5_2 V c t) cover5_2

/-- Entry by entry: out p q = Σ_k A k p · B k q. -/
theorem value5_2 (c : Dev nD) (p : Fin 4096) (q : Fin 256) :
    @Eq EReal ((dat5 (F := Ideal) V c).arrAt 2 cfg5.N (ix2 p q))
      (∑ k : Fin 4096, HMul.hMul (α := EReal) (β := EReal) (γ := EReal) (V c main_v55 (ix2 k p)) (V c main_v21 (ix2 k q))) :=
  congrFun (arr5_2 V c) (ix2 p q)

end Cert.KernelIdeal.Vals

end
-- ==== Proof.KI.Value6.lean ====
/- Region 6 of @main, value side: a tall matrix product as one function of the arrays the region is entered with.

   The region computes  out = A · B  for A of 4096 x 4096 and B of 4096 x 256 in eight row tiles: at grid point t it
   reads rows 512 t … 512 t + 511 of A and the whole of B and writes the same rows of out, each entry the sum over the
   4096 contracted positions of the products (a change of float format is the identity on the extended reals, and a
   sum started from the zero accumulator is the sum).  Row r of the product depends on row r of A alone, so what each
   point writes back is its row tile of the whole-array function
       out p q = Σ_k A p k · B k q ;
   the eight row tiles cover the array (row p lies in tile p / 512), so after the region the array IS that function. -/
import proofs.«169176_j23261542875327_2_alg».proof.Proof.KI.Region6
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal Cert.KernelIdeal.Gen Cert.KernelIdeal.Regs
open Idealize.ShloMosaic Idealize.ShloMosaic.TcCoe Idealize.SL.Sem Idealize.ShloMosaic.ValueIdx
open Idealize.ShloMosaic.Pipeline (Dat)

-- what the TensorCore's buffers hold when the region is entered
variable (V : (c : Dev nD) → (b : Ref sig .tc) → Buf (Elt Ideal) ((c : Thread nD τ).loc b))

/-- The zero offsets of a whole-block rectangle, as the constant function. -/
theorem zeros6 : (![0, 0] : Fin 2 → Nat) = fun _ => 0 := funext fun a => by fin_cases a <;> rfl

/-- The product of whole arrays, entry by entry: out p q = Σ_k a p k · b k q. -/
def mm6 (a : S4096x4096.Idx → EReal) (b : S4096x256.Idx → EReal) : S4096x256.Idx → EReal :=
  fun i => ∑ k : Fin 4096, a (ix2 (i 0) k) * b (ix2 k (i 1))

/-- The body's payload on a row tile and the right matrix, at an entry of the output tile: the contraction over the
    4096 shared positions. -/
theorem pay6_at (x0 : Vec Ideal S512x4096 .bf16) (x1 : Vec Ideal S4096x256 .f32) (p : Fin 512) (q : Fin 256) :
    k6_pay1 (F := Ideal) x0 x1 (ix2 p q) = ∑ k : Fin 4096, x0 (ix2 p k) * x1 (ix2 k q) := by
  unfold k6_pay1
  simp only [shapeCast_self, matmul]
  rw [Ideal.matmul_constant_zero_apply,
    ← Equiv.sum_comp (contrEquiv1 dot_S512x4096_S4096x256_S512x256_1_0_0_1_n_n 4096 rfl rfl).symm]
  refine Finset.sum_congr rfl fun k _ => ?_
  have ck := contrEquiv1_symm_val dot_S512x4096_S4096x256_S512x256_1_0_0_1_n_n 4096 rfl rfl k
  have hl : DotDims.lhsIdx dot_S512x4096_S4096x256_S512x256_1_0_0_1_n_n (ix2 p q)
      ((contrEquiv1 dot_S512x4096_S4096x256_S512x256_1_0_0_1_n_n 4096 rfl rfl).symm k) = ix2 p k := by
    funext ax; apply Fin.ext
    match ax with
    | ⟨0, _⟩ => simp [DotDims.lhsIdx, dot_S512x4096_S4096x256_S512x256_1_0_0_1_n_n]; rfl
    | ⟨1, _⟩ => simp [DotDims.lhsIdx, dot_S512x4096_S4096x256_S512x256_1_0_0_1_n_n]; exact ck
  have hr : DotDims.rhsIdx dot_S512x4096_S4096x256_S512x256_1_0_0_1_n_n (ix2 p q)
      ((contrEquiv1 dot_S512x4096_S4096x256_S512x256_1_0_0_1_n_n 4096 rfl rfl).symm k) = ix2 k q := by
    funext ax; apply Fin.ext
    match ax with
    | ⟨0, _⟩ => simp [DotDims.rhsIdx, dot_S512x4096_S4096x256_S512x256_1_0_0_1_n_n]; exact ck
    | ⟨1, _⟩ => simp [DotDims.rhsIdx, dot_S512x4096_S4096x256_S512x256_1_0_0_1_n_n]; rfl
  rw [hl, hr]
  rfl

/-- The same at any entry of the output tile, named by its two coordinates. -/
theorem pay6_idx (x0 : Vec Ideal S512x4096 .bf16) (x1 : Vec Ideal S4096x256 .f32) (j : S512x256.Idx) :
    k6_pay1 (F := Ideal) x0 x1 j = ∑ k : Fin 4096, x0 (ix2 (j 0) k) * x1 (ix2 k (j 1)) := by
  obtain ⟨p, q, rfl⟩ : ∃ (p : Fin 512) (q : Fin 256), j = ix2 p q := ⟨j 0, j 1, eq_ix2 j⟩
  exact pay6_at x0 x1 p q

/-- A tile whose rows are rows of A, against a block that is B, gives those rows of the product. -/
theorem pay6_rows (A : S4096x4096.Idx → EReal) (B : S4096x256.Idx → EReal)
    (x0 : Vec Ideal S512x4096 .bf16) (x1 : Vec Ideal S4096x256 .f32) (j : S512x256.Idx) (i : S4096x256.Idx)
    (h0 : ∀ k : Fin 4096, x0 (ix2 (j 0) k) = A (ix2 (i 0) k)) (h1 : ∀ k : Fin 4096, x1 (ix2 k (j 1)) = B (ix2 k (i 1))) :
    k6_pay1 (F := Ideal) x0 x1 j = mm6 A B i := by
  rw [pay6_idx]
  exact Finset.sum_congr rfl fun k _ => by rw [h0 k, h1 k]

/-- The index maps at every grid point: the row tile of A and of the result move together along the rows and sit at
    column block 0; B's block never moves. -/
theorem idx6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0 :=
  (by decide +kernel : ∀ t : Fin grid6.N, _)

/-- Every row tile is some grid point's. -/
theorem onto6 : ∀ q0 : Fin 8, ∃ t : Fin cfg6.N, win6_2.index t = ![q0.val, 0] :=
  (by decide +kernel : ∀ q0 : Fin 8, ∃ t : Fin grid6.N, win6_2.index t = ![q0.val, 0])

set_option maxHeartbeats 1000000 in
/-- What grid point t writes back is its row tile of the whole-array product. -/
theorem flushed6_2 (c : Dev nD) (t : Fin cfg6.N) :
    (dat6 (F := Ideal) V c).flushed 2 t
      = ((cfg6.win 2).blk t).view.read (Elt Ideal) (mm6 (V c main_v1) (V c main_v63)) := by
  show (cfg6.win 2).cut (grid6.coords t) ((dat6 (F := Ideal) V c).after 2 t) = _
  rw [dat6_after_2]
  unfold left6_2
  rw [View.canon_unit_zero zeros6]
  simp only [View.ld_unit_zero (S := S512x4096) zeros6, View.ld_unit_zero (S := S4096x256) zeros6]
  obtain ⟨e0, e1, e2, e3, e4⟩ := idx6 t
  funext j
  refine pay6_rows (V c main_v1) (V c main_v63) _ _ _ (((cfg6.win 2).blk t).view.emb j) (fun k => ?_) (fun k => ?_)
  · show V c main_v1 (((cfg6.win 0).blk t).view.emb (ix2 (j 0) k)) = V c main_v1 (ix2 ((((cfg6.win 2).blk t).view.emb j) 0) k)
    congr 1
    funext a; apply Fin.ext
    match a with
    | ⟨0, _⟩ => show win6_0.index t (0 : Fin 2) * 512 + 1 * (j 0).val = win6_2.index t (0 : Fin 2) * 512 + 1 * (j 0).val; rw [e0]
    | ⟨1, _⟩ => show win6_0.index t (1 : Fin 2) * 4096 + 1 * k.val = k.val; rw [e1]; omega
  · show V c main_v63 (((cfg6.win 1).blk t).view.emb (ix2 k (j 1))) = V c main_v63 (ix2 k ((((cfg6.win 2).blk t).view.emb j) 1))
    congr 1
    funext a; apply Fin.ext
    match a with
    | ⟨0, _⟩ => show win6_1.index t (0 : Fin 2) * 4096 + 1 * k.val = k.val; rw [e2]; omega
    | ⟨1, _⟩ => show win6_1.index t (1 : Fin 2) * 256 + 1 * (j 1).val = win6_2.index t (1 : Fin 2) * 256 + 1 * (j 1).val; rw [e3, e4]

/-- An entry of the array is in point t's tile iff each coordinate is in the tile's range on its axis. -/
theorem mem_blk6_2 (t : Fin cfg6.N) (i : S4096x256.Idx) :
    i ∈ ((cfg6.win 2).blk t).view.set
      ↔ ∀ a : Fin 2, win6_2.index t a * S512x256.size a ≤ (i a).val
          ∧ (i a).val < win6_2.index t a * S512x256.size a + S512x256.size a := by
  show i ∈ ((View.whole main_v64).slice (win6_2.rect t)).set ↔ _
  rw [View.set_slice_whole, Rect.mem_set_unit]
  exact Iff.rfl

/-- The row tiles cover the array: row p is in the tile of the point whose index is (p / 512, 0). -/
theorem cover6_2 (i : S4096x256.Idx) :
    ∃ t : Fin cfg6.N, (cfg6.win 2).flush t = true ∧ i ∈ ((cfg6.win 2).blk t).view.set := by
  have hi0 : (i 0).val < 4096 := (i 0).isLt
  have hi1 : (i 1).val < 256 := (i 1).isLt
  obtain ⟨t, ht⟩ := onto6 ⟨(i 0).val / 512, by omega⟩
  have q0 : win6_2.index t (0 : Fin 2) = (i 0).val / 512 := congrFun ht 0
  have q1 : win6_2.index t (1 : Fin 2) = 0 := congrFun ht 1
  refine ⟨t, flush6_2 t, ?_⟩
  rw [mem_blk6_2]
  intro a
  match a with
  | ⟨0, _⟩ => show win6_2.index t (0 : Fin 2) * 512 ≤ (i 0).val ∧ (i 0).val < win6_2.index t (0 : Fin 2) * 512 + 512; omega
  | ⟨1, _⟩ => show win6_2.index t (1 : Fin 2) * 256 ≤ (i 1).val ∧ (i 1).val < win6_2.index t (1 : Fin 2) * 256 + 256; omega

/-- After the region the result array is the product of the two input arrays as the region found them. -/
theorem arr6_2 (c : Dev nD) :
    (dat6 (F := Ideal) V c).arrAt 2 cfg6.N = mm6 (V c main_v1) (V c main_v63) :=
  (dat6 (F := Ideal) V c).arrAt_eq_of_cover 2 (mm6 (V c main_v1) (V c main_v63))
    (fun t _ => flushed6_2 V c t) cover6_2

/-- Entry by entry: out p q = Σ_k A p k · B k q. -/
theorem value6_2 (c : Dev nD) (p : Fin 4096) (q : Fin 256) :
    @Eq EReal ((dat6 (F := Ideal) V c).arrAt 2 cfg6.N (ix2 p q))
      (∑ k : Fin 4096, HMul.hMul (α := EReal) (β := EReal) (γ := EReal) (V c main_v1 (ix2 p k)) (V c main_v63 (ix2 k q))) :=
  congrFun (arr6_2 V c) (ix2 p q)

end Cert.KernelIdeal.Vals

end
-- ==== Proof.KI.Value7.lean ====
/- Region 7 of @main, value side: the edge-potential update as one function of the arrays the region is entered
   with.

   The region computes  EP = y · yᵀ − mea − ½ M  (y of 4096 x 256; mea, M, EP of 4096 x 4096) in a 4 x 4 grid of
   1024 x 1024 tiles: at grid point (i, j) it reads row blocks i and j of y and tile (i, j) of mea and of M, and writes
   tile (i, j) of EP, each entry the sum over the 256 contracted positions of the products of the two rows of y (a
   change of float format is the identity on the extended reals, and a sum started from the zero accumulator is the
   sum), less the entry of mea, less half the entry of M.  Entry (p, q) depends on rows p and q of y and on entry
   (p, q) of mea and M alone, so what each point writes back is its tile of the whole-array function
       EP p q = ((Σ_l y p l · y q l) − mea p q) − ½ · M p q ;
   the sixteen tiles cover the array (entry (p, q) lies in tile (p / 1024, q / 1024)), so after the region the array
   IS that function. -/
import proofs.«169176_j23261542875327_2_alg».proof.Proof.KI.Region7
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal Cert.KernelIdeal.Gen Cert.KernelIdeal.Regs
open Idealize.ShloMosaic Idealize.ShloMosaic.TcCoe Idealize.SL.Sem Idealize.ShloMosaic.ValueIdx
open Idealize.ShloMosaic.Pipeline (Dat)

-- what the TensorCore's buffers hold when the region is entered
variable (V : (c : Dev nD) → (b : Ref sig .tc) → Buf (Elt Ideal) ((c : Thread nD τ).loc b))

/-- The zero offsets of a whole-block rectangle, as the constant function. -/
theorem zeros7 : (![0, 0] : Fin 2 → Nat) = fun _ => 0 := funext fun a => by fin_cases a <;> rfl

/-- The updated edge potential of whole arrays, entry by entry: out p q = ((Σ_l y p l · y q l) − e p q) − ½ · m p q. -/
def gramUpd7 (y : S4096x256.Idx → EReal) (e m : S4096x4096.Idx → EReal) : S4096x4096.Idx → EReal :=
  fun i => ((∑ l : Fin 256, y (ix2 (i 0) l) * y (ix2 (i 1) l)) - e i) - Ideal.ofBits .f32 0x3F000000#32 * m i

/-- The product of a 1024 x 256 block with the transpose of another into the zero accumulator, at an entry: the sum
    over the 256 shared positions of the products of the two rows. -/
theorem gram7_at (a b : FVec Ideal S1024x256 .bf16) (p q : Fin 1024) :
    matmul dot_S1024x256_S1024x256_S1024x1024_1_1_0_0_n_n none a b (constant (F := Ideal) S1024x1024 .f32 0x00000000#32) (ix2 p q)
      = ∑ l : Fin 256, a (ix2 p l) * b (ix2 q l) := by
  simp only [matmul]
  rw [Ideal.matmul_constant_zero_apply,
    ← Equiv.sum_comp (contrEquiv1 dot_S1024x256_S1024x256_S1024x1024_1_1_0_0_n_n 256 rfl rfl).symm]
  refine Finset.sum_congr rfl fun k _ => ?_
  have ck := contrEquiv1_symm_val dot_S1024x256_S1024x256_S1024x1024_1_1_0_0_n_n 256 rfl rfl k
  have hl : DotDims.lhsIdx dot_S1024x256_S1024x256_S1024x1024_1_1_0_0_n_n (ix2 p q)
      ((contrEquiv1 dot_S1024x256_S1024x256_S1024x1024_1_1_0_0_n_n 256 rfl rfl).symm k) = ix2 p k := by
    funext ax; apply Fin.ext
    match ax with
    | ⟨0, _⟩ => simp [DotDims.lhsIdx, dot_S1024x256_S1024x256_S1024x1024_1_1_0_0_n_n]; rfl
    | ⟨1, _⟩ => simp [DotDims.lhsIdx, dot_S1024x256_S1024x256_S1024x1024_1_1_0_0_n_n]; exact ck
  have hr : DotDims.rhsIdx dot_S1024x256_S1024x256_S1024x1024_1_1_0_0_n_n (ix2 p q)
      ((contrEquiv1 dot_S1024x256_S1024x256_S1024x1024_1_1_0_0_n_n 256 rfl rfl).symm k) = ix2 q k := by
    funext ax; apply Fin.ext
    match ax with
    | ⟨0, _⟩ => simp [DotDims.rhsIdx, dot_S1024x256_S1024x256_S1024x1024_1_1_0_0_n_n]; rfl
    | ⟨1, _⟩ => simp [DotDims.rhsIdx, dot_S1024x256_S1024x256_S1024x1024_1_1_0_0_n_n]; exact ck
  rw [hl, hr]

/-- The body's payload at an entry of the tile. -/
theorem pay7_at (x0 x1 : Vec Ideal S1024x256 .f32) (x2 x3 : Vec Ideal S1024x1024 .f32) (p q : Fin 1024) :
    k7_pay1 (F := Ideal) x0 x1 x2 x3 (ix2 p q)
      = ((∑ l : Fin 256, x0 (ix2 p l) * x1 (ix2 q l)) - x2 (ix2 p q)) - Ideal.ofBits .f32 0x3F000000#32 * x3 (ix2 p q) := by
  unfold k7_pay1
  simp only [shapeCast_self, subf_apply, mulf_apply, broadcast_apply]
  rw [gram7_at]
  rfl

/-- The same at any entry of the tile, named by its two coordinates. -/
theorem pay7_idx (x0 x1 : Vec Ideal S1024x256 .f32) (x2 x3 : Vec Ideal S1024x1024 .f32) (j : S1024x1024.Idx) :
    k7_pay1 (F := Ideal) x0 x1 x2 x3 j
      = ((∑ l : Fin 256, x0 (ix2 (j 0) l) * x1 (ix2 (j 1) l)) - x2 j) - Ideal.ofBits .f32 0x3F000000#32 * x3 j := by
  obtain ⟨p, q, rfl⟩ : ∃ (p : Fin 1024) (q : Fin 1024), j = ix2 p q := ⟨j 0, j 1, eq_ix2 j⟩
  exact pay7_at x0 x1 x2 x3 p q

/-- Blocks whose rows are rows of y, and tiles whose entry is the entry of the two square arrays, give that entry of
    the whole-array function. -/
theorem pay7_rows (Y : S4096x256.Idx → EReal) (E M : S4096x4096.Idx → EReal)
    (x0 x1 : Vec Ideal S1024x256 .f32) (x2 x3 : Vec Ideal S1024x1024 .f32) (j : S1024x1024.Idx) (i : S4096x4096.Idx)
    (h0 : ∀ l : Fin 256, x0 (ix2 (j 0) l) = Y (ix2 (i 0) l)) (h1 : ∀ l : Fin 256, x1 (ix2 (j 1) l) = Y (ix2 (i 1) l))
    (h2 : x2 j = E i) (h3 : x3 j = M i) :
    k7_pay1 (F := Ideal) x0 x1 x2 x3 j = gramUpd7 Y E M i := by
  have hs : (∑ l : Fin 256, x0 (ix2 (j 0) l) * x1 (ix2 (j 1) l)) = ∑ l : Fin 256, Y (ix2 (i 0) l) * Y (ix2 (i 1) l) :=
    Finset.sum_congr rfl fun l _ => by rw [h0 l, h1 l]
  rw [pay7_idx, hs, h2, h3]
  rfl

/-- The index maps at every grid point: the first block of y sits at the tile's row block and the second at its column
    block, both at column block 0; the tiles of the two square operands sit where the result's tile does. -/
theorem idx7 : ∀ t : Fin cfg7.N, win7_0.index t (0 : Fin 2) = win7_4.index t (0 : Fin 2)
    ∧ win7_0.index t (1 : Fin 2) = 0
    ∧ win7_1.index t (0 : Fin 2) = win7_4.index t (1 : Fin 2)
    ∧ win7_1.index t (1 : Fin 2) = 0
    ∧ win7_2.index t (0 : Fin 2) = win7_4.index t (0 : Fin 2)
    ∧ win7_2.index t (1 : Fin 2) = win7_4.index t (1 : Fin 2)
    ∧ win7_3.index t (0 : Fin 2) = win7_4.index t (0 : Fin 2)
    ∧ win7_3.index t (1 : Fin 2) = win7_4.index t (1 : Fin 2) :=
  (by decide +kernel : ∀ t : Fin grid7.N, _)

/-- Every tile is some grid point's. -/
theorem onto7 : ∀ q0 q1 : Fin 4, ∃ t : Fin cfg7.N, win7_4.index t = ![q0.val, q1.val] :=
  (by decide +kernel : ∀ q0 q1 : Fin 4, ∃ t : Fin grid7.N, win7_4.index t = ![q0.val, q1.val])

/-- What grid point t writes back is its tile of the whole-array function. -/
theorem flushed7_4 (c : Dev nD) (t : Fin cfg7.N) :
    (dat7 (F := Ideal) V c).flushed 4 t
      = ((cfg7.win 4).blk t).view.read (Elt Ideal) (gramUpd7 (V c main_v21) (V c main_v0) (V c main_v106)) := by
  show (cfg7.win 4).cut (grid7.coords t) ((dat7 (F := Ideal) V c).after 4 t) = _
  rw [dat7_after_4]
  unfold left7_4
  rw [View.canon_unit_zero zeros7]
  simp only [View.ld_unit_zero (S := S1024x256) zeros7, View.ld_unit_zero (S := S1024x1024) zeros7]
  obtain ⟨e0, e1, e2, e3, e4, e5, e6, e7⟩ := idx7 t
  funext j
  refine pay7_rows (V c main_v21) (V c main_v0) (V c main_v106) _ _ _ _ _ (((cfg7.win 4).blk t).view.emb j)
    (fun l => ?_) (fun l => ?_) ?_ ?_
  · show V c main_v21 (((cfg7.win 0).blk t).view.emb (ix2 (j 0) l)) = V c main_v21 (ix2 ((((cfg7.win 4).blk t).view.emb j) 0) l)
    refine congrArg (V c main_v21) ?_
    funext a; apply Fin.ext
    match a with
    | ⟨0, _⟩ => show win7_0.index t (0 : Fin 2) * 1024 + 1 * (j 0).val = win7_4.index t (0 : Fin 2) * 1024 + 1 * (j 0).val; rw [e0]
    | ⟨1, _⟩ => show win7_0.index t (1 : Fin 2) * 256 + 1 * l.val = l.val; rw [e1]; omega
  · show V c main_v21 (((cfg7.win 1).blk t).view.emb (ix2 (j 1) l)) = V c main_v21 (ix2 ((((cfg7.win 4).blk t).view.emb j) 1) l)
    refine congrArg (V c main_v21) ?_
    funext a; apply Fin.ext
    match a with
    | ⟨0, _⟩ => show win7_1.index t (0 : Fin 2) * 1024 + 1 * (j 1).val = win7_4.index t (1 : Fin 2) * 1024 + 1 * (j 1).val; rw [e2]
    | ⟨1, _⟩ => show win7_1.index t (1 : Fin 2) * 256 + 1 * l.val = l.val; rw [e3]; omega
  · show V c main_v0 (((cfg7.win 2).blk t).view.emb j) = V c main_v0 (((cfg7.win 4).blk t).view.emb j)
    refine congrArg (V c main_v0) ?_
    funext a; apply Fin.ext
    match a with
    | ⟨0, _⟩ => show win7_2.index t (0 : Fin 2) * 1024 + 1 * (j 0).val = win7_4.index t (0 : Fin 2) * 1024 + 1 * (j 0).val; rw [e4]
    | ⟨1, _⟩ => show win7_2.index t (1 : Fin 2) * 1024 + 1 * (j 1).val = win7_4.index t (1 : Fin 2) * 1024 + 1 * (j 1).val; rw [e5]
  · show V c main_v106 (((cfg7.win 3).blk t).view.emb j) = V c main_v106 (((cfg7.win 4).blk t).view.emb j)
    refine congrArg (V c main_v106) ?_
    funext a; apply Fin.ext
    match a with
    | ⟨0, _⟩ => show win7_3.index t (0 : Fin 2) * 1024 + 1 * (j 0).val = win7_4.index t (0 : Fin 2) * 1024 + 1 * (j 0).val; rw [e6]
    | ⟨1, _⟩ => show win7_3.index t (1 : Fin 2) * 1024 + 1 * (j 1).val = win7_4.index t (1 : Fin 2) * 1024 + 1 * (j 1).val; rw [e7]

/-- An entry of the array is in point t's tile iff each coordinate is in the tile's range on its axis. -/
theorem mem_blk7_4 (t : Fin cfg7.N) (i : S4096x4096.Idx) :
    i ∈ ((cfg7.win 4).blk t).view.set
      ↔ ∀ a : Fin 2, win7_4.index t a * S1024x1024.size a ≤ (i a).val
          ∧ (i a).val < win7_4.index t a * S1024x1024.size a + S1024x1024.size a := by
  show i ∈ ((View.whole main_v107).slice (win7_4.rect t)).set ↔ _
  rw [View.set_slice_whole, Rect.mem_set_unit]
  exact Iff.rfl

/-- The tiles cover the array: entry (p, q) is in the tile of the point whose index is (p / 1024, q / 1024). -/
theorem cover7_4 (i : S4096x4096.Idx) :
    ∃ t : Fin cfg7.N, (cfg7.win 4).flush t = true ∧ i ∈ ((cfg7.win 4).blk t).view.set := by
  have hi0 : (i 0).val < 4096 := (i 0).isLt
  have hi1 : (i 1).val < 4096 := (i 1).isLt
  obtain ⟨t, ht⟩ := onto7 ⟨(i 0).val / 1024, by omega⟩ ⟨(i 1).val / 1024, by omega⟩
  have q0 : win7_4.index t (0 : Fin 2) = (i 0).val / 1024 := congrFun ht 0
  have q1 : win7_4.index t (1 : Fin 2) = (i 1).val / 1024 := congrFun ht 1
  refine ⟨t, flush7_4 t, ?_⟩
  rw [mem_blk7_4]
  intro a
  match a with
  | ⟨0, _⟩ => show win7_4.index t (0 : Fin 2) * 1024 ≤ (i 0).val ∧ (i 0).val < win7_4.index t (0 : Fin 2) * 1024 + 1024; omega
  | ⟨1, _⟩ => show win7_4.index t (1 : Fin 2) * 1024 ≤ (i 1).val ∧ (i 1).val < win7_4.index t (1 : Fin 2) * 1024 + 1024; omega

/-- After the region the result array is the whole-array function of the arrays the region found. -/
theorem arr7_4 (c : Dev nD) :
    (dat7 (F := Ideal) V c).arrAt 4 cfg7.N = gramUpd7 (V c main_v21) (V c main_v0) (V c main_v106) :=
  (dat7 (F := Ideal) V c).arrAt_eq_of_cover 4 (gramUpd7 (V c main_v21) (V c main_v0) (V c main_v106))
    (fun t _ => flushed7_4 V c t) cover7_4

/-- Entry by entry: EP p q = ((Σ_l y p l · y q l) − mea p q) − ½ · M p q. -/
theorem value7_4 (c : Dev nD) (p q : Fin 4096) :
    @Eq EReal ((dat7 (F := Ideal) V c).arrAt 4 cfg7.N (ix2 p q))
      (HSub.hSub (α := EReal) (β := EReal) (γ := EReal)
        (HSub.hSub (α := EReal) (β := EReal) (γ := EReal)
          (∑ l : Fin 256, HMul.hMul (α := EReal) (β := EReal) (γ := EReal) (V c main_v21 (ix2 p l)) (V c main_v21 (ix2 q l)))
          (V c main_v0 (ix2 p q)))
        (HMul.hMul (α := EReal) (β := EReal) (γ := EReal) (Ideal.ofBits .f32 0x3F000000#32) (V c main_v106 (ix2 p q)))) :=
  congrFun (arr7_4 V c) (ix2 p q)

end Cert.KernelIdeal.Vals

end
-- ==== Proof.KI.HostRead.lean ====
/- The kernel program's first two layers, read at array level.

   Between its kernel regions @main runs whole-array host operations: rounding y and w1 to bf16, forming
   temp = (t1 + oy) − y (yᵀ y), the node update y' = 1/2 · 1/(1 + exp (−(w1 · temp))) + feat and z' = z − oz, and the edge
   matrix M (the rows of z at the two ends of every edge subtracted, the norm of each difference times the edge's value,
   scatter-added into a zero matrix). Here each array a region of layers 0 and 1 reads — and each node state those layers
   produce — is written as those named whole-array functions of the eleven arguments and of what the earlier regions left
   in their output arrays; with each region's output its whole-array value, the buffers at boundary 18 then hold the
   network's state after two layers. -/
import proofs.«169176_j23261542875327_2_alg».proof.Proof.KI.HostKeep
import proofs.«169176_j23261542875327_2_alg».proof.Proof.KI.HostAt
import proofs.«169176_j23261542875327_2_alg».proof.Proof.KDefs
import proofs.«169176_j23261542875327_2_alg».proof.Proof.KI.Value0
import proofs.«169176_j23261542875327_2_alg».proof.Proof.KI.Value1
import proofs.«169176_j23261542875327_2_alg».proof.Proof.KI.Value2
import proofs.«169176_j23261542875327_2_alg».proof.Proof.KI.Value3
import proofs.«169176_j23261542875327_2_alg».proof.Proof.KI.Value4
import proofs.«169176_j23261542875327_2_alg».proof.Proof.KI.Value5
import proofs.«169176_j23261542875327_2_alg».proof.Proof.KI.Value6
import proofs.«169176_j23261542875327_2_alg».proof.Proof.KI.Value7
import Idealize.ShloMosaic.Lib.StableHlo.Run
import Idealize.ShloMosaic.PureOps.Ideal

set_option maxRecDepth 65536

noncomputable section

namespace Cert.KernelIdeal.Run

open Idealize.ShloMosaic Idealize.ShloMosaic.TcCoe
open Idealize.SL Idealize.SL.Sem
open Cert.KernelIdeal Cert.KernelIdeal.Gen Cert.KernelIdeal.GenP Cert.KernelIdeal.Regs

/-- An equation between two arrays, read at the stated array type. -/
local notation:50 a " =[" T "] " b => @Eq T a b

/-! ## Each stretch's results from ANY starting contents `X`

What a stretch of host operations leaves in one of its result buffers, as the named whole-array functions of what `X`
holds in the buffers the stretch reads. -/

/-- w1 rounded to bf16. -/
theorem ops1_main_v1 (X : Valuation τ sig (Elt Ideal)) :
    StableHlo.after hostOps1 X (Proc.devRef .tc main_v1) =[KDefs.T44b Ideal] KDefs.bf44 (X (Proc.devRef .tc main_arg2)) := by
  after_results_simp
  rfl
/-- y rounded to bf16. -/
theorem ops1_main_v2 (X : Valuation τ sig (Elt Ideal)) :
    StableHlo.after hostOps1 X (Proc.devRef .tc main_v2) =[KDefs.T42b Ideal] KDefs.bf42 (X (Proc.devRef .tc main_arg0)) := by
  after_results_simp
  rfl
/-- temp of the first layer: the column sums of y plus oy, minus y (yᵀ y). -/
theorem ops2_main_v11 (X : Valuation τ sig (Elt Ideal)) :
    StableHlo.after hostOps2 X (Proc.devRef .tc main_v11) =[KDefs.T42 Ideal] KDefs.tempOf (KDefs.colSum (X (Proc.devRef .tc main_arg0))) (X (Proc.devRef .tc main_v3_0)) (KDefs.gramTimes (X (Proc.devRef .tc main_arg0))) := by
  after_results_simp
  rfl
/-- The node update of the first layer. -/
theorem ops3_main_v21 (X : Valuation τ sig (Elt Ideal)) :
    StableHlo.after hostOps3 X (Proc.devRef .tc main_v21) =[KDefs.T42 Ideal] KDefs.yNext (KDefs.sigOf (X (Proc.devRef .tc main_v12))) (X (Proc.devRef .tc main_arg0)) := by
  after_results_simp
  rfl
/-- z' = z − oz. -/
theorem ops3_main_v22 (X : Valuation τ sig (Elt Ideal)) :
    StableHlo.after hostOps3 X (Proc.devRef .tc main_v22) =[KDefs.T42 Ideal] KDefs.zNext (X (Proc.devRef .tc main_arg1)) (X (Proc.devRef .tc main_v3_1)) := by
  after_results_simp
  rfl
/-- The rows of z at the two ends of every edge, subtracted (the first layer reads the argument z). -/
theorem ops3_main_v37 (X : Valuation τ sig (Elt Ideal)) :
    StableHlo.after hostOps3 X (Proc.devRef .tc main_v37) =[KDefs.TE2 Ideal] KDefs.edgeDiff (X (Proc.devRef .tc main_arg1)) (X (Proc.devRef .tc main_arg9)) (X (Proc.devRef .tc main_arg10)) := by
  after_results_simp
  rfl
/-- The norm of every edge's difference. -/
theorem ops3_1_main_v38 (X : Valuation τ sig (Elt Ideal)) :
    StableHlo.after hostOps3_1 X (Proc.devRef .tc main_v38) =[KDefs.TE Ideal] KDefs.rowNormE (X (Proc.devRef .tc main_v37)) := by
  after_results_simp
  rfl
/-- The edge numbers times the edge values, scatter-added into a zero matrix. -/
theorem ops3_2_main_v54 (X : Valuation τ sig (Elt Ideal)) :
    StableHlo.after hostOps3_2 X (Proc.devRef .tc main_v54) =[KDefs.T44 Ideal] KDefs.edgeM (mulf (F := Ideal) (s := S65536) (φ := .f32) (X (Proc.devRef .tc main_v38)) (X (Proc.devRef .tc main_arg8))) (X (Proc.devRef .tc main_arg9)) (X (Proc.devRef .tc main_arg10)) := by
  after_results_simp
  rfl
/-- y' rounded to bf16. -/
theorem ops4_main_v56 (X : Valuation τ sig (Elt Ideal)) :
    StableHlo.after hostOps4 X (Proc.devRef .tc main_v56) =[KDefs.T42b Ideal] KDefs.bf42 (X (Proc.devRef .tc main_v21)) := by
  after_results_simp
  rfl
/-- temp of the second layer: EPᵀ y' plus oy', minus y' (y'ᵀ y'). -/
theorem ops6_main_v63 (X : Valuation τ sig (Elt Ideal)) :
    StableHlo.after hostOps6 X (Proc.devRef .tc main_v63) =[KDefs.T42 Ideal] KDefs.tempOf (X (Proc.devRef .tc main_v58)) (X (Proc.devRef .tc main_v57_0)) (KDefs.gramTimes (X (Proc.devRef .tc main_v21))) := by
  after_results_simp
  rfl
/-- The node update of the second layer. -/
theorem ops7_main_v73 (X : Valuation τ sig (Elt Ideal)) :
    StableHlo.after hostOps7 X (Proc.devRef .tc main_v73) =[KDefs.T42 Ideal] KDefs.yNext (KDefs.sigOf (X (Proc.devRef .tc main_v64))) (X (Proc.devRef .tc main_arg0)) := by
  after_results_simp
  rfl
/-- z'' = z' − oz'. -/
theorem ops7_main_v74 (X : Valuation τ sig (Elt Ideal)) :
    StableHlo.after hostOps7 X (Proc.devRef .tc main_v74) =[KDefs.T42 Ideal] KDefs.zNext (X (Proc.devRef .tc main_v22)) (X (Proc.devRef .tc main_v57_1)) := by
  after_results_simp
  rfl
/-- The rows of z' at the two ends of every edge, subtracted. -/
theorem ops7_main_v89 (X : Valuation τ sig (Elt Ideal)) :
    StableHlo.after hostOps7 X (Proc.devRef .tc main_v89) =[KDefs.TE2 Ideal] KDefs.edgeDiff (X (Proc.devRef .tc main_v22)) (X (Proc.devRef .tc main_arg9)) (X (Proc.devRef .tc main_arg10)) := by
  after_results_simp
  rfl
/-- The norm of every edge's difference. -/
theorem ops7_1_main_v90 (X : Valuation τ sig (Elt Ideal)) :
    StableHlo.after hostOps7_1 X (Proc.devRef .tc main_v90) =[KDefs.TE Ideal] KDefs.rowNormE (X (Proc.devRef .tc main_v89)) := by
  after_results_simp
  rfl
/-- The second layer's edge matrix. -/
theorem ops7_2_main_v106 (X : Valuation τ sig (Elt Ideal)) :
    StableHlo.after hostOps7_2 X (Proc.devRef .tc main_v106) =[KDefs.T44 Ideal] KDefs.edgeM (mulf (F := Ideal) (s := S65536) (φ := .f32) (X (Proc.devRef .tc main_v90)) (X (Proc.devRef .tc main_arg8))) (X (Proc.devRef .tc main_arg9)) (X (Proc.devRef .tc main_arg10)) := by
  after_results_simp
  rfl

variable (m : (ℓ : Loc nD τ sig) → Buf (Elt Ideal) ℓ)

/-! ## LAYER 0

Region 0 is entered at the launch and reads the arguments EA and w22 (`S0_arg`). -/

/-! ### Region 1 (entered at boundary 2) reads adj, mea, y in bf16, z -/

/-- mea is what region 0 left. -/
theorem S2_main_v0 (c : Dev nD) : S2 m c main_v0 = S1 m c main_v0 := S2_keep m c main_v0 (by decide)
theorem S2_main_v1 (c : Dev nD) : S2 m c main_v1 =[KDefs.T44b Ideal] KDefs.bf44 (m (c, Proc.devRef .tc main_arg2)) := by
  show StableHlo.after hostOps1 (S1 m c) (Proc.devRef .tc main_v1) = _
  rw [ops1_main_v1 (S1 m c), S1_arg m c main_arg2 (by decide)]
theorem S2_main_v2 (c : Dev nD) : S2 m c main_v2 =[KDefs.T42b Ideal] KDefs.bf42 (m (c, Proc.devRef .tc main_arg0)) := by
  show StableHlo.after hostOps1 (S1 m c) (Proc.devRef .tc main_v2) = _
  rw [ops1_main_v2 (S1 m c), S1_arg m c main_arg0 (by decide)]

/-! ### Region 2 (entered at boundary 4) reads w1 in bf16 and temp -/

theorem S4_main_v1 (c : Dev nD) : S4 m c main_v1 =[KDefs.T44b Ideal] KDefs.bf44 (m (c, Proc.devRef .tc main_arg2)) :=
  (S4_keep m c main_v1 (by decide)).trans ((S3_keep m c main_v1 (by decide)).trans (S2_main_v1 m c))
/-- temp, with oy what region 1 left in its first output. -/
theorem S4_main_v11 (c : Dev nD) :
    S4 m c main_v11 =[KDefs.T42 Ideal] KDefs.tempOf (KDefs.colSum (m (c, Proc.devRef .tc main_arg0))) (S3 m c main_v3_0) (KDefs.gramTimes (m (c, Proc.devRef .tc main_arg0))) := by
  show StableHlo.after hostOps2 (S3 m c) (Proc.devRef .tc main_v11) = _
  rw [ops2_main_v11 (S3 m c), S3_arg m c main_arg0 (by decide)]

/-! ### Region 3 (entered at boundary 8) reads y twice, mea and M -/

theorem S8_main_v0 (c : Dev nD) : S8 m c main_v0 = S1 m c main_v0 :=
  (S8_keep m c main_v0 (by decide)).trans ((S7_keep m c main_v0 (by decide)).trans ((S6_keep m c main_v0 (by decide)).trans ((S5_keep m c main_v0 (by decide)).trans ((S4_keep m c main_v0 (by decide)).trans ((S3_keep m c main_v0 (by decide)).trans (S2_keep m c main_v0 (by decide)))))))
theorem S6_main_v37 (c : Dev nD) : S6 m c main_v37 =[KDefs.TE2 Ideal] KDefs.edgeDiff (m (c, Proc.devRef .tc main_arg1)) (m (c, Proc.devRef .tc main_arg9)) (m (c, Proc.devRef .tc main_arg10)) := by
  show StableHlo.after hostOps3 (S5 m c) (Proc.devRef .tc main_v37) = _
  rw [ops3_main_v37 (S5 m c), S5_arg m c main_arg1 (by decide), S5_arg m c main_arg9 (by decide), S5_arg m c main_arg10 (by decide)]
theorem S7_main_v38 (c : Dev nD) : S7 m c main_v38 =[KDefs.TE Ideal] KDefs.rowNormE (KDefs.edgeDiff (m (c, Proc.devRef .tc main_arg1)) (m (c, Proc.devRef .tc main_arg9)) (m (c, Proc.devRef .tc main_arg10))) := by
  show StableHlo.after hostOps3_1 (S6 m c) (Proc.devRef .tc main_v38) = _
  rw [ops3_1_main_v38 (S6 m c), S6_main_v37 m c]
/-- M of the first layer: the edge matrix of the argument z. -/
theorem S8_main_v54 (c : Dev nD) :
    S8 m c main_v54 =[KDefs.T44 Ideal] KDefs.edgeM (KDefs.edgeP (m (c, Proc.devRef .tc main_arg1)) (m (c, Proc.devRef .tc main_arg9)) (m (c, Proc.devRef .tc main_arg10)) (m (c, Proc.devRef .tc main_arg8))) (m (c, Proc.devRef .tc main_arg9)) (m (c, Proc.devRef .tc main_arg10)) := by
  show StableHlo.after hostOps3_2 (S7 m c) (Proc.devRef .tc main_v54) = _
  rw [ops3_2_main_v54 (S7 m c), S7_main_v38 m c, S7_arg m c main_arg8 (by decide), S7_arg m c main_arg9 (by decide), S7_arg m c main_arg10 (by decide)]
  rfl

/-! ### The node states after the first layer -/

/-- y' from what region 2 left (w1 · temp) and feat. -/
theorem S6_main_v21 (c : Dev nD) : S6 m c main_v21 =[KDefs.T42 Ideal] KDefs.yNext (KDefs.sigOf (S5 m c main_v12)) (m (c, Proc.devRef .tc main_arg0)) := by
  show StableHlo.after hostOps3 (S5 m c) (Proc.devRef .tc main_v21) = _
  rw [ops3_main_v21 (S5 m c), S5_arg m c main_arg0 (by decide)]
/-- z' from z and what region 1 left in its second output. -/
theorem S6_main_v22 (c : Dev nD) : S6 m c main_v22 =[KDefs.T42 Ideal] KDefs.zNext (m (c, Proc.devRef .tc main_arg1)) (S3 m c main_v3_1) := by
  show StableHlo.after hostOps3 (S5 m c) (Proc.devRef .tc main_v22) = _
  rw [ops3_main_v22 (S5 m c), S5_arg m c main_arg1 (by decide), S5_keep m c main_v3_1 (by decide), S4_keep m c main_v3_1 (by decide)]

/-! ## LAYER 1 -/

/-! ### Region 4 (entered at boundary 10) reads adj, EP, mea, y' in bf16, z' -/

theorem S10_main_v55 (c : Dev nD) : S10 m c main_v55 = S9 m c main_v55 := S10_keep m c main_v55 (by decide)
theorem S10_main_v0 (c : Dev nD) : S10 m c main_v0 = S1 m c main_v0 :=
  (S10_keep m c main_v0 (by decide)).trans ((S9_keep m c main_v0 (by decide)).trans (S8_main_v0 m c))
theorem S9_main_v21 (c : Dev nD) : S9 m c main_v21 = S6 m c main_v21 :=
  (S9_keep m c main_v21 (by decide)).trans ((S8_keep m c main_v21 (by decide)).trans (S7_keep m c main_v21 (by decide)))
theorem S10_main_v56 (c : Dev nD) : S10 m c main_v56 =[KDefs.T42b Ideal] KDefs.bf42 (S6 m c main_v21) := by
  show StableHlo.after hostOps4 (S9 m c) (Proc.devRef .tc main_v56) = _
  rw [ops4_main_v56 (S9 m c), S9_main_v21 m c]
theorem S10_main_v22 (c : Dev nD) : S10 m c main_v22 = S6 m c main_v22 :=
  (S10_keep m c main_v22 (by decide)).trans ((S9_keep m c main_v22 (by decide)).trans ((S8_keep m c main_v22 (by decide)).trans (S7_keep m c main_v22 (by decide))))

/-! ### Region 5 (entered at boundary 11) reads EP and y' -/

theorem S11_main_v55 (c : Dev nD) : S11 m c main_v55 = S9 m c main_v55 :=
  (S11_keep m c main_v55 (by decide)).trans (S10_keep m c main_v55 (by decide))
theorem S11_main_v21 (c : Dev nD) : S11 m c main_v21 = S6 m c main_v21 :=
  (S11_keep m c main_v21 (by decide)).trans ((S10_keep m c main_v21 (by decide)).trans (S9_main_v21 m c))

/-! ### Region 6 (entered at boundary 13) reads w1 in bf16 and temp -/

theorem S13_main_v1 (c : Dev nD) : S13 m c main_v1 =[KDefs.T44b Ideal] KDefs.bf44 (m (c, Proc.devRef .tc main_arg2)) :=
  (S13_keep m c main_v1 (by decide)).trans ((S12_keep m c main_v1 (by decide)).trans ((S11_keep m c main_v1 (by decide)).trans ((S10_keep m c main_v1 (by decide)).trans ((S9_keep m c main_v1 (by decide)).trans ((S8_keep m c main_v1 (by decide)).trans ((S7_keep m c main_v1 (by decide)).trans ((S6_keep m c main_v1 (by decide)).trans ((S5_keep m c main_v1 (by decide)).trans (S4_main_v1 m c)))))))))
/-- temp of the second layer, with EPᵀ y' what region 5 left and oy' what region 4 left in its first output. -/
theorem S13_main_v63 (c : Dev nD) :
    S13 m c main_v63 =[KDefs.T42 Ideal] KDefs.tempOf (S12 m c main_v58) (S11 m c main_v57_0) (KDefs.gramTimes (S6 m c main_v21)) := by
  show StableHlo.after hostOps6 (S12 m c) (Proc.devRef .tc main_v63) = _
  rw [ops6_main_v63 (S12 m c), S12_keep m c main_v57_0 (by decide), S12_keep m c main_v21 (by decide), S11_main_v21 m c]

/-! ### Region 7 (entered at boundary 17) reads y' twice, mea and M -/

theorem S17_main_v21 (c : Dev nD) : S17 m c main_v21 = S6 m c main_v21 :=
  (S17_keep m c main_v21 (by decide)).trans ((S16_keep m c main_v21 (by decide)).trans ((S15_keep m c main_v21 (by decide)).trans ((S14_keep m c main_v21 (by decide)).trans ((S13_keep m c main_v21 (by decide)).trans ((S12_keep m c main_v21 (by decide)).trans (S11_main_v21 m c))))))
theorem S17_main_v0 (c : Dev nD) : S17 m c main_v0 = S1 m c main_v0 :=
  (S17_keep m c main_v0 (by decide)).trans ((S16_keep m c main_v0 (by decide)).trans ((S15_keep m c main_v0 (by decide)).trans ((S14_keep m c main_v0 (by decide)).trans ((S13_keep m c main_v0 (by decide)).trans ((S12_keep m c main_v0 (by decide)).trans ((S11_keep m c main_v0 (by decide)).trans (S10_main_v0 m c)))))))
theorem S14_main_v22 (c : Dev nD) : S14 m c main_v22 = S6 m c main_v22 :=
  (S14_keep m c main_v22 (by decide)).trans ((S13_keep m c main_v22 (by decide)).trans ((S12_keep m c main_v22 (by decide)).trans ((S11_keep m c main_v22 (by decide)).trans (S10_main_v22 m c))))
theorem S15_main_v89 (c : Dev nD) : S15 m c main_v89 =[KDefs.TE2 Ideal] KDefs.edgeDiff (S6 m c main_v22) (m (c, Proc.devRef .tc main_arg9)) (m (c, Proc.devRef .tc main_arg10)) := by
  show StableHlo.after hostOps7 (S14 m c) (Proc.devRef .tc main_v89) = _
  rw [ops7_main_v89 (S14 m c), S14_main_v22 m c, S14_arg m c main_arg9 (by decide), S14_arg m c main_arg10 (by decide)]
theorem S16_main_v90 (c : Dev nD) : S16 m c main_v90 =[KDefs.TE Ideal] KDefs.rowNormE (KDefs.edgeDiff (S6 m c main_v22) (m (c, Proc.devRef .tc main_arg9)) (m (c, Proc.devRef .tc main_arg10))) := by
  show StableHlo.after hostOps7_1 (S15 m c) (Proc.devRef .tc main_v90) = _
  rw [ops7_1_main_v90 (S15 m c), S15_main_v89 m c]
/-- M of the second layer: the edge matrix of z'. -/
theorem S17_main_v106 (c : Dev nD) :
    S17 m c main_v106 =[KDefs.T44 Ideal] KDefs.edgeM (KDefs.edgeP (S6 m c main_v22) (m (c, Proc.devRef .tc main_arg9)) (m (c, Proc.devRef .tc main_arg10)) (m (c, Proc.devRef .tc main_arg8))) (m (c, Proc.devRef .tc main_arg9)) (m (c, Proc.devRef .tc main_arg10)) := by
  show StableHlo.after hostOps7_2 (S16 m c) (Proc.devRef .tc main_v106) = _
  rw [ops7_2_main_v106 (S16 m c), S16_main_v90 m c, S16_arg m c main_arg8 (by decide), S16_arg m c main_arg9 (by decide), S16_arg m c main_arg10 (by decide)]
  rfl

/-! ### The node states after the second layer -/

/-- y'' from what region 6 left (w1 · temp) and feat. -/
theorem S15_main_v73 (c : Dev nD) : S15 m c main_v73 =[KDefs.T42 Ideal] KDefs.yNext (KDefs.sigOf (S14 m c main_v64)) (m (c, Proc.devRef .tc main_arg0)) := by
  show StableHlo.after hostOps7 (S14 m c) (Proc.devRef .tc main_v73) = _
  rw [ops7_main_v73 (S14 m c), S14_arg m c main_arg0 (by decide)]
/-- z'' from z' and what region 4 left in its second output. -/
theorem S15_main_v74 (c : Dev nD) : S15 m c main_v74 =[KDefs.T42 Ideal] KDefs.zNext (S6 m c main_v22) (S11 m c main_v57_1) := by
  show StableHlo.after hostOps7 (S14 m c) (Proc.devRef .tc main_v74) = _
  rw [ops7_main_v74 (S14 m c), S14_main_v22 m c, S14_keep m c main_v57_1 (by decide), S13_keep m c main_v57_1 (by decide), S12_keep m c main_v57_1 (by decide)]

/-! ## What the regions of the first two layers leave in their output arrays -/

theorem S1_main_v0 (c : Dev nD) : S1 m c main_v0 = (dat0 (T0 m) c).arrAt 2 cfg0.N := by
  simp only [S1, Function.update_self]
theorem S3_main_v3_0 (c : Dev nD) : S3 m c main_v3_0 = (dat1 (T2 m) c).arrAt 4 cfg1.N := by
  simp only [S3, Function.update_of_ne (StableHlo.devRef_ne_of_ne (by decide) : (Proc.devRef .tc main_v3_0 : DevRef τ sig) ≠ Proc.devRef .tc main_v3_1), Function.update_self]
theorem S3_main_v3_1 (c : Dev nD) : S3 m c main_v3_1 = (dat1 (T2 m) c).arrAt 5 cfg1.N := by
  simp only [S3, Function.update_self]
theorem S5_main_v12 (c : Dev nD) : S5 m c main_v12 = (dat2 (T4 m) c).arrAt 2 cfg2.N := by
  simp only [S5, Function.update_self]
theorem S9_main_v55 (c : Dev nD) : S9 m c main_v55 = (dat3 (T8 m) c).arrAt 4 cfg3.N := by
  simp only [S9, Function.update_self]
theorem S11_main_v57_0 (c : Dev nD) : S11 m c main_v57_0 = (dat4 (T10 m) c).arrAt 5 cfg4.N := by
  simp only [S11, Function.update_of_ne (StableHlo.devRef_ne_of_ne (by decide) : (Proc.devRef .tc main_v57_0 : DevRef τ sig) ≠ Proc.devRef .tc main_v57_1), Function.update_self]
theorem S11_main_v57_1 (c : Dev nD) : S11 m c main_v57_1 = (dat4 (T10 m) c).arrAt 6 cfg4.N := by
  simp only [S11, Function.update_self]
theorem S12_main_v58 (c : Dev nD) : S12 m c main_v58 = (dat5 (T11 m) c).arrAt 2 cfg5.N := by
  simp only [S12, Function.update_self]
theorem S14_main_v64 (c : Dev nD) : S14 m c main_v64 = (dat6 (T13 m) c).arrAt 2 cfg6.N := by
  simp only [S14, Function.update_self]
theorem S18_main_v107 (c : Dev nD) : S18 m c main_v107 = (dat7 (T17 m) c).arrAt 4 cfg7.N := by
  simp only [S18, Function.update_self]

/-! ## The first two layers: from the launch to the state after 2 layers at boundary 18

Item by item: a region's output array is its whole-array value of the arrays it reads, a host stretch's result the
named function of what it reads, and everything else is carried along; each is then the record's field of that name. -/

set_option maxHeartbeats 4000000 in
theorem layers01 (c : Dev nD) : At18 m (argsOf m c) c := by
  -- item 1: region 0 leaves the masked edge term
  have hmea : S1 m c main_v0 =[KDefs.T44 Ideal] (argsOf m c).mea := by
    rw [S1_main_v0 m c, Vals.arr0_2 (T0 m) c]; rfl
  -- item 2: w1 and y rounded to bf16
  have hw1 : S2 m c main_v1 =[KDefs.T44b Ideal] (argsOf m c).w1b := S2_main_v1 m c
  have hyb0 : S2 m c main_v2 =[KDefs.T42b Ideal] KDefs.bf42 (argsOf m c).feat := S2_main_v2 m c
  -- item 3: region 1's two products with adj + mea
  have hoy0 : S3 m c main_v3_0 =[KDefs.T42 Ideal] (argsOf m c).oy0 := by
    rw [S3_main_v3_0 m c, Vals.arr1_4 (T2 m) c]
    show Vals.sumProd1 (S2 m c main_arg6) (S2 m c main_v0) (S2 m c main_v2) = _
    rw [S2_arg m c main_arg6 (by decide), S2_main_v0 m c, hmea, hyb0]; rfl
  have hoz0 : S3 m c main_v3_1 =[KDefs.T42 Ideal] (argsOf m c).oz0 := by
    rw [S3_main_v3_1 m c, Vals.arr1_5 (T2 m) c]
    show Vals.sumProd1 (S2 m c main_arg6) (S2 m c main_v0) (S2 m c main_arg1) = _
    rw [S2_arg m c main_arg6 (by decide), S2_main_v0 m c, hmea, S2_arg m c main_arg1 (by decide)]; rfl
  -- item 4: temp
  have htemp0 : S4 m c main_v11 =[KDefs.T42 Ideal] (argsOf m c).temp0 := by
    rw [S4_main_v11 m c, hoy0]; rfl
  -- item 5: region 2, w1 · temp
  have hu0 : S5 m c main_v12 =[KDefs.T42 Ideal] (argsOf m c).u0 := by
    rw [S5_main_v12 m c, Vals.arr2_2 (T4 m) c]
    show Vals.mm2 (S4 m c main_v1) (S4 m c main_v11) = _
    rw [S4_main_v1 m c, htemp0]; rfl
  -- item 6: the node states after one layer
  have hy1 : S6 m c main_v21 =[KDefs.T42 Ideal] (argsOf m c).y1 := by
    rw [S6_main_v21 m c, hu0]; rfl
  have hz1 : S6 m c main_v22 =[KDefs.T42 Ideal] (argsOf m c).z1 := by
    rw [S6_main_v22 m c, hoz0]; rfl
  -- items 7, 8: the edge matrix of the argument z
  have hM0 : S8 m c main_v54 =[KDefs.T44 Ideal] (argsOf m c).M0 := S8_main_v54 m c
  -- item 9: region 3, the edge potential after one layer
  have hEP1 : S9 m c main_v55 =[KDefs.T44 Ideal] (argsOf m c).EP1 := by
    rw [S9_main_v55 m c, Vals.arr3_4 (T8 m) c]
    show Vals.gramUpd3 (S8 m c main_arg0) (S8 m c main_v0) (S8 m c main_v54) = _
    rw [S8_arg m c main_arg0 (by decide), S8_main_v0 m c, hmea, hM0]; rfl
  -- item 10: y' rounded to bf16
  have hyb1 : S10 m c main_v56 =[KDefs.T42b Ideal] KDefs.bf42 (argsOf m c).y1 := by
    rw [S10_main_v56 m c, hy1]
  -- item 11: region 4's two products with adj ∘ EP + mea
  have hoy1 : S11 m c main_v57_0 =[KDefs.T42 Ideal] (argsOf m c).oy1 := by
    rw [S11_main_v57_0 m c, Vals.arr4_5 (T10 m) c]
    show Vals.mixProd4 (S10 m c main_arg6) (S10 m c main_v55) (S10 m c main_v0) (S10 m c main_v56) = _
    rw [S10_arg m c main_arg6 (by decide), S10_main_v55 m c, hEP1, S10_main_v0 m c, hmea, hyb1]; rfl
  have hoz1 : S11 m c main_v57_1 =[KDefs.T42 Ideal] (argsOf m c).oz1 := by
    rw [S11_main_v57_1 m c, Vals.arr4_6 (T10 m) c]
    show Vals.mixProd4 (S10 m c main_arg6) (S10 m c main_v55) (S10 m c main_v0) (S10 m c main_v22) = _
    rw [S10_arg m c main_arg6 (by decide), S10_main_v55 m c, hEP1, S10_main_v0 m c, hmea, S10_main_v22 m c, hz1]; rfl
  -- item 12: region 5, EPᵀ · y'
  have ht1 : S12 m c main_v58 =[KDefs.T42 Ideal] (argsOf m c).t1 := by
    rw [S12_main_v58 m c, Vals.arr5_2 (T11 m) c]
    show Vals.mmT5 (S11 m c main_v55) (S11 m c main_v21) = _
    rw [S11_main_v55 m c, hEP1, S11_main_v21 m c, hy1]; rfl
  -- item 13: temp
  have htemp1 : S13 m c main_v63 =[KDefs.T42 Ideal] (argsOf m c).temp1 := by
    rw [S13_main_v63 m c, ht1, hoy1, hy1]; rfl
  -- item 14: region 6, w1 · temp
  have hu1 : S14 m c main_v64 =[KDefs.T42 Ideal] (argsOf m c).u1 := by
    rw [S14_main_v64 m c, Vals.arr6_2 (T13 m) c]
    show Vals.mm6 (S13 m c main_v1) (S13 m c main_v63) = _
    rw [S13_main_v1 m c, htemp1]; rfl
  -- item 15: the node states after two layers
  have hy2 : S15 m c main_v73 =[KDefs.T42 Ideal] (argsOf m c).y2 := by
    rw [S15_main_v73 m c, hu1]; rfl
  have hz2 : S15 m c main_v74 =[KDefs.T42 Ideal] (argsOf m c).z2 := by
    rw [S15_main_v74 m c, hz1, hoz1]; rfl
  -- items 16, 17: the edge matrix of z'
  have hM1 : S17 m c main_v106 =[KDefs.T44 Ideal] (argsOf m c).M1 := by
    rw [S17_main_v106 m c, hz1]; rfl
  -- item 18: region 7, the edge potential after two layers
  have hEP2 : S18 m c main_v107 =[KDefs.T44 Ideal] (argsOf m c).EP2 := by
    rw [S18_main_v107 m c, Vals.arr7_4 (T17 m) c]
    show Vals.gramUpd7 (S17 m c main_v21) (S17 m c main_v0) (S17 m c main_v106) = _
    rw [S17_main_v21 m c, hy1, S17_main_v0 m c, hmea, hM1]; rfl
  exact
    { y := ((S18_keep m c main_v73 (by decide)).trans ((S17_keep m c main_v73 (by decide)).trans (S16_keep m c main_v73 (by decide)))).trans hy2
      z := ((S18_keep m c main_v74 (by decide)).trans ((S17_keep m c main_v74 (by decide)).trans (S16_keep m c main_v74 (by decide)))).trans hz2
      EP := hEP2
      mea := ((S18_keep m c main_v0 (by decide)).trans (S17_main_v0 m c)).trans hmea
      w1b := ((S18_keep m c main_v1 (by decide)).trans ((S17_keep m c main_v1 (by decide)).trans ((S16_keep m c main_v1 (by decide)).trans ((S15_keep m c main_v1 (by decide)).trans ((S14_keep m c main_v1 (by decide)).trans (S13_main_v1 m c))))))
      feat := S18_arg m c main_arg0 (by decide)
      adj := S18_arg m c main_arg6 (by decide)
      ev := S18_arg m c main_arg8 (by decide)
      ei := S18_arg m c main_arg9 (by decide)
      ej := S18_arg m c main_arg10 (by decide)
      w2w := S18_arg m c main_arg4 (by decide)
      w2b := S18_arg m c main_arg5 (by decide) }

end Cert.KernelIdeal.Run
-- ==== Proof.KI.Value8.lean ====
/- Region 8 of @main, value side: a later layer's two adjacency products as functions of the arrays the region is
   entered with.

   With A = adj ⊙ EP + mea (4096 x 4096, ⊙ the entrywise product) the region computes  oy = A · y  and  oz = A · z
   (y, z of 4096 x 256) in 32 row tiles: at grid point t it reads rows 128 t … 128 t + 127 of adj, EP and mea and the
   whole of y and z, and writes the same rows of both products, each entry the sum over the 4096 contracted positions of
   the products (a change of float format is the identity on the extended reals, and a sum started from the zero
   accumulator is the sum).  Row r of a product depends on row r of the three left arrays alone, so what each point
   writes back is its row tile of the whole-array function
       out p q = Σ_k (adj p k · EP p k + mea p k) · r k q        (r = y, z);
   the 32 row tiles cover the array (row p lies in tile p / 128), so after the region each array IS that function. -/
import proofs.«169176_j23261542875327_2_alg».proof.Proof.KI.Region8
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal Cert.KernelIdeal.Gen Cert.KernelIdeal.Regs
open Idealize.ShloMosaic Idealize.ShloMosaic.TcCoe Idealize.SL.Sem Idealize.ShloMosaic.ValueIdx
open Idealize.ShloMosaic.Pipeline (Dat)

-- what the TensorCore's buffers hold when the region is entered
variable (V : (c : Dev nD) → (b : Ref sig .tc) → Buf (Elt Ideal) ((c : Thread nD τ).loc b))

/-- The zero offsets of a whole-block rectangle, as the constant function. -/
theorem zeros8 : (![0, 0] : Fin 2 → Nat) = fun _ => 0 := funext fun a => by fin_cases a <;> rfl

/-- The product of `a ⊙ e + m` with a fourth array, entry by entry: out p q = Σ_k (a p k · e p k + m p k) · r k q. -/
def mixProd8 (a e m : S4096x4096.Idx → EReal) (r : S4096x256.Idx → EReal) : S4096x256.Idx → EReal :=
  fun i => ∑ k : Fin 4096, (a (ix2 (i 0) k) * e (ix2 (i 0) k) + m (ix2 (i 0) k)) * r (ix2 k (i 1))

/-- The index maps at every grid point: the three row tiles and the two product tiles move together along the rows
    and sit at column block 0; the right operands' blocks never move. -/
theorem idx8 : ∀ t : Fin cfg8.N, win8_0.index t (0 : Fin 2) = win8_5.index t (0 : Fin 2)
    ∧ win8_0.index t (1 : Fin 2) = 0
    ∧ win8_1.index t (0 : Fin 2) = win8_5.index t (0 : Fin 2)
    ∧ win8_1.index t (1 : Fin 2) = 0
    ∧ win8_2.index t (0 : Fin 2) = win8_5.index t (0 : Fin 2)
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (1 : Fin 2) = 0
    ∧ win8_6.index t (0 : Fin 2) = win8_5.index t (0 : Fin 2)
    ∧ win8_6.index t (1 : Fin 2) = 0 :=
  (by decide +kernel : ∀ t : Fin grid8.N, _)

/-- Every row tile is some grid point's, for both products. -/
theorem onto8 : ∀ q0 : Fin 32, ∃ t : Fin cfg8.N, win8_5.index t = ![q0.val, 0] ∧ win8_6.index t = ![q0.val, 0] :=
  (by decide +kernel : ∀ q0 : Fin 32, ∃ t : Fin grid8.N, win8_5.index t = ![q0.val, 0] ∧ win8_6.index t = ![q0.val, 0])

/-! ## Output window 5: oy = (adj ⊙ EP + mea) · y, the left factor and y read as bf16 -/

/-- The body's payload for window 5 at an entry of the product tile: the contraction over the 4096 shared positions of
    the combined row against the right operand's column. -/
theorem pay8_5_at (x0 x1 x2 : Vec Ideal S128x4096 .f32) (x3 : Vec Ideal S4096x256 .bf16) (p : Fin 128) (q : Fin 256) :
    k8_pay2 (F := Ideal) x0 x1 x2 x3 (ix2 p q)
      = ∑ k : Fin 4096, (x0 (ix2 p k) * x1 (ix2 p k) + x2 (ix2 p k)) * x3 (ix2 k q) := by
  unfold k8_pay2 k8_pay1
  simp only [shapeCast_self, matmul]
  rw [Ideal.matmul_constant_zero_apply,
    ← Equiv.sum_comp (contrEquiv1 dot_S128x4096_S4096x256_S128x256_1_0_0_1_n_n 4096 rfl rfl).symm]
  refine Finset.sum_congr rfl fun k _ => ?_
  have ck := contrEquiv1_symm_val dot_S128x4096_S4096x256_S128x256_1_0_0_1_n_n 4096 rfl rfl k
  have hl : DotDims.lhsIdx dot_S128x4096_S4096x256_S128x256_1_0_0_1_n_n (ix2 p q)
      ((contrEquiv1 dot_S128x4096_S4096x256_S128x256_1_0_0_1_n_n 4096 rfl rfl).symm k) = ix2 p k := by
    funext ax; apply Fin.ext
    match ax with
    | ⟨0, _⟩ => simp [DotDims.lhsIdx, dot_S128x4096_S4096x256_S128x256_1_0_0_1_n_n]; rfl
    | ⟨1, _⟩ => simp [DotDims.lhsIdx, dot_S128x4096_S4096x256_S128x256_1_0_0_1_n_n]; exact ck
  have hr : DotDims.rhsIdx dot_S128x4096_S4096x256_S128x256_1_0_0_1_n_n (ix2 p q)
      ((contrEquiv1 dot_S128x4096_S4096x256_S128x256_1_0_0_1_n_n 4096 rfl rfl).symm k) = ix2 k q := by
    funext ax; apply Fin.ext
    match ax with
    | ⟨0, _⟩ => simp [DotDims.rhsIdx, dot_S128x4096_S4096x256_S128x256_1_0_0_1_n_n]; exact ck
    | ⟨1, _⟩ => simp [DotDims.rhsIdx, dot_S128x4096_S4096x256_S128x256_1_0_0_1_n_n]; rfl
  rw [hl, hr]
  rfl

/-- The same at any entry of the product tile, named by its two coordinates. -/
theorem pay8_5_idx (x0 x1 x2 : Vec Ideal S128x4096 .f32) (x3 : Vec Ideal S4096x256 .bf16) (j : S128x256.Idx) :
    k8_pay2 (F := Ideal) x0 x1 x2 x3 j
      = ∑ k : Fin 4096, (x0 (ix2 (j 0) k) * x1 (ix2 (j 0) k) + x2 (ix2 (j 0) k)) * x3 (ix2 k (j 1)) := by
  obtain ⟨p, q, rfl⟩ : ∃ (p : Fin 128) (q : Fin 256), j = ix2 p q := ⟨j 0, j 1, eq_ix2 j⟩
  exact pay8_5_at x0 x1 x2 x3 p q

/-- Tiles whose rows are rows of the three left arrays, against a block that is the right array, give those rows of
    the whole-array function. -/
theorem pay8_5_rows (A E M : S4096x4096.Idx → EReal) (R : S4096x256.Idx → EReal)
    (x0 x1 x2 : Vec Ideal S128x4096 .f32) (x3 : Vec Ideal S4096x256 .bf16) (j : S128x256.Idx) (i : S4096x256.Idx)
    (h0 : ∀ k : Fin 4096, x0 (ix2 (j 0) k) = A (ix2 (i 0) k)) (h1 : ∀ k : Fin 4096, x1 (ix2 (j 0) k) = E (ix2 (i 0) k))
    (h2 : ∀ k : Fin 4096, x2 (ix2 (j 0) k) = M (ix2 (i 0) k))
    (h3 : ∀ k : Fin 4096, x3 (ix2 k (j 1)) = R (ix2 k (i 1))) :
    k8_pay2 (F := Ideal) x0 x1 x2 x3 j = mixProd8 A E M R i := by
  rw [pay8_5_idx]
  exact Finset.sum_congr rfl fun k _ => by rw [h0 k, h1 k, h2 k, h3 k]

set_option maxHeartbeats 2000000 in
/-- What grid point t writes back through window 5 is its row tile of the whole-array function. -/
theorem flushed8_5 (c : Dev nD) (t : Fin cfg8.N) :
    (dat8 (F := Ideal) V c).flushed 5 t
      = ((cfg8.win 5).blk t).view.read (Elt Ideal) (mixProd8 (V c main_arg6) (V c main_v107) (V c main_v0) (V c main_v108)) := by
  show (cfg8.win 5).cut (grid8.coords t) ((dat8 (F := Ideal) V c).after 5 t) = _
  rw [dat8_after_5]
  unfold left8_5
  rw [View.canon_unit_zero zeros8]
  simp only [View.ld_unit_zero (S := S128x4096) zeros8, View.ld_unit_zero (S := S4096x256) zeros8]
  obtain ⟨e0, e1, e2, e3, e4, e5, e6, e7, e8, e9, e10, e11, e12⟩ := idx8 t
  funext j
  refine pay8_5_rows (V c main_arg6) (V c main_v107) (V c main_v0) (V c main_v108) _ _ _ _ _ (((cfg8.win 5).blk t).view.emb j)
    (fun k => ?_) (fun k => ?_) (fun k => ?_) (fun k => ?_)
  · show V c main_arg6 (((cfg8.win 0).blk t).view.emb (ix2 (j 0) k)) = V c main_arg6 (ix2 ((((cfg8.win 5).blk t).view.emb j) 0) k)
    refine congrArg (V c main_arg6) ?_
    funext a; apply Fin.ext
    match a with
    | ⟨0, _⟩ => show win8_0.index t (0 : Fin 2) * 128 + 1 * (j 0).val = win8_5.index t (0 : Fin 2) * 128 + 1 * (j 0).val; rw [e0]
    | ⟨1, _⟩ => show win8_0.index t (1 : Fin 2) * 4096 + 1 * k.val = k.val; rw [e1]; omega
  · show V c main_v107 (((cfg8.win 1).blk t).view.emb (ix2 (j 0) k)) = V c main_v107 (ix2 ((((cfg8.win 5).blk t).view.emb j) 0) k)
    refine congrArg (V c main_v107) ?_
    funext a; apply Fin.ext
    match a with
    | ⟨0, _⟩ => show win8_1.index t (0 : Fin 2) * 128 + 1 * (j 0).val = win8_5.index t (0 : Fin 2) * 128 + 1 * (j 0).val; rw [e2]
    | ⟨1, _⟩ => show win8_1.index t (1 : Fin 2) * 4096 + 1 * k.val = k.val; rw [e3]; omega
  · show V c main_v0 (((cfg8.win 2).blk t).view.emb (ix2 (j 0) k)) = V c main_v0 (ix2 ((((cfg8.win 5).blk t).view.emb j) 0) k)
    refine congrArg (V c main_v0) ?_
    funext a; apply Fin.ext
    match a with
    | ⟨0, _⟩ => show win8_2.index t (0 : Fin 2) * 128 + 1 * (j 0).val = win8_5.index t (0 : Fin 2) * 128 + 1 * (j 0).val; rw [e4]
    | ⟨1, _⟩ => show win8_2.index t (1 : Fin 2) * 4096 + 1 * k.val = k.val; rw [e5]; omega
  · show V c main_v108 (((cfg8.win 3).blk t).view.emb (ix2 k (j 1))) = V c main_v108 (ix2 k ((((cfg8.win 5).blk t).view.emb j) 1))
    refine congrArg (V c main_v108) ?_
    funext a; apply Fin.ext
    match a with
    | ⟨0, _⟩ => show win8_3.index t (0 : Fin 2) * 4096 + 1 * k.val = k.val; rw [e6]; omega
    | ⟨1, _⟩ => show win8_3.index t (1 : Fin 2) * 256 + 1 * (j 1).val = win8_5.index t (1 : Fin 2) * 256 + 1 * (j 1).val; rw [e7, e10]

/-- An entry of the array is in point t's tile iff each coordinate is in the tile's range on its axis. -/
theorem mem_blk8_5 (t : Fin cfg8.N) (i : S4096x256.Idx) :
    i ∈ ((cfg8.win 5).blk t).view.set
      ↔ ∀ a : Fin 2, win8_5.index t a * S128x256.size a ≤ (i a).val
          ∧ (i a).val < win8_5.index t a * S128x256.size a + S128x256.size a := by
  show i ∈ ((View.whole main_v109_0).slice (win8_5.rect t)).set ↔ _
  rw [View.set_slice_whole, Rect.mem_set_unit]
  exact Iff.rfl

/-- The row tiles cover the array: row p is in the tile of the point whose index is (p / 128, 0). -/
theorem cover8_5 (i : S4096x256.Idx) :
    ∃ t : Fin cfg8.N, (cfg8.win 5).flush t = true ∧ i ∈ ((cfg8.win 5).blk t).view.set := by
  have hi0 : (i 0).val < 4096 := (i 0).isLt
  have hi1 : (i 1).val < 256 := (i 1).isLt
  obtain ⟨t, ht5, ht6⟩ := onto8 ⟨(i 0).val / 128, by omega⟩
  have q0 : win8_5.index t (0 : Fin 2) = (i 0).val / 128 := congrFun ht5 0
  have q1 : win8_5.index t (1 : Fin 2) = 0 := congrFun ht5 1
  refine ⟨t, flush8_5 t, ?_⟩
  rw [mem_blk8_5]
  intro a
  match a with
  | ⟨0, _⟩ => show win8_5.index t (0 : Fin 2) * 128 ≤ (i 0).val ∧ (i 0).val < win8_5.index t (0 : Fin 2) * 128 + 128; omega
  | ⟨1, _⟩ => show win8_5.index t (1 : Fin 2) * 256 ≤ (i 1).val ∧ (i 1).val < win8_5.index t (1 : Fin 2) * 256 + 256; omega

/-- After the region the array of window 5 is the whole-array function of the arrays the region found. -/
theorem arr8_5 (c : Dev nD) :
    (dat8 (F := Ideal) V c).arrAt 5 cfg8.N = mixProd8 (V c main_arg6) (V c main_v107) (V c main_v0) (V c main_v108) :=
  (dat8 (F := Ideal) V c).arrAt_eq_of_cover 5 (mixProd8 (V c main_arg6) (V c main_v107) (V c main_v0) (V c main_v108))
    (fun t _ => flushed8_5 V c t) cover8_5

/-- Entry by entry: out p q = Σ_k (adj p k · EP p k + mea p k) · r k q. -/
theorem value8_5 (c : Dev nD) (p : Fin 4096) (q : Fin 256) :
    @Eq EReal ((dat8 (F := Ideal) V c).arrAt 5 cfg8.N (ix2 p q))
      (∑ k : Fin 4096, HMul.hMul (α := EReal) (β := EReal) (γ := EReal)
        (HAdd.hAdd (α := EReal) (β := EReal) (γ := EReal)
          (HMul.hMul (α := EReal) (β := EReal) (γ := EReal) (V c main_arg6 (ix2 p k)) (V c main_v107 (ix2 p k)))
          (V c main_v0 (ix2 p k)))
        (V c main_v108 (ix2 k q))) :=
  congrFun (arr8_5 V c) (ix2 p q)

/-! ## Output window 6: oz = (adj ⊙ EP + mea) · z at full precision -/

/-- The body's payload for window 6 at an entry of the product tile: the contraction over the 4096 shared positions of
    the combined row against the right operand's column. -/
theorem pay8_6_at (x0 x1 x2 : Vec Ideal S128x4096 .f32) (x4 : Vec Ideal S4096x256 .f32) (p : Fin 128) (q : Fin 256) :
    k8_pay3 (F := Ideal) x0 x1 x2 x4 (ix2 p q)
      = ∑ k : Fin 4096, (x0 (ix2 p k) * x1 (ix2 p k) + x2 (ix2 p k)) * x4 (ix2 k q) := by
  unfold k8_pay3 k8_pay1
  simp only [shapeCast_self, matmul]
  rw [Ideal.matmul_constant_zero_apply,
    ← Equiv.sum_comp (contrEquiv1 dot_S128x4096_S4096x256_S128x256_1_0_0_1_n_n 4096 rfl rfl).symm]
  refine Finset.sum_congr rfl fun k _ => ?_
  have ck := contrEquiv1_symm_val dot_S128x4096_S4096x256_S128x256_1_0_0_1_n_n 4096 rfl rfl k
  have hl : DotDims.lhsIdx dot_S128x4096_S4096x256_S128x256_1_0_0_1_n_n (ix2 p q)
      ((contrEquiv1 dot_S128x4096_S4096x256_S128x256_1_0_0_1_n_n 4096 rfl rfl).symm k) = ix2 p k := by
    funext ax; apply Fin.ext
    match ax with
    | ⟨0, _⟩ => simp [DotDims.lhsIdx, dot_S128x4096_S4096x256_S128x256_1_0_0_1_n_n]; rfl
    | ⟨1, _⟩ => simp [DotDims.lhsIdx, dot_S128x4096_S4096x256_S128x256_1_0_0_1_n_n]; exact ck
  have hr : DotDims.rhsIdx dot_S128x4096_S4096x256_S128x256_1_0_0_1_n_n (ix2 p q)
      ((contrEquiv1 dot_S128x4096_S4096x256_S128x256_1_0_0_1_n_n 4096 rfl rfl).symm k) = ix2 k q := by
    funext ax; apply Fin.ext
    match ax with
    | ⟨0, _⟩ => simp [DotDims.rhsIdx, dot_S128x4096_S4096x256_S128x256_1_0_0_1_n_n]; exact ck
    | ⟨1, _⟩ => simp [DotDims.rhsIdx, dot_S128x4096_S4096x256_S128x256_1_0_0_1_n_n]; rfl
  rw [hl, hr]
  rfl

/-- The same at any entry of the product tile, named by its two coordinates. -/
theorem pay8_6_idx (x0 x1 x2 : Vec Ideal S128x4096 .f32) (x4 : Vec Ideal S4096x256 .f32) (j : S128x256.Idx) :
    k8_pay3 (F := Ideal) x0 x1 x2 x4 j
      = ∑ k : Fin 4096, (x0 (ix2 (j 0) k) * x1 (ix2 (j 0) k) + x2 (ix2 (j 0) k)) * x4 (ix2 k (j 1)) := by
  obtain ⟨p, q, rfl⟩ : ∃ (p : Fin 128) (q : Fin 256), j = ix2 p q := ⟨j 0, j 1, eq_ix2 j⟩
  exact pay8_6_at x0 x1 x2 x4 p q

/-- Tiles whose rows are rows of the three left arrays, against a block that is the right array, give those rows of
    the whole-array function. -/
theorem pay8_6_rows (A E M : S4096x4096.Idx → EReal) (R : S4096x256.Idx → EReal)
    (x0 x1 x2 : Vec Ideal S128x4096 .f32) (x4 : Vec Ideal S4096x256 .f32) (j : S128x256.Idx) (i : S4096x256.Idx)
    (h0 : ∀ k : Fin 4096, x0 (ix2 (j 0) k) = A (ix2 (i 0) k)) (h1 : ∀ k : Fin 4096, x1 (ix2 (j 0) k) = E (ix2 (i 0) k))
    (h2 : ∀ k : Fin 4096, x2 (ix2 (j 0) k) = M (ix2 (i 0) k))
    (h3 : ∀ k : Fin 4096, x4 (ix2 k (j 1)) = R (ix2 k (i 1))) :
    k8_pay3 (F := Ideal) x0 x1 x2 x4 j = mixProd8 A E M R i := by
  rw [pay8_6_idx]
  exact Finset.sum_congr rfl fun k _ => by rw [h0 k, h1 k, h2 k, h3 k]

set_option maxHeartbeats 2000000 in
/-- What grid point t writes back through window 6 is its row tile of the whole-array function. -/
theorem flushed8_6 (c : Dev nD) (t : Fin cfg8.N) :
    (dat8 (F := Ideal) V c).flushed 6 t
      = ((cfg8.win 6).blk t).view.read (Elt Ideal) (mixProd8 (V c main_arg6) (V c main_v107) (V c main_v0) (V c main_v74)) := by
  show (cfg8.win 6).cut (grid8.coords t) ((dat8 (F := Ideal) V c).after 6 t) = _
  rw [dat8_after_6]
  unfold left8_6
  rw [View.canon_unit_zero zeros8]
  simp only [View.ld_unit_zero (S := S128x4096) zeros8, View.ld_unit_zero (S := S4096x256) zeros8]
  obtain ⟨e0, e1, e2, e3, e4, e5, e6, e7, e8, e9, e10, e11, e12⟩ := idx8 t
  funext j
  refine pay8_6_rows (V c main_arg6) (V c main_v107) (V c main_v0) (V c main_v74) _ _ _ _ _ (((cfg8.win 6).blk t).view.emb j)
    (fun k => ?_) (fun k => ?_) (fun k => ?_) (fun k => ?_)
  · show V c main_arg6 (((cfg8.win 0).blk t).view.emb (ix2 (j 0) k)) = V c main_arg6 (ix2 ((((cfg8.win 6).blk t).view.emb j) 0) k)
    refine congrArg (V c main_arg6) ?_
    funext a; apply Fin.ext
    match a with
    | ⟨0, _⟩ => show win8_0.index t (0 : Fin 2) * 128 + 1 * (j 0).val = win8_6.index t (0 : Fin 2) * 128 + 1 * (j 0).val; rw [e0, e11]
    | ⟨1, _⟩ => show win8_0.index t (1 : Fin 2) * 4096 + 1 * k.val = k.val; rw [e1]; omega
  · show V c main_v107 (((cfg8.win 1).blk t).view.emb (ix2 (j 0) k)) = V c main_v107 (ix2 ((((cfg8.win 6).blk t).view.emb j) 0) k)
    refine congrArg (V c main_v107) ?_
    funext a; apply Fin.ext
    match a with
    | ⟨0, _⟩ => show win8_1.index t (0 : Fin 2) * 128 + 1 * (j 0).val = win8_6.index t (0 : Fin 2) * 128 + 1 * (j 0).val; rw [e2, e11]
    | ⟨1, _⟩ => show win8_1.index t (1 : Fin 2) * 4096 + 1 * k.val = k.val; rw [e3]; omega
  · show V c main_v0 (((cfg8.win 2).blk t).view.emb (ix2 (j 0) k)) = V c main_v0 (ix2 ((((cfg8.win 6).blk t).view.emb j) 0) k)
    refine congrArg (V c main_v0) ?_
    funext a; apply Fin.ext
    match a with
    | ⟨0, _⟩ => show win8_2.index t (0 : Fin 2) * 128 + 1 * (j 0).val = win8_6.index t (0 : Fin 2) * 128 + 1 * (j 0).val; rw [e4, e11]
    | ⟨1, _⟩ => show win8_2.index t (1 : Fin 2) * 4096 + 1 * k.val = k.val; rw [e5]; omega
  · show V c main_v74 (((cfg8.win 4).blk t).view.emb (ix2 k (j 1))) = V c main_v74 (ix2 k ((((cfg8.win 6).blk t).view.emb j) 1))
    refine congrArg (V c main_v74) ?_
    funext a; apply Fin.ext
    match a with
    | ⟨0, _⟩ => show win8_4.index t (0 : Fin 2) * 4096 + 1 * k.val = k.val; rw [e8]; omega
    | ⟨1, _⟩ => show win8_4.index t (1 : Fin 2) * 256 + 1 * (j 1).val = win8_6.index t (1 : Fin 2) * 256 + 1 * (j 1).val; rw [e9, e12]

/-- An entry of the array is in point t's tile iff each coordinate is in the tile's range on its axis. -/
theorem mem_blk8_6 (t : Fin cfg8.N) (i : S4096x256.Idx) :
    i ∈ ((cfg8.win 6).blk t).view.set
      ↔ ∀ a : Fin 2, win8_6.index t a * S128x256.size a ≤ (i a).val
          ∧ (i a).val < win8_6.index t a * S128x256.size a + S128x256.size a := by
  show i ∈ ((View.whole main_v109_1).slice (win8_6.rect t)).set ↔ _
  rw [View.set_slice_whole, Rect.mem_set_unit]
  exact Iff.rfl

/-- The row tiles cover the array: row p is in the tile of the point whose index is (p / 128, 0). -/
theorem cover8_6 (i : S4096x256.Idx) :
    ∃ t : Fin cfg8.N, (cfg8.win 6).flush t = true ∧ i ∈ ((cfg8.win 6).blk t).view.set := by
  have hi0 : (i 0).val < 4096 := (i 0).isLt
  have hi1 : (i 1).val < 256 := (i 1).isLt
  obtain ⟨t, ht5, ht6⟩ := onto8 ⟨(i 0).val / 128, by omega⟩
  have q0 : win8_6.index t (0 : Fin 2) = (i 0).val / 128 := congrFun ht6 0
  have q1 : win8_6.index t (1 : Fin 2) = 0 := congrFun ht6 1
  refine ⟨t, flush8_6 t, ?_⟩
  rw [mem_blk8_6]
  intro a
  match a with
  | ⟨0, _⟩ => show win8_6.index t (0 : Fin 2) * 128 ≤ (i 0).val ∧ (i 0).val < win8_6.index t (0 : Fin 2) * 128 + 128; omega
  | ⟨1, _⟩ => show win8_6.index t (1 : Fin 2) * 256 ≤ (i 1).val ∧ (i 1).val < win8_6.index t (1 : Fin 2) * 256 + 256; omega

/-- After the region the array of window 6 is the whole-array function of the arrays the region found. -/
theorem arr8_6 (c : Dev nD) :
    (dat8 (F := Ideal) V c).arrAt 6 cfg8.N = mixProd8 (V c main_arg6) (V c main_v107) (V c main_v0) (V c main_v74) :=
  (dat8 (F := Ideal) V c).arrAt_eq_of_cover 6 (mixProd8 (V c main_arg6) (V c main_v107) (V c main_v0) (V c main_v74))
    (fun t _ => flushed8_6 V c t) cover8_6

/-- Entry by entry: out p q = Σ_k (adj p k · EP p k + mea p k) · r k q. -/
theorem value8_6 (c : Dev nD) (p : Fin 4096) (q : Fin 256) :
    @Eq EReal ((dat8 (F := Ideal) V c).arrAt 6 cfg8.N (ix2 p q))
      (∑ k : Fin 4096, HMul.hMul (α := EReal) (β := EReal) (γ := EReal)
        (HAdd.hAdd (α := EReal) (β := EReal) (γ := EReal)
          (HMul.hMul (α := EReal) (β := EReal) (γ := EReal) (V c main_arg6 (ix2 p k)) (V c main_v107 (ix2 p k)))
          (V c main_v0 (ix2 p k)))
        (V c main_v74 (ix2 k q))) :=
  congrFun (arr8_6 V c) (ix2 p q)

end Cert.KernelIdeal.Vals

end
-- ==== Proof.KI.Value9.lean ====
/- Region 9 of @main, value side: a tall matrix product with the left factor transposed, as one function of the arrays
   the region is entered with.

   The region computes  out = Aᵀ · B  for A of 4096 x 4096 and B of 4096 x 256 in eight row tiles of the result: at
   grid point t it reads columns 512 t … 512 t + 511 of A (a 4096 x 512 strip) and the whole of B and writes rows
   512 t … 512 t + 511 of out, each entry the sum over the 4096 shared rows of the products (a change of float format
   is the identity on the extended reals, and a sum started from the zero accumulator is the sum).  Row r of Aᵀ · B
   depends on column r of A alone, so what each point writes back is its row tile of the whole-array function
       out p q = Σ_k A k p · B k q ;
   the eight row tiles cover the array (row p lies in tile p / 512), so after the region the array IS that function. -/
import proofs.«169176_j23261542875327_2_alg».proof.Proof.KI.Region9
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal Cert.KernelIdeal.Gen Cert.KernelIdeal.Regs
open Idealize.ShloMosaic Idealize.ShloMosaic.TcCoe Idealize.SL.Sem Idealize.ShloMosaic.ValueIdx
open Idealize.ShloMosaic.Pipeline (Dat)

-- what the TensorCore's buffers hold when the region is entered
variable (V : (c : Dev nD) → (b : Ref sig .tc) → Buf (Elt Ideal) ((c : Thread nD τ).loc b))

/-- The zero offsets of a whole-block rectangle, as the constant function. -/
theorem zeros9 : (![0, 0] : Fin 2 → Nat) = fun _ => 0 := funext fun a => by fin_cases a <;> rfl

/-- The transposed product of whole arrays, entry by entry: out p q = Σ_k a k p · b k q. -/
def mmT9 (a : S4096x4096.Idx → EReal) (b : S4096x256.Idx → EReal) : S4096x256.Idx → EReal :=
  fun i => ∑ k : Fin 4096, a (ix2 k (i 0)) * b (ix2 k (i 1))

/-- The body's payload on a column strip and the right matrix, at an entry of the output tile: the contraction over
    the 4096 shared rows. -/
theorem pay9_at (x0 : Vec Ideal S4096x512 .f32) (x1 : Vec Ideal S4096x256 .f32) (p : Fin 512) (q : Fin 256) :
    k9_pay1 (F := Ideal) x0 x1 (ix2 p q) = ∑ k : Fin 4096, x0 (ix2 k p) * x1 (ix2 k q) := by
  unfold k9_pay1
  simp only [shapeCast_self, matmul]
  rw [Ideal.matmul_constant_zero_apply,
    ← Equiv.sum_comp (contrEquiv1 dot_S4096x512_S4096x256_S512x256_0_0_1_1_n_n 4096 rfl rfl).symm]
  refine Finset.sum_congr rfl fun k _ => ?_
  have ck := contrEquiv1_symm_val dot_S4096x512_S4096x256_S512x256_0_0_1_1_n_n 4096 rfl rfl k
  have hl : DotDims.lhsIdx dot_S4096x512_S4096x256_S512x256_0_0_1_1_n_n (ix2 p q)
      ((contrEquiv1 dot_S4096x512_S4096x256_S512x256_0_0_1_1_n_n 4096 rfl rfl).symm k) = ix2 k p := by
    funext ax; apply Fin.ext
    match ax with
    | ⟨0, _⟩ => simp [DotDims.lhsIdx, dot_S4096x512_S4096x256_S512x256_0_0_1_1_n_n]; exact ck
    | ⟨1, _⟩ => simp [DotDims.lhsIdx, dot_S4096x512_S4096x256_S512x256_0_0_1_1_n_n]; rfl
  have hr : DotDims.rhsIdx dot_S4096x512_S4096x256_S512x256_0_0_1_1_n_n (ix2 p q)
      ((contrEquiv1 dot_S4096x512_S4096x256_S512x256_0_0_1_1_n_n 4096 rfl rfl).symm k) = ix2 k q := by
    funext ax; apply Fin.ext
    match ax with
    | ⟨0, _⟩ => simp [DotDims.rhsIdx, dot_S4096x512_S4096x256_S512x256_0_0_1_1_n_n]; exact ck
    | ⟨1, _⟩ => simp [DotDims.rhsIdx, dot_S4096x512_S4096x256_S512x256_0_0_1_1_n_n]; rfl
  rw [hl, hr]
  rfl

/-- The same at any entry of the output tile, named by its two coordinates. -/
theorem pay9_idx (x0 : Vec Ideal S4096x512 .f32) (x1 : Vec Ideal S4096x256 .f32) (j : S512x256.Idx) :
    k9_pay1 (F := Ideal) x0 x1 j = ∑ k : Fin 4096, x0 (ix2 k (j 0)) * x1 (ix2 k (j 1)) := by
  obtain ⟨p, q, rfl⟩ : ∃ (p : Fin 512) (q : Fin 256), j = ix2 p q := ⟨j 0, j 1, eq_ix2 j⟩
  exact pay9_at x0 x1 p q

/-- A strip whose columns are columns of A, against a block that is B, gives those rows of the transposed product. -/
theorem pay9_rows (A : S4096x4096.Idx → EReal) (B : S4096x256.Idx → EReal)
    (x0 : Vec Ideal S4096x512 .f32) (x1 : Vec Ideal S4096x256 .f32) (j : S512x256.Idx) (i : S4096x256.Idx)
    (h0 : ∀ k : Fin 4096, x0 (ix2 k (j 0)) = A (ix2 k (i 0))) (h1 : ∀ k : Fin 4096, x1 (ix2 k (j 1)) = B (ix2 k (i 1))) :
    k9_pay1 (F := Ideal) x0 x1 j = mmT9 A B i := by
  rw [pay9_idx]
  exact Finset.sum_congr rfl fun k _ => by rw [h0 k, h1 k]

/-- The index maps at every grid point: the column strip of A sits at row block 0 and moves along the columns as the
    result's row tile moves along the rows; B's block never moves; the result sits at column block 0. -/
theorem idx9 : ∀ t : Fin cfg9.N, win9_0.index t (0 : Fin 2) = 0
    ∧ win9_0.index t (1 : Fin 2) = win9_2.index t (0 : Fin 2)
    ∧ win9_1.index t (0 : Fin 2) = 0
    ∧ win9_1.index t (1 : Fin 2) = 0
    ∧ win9_2.index t (1 : Fin 2) = 0 :=
  (by decide +kernel : ∀ t : Fin grid9.N, _)

/-- Every row tile is some grid point's. -/
theorem onto9 : ∀ q0 : Fin 8, ∃ t : Fin cfg9.N, win9_2.index t = ![q0.val, 0] :=
  (by decide +kernel : ∀ q0 : Fin 8, ∃ t : Fin grid9.N, win9_2.index t = ![q0.val, 0])

set_option maxHeartbeats 1000000 in
/-- What grid point t writes back is its row tile of the whole-array transposed product. -/
theorem flushed9_2 (c : Dev nD) (t : Fin cfg9.N) :
    (dat9 (F := Ideal) V c).flushed 2 t
      = ((cfg9.win 2).blk t).view.read (Elt Ideal) (mmT9 (V c main_v107) (V c main_v73)) := by
  show (cfg9.win 2).cut (grid9.coords t) ((dat9 (F := Ideal) V c).after 2 t) = _
  rw [dat9_after_2]
  unfold left9_2
  rw [View.canon_unit_zero zeros9]
  simp only [View.ld_unit_zero (S := S4096x512) zeros9, View.ld_unit_zero (S := S4096x256) zeros9]
  obtain ⟨e0, e1, e2, e3, e4⟩ := idx9 t
  funext j
  refine pay9_rows (V c main_v107) (V c main_v73) _ _ _ (((cfg9.win 2).blk t).view.emb j) (fun k => ?_) (fun k => ?_)
  · show V c main_v107 (((cfg9.win 0).blk t).view.emb (ix2 k (j 0))) = V c main_v107 (ix2 k ((((cfg9.win 2).blk t).view.emb j) 0))
    congr 1
    funext a; apply Fin.ext
    match a with
    | ⟨0, _⟩ => show win9_0.index t (0 : Fin 2) * 4096 + 1 * k.val = k.val; rw [e0]; omega
    | ⟨1, _⟩ => show win9_0.index t (1 : Fin 2) * 512 + 1 * (j 0).val = win9_2.index t (0 : Fin 2) * 512 + 1 * (j 0).val; rw [e1]
  · show V c main_v73 (((cfg9.win 1).blk t).view.emb (ix2 k (j 1))) = V c main_v73 (ix2 k ((((cfg9.win 2).blk t).view.emb j) 1))
    congr 1
    funext a; apply Fin.ext
    match a with
    | ⟨0, _⟩ => show win9_1.index t (0 : Fin 2) * 4096 + 1 * k.val = k.val; rw [e2]; omega
    | ⟨1, _⟩ => show win9_1.index t (1 : Fin 2) * 256 + 1 * (j 1).val = win9_2.index t (1 : Fin 2) * 256 + 1 * (j 1).val; rw [e3, e4]

/-- An entry of the array is in point t's tile iff each coordinate is in the tile's range on its axis. -/
theorem mem_blk9_2 (t : Fin cfg9.N) (i : S4096x256.Idx) :
    i ∈ ((cfg9.win 2).blk t).view.set
      ↔ ∀ a : Fin 2, win9_2.index t a * S512x256.size a ≤ (i a).val
          ∧ (i a).val < win9_2.index t a * S512x256.size a + S512x256.size a := by
  show i ∈ ((View.whole main_v110).slice (win9_2.rect t)).set ↔ _
  rw [View.set_slice_whole, Rect.mem_set_unit]
  exact Iff.rfl

/-- The row tiles cover the array: row p is in the tile of the point whose index is (p / 512, 0). -/
theorem cover9_2 (i : S4096x256.Idx) :
    ∃ t : Fin cfg9.N, (cfg9.win 2).flush t = true ∧ i ∈ ((cfg9.win 2).blk t).view.set := by
  have hi0 : (i 0).val < 4096 := (i 0).isLt
  have hi1 : (i 1).val < 256 := (i 1).isLt
  obtain ⟨t, ht⟩ := onto9 ⟨(i 0).val / 512, by omega⟩
  have q0 : win9_2.index t (0 : Fin 2) = (i 0).val / 512 := congrFun ht 0
  have q1 : win9_2.index t (1 : Fin 2) = 0 := congrFun ht 1
  refine ⟨t, flush9_2 t, ?_⟩
  rw [mem_blk9_2]
  intro a
  match a with
  | ⟨0, _⟩ => show win9_2.index t (0 : Fin 2) * 512 ≤ (i 0).val ∧ (i 0).val < win9_2.index t (0 : Fin 2) * 512 + 512; omega
  | ⟨1, _⟩ => show win9_2.index t (1 : Fin 2) * 256 ≤ (i 1).val ∧ (i 1).val < win9_2.index t (1 : Fin 2) * 256 + 256; omega

/-- After the region the result array is the transposed product of the two input arrays as the region found them. -/
theorem arr9_2 (c : Dev nD) :
    (dat9 (F := Ideal) V c).arrAt 2 cfg9.N = mmT9 (V c main_v107) (V c main_v73) :=
  (dat9 (F := Ideal) V c).arrAt_eq_of_cover 2 (mmT9 (V c main_v107) (V c main_v73))
    (fun t _ => flushed9_2 V c t) cover9_2

/-- Entry by entry: out p q = Σ_k A k p · B k q. -/
theorem value9_2 (c : Dev nD) (p : Fin 4096) (q : Fin 256) :
    @Eq EReal ((dat9 (F := Ideal) V c).arrAt 2 cfg9.N (ix2 p q))
      (∑ k : Fin 4096, HMul.hMul (α := EReal) (β := EReal) (γ := EReal) (V c main_v107 (ix2 k p)) (V c main_v73 (ix2 k q))) :=
  congrFun (arr9_2 V c) (ix2 p q)

end Cert.KernelIdeal.Vals

end
-- ==== Proof.KI.Value10.lean ====
/- Region 10 of @main, value side: a tall matrix product as one function of the arrays the region is entered with.

   The region computes  out = A · B  for A of 4096 x 4096 and B of 4096 x 256 in eight row tiles: at grid point t it
   reads rows 512 t … 512 t + 511 of A and the whole of B and writes the same rows of out, each entry the sum over the
   4096 contracted positions of the products (a change of float format is the identity on the extended reals, and a
   sum started from the zero accumulator is the sum).  Row r of the product depends on row r of A alone, so what each
   point writes back is its row tile of the whole-array function
       out p q = Σ_k A p k · B k q ;
   the eight row tiles cover the array (row p lies in tile p / 512), so after the region the array IS that function. -/
import proofs.«169176_j23261542875327_2_alg».proof.Proof.KI.Region10
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal Cert.KernelIdeal.Gen Cert.KernelIdeal.Regs
open Idealize.ShloMosaic Idealize.ShloMosaic.TcCoe Idealize.SL.Sem Idealize.ShloMosaic.ValueIdx
open Idealize.ShloMosaic.Pipeline (Dat)

-- what the TensorCore's buffers hold when the region is entered
variable (V : (c : Dev nD) → (b : Ref sig .tc) → Buf (Elt Ideal) ((c : Thread nD τ).loc b))

/-- The zero offsets of a whole-block rectangle, as the constant function. -/
theorem zeros10 : (![0, 0] : Fin 2 → Nat) = fun _ => 0 := funext fun a => by fin_cases a <;> rfl

/-- The product of whole arrays, entry by entry: out p q = Σ_k a p k · b k q. -/
def mm10 (a : S4096x4096.Idx → EReal) (b : S4096x256.Idx → EReal) : S4096x256.Idx → EReal :=
  fun i => ∑ k : Fin 4096, a (ix2 (i 0) k) * b (ix2 k (i 1))

/-- The body's payload on a row tile and the right matrix, at an entry of the output tile: the contraction over the
    4096 shared positions. -/
theorem pay10_at (x0 : Vec Ideal S512x4096 .bf16) (x1 : Vec Ideal S4096x256 .f32) (p : Fin 512) (q : Fin 256) :
    k10_pay1 (F := Ideal) x0 x1 (ix2 p q) = ∑ k : Fin 4096, x0 (ix2 p k) * x1 (ix2 k q) := by
  unfold k10_pay1
  simp only [shapeCast_self, matmul]
  rw [Ideal.matmul_constant_zero_apply,
    ← Equiv.sum_comp (contrEquiv1 dot_S512x4096_S4096x256_S512x256_1_0_0_1_n_n 4096 rfl rfl).symm]
  refine Finset.sum_congr rfl fun k _ => ?_
  have ck := contrEquiv1_symm_val dot_S512x4096_S4096x256_S512x256_1_0_0_1_n_n 4096 rfl rfl k
  have hl : DotDims.lhsIdx dot_S512x4096_S4096x256_S512x256_1_0_0_1_n_n (ix2 p q)
      ((contrEquiv1 dot_S512x4096_S4096x256_S512x256_1_0_0_1_n_n 4096 rfl rfl).symm k) = ix2 p k := by
    funext ax; apply Fin.ext
    match ax with
    | ⟨0, _⟩ => simp [DotDims.lhsIdx, dot_S512x4096_S4096x256_S512x256_1_0_0_1_n_n]; rfl
    | ⟨1, _⟩ => simp [DotDims.lhsIdx, dot_S512x4096_S4096x256_S512x256_1_0_0_1_n_n]; exact ck
  have hr : DotDims.rhsIdx dot_S512x4096_S4096x256_S512x256_1_0_0_1_n_n (ix2 p q)
      ((contrEquiv1 dot_S512x4096_S4096x256_S512x256_1_0_0_1_n_n 4096 rfl rfl).symm k) = ix2 k q := by
    funext ax; apply Fin.ext
    match ax with
    | ⟨0, _⟩ => simp [DotDims.rhsIdx, dot_S512x4096_S4096x256_S512x256_1_0_0_1_n_n]; exact ck
    | ⟨1, _⟩ => simp [DotDims.rhsIdx, dot_S512x4096_S4096x256_S512x256_1_0_0_1_n_n]; rfl
  rw [hl, hr]
  rfl

/-- The same at any entry of the output tile, named by its two coordinates. -/
theorem pay10_idx (x0 : Vec Ideal S512x4096 .bf16) (x1 : Vec Ideal S4096x256 .f32) (j : S512x256.Idx) :
    k10_pay1 (F := Ideal) x0 x1 j = ∑ k : Fin 4096, x0 (ix2 (j 0) k) * x1 (ix2 k (j 1)) := by
  obtain ⟨p, q, rfl⟩ : ∃ (p : Fin 512) (q : Fin 256), j = ix2 p q := ⟨j 0, j 1, eq_ix2 j⟩
  exact pay10_at x0 x1 p q

/-- A tile whose rows are rows of A, against a block that is B, gives those rows of the product. -/
theorem pay10_rows (A : S4096x4096.Idx → EReal) (B : S4096x256.Idx → EReal)
    (x0 : Vec Ideal S512x4096 .bf16) (x1 : Vec Ideal S4096x256 .f32) (j : S512x256.Idx) (i : S4096x256.Idx)
    (h0 : ∀ k : Fin 4096, x0 (ix2 (j 0) k) = A (ix2 (i 0) k)) (h1 : ∀ k : Fin 4096, x1 (ix2 k (j 1)) = B (ix2 k (i 1))) :
    k10_pay1 (F := Ideal) x0 x1 j = mm10 A B i := by
  rw [pay10_idx]
  exact Finset.sum_congr rfl fun k _ => by rw [h0 k, h1 k]

/-- The index maps at every grid point: the row tile of A and of the result move together along the rows and sit at
    column block 0; B's block never moves. -/
theorem idx10 : ∀ t : Fin cfg10.N, win10_0.index t (0 : Fin 2) = win10_2.index t (0 : Fin 2)
    ∧ win10_0.index t (1 : Fin 2) = 0
    ∧ win10_1.index t (0 : Fin 2) = 0
    ∧ win10_1.index t (1 : Fin 2) = 0
    ∧ win10_2.index t (1 : Fin 2) = 0 :=
  (by decide +kernel : ∀ t : Fin grid10.N, _)

/-- Every row tile is some grid point's. -/
theorem onto10 : ∀ q0 : Fin 8, ∃ t : Fin cfg10.N, win10_2.index t = ![q0.val, 0] :=
  (by decide +kernel : ∀ q0 : Fin 8, ∃ t : Fin grid10.N, win10_2.index t = ![q0.val, 0])

set_option maxHeartbeats 1000000 in
/-- What grid point t writes back is its row tile of the whole-array product. -/
theorem flushed10_2 (c : Dev nD) (t : Fin cfg10.N) :
    (dat10 (F := Ideal) V c).flushed 2 t
      = ((cfg10.win 2).blk t).view.read (Elt Ideal) (mm10 (V c main_v1) (V c main_v115)) := by
  show (cfg10.win 2).cut (grid10.coords t) ((dat10 (F := Ideal) V c).after 2 t) = _
  rw [dat10_after_2]
  unfold left10_2
  rw [View.canon_unit_zero zeros10]
  simp only [View.ld_unit_zero (S := S512x4096) zeros10, View.ld_unit_zero (S := S4096x256) zeros10]
  obtain ⟨e0, e1, e2, e3, e4⟩ := idx10 t
  funext j
  refine pay10_rows (V c main_v1) (V c main_v115) _ _ _ (((cfg10.win 2).blk t).view.emb j) (fun k => ?_) (fun k => ?_)
  · show V c main_v1 (((cfg10.win 0).blk t).view.emb (ix2 (j 0) k)) = V c main_v1 (ix2 ((((cfg10.win 2).blk t).view.emb j) 0) k)
    congr 1
    funext a; apply Fin.ext
    match a with
    | ⟨0, _⟩ => show win10_0.index t (0 : Fin 2) * 512 + 1 * (j 0).val = win10_2.index t (0 : Fin 2) * 512 + 1 * (j 0).val; rw [e0]
    | ⟨1, _⟩ => show win10_0.index t (1 : Fin 2) * 4096 + 1 * k.val = k.val; rw [e1]; omega
  · show V c main_v115 (((cfg10.win 1).blk t).view.emb (ix2 k (j 1))) = V c main_v115 (ix2 k ((((cfg10.win 2).blk t).view.emb j) 1))
    congr 1
    funext a; apply Fin.ext
    match a with
    | ⟨0, _⟩ => show win10_1.index t (0 : Fin 2) * 4096 + 1 * k.val = k.val; rw [e2]; omega
    | ⟨1, _⟩ => show win10_1.index t (1 : Fin 2) * 256 + 1 * (j 1).val = win10_2.index t (1 : Fin 2) * 256 + 1 * (j 1).val; rw [e3, e4]

/-- An entry of the array is in point t's tile iff each coordinate is in the tile's range on its axis. -/
theorem mem_blk10_2 (t : Fin cfg10.N) (i : S4096x256.Idx) :
    i ∈ ((cfg10.win 2).blk t).view.set
      ↔ ∀ a : Fin 2, win10_2.index t a * S512x256.size a ≤ (i a).val
          ∧ (i a).val < win10_2.index t a * S512x256.size a + S512x256.size a := by
  show i ∈ ((View.whole main_v116).slice (win10_2.rect t)).set ↔ _
  rw [View.set_slice_whole, Rect.mem_set_unit]
  exact Iff.rfl

/-- The row tiles cover the array: row p is in the tile of the point whose index is (p / 512, 0). -/
theorem cover10_2 (i : S4096x256.Idx) :
    ∃ t : Fin cfg10.N, (cfg10.win 2).flush t = true ∧ i ∈ ((cfg10.win 2).blk t).view.set := by
  have hi0 : (i 0).val < 4096 := (i 0).isLt
  have hi1 : (i 1).val < 256 := (i 1).isLt
  obtain ⟨t, ht⟩ := onto10 ⟨(i 0).val / 512, by omega⟩
  have q0 : win10_2.index t (0 : Fin 2) = (i 0).val / 512 := congrFun ht 0
  have q1 : win10_2.index t (1 : Fin 2) = 0 := congrFun ht 1
  refine ⟨t, flush10_2 t, ?_⟩
  rw [mem_blk10_2]
  intro a
  match a with
  | ⟨0, _⟩ => show win10_2.index t (0 : Fin 2) * 512 ≤ (i 0).val ∧ (i 0).val < win10_2.index t (0 : Fin 2) * 512 + 512; omega
  | ⟨1, _⟩ => show win10_2.index t (1 : Fin 2) * 256 ≤ (i 1).val ∧ (i 1).val < win10_2.index t (1 : Fin 2) * 256 + 256; omega

/-- After the region the result array is the product of the two input arrays as the region found them. -/
theorem arr10_2 (c : Dev nD) :
    (dat10 (F := Ideal) V c).arrAt 2 cfg10.N = mm10 (V c main_v1) (V c main_v115) :=
  (dat10 (F := Ideal) V c).arrAt_eq_of_cover 2 (mm10 (V c main_v1) (V c main_v115))
    (fun t _ => flushed10_2 V c t) cover10_2

/-- Entry by entry: out p q = Σ_k A p k · B k q. -/
theorem value10_2 (c : Dev nD) (p : Fin 4096) (q : Fin 256) :
    @Eq EReal ((dat10 (F := Ideal) V c).arrAt 2 cfg10.N (ix2 p q))
      (∑ k : Fin 4096, HMul.hMul (α := EReal) (β := EReal) (γ := EReal) (V c main_v1 (ix2 p k)) (V c main_v115 (ix2 k q))) :=
  congrFun (arr10_2 V c) (ix2 p q)

end Cert.KernelIdeal.Vals

end
-- ==== Proof.KI.Value11.lean ====
/- Region 11 of @main, value side: the edge-potential update as one function of the arrays the region is entered
   with.

   The region computes  EP = y · yᵀ − mea − ½ M  (y of 4096 x 256; mea, M, EP of 4096 x 4096) in a 4 x 4 grid of
   1024 x 1024 tiles: at grid point (i, j) it reads row blocks i and j of y and tile (i, j) of mea and of M, and writes
   tile (i, j) of EP, each entry the sum over the 256 contracted positions of the products of the two rows of y (a
   change of float format is the identity on the extended reals, and a sum started from the zero accumulator is the
   sum), less the entry of mea, less half the entry of M.  Entry (p, q) depends on rows p and q of y and on entry
   (p, q) of mea and M alone, so what each point writes back is its tile of the whole-array function
       EP p q = ((Σ_l y p l · y q l) − mea p q) − ½ · M p q ;
   the sixteen tiles cover the array (entry (p, q) lies in tile (p / 1024, q / 1024)), so after the region the array
   IS that function. -/
import proofs.«169176_j23261542875327_2_alg».proof.Proof.KI.Region11
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal Cert.KernelIdeal.Gen Cert.KernelIdeal.Regs
open Idealize.ShloMosaic Idealize.ShloMosaic.TcCoe Idealize.SL.Sem Idealize.ShloMosaic.ValueIdx
open Idealize.ShloMosaic.Pipeline (Dat)

-- what the TensorCore's buffers hold when the region is entered
variable (V : (c : Dev nD) → (b : Ref sig .tc) → Buf (Elt Ideal) ((c : Thread nD τ).loc b))

/-- The zero offsets of a whole-block rectangle, as the constant function. -/
theorem zeros11 : (![0, 0] : Fin 2 → Nat) = fun _ => 0 := funext fun a => by fin_cases a <;> rfl

/-- The updated edge potential of whole arrays, entry by entry: out p q = ((Σ_l y p l · y q l) − e p q) − ½ · m p q. -/
def gramUpd11 (y : S4096x256.Idx → EReal) (e m : S4096x4096.Idx → EReal) : S4096x4096.Idx → EReal :=
  fun i => ((∑ l : Fin 256, y (ix2 (i 0) l) * y (ix2 (i 1) l)) - e i) - Ideal.ofBits .f32 0x3F000000#32 * m i

/-- The product of a 1024 x 256 block with the transpose of another into the zero accumulator, at an entry: the sum
    over the 256 shared positions of the products of the two rows. -/
theorem gram11_at (a b : FVec Ideal S1024x256 .bf16) (p q : Fin 1024) :
    matmul dot_S1024x256_S1024x256_S1024x1024_1_1_0_0_n_n none a b (constant (F := Ideal) S1024x1024 .f32 0x00000000#32) (ix2 p q)
      = ∑ l : Fin 256, a (ix2 p l) * b (ix2 q l) := by
  simp only [matmul]
  rw [Ideal.matmul_constant_zero_apply,
    ← Equiv.sum_comp (contrEquiv1 dot_S1024x256_S1024x256_S1024x1024_1_1_0_0_n_n 256 rfl rfl).symm]
  refine Finset.sum_congr rfl fun k _ => ?_
  have ck := contrEquiv1_symm_val dot_S1024x256_S1024x256_S1024x1024_1_1_0_0_n_n 256 rfl rfl k
  have hl : DotDims.lhsIdx dot_S1024x256_S1024x256_S1024x1024_1_1_0_0_n_n (ix2 p q)
      ((contrEquiv1 dot_S1024x256_S1024x256_S1024x1024_1_1_0_0_n_n 256 rfl rfl).symm k) = ix2 p k := by
    funext ax; apply Fin.ext
    match ax with
    | ⟨0, _⟩ => simp [DotDims.lhsIdx, dot_S1024x256_S1024x256_S1024x1024_1_1_0_0_n_n]; rfl
    | ⟨1, _⟩ => simp [DotDims.lhsIdx, dot_S1024x256_S1024x256_S1024x1024_1_1_0_0_n_n]; exact ck
  have hr : DotDims.rhsIdx dot_S1024x256_S1024x256_S1024x1024_1_1_0_0_n_n (ix2 p q)
      ((contrEquiv1 dot_S1024x256_S1024x256_S1024x1024_1_1_0_0_n_n 256 rfl rfl).symm k) = ix2 q k := by
    funext ax; apply Fin.ext
    match ax with
    | ⟨0, _⟩ => simp [DotDims.rhsIdx, dot_S1024x256_S1024x256_S1024x1024_1_1_0_0_n_n]; rfl
    | ⟨1, _⟩ => simp [DotDims.rhsIdx, dot_S1024x256_S1024x256_S1024x1024_1_1_0_0_n_n]; exact ck
  rw [hl, hr]

/-- The body's payload at an entry of the tile. -/
theorem pay11_at (x0 x1 : Vec Ideal S1024x256 .f32) (x2 x3 : Vec Ideal S1024x1024 .f32) (p q : Fin 1024) :
    k11_pay1 (F := Ideal) x0 x1 x2 x3 (ix2 p q)
      = ((∑ l : Fin 256, x0 (ix2 p l) * x1 (ix2 q l)) - x2 (ix2 p q)) - Ideal.ofBits .f32 0x3F000000#32 * x3 (ix2 p q) := by
  unfold k11_pay1
  simp only [shapeCast_self, subf_apply, mulf_apply, broadcast_apply]
  rw [gram11_at]
  rfl

/-- The same at any entry of the tile, named by its two coordinates. -/
theorem pay11_idx (x0 x1 : Vec Ideal S1024x256 .f32) (x2 x3 : Vec Ideal S1024x1024 .f32) (j : S1024x1024.Idx) :
    k11_pay1 (F := Ideal) x0 x1 x2 x3 j
      = ((∑ l : Fin 256, x0 (ix2 (j 0) l) * x1 (ix2 (j 1) l)) - x2 j) - Ideal.ofBits .f32 0x3F000000#32 * x3 j := by
  obtain ⟨p, q, rfl⟩ : ∃ (p : Fin 1024) (q : Fin 1024), j = ix2 p q := ⟨j 0, j 1, eq_ix2 j⟩
  exact pay11_at x0 x1 x2 x3 p q

/-- Blocks whose rows are rows of y, and tiles whose entry is the entry of the two square arrays, give that entry of
    the whole-array function. -/
theorem pay11_rows (Y : S4096x256.Idx → EReal) (E M : S4096x4096.Idx → EReal)
    (x0 x1 : Vec Ideal S1024x256 .f32) (x2 x3 : Vec Ideal S1024x1024 .f32) (j : S1024x1024.Idx) (i : S4096x4096.Idx)
    (h0 : ∀ l : Fin 256, x0 (ix2 (j 0) l) = Y (ix2 (i 0) l)) (h1 : ∀ l : Fin 256, x1 (ix2 (j 1) l) = Y (ix2 (i 1) l))
    (h2 : x2 j = E i) (h3 : x3 j = M i) :
    k11_pay1 (F := Ideal) x0 x1 x2 x3 j = gramUpd11 Y E M i := by
  have hs : (∑ l : Fin 256, x0 (ix2 (j 0) l) * x1 (ix2 (j 1) l)) = ∑ l : Fin 256, Y (ix2 (i 0) l) * Y (ix2 (i 1) l) :=
    Finset.sum_congr rfl fun l _ => by rw [h0 l, h1 l]
  rw [pay11_idx, hs, h2, h3]
  rfl

/-- The index maps at every grid point: the first block of y sits at the tile's row block and the second at its column
    block, both at column block 0; the tiles of the two square operands sit where the result's tile does. -/
theorem idx11 : ∀ t : Fin cfg11.N, win11_0.index t (0 : Fin 2) = win11_4.index t (0 : Fin 2)
    ∧ win11_0.index t (1 : Fin 2) = 0
    ∧ win11_1.index t (0 : Fin 2) = win11_4.index t (1 : Fin 2)
    ∧ win11_1.index t (1 : Fin 2) = 0
    ∧ win11_2.index t (0 : Fin 2) = win11_4.index t (0 : Fin 2)
    ∧ win11_2.index t (1 : Fin 2) = win11_4.index t (1 : Fin 2)
    ∧ win11_3.index t (0 : Fin 2) = win11_4.index t (0 : Fin 2)
    ∧ win11_3.index t (1 : Fin 2) = win11_4.index t (1 : Fin 2) :=
  (by decide +kernel : ∀ t : Fin grid11.N, _)

/-- Every tile is some grid point's. -/
theorem onto11 : ∀ q0 q1 : Fin 4, ∃ t : Fin cfg11.N, win11_4.index t = ![q0.val, q1.val] :=
  (by decide +kernel : ∀ q0 q1 : Fin 4, ∃ t : Fin grid11.N, win11_4.index t = ![q0.val, q1.val])

/-- What grid point t writes back is its tile of the whole-array function. -/
theorem flushed11_4 (c : Dev nD) (t : Fin cfg11.N) :
    (dat11 (F := Ideal) V c).flushed 4 t
      = ((cfg11.win 4).blk t).view.read (Elt Ideal) (gramUpd11 (V c main_v73) (V c main_v0) (V c main_v158)) := by
  show (cfg11.win 4).cut (grid11.coords t) ((dat11 (F := Ideal) V c).after 4 t) = _
  rw [dat11_after_4]
  unfold left11_4
  rw [View.canon_unit_zero zeros11]
  simp only [View.ld_unit_zero (S := S1024x256) zeros11, View.ld_unit_zero (S := S1024x1024) zeros11]
  obtain ⟨e0, e1, e2, e3, e4, e5, e6, e7⟩ := idx11 t
  funext j
  refine pay11_rows (V c main_v73) (V c main_v0) (V c main_v158) _ _ _ _ _ (((cfg11.win 4).blk t).view.emb j)
    (fun l => ?_) (fun l => ?_) ?_ ?_
  · show V c main_v73 (((cfg11.win 0).blk t).view.emb (ix2 (j 0) l)) = V c main_v73 (ix2 ((((cfg11.win 4).blk t).view.emb j) 0) l)
    refine congrArg (V c main_v73) ?_
    funext a; apply Fin.ext
    match a with
    | ⟨0, _⟩ => show win11_0.index t (0 : Fin 2) * 1024 + 1 * (j 0).val = win11_4.index t (0 : Fin 2) * 1024 + 1 * (j 0).val; rw [e0]
    | ⟨1, _⟩ => show win11_0.index t (1 : Fin 2) * 256 + 1 * l.val = l.val; rw [e1]; omega
  · show V c main_v73 (((cfg11.win 1).blk t).view.emb (ix2 (j 1) l)) = V c main_v73 (ix2 ((((cfg11.win 4).blk t).view.emb j) 1) l)
    refine congrArg (V c main_v73) ?_
    funext a; apply Fin.ext
    match a with
    | ⟨0, _⟩ => show win11_1.index t (0 : Fin 2) * 1024 + 1 * (j 1).val = win11_4.index t (1 : Fin 2) * 1024 + 1 * (j 1).val; rw [e2]
    | ⟨1, _⟩ => show win11_1.index t (1 : Fin 2) * 256 + 1 * l.val = l.val; rw [e3]; omega
  · show V c main_v0 (((cfg11.win 2).blk t).view.emb j) = V c main_v0 (((cfg11.win 4).blk t).view.emb j)
    refine congrArg (V c main_v0) ?_
    funext a; apply Fin.ext
    match a with
    | ⟨0, _⟩ => show win11_2.index t (0 : Fin 2) * 1024 + 1 * (j 0).val = win11_4.index t (0 : Fin 2) * 1024 + 1 * (j 0).val; rw [e4]
    | ⟨1, _⟩ => show win11_2.index t (1 : Fin 2) * 1024 + 1 * (j 1).val = win11_4.index t (1 : Fin 2) * 1024 + 1 * (j 1).val; rw [e5]
  · show V c main_v158 (((cfg11.win 3).blk t).view.emb j) = V c main_v158 (((cfg11.win 4).blk t).view.emb j)
    refine congrArg (V c main_v158) ?_
    funext a; apply Fin.ext
    match a with
    | ⟨0, _⟩ => show win11_3.index t (0 : Fin 2) * 1024 + 1 * (j 0).val = win11_4.index t (0 : Fin 2) * 1024 + 1 * (j 0).val; rw [e6]
    | ⟨1, _⟩ => show win11_3.index t (1 : Fin 2) * 1024 + 1 * (j 1).val = win11_4.index t (1 : Fin 2) * 1024 + 1 * (j 1).val; rw [e7]

/-- An entry of the array is in point t's tile iff each coordinate is in the tile's range on its axis. -/
theorem mem_blk11_4 (t : Fin cfg11.N) (i : S4096x4096.Idx) :
    i ∈ ((cfg11.win 4).blk t).view.set
      ↔ ∀ a : Fin 2, win11_4.index t a * S1024x1024.size a ≤ (i a).val
          ∧ (i a).val < win11_4.index t a * S1024x1024.size a + S1024x1024.size a := by
  show i ∈ ((View.whole main_v159).slice (win11_4.rect t)).set ↔ _
  rw [View.set_slice_whole, Rect.mem_set_unit]
  exact Iff.rfl

/-- The tiles cover the array: entry (p, q) is in the tile of the point whose index is (p / 1024, q / 1024). -/
theorem cover11_4 (i : S4096x4096.Idx) :
    ∃ t : Fin cfg11.N, (cfg11.win 4).flush t = true ∧ i ∈ ((cfg11.win 4).blk t).view.set := by
  have hi0 : (i 0).val < 4096 := (i 0).isLt
  have hi1 : (i 1).val < 4096 := (i 1).isLt
  obtain ⟨t, ht⟩ := onto11 ⟨(i 0).val / 1024, by omega⟩ ⟨(i 1).val / 1024, by omega⟩
  have q0 : win11_4.index t (0 : Fin 2) = (i 0).val / 1024 := congrFun ht 0
  have q1 : win11_4.index t (1 : Fin 2) = (i 1).val / 1024 := congrFun ht 1
  refine ⟨t, flush11_4 t, ?_⟩
  rw [mem_blk11_4]
  intro a
  match a with
  | ⟨0, _⟩ => show win11_4.index t (0 : Fin 2) * 1024 ≤ (i 0).val ∧ (i 0).val < win11_4.index t (0 : Fin 2) * 1024 + 1024; omega
  | ⟨1, _⟩ => show win11_4.index t (1 : Fin 2) * 1024 ≤ (i 1).val ∧ (i 1).val < win11_4.index t (1 : Fin 2) * 1024 + 1024; omega

/-- After the region the result array is the whole-array function of the arrays the region found. -/
theorem arr11_4 (c : Dev nD) :
    (dat11 (F := Ideal) V c).arrAt 4 cfg11.N = gramUpd11 (V c main_v73) (V c main_v0) (V c main_v158) :=
  (dat11 (F := Ideal) V c).arrAt_eq_of_cover 4 (gramUpd11 (V c main_v73) (V c main_v0) (V c main_v158))
    (fun t _ => flushed11_4 V c t) cover11_4

/-- Entry by entry: EP p q = ((Σ_l y p l · y q l) − mea p q) − ½ · M p q. -/
theorem value11_4 (c : Dev nD) (p q : Fin 4096) :
    @Eq EReal ((dat11 (F := Ideal) V c).arrAt 4 cfg11.N (ix2 p q))
      (HSub.hSub (α := EReal) (β := EReal) (γ := EReal)
        (HSub.hSub (α := EReal) (β := EReal) (γ := EReal)
          (∑ l : Fin 256, HMul.hMul (α := EReal) (β := EReal) (γ := EReal) (V c main_v73 (ix2 p l)) (V c main_v73 (ix2 q l)))
          (V c main_v0 (ix2 p q)))
        (HMul.hMul (α := EReal) (β := EReal) (γ := EReal) (Ideal.ofBits .f32 0x3F000000#32) (V c main_v158 (ix2 p q)))) :=
  congrFun (arr11_4 V c) (ix2 p q)

end Cert.KernelIdeal.Vals

end
-- ==== Proof.KI.HostRead2.lean ====
/-
  Layer 2 of the idealized kernel program, items 19–27 of @main, read at array level.

  The layer is entered with the features y, the positions z and the edge potential EP of the network after 2 layers.
  In the program's order:
      item 19   y rounded to bf16 for the regions                         (host)
      item 20   oy = (adj ∘ EP + mea) · y,  oz = (adj ∘ EP + mea) · z          (region 8)
      item 21   t1 = EPᵀ · y                                                (region 9)
      item 22   temp = (t1 + oy) − y · (yᵀ · y)                             (host)
      item 23   u = w1 · temp                                               (region 10)
      item 24   y' = 0.5 · (1 / (1 + exp (−u))) + feat,  z' = z − oz,
                the differences z[i_e] − z[j_e] of the edges' end rows      (host)
      item 25   their Euclidean norms                                       (host)
      item 26   M: the norms times the edge values, scatter-added           (host)
      item 27   EP' = (y · yᵀ − mea) − 0.5 · M                              (region 11)
  A host stretch's result is read off its operations over an arbitrary start valuation (so that a boundary's
  definition is opened one stretch at a time); a region's result is its whole-array value; every other buffer is
  carried unchanged, item by item (the keep lemmas of the common module).  Together: the state after 2 layers at boundary 18 gives the state after 3
  layers at boundary 27.
-/
import proofs.«169176_j23261542875327_2_alg».proof.Proof.KI.Stages
import proofs.«169176_j23261542875327_2_alg».proof.Proof.KI.HostKeep
import proofs.«169176_j23261542875327_2_alg».proof.Proof.KI.HostAt
import proofs.«169176_j23261542875327_2_alg».proof.Proof.KDefs
import proofs.«169176_j23261542875327_2_alg».proof.Proof.KI.Value8
import proofs.«169176_j23261542875327_2_alg».proof.Proof.KI.Value9
import proofs.«169176_j23261542875327_2_alg».proof.Proof.KI.Value10
import proofs.«169176_j23261542875327_2_alg».proof.Proof.KI.Value11
import Idealize.ShloMosaic.Lib.StableHlo.Run
import Idealize.ShloMosaic.PureOps.Ideal

set_option maxRecDepth 65536

noncomputable section

namespace Cert.KernelIdeal.Run

open Idealize.ShloMosaic Idealize.ShloMosaic.TcCoe Idealize.SL.Sem
open Cert.KernelIdeal Cert.KernelIdeal.Gen Cert.KernelIdeal.GenP Cert.KernelIdeal.Regs Cert.KernelIdeal.Vals

/-- Equality at a stated type: the two sides are buffers' contents and named arrays, equal as arrays of that type. -/
local notation:50 a " =[" T "] " b => @Eq T a b

/-! ## The host stretches, over an arbitrary start -/

theorem ops8_main_v108 (X : Valuation τ sig (Elt Ideal)) :
    StableHlo.after hostOps8 X (Proc.devRef .tc main_v108) =[FVec Ideal S4096x256 .bf16]
      KDefs.bf42 (X (Proc.devRef .tc main_v73)) := by
  after_results_simp; rfl

theorem ops10_main_v115 (X : Valuation τ sig (Elt Ideal)) :
    StableHlo.after hostOps10 X (Proc.devRef .tc main_v115) =[FVec Ideal S4096x256 .f32]
      KDefs.tempOf (X (Proc.devRef .tc main_v110)) (X (Proc.devRef .tc main_v109_0)) (KDefs.gramTimes (X (Proc.devRef .tc main_v73))) := by
  after_results_simp; rfl

set_option maxHeartbeats 4000000 in
theorem ops11_main_v125 (X : Valuation τ sig (Elt Ideal)) :
    StableHlo.after hostOps11 X (Proc.devRef .tc main_v125) =[FVec Ideal S4096x256 .f32]
      KDefs.yNext (KDefs.sigOf (X (Proc.devRef .tc main_v116))) (X (Proc.devRef .tc main_arg0)) := by
  after_results_simp; rfl

set_option maxHeartbeats 4000000 in
theorem ops11_main_v126 (X : Valuation τ sig (Elt Ideal)) :
    StableHlo.after hostOps11 X (Proc.devRef .tc main_v126) =[FVec Ideal S4096x256 .f32]
      KDefs.zNext (X (Proc.devRef .tc main_v74)) (X (Proc.devRef .tc main_v109_1)) := by
  after_results_simp; rfl

set_option maxHeartbeats 4000000 in
theorem ops11_main_v141 (X : Valuation τ sig (Elt Ideal)) :
    StableHlo.after hostOps11 X (Proc.devRef .tc main_v141) =[FVec Ideal S65536x256 .f32]
      KDefs.edgeDiff (X (Proc.devRef .tc main_v74)) (X (Proc.devRef .tc main_arg9)) (X (Proc.devRef .tc main_arg10)) := by
  after_results_simp; rfl

theorem ops11_1_main_v142 (X : Valuation τ sig (Elt Ideal)) :
    StableHlo.after hostOps11_1 X (Proc.devRef .tc main_v142) =[FVec Ideal S65536 .f32]
      KDefs.rowNormE (X (Proc.devRef .tc main_v141)) := by
  after_results_simp; rfl

set_option maxHeartbeats 4000000 in
theorem ops11_2_main_v158 (X : Valuation τ sig (Elt Ideal)) :
    StableHlo.after hostOps11_2 X (Proc.devRef .tc main_v158) =[FVec Ideal S4096x4096 .f32]
      KDefs.edgeM (mulf (F := Ideal) (s := S65536) (φ := .f32) (X (Proc.devRef .tc main_v142)) (X (Proc.devRef .tc main_arg8)))
        (X (Proc.devRef .tc main_arg9)) (X (Proc.devRef .tc main_arg10)) := by
  after_results_simp; rfl

variable (m : (ℓ : Loc nD τ sig) → Buf (Elt Ideal) ℓ)

/-! ## What each region leaves in its output arrays -/

theorem S20_main_v109_0 (c : Dev nD) : S20 m c main_v109_0 = (dat8 (T19 m) c).arrAt 5 cfg8.N := by
  simp only [S20, Function.update_of_ne (StableHlo.devRef_ne_of_ne (by decide) : (Proc.devRef .tc main_v109_0 : DevRef τ sig) ≠ Proc.devRef .tc main_v109_1), Function.update_self]
theorem S20_main_v109_1 (c : Dev nD) : S20 m c main_v109_1 = (dat8 (T19 m) c).arrAt 6 cfg8.N := by
  simp only [S20, Function.update_self]
theorem S21_main_v110 (c : Dev nD) : S21 m c main_v110 = (dat9 (T20 m) c).arrAt 2 cfg9.N := by
  simp only [S21, Function.update_self]
theorem S23_main_v116 (c : Dev nD) : S23 m c main_v116 = (dat10 (T22 m) c).arrAt 2 cfg10.N := by
  simp only [S23, Function.update_self]
theorem S27_main_v159 (c : Dev nD) : S27 m c main_v159 = (dat11 (T26 m) c).arrAt 4 cfg11.N := by
  simp only [S27, Function.update_self]

/-! ## The layer -/

set_option maxHeartbeats 4000000 in
/-- Layer 2: from the state after 2 layers at boundary 18 to the state after 3 layers at boundary 27. -/
theorem layer2 (a : KDefs.Args) (c : Dev nD) (h : At18 m a c) : At27 m a c := by
  obtain ⟨hy, hz, hEP, hmea, hw1, hfeat, hadj, hev, hei, hej, hw2w, hw2b⟩ := h
  -- item 19: y as the regions receive it
  have hyb : S19 m c main_v108 =[KDefs.T42b Ideal] KDefs.bf42 a.y2 := by
    show StableHlo.after hostOps8 (S18 m c) (Proc.devRef .tc main_v108) = _
    rw [ops8_main_v108 (S18 m c), hy]
  -- item 20: the two adjacency products
  have hoy : S20 m c main_v109_0 =[KDefs.T42 Ideal] a.oy2 := by
    rw [S20_main_v109_0, arr8_5 (T19 m) c]
    show mixProd8 (S19 m c main_arg6) (S19 m c main_v107) (S19 m c main_v0) (S19 m c main_v108) = _
    rw [S19_keep m c main_arg6 (by decide), S19_keep m c main_v107 (by decide), S19_keep m c main_v0 (by decide), hadj, hEP, hmea, hyb]
    rfl
  have hoz : S20 m c main_v109_1 =[KDefs.T42 Ideal] a.oz2 := by
    rw [S20_main_v109_1, arr8_6 (T19 m) c]
    show mixProd8 (S19 m c main_arg6) (S19 m c main_v107) (S19 m c main_v0) (S19 m c main_v74) = _
    rw [S19_keep m c main_arg6 (by decide), S19_keep m c main_v107 (by decide), S19_keep m c main_v0 (by decide), S19_keep m c main_v74 (by decide), hadj, hEP, hmea, hz]
    rfl
  -- item 21: EPᵀ · y
  have ht : S21 m c main_v110 =[KDefs.T42 Ideal] a.t2 := by
    rw [S21_main_v110, arr9_2 (T20 m) c]
    show mmT9 (S20 m c main_v107) (S20 m c main_v73) = _
    rw [S20_keep m c main_v107 (by decide), S19_keep m c main_v107 (by decide), S20_keep m c main_v73 (by decide), S19_keep m c main_v73 (by decide), hEP, hy]
    rfl
  -- item 22: temp
  have htemp : S22 m c main_v115 =[KDefs.T42 Ideal] a.temp2 := by
    show StableHlo.after hostOps10 (S21 m c) (Proc.devRef .tc main_v115) = _
    rw [ops10_main_v115 (S21 m c), ht, S21_keep m c main_v109_0 (by decide), hoy, S21_keep m c main_v73 (by decide), S20_keep m c main_v73 (by decide), S19_keep m c main_v73 (by decide), hy]
    rfl
  -- item 23: w1 · temp
  have hu : S23 m c main_v116 =[KDefs.T42 Ideal] a.u2 := by
    rw [S23_main_v116, arr10_2 (T22 m) c]
    show mm10 (S22 m c main_v1) (S22 m c main_v115) = _
    rw [S22_keep m c main_v1 (by decide), S21_keep m c main_v1 (by decide), S20_keep m c main_v1 (by decide), S19_keep m c main_v1 (by decide), hw1, htemp]
    rfl
  -- item 24: the next features and positions, and the edges' end-row differences
  have hyn : S24 m c main_v125 =[KDefs.T42 Ideal] a.y3 := by
    show StableHlo.after hostOps11 (S23 m c) (Proc.devRef .tc main_v125) = _
    rw [ops11_main_v125 (S23 m c), hu, S23_keep m c main_arg0 (by decide), S22_keep m c main_arg0 (by decide), S21_keep m c main_arg0 (by decide), S20_keep m c main_arg0 (by decide), S19_keep m c main_arg0 (by decide), hfeat]
    rfl
  have hzn : S24 m c main_v126 =[KDefs.T42 Ideal] a.z3 := by
    show StableHlo.after hostOps11 (S23 m c) (Proc.devRef .tc main_v126) = _
    rw [ops11_main_v126 (S23 m c), S23_keep m c main_v74 (by decide), S22_keep m c main_v74 (by decide), S21_keep m c main_v74 (by decide), S20_keep m c main_v74 (by decide), S19_keep m c main_v74 (by decide), hz, S23_keep m c main_v109_1 (by decide), S22_keep m c main_v109_1 (by decide), S21_keep m c main_v109_1 (by decide), hoz]
    rfl
  have hed : S24 m c main_v141 =[KDefs.TE2 Ideal] KDefs.edgeDiff a.z2 a.ei a.ej := by
    show StableHlo.after hostOps11 (S23 m c) (Proc.devRef .tc main_v141) = _
    rw [ops11_main_v141 (S23 m c), S23_keep m c main_v74 (by decide), S22_keep m c main_v74 (by decide), S21_keep m c main_v74 (by decide), S20_keep m c main_v74 (by decide), S19_keep m c main_v74 (by decide), hz, S23_keep m c main_arg9 (by decide), S22_keep m c main_arg9 (by decide), S21_keep m c main_arg9 (by decide), S20_keep m c main_arg9 (by decide), S19_keep m c main_arg9 (by decide), hei, S23_keep m c main_arg10 (by decide), S22_keep m c main_arg10 (by decide), S21_keep m c main_arg10 (by decide), S20_keep m c main_arg10 (by decide), S19_keep m c main_arg10 (by decide), hej]
  -- item 25: the differences' norms
  have hno : S25 m c main_v142 =[KDefs.TE Ideal] KDefs.rowNormE (KDefs.edgeDiff a.z2 a.ei a.ej) := by
    show StableHlo.after hostOps11_1 (S24 m c) (Proc.devRef .tc main_v142) = _
    rw [ops11_1_main_v142 (S24 m c), hed]
  -- item 26: the scattered edge matrix
  have hM : S26 m c main_v158 =[KDefs.T44 Ideal] a.M2 := by
    show StableHlo.after hostOps11_2 (S25 m c) (Proc.devRef .tc main_v158) = _
    rw [ops11_2_main_v158 (S25 m c), hno, S25_keep m c main_arg8 (by decide), S24_keep m c main_arg8 (by decide), S23_keep m c main_arg8 (by decide), S22_keep m c main_arg8 (by decide), S21_keep m c main_arg8 (by decide), S20_keep m c main_arg8 (by decide), S19_keep m c main_arg8 (by decide), hev, S25_keep m c main_arg9 (by decide), S24_keep m c main_arg9 (by decide), S23_keep m c main_arg9 (by decide), S22_keep m c main_arg9 (by decide), S21_keep m c main_arg9 (by decide), S20_keep m c main_arg9 (by decide), S19_keep m c main_arg9 (by decide), hei, S25_keep m c main_arg10 (by decide), S24_keep m c main_arg10 (by decide), S23_keep m c main_arg10 (by decide), S22_keep m c main_arg10 (by decide), S21_keep m c main_arg10 (by decide), S20_keep m c main_arg10 (by decide), S19_keep m c main_arg10 (by decide), hej]
    rfl
  -- item 27: the next edge potential
  have hEPn : S27 m c main_v159 =[KDefs.T44 Ideal] a.EP3 := by
    rw [S27_main_v159, arr11_4 (T26 m) c]
    show gramUpd11 (S26 m c main_v73) (S26 m c main_v0) (S26 m c main_v158) = _
    rw [S26_keep m c main_v73 (by decide), S25_keep m c main_v73 (by decide), S24_keep m c main_v73 (by decide), S23_keep m c main_v73 (by decide), S22_keep m c main_v73 (by decide), S21_keep m c main_v73 (by decide), S20_keep m c main_v73 (by decide), S19_keep m c main_v73 (by decide), hy, S26_keep m c main_v0 (by decide), S25_keep m c main_v0 (by decide), S24_keep m c main_v0 (by decide), S23_keep m c main_v0 (by decide), S22_keep m c main_v0 (by decide), S21_keep m c main_v0 (by decide), S20_keep m c main_v0 (by decide), S19_keep m c main_v0 (by decide), hmea, hM]
    rfl
  exact
    { y := by rw [S27_keep m c main_v125 (by decide), S26_keep m c main_v125 (by decide), S25_keep m c main_v125 (by decide)]; exact hyn
      z := by rw [S27_keep m c main_v126 (by decide), S26_keep m c main_v126 (by decide), S25_keep m c main_v126 (by decide)]; exact hzn
      EP := hEPn
      mea := by rw [S27_keep m c main_v0 (by decide), S26_keep m c main_v0 (by decide), S25_keep m c main_v0 (by decide), S24_keep m c main_v0 (by decide), S23_keep m c main_v0 (by decide), S22_keep m c main_v0 (by decide), S21_keep m c main_v0 (by decide), S20_keep m c main_v0 (by decide), S19_keep m c main_v0 (by decide)]; exact hmea
      w1b := by rw [S27_keep m c main_v1 (by decide), S26_keep m c main_v1 (by decide), S25_keep m c main_v1 (by decide), S24_keep m c main_v1 (by decide), S23_keep m c main_v1 (by decide), S22_keep m c main_v1 (by decide), S21_keep m c main_v1 (by decide), S20_keep m c main_v1 (by decide), S19_keep m c main_v1 (by decide)]; exact hw1
      feat := by rw [S27_keep m c main_arg0 (by decide), S26_keep m c main_arg0 (by decide), S25_keep m c main_arg0 (by decide), S24_keep m c main_arg0 (by decide), S23_keep m c main_arg0 (by decide), S22_keep m c main_arg0 (by decide), S21_keep m c main_arg0 (by decide), S20_keep m c main_arg0 (by decide), S19_keep m c main_arg0 (by decide)]; exact hfeat
      adj := by rw [S27_keep m c main_arg6 (by decide), S26_keep m c main_arg6 (by decide), S25_keep m c main_arg6 (by decide), S24_keep m c main_arg6 (by decide), S23_keep m c main_arg6 (by decide), S22_keep m c main_arg6 (by decide), S21_keep m c main_arg6 (by decide), S20_keep m c main_arg6 (by decide), S19_keep m c main_arg6 (by decide)]; exact hadj
      ev := by rw [S27_keep m c main_arg8 (by decide), S26_keep m c main_arg8 (by decide), S25_keep m c main_arg8 (by decide), S24_keep m c main_arg8 (by decide), S23_keep m c main_arg8 (by decide), S22_keep m c main_arg8 (by decide), S21_keep m c main_arg8 (by decide), S20_keep m c main_arg8 (by decide), S19_keep m c main_arg8 (by decide)]; exact hev
      ei := by rw [S27_keep m c main_arg9 (by decide), S26_keep m c main_arg9 (by decide), S25_keep m c main_arg9 (by decide), S24_keep m c main_arg9 (by decide), S23_keep m c main_arg9 (by decide), S22_keep m c main_arg9 (by decide), S21_keep m c main_arg9 (by decide), S20_keep m c main_arg9 (by decide), S19_keep m c main_arg9 (by decide)]; exact hei
      ej := by rw [S27_keep m c main_arg10 (by decide), S26_keep m c main_arg10 (by decide), S25_keep m c main_arg10 (by decide), S24_keep m c main_arg10 (by decide), S23_keep m c main_arg10 (by decide), S22_keep m c main_arg10 (by decide), S21_keep m c main_arg10 (by decide), S20_keep m c main_arg10 (by decide), S19_keep m c main_arg10 (by decide)]; exact hej
      w2w := by rw [S27_keep m c main_arg4 (by decide), S26_keep m c main_arg4 (by decide), S25_keep m c main_arg4 (by decide), S24_keep m c main_arg4 (by decide), S23_keep m c main_arg4 (by decide), S22_keep m c main_arg4 (by decide), S21_keep m c main_arg4 (by decide), S20_keep m c main_arg4 (by decide), S19_keep m c main_arg4 (by decide)]; exact hw2w
      w2b := by rw [S27_keep m c main_arg5 (by decide), S26_keep m c main_arg5 (by decide), S25_keep m c main_arg5 (by decide), S24_keep m c main_arg5 (by decide), S23_keep m c main_arg5 (by decide), S22_keep m c main_arg5 (by decide), S21_keep m c main_arg5 (by decide), S20_keep m c main_arg5 (by decide), S19_keep m c main_arg5 (by decide)]; exact hw2b }

end Cert.KernelIdeal.Run

end
-- ==== Proof.KI.Value12.lean ====
/- Region 12 of @main, value side: a later layer's two adjacency products as functions of the arrays the region is
   entered with.

   With A = adj ⊙ EP + mea (4096 x 4096, ⊙ the entrywise product) the region computes  oy = A · y  and  oz = A · z
   (y, z of 4096 x 256) in 32 row tiles: at grid point t it reads rows 128 t … 128 t + 127 of adj, EP and mea and the
   whole of y and z, and writes the same rows of both products, each entry the sum over the 4096 contracted positions of
   the products (a change of float format is the identity on the extended reals, and a sum started from the zero
   accumulator is the sum).  Row r of a product depends on row r of the three left arrays alone, so what each point
   writes back is its row tile of the whole-array function
       out p q = Σ_k (adj p k · EP p k + mea p k) · r k q        (r = y, z);
   the 32 row tiles cover the array (row p lies in tile p / 128), so after the region each array IS that function. -/
import proofs.«169176_j23261542875327_2_alg».proof.Proof.KI.Region12
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal Cert.KernelIdeal.Gen Cert.KernelIdeal.Regs
open Idealize.ShloMosaic Idealize.ShloMosaic.TcCoe Idealize.SL.Sem Idealize.ShloMosaic.ValueIdx
open Idealize.ShloMosaic.Pipeline (Dat)

-- what the TensorCore's buffers hold when the region is entered
variable (V : (c : Dev nD) → (b : Ref sig .tc) → Buf (Elt Ideal) ((c : Thread nD τ).loc b))

/-- The zero offsets of a whole-block rectangle, as the constant function. -/
theorem zeros12 : (![0, 0] : Fin 2 → Nat) = fun _ => 0 := funext fun a => by fin_cases a <;> rfl

/-- The product of `a ⊙ e + m` with a fourth array, entry by entry: out p q = Σ_k (a p k · e p k + m p k) · r k q. -/
def mixProd12 (a e m : S4096x4096.Idx → EReal) (r : S4096x256.Idx → EReal) : S4096x256.Idx → EReal :=
  fun i => ∑ k : Fin 4096, (a (ix2 (i 0) k) * e (ix2 (i 0) k) + m (ix2 (i 0) k)) * r (ix2 k (i 1))

/-- The index maps at every grid point: the three row tiles and the two product tiles move together along the rows
    and sit at column block 0; the right operands' blocks never move. -/
theorem idx12 : ∀ t : Fin cfg12.N, win12_0.index t (0 : Fin 2) = win12_5.index t (0 : Fin 2)
    ∧ win12_0.index t (1 : Fin 2) = 0
    ∧ win12_1.index t (0 : Fin 2) = win12_5.index t (0 : Fin 2)
    ∧ win12_1.index t (1 : Fin 2) = 0
    ∧ win12_2.index t (0 : Fin 2) = win12_5.index t (0 : Fin 2)
    ∧ win12_2.index t (1 : Fin 2) = 0
    ∧ win12_3.index t (0 : Fin 2) = 0
    ∧ win12_3.index t (1 : Fin 2) = 0
    ∧ win12_4.index t (0 : Fin 2) = 0
    ∧ win12_4.index t (1 : Fin 2) = 0
    ∧ win12_5.index t (1 : Fin 2) = 0
    ∧ win12_6.index t (0 : Fin 2) = win12_5.index t (0 : Fin 2)
    ∧ win12_6.index t (1 : Fin 2) = 0 :=
  (by decide +kernel : ∀ t : Fin grid12.N, _)

/-- Every row tile is some grid point's, for both products. -/
theorem onto12 : ∀ q0 : Fin 32, ∃ t : Fin cfg12.N, win12_5.index t = ![q0.val, 0] ∧ win12_6.index t = ![q0.val, 0] :=
  (by decide +kernel : ∀ q0 : Fin 32, ∃ t : Fin grid12.N, win12_5.index t = ![q0.val, 0] ∧ win12_6.index t = ![q0.val, 0])

/-! ## Output window 5: oy = (adj ⊙ EP + mea) · y, the left factor and y read as bf16 -/

/-- The body's payload for window 5 at an entry of the product tile: the contraction over the 4096 shared positions of
    the combined row against the right operand's column. -/
theorem pay12_5_at (x0 x1 x2 : Vec Ideal S128x4096 .f32) (x3 : Vec Ideal S4096x256 .bf16) (p : Fin 128) (q : Fin 256) :
    k12_pay2 (F := Ideal) x0 x1 x2 x3 (ix2 p q)
      = ∑ k : Fin 4096, (x0 (ix2 p k) * x1 (ix2 p k) + x2 (ix2 p k)) * x3 (ix2 k q) := by
  unfold k12_pay2 k12_pay1
  simp only [shapeCast_self, matmul]
  rw [Ideal.matmul_constant_zero_apply,
    ← Equiv.sum_comp (contrEquiv1 dot_S128x4096_S4096x256_S128x256_1_0_0_1_n_n 4096 rfl rfl).symm]
  refine Finset.sum_congr rfl fun k _ => ?_
  have ck := contrEquiv1_symm_val dot_S128x4096_S4096x256_S128x256_1_0_0_1_n_n 4096 rfl rfl k
  have hl : DotDims.lhsIdx dot_S128x4096_S4096x256_S128x256_1_0_0_1_n_n (ix2 p q)
      ((contrEquiv1 dot_S128x4096_S4096x256_S128x256_1_0_0_1_n_n 4096 rfl rfl).symm k) = ix2 p k := by
    funext ax; apply Fin.ext
    match ax with
    | ⟨0, _⟩ => simp [DotDims.lhsIdx, dot_S128x4096_S4096x256_S128x256_1_0_0_1_n_n]; rfl
    | ⟨1, _⟩ => simp [DotDims.lhsIdx, dot_S128x4096_S4096x256_S128x256_1_0_0_1_n_n]; exact ck
  have hr : DotDims.rhsIdx dot_S128x4096_S4096x256_S128x256_1_0_0_1_n_n (ix2 p q)
      ((contrEquiv1 dot_S128x4096_S4096x256_S128x256_1_0_0_1_n_n 4096 rfl rfl).symm k) = ix2 k q := by
    funext ax; apply Fin.ext
    match ax with
    | ⟨0, _⟩ => simp [DotDims.rhsIdx, dot_S128x4096_S4096x256_S128x256_1_0_0_1_n_n]; exact ck
    | ⟨1, _⟩ => simp [DotDims.rhsIdx, dot_S128x4096_S4096x256_S128x256_1_0_0_1_n_n]; rfl
  rw [hl, hr]
  rfl

/-- The same at any entry of the product tile, named by its two coordinates. -/
theorem pay12_5_idx (x0 x1 x2 : Vec Ideal S128x4096 .f32) (x3 : Vec Ideal S4096x256 .bf16) (j : S128x256.Idx) :
    k12_pay2 (F := Ideal) x0 x1 x2 x3 j
      = ∑ k : Fin 4096, (x0 (ix2 (j 0) k) * x1 (ix2 (j 0) k) + x2 (ix2 (j 0) k)) * x3 (ix2 k (j 1)) := by
  obtain ⟨p, q, rfl⟩ : ∃ (p : Fin 128) (q : Fin 256), j = ix2 p q := ⟨j 0, j 1, eq_ix2 j⟩
  exact pay12_5_at x0 x1 x2 x3 p q

/-- Tiles whose rows are rows of the three left arrays, against a block that is the right array, give those rows of
    the whole-array function. -/
theorem pay12_5_rows (A E M : S4096x4096.Idx → EReal) (R : S4096x256.Idx → EReal)
    (x0 x1 x2 : Vec Ideal S128x4096 .f32) (x3 : Vec Ideal S4096x256 .bf16) (j : S128x256.Idx) (i : S4096x256.Idx)
    (h0 : ∀ k : Fin 4096, x0 (ix2 (j 0) k) = A (ix2 (i 0) k)) (h1 : ∀ k : Fin 4096, x1 (ix2 (j 0) k) = E (ix2 (i 0) k))
    (h2 : ∀ k : Fin 4096, x2 (ix2 (j 0) k) = M (ix2 (i 0) k))
    (h3 : ∀ k : Fin 4096, x3 (ix2 k (j 1)) = R (ix2 k (i 1))) :
    k12_pay2 (F := Ideal) x0 x1 x2 x3 j = mixProd12 A E M R i := by
  rw [pay12_5_idx]
  exact Finset.sum_congr rfl fun k _ => by rw [h0 k, h1 k, h2 k, h3 k]

set_option maxHeartbeats 2000000 in
/-- What grid point t writes back through window 5 is its row tile of the whole-array function. -/
theorem flushed12_5 (c : Dev nD) (t : Fin cfg12.N) :
    (dat12 (F := Ideal) V c).flushed 5 t
      = ((cfg12.win 5).blk t).view.read (Elt Ideal) (mixProd12 (V c main_arg6) (V c main_v159) (V c main_v0) (V c main_v160)) := by
  show (cfg12.win 5).cut (grid12.coords t) ((dat12 (F := Ideal) V c).after 5 t) = _
  rw [dat12_after_5]
  unfold left12_5
  rw [View.canon_unit_zero zeros12]
  simp only [View.ld_unit_zero (S := S128x4096) zeros12, View.ld_unit_zero (S := S4096x256) zeros12]
  obtain ⟨e0, e1, e2, e3, e4, e5, e6, e7, e8, e9, e10, e11, e12⟩ := idx12 t
  funext j
  refine pay12_5_rows (V c main_arg6) (V c main_v159) (V c main_v0) (V c main_v160) _ _ _ _ _ (((cfg12.win 5).blk t).view.emb j)
    (fun k => ?_) (fun k => ?_) (fun k => ?_) (fun k => ?_)
  · show V c main_arg6 (((cfg12.win 0).blk t).view.emb (ix2 (j 0) k)) = V c main_arg6 (ix2 ((((cfg12.win 5).blk t).view.emb j) 0) k)
    refine congrArg (V c main_arg6) ?_
    funext a; apply Fin.ext
    match a with
    | ⟨0, _⟩ => show win12_0.index t (0 : Fin 2) * 128 + 1 * (j 0).val = win12_5.index t (0 : Fin 2) * 128 + 1 * (j 0).val; rw [e0]
    | ⟨1, _⟩ => show win12_0.index t (1 : Fin 2) * 4096 + 1 * k.val = k.val; rw [e1]; omega
  · show V c main_v159 (((cfg12.win 1).blk t).view.emb (ix2 (j 0) k)) = V c main_v159 (ix2 ((((cfg12.win 5).blk t).view.emb j) 0) k)
    refine congrArg (V c main_v159) ?_
    funext a; apply Fin.ext
    match a with
    | ⟨0, _⟩ => show win12_1.index t (0 : Fin 2) * 128 + 1 * (j 0).val = win12_5.index t (0 : Fin 2) * 128 + 1 * (j 0).val; rw [e2]
    | ⟨1, _⟩ => show win12_1.index t (1 : Fin 2) * 4096 + 1 * k.val = k.val; rw [e3]; omega
  · show V c main_v0 (((cfg12.win 2).blk t).view.emb (ix2 (j 0) k)) = V c main_v0 (ix2 ((((cfg12.win 5).blk t).view.emb j) 0) k)
    refine congrArg (V c main_v0) ?_
    funext a; apply Fin.ext
    match a with
    | ⟨0, _⟩ => show win12_2.index t (0 : Fin 2) * 128 + 1 * (j 0).val = win12_5.index t (0 : Fin 2) * 128 + 1 * (j 0).val; rw [e4]
    | ⟨1, _⟩ => show win12_2.index t (1 : Fin 2) * 4096 + 1 * k.val = k.val; rw [e5]; omega
  · show V c main_v160 (((cfg12.win 3).blk t).view.emb (ix2 k (j 1))) = V c main_v160 (ix2 k ((((cfg12.win 5).blk t).view.emb j) 1))
    refine congrArg (V c main_v160) ?_
    funext a; apply Fin.ext
    match a with
    | ⟨0, _⟩ => show win12_3.index t (0 : Fin 2) * 4096 + 1 * k.val = k.val; rw [e6]; omega
    | ⟨1, _⟩ => show win12_3.index t (1 : Fin 2) * 256 + 1 * (j 1).val = win12_5.index t (1 : Fin 2) * 256 + 1 * (j 1).val; rw [e7, e10]

/-- An entry of the array is in point t's tile iff each coordinate is in the tile's range on its axis. -/
theorem mem_blk12_5 (t : Fin cfg12.N) (i : S4096x256.Idx) :
    i ∈ ((cfg12.win 5).blk t).view.set
      ↔ ∀ a : Fin 2, win12_5.index t a * S128x256.size a ≤ (i a).val
          ∧ (i a).val < win12_5.index t a * S128x256.size a + S128x256.size a := by
  show i ∈ ((View.whole main_v161_0).slice (win12_5.rect t)).set ↔ _
  rw [View.set_slice_whole, Rect.mem_set_unit]
  exact Iff.rfl

/-- The row tiles cover the array: row p is in the tile of the point whose index is (p / 128, 0). -/
theorem cover12_5 (i : S4096x256.Idx) :
    ∃ t : Fin cfg12.N, (cfg12.win 5).flush t = true ∧ i ∈ ((cfg12.win 5).blk t).view.set := by
  have hi0 : (i 0).val < 4096 := (i 0).isLt
  have hi1 : (i 1).val < 256 := (i 1).isLt
  obtain ⟨t, ht5, ht6⟩ := onto12 ⟨(i 0).val / 128, by omega⟩
  have q0 : win12_5.index t (0 : Fin 2) = (i 0).val / 128 := congrFun ht5 0
  have q1 : win12_5.index t (1 : Fin 2) = 0 := congrFun ht5 1
  refine ⟨t, flush12_5 t, ?_⟩
  rw [mem_blk12_5]
  intro a
  match a with
  | ⟨0, _⟩ => show win12_5.index t (0 : Fin 2) * 128 ≤ (i 0).val ∧ (i 0).val < win12_5.index t (0 : Fin 2) * 128 + 128; omega
  | ⟨1, _⟩ => show win12_5.index t (1 : Fin 2) * 256 ≤ (i 1).val ∧ (i 1).val < win12_5.index t (1 : Fin 2) * 256 + 256; omega

/-- After the region the array of window 5 is the whole-array function of the arrays the region found. -/
theorem arr12_5 (c : Dev nD) :
    (dat12 (F := Ideal) V c).arrAt 5 cfg12.N = mixProd12 (V c main_arg6) (V c main_v159) (V c main_v0) (V c main_v160) :=
  (dat12 (F := Ideal) V c).arrAt_eq_of_cover 5 (mixProd12 (V c main_arg6) (V c main_v159) (V c main_v0) (V c main_v160))
    (fun t _ => flushed12_5 V c t) cover12_5

/-- Entry by entry: out p q = Σ_k (adj p k · EP p k + mea p k) · r k q. -/
theorem value12_5 (c : Dev nD) (p : Fin 4096) (q : Fin 256) :
    @Eq EReal ((dat12 (F := Ideal) V c).arrAt 5 cfg12.N (ix2 p q))
      (∑ k : Fin 4096, HMul.hMul (α := EReal) (β := EReal) (γ := EReal)
        (HAdd.hAdd (α := EReal) (β := EReal) (γ := EReal)
          (HMul.hMul (α := EReal) (β := EReal) (γ := EReal) (V c main_arg6 (ix2 p k)) (V c main_v159 (ix2 p k)))
          (V c main_v0 (ix2 p k)))
        (V c main_v160 (ix2 k q))) :=
  congrFun (arr12_5 V c) (ix2 p q)

/-! ## Output window 6: oz = (adj ⊙ EP + mea) · z at full precision -/

/-- The body's payload for window 6 at an entry of the product tile: the contraction over the 4096 shared positions of
    the combined row against the right operand's column. -/
theorem pay12_6_at (x0 x1 x2 : Vec Ideal S128x4096 .f32) (x4 : Vec Ideal S4096x256 .f32) (p : Fin 128) (q : Fin 256) :
    k12_pay3 (F := Ideal) x0 x1 x2 x4 (ix2 p q)
      = ∑ k : Fin 4096, (x0 (ix2 p k) * x1 (ix2 p k) + x2 (ix2 p k)) * x4 (ix2 k q) := by
  unfold k12_pay3 k12_pay1
  simp only [shapeCast_self, matmul]
  rw [Ideal.matmul_constant_zero_apply,
    ← Equiv.sum_comp (contrEquiv1 dot_S128x4096_S4096x256_S128x256_1_0_0_1_n_n 4096 rfl rfl).symm]
  refine Finset.sum_congr rfl fun k _ => ?_
  have ck := contrEquiv1_symm_val dot_S128x4096_S4096x256_S128x256_1_0_0_1_n_n 4096 rfl rfl k
  have hl : DotDims.lhsIdx dot_S128x4096_S4096x256_S128x256_1_0_0_1_n_n (ix2 p q)
      ((contrEquiv1 dot_S128x4096_S4096x256_S128x256_1_0_0_1_n_n 4096 rfl rfl).symm k) = ix2 p k := by
    funext ax; apply Fin.ext
    match ax with
    | ⟨0, _⟩ => simp [DotDims.lhsIdx, dot_S128x4096_S4096x256_S128x256_1_0_0_1_n_n]; rfl
    | ⟨1, _⟩ => simp [DotDims.lhsIdx, dot_S128x4096_S4096x256_S128x256_1_0_0_1_n_n]; exact ck
  have hr : DotDims.rhsIdx dot_S128x4096_S4096x256_S128x256_1_0_0_1_n_n (ix2 p q)
      ((contrEquiv1 dot_S128x4096_S4096x256_S128x256_1_0_0_1_n_n 4096 rfl rfl).symm k) = ix2 k q := by
    funext ax; apply Fin.ext
    match ax with
    | ⟨0, _⟩ => simp [DotDims.rhsIdx, dot_S128x4096_S4096x256_S128x256_1_0_0_1_n_n]; exact ck
    | ⟨1, _⟩ => simp [DotDims.rhsIdx, dot_S128x4096_S4096x256_S128x256_1_0_0_1_n_n]; rfl
  rw [hl, hr]
  rfl

/-- The same at any entry of the product tile, named by its two coordinates. -/
theorem pay12_6_idx (x0 x1 x2 : Vec Ideal S128x4096 .f32) (x4 : Vec Ideal S4096x256 .f32) (j : S128x256.Idx) :
    k12_pay3 (F := Ideal) x0 x1 x2 x4 j
      = ∑ k : Fin 4096, (x0 (ix2 (j 0) k) * x1 (ix2 (j 0) k) + x2 (ix2 (j 0) k)) * x4 (ix2 k (j 1)) := by
  obtain ⟨p, q, rfl⟩ : ∃ (p : Fin 128) (q : Fin 256), j = ix2 p q := ⟨j 0, j 1, eq_ix2 j⟩
  exact pay12_6_at x0 x1 x2 x4 p q

/-- Tiles whose rows are rows of the three left arrays, against a block that is the right array, give those rows of
    the whole-array function. -/
theorem pay12_6_rows (A E M : S4096x4096.Idx → EReal) (R : S4096x256.Idx → EReal)
    (x0 x1 x2 : Vec Ideal S128x4096 .f32) (x4 : Vec Ideal S4096x256 .f32) (j : S128x256.Idx) (i : S4096x256.Idx)
    (h0 : ∀ k : Fin 4096, x0 (ix2 (j 0) k) = A (ix2 (i 0) k)) (h1 : ∀ k : Fin 4096, x1 (ix2 (j 0) k) = E (ix2 (i 0) k))
    (h2 : ∀ k : Fin 4096, x2 (ix2 (j 0) k) = M (ix2 (i 0) k))
    (h3 : ∀ k : Fin 4096, x4 (ix2 k (j 1)) = R (ix2 k (i 1))) :
    k12_pay3 (F := Ideal) x0 x1 x2 x4 j = mixProd12 A E M R i := by
  rw [pay12_6_idx]
  exact Finset.sum_congr rfl fun k _ => by rw [h0 k, h1 k, h2 k, h3 k]

set_option maxHeartbeats 2000000 in
/-- What grid point t writes back through window 6 is its row tile of the whole-array function. -/
theorem flushed12_6 (c : Dev nD) (t : Fin cfg12.N) :
    (dat12 (F := Ideal) V c).flushed 6 t
      = ((cfg12.win 6).blk t).view.read (Elt Ideal) (mixProd12 (V c main_arg6) (V c main_v159) (V c main_v0) (V c main_v126)) := by
  show (cfg12.win 6).cut (grid12.coords t) ((dat12 (F := Ideal) V c).after 6 t) = _
  rw [dat12_after_6]
  unfold left12_6
  rw [View.canon_unit_zero zeros12]
  simp only [View.ld_unit_zero (S := S128x4096) zeros12, View.ld_unit_zero (S := S4096x256) zeros12]
  obtain ⟨e0, e1, e2, e3, e4, e5, e6, e7, e8, e9, e10, e11, e12⟩ := idx12 t
  funext j
  refine pay12_6_rows (V c main_arg6) (V c main_v159) (V c main_v0) (V c main_v126) _ _ _ _ _ (((cfg12.win 6).blk t).view.emb j)
    (fun k => ?_) (fun k => ?_) (fun k => ?_) (fun k => ?_)
  · show V c main_arg6 (((cfg12.win 0).blk t).view.emb (ix2 (j 0) k)) = V c main_arg6 (ix2 ((((cfg12.win 6).blk t).view.emb j) 0) k)
    refine congrArg (V c main_arg6) ?_
    funext a; apply Fin.ext
    match a with
    | ⟨0, _⟩ => show win12_0.index t (0 : Fin 2) * 128 + 1 * (j 0).val = win12_6.index t (0 : Fin 2) * 128 + 1 * (j 0).val; rw [e0, e11]
    | ⟨1, _⟩ => show win12_0.index t (1 : Fin 2) * 4096 + 1 * k.val = k.val; rw [e1]; omega
  · show V c main_v159 (((cfg12.win 1).blk t).view.emb (ix2 (j 0) k)) = V c main_v159 (ix2 ((((cfg12.win 6).blk t).view.emb j) 0) k)
    refine congrArg (V c main_v159) ?_
    funext a; apply Fin.ext
    match a with
    | ⟨0, _⟩ => show win12_1.index t (0 : Fin 2) * 128 + 1 * (j 0).val = win12_6.index t (0 : Fin 2) * 128 + 1 * (j 0).val; rw [e2, e11]
    | ⟨1, _⟩ => show win12_1.index t (1 : Fin 2) * 4096 + 1 * k.val = k.val; rw [e3]; omega
  · show V c main_v0 (((cfg12.win 2).blk t).view.emb (ix2 (j 0) k)) = V c main_v0 (ix2 ((((cfg12.win 6).blk t).view.emb j) 0) k)
    refine congrArg (V c main_v0) ?_
    funext a; apply Fin.ext
    match a with
    | ⟨0, _⟩ => show win12_2.index t (0 : Fin 2) * 128 + 1 * (j 0).val = win12_6.index t (0 : Fin 2) * 128 + 1 * (j 0).val; rw [e4, e11]
    | ⟨1, _⟩ => show win12_2.index t (1 : Fin 2) * 4096 + 1 * k.val = k.val; rw [e5]; omega
  · show V c main_v126 (((cfg12.win 4).blk t).view.emb (ix2 k (j 1))) = V c main_v126 (ix2 k ((((cfg12.win 6).blk t).view.emb j) 1))
    refine congrArg (V c main_v126) ?_
    funext a; apply Fin.ext
    match a with
    | ⟨0, _⟩ => show win12_4.index t (0 : Fin 2) * 4096 + 1 * k.val = k.val; rw [e8]; omega
    | ⟨1, _⟩ => show win12_4.index t (1 : Fin 2) * 256 + 1 * (j 1).val = win12_6.index t (1 : Fin 2) * 256 + 1 * (j 1).val; rw [e9, e12]

/-- An entry of the array is in point t's tile iff each coordinate is in the tile's range on its axis. -/
theorem mem_blk12_6 (t : Fin cfg12.N) (i : S4096x256.Idx) :
    i ∈ ((cfg12.win 6).blk t).view.set
      ↔ ∀ a : Fin 2, win12_6.index t a * S128x256.size a ≤ (i a).val
          ∧ (i a).val < win12_6.index t a * S128x256.size a + S128x256.size a := by
  show i ∈ ((View.whole main_v161_1).slice (win12_6.rect t)).set ↔ _
  rw [View.set_slice_whole, Rect.mem_set_unit]
  exact Iff.rfl

/-- The row tiles cover the array: row p is in the tile of the point whose index is (p / 128, 0). -/
theorem cover12_6 (i : S4096x256.Idx) :
    ∃ t : Fin cfg12.N, (cfg12.win 6).flush t = true ∧ i ∈ ((cfg12.win 6).blk t).view.set := by
  have hi0 : (i 0).val < 4096 := (i 0).isLt
  have hi1 : (i 1).val < 256 := (i 1).isLt
  obtain ⟨t, ht5, ht6⟩ := onto12 ⟨(i 0).val / 128, by omega⟩
  have q0 : win12_6.index t (0 : Fin 2) = (i 0).val / 128 := congrFun ht6 0
  have q1 : win12_6.index t (1 : Fin 2) = 0 := congrFun ht6 1
  refine ⟨t, flush12_6 t, ?_⟩
  rw [mem_blk12_6]
  intro a
  match a with
  | ⟨0, _⟩ => show win12_6.index t (0 : Fin 2) * 128 ≤ (i 0).val ∧ (i 0).val < win12_6.index t (0 : Fin 2) * 128 + 128; omega
  | ⟨1, _⟩ => show win12_6.index t (1 : Fin 2) * 256 ≤ (i 1).val ∧ (i 1).val < win12_6.index t (1 : Fin 2) * 256 + 256; omega

/-- After the region the array of window 6 is the whole-array function of the arrays the region found. -/
theorem arr12_6 (c : Dev nD) :
    (dat12 (F := Ideal) V c).arrAt 6 cfg12.N = mixProd12 (V c main_arg6) (V c main_v159) (V c main_v0) (V c main_v126) :=
  (dat12 (F := Ideal) V c).arrAt_eq_of_cover 6 (mixProd12 (V c main_arg6) (V c main_v159) (V c main_v0) (V c main_v126))
    (fun t _ => flushed12_6 V c t) cover12_6

/-- Entry by entry: out p q = Σ_k (adj p k · EP p k + mea p k) · r k q. -/
theorem value12_6 (c : Dev nD) (p : Fin 4096) (q : Fin 256) :
    @Eq EReal ((dat12 (F := Ideal) V c).arrAt 6 cfg12.N (ix2 p q))
      (∑ k : Fin 4096, HMul.hMul (α := EReal) (β := EReal) (γ := EReal)
        (HAdd.hAdd (α := EReal) (β := EReal) (γ := EReal)
          (HMul.hMul (α := EReal) (β := EReal) (γ := EReal) (V c main_arg6 (ix2 p k)) (V c main_v159 (ix2 p k)))
          (V c main_v0 (ix2 p k)))
        (V c main_v126 (ix2 k q))) :=
  congrFun (arr12_6 V c) (ix2 p q)

end Cert.KernelIdeal.Vals

end
-- ==== Proof.KI.Value13.lean ====
/- Region 13 of @main, value side: a tall matrix product with the left factor transposed, as one function of the arrays
   the region is entered with.

   The region computes  out = Aᵀ · B  for A of 4096 x 4096 and B of 4096 x 256 in eight row tiles of the result: at
   grid point t it reads columns 512 t … 512 t + 511 of A (a 4096 x 512 strip) and the whole of B and writes rows
   512 t … 512 t + 511 of out, each entry the sum over the 4096 shared rows of the products (a change of float format
   is the identity on the extended reals, and a sum started from the zero accumulator is the sum).  Row r of Aᵀ · B
   depends on column r of A alone, so what each point writes back is its row tile of the whole-array function
       out p q = Σ_k A k p · B k q ;
   the eight row tiles cover the array (row p lies in tile p / 512), so after the region the array IS that function. -/
import proofs.«169176_j23261542875327_2_alg».proof.Proof.KI.Region13
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal Cert.KernelIdeal.Gen Cert.KernelIdeal.Regs
open Idealize.ShloMosaic Idealize.ShloMosaic.TcCoe Idealize.SL.Sem Idealize.ShloMosaic.ValueIdx
open Idealize.ShloMosaic.Pipeline (Dat)

-- what the TensorCore's buffers hold when the region is entered
variable (V : (c : Dev nD) → (b : Ref sig .tc) → Buf (Elt Ideal) ((c : Thread nD τ).loc b))

/-- The zero offsets of a whole-block rectangle, as the constant function. -/
theorem zeros13 : (![0, 0] : Fin 2 → Nat) = fun _ => 0 := funext fun a => by fin_cases a <;> rfl

/-- The transposed product of whole arrays, entry by entry: out p q = Σ_k a k p · b k q. -/
def mmT13 (a : S4096x4096.Idx → EReal) (b : S4096x256.Idx → EReal) : S4096x256.Idx → EReal :=
  fun i => ∑ k : Fin 4096, a (ix2 k (i 0)) * b (ix2 k (i 1))

/-- The body's payload on a column strip and the right matrix, at an entry of the output tile: the contraction over
    the 4096 shared rows. -/
theorem pay13_at (x0 : Vec Ideal S4096x512 .f32) (x1 : Vec Ideal S4096x256 .f32) (p : Fin 512) (q : Fin 256) :
    k13_pay1 (F := Ideal) x0 x1 (ix2 p q) = ∑ k : Fin 4096, x0 (ix2 k p) * x1 (ix2 k q) := by
  unfold k13_pay1
  simp only [shapeCast_self, matmul]
  rw [Ideal.matmul_constant_zero_apply,
    ← Equiv.sum_comp (contrEquiv1 dot_S4096x512_S4096x256_S512x256_0_0_1_1_n_n 4096 rfl rfl).symm]
  refine Finset.sum_congr rfl fun k _ => ?_
  have ck := contrEquiv1_symm_val dot_S4096x512_S4096x256_S512x256_0_0_1_1_n_n 4096 rfl rfl k
  have hl : DotDims.lhsIdx dot_S4096x512_S4096x256_S512x256_0_0_1_1_n_n (ix2 p q)
      ((contrEquiv1 dot_S4096x512_S4096x256_S512x256_0_0_1_1_n_n 4096 rfl rfl).symm k) = ix2 k p := by
    funext ax; apply Fin.ext
    match ax with
    | ⟨0, _⟩ => simp [DotDims.lhsIdx, dot_S4096x512_S4096x256_S512x256_0_0_1_1_n_n]; exact ck
    | ⟨1, _⟩ => simp [DotDims.lhsIdx, dot_S4096x512_S4096x256_S512x256_0_0_1_1_n_n]; rfl
  have hr : DotDims.rhsIdx dot_S4096x512_S4096x256_S512x256_0_0_1_1_n_n (ix2 p q)
      ((contrEquiv1 dot_S4096x512_S4096x256_S512x256_0_0_1_1_n_n 4096 rfl rfl).symm k) = ix2 k q := by
    funext ax; apply Fin.ext
    match ax with
    | ⟨0, _⟩ => simp [DotDims.rhsIdx, dot_S4096x512_S4096x256_S512x256_0_0_1_1_n_n]; exact ck
    | ⟨1, _⟩ => simp [DotDims.rhsIdx, dot_S4096x512_S4096x256_S512x256_0_0_1_1_n_n]; rfl
  rw [hl, hr]
  rfl

/-- The same at any entry of the output tile, named by its two coordinates. -/
theorem pay13_idx (x0 : Vec Ideal S4096x512 .f32) (x1 : Vec Ideal S4096x256 .f32) (j : S512x256.Idx) :
    k13_pay1 (F := Ideal) x0 x1 j = ∑ k : Fin 4096, x0 (ix2 k (j 0)) * x1 (ix2 k (j 1)) := by
  obtain ⟨p, q, rfl⟩ : ∃ (p : Fin 512) (q : Fin 256), j = ix2 p q := ⟨j 0, j 1, eq_ix2 j⟩
  exact pay13_at x0 x1 p q

/-- A strip whose columns are columns of A, against a block that is B, gives those rows of the transposed product. -/
theorem pay13_rows (A : S4096x4096.Idx → EReal) (B : S4096x256.Idx → EReal)
    (x0 : Vec Ideal S4096x512 .f32) (x1 : Vec Ideal S4096x256 .f32) (j : S512x256.Idx) (i : S4096x256.Idx)
    (h0 : ∀ k : Fin 4096, x0 (ix2 k (j 0)) = A (ix2 k (i 0))) (h1 : ∀ k : Fin 4096, x1 (ix2 k (j 1)) = B (ix2 k (i 1))) :
    k13_pay1 (F := Ideal) x0 x1 j = mmT13 A B i := by
  rw [pay13_idx]
  exact Finset.sum_congr rfl fun k _ => by rw [h0 k, h1 k]

/-- The index maps at every grid point: the column strip of A sits at row block 0 and moves along the columns as the
    result's row tile moves along the rows; B's block never moves; the result sits at column block 0. -/
theorem idx13 : ∀ t : Fin cfg13.N, win13_0.index t (0 : Fin 2) = 0
    ∧ win13_0.index t (1 : Fin 2) = win13_2.index t (0 : Fin 2)
    ∧ win13_1.index t (0 : Fin 2) = 0
    ∧ win13_1.index t (1 : Fin 2) = 0
    ∧ win13_2.index t (1 : Fin 2) = 0 :=
  (by decide +kernel : ∀ t : Fin grid13.N, _)

/-- Every row tile is some grid point's. -/
theorem onto13 : ∀ q0 : Fin 8, ∃ t : Fin cfg13.N, win13_2.index t = ![q0.val, 0] :=
  (by decide +kernel : ∀ q0 : Fin 8, ∃ t : Fin grid13.N, win13_2.index t = ![q0.val, 0])

set_option maxHeartbeats 1000000 in
/-- What grid point t writes back is its row tile of the whole-array transposed product. -/
theorem flushed13_2 (c : Dev nD) (t : Fin cfg13.N) :
    (dat13 (F := Ideal) V c).flushed 2 t
      = ((cfg13.win 2).blk t).view.read (Elt Ideal) (mmT13 (V c main_v159) (V c main_v125)) := by
  show (cfg13.win 2).cut (grid13.coords t) ((dat13 (F := Ideal) V c).after 2 t) = _
  rw [dat13_after_2]
  unfold left13_2
  rw [View.canon_unit_zero zeros13]
  simp only [View.ld_unit_zero (S := S4096x512) zeros13, View.ld_unit_zero (S := S4096x256) zeros13]
  obtain ⟨e0, e1, e2, e3, e4⟩ := idx13 t
  funext j
  refine pay13_rows (V c main_v159) (V c main_v125) _ _ _ (((cfg13.win 2).blk t).view.emb j) (fun k => ?_) (fun k => ?_)
  · show V c main_v159 (((cfg13.win 0).blk t).view.emb (ix2 k (j 0))) = V c main_v159 (ix2 k ((((cfg13.win 2).blk t).view.emb j) 0))
    congr 1
    funext a; apply Fin.ext
    match a with
    | ⟨0, _⟩ => show win13_0.index t (0 : Fin 2) * 4096 + 1 * k.val = k.val; rw [e0]; omega
    | ⟨1, _⟩ => show win13_0.index t (1 : Fin 2) * 512 + 1 * (j 0).val = win13_2.index t (0 : Fin 2) * 512 + 1 * (j 0).val; rw [e1]
  · show V c main_v125 (((cfg13.win 1).blk t).view.emb (ix2 k (j 1))) = V c main_v125 (ix2 k ((((cfg13.win 2).blk t).view.emb j) 1))
    congr 1
    funext a; apply Fin.ext
    match a with
    | ⟨0, _⟩ => show win13_1.index t (0 : Fin 2) * 4096 + 1 * k.val = k.val; rw [e2]; omega
    | ⟨1, _⟩ => show win13_1.index t (1 : Fin 2) * 256 + 1 * (j 1).val = win13_2.index t (1 : Fin 2) * 256 + 1 * (j 1).val; rw [e3, e4]

/-- An entry of the array is in point t's tile iff each coordinate is in the tile's range on its axis. -/
theorem mem_blk13_2 (t : Fin cfg13.N) (i : S4096x256.Idx) :
    i ∈ ((cfg13.win 2).blk t).view.set
      ↔ ∀ a : Fin 2, win13_2.index t a * S512x256.size a ≤ (i a).val
          ∧ (i a).val < win13_2.index t a * S512x256.size a + S512x256.size a := by
  show i ∈ ((View.whole main_v162).slice (win13_2.rect t)).set ↔ _
  rw [View.set_slice_whole, Rect.mem_set_unit]
  exact Iff.rfl

/-- The row tiles cover the array: row p is in the tile of the point whose index is (p / 512, 0). -/
theorem cover13_2 (i : S4096x256.Idx) :
    ∃ t : Fin cfg13.N, (cfg13.win 2).flush t = true ∧ i ∈ ((cfg13.win 2).blk t).view.set := by
  have hi0 : (i 0).val < 4096 := (i 0).isLt
  have hi1 : (i 1).val < 256 := (i 1).isLt
  obtain ⟨t, ht⟩ := onto13 ⟨(i 0).val / 512, by omega⟩
  have q0 : win13_2.index t (0 : Fin 2) = (i 0).val / 512 := congrFun ht 0
  have q1 : win13_2.index t (1 : Fin 2) = 0 := congrFun ht 1
  refine ⟨t, flush13_2 t, ?_⟩
  rw [mem_blk13_2]
  intro a
  match a with
  | ⟨0, _⟩ => show win13_2.index t (0 : Fin 2) * 512 ≤ (i 0).val ∧ (i 0).val < win13_2.index t (0 : Fin 2) * 512 + 512; omega
  | ⟨1, _⟩ => show win13_2.index t (1 : Fin 2) * 256 ≤ (i 1).val ∧ (i 1).val < win13_2.index t (1 : Fin 2) * 256 + 256; omega

/-- After the region the result array is the transposed product of the two input arrays as the region found them. -/
theorem arr13_2 (c : Dev nD) :
    (dat13 (F := Ideal) V c).arrAt 2 cfg13.N = mmT13 (V c main_v159) (V c main_v125) :=
  (dat13 (F := Ideal) V c).arrAt_eq_of_cover 2 (mmT13 (V c main_v159) (V c main_v125))
    (fun t _ => flushed13_2 V c t) cover13_2

/-- Entry by entry: out p q = Σ_k A k p · B k q. -/
theorem value13_2 (c : Dev nD) (p : Fin 4096) (q : Fin 256) :
    @Eq EReal ((dat13 (F := Ideal) V c).arrAt 2 cfg13.N (ix2 p q))
      (∑ k : Fin 4096, HMul.hMul (α := EReal) (β := EReal) (γ := EReal) (V c main_v159 (ix2 k p)) (V c main_v125 (ix2 k q))) :=
  congrFun (arr13_2 V c) (ix2 p q)

end Cert.KernelIdeal.Vals

end
-- ==== Proof.KI.Value14.lean ====
/- Region 14 of @main, value side: a tall matrix product as one function of the arrays the region is entered with.

   The region computes  out = A · B  for A of 4096 x 4096 and B of 4096 x 256 in eight row tiles: at grid point t it
   reads rows 512 t … 512 t + 511 of A and the whole of B and writes the same rows of out, each entry the sum over the
   4096 contracted positions of the products (a change of float format is the identity on the extended reals, and a
   sum started from the zero accumulator is the sum).  Row r of the product depends on row r of A alone, so what each
   point writes back is its row tile of the whole-array function
       out p q = Σ_k A p k · B k q ;
   the eight row tiles cover the array (row p lies in tile p / 512), so after the region the array IS that function. -/
import proofs.«169176_j23261542875327_2_alg».proof.Proof.KI.Region14
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal Cert.KernelIdeal.Gen Cert.KernelIdeal.Regs
open Idealize.ShloMosaic Idealize.ShloMosaic.TcCoe Idealize.SL.Sem Idealize.ShloMosaic.ValueIdx
open Idealize.ShloMosaic.Pipeline (Dat)

-- what the TensorCore's buffers hold when the region is entered
variable (V : (c : Dev nD) → (b : Ref sig .tc) → Buf (Elt Ideal) ((c : Thread nD τ).loc b))

/-- The zero offsets of a whole-block rectangle, as the constant function. -/
theorem zeros14 : (![0, 0] : Fin 2 → Nat) = fun _ => 0 := funext fun a => by fin_cases a <;> rfl

/-- The product of whole arrays, entry by entry: out p q = Σ_k a p k · b k q. -/
def mm14 (a : S4096x4096.Idx → EReal) (b : S4096x256.Idx → EReal) : S4096x256.Idx → EReal :=
  fun i => ∑ k : Fin 4096, a (ix2 (i 0) k) * b (ix2 k (i 1))

/-- The body's payload on a row tile and the right matrix, at an entry of the output tile: the contraction over the
    4096 shared positions. -/
theorem pay14_at (x0 : Vec Ideal S512x4096 .bf16) (x1 : Vec Ideal S4096x256 .f32) (p : Fin 512) (q : Fin 256) :
    k14_pay1 (F := Ideal) x0 x1 (ix2 p q) = ∑ k : Fin 4096, x0 (ix2 p k) * x1 (ix2 k q) := by
  unfold k14_pay1
  simp only [shapeCast_self, matmul]
  rw [Ideal.matmul_constant_zero_apply,
    ← Equiv.sum_comp (contrEquiv1 dot_S512x4096_S4096x256_S512x256_1_0_0_1_n_n 4096 rfl rfl).symm]
  refine Finset.sum_congr rfl fun k _ => ?_
  have ck := contrEquiv1_symm_val dot_S512x4096_S4096x256_S512x256_1_0_0_1_n_n 4096 rfl rfl k
  have hl : DotDims.lhsIdx dot_S512x4096_S4096x256_S512x256_1_0_0_1_n_n (ix2 p q)
      ((contrEquiv1 dot_S512x4096_S4096x256_S512x256_1_0_0_1_n_n 4096 rfl rfl).symm k) = ix2 p k := by
    funext ax; apply Fin.ext
    match ax with
    | ⟨0, _⟩ => simp [DotDims.lhsIdx, dot_S512x4096_S4096x256_S512x256_1_0_0_1_n_n]; rfl
    | ⟨1, _⟩ => simp [DotDims.lhsIdx, dot_S512x4096_S4096x256_S512x256_1_0_0_1_n_n]; exact ck
  have hr : DotDims.rhsIdx dot_S512x4096_S4096x256_S512x256_1_0_0_1_n_n (ix2 p q)
      ((contrEquiv1 dot_S512x4096_S4096x256_S512x256_1_0_0_1_n_n 4096 rfl rfl).symm k) = ix2 k q := by
    funext ax; apply Fin.ext
    match ax with
    | ⟨0, _⟩ => simp [DotDims.rhsIdx, dot_S512x4096_S4096x256_S512x256_1_0_0_1_n_n]; exact ck
    | ⟨1, _⟩ => simp [DotDims.rhsIdx, dot_S512x4096_S4096x256_S512x256_1_0_0_1_n_n]; rfl
  rw [hl, hr]
  rfl

/-- The same at any entry of the output tile, named by its two coordinates. -/
theorem pay14_idx (x0 : Vec Ideal S512x4096 .bf16) (x1 : Vec Ideal S4096x256 .f32) (j : S512x256.Idx) :
    k14_pay1 (F := Ideal) x0 x1 j = ∑ k : Fin 4096, x0 (ix2 (j 0) k) * x1 (ix2 k (j 1)) := by
  obtain ⟨p, q, rfl⟩ : ∃ (p : Fin 512) (q : Fin 256), j = ix2 p q := ⟨j 0, j 1, eq_ix2 j⟩
  exact pay14_at x0 x1 p q

/-- A tile whose rows are rows of A, against a block that is B, gives those rows of the product. -/
theorem pay14_rows (A : S4096x4096.Idx → EReal) (B : S4096x256.Idx → EReal)
    (x0 : Vec Ideal S512x4096 .bf16) (x1 : Vec Ideal S4096x256 .f32) (j : S512x256.Idx) (i : S4096x256.Idx)
    (h0 : ∀ k : Fin 4096, x0 (ix2 (j 0) k) = A (ix2 (i 0) k)) (h1 : ∀ k : Fin 4096, x1 (ix2 k (j 1)) = B (ix2 k (i 1))) :
    k14_pay1 (F := Ideal) x0 x1 j = mm14 A B i := by
  rw [pay14_idx]
  exact Finset.sum_congr rfl fun k _ => by rw [h0 k, h1 k]

/-- The index maps at every grid point: the row tile of A and of the result move together along the rows and sit at
    column block 0; B's block never moves. -/
theorem idx14 : ∀ t : Fin cfg14.N, win14_0.index t (0 : Fin 2) = win14_2.index t (0 : Fin 2)
    ∧ win14_0.index t (1 : Fin 2) = 0
    ∧ win14_1.index t (0 : Fin 2) = 0
    ∧ win14_1.index t (1 : Fin 2) = 0
    ∧ win14_2.index t (1 : Fin 2) = 0 :=
  (by decide +kernel : ∀ t : Fin grid14.N, _)

/-- Every row tile is some grid point's. -/
theorem onto14 : ∀ q0 : Fin 8, ∃ t : Fin cfg14.N, win14_2.index t = ![q0.val, 0] :=
  (by decide +kernel : ∀ q0 : Fin 8, ∃ t : Fin grid14.N, win14_2.index t = ![q0.val, 0])

set_option maxHeartbeats 1000000 in
/-- What grid point t writes back is its row tile of the whole-array product. -/
theorem flushed14_2 (c : Dev nD) (t : Fin cfg14.N) :
    (dat14 (F := Ideal) V c).flushed 2 t
      = ((cfg14.win 2).blk t).view.read (Elt Ideal) (mm14 (V c main_v1) (V c main_v167)) := by
  show (cfg14.win 2).cut (grid14.coords t) ((dat14 (F := Ideal) V c).after 2 t) = _
  rw [dat14_after_2]
  unfold left14_2
  rw [View.canon_unit_zero zeros14]
  simp only [View.ld_unit_zero (S := S512x4096) zeros14, View.ld_unit_zero (S := S4096x256) zeros14]
  obtain ⟨e0, e1, e2, e3, e4⟩ := idx14 t
  funext j
  refine pay14_rows (V c main_v1) (V c main_v167) _ _ _ (((cfg14.win 2).blk t).view.emb j) (fun k => ?_) (fun k => ?_)
  · show V c main_v1 (((cfg14.win 0).blk t).view.emb (ix2 (j 0) k)) = V c main_v1 (ix2 ((((cfg14.win 2).blk t).view.emb j) 0) k)
    congr 1
    funext a; apply Fin.ext
    match a with
    | ⟨0, _⟩ => show win14_0.index t (0 : Fin 2) * 512 + 1 * (j 0).val = win14_2.index t (0 : Fin 2) * 512 + 1 * (j 0).val; rw [e0]
    | ⟨1, _⟩ => show win14_0.index t (1 : Fin 2) * 4096 + 1 * k.val = k.val; rw [e1]; omega
  · show V c main_v167 (((cfg14.win 1).blk t).view.emb (ix2 k (j 1))) = V c main_v167 (ix2 k ((((cfg14.win 2).blk t).view.emb j) 1))
    congr 1
    funext a; apply Fin.ext
    match a with
    | ⟨0, _⟩ => show win14_1.index t (0 : Fin 2) * 4096 + 1 * k.val = k.val; rw [e2]; omega
    | ⟨1, _⟩ => show win14_1.index t (1 : Fin 2) * 256 + 1 * (j 1).val = win14_2.index t (1 : Fin 2) * 256 + 1 * (j 1).val; rw [e3, e4]

/-- An entry of the array is in point t's tile iff each coordinate is in the tile's range on its axis. -/
theorem mem_blk14_2 (t : Fin cfg14.N) (i : S4096x256.Idx) :
    i ∈ ((cfg14.win 2).blk t).view.set
      ↔ ∀ a : Fin 2, win14_2.index t a * S512x256.size a ≤ (i a).val
          ∧ (i a).val < win14_2.index t a * S512x256.size a + S512x256.size a := by
  show i ∈ ((View.whole main_v168).slice (win14_2.rect t)).set ↔ _
  rw [View.set_slice_whole, Rect.mem_set_unit]
  exact Iff.rfl

/-- The row tiles cover the array: row p is in the tile of the point whose index is (p / 512, 0). -/
theorem cover14_2 (i : S4096x256.Idx) :
    ∃ t : Fin cfg14.N, (cfg14.win 2).flush t = true ∧ i ∈ ((cfg14.win 2).blk t).view.set := by
  have hi0 : (i 0).val < 4096 := (i 0).isLt
  have hi1 : (i 1).val < 256 := (i 1).isLt
  obtain ⟨t, ht⟩ := onto14 ⟨(i 0).val / 512, by omega⟩
  have q0 : win14_2.index t (0 : Fin 2) = (i 0).val / 512 := congrFun ht 0
  have q1 : win14_2.index t (1 : Fin 2) = 0 := congrFun ht 1
  refine ⟨t, flush14_2 t, ?_⟩
  rw [mem_blk14_2]
  intro a
  match a with
  | ⟨0, _⟩ => show win14_2.index t (0 : Fin 2) * 512 ≤ (i 0).val ∧ (i 0).val < win14_2.index t (0 : Fin 2) * 512 + 512; omega
  | ⟨1, _⟩ => show win14_2.index t (1 : Fin 2) * 256 ≤ (i 1).val ∧ (i 1).val < win14_2.index t (1 : Fin 2) * 256 + 256; omega

/-- After the region the result array is the product of the two input arrays as the region found them. -/
theorem arr14_2 (c : Dev nD) :
    (dat14 (F := Ideal) V c).arrAt 2 cfg14.N = mm14 (V c main_v1) (V c main_v167) :=
  (dat14 (F := Ideal) V c).arrAt_eq_of_cover 2 (mm14 (V c main_v1) (V c main_v167))
    (fun t _ => flushed14_2 V c t) cover14_2

/-- Entry by entry: out p q = Σ_k A p k · B k q. -/
theorem value14_2 (c : Dev nD) (p : Fin 4096) (q : Fin 256) :
    @Eq EReal ((dat14 (F := Ideal) V c).arrAt 2 cfg14.N (ix2 p q))
      (∑ k : Fin 4096, HMul.hMul (α := EReal) (β := EReal) (γ := EReal) (V c main_v1 (ix2 p k)) (V c main_v167 (ix2 k q))) :=
  congrFun (arr14_2 V c) (ix2 p q)

end Cert.KernelIdeal.Vals

end
-- ==== Proof.KI.Value15.lean ====
/- Region 15 of @main, value side: the edge-potential update as one function of the arrays the region is entered
   with.

   The region computes  EP = y · yᵀ − mea − ½ M  (y of 4096 x 256; mea, M, EP of 4096 x 4096) in a 4 x 4 grid of
   1024 x 1024 tiles: at grid point (i, j) it reads row blocks i and j of y and tile (i, j) of mea and of M, and writes
   tile (i, j) of EP, each entry the sum over the 256 contracted positions of the products of the two rows of y (a
   change of float format is the identity on the extended reals, and a sum started from the zero accumulator is the
   sum), less the entry of mea, less half the entry of M.  Entry (p, q) depends on rows p and q of y and on entry
   (p, q) of mea and M alone, so what each point writes back is its tile of the whole-array function
       EP p q = ((Σ_l y p l · y q l) − mea p q) − ½ · M p q ;
   the sixteen tiles cover the array (entry (p, q) lies in tile (p / 1024, q / 1024)), so after the region the array
   IS that function. -/
import proofs.«169176_j23261542875327_2_alg».proof.Proof.KI.Region15
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal Cert.KernelIdeal.Gen Cert.KernelIdeal.Regs
open Idealize.ShloMosaic Idealize.ShloMosaic.TcCoe Idealize.SL.Sem Idealize.ShloMosaic.ValueIdx
open Idealize.ShloMosaic.Pipeline (Dat)

-- what the TensorCore's buffers hold when the region is entered
variable (V : (c : Dev nD) → (b : Ref sig .tc) → Buf (Elt Ideal) ((c : Thread nD τ).loc b))

/-- The zero offsets of a whole-block rectangle, as the constant function. -/
theorem zeros15 : (![0, 0] : Fin 2 → Nat) = fun _ => 0 := funext fun a => by fin_cases a <;> rfl

/-- The updated edge potential of whole arrays, entry by entry: out p q = ((Σ_l y p l · y q l) − e p q) − ½ · m p q. -/
def gramUpd15 (y : S4096x256.Idx → EReal) (e m : S4096x4096.Idx → EReal) : S4096x4096.Idx → EReal :=
  fun i => ((∑ l : Fin 256, y (ix2 (i 0) l) * y (ix2 (i 1) l)) - e i) - Ideal.ofBits .f32 0x3F000000#32 * m i

/-- The product of a 1024 x 256 block with the transpose of another into the zero accumulator, at an entry: the sum
    over the 256 shared positions of the products of the two rows. -/
theorem gram15_at (a b : FVec Ideal S1024x256 .bf16) (p q : Fin 1024) :
    matmul dot_S1024x256_S1024x256_S1024x1024_1_1_0_0_n_n none a b (constant (F := Ideal) S1024x1024 .f32 0x00000000#32) (ix2 p q)
      = ∑ l : Fin 256, a (ix2 p l) * b (ix2 q l) := by
  simp only [matmul]
  rw [Ideal.matmul_constant_zero_apply,
    ← Equiv.sum_comp (contrEquiv1 dot_S1024x256_S1024x256_S1024x1024_1_1_0_0_n_n 256 rfl rfl).symm]
  refine Finset.sum_congr rfl fun k _ => ?_
  have ck := contrEquiv1_symm_val dot_S1024x256_S1024x256_S1024x1024_1_1_0_0_n_n 256 rfl rfl k
  have hl : DotDims.lhsIdx dot_S1024x256_S1024x256_S1024x1024_1_1_0_0_n_n (ix2 p q)
      ((contrEquiv1 dot_S1024x256_S1024x256_S1024x1024_1_1_0_0_n_n 256 rfl rfl).symm k) = ix2 p k := by
    funext ax; apply Fin.ext
    match ax with
    | ⟨0, _⟩ => simp [DotDims.lhsIdx, dot_S1024x256_S1024x256_S1024x1024_1_1_0_0_n_n]; rfl
    | ⟨1, _⟩ => simp [DotDims.lhsIdx, dot_S1024x256_S1024x256_S1024x1024_1_1_0_0_n_n]; exact ck
  have hr : DotDims.rhsIdx dot_S1024x256_S1024x256_S1024x1024_1_1_0_0_n_n (ix2 p q)
      ((contrEquiv1 dot_S1024x256_S1024x256_S1024x1024_1_1_0_0_n_n 256 rfl rfl).symm k) = ix2 q k := by
    funext ax; apply Fin.ext
    match ax with
    | ⟨0, _⟩ => simp [DotDims.rhsIdx, dot_S1024x256_S1024x256_S1024x1024_1_1_0_0_n_n]; rfl
    | ⟨1, _⟩ => simp [DotDims.rhsIdx, dot_S1024x256_S1024x256_S1024x1024_1_1_0_0_n_n]; exact ck
  rw [hl, hr]

/-- The body's payload at an entry of the tile. -/
theorem pay15_at (x0 x1 : Vec Ideal S1024x256 .f32) (x2 x3 : Vec Ideal S1024x1024 .f32) (p q : Fin 1024) :
    k15_pay1 (F := Ideal) x0 x1 x2 x3 (ix2 p q)
      = ((∑ l : Fin 256, x0 (ix2 p l) * x1 (ix2 q l)) - x2 (ix2 p q)) - Ideal.ofBits .f32 0x3F000000#32 * x3 (ix2 p q) := by
  unfold k15_pay1
  simp only [shapeCast_self, subf_apply, mulf_apply, broadcast_apply]
  rw [gram15_at]
  rfl

/-- The same at any entry of the tile, named by its two coordinates. -/
theorem pay15_idx (x0 x1 : Vec Ideal S1024x256 .f32) (x2 x3 : Vec Ideal S1024x1024 .f32) (j : S1024x1024.Idx) :
    k15_pay1 (F := Ideal) x0 x1 x2 x3 j
      = ((∑ l : Fin 256, x0 (ix2 (j 0) l) * x1 (ix2 (j 1) l)) - x2 j) - Ideal.ofBits .f32 0x3F000000#32 * x3 j := by
  obtain ⟨p, q, rfl⟩ : ∃ (p : Fin 1024) (q : Fin 1024), j = ix2 p q := ⟨j 0, j 1, eq_ix2 j⟩
  exact pay15_at x0 x1 x2 x3 p q

/-- Blocks whose rows are rows of y, and tiles whose entry is the entry of the two square arrays, give that entry of
    the whole-array function. -/
theorem pay15_rows (Y : S4096x256.Idx → EReal) (E M : S4096x4096.Idx → EReal)
    (x0 x1 : Vec Ideal S1024x256 .f32) (x2 x3 : Vec Ideal S1024x1024 .f32) (j : S1024x1024.Idx) (i : S4096x4096.Idx)
    (h0 : ∀ l : Fin 256, x0 (ix2 (j 0) l) = Y (ix2 (i 0) l)) (h1 : ∀ l : Fin 256, x1 (ix2 (j 1) l) = Y (ix2 (i 1) l))
    (h2 : x2 j = E i) (h3 : x3 j = M i) :
    k15_pay1 (F := Ideal) x0 x1 x2 x3 j = gramUpd15 Y E M i := by
  have hs : (∑ l : Fin 256, x0 (ix2 (j 0) l) * x1 (ix2 (j 1) l)) = ∑ l : Fin 256, Y (ix2 (i 0) l) * Y (ix2 (i 1) l) :=
    Finset.sum_congr rfl fun l _ => by rw [h0 l, h1 l]
  rw [pay15_idx, hs, h2, h3]
  rfl

/-- The index maps at every grid point: the first block of y sits at the tile's row block and the second at its column
    block, both at column block 0; the tiles of the two square operands sit where the result's tile does. -/
theorem idx15 : ∀ t : Fin cfg15.N, win15_0.index t (0 : Fin 2) = win15_4.index t (0 : Fin 2)
    ∧ win15_0.index t (1 : Fin 2) = 0
    ∧ win15_1.index t (0 : Fin 2) = win15_4.index t (1 : Fin 2)
    ∧ win15_1.index t (1 : Fin 2) = 0
    ∧ win15_2.index t (0 : Fin 2) = win15_4.index t (0 : Fin 2)
    ∧ win15_2.index t (1 : Fin 2) = win15_4.index t (1 : Fin 2)
    ∧ win15_3.index t (0 : Fin 2) = win15_4.index t (0 : Fin 2)
    ∧ win15_3.index t (1 : Fin 2) = win15_4.index t (1 : Fin 2) :=
  (by decide +kernel : ∀ t : Fin grid15.N, _)

/-- Every tile is some grid point's. -/
theorem onto15 : ∀ q0 q1 : Fin 4, ∃ t : Fin cfg15.N, win15_4.index t = ![q0.val, q1.val] :=
  (by decide +kernel : ∀ q0 q1 : Fin 4, ∃ t : Fin grid15.N, win15_4.index t = ![q0.val, q1.val])

/-- What grid point t writes back is its tile of the whole-array function. -/
theorem flushed15_4 (c : Dev nD) (t : Fin cfg15.N) :
    (dat15 (F := Ideal) V c).flushed 4 t
      = ((cfg15.win 4).blk t).view.read (Elt Ideal) (gramUpd15 (V c main_v125) (V c main_v0) (V c main_v210)) := by
  show (cfg15.win 4).cut (grid15.coords t) ((dat15 (F := Ideal) V c).after 4 t) = _
  rw [dat15_after_4]
  unfold left15_4
  rw [View.canon_unit_zero zeros15]
  simp only [View.ld_unit_zero (S := S1024x256) zeros15, View.ld_unit_zero (S := S1024x1024) zeros15]
  obtain ⟨e0, e1, e2, e3, e4, e5, e6, e7⟩ := idx15 t
  funext j
  refine pay15_rows (V c main_v125) (V c main_v0) (V c main_v210) _ _ _ _ _ (((cfg15.win 4).blk t).view.emb j)
    (fun l => ?_) (fun l => ?_) ?_ ?_
  · show V c main_v125 (((cfg15.win 0).blk t).view.emb (ix2 (j 0) l)) = V c main_v125 (ix2 ((((cfg15.win 4).blk t).view.emb j) 0) l)
    refine congrArg (V c main_v125) ?_
    funext a; apply Fin.ext
    match a with
    | ⟨0, _⟩ => show win15_0.index t (0 : Fin 2) * 1024 + 1 * (j 0).val = win15_4.index t (0 : Fin 2) * 1024 + 1 * (j 0).val; rw [e0]
    | ⟨1, _⟩ => show win15_0.index t (1 : Fin 2) * 256 + 1 * l.val = l.val; rw [e1]; omega
  · show V c main_v125 (((cfg15.win 1).blk t).view.emb (ix2 (j 1) l)) = V c main_v125 (ix2 ((((cfg15.win 4).blk t).view.emb j) 1) l)
    refine congrArg (V c main_v125) ?_
    funext a; apply Fin.ext
    match a with
    | ⟨0, _⟩ => show win15_1.index t (0 : Fin 2) * 1024 + 1 * (j 1).val = win15_4.index t (1 : Fin 2) * 1024 + 1 * (j 1).val; rw [e2]
    | ⟨1, _⟩ => show win15_1.index t (1 : Fin 2) * 256 + 1 * l.val = l.val; rw [e3]; omega
  · show V c main_v0 (((cfg15.win 2).blk t).view.emb j) = V c main_v0 (((cfg15.win 4).blk t).view.emb j)
    refine congrArg (V c main_v0) ?_
    funext a; apply Fin.ext
    match a with
    | ⟨0, _⟩ => show win15_2.index t (0 : Fin 2) * 1024 + 1 * (j 0).val = win15_4.index t (0 : Fin 2) * 1024 + 1 * (j 0).val; rw [e4]
    | ⟨1, _⟩ => show win15_2.index t (1 : Fin 2) * 1024 + 1 * (j 1).val = win15_4.index t (1 : Fin 2) * 1024 + 1 * (j 1).val; rw [e5]
  · show V c main_v210 (((cfg15.win 3).blk t).view.emb j) = V c main_v210 (((cfg15.win 4).blk t).view.emb j)
    refine congrArg (V c main_v210) ?_
    funext a; apply Fin.ext
    match a with
    | ⟨0, _⟩ => show win15_3.index t (0 : Fin 2) * 1024 + 1 * (j 0).val = win15_4.index t (0 : Fin 2) * 1024 + 1 * (j 0).val; rw [e6]
    | ⟨1, _⟩ => show win15_3.index t (1 : Fin 2) * 1024 + 1 * (j 1).val = win15_4.index t (1 : Fin 2) * 1024 + 1 * (j 1).val; rw [e7]

/-- An entry of the array is in point t's tile iff each coordinate is in the tile's range on its axis. -/
theorem mem_blk15_4 (t : Fin cfg15.N) (i : S4096x4096.Idx) :
    i ∈ ((cfg15.win 4).blk t).view.set
      ↔ ∀ a : Fin 2, win15_4.index t a * S1024x1024.size a ≤ (i a).val
          ∧ (i a).val < win15_4.index t a * S1024x1024.size a + S1024x1024.size a := by
  show i ∈ ((View.whole main_v211).slice (win15_4.rect t)).set ↔ _
  rw [View.set_slice_whole, Rect.mem_set_unit]
  exact Iff.rfl

/-- The tiles cover the array: entry (p, q) is in the tile of the point whose index is (p / 1024, q / 1024). -/
theorem cover15_4 (i : S4096x4096.Idx) :
    ∃ t : Fin cfg15.N, (cfg15.win 4).flush t = true ∧ i ∈ ((cfg15.win 4).blk t).view.set := by
  have hi0 : (i 0).val < 4096 := (i 0).isLt
  have hi1 : (i 1).val < 4096 := (i 1).isLt
  obtain ⟨t, ht⟩ := onto15 ⟨(i 0).val / 1024, by omega⟩ ⟨(i 1).val / 1024, by omega⟩
  have q0 : win15_4.index t (0 : Fin 2) = (i 0).val / 1024 := congrFun ht 0
  have q1 : win15_4.index t (1 : Fin 2) = (i 1).val / 1024 := congrFun ht 1
  refine ⟨t, flush15_4 t, ?_⟩
  rw [mem_blk15_4]
  intro a
  match a with
  | ⟨0, _⟩ => show win15_4.index t (0 : Fin 2) * 1024 ≤ (i 0).val ∧ (i 0).val < win15_4.index t (0 : Fin 2) * 1024 + 1024; omega
  | ⟨1, _⟩ => show win15_4.index t (1 : Fin 2) * 1024 ≤ (i 1).val ∧ (i 1).val < win15_4.index t (1 : Fin 2) * 1024 + 1024; omega

/-- After the region the result array is the whole-array function of the arrays the region found. -/
theorem arr15_4 (c : Dev nD) :
    (dat15 (F := Ideal) V c).arrAt 4 cfg15.N = gramUpd15 (V c main_v125) (V c main_v0) (V c main_v210) :=
  (dat15 (F := Ideal) V c).arrAt_eq_of_cover 4 (gramUpd15 (V c main_v125) (V c main_v0) (V c main_v210))
    (fun t _ => flushed15_4 V c t) cover15_4

/-- Entry by entry: EP p q = ((Σ_l y p l · y q l) − mea p q) − ½ · M p q. -/
theorem value15_4 (c : Dev nD) (p q : Fin 4096) :
    @Eq EReal ((dat15 (F := Ideal) V c).arrAt 4 cfg15.N (ix2 p q))
      (HSub.hSub (α := EReal) (β := EReal) (γ := EReal)
        (HSub.hSub (α := EReal) (β := EReal) (γ := EReal)
          (∑ l : Fin 256, HMul.hMul (α := EReal) (β := EReal) (γ := EReal) (V c main_v125 (ix2 p l)) (V c main_v125 (ix2 q l)))
          (V c main_v0 (ix2 p q)))
        (HMul.hMul (α := EReal) (β := EReal) (γ := EReal) (Ideal.ofBits .f32 0x3F000000#32) (V c main_v210 (ix2 p q)))) :=
  congrFun (arr15_4 V c) (ix2 p q)

end Cert.KernelIdeal.Vals

end
-- ==== Proof.KI.HostRead3.lean ====
/-
  Layer 3 of the idealized kernel program, items 28–36 of @main, read at array level.

  The layer is entered with the features y, the positions z and the edge potential EP of the network after 3 layers.
  In the program's order:
      item 28   y rounded to bf16 for the regions                         (host)
      item 29   oy = (adj ∘ EP + mea) · y,  oz = (adj ∘ EP + mea) · z          (region 12)
      item 30   t1 = EPᵀ · y                                                (region 13)
      item 31   temp = (t1 + oy) − y · (yᵀ · y)                             (host)
      item 32   u = w1 · temp                                               (region 14)
      item 33   y' = 0.5 · (1 / (1 + exp (−u))) + feat,  z' = z − oz,
                the differences z[i_e] − z[j_e] of the edges' end rows      (host)
      item 34   their Euclidean norms                                       (host)
      item 35   M: the norms times the edge values, scatter-added           (host)
      item 36   EP' = (y · yᵀ − mea) − 0.5 · M                              (region 15)
  A host stretch's result is read off its operations over an arbitrary start valuation (so that a boundary's
  definition is opened one stretch at a time); a region's result is its whole-array value; every other buffer is
  carried unchanged, item by item (the keep lemmas of the common module).  Together: the state after 3 layers at boundary 27 gives the state after 4
  layers at boundary 36.
-/
import proofs.«169176_j23261542875327_2_alg».proof.Proof.KI.Stages
import proofs.«169176_j23261542875327_2_alg».proof.Proof.KI.HostKeep
import proofs.«169176_j23261542875327_2_alg».proof.Proof.KI.HostAt
import proofs.«169176_j23261542875327_2_alg».proof.Proof.KDefs
import proofs.«169176_j23261542875327_2_alg».proof.Proof.KI.Value12
import proofs.«169176_j23261542875327_2_alg».proof.Proof.KI.Value13
import proofs.«169176_j23261542875327_2_alg».proof.Proof.KI.Value14
import proofs.«169176_j23261542875327_2_alg».proof.Proof.KI.Value15
import Idealize.ShloMosaic.Lib.StableHlo.Run
import Idealize.ShloMosaic.PureOps.Ideal

set_option maxRecDepth 65536

noncomputable section

namespace Cert.KernelIdeal.Run

open Idealize.ShloMosaic Idealize.ShloMosaic.TcCoe Idealize.SL.Sem
open Cert.KernelIdeal Cert.KernelIdeal.Gen Cert.KernelIdeal.GenP Cert.KernelIdeal.Regs Cert.KernelIdeal.Vals

/-- Equality at a stated type: the two sides are buffers' contents and named arrays, equal as arrays of that type. -/
local notation:50 a " =[" T "] " b => @Eq T a b

/-! ## The host stretches, over an arbitrary start -/

theorem ops12_main_v160 (X : Valuation τ sig (Elt Ideal)) :
    StableHlo.after hostOps12 X (Proc.devRef .tc main_v160) =[FVec Ideal S4096x256 .bf16]
      KDefs.bf42 (X (Proc.devRef .tc main_v125)) := by
  after_results_simp; rfl

theorem ops14_main_v167 (X : Valuation τ sig (Elt Ideal)) :
    StableHlo.after hostOps14 X (Proc.devRef .tc main_v167) =[FVec Ideal S4096x256 .f32]
      KDefs.tempOf (X (Proc.devRef .tc main_v162)) (X (Proc.devRef .tc main_v161_0)) (KDefs.gramTimes (X (Proc.devRef .tc main_v125))) := by
  after_results_simp; rfl

set_option maxHeartbeats 4000000 in
theorem ops15_main_v177 (X : Valuation τ sig (Elt Ideal)) :
    StableHlo.after hostOps15 X (Proc.devRef .tc main_v177) =[FVec Ideal S4096x256 .f32]
      KDefs.yNext (KDefs.sigOf (X (Proc.devRef .tc main_v168))) (X (Proc.devRef .tc main_arg0)) := by
  after_results_simp; rfl

set_option maxHeartbeats 4000000 in
theorem ops15_main_v178 (X : Valuation τ sig (Elt Ideal)) :
    StableHlo.after hostOps15 X (Proc.devRef .tc main_v178) =[FVec Ideal S4096x256 .f32]
      KDefs.zNext (X (Proc.devRef .tc main_v126)) (X (Proc.devRef .tc main_v161_1)) := by
  after_results_simp; rfl

set_option maxHeartbeats 4000000 in
theorem ops15_main_v193 (X : Valuation τ sig (Elt Ideal)) :
    StableHlo.after hostOps15 X (Proc.devRef .tc main_v193) =[FVec Ideal S65536x256 .f32]
      KDefs.edgeDiff (X (Proc.devRef .tc main_v126)) (X (Proc.devRef .tc main_arg9)) (X (Proc.devRef .tc main_arg10)) := by
  after_results_simp; rfl

theorem ops15_1_main_v194 (X : Valuation τ sig (Elt Ideal)) :
    StableHlo.after hostOps15_1 X (Proc.devRef .tc main_v194) =[FVec Ideal S65536 .f32]
      KDefs.rowNormE (X (Proc.devRef .tc main_v193)) := by
  after_results_simp; rfl

set_option maxHeartbeats 4000000 in
theorem ops15_2_main_v210 (X : Valuation τ sig (Elt Ideal)) :
    StableHlo.after hostOps15_2 X (Proc.devRef .tc main_v210) =[FVec Ideal S4096x4096 .f32]
      KDefs.edgeM (mulf (F := Ideal) (s := S65536) (φ := .f32) (X (Proc.devRef .tc main_v194)) (X (Proc.devRef .tc main_arg8)))
        (X (Proc.devRef .tc main_arg9)) (X (Proc.devRef .tc main_arg10)) := by
  after_results_simp; rfl

variable (m : (ℓ : Loc nD τ sig) → Buf (Elt Ideal) ℓ)

/-! ## What each region leaves in its output arrays -/

theorem S29_main_v161_0 (c : Dev nD) : S29 m c main_v161_0 = (dat12 (T28 m) c).arrAt 5 cfg12.N := by
  simp only [S29, Function.update_of_ne (StableHlo.devRef_ne_of_ne (by decide) : (Proc.devRef .tc main_v161_0 : DevRef τ sig) ≠ Proc.devRef .tc main_v161_1), Function.update_self]
theorem S29_main_v161_1 (c : Dev nD) : S29 m c main_v161_1 = (dat12 (T28 m) c).arrAt 6 cfg12.N := by
  simp only [S29, Function.update_self]
theorem S30_main_v162 (c : Dev nD) : S30 m c main_v162 = (dat13 (T29 m) c).arrAt 2 cfg13.N := by
  simp only [S30, Function.update_self]
theorem S32_main_v168 (c : Dev nD) : S32 m c main_v168 = (dat14 (T31 m) c).arrAt 2 cfg14.N := by
  simp only [S32, Function.update_self]
theorem S36_main_v211 (c : Dev nD) : S36 m c main_v211 = (dat15 (T35 m) c).arrAt 4 cfg15.N := by
  simp only [S36, Function.update_self]

/-! ## The layer -/

set_option maxHeartbeats 4000000 in
/-- Layer 3: from the state after 3 layers at boundary 27 to the state after 4 layers at boundary 36. -/
theorem layer3 (a : KDefs.Args) (c : Dev nD) (h : At27 m a c) : At36 m a c := by
  obtain ⟨hy, hz, hEP, hmea, hw1, hfeat, hadj, hev, hei, hej, hw2w, hw2b⟩ := h
  -- item 28: y as the regions receive it
  have hyb : S28 m c main_v160 =[KDefs.T42b Ideal] KDefs.bf42 a.y3 := by
    show StableHlo.after hostOps12 (S27 m c) (Proc.devRef .tc main_v160) = _
    rw [ops12_main_v160 (S27 m c), hy]
  -- item 29: the two adjacency products
  have hoy : S29 m c main_v161_0 =[KDefs.T42 Ideal] a.oy3 := by
    rw [S29_main_v161_0, arr12_5 (T28 m) c]
    show mixProd12 (S28 m c main_arg6) (S28 m c main_v159) (S28 m c main_v0) (S28 m c main_v160) = _
    rw [S28_keep m c main_arg6 (by decide), S28_keep m c main_v159 (by decide), S28_keep m c main_v0 (by decide), hadj, hEP, hmea, hyb]
    rfl
  have hoz : S29 m c main_v161_1 =[KDefs.T42 Ideal] a.oz3 := by
    rw [S29_main_v161_1, arr12_6 (T28 m) c]
    show mixProd12 (S28 m c main_arg6) (S28 m c main_v159) (S28 m c main_v0) (S28 m c main_v126) = _
    rw [S28_keep m c main_arg6 (by decide), S28_keep m c main_v159 (by decide), S28_keep m c main_v0 (by decide), S28_keep m c main_v126 (by decide), hadj, hEP, hmea, hz]
    rfl
  -- item 30: EPᵀ · y
  have ht : S30 m c main_v162 =[KDefs.T42 Ideal] a.t3 := by
    rw [S30_main_v162, arr13_2 (T29 m) c]
    show mmT13 (S29 m c main_v159) (S29 m c main_v125) = _
    rw [S29_keep m c main_v159 (by decide), S28_keep m c main_v159 (by decide), S29_keep m c main_v125 (by decide), S28_keep m c main_v125 (by decide), hEP, hy]
    rfl
  -- item 31: temp
  have htemp : S31 m c main_v167 =[KDefs.T42 Ideal] a.temp3 := by
    show StableHlo.after hostOps14 (S30 m c) (Proc.devRef .tc main_v167) = _
    rw [ops14_main_v167 (S30 m c), ht, S30_keep m c main_v161_0 (by decide), hoy, S30_keep m c main_v125 (by decide), S29_keep m c main_v125 (by decide), S28_keep m c main_v125 (by decide), hy]
    rfl
  -- item 32: w1 · temp
  have hu : S32 m c main_v168 =[KDefs.T42 Ideal] a.u3 := by
    rw [S32_main_v168, arr14_2 (T31 m) c]
    show mm14 (S31 m c main_v1) (S31 m c main_v167) = _
    rw [S31_keep m c main_v1 (by decide), S30_keep m c main_v1 (by decide), S29_keep m c main_v1 (by decide), S28_keep m c main_v1 (by decide), hw1, htemp]
    rfl
  -- item 33: the next features and positions, and the edges' end-row differences
  have hyn : S33 m c main_v177 =[KDefs.T42 Ideal] a.y4 := by
    show StableHlo.after hostOps15 (S32 m c) (Proc.devRef .tc main_v177) = _
    rw [ops15_main_v177 (S32 m c), hu, S32_keep m c main_arg0 (by decide), S31_keep m c main_arg0 (by decide), S30_keep m c main_arg0 (by decide), S29_keep m c main_arg0 (by decide), S28_keep m c main_arg0 (by decide), hfeat]
    rfl
  have hzn : S33 m c main_v178 =[KDefs.T42 Ideal] a.z4 := by
    show StableHlo.after hostOps15 (S32 m c) (Proc.devRef .tc main_v178) = _
    rw [ops15_main_v178 (S32 m c), S32_keep m c main_v126 (by decide), S31_keep m c main_v126 (by decide), S30_keep m c main_v126 (by decide), S29_keep m c main_v126 (by decide), S28_keep m c main_v126 (by decide), hz, S32_keep m c main_v161_1 (by decide), S31_keep m c main_v161_1 (by decide), S30_keep m c main_v161_1 (by decide), hoz]
    rfl
  have hed : S33 m c main_v193 =[KDefs.TE2 Ideal] KDefs.edgeDiff a.z3 a.ei a.ej := by
    show StableHlo.after hostOps15 (S32 m c) (Proc.devRef .tc main_v193) = _
    rw [ops15_main_v193 (S32 m c), S32_keep m c main_v126 (by decide), S31_keep m c main_v126 (by decide), S30_keep m c main_v126 (by decide), S29_keep m c main_v126 (by decide), S28_keep m c main_v126 (by decide), hz, S32_keep m c main_arg9 (by decide), S31_keep m c main_arg9 (by decide), S30_keep m c main_arg9 (by decide), S29_keep m c main_arg9 (by decide), S28_keep m c main_arg9 (by decide), hei, S32_keep m c main_arg10 (by decide), S31_keep m c main_arg10 (by decide), S30_keep m c main_arg10 (by decide), S29_keep m c main_arg10 (by decide), S28_keep m c main_arg10 (by decide), hej]
  -- item 34: the differences' norms
  have hno : S34 m c main_v194 =[KDefs.TE Ideal] KDefs.rowNormE (KDefs.edgeDiff a.z3 a.ei a.ej) := by
    show StableHlo.after hostOps15_1 (S33 m c) (Proc.devRef .tc main_v194) = _
    rw [ops15_1_main_v194 (S33 m c), hed]
  -- item 35: the scattered edge matrix
  have hM : S35 m c main_v210 =[KDefs.T44 Ideal] a.M3 := by
    show StableHlo.after hostOps15_2 (S34 m c) (Proc.devRef .tc main_v210) = _
    rw [ops15_2_main_v210 (S34 m c), hno, S34_keep m c main_arg8 (by decide), S33_keep m c main_arg8 (by decide), S32_keep m c main_arg8 (by decide), S31_keep m c main_arg8 (by decide), S30_keep m c main_arg8 (by decide), S29_keep m c main_arg8 (by decide), S28_keep m c main_arg8 (by decide), hev, S34_keep m c main_arg9 (by decide), S33_keep m c main_arg9 (by decide), S32_keep m c main_arg9 (by decide), S31_keep m c main_arg9 (by decide), S30_keep m c main_arg9 (by decide), S29_keep m c main_arg9 (by decide), S28_keep m c main_arg9 (by decide), hei, S34_keep m c main_arg10 (by decide), S33_keep m c main_arg10 (by decide), S32_keep m c main_arg10 (by decide), S31_keep m c main_arg10 (by decide), S30_keep m c main_arg10 (by decide), S29_keep m c main_arg10 (by decide), S28_keep m c main_arg10 (by decide), hej]
    rfl
  -- item 36: the next edge potential
  have hEPn : S36 m c main_v211 =[KDefs.T44 Ideal] a.EP4 := by
    rw [S36_main_v211, arr15_4 (T35 m) c]
    show gramUpd15 (S35 m c main_v125) (S35 m c main_v0) (S35 m c main_v210) = _
    rw [S35_keep m c main_v125 (by decide), S34_keep m c main_v125 (by decide), S33_keep m c main_v125 (by decide), S32_keep m c main_v125 (by decide), S31_keep m c main_v125 (by decide), S30_keep m c main_v125 (by decide), S29_keep m c main_v125 (by decide), S28_keep m c main_v125 (by decide), hy, S35_keep m c main_v0 (by decide), S34_keep m c main_v0 (by decide), S33_keep m c main_v0 (by decide), S32_keep m c main_v0 (by decide), S31_keep m c main_v0 (by decide), S30_keep m c main_v0 (by decide), S29_keep m c main_v0 (by decide), S28_keep m c main_v0 (by decide), hmea, hM]
    rfl
  exact
    { y := by rw [S36_keep m c main_v177 (by decide), S35_keep m c main_v177 (by decide), S34_keep m c main_v177 (by decide)]; exact hyn
      z := by rw [S36_keep m c main_v178 (by decide), S35_keep m c main_v178 (by decide), S34_keep m c main_v178 (by decide)]; exact hzn
      EP := hEPn
      mea := by rw [S36_keep m c main_v0 (by decide), S35_keep m c main_v0 (by decide), S34_keep m c main_v0 (by decide), S33_keep m c main_v0 (by decide), S32_keep m c main_v0 (by decide), S31_keep m c main_v0 (by decide), S30_keep m c main_v0 (by decide), S29_keep m c main_v0 (by decide), S28_keep m c main_v0 (by decide)]; exact hmea
      w1b := by rw [S36_keep m c main_v1 (by decide), S35_keep m c main_v1 (by decide), S34_keep m c main_v1 (by decide), S33_keep m c main_v1 (by decide), S32_keep m c main_v1 (by decide), S31_keep m c main_v1 (by decide), S30_keep m c main_v1 (by decide), S29_keep m c main_v1 (by decide), S28_keep m c main_v1 (by decide)]; exact hw1
      feat := by rw [S36_keep m c main_arg0 (by decide), S35_keep m c main_arg0 (by decide), S34_keep m c main_arg0 (by decide), S33_keep m c main_arg0 (by decide), S32_keep m c main_arg0 (by decide), S31_keep m c main_arg0 (by decide), S30_keep m c main_arg0 (by decide), S29_keep m c main_arg0 (by decide), S28_keep m c main_arg0 (by decide)]; exact hfeat
      adj := by rw [S36_keep m c main_arg6 (by decide), S35_keep m c main_arg6 (by decide), S34_keep m c main_arg6 (by decide), S33_keep m c main_arg6 (by decide), S32_keep m c main_arg6 (by decide), S31_keep m c main_arg6 (by decide), S30_keep m c main_arg6 (by decide), S29_keep m c main_arg6 (by decide), S28_keep m c main_arg6 (by decide)]; exact hadj
      ev := by rw [S36_keep m c main_arg8 (by decide), S35_keep m c main_arg8 (by decide), S34_keep m c main_arg8 (by decide), S33_keep m c main_arg8 (by decide), S32_keep m c main_arg8 (by decide), S31_keep m c main_arg8 (by decide), S30_keep m c main_arg8 (by decide), S29_keep m c main_arg8 (by decide), S28_keep m c main_arg8 (by decide)]; exact hev
      ei := by rw [S36_keep m c main_arg9 (by decide), S35_keep m c main_arg9 (by decide), S34_keep m c main_arg9 (by decide), S33_keep m c main_arg9 (by decide), S32_keep m c main_arg9 (by decide), S31_keep m c main_arg9 (by decide), S30_keep m c main_arg9 (by decide), S29_keep m c main_arg9 (by decide), S28_keep m c main_arg9 (by decide)]; exact hei
      ej := by rw [S36_keep m c main_arg10 (by decide), S35_keep m c main_arg10 (by decide), S34_keep m c main_arg10 (by decide), S33_keep m c main_arg10 (by decide), S32_keep m c main_arg10 (by decide), S31_keep m c main_arg10 (by decide), S30_keep m c main_arg10 (by decide), S29_keep m c main_arg10 (by decide), S28_keep m c main_arg10 (by decide)]; exact hej
      w2w := by rw [S36_keep m c main_arg4 (by decide), S35_keep m c main_arg4 (by decide), S34_keep m c main_arg4 (by decide), S33_keep m c main_arg4 (by decide), S32_keep m c main_arg4 (by decide), S31_keep m c main_arg4 (by decide), S30_keep m c main_arg4 (by decide), S29_keep m c main_arg4 (by decide), S28_keep m c main_arg4 (by decide)]; exact hw2w
      w2b := by rw [S36_keep m c main_arg5 (by decide), S35_keep m c main_arg5 (by decide), S34_keep m c main_arg5 (by decide), S33_keep m c main_arg5 (by decide), S32_keep m c main_arg5 (by decide), S31_keep m c main_arg5 (by decide), S30_keep m c main_arg5 (by decide), S29_keep m c main_arg5 (by decide), S28_keep m c main_arg5 (by decide)]; exact hw2b }

end Cert.KernelIdeal.Run

end
-- ==== Proof.KI.HostReadTail.lean ====
/-
  The tail of the idealized kernel program, items 37–41 of @main, read at array level.

  After the fourth layer the program divides every row of the features y and of the positions z by max (its Euclidean
  norm, 1e-12), multiplies [ẑ | ŷ] by w2_w, adds the bias w2_b on every row, and takes log_softmax over the rows:
      item 37   the row norms of y                                          (host)
      item 38   ŷ: every row of y over max (its norm, eps)                  (host)
      item 39   the row norms of z                                          (host)
      item 40   ẑ likewise; [ẑ | ŷ] w2_w + w2_b                             (host)
      item 41   log_softmax                                                 (host)
  Each stretch's result is read off its operations over an arbitrary start valuation; every other buffer is carried
  unchanged (the keep lemmas of the common module).  Together: the state after four layers at boundary 36 gives the program's result at boundary 41.
-/
import proofs.«169176_j23261542875327_2_alg».proof.Proof.KI.Stages
import proofs.«169176_j23261542875327_2_alg».proof.Proof.KI.HostKeep
import proofs.«169176_j23261542875327_2_alg».proof.Proof.KDefs
import proofs.«169176_j23261542875327_2_alg».proof.Proof.KI.HostAt
import Idealize.ShloMosaic.Lib.StableHlo.Run
import Idealize.ShloMosaic.PureOps.Ideal

set_option maxRecDepth 65536

noncomputable section

namespace Cert.KernelIdeal.Run

open Idealize.ShloMosaic Idealize.ShloMosaic.TcCoe Idealize.SL.Sem
open Cert.KernelIdeal Cert.KernelIdeal.Gen Cert.KernelIdeal.GenP

/-- Equality at a stated type: the two sides are buffers' contents and named arrays, equal as arrays of that type. -/
local notation:50 a " =[" T "] " b => @Eq T a b

/-- Every row of y divided by max (n, eps), for a column n of row norms. -/
def normalizeBy {F : FTy → Type} [FloatOps F] (y : KDefs.T42 F) (n : KDefs.T41 F) : KDefs.T42 F :=
  (Host.divf : KDefs.T42 F → KDefs.T42 F → KDefs.T42 F) y
    ((broadcastInDim S4096x256 ![0, 1] bcast_S4096x1_S4096x256_0_1 : KDefs.T41 F → KDefs.T42 F) ((maximumf : KDefs.T41 F → KDefs.T41 F → KDefs.T41 F) n KDefs.epsCol))

/-- Normalising is dividing by the array's own row norms. -/
theorem normalize_eq {F : FTy → Type} [FloatOps F] (y : KDefs.T42 F) : KDefs.normalize y = normalizeBy y (KDefs.rowNorm y) := rfl

/-! ## The host stretches, over an arbitrary start -/

theorem ops16_main_v212 (X : Valuation τ sig (Elt Ideal)) :
    StableHlo.after hostOps16 X (Proc.devRef .tc main_v212) =[FVec Ideal S4096x1 .f32]
      KDefs.rowNorm (X (Proc.devRef .tc main_v177)) := by
  after_results_simp; rfl

theorem ops16_1_main_v216 (X : Valuation τ sig (Elt Ideal)) :
    StableHlo.after hostOps16_1 X (Proc.devRef .tc main_v216) =[FVec Ideal S4096x256 .f32]
      normalizeBy (X (Proc.devRef .tc main_v177)) (X (Proc.devRef .tc main_v212)) := by
  after_results_simp; rfl

theorem ops16_2_main_v217 (X : Valuation τ sig (Elt Ideal)) :
    StableHlo.after hostOps16_2 X (Proc.devRef .tc main_v217) =[FVec Ideal S4096x1 .f32]
      KDefs.rowNorm (X (Proc.devRef .tc main_v178)) := by
  after_results_simp; rfl

set_option maxHeartbeats 4000000 in
theorem ops16_3_main_v226 (X : Valuation τ sig (Elt Ideal)) :
    StableHlo.after hostOps16_3 X (Proc.devRef .tc main_v226) =[FVec Ideal S4096x16 .f32]
      KDefs.logits (normalizeBy (X (Proc.devRef .tc main_v178)) (X (Proc.devRef .tc main_v217))) (X (Proc.devRef .tc main_v216))
        (X (Proc.devRef .tc main_arg4)) (X (Proc.devRef .tc main_arg5)) := by
  after_results_simp; rfl

-- fifteen operations nested one in the next, each behind a change of the buffer's stated type
set_option maxRecDepth 4000000 in
set_option maxHeartbeats 4000000 in
theorem ops16_4_main_v227 (X : Valuation τ sig (Elt Ideal)) :
    StableHlo.after hostOps16_4 X (Proc.devRef .tc main_v227) =[FVec Ideal S4096x16 .f32]
      KDefs.logSoftmax (X (Proc.devRef .tc main_v226)) := by
  after_results_simp; rfl

variable (m : (ℓ : Loc nD τ sig) → Buf (Elt Ideal) ℓ)

/-! ## The tail -/

set_option maxHeartbeats 4000000 in
/-- From the state after four layers at boundary 36 to the program's result at boundary 41. -/
theorem tail (a : KDefs.Args) (c : Dev nD) (h : At36 m a c) : S41 m c main_v227 =[KDefs.T416 Ideal] a.out := by
  obtain ⟨hy, hz, hEP, hmea, hw1, hfeat, hadj, hev, hei, hej, hw2w, hw2b⟩ := h
  -- item 37: the row norms of y
  have hny : S37 m c main_v212 =[KDefs.T41 Ideal] KDefs.rowNorm a.y4 := by
    show StableHlo.after hostOps16 (S36 m c) (Proc.devRef .tc main_v212) = _
    rw [ops16_main_v212 (S36 m c), hy]
  -- item 38: ŷ
  have hyh : S38 m c main_v216 =[KDefs.T42 Ideal] KDefs.normalize a.y4 := by
    show StableHlo.after hostOps16_1 (S37 m c) (Proc.devRef .tc main_v216) = _
    rw [ops16_1_main_v216 (S37 m c), S37_keep m c main_v177 (by decide), hy, hny, ← normalize_eq]
  -- item 39: the row norms of z
  have hnz : S39 m c main_v217 =[KDefs.T41 Ideal] KDefs.rowNorm a.z4 := by
    show StableHlo.after hostOps16_2 (S38 m c) (Proc.devRef .tc main_v217) = _
    rw [ops16_2_main_v217 (S38 m c), S38_keep m c main_v178 (by decide), S37_keep m c main_v178 (by decide), hz]
  -- item 40: ẑ, and the KDefs.logits
  have hlg : S40 m c main_v226 =[KDefs.T416 Ideal] KDefs.logits (KDefs.normalize a.z4) (KDefs.normalize a.y4) a.w2w a.w2b := by
    show StableHlo.after hostOps16_3 (S39 m c) (Proc.devRef .tc main_v226) = _
    rw [ops16_3_main_v226 (S39 m c), S39_keep m c main_v178 (by decide), S38_keep m c main_v178 (by decide), S37_keep m c main_v178 (by decide), hz, hnz, ← normalize_eq,
      S39_keep m c main_v216 (by decide), hyh, S39_keep m c main_arg4 (by decide), S38_keep m c main_arg4 (by decide), S37_keep m c main_arg4 (by decide), hw2w, S39_keep m c main_arg5 (by decide), S38_keep m c main_arg5 (by decide), S37_keep m c main_arg5 (by decide), hw2b]
  -- item 41: log_softmax
  show StableHlo.after hostOps16_4 (S40 m c) (Proc.devRef .tc main_v227) = _
  rw [ops16_4_main_v227 (S40 m c), hlg]
  rfl

end Cert.KernelIdeal.Run

end
-- ==== Proof.KI.KernelResult.lean ====
/-
  The idealized kernel program's result, as the named function of the argument arrays.

  The layers' readings compose: the arguments at launch give the state after two layers at boundary 18, layer 2 takes
  it to boundary 27, layer 3 to boundary 36, and the tail to the program's result at boundary 41 — the last array
  @main writes.  So on every core the result buffer ends at the result of the named computation on the eleven
  argument arrays as the launch memory holds them.
-/
import proofs.«169176_j23261542875327_2_alg».proof.Proof.KI.HostAt
import proofs.«169176_j23261542875327_2_alg».proof.Proof.KI.HostRead
import proofs.«169176_j23261542875327_2_alg».proof.Proof.KI.HostRead2
import proofs.«169176_j23261542875327_2_alg».proof.Proof.KI.HostRead3
import proofs.«169176_j23261542875327_2_alg».proof.Proof.KI.HostReadTail

noncomputable section

namespace Cert.KernelIdeal.Run

open Idealize.ShloMosaic Idealize.ShloMosaic.TcCoe Idealize.SL.Sem
open Cert.KernelIdeal Cert.KernelIdeal.Gen Cert.KernelIdeal.GenP

variable (m : (ℓ : Loc nD τ sig) → Buf (Elt Ideal) ℓ)

/-- After @main, core `c`'s result buffer holds the named computation's result on the arguments at launch. -/
theorem result_eq (c : Dev nD) : @Eq (KDefs.T416 Ideal) (S41 m c main_v227) (argsOf m c).out :=
  tail m (argsOf m c) c (layer3 m (argsOf m c) c (layer2 m (argsOf m c) c (layers01 m c)))

end Cert.KernelIdeal.Run

end
-- ==== Proof.RefDefs.lean ====
/-
  The reference computation, as named functions of the eleven argument arrays.

  The reference is a four-layer graph network on N = 4096 nodes with 256 features.  With
  mea = 0.5 · EA · w22 (constant across layers), and from y₀ = feat, z₀ = z0, EP₀ = 1, one layer is
      A    = adj · EP + mea                                (pointwise)
      yyT  = y yᵀ
      temp = EPᵀ y + A y − yyT y
      y'   = 0.5 · (1 / (1 + exp (−(w1 temp)))) + feat
      z'   = z − A z
      P    = ‖z[i_e] − z[j_e]‖ · val_e                     (one number per edge e)
      M    = the edge numbers P scatter-added into a zero N × N matrix at (i_e, j_e)
      EP'  = (1 · (yyT − mea) − 0.5 · M) / 1
  and the result is log_softmax ([ẑ | ŷ] w2_w + w2_b) over the rows, ŷ and ẑ the last y and z with every row divided by
  max (its Euclidean norm, 1e-12).  Each function below is the composition of the whole-array operations the program
  performs for it, in the program's order; nothing here depends on the float instance.
-/
import proofs.«169176_j23261542875327_2_alg».proof.ReferenceIdeal
import proofs.«169176_j23261542875327_2_alg».proof.Proof.Gen.ReferenceIdeal

noncomputable section

namespace Cert.ReferenceIdeal.RefValue

open Cert.ReferenceIdeal Idealize.ShloMosaic Idealize.SL.Sem
open Cert.ReferenceIdeal.Facts₀

/-! ## The array types -/

abbrev T0 (F : FTy → Type) : Type := (⟨S_, .f32⟩ : BufTy).Contents (Elt F)
abbrev T42 (F : FTy → Type) : Type := (⟨S4096x256, .f32⟩ : BufTy).Contents (Elt F)
abbrev T24 (F : FTy → Type) : Type := (⟨S256x4096, .f32⟩ : BufTy).Contents (Elt F)
abbrev T44 (F : FTy → Type) : Type := (⟨S4096x4096, .f32⟩ : BufTy).Contents (Elt F)
abbrev T41 (F : FTy → Type) : Type := (⟨S4096x1, .f32⟩ : BufTy).Contents (Elt F)
abbrev T4 (F : FTy → Type) : Type := (⟨S4096, .f32⟩ : BufTy).Contents (Elt F)
abbrev T45 (F : FTy → Type) : Type := (⟨S4096x512, .f32⟩ : BufTy).Contents (Elt F)
abbrev T416 (F : FTy → Type) : Type := (⟨S4096x16, .f32⟩ : BufTy).Contents (Elt F)
abbrev TW (F : FTy → Type) : Type := (⟨S512x16, .f32⟩ : BufTy).Contents (Elt F)
abbrev TB16 (F : FTy → Type) : Type := (⟨S16, .f32⟩ : BufTy).Contents (Elt F)
abbrev T116 (F : FTy → Type) : Type := (⟨S1x16, .f32⟩ : BufTy).Contents (Elt F)
abbrev TE (F : FTy → Type) : Type := (⟨S65536, .f32⟩ : BufTy).Contents (Elt F)
abbrev TE2 (F : FTy → Type) : Type := (⟨S65536x256, .f32⟩ : BufTy).Contents (Elt F)
abbrev TI (F : FTy → Type) : Type := (⟨S65536, .i32⟩ : BufTy).Contents (Elt F)
abbrev TI0 (F : FTy → Type) : Type := (⟨S_, .i32⟩ : BufTy).Contents (Elt F)
abbrev TI1 (F : FTy → Type) : Type := (⟨S65536x1, .i32⟩ : BufTy).Contents (Elt F)
abbrev TI2 (F : FTy → Type) : Type := (⟨S65536x2, .i32⟩ : BufTy).Contents (Elt F)
abbrev TBool (F : FTy → Type) : Type := (⟨S65536, .i1⟩ : BufTy).Contents (Elt F)

variable {F : FTy → Type} [FloatOps F]

/-- The eleven argument arrays, in the program's order. -/
structure Args (F : FTy → Type) [FloatOps F] where
  feat : T42 F
  z0 : T42 F
  w1 : T44 F
  EA : T44 F
  w2w : TW F
  w2b : TB16 F
  adj : T44 F
  w22 : T44 F
  ev : TE F
  ei : TI F
  ej : TI F

/-! ## Constant arrays -/

def one0 : T0 F := constant S_ .f32 0x3F800000#32
def half0 : T0 F := constant S_ .f32 0x3F000000#32
def zero0 : T0 F := constant S_ .f32 0x00000000#32
def ones44 : T44 F := (broadcastInDim S4096x4096 ![] bcast_S_S4096x4096 : T0 F → T44 F) one0
def halves44 : T44 F := (broadcastInDim S4096x4096 ![] bcast_S_S4096x4096 : T0 F → T44 F) half0
def zeros44 : T44 F := (broadcastInDim S4096x4096 ![] bcast_S_S4096x4096 : T0 F → T44 F) zero0
def ones42 : T42 F := (broadcastInDim S4096x256 ![] bcast_S_S4096x256 : T0 F → T42 F) one0
def halves42 : T42 F := (broadcastInDim S4096x256 ![] bcast_S_S4096x256 : T0 F → T42 F) half0

/-! ## One layer -/

/-- mea = 0.5 · EA · w22. -/
def mea (EA w22 : T44 F) : T44 F := (mulf : T44 F → T44 F → T44 F) ((mulf : T44 F → T44 F → T44 F) halves44 EA) w22

/-- A = adj · EP + mea. -/
def Aof (adj EP m : T44 F) : T44 F := (addf : T44 F → T44 F → T44 F) ((mulf : T44 F → T44 F → T44 F) adj EP) m

/-- yᵀ. -/
def tr (y : T42 F) : T24 F := ((transpose S256x4096 [1, 0] · transposes_S4096x256_S256x4096_1_0) : T42 F → T24 F) y

/-- y yᵀ. -/
def yyTof (y : T42 F) : T44 F :=
  ((fun l r => Host.dotGeneral dot_S4096x256_S256x4096_S4096x4096_1_0_0_1_n_n none l r) : T42 F → T24 F → T44 F) y (tr y)

/-- EPᵀ. -/
def trSq (E : T44 F) : T44 F := ((transpose S4096x4096 [1, 0] · transposes_S4096x4096_S4096x4096_1_0) : T44 F → T44 F) E

/-- An N × N matrix times an N × 256 matrix. -/
def mm (A : T44 F) (y : T42 F) : T42 F :=
  ((fun l r => Host.dotGeneral dot_S4096x4096_S4096x256_S4096x256_1_0_0_1_n_n none l r) : T44 F → T42 F → T42 F) A y

/-- temp = EPᵀ y + A y − yyT y. -/
def tempOf (EP A yyT : T44 F) (y : T42 F) : T42 F :=
  (subf : T42 F → T42 F → T42 F) ((addf : T42 F → T42 F → T42 F) (mm (trSq EP) y) (mm A y)) (mm yyT y)

/-- 1 / (1 + exp (−t)). -/
def sigOf (t : T42 F) : T42 F :=
  (Host.divf : T42 F → T42 F → T42 F) ones42
    ((addf : T42 F → T42 F → T42 F) ones42 ((Host.exp : T42 F → T42 F) ((Host.negf : T42 F → T42 F) t)))

/-- 1 / (1 + exp (−(w1 temp))). -/
def sigm (w1 : T44 F) (temp : T42 F) : T42 F := sigOf (mm w1 temp)

/-- y' = 0.5 · s + feat. -/
def yNext (s feat : T42 F) : T42 F :=
  (addf : T42 F → T42 F → T42 F) ((mulf : T42 F → T42 F → T42 F) halves42 s) feat

/-- z' = z − A z. -/
def zNext (A : T44 F) (z : T42 F) : T42 F := (subf : T42 F → T42 F → T42 F) z (mm A z)

/-! ### The edge chain: node indices, gathered rows, edge numbers, the scattered matrix -/

def zerosI : TI F := (broadcastInDim S65536 ![] bcast_S_S65536 : TI0 F → TI F) (constantI S_ 32 0#32)
def nodesI : TI F := (broadcastInDim S65536 ![] bcast_S_S65536 : TI0 F → TI F) (constantI S_ 32 4096#32)
/-- idx < 0. -/
def ltz (idx : TI F) : TBool F := (cmpi .slt : TI F → TI F → TBool F) idx (zerosI (F := F))
/-- idx + N. -/
def plusN (idx : TI F) : TI F := (addi : TI F → TI F → TI F) idx (nodesI (F := F))
/-- A node index with a negative one wrapped once. -/
def nidx (idx : TI F) : TI F := (select : TBool F → TI F → TI F → TI F) (ltz idx) (plusN idx) idx
/-- The wrapped indices as a column. -/
def col (idx : TI F) : TI1 F := (broadcastInDim S65536x1 ![0] bcast_S65536_S65536x1_0 : TI F → TI1 F) (nidx idx)
/-- Row idx_e of z, for every edge e. -/
def gath (z : T42 F) (idx : TI F) : TE2 F :=
  ((fun x i => Host.gather gather_S4096x256_S65536x1_S65536x256_1_0_n_n_0_1_1256 x i) : T42 F → TI1 F → TE2 F) z (col idx)
/-- z[i_e] − z[j_e]. -/
def edgeDiff (z : T42 F) (ei ej : TI F) : TE2 F := (subf : TE2 F → TE2 F → TE2 F) (gath z ei) (gath z ej)
/-- The Euclidean norm of every row. -/
def rowNormE (d : TE2 F) : TE F :=
  Host.sqrt (Host.reduceAdd ((mulf : TE2 F → TE2 F → TE2 F) d d) (zero0 : T0 F) reducesTo_S65536x256_S65536_d1 h_S_)
/-- P_e = ‖z[i_e] − z[j_e]‖ · val_e. -/
def edgeP (z : T42 F) (ei ej : TI F) (ev : TE F) : TE F :=
  (mulf : TE F → TE F → TE F) (rowNormE (edgeDiff z ei ej)) ev
/-- The index pairs (i_e, j_e). -/
def pairIdx (ei ej : TI F) : TI2 F :=
  ((fun a b => concatenate S65536x2 1 [⟨S65536x1, a⟩, ⟨S65536x1, b⟩] concatenates_S65536x1_S65536x1_S65536x2_d1) : TI1 F → TI1 F → TI2 F)
    (col ei) (col ej)
/-- M: the edge numbers scatter-added into a zero matrix. -/
def edgeM (P : TE F) (ei ej : TI F) : T44 F :=
  ((fun x i u => Host.scatterAdd scatter_S4096x4096_S65536x2_S65536_n_01_01_1 x i u) : T44 F → TI2 F → TE F → T44 F)
    zeros44 (pairIdx ei ej) P

/-- EP' = (1 · (yyT − mea) − 0.5 · M) / 1. -/
def EPnext (yyT m M : T44 F) : T44 F :=
  (Host.divf : T44 F → T44 F → T44 F)
    ((subf : T44 F → T44 F → T44 F) ((mulf : T44 F → T44 F → T44 F) ones44 ((subf : T44 F → T44 F → T44 F) yyT m))
      ((mulf : T44 F → T44 F → T44 F) halves44 M)) ones44

/-! ## The tail: row normalisation, concatenation, the last matmul with bias, log_softmax -/

def rowNorm (y : T42 F) : T41 F :=
  Host.sqrt ((broadcastInDim S4096x1 ![0] bcast_S4096_S4096x1_0 : T4 F → T41 F)
    (Host.reduceAdd ((mulf : T42 F → T42 F → T42 F) y y) (zero0 : T0 F) reducesTo_S4096x256_S4096_d1 h_S_))
def epsCol : T41 F := (broadcastInDim S4096x1 ![] bcast_S_S4096x1 : T0 F → T41 F) (constant S_ .f32 0x2B8CBCCC#32)
/-- Every row divided by max (its norm, eps). -/
def normalize (y : T42 F) : T42 F :=
  (Host.divf : T42 F → T42 F → T42 F) y
    ((broadcastInDim S4096x256 ![0, 1] bcast_S4096x1_S4096x256_0_1 : T41 F → T42 F) ((maximumf : T41 F → T41 F → T41 F) (rowNorm y) epsCol))
/-- [ẑ | ŷ] w2_w + w2_b. -/
def logits (zn yn : T42 F) (w2w : TW F) (w2b : TB16 F) : T416 F :=
  (addf : T416 F → T416 F → T416 F)
    (((fun l r => Host.dotGeneral dot_S4096x512_S512x16_S4096x16_1_0_0_1_n_n none l r) : T45 F → TW F → T416 F)
      (((fun a b => concatenate S4096x512 1 [⟨S4096x256, a⟩, ⟨S4096x256, b⟩] concatenates_S4096x256_S4096x256_S4096x512_d1) : T42 F → T42 F → T45 F) zn yn) w2w)
    ((broadcastInDim S4096x16 ![0, 1] bcast_S1x16_S4096x16_0_1 : T116 F → T416 F)
      ((broadcastInDim S1x16 ![1] bcast_S16_S1x16_1 : TB16 F → T116 F) w2b))
def negInf0 : T0 F := constant S_ .f32 0xFF800000#32
/-- x minus its row maximum. -/
def shifted (x : T416 F) : T416 F :=
  (subf : T416 F → T416 F → T416 F) x
    ((broadcastInDim S4096x16 ![0, 1] bcast_S4096x1_S4096x16_0_1 : T41 F → T416 F)
      ((broadcastInDim S4096x1 ![0] bcast_S4096_S4096x1_0 : T4 F → T41 F)
        ((maximumf : T4 F → T4 F → T4 F) ((broadcastInDim S4096 ![] bcast_S_S4096 : T0 F → T4 F) negInf0)
          (Host.reduce FloatOps.maximumf x (negInf0 : T0 F) reducesTo_S4096x16_S4096_d1 h_S_))))
/-- log_softmax over the rows. -/
def logSoftmax (x : T416 F) : T416 F :=
  (subf : T416 F → T416 F → T416 F) (shifted x)
    ((broadcastInDim S4096x16 ![0, 1] bcast_S4096x1_S4096x16_0_1 : T41 F → T416 F)
      (Host.log ((broadcastInDim S4096x1 ![0] bcast_S4096_S4096x1_0 : T4 F → T41 F)
        (Host.reduceAdd (Host.exp (shifted x)) (zero0 : T0 F) reducesTo_S4096x16_S4096_d1 h_S_))))
/-- The result from the last y and z. -/
def tailOut (y z : T42 F) (w2w : TW F) (w2b : TB16 F) : T416 F := logSoftmax (logits (normalize z) (normalize y) w2w w2b)

/-! ## The four layers, unrolled -/

namespace Args
variable (a : Args F)

def mea : T44 F := RefValue.mea a.EA a.w22

def A0 : T44 F := Aof a.adj ones44 a.mea
def yyT0 : T44 F := yyTof a.feat
def temp0 : T42 F := tempOf ones44 a.A0 a.yyT0 a.feat
def y1 : T42 F := yNext (sigm a.w1 a.temp0) a.feat
def z1 : T42 F := zNext a.A0 a.z0
def P0 : TE F := edgeP a.z0 a.ei a.ej a.ev
def EP1 : T44 F := EPnext a.yyT0 a.mea (edgeM a.P0 a.ei a.ej)

def A1 : T44 F := Aof a.adj a.EP1 a.mea
def yyT1 : T44 F := yyTof a.y1
def temp1 : T42 F := tempOf a.EP1 a.A1 a.yyT1 a.y1
def y2 : T42 F := yNext (sigm a.w1 a.temp1) a.feat
def z2 : T42 F := zNext a.A1 a.z1
def P1 : TE F := edgeP a.z1 a.ei a.ej a.ev
def EP2 : T44 F := EPnext a.yyT1 a.mea (edgeM a.P1 a.ei a.ej)

def A2 : T44 F := Aof a.adj a.EP2 a.mea
def yyT2 : T44 F := yyTof a.y2
def temp2 : T42 F := tempOf a.EP2 a.A2 a.yyT2 a.y2
def y3 : T42 F := yNext (sigm a.w1 a.temp2) a.feat
def z3 : T42 F := zNext a.A2 a.z2
def P2 : TE F := edgeP a.z2 a.ei a.ej a.ev
def EP3 : T44 F := EPnext a.yyT2 a.mea (edgeM a.P2 a.ei a.ej)

def A3 : T44 F := Aof a.adj a.EP3 a.mea
def yyT3 : T44 F := yyTof a.y3
def temp3 : T42 F := tempOf a.EP3 a.A3 a.yyT3 a.y3
def y4 : T42 F := yNext (sigm a.w1 a.temp3) a.feat
def z4 : T42 F := zNext a.A3 a.z3

/-- The reference's result. -/
def out : T416 F := tailOut a.y4 a.z4 a.w2w a.w2b

end Args

end Cert.ReferenceIdeal.RefValue

end
-- ==== Proof.RefStep.lean ====
/-
  Reading the fold of a printed line: the contents after a line of operations, one operation at a time, and the
  argument arrays of a valuation.  A step of the printed program is an operation continued by nothing and then the
  rest; the contents after the whole are the contents after the rest from the operation's result.  A call of one of
  the module's functions is the function's operations over the call's buffers.
-/
import proofs.«169176_j23261542875327_2_alg».proof.Proof.RefDefs
import proofs.«169176_j23261542875327_2_alg».proof.Proof.RefLine

noncomputable section

namespace Cert.ReferenceIdeal.RefValue

open Cert.ReferenceIdeal Idealize.ShloMosaic Idealize.SL.Sem Idealize.ShloMosaic.StableHlo
open Cert.ReferenceIdeal.Facts₀

variable {F : FTy → Type} [FloatOps F]

/-! ## One step at a time -/

theorem after_step {Λ : Labels} (op : HloOp τ sig (Elt F)) (q : Prog (TpuEff nD τ sig (Elt F) Λ .tc) PUnit)
    (V : Valuation τ sig (Elt F)) :
    after (opsOf ((hlo rfl op fun _ => .ret (⟨⟩ : PUnit)) >>= fun _ => q)) V = after (opsOf q) (op.result V) := rfl

theorem after_last {Λ : Labels} (op : HloOp τ sig (Elt F)) (V : Valuation τ sig (Elt F)) :
    after (opsOf (hlo (Λ := Λ) (nD := nD) (p := .tc) rfl op fun _ => .ret (⟨⟩ : PUnit))) V = op.result V := rfl

theorem after_pure {Λ : Labels} (V : Valuation τ sig (Elt F)) :
    after (opsOf (pure ⟨⟩ : Prog (TpuEff nD τ sig (Elt F) Λ .tc) PUnit)) V = V := rfl

/-- A call of @norm: its four operations over the call's buffers. -/
theorem after_norm (x : StableHlo.TRef sig ⟨S65536x256, .f32⟩) (φ : fn_norm.Bufs) (q : Prog (TpuEff nD τ sig (Elt F) (Pipeline.Sig Λ₀ (Fin 0) fun p => (pcfgs (F := F) p).Adm) .tc) PUnit) (V : Valuation τ sig (Elt F)) :
    after (opsOf (fn_norm.body (F := F) x φ >>= fun _ => q)) V
      = after (opsOf q)
          (HloOp.result (Val := Elt F) (τ := τ) (StableHlo.TRef.unary φ.v1 φ.v2 Host.sqrt)
          (HloOp.result (Val := Elt F) (τ := τ) (StableHlo.TRef.binary φ.v0 φ.cst φ.v1 (fun x v => Host.reduceAdd x v reducesTo_S65536x256_S65536_d1 h_S_))
          (HloOp.result (Val := Elt F) (τ := τ) (StableHlo.TRef.nullary φ.cst (constant S_ .f32 0x00000000#32))
          (HloOp.result (Val := Elt F) (τ := τ) (StableHlo.TRef.binary x x φ.v0 mulf) V)))) := rfl

/-- A call of @norm_0: its five operations over the call's buffers. -/
theorem after_norm0 (x : StableHlo.TRef sig ⟨S4096x256, .f32⟩) (φ : fn_norm_0.Bufs) (q : Prog (TpuEff nD τ sig (Elt F) (Pipeline.Sig Λ₀ (Fin 0) fun p => (pcfgs (F := F) p).Adm) .tc) PUnit) (V : Valuation τ sig (Elt F)) :
    after (opsOf (fn_norm_0.body (F := F) x φ >>= fun _ => q)) V
      = after (opsOf q)
          (HloOp.result (Val := Elt F) (τ := τ) (StableHlo.TRef.unary φ.v2 φ.v3 Host.sqrt)
          (HloOp.result (Val := Elt F) (τ := τ) (StableHlo.TRef.unary φ.v1 φ.v2 (broadcastInDim S4096x1 ![0] bcast_S4096_S4096x1_0))
          (HloOp.result (Val := Elt F) (τ := τ) (StableHlo.TRef.binary φ.v0 φ.cst φ.v1 (fun x v => Host.reduceAdd x v reducesTo_S4096x256_S4096_d1 h_S_))
          (HloOp.result (Val := Elt F) (τ := τ) (StableHlo.TRef.nullary φ.cst (constant S_ .f32 0x00000000#32))
          (HloOp.result (Val := Elt F) (τ := τ) (StableHlo.TRef.binary x x φ.v0 mulf) V))))) := rfl

/-- A call of @log_softmax: its fifteen operations over the call's buffers. -/
theorem after_lsm (x : StableHlo.TRef sig ⟨S4096x16, .f32⟩) (φ : fn_log_softmax.Bufs) (q : Prog (TpuEff nD τ sig (Elt F) (Pipeline.Sig Λ₀ (Fin 0) fun p => (pcfgs (F := F) p).Adm) .tc) PUnit) (V : Valuation τ sig (Elt F)) :
    after (opsOf (fn_log_softmax.body (F := F) x φ >>= fun _ => q)) V
      = after (opsOf q)
          (HloOp.result (Val := Elt F) (τ := τ) (StableHlo.TRef.binary φ.v5 φ.v10 φ.v11 subf)
          (HloOp.result (Val := Elt F) (τ := τ) (StableHlo.TRef.unary φ.v9 φ.v10 (broadcastInDim S4096x16 ![0, 1] bcast_S4096x1_S4096x16_0_1))
          (HloOp.result (Val := Elt F) (τ := τ) (StableHlo.TRef.unary φ.v8 φ.v9 Host.log)
          (HloOp.result (Val := Elt F) (τ := τ) (StableHlo.TRef.unary φ.v7 φ.v8 (broadcastInDim S4096x1 ![0] bcast_S4096_S4096x1_0))
          (HloOp.result (Val := Elt F) (τ := τ) (StableHlo.TRef.binary φ.v6 φ.cst_1 φ.v7 (fun x v => Host.reduceAdd x v reducesTo_S4096x16_S4096_d1 h_S_))
          (HloOp.result (Val := Elt F) (τ := τ) (StableHlo.TRef.nullary φ.cst_1 (constant S_ .f32 0x00000000#32))
          (HloOp.result (Val := Elt F) (τ := τ) (StableHlo.TRef.unary φ.v5 φ.v6 Host.exp)
          (HloOp.result (Val := Elt F) (τ := τ) (StableHlo.TRef.binary x φ.v4 φ.v5 subf)
          (HloOp.result (Val := Elt F) (τ := τ) (StableHlo.TRef.unary φ.v3 φ.v4 (broadcastInDim S4096x16 ![0, 1] bcast_S4096x1_S4096x16_0_1))
          (HloOp.result (Val := Elt F) (τ := τ) (StableHlo.TRef.unary φ.v2 φ.v3 (broadcastInDim S4096x1 ![0] bcast_S4096_S4096x1_0))
          (HloOp.result (Val := Elt F) (τ := τ) (StableHlo.TRef.binary φ.v1 φ.v0 φ.v2 maximumf)
          (HloOp.result (Val := Elt F) (τ := τ) (StableHlo.TRef.unary φ.cst_0 φ.v1 (broadcastInDim S4096 ![] bcast_S_S4096))
          (HloOp.result (Val := Elt F) (τ := τ) (StableHlo.TRef.nullary φ.cst_0 (constant S_ .f32 0xFF800000#32))
          (HloOp.result (Val := Elt F) (τ := τ) (StableHlo.TRef.binary x φ.cst φ.v0 (fun x v => Host.reduce FloatOps.maximumf x v reducesTo_S4096x16_S4096_d1 h_S_))
          (HloOp.result (Val := Elt F) (τ := τ) (StableHlo.TRef.nullary φ.cst (constant S_ .f32 0xFF800000#32)) V))))))))))))))) := rfl

/-! ## A concatenation of two arrays, its operands as plain arguments -/

/-- The concatenation of two arrays along an axis. -/
def cat2 {α : Type} (t : Shape) (ax : Fin t.rank) (s1 s2 : Shape) (u : s1.Idx → α) (v : s2.Idx → α)
    (hc : Shape.Concatenates [s1, s2] t ax) : t.Idx → α :=
  concatenate t ax [⟨s1, u⟩, ⟨s2, v⟩] hc

theorem cat2_fold {α : Type} (t : Shape) (ax : Fin t.rank) (s1 s2 : Shape) (u : s1.Idx → α) (v : s2.Idx → α)
    (hc : Shape.Concatenates [s1, s2] t ax) :
    concatenate t ax [⟨s1, u⟩, ⟨s2, v⟩] hc = cat2 t ax s1 s2 u v hc := rfl

/-! ## The argument arrays of a valuation -/

/-- The eleven argument arrays a valuation holds. -/
def argsOf (V : Valuation τ sig (Elt F)) : Args F where
  feat := V (Proc.devRef .tc main_arg0)
  z0 := V (Proc.devRef .tc main_arg1)
  w1 := V (Proc.devRef .tc main_arg2)
  EA := V (Proc.devRef .tc main_arg3)
  w2w := V (Proc.devRef .tc main_arg4)
  w2b := V (Proc.devRef .tc main_arg5)
  adj := V (Proc.devRef .tc main_arg6)
  w22 := V (Proc.devRef .tc main_arg7)
  ev := V (Proc.devRef .tc main_arg8)
  ei := V (Proc.devRef .tc main_arg9)
  ej := V (Proc.devRef .tc main_arg10)

/-- The valuation `W` holds the argument arrays `a`. -/
structure ArgsAre (a : Args F) (W : Valuation τ sig (Elt F)) : Prop where
  h0 : W (Proc.devRef .tc main_arg0) = a.feat
  h1 : W (Proc.devRef .tc main_arg1) = a.z0
  h2 : W (Proc.devRef .tc main_arg2) = a.w1
  h3 : W (Proc.devRef .tc main_arg3) = a.EA
  h4 : W (Proc.devRef .tc main_arg4) = a.w2w
  h5 : W (Proc.devRef .tc main_arg5) = a.w2b
  h6 : W (Proc.devRef .tc main_arg6) = a.adj
  h7 : W (Proc.devRef .tc main_arg7) = a.w22
  h8 : W (Proc.devRef .tc main_arg8) = a.ev
  h9 : W (Proc.devRef .tc main_arg9) = a.ei
  h10 : W (Proc.devRef .tc main_arg10) = a.ej

theorem argsAre_argsOf (V : Valuation τ sig (Elt F)) : ArgsAre (argsOf V) V :=
  ⟨rfl, rfl, rfl, rfl, rfl, rfl, rfl, rfl, rfl, rfl, rfl⟩

/-- A line that keeps the arguments leaves them as they were. -/
theorem ArgsAre.after {Λ : Labels} {p : Prog (TpuEff nD τ sig (Elt F) Λ .tc) PUnit} (hl : IsLine keep p) {a : Args F}
    {W : Valuation τ sig (Elt F)} (h : ArgsAre a W) : ArgsAre a (after (opsOf p) W) where
  h0 := (hl.after_keep W _ (mem_keep (by decide))).trans h.h0
  h1 := (hl.after_keep W _ (mem_keep (by decide))).trans h.h1
  h2 := (hl.after_keep W _ (mem_keep (by decide))).trans h.h2
  h3 := (hl.after_keep W _ (mem_keep (by decide))).trans h.h3
  h4 := (hl.after_keep W _ (mem_keep (by decide))).trans h.h4
  h5 := (hl.after_keep W _ (mem_keep (by decide))).trans h.h5
  h6 := (hl.after_keep W _ (mem_keep (by decide))).trans h.h6
  h7 := (hl.after_keep W _ (mem_keep (by decide))).trans h.h7
  h8 := (hl.after_keep W _ (mem_keep (by decide))).trans h.h8
  h9 := (hl.after_keep W _ (mem_keep (by decide))).trans h.h9
  h10 := (hl.after_keep W _ (mem_keep (by decide))).trans h.h10

/-- Reads the contents after a printed line at one buffer: unfolds the fold step by step, rewrites each operation's
    result at its own buffer to its function's value and at any other buffer to what was there, and then the given
    facts about the contents before the line. -/
macro "read_after" "[" hs:Lean.Parser.Tactic.simpLemma,* "]" : tactic =>
  `(tactic| simp (disch := decide) only [after_step, after_last, after_pure, after_norm, after_norm0, after_lsm, cat2_fold,
      nullary_result', unary_result', binary_result', ternary_result',
      nullary_result_ne', unary_result_ne', binary_result_ne', ternary_result_ne', $hs,*])

end Cert.ReferenceIdeal.RefValue

end
-- ==== Proof.RefInv.lean ====
/-
  What the buffers still needed later hold at the end of each window of the reference's @main, as the named functions of
  the argument arrays.
-/
import proofs.«169176_j23261542875327_2_alg».proof.Proof.RefStep

noncomputable section

namespace Cert.ReferenceIdeal.RefValue

open Cert.ReferenceIdeal Idealize.ShloMosaic Idealize.SL.Sem Idealize.ShloMosaic.StableHlo

variable {F : FTy → Type} [FloatOps F]

/-- What the buffers still needed hold after window 0. -/
structure Inv0 (a : Args F) (W : Valuation τ sig (Elt F)) : Prop where
  args : ArgsAre a W
  v3 : W (Proc.devRef .tc main_v3) = a.mea
  v7 : W (Proc.devRef .tc main_v7) = a.yyT0
  v23 : W (Proc.devRef .tc main_v23) = a.y1
  v25 : W (Proc.devRef .tc main_v25) = a.z1
  v42 : W (Proc.devRef .tc main_v42) = a.P0
  v43 : W (Proc.devRef .tc main_v43) = zeros44
  v45 : W (Proc.devRef .tc main_v45) = ltz a.ei
  v47 : W (Proc.devRef .tc main_v47) = plusN a.ei

/-- What the buffers still needed hold after window 1. -/
structure Inv1 (a : Args F) (W : Valuation τ sig (Elt F)) : Prop where
  args : ArgsAre a W
  v3 : W (Proc.devRef .tc main_v3) = a.mea
  v25 : W (Proc.devRef .tc main_v25) = a.z1
  v69 : W (Proc.devRef .tc main_v69) = a.yyT1
  v85 : W (Proc.devRef .tc main_v85) = a.y2
  v87 : W (Proc.devRef .tc main_v87) = a.z2
  v94 : W (Proc.devRef .tc main_v94) = gath a.z1 a.ei
  v96 : W (Proc.devRef .tc main_v96) = ltz a.ej

/-- What the buffers still needed hold after window 2. -/
structure Inv2 (a : Args F) (W : Valuation τ sig (Elt F)) : Prop where
  args : ArgsAre a W
  v3 : W (Proc.devRef .tc main_v3) = a.mea
  v87 : W (Proc.devRef .tc main_v87) = a.z2
  v129 : W (Proc.devRef .tc main_v129) = a.A2
  v131 : W (Proc.devRef .tc main_v131) = a.yyT2
  v144 : W (Proc.devRef .tc main_v144) = sigm a.w1 a.temp2
  c32 : W (Proc.devRef .tc main_cst_32) = half0

/-- What the buffers still needed hold after window 3. -/
structure Inv3 (a : Args F) (W : Valuation τ sig (Elt F)) : Prop where
  args : ArgsAre a W
  v3 : W (Proc.devRef .tc main_v3) = a.mea
  v147 : W (Proc.devRef .tc main_v147) = a.y3
  v149 : W (Proc.devRef .tc main_v149) = a.z3
  v189 : W (Proc.devRef .tc main_v189) = a.EP3
  v191 : W (Proc.devRef .tc main_v191) = a.A3
  v192 : W (Proc.devRef .tc main_v192) = tr a.y3

/-- What the buffers still needed hold after window 4. -/
structure Inv4 (a : Args F) (W : Valuation τ sig (Elt F)) : Prop where
  args : ArgsAre a W
  v3 : W (Proc.devRef .tc main_v3) = a.mea
  v193 : W (Proc.devRef .tc main_v193) = a.yyT3
  v209 : W (Proc.devRef .tc main_v209) = a.y4
  v211 : W (Proc.devRef .tc main_v211) = a.z4
  v228 : W (Proc.devRef .tc main_v228) = edgeP a.z3 a.ei a.ej a.ev
  v229 : W (Proc.devRef .tc main_v229) = zeros44
  v239 : W (Proc.devRef .tc main_v239) = nidx a.ej
  v240 : W (Proc.devRef .tc main_v240) = col a.ei

/-- What the buffers still needed hold after window 5. -/
structure Inv5 (a : Args F) (W : Valuation τ sig (Elt F)) : Prop where
  args : ArgsAre a W
  out : W (Proc.devRef .tc main_v267) = a.out

end Cert.ReferenceIdeal.RefValue

end
-- ==== Proof.RefRun0.lean ====
/-
  Window 0 of the reference's @main, read: what the buffers still needed later hold after it, as the named functions of
  the argument arrays.
-/
import proofs.«169176_j23261542875327_2_alg».proof.Proof.RefInv

noncomputable section

namespace Cert.ReferenceIdeal.RefValue

open Cert.ReferenceIdeal Idealize.ShloMosaic Idealize.SL.Sem Idealize.ShloMosaic.StableHlo

variable {F : FTy → Type} [FloatOps F]

set_option maxRecDepth 16384 in
set_option maxHeartbeats 8000000 in
theorem inv0_v3 (d : Dev nD) (a : Args F) (W : Valuation τ sig (Elt F)) (h : ArgsAre a W) :
    after (opsOf (main_part0 (F := F) d)) W (Proc.devRef .tc main_v3) = a.mea := by
  unfold main_part0
  read_after [h.h0, h.h1, h.h2, h.h3, h.h4, h.h5, h.h6, h.h7, h.h8, h.h9, h.h10]
  try rfl

set_option maxRecDepth 16384 in
set_option maxHeartbeats 8000000 in
theorem inv0_v7 (d : Dev nD) (a : Args F) (W : Valuation τ sig (Elt F)) (h : ArgsAre a W) :
    after (opsOf (main_part0 (F := F) d)) W (Proc.devRef .tc main_v7) = a.yyT0 := by
  unfold main_part0
  read_after [h.h0, h.h1, h.h2, h.h3, h.h4, h.h5, h.h6, h.h7, h.h8, h.h9, h.h10]
  try rfl

set_option maxRecDepth 16384 in
set_option maxHeartbeats 8000000 in
theorem inv0_v23 (d : Dev nD) (a : Args F) (W : Valuation τ sig (Elt F)) (h : ArgsAre a W) :
    after (opsOf (main_part0 (F := F) d)) W (Proc.devRef .tc main_v23) = a.y1 := by
  unfold main_part0
  read_after [h.h0, h.h1, h.h2, h.h3, h.h4, h.h5, h.h6, h.h7, h.h8, h.h9, h.h10]
  try rfl

set_option maxRecDepth 16384 in
set_option maxHeartbeats 8000000 in
theorem inv0_v25 (d : Dev nD) (a : Args F) (W : Valuation τ sig (Elt F)) (h : ArgsAre a W) :
    after (opsOf (main_part0 (F := F) d)) W (Proc.devRef .tc main_v25) = a.z1 := by
  unfold main_part0
  read_after [h.h0, h.h1, h.h2, h.h3, h.h4, h.h5, h.h6, h.h7, h.h8, h.h9, h.h10]
  try rfl

set_option maxRecDepth 16384 in
set_option maxHeartbeats 8000000 in
theorem inv0_v42 (d : Dev nD) (a : Args F) (W : Valuation τ sig (Elt F)) (h : ArgsAre a W) :
    after (opsOf (main_part0 (F := F) d)) W (Proc.devRef .tc main_v42) = a.P0 := by
  unfold main_part0
  read_after [h.h0, h.h1, h.h2, h.h3, h.h4, h.h5, h.h6, h.h7, h.h8, h.h9, h.h10]
  try rfl

set_option maxRecDepth 16384 in
set_option maxHeartbeats 8000000 in
theorem inv0_v43 (d : Dev nD) (a : Args F) (W : Valuation τ sig (Elt F)) (h : ArgsAre a W) :
    after (opsOf (main_part0 (F := F) d)) W (Proc.devRef .tc main_v43) = zeros44 := by
  unfold main_part0
  read_after [h.h0, h.h1, h.h2, h.h3, h.h4, h.h5, h.h6, h.h7, h.h8, h.h9, h.h10]
  try rfl

set_option maxRecDepth 16384 in
set_option maxHeartbeats 8000000 in
theorem inv0_v45 (d : Dev nD) (a : Args F) (W : Valuation τ sig (Elt F)) (h : ArgsAre a W) :
    after (opsOf (main_part0 (F := F) d)) W (Proc.devRef .tc main_v45) = ltz a.ei := by
  unfold main_part0
  read_after [h.h0, h.h1, h.h2, h.h3, h.h4, h.h5, h.h6, h.h7, h.h8, h.h9, h.h10]
  try rfl

set_option maxRecDepth 16384 in
set_option maxHeartbeats 8000000 in
theorem inv0_v47 (d : Dev nD) (a : Args F) (W : Valuation τ sig (Elt F)) (h : ArgsAre a W) :
    after (opsOf (main_part0 (F := F) d)) W (Proc.devRef .tc main_v47) = plusN a.ei := by
  unfold main_part0
  read_after [h.h0, h.h1, h.h2, h.h3, h.h4, h.h5, h.h6, h.h7, h.h8, h.h9, h.h10]
  try rfl

/-- Window 0, read. -/
theorem inv0 (d : Dev nD) (a : Args F) (W : Valuation τ sig (Elt F)) (h : ArgsAre a W) :
    Inv0 a (after (opsOf (main_part0 (F := F) d)) W) where
  args := h.after (line_part0 d)
  v3 := inv0_v3 d a W h
  v7 := inv0_v7 d a W h
  v23 := inv0_v23 d a W h
  v25 := inv0_v25 d a W h
  v42 := inv0_v42 d a W h
  v43 := inv0_v43 d a W h
  v45 := inv0_v45 d a W h
  v47 := inv0_v47 d a W h

end Cert.ReferenceIdeal.RefValue

end
-- ==== Proof.RefRun1.lean ====
/-
  Window 1 of the reference's @main, read: what the buffers still needed later hold after it, as the named functions of
  the argument arrays.
-/
import proofs.«169176_j23261542875327_2_alg».proof.Proof.RefInv

noncomputable section

namespace Cert.ReferenceIdeal.RefValue

open Cert.ReferenceIdeal Idealize.ShloMosaic Idealize.SL.Sem Idealize.ShloMosaic.StableHlo

variable {F : FTy → Type} [FloatOps F]

set_option maxRecDepth 16384 in
set_option maxHeartbeats 8000000 in
theorem inv1_v3 (d : Dev nD) (a : Args F) (W : Valuation τ sig (Elt F)) (h : Inv0 a W) :
    after (opsOf (main_part1 (F := F) d)) W (Proc.devRef .tc main_v3) = a.mea := by
  unfold main_part1
  read_after [h.args.h0, h.args.h1, h.args.h2, h.args.h3, h.args.h4, h.args.h5, h.args.h6, h.args.h7, h.args.h8, h.args.h9, h.args.h10, h.v3, h.v7, h.v23, h.v25, h.v42, h.v43, h.v45, h.v47]
  try rfl

set_option maxRecDepth 16384 in
set_option maxHeartbeats 8000000 in
theorem inv1_v25 (d : Dev nD) (a : Args F) (W : Valuation τ sig (Elt F)) (h : Inv0 a W) :
    after (opsOf (main_part1 (F := F) d)) W (Proc.devRef .tc main_v25) = a.z1 := by
  unfold main_part1
  read_after [h.args.h0, h.args.h1, h.args.h2, h.args.h3, h.args.h4, h.args.h5, h.args.h6, h.args.h7, h.args.h8, h.args.h9, h.args.h10, h.v3, h.v7, h.v23, h.v25, h.v42, h.v43, h.v45, h.v47]
  try rfl

set_option maxRecDepth 16384 in
set_option maxHeartbeats 8000000 in
theorem inv1_v69 (d : Dev nD) (a : Args F) (W : Valuation τ sig (Elt F)) (h : Inv0 a W) :
    after (opsOf (main_part1 (F := F) d)) W (Proc.devRef .tc main_v69) = a.yyT1 := by
  unfold main_part1
  read_after [h.args.h0, h.args.h1, h.args.h2, h.args.h3, h.args.h4, h.args.h5, h.args.h6, h.args.h7, h.args.h8, h.args.h9, h.args.h10, h.v3, h.v7, h.v23, h.v25, h.v42, h.v43, h.v45, h.v47]
  try rfl

set_option maxRecDepth 16384 in
set_option maxHeartbeats 8000000 in
theorem inv1_v85 (d : Dev nD) (a : Args F) (W : Valuation τ sig (Elt F)) (h : Inv0 a W) :
    after (opsOf (main_part1 (F := F) d)) W (Proc.devRef .tc main_v85) = a.y2 := by
  unfold main_part1
  read_after [h.args.h0, h.args.h1, h.args.h2, h.args.h3, h.args.h4, h.args.h5, h.args.h6, h.args.h7, h.args.h8, h.args.h9, h.args.h10, h.v3, h.v7, h.v23, h.v25, h.v42, h.v43, h.v45, h.v47]
  try rfl

set_option maxRecDepth 16384 in
set_option maxHeartbeats 8000000 in
theorem inv1_v87 (d : Dev nD) (a : Args F) (W : Valuation τ sig (Elt F)) (h : Inv0 a W) :
    after (opsOf (main_part1 (F := F) d)) W (Proc.devRef .tc main_v87) = a.z2 := by
  unfold main_part1
  read_after [h.args.h0, h.args.h1, h.args.h2, h.args.h3, h.args.h4, h.args.h5, h.args.h6, h.args.h7, h.args.h8, h.args.h9, h.args.h10, h.v3, h.v7, h.v23, h.v25, h.v42, h.v43, h.v45, h.v47]
  try rfl

set_option maxRecDepth 16384 in
set_option maxHeartbeats 8000000 in
theorem inv1_v94 (d : Dev nD) (a : Args F) (W : Valuation τ sig (Elt F)) (h : Inv0 a W) :
    after (opsOf (main_part1 (F := F) d)) W (Proc.devRef .tc main_v94) = gath a.z1 a.ei := by
  unfold main_part1
  read_after [h.args.h0, h.args.h1, h.args.h2, h.args.h3, h.args.h4, h.args.h5, h.args.h6, h.args.h7, h.args.h8, h.args.h9, h.args.h10, h.v3, h.v7, h.v23, h.v25, h.v42, h.v43, h.v45, h.v47]
  try rfl

set_option maxRecDepth 16384 in
set_option maxHeartbeats 8000000 in
theorem inv1_v96 (d : Dev nD) (a : Args F) (W : Valuation τ sig (Elt F)) (h : Inv0 a W) :
    after (opsOf (main_part1 (F := F) d)) W (Proc.devRef .tc main_v96) = ltz a.ej := by
  unfold main_part1
  read_after [h.args.h0, h.args.h1, h.args.h2, h.args.h3, h.args.h4, h.args.h5, h.args.h6, h.args.h7, h.args.h8, h.args.h9, h.args.h10, h.v3, h.v7, h.v23, h.v25, h.v42, h.v43, h.v45, h.v47]
  try rfl

/-- Window 1, read. -/
theorem inv1 (d : Dev nD) (a : Args F) (W : Valuation τ sig (Elt F)) (h : Inv0 a W) :
    Inv1 a (after (opsOf (main_part1 (F := F) d)) W) where
  args := h.args.after (line_part1 d)
  v3 := inv1_v3 d a W h
  v25 := inv1_v25 d a W h
  v69 := inv1_v69 d a W h
  v85 := inv1_v85 d a W h
  v87 := inv1_v87 d a W h
  v94 := inv1_v94 d a W h
  v96 := inv1_v96 d a W h

end Cert.ReferenceIdeal.RefValue

end
-- ==== Proof.RefRun2.lean ====
/-
  Window 2 of the reference's @main, read: what the buffers still needed later hold after it, as the named functions of
  the argument arrays.
-/
import proofs.«169176_j23261542875327_2_alg».proof.Proof.RefInv

noncomputable section

namespace Cert.ReferenceIdeal.RefValue

open Cert.ReferenceIdeal Idealize.ShloMosaic Idealize.SL.Sem Idealize.ShloMosaic.StableHlo

variable {F : FTy → Type} [FloatOps F]

set_option maxRecDepth 16384 in
set_option maxHeartbeats 8000000 in
theorem inv2_v3 (d : Dev nD) (a : Args F) (W : Valuation τ sig (Elt F)) (h : Inv1 a W) :
    after (opsOf (main_part2 (F := F) d)) W (Proc.devRef .tc main_v3) = a.mea := by
  unfold main_part2
  read_after [h.args.h0, h.args.h1, h.args.h2, h.args.h3, h.args.h4, h.args.h5, h.args.h6, h.args.h7, h.args.h8, h.args.h9, h.args.h10, h.v3, h.v25, h.v69, h.v85, h.v87, h.v94, h.v96]
  try rfl

set_option maxRecDepth 16384 in
set_option maxHeartbeats 8000000 in
theorem inv2_v87 (d : Dev nD) (a : Args F) (W : Valuation τ sig (Elt F)) (h : Inv1 a W) :
    after (opsOf (main_part2 (F := F) d)) W (Proc.devRef .tc main_v87) = a.z2 := by
  unfold main_part2
  read_after [h.args.h0, h.args.h1, h.args.h2, h.args.h3, h.args.h4, h.args.h5, h.args.h6, h.args.h7, h.args.h8, h.args.h9, h.args.h10, h.v3, h.v25, h.v69, h.v85, h.v87, h.v94, h.v96]
  try rfl

set_option maxRecDepth 16384 in
set_option maxHeartbeats 8000000 in
theorem inv2_v129 (d : Dev nD) (a : Args F) (W : Valuation τ sig (Elt F)) (h : Inv1 a W) :
    after (opsOf (main_part2 (F := F) d)) W (Proc.devRef .tc main_v129) = a.A2 := by
  unfold main_part2
  read_after [h.args.h0, h.args.h1, h.args.h2, h.args.h3, h.args.h4, h.args.h5, h.args.h6, h.args.h7, h.args.h8, h.args.h9, h.args.h10, h.v3, h.v25, h.v69, h.v85, h.v87, h.v94, h.v96]
  try rfl

set_option maxRecDepth 16384 in
set_option maxHeartbeats 8000000 in
theorem inv2_v131 (d : Dev nD) (a : Args F) (W : Valuation τ sig (Elt F)) (h : Inv1 a W) :
    after (opsOf (main_part2 (F := F) d)) W (Proc.devRef .tc main_v131) = a.yyT2 := by
  unfold main_part2
  read_after [h.args.h0, h.args.h1, h.args.h2, h.args.h3, h.args.h4, h.args.h5, h.args.h6, h.args.h7, h.args.h8, h.args.h9, h.args.h10, h.v3, h.v25, h.v69, h.v85, h.v87, h.v94, h.v96]
  try rfl

set_option maxRecDepth 16384 in
set_option maxHeartbeats 8000000 in
theorem inv2_v144 (d : Dev nD) (a : Args F) (W : Valuation τ sig (Elt F)) (h : Inv1 a W) :
    after (opsOf (main_part2 (F := F) d)) W (Proc.devRef .tc main_v144) = sigm a.w1 a.temp2 := by
  unfold main_part2
  read_after [h.args.h0, h.args.h1, h.args.h2, h.args.h3, h.args.h4, h.args.h5, h.args.h6, h.args.h7, h.args.h8, h.args.h9, h.args.h10, h.v3, h.v25, h.v69, h.v85, h.v87, h.v94, h.v96]
  try rfl

set_option maxRecDepth 16384 in
set_option maxHeartbeats 8000000 in
theorem inv2_c32 (d : Dev nD) (a : Args F) (W : Valuation τ sig (Elt F)) (h : Inv1 a W) :
    after (opsOf (main_part2 (F := F) d)) W (Proc.devRef .tc main_cst_32) = half0 := by
  unfold main_part2
  read_after [h.args.h0, h.args.h1, h.args.h2, h.args.h3, h.args.h4, h.args.h5, h.args.h6, h.args.h7, h.args.h8, h.args.h9, h.args.h10, h.v3, h.v25, h.v69, h.v85, h.v87, h.v94, h.v96]
  try rfl

/-- Window 2, read. -/
theorem inv2 (d : Dev nD) (a : Args F) (W : Valuation τ sig (Elt F)) (h : Inv1 a W) :
    Inv2 a (after (opsOf (main_part2 (F := F) d)) W) where
  args := h.args.after (line_part2 d)
  v3 := inv2_v3 d a W h
  v87 := inv2_v87 d a W h
  v129 := inv2_v129 d a W h
  v131 := inv2_v131 d a W h
  v144 := inv2_v144 d a W h
  c32 := inv2_c32 d a W h

end Cert.ReferenceIdeal.RefValue

end
-- ==== Proof.RefRun3.lean ====
/-
  Window 3 of the reference's @main, read: what the buffers still needed later hold after it, as the named functions of
  the argument arrays.
-/
import proofs.«169176_j23261542875327_2_alg».proof.Proof.RefInv

noncomputable section

namespace Cert.ReferenceIdeal.RefValue

open Cert.ReferenceIdeal Idealize.ShloMosaic Idealize.SL.Sem Idealize.ShloMosaic.StableHlo

variable {F : FTy → Type} [FloatOps F]

set_option maxRecDepth 16384 in
set_option maxHeartbeats 8000000 in
theorem inv3_v3 (d : Dev nD) (a : Args F) (W : Valuation τ sig (Elt F)) (h : Inv2 a W) :
    after (opsOf (main_part3 (F := F) d)) W (Proc.devRef .tc main_v3) = a.mea := by
  unfold main_part3
  read_after [h.args.h0, h.args.h1, h.args.h2, h.args.h3, h.args.h4, h.args.h5, h.args.h6, h.args.h7, h.args.h8, h.args.h9, h.args.h10, h.v3, h.v87, h.v129, h.v131, h.v144, h.c32]
  try rfl

set_option maxRecDepth 16384 in
set_option maxHeartbeats 8000000 in
theorem inv3_v147 (d : Dev nD) (a : Args F) (W : Valuation τ sig (Elt F)) (h : Inv2 a W) :
    after (opsOf (main_part3 (F := F) d)) W (Proc.devRef .tc main_v147) = a.y3 := by
  unfold main_part3
  read_after [h.args.h0, h.args.h1, h.args.h2, h.args.h3, h.args.h4, h.args.h5, h.args.h6, h.args.h7, h.args.h8, h.args.h9, h.args.h10, h.v3, h.v87, h.v129, h.v131, h.v144, h.c32]
  try rfl

set_option maxRecDepth 16384 in
set_option maxHeartbeats 8000000 in
theorem inv3_v149 (d : Dev nD) (a : Args F) (W : Valuation τ sig (Elt F)) (h : Inv2 a W) :
    after (opsOf (main_part3 (F := F) d)) W (Proc.devRef .tc main_v149) = a.z3 := by
  unfold main_part3
  read_after [h.args.h0, h.args.h1, h.args.h2, h.args.h3, h.args.h4, h.args.h5, h.args.h6, h.args.h7, h.args.h8, h.args.h9, h.args.h10, h.v3, h.v87, h.v129, h.v131, h.v144, h.c32]
  try rfl

set_option maxRecDepth 16384 in
set_option maxHeartbeats 8000000 in
theorem inv3_v189 (d : Dev nD) (a : Args F) (W : Valuation τ sig (Elt F)) (h : Inv2 a W) :
    after (opsOf (main_part3 (F := F) d)) W (Proc.devRef .tc main_v189) = a.EP3 := by
  unfold main_part3
  read_after [h.args.h0, h.args.h1, h.args.h2, h.args.h3, h.args.h4, h.args.h5, h.args.h6, h.args.h7, h.args.h8, h.args.h9, h.args.h10, h.v3, h.v87, h.v129, h.v131, h.v144, h.c32]
  try rfl

set_option maxRecDepth 16384 in
set_option maxHeartbeats 8000000 in
theorem inv3_v191 (d : Dev nD) (a : Args F) (W : Valuation τ sig (Elt F)) (h : Inv2 a W) :
    after (opsOf (main_part3 (F := F) d)) W (Proc.devRef .tc main_v191) = a.A3 := by
  unfold main_part3
  read_after [h.args.h0, h.args.h1, h.args.h2, h.args.h3, h.args.h4, h.args.h5, h.args.h6, h.args.h7, h.args.h8, h.args.h9, h.args.h10, h.v3, h.v87, h.v129, h.v131, h.v144, h.c32]
  try rfl

set_option maxRecDepth 16384 in
set_option maxHeartbeats 8000000 in
theorem inv3_v192 (d : Dev nD) (a : Args F) (W : Valuation τ sig (Elt F)) (h : Inv2 a W) :
    after (opsOf (main_part3 (F := F) d)) W (Proc.devRef .tc main_v192) = tr a.y3 := by
  unfold main_part3
  read_after [h.args.h0, h.args.h1, h.args.h2, h.args.h3, h.args.h4, h.args.h5, h.args.h6, h.args.h7, h.args.h8, h.args.h9, h.args.h10, h.v3, h.v87, h.v129, h.v131, h.v144, h.c32]
  try rfl

/-- Window 3, read. -/
theorem inv3 (d : Dev nD) (a : Args F) (W : Valuation τ sig (Elt F)) (h : Inv2 a W) :
    Inv3 a (after (opsOf (main_part3 (F := F) d)) W) where
  args := h.args.after (line_part3 d)
  v3 := inv3_v3 d a W h
  v147 := inv3_v147 d a W h
  v149 := inv3_v149 d a W h
  v189 := inv3_v189 d a W h
  v191 := inv3_v191 d a W h
  v192 := inv3_v192 d a W h

end Cert.ReferenceIdeal.RefValue

end
-- ==== Proof.RefRun4.lean ====
/-
  Window 4 of the reference's @main, read: what the buffers still needed later hold after it, as the named functions of
  the argument arrays.
-/
import proofs.«169176_j23261542875327_2_alg».proof.Proof.RefInv

noncomputable section

namespace Cert.ReferenceIdeal.RefValue

open Cert.ReferenceIdeal Idealize.ShloMosaic Idealize.SL.Sem Idealize.ShloMosaic.StableHlo

variable {F : FTy → Type} [FloatOps F]

set_option maxRecDepth 16384 in
set_option maxHeartbeats 8000000 in
theorem inv4_v3 (d : Dev nD) (a : Args F) (W : Valuation τ sig (Elt F)) (h : Inv3 a W) :
    after (opsOf (main_part4 (F := F) d)) W (Proc.devRef .tc main_v3) = a.mea := by
  unfold main_part4
  read_after [h.args.h0, h.args.h1, h.args.h2, h.args.h3, h.args.h4, h.args.h5, h.args.h6, h.args.h7, h.args.h8, h.args.h9, h.args.h10, h.v3, h.v147, h.v149, h.v189, h.v191, h.v192]
  try rfl

set_option maxRecDepth 16384 in
set_option maxHeartbeats 8000000 in
theorem inv4_v193 (d : Dev nD) (a : Args F) (W : Valuation τ sig (Elt F)) (h : Inv3 a W) :
    after (opsOf (main_part4 (F := F) d)) W (Proc.devRef .tc main_v193) = a.yyT3 := by
  unfold main_part4
  read_after [h.args.h0, h.args.h1, h.args.h2, h.args.h3, h.args.h4, h.args.h5, h.args.h6, h.args.h7, h.args.h8, h.args.h9, h.args.h10, h.v3, h.v147, h.v149, h.v189, h.v191, h.v192]
  try rfl

set_option maxRecDepth 16384 in
set_option maxHeartbeats 8000000 in
theorem inv4_v209 (d : Dev nD) (a : Args F) (W : Valuation τ sig (Elt F)) (h : Inv3 a W) :
    after (opsOf (main_part4 (F := F) d)) W (Proc.devRef .tc main_v209) = a.y4 := by
  unfold main_part4
  read_after [h.args.h0, h.args.h1, h.args.h2, h.args.h3, h.args.h4, h.args.h5, h.args.h6, h.args.h7, h.args.h8, h.args.h9, h.args.h10, h.v3, h.v147, h.v149, h.v189, h.v191, h.v192]
  try rfl

set_option maxRecDepth 16384 in
set_option maxHeartbeats 8000000 in
theorem inv4_v211 (d : Dev nD) (a : Args F) (W : Valuation τ sig (Elt F)) (h : Inv3 a W) :
    after (opsOf (main_part4 (F := F) d)) W (Proc.devRef .tc main_v211) = a.z4 := by
  unfold main_part4
  read_after [h.args.h0, h.args.h1, h.args.h2, h.args.h3, h.args.h4, h.args.h5, h.args.h6, h.args.h7, h.args.h8, h.args.h9, h.args.h10, h.v3, h.v147, h.v149, h.v189, h.v191, h.v192]
  try rfl

set_option maxRecDepth 16384 in
set_option maxHeartbeats 8000000 in
theorem inv4_v228 (d : Dev nD) (a : Args F) (W : Valuation τ sig (Elt F)) (h : Inv3 a W) :
    after (opsOf (main_part4 (F := F) d)) W (Proc.devRef .tc main_v228) = edgeP a.z3 a.ei a.ej a.ev := by
  unfold main_part4
  read_after [h.args.h0, h.args.h1, h.args.h2, h.args.h3, h.args.h4, h.args.h5, h.args.h6, h.args.h7, h.args.h8, h.args.h9, h.args.h10, h.v3, h.v147, h.v149, h.v189, h.v191, h.v192]
  try rfl

set_option maxRecDepth 16384 in
set_option maxHeartbeats 8000000 in
theorem inv4_v229 (d : Dev nD) (a : Args F) (W : Valuation τ sig (Elt F)) (h : Inv3 a W) :
    after (opsOf (main_part4 (F := F) d)) W (Proc.devRef .tc main_v229) = zeros44 := by
  unfold main_part4
  read_after [h.args.h0, h.args.h1, h.args.h2, h.args.h3, h.args.h4, h.args.h5, h.args.h6, h.args.h7, h.args.h8, h.args.h9, h.args.h10, h.v3, h.v147, h.v149, h.v189, h.v191, h.v192]
  try rfl

set_option maxRecDepth 16384 in
set_option maxHeartbeats 8000000 in
theorem inv4_v239 (d : Dev nD) (a : Args F) (W : Valuation τ sig (Elt F)) (h : Inv3 a W) :
    after (opsOf (main_part4 (F := F) d)) W (Proc.devRef .tc main_v239) = nidx a.ej := by
  unfold main_part4
  read_after [h.args.h0, h.args.h1, h.args.h2, h.args.h3, h.args.h4, h.args.h5, h.args.h6, h.args.h7, h.args.h8, h.args.h9, h.args.h10, h.v3, h.v147, h.v149, h.v189, h.v191, h.v192]
  try rfl

set_option maxRecDepth 16384 in
set_option maxHeartbeats 8000000 in
theorem inv4_v240 (d : Dev nD) (a : Args F) (W : Valuation τ sig (Elt F)) (h : Inv3 a W) :
    after (opsOf (main_part4 (F := F) d)) W (Proc.devRef .tc main_v240) = col a.ei := by
  unfold main_part4
  read_after [h.args.h0, h.args.h1, h.args.h2, h.args.h3, h.args.h4, h.args.h5, h.args.h6, h.args.h7, h.args.h8, h.args.h9, h.args.h10, h.v3, h.v147, h.v149, h.v189, h.v191, h.v192]
  try rfl

/-- Window 4, read. -/
theorem inv4 (d : Dev nD) (a : Args F) (W : Valuation τ sig (Elt F)) (h : Inv3 a W) :
    Inv4 a (after (opsOf (main_part4 (F := F) d)) W) where
  args := h.args.after (line_part4 d)
  v3 := inv4_v3 d a W h
  v193 := inv4_v193 d a W h
  v209 := inv4_v209 d a W h
  v211 := inv4_v211 d a W h
  v228 := inv4_v228 d a W h
  v229 := inv4_v229 d a W h
  v239 := inv4_v239 d a W h
  v240 := inv4_v240 d a W h

end Cert.ReferenceIdeal.RefValue

end
-- ==== Proof.RefRun5.lean ====
/-
  Window 5 of the reference's @main, read: what the buffers still needed later hold after it, as the named functions of
  the argument arrays.
-/
import proofs.«169176_j23261542875327_2_alg».proof.Proof.RefInv

noncomputable section

namespace Cert.ReferenceIdeal.RefValue

open Cert.ReferenceIdeal Idealize.ShloMosaic Idealize.SL.Sem Idealize.ShloMosaic.StableHlo

variable {F : FTy → Type} [FloatOps F]

set_option maxRecDepth 200000 in
set_option maxHeartbeats 8000000 in
theorem inv5_out (d : Dev nD) (a : Args F) (W : Valuation τ sig (Elt F)) (h : Inv4 a W) :
    after (opsOf (main_part5 (F := F) d)) W (Proc.devRef .tc main_v267) = a.out := by
  unfold main_part5
  read_after [h.args.h0, h.args.h1, h.args.h2, h.args.h3, h.args.h4, h.args.h5, h.args.h6, h.args.h7, h.args.h8, h.args.h9, h.args.h10, h.v3, h.v193, h.v209, h.v211, h.v228, h.v229, h.v239, h.v240]
  try rfl

/-- Window 5, read. -/
theorem inv5 (d : Dev nD) (a : Args F) (W : Valuation τ sig (Elt F)) (h : Inv4 a W) :
    Inv5 a (after (opsOf (main_part5 (F := F) d)) W) where
  args := h.args.after (line_part5 d)
  out := inv5_out d a W h

end Cert.ReferenceIdeal.RefValue

end
-- ==== Proof.RefRun.lean ====
/-
  THE RUN OF THE REFERENCE: every weakly fair execution of the reference's @main terminates without a fault, its result
  array holding the named function `Args.out` of the launch's argument arrays and the eleven argument arrays unchanged.
  The six windows of @main are read one after the other: what each leaves in the buffers still needed is the next one's
  starting point.
-/
import proofs.«169176_j23261542875327_2_alg».proof.Proof.RefRun0
import proofs.«169176_j23261542875327_2_alg».proof.Proof.RefRun1
import proofs.«169176_j23261542875327_2_alg».proof.Proof.RefRun2
import proofs.«169176_j23261542875327_2_alg».proof.Proof.RefRun3
import proofs.«169176_j23261542875327_2_alg».proof.Proof.RefRun4
import proofs.«169176_j23261542875327_2_alg».proof.Proof.RefRun5
import Idealize.ShloMosaic.Lib.Pipeline.Frame

noncomputable section

namespace Cert.ReferenceIdeal.RefValue

open Cert.ReferenceIdeal Idealize.ShloMosaic Idealize.ShloMosaic.TcCoe Idealize.SL.Sem Idealize.ShloMosaic.StableHlo

variable {F : FTy → Type} [FloatOps F]

/-- The contents after the whole line are the contents after its six windows in turn. -/
theorem after_main (d : Dev nD) (V : Valuation τ sig (Elt F)) :
    after (ops (F := F) d) V
      = after (opsOf (main_part5 (F := F) d)) (after (opsOf (main_part4 (F := F) d)) (after (opsOf (main_part3 (F := F) d))
          (after (opsOf (main_part2 (F := F) d)) (after (opsOf (main_part1 (F := F) d)) (after (opsOf (main_part0 (F := F) d)) V))))) := by
  unfold ops main
  rw [(line_part0 d).opsOf_bind, StableHlo.after_append, (line_part1 d).opsOf_bind, StableHlo.after_append,
    (line_part2 d).opsOf_bind, StableHlo.after_append, (line_part3 d).opsOf_bind, StableHlo.after_append,
    (line_part4 d).opsOf_bind, StableHlo.after_append]

/-- The result array after the line: the reference's named result of the launch's argument arrays. -/
theorem after_out (d : Dev nD) (V : Valuation τ sig (Elt F)) :
    after (ops (F := F) d) V (Proc.devRef .tc main_v267) = (argsOf V).out := by
  rw [after_main]
  exact (inv5 d _ _ (inv4 d _ _ (inv3 d _ _ (inv2 d _ _ (inv1 d _ _ (inv0 d _ V (argsAre_argsOf V))))))).out

/-- THE RUN. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v267) = (argsOf (launchContents m c)).out
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨(h c main_v267).trans (after_out c _),
     (h c main_arg0).trans (after_arg c _ (by decide)), (h c main_arg1).trans (after_arg c _ (by decide)),
     (h c main_arg2).trans (after_arg c _ (by decide)), (h c main_arg3).trans (after_arg c _ (by decide)),
     (h c main_arg4).trans (after_arg c _ (by decide)), (h c main_arg5).trans (after_arg c _ (by decide)),
     (h c main_arg6).trans (after_arg c _ (by decide)), (h c main_arg7).trans (after_arg c _ (by decide)),
     (h c main_arg8).trans (after_arg c _ (by decide)), (h c main_arg9).trans (after_arg c _ (by decide)),
     (h c main_arg10).trans (after_arg c _ (by decide))⟩) (run_after m ρ)

end Cert.ReferenceIdeal.RefValue

end
-- ==== Proof.RefIdx.lean ====
/-
  The reference's layer functions READ AT AN INDEX, at the ideal values (floats extended reals, operations exact): a
  pointwise operation is the operation on the elements, a transpose swaps the coordinates, a matrix product is the plain
  sum over the contracted coordinate.  The constants stay the words the program writes (0x3F000000 for 0.5, 0x3F800000
  for 1).  The edge chain (edgeP, edgeM) and the tail (tailOut) are not opened.
-/
import proofs.«169176_j23261542875327_2_alg».proof.Proof.RefDefs
import Idealize.ShloMosaic.Lib.StackMember
import Idealize.ShloMosaic.Lib.IdealHost
import Idealize.ShloMosaic.Lib.Pipeline.Value

noncomputable section

namespace Cert.ReferenceIdeal.RefValue

open Cert.ReferenceIdeal Idealize.ShloMosaic Idealize.SL.Sem

open Idealize.ShloMosaic.ValueIdx
open scoped BigOperators

/-! ## Constant arrays at an index -/

theorem ones44_apply (p : S4096x4096.Idx) : ones44 (F := Ideal) p = Ideal.ofBits .f32 0x3F800000#32 := by
  unfold ones44 one0
  exact (broadcastInDim_scalar_apply _ _ p).trans rfl

theorem halves44_apply (p : S4096x4096.Idx) : halves44 (F := Ideal) p = Ideal.ofBits .f32 0x3F000000#32 := by
  unfold halves44 half0
  exact (broadcastInDim_scalar_apply _ _ p).trans rfl

theorem ones42_apply (p : S4096x256.Idx) : ones42 (F := Ideal) p = Ideal.ofBits .f32 0x3F800000#32 := by
  unfold ones42 one0
  exact (broadcastInDim_scalar_apply _ _ p).trans rfl

theorem halves42_apply (p : S4096x256.Idx) : halves42 (F := Ideal) p = Ideal.ofBits .f32 0x3F000000#32 := by
  unfold halves42 half0
  exact (broadcastInDim_scalar_apply _ _ p).trans rfl

/-! ## The pointwise layer functions at an index -/

/-- mea at an index: 0.5 · EA · w22. -/
theorem mea_apply (EA w22 : T44 Ideal) (p : S4096x4096.Idx) :
    mea EA w22 p = Ideal.ofBits .f32 0x3F000000#32 * EA p * w22 p := by
  show halves44 (F := Ideal) p * EA p * w22 p = _
  rw [halves44_apply]

/-- A at an index: adj · EP + mea. -/
theorem Aof_apply (adj EP m : T44 Ideal) (p : S4096x4096.Idx) : Aof adj EP m p = adj p * EP p + m p := rfl

/-- The transposed N × N matrix at an index. -/
theorem trSq_apply (E : T44 Ideal) (i j : Fin 4096) : trSq E (ix2 i j) = E (ix2 j i) :=
  transpose_apply [1, 0] E _ (ix2 i j) (ix2 j i) fun b => match b with | ⟨0, _⟩ => rfl | ⟨1, _⟩ => rfl

/-- The transposed N × 256 matrix at an index. -/
theorem tr_apply (y : T42 Ideal) (k : Fin 256) (j : Fin 4096) : tr y (ix2 k j) = y (ix2 j k) :=
  transpose_apply [1, 0] y _ (ix2 k j) (ix2 j k) fun b => match b with | ⟨0, _⟩ => rfl | ⟨1, _⟩ => rfl

/-- An N × N by N × 256 product at an index: the plain sum. -/
theorem mm_apply (A : T44 Ideal) (y : T42 Ideal) (i : Fin 4096) (j : Fin 256) :
    mm A y (ix2 i j) = ∑ k : Fin 4096, A (ix2 i k) * y (ix2 k j) :=
  StackMember.dotGeneral_plain_apply (m := 4096) (n := 256) (k := 4096) (φ₁ := .f32) (φ₂ := .f32) none A y i j

/-- y yᵀ at an index. -/
theorem yyTof_apply (y : T42 Ideal) (i j : Fin 4096) : yyTof y (ix2 i j) = ∑ k : Fin 256, y (ix2 i k) * y (ix2 j k) := by
  have h := StackMember.dotGeneral_plain_apply (m := 4096) (n := 4096) (k := 256) (φ₁ := .f32) (φ₂ := .f32) none y (tr y) i j
  refine h.trans (Finset.sum_congr rfl fun k _ => ?_)
  rw [tr_apply]

/-- temp at an index: the three sums. -/
theorem tempOf_apply (EP A yyT : T44 Ideal) (y : T42 Ideal) (i : Fin 4096) (j : Fin 256) :
    tempOf EP A yyT y (ix2 i j)
      = (∑ k : Fin 4096, EP (ix2 k i) * y (ix2 k j)) + (∑ k : Fin 4096, A (ix2 i k) * y (ix2 k j))
        - ∑ k : Fin 4096, yyT (ix2 i k) * y (ix2 k j) := by
  show mm (trSq EP) y (ix2 i j) + mm A y (ix2 i j) - mm yyT y (ix2 i j) = _
  rw [mm_apply, mm_apply, mm_apply]
  simp only [trSq_apply]

/-- 1 / (1 + exp (−t)) at an index. -/
theorem sigOf_apply (t : T42 Ideal) (p : S4096x256.Idx) :
    sigOf t p = Ideal.div (Ideal.ofBits .f32 0x3F800000#32) (Ideal.ofBits .f32 0x3F800000#32 + Ideal.exp (-(t p))) := by
  show Ideal.div (ones42 (F := Ideal) p) (ones42 (F := Ideal) p + Ideal.exp (-(t p))) = _
  rw [ones42_apply]

/-- y' at an index: 0.5 · s + feat. -/
theorem yNext_apply (s feat : T42 Ideal) (p : S4096x256.Idx) :
    yNext s feat p = Ideal.ofBits .f32 0x3F000000#32 * s p + feat p := by
  show halves42 (F := Ideal) p * s p + feat p = _
  rw [halves42_apply]

/-- z' at an index: z − A z. -/
theorem zNext_apply (A : T44 Ideal) (z : T42 Ideal) (i : Fin 4096) (j : Fin 256) :
    zNext A z (ix2 i j) = z (ix2 i j) - ∑ k : Fin 4096, A (ix2 i k) * z (ix2 k j) := by
  show z (ix2 i j) - mm A z (ix2 i j) = _
  rw [mm_apply]

/-- EP' at an index: (1 · (yyT − mea) − 0.5 · M) / 1. -/
theorem EPnext_apply (yyT m M : T44 Ideal) (p : S4096x4096.Idx) :
    EPnext yyT m M p
      = Ideal.div (Ideal.ofBits .f32 0x3F800000#32 * (yyT p - m p) - Ideal.ofBits .f32 0x3F000000#32 * M p)
          (Ideal.ofBits .f32 0x3F800000#32) := by
  show Ideal.div (ones44 (F := Ideal) p * (yyT p - m p) - halves44 (F := Ideal) p * M p) (ones44 (F := Ideal) p) = _
  rw [ones44_apply, halves44_apply]

end Cert.ReferenceIdeal.RefValue

end
-- ==== Proof.LibDenseAssoc.lean ====
/-
  Dense matrix products on the extended reals reassociate at real entries.

  A product of three matrices read at one entry, the host's way (each contraction a plain sum started from zero):
  `(g · x) · w` at a row of `g` and a column of `w` is `0 + Σ_k (0 + Σ_j g j · x j k) · w k`, and `g · (x · w)` there is
  `0 + Σ_j g j · (0 + Σ_k x j k · w k)`. On the extended reals multiplication does not distribute over a sum that
  mixes the two infinities, so the two readings can differ; when every entry is a real number both are the real
  double sum `Σ_j Σ_k g j · x j k · w k` and they agree (`dense_assoc`). Also here: the inclusion of the reals
  commutes with finite sums (`coe_sum`), and the squared distance between two real vectors is its three-term
  expansion, which is never negative, so clamping the expansion at zero changes nothing (`sqdist_expand`).
  Generic in the finite index types; imports only the extended-real instance.
-/
import Idealize.ShloMosaic.PureOps.Ideal

namespace Cert.LibDenseAssoc

open Finset

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `(g · x) · w = g · (x · w)` entry by entry, each contraction a sum started from zero, when every entry of the
    three matrices is a real number: both sides are the real double sum of `g j · x j k · w k`. -/
theorem dense_assoc {J K : Type*} [Fintype J] [Fintype K]
    (g : J → EReal) (x : J → K → EReal) (w : K → EReal)
    (hg : ∀ j, g j ≠ ⊤ ∧ g j ≠ ⊥) (hx : ∀ j k, x j k ≠ ⊤ ∧ x j k ≠ ⊥) (hw : ∀ k, w k ≠ ⊤ ∧ w k ≠ ⊥) :
    (0 + ∑ k, (0 + ∑ j, g j * x j k) * w k) = 0 + ∑ j, g j * (0 + ∑ k, x j k * w k) := by
  lift g to J → ℝ using hg
  lift w to K → ℝ using hw
  lift x to J → K → ℝ using hx
  have hL : (∑ k, (∑ j, (g j : EReal) * (x j k : EReal)) * (w k : EReal))
      = ((∑ k, (∑ j, g j * x j k) * w k : ℝ) : EReal) := by
    simp only [coe_sum, EReal.coe_mul]
  have hR : (∑ j, (g j : EReal) * ∑ k, (x j k : EReal) * (w k : EReal))
      = ((∑ j, g j * ∑ k, x j k * w k : ℝ) : EReal) := by
    simp only [coe_sum, EReal.coe_mul]
  simp only [zero_add]
  rw [hL, hR]
  congr 1
  simp only [Finset.sum_mul, Finset.mul_sum]
  rw [Finset.sum_comm]
  exact Finset.sum_congr rfl fun j _ => Finset.sum_congr rfl fun k _ => by ring

/-- The squared distance of two real vectors, summed from zero, is `|z|² − 2 z·c + |c|²` clamped at zero: the
    expansion is exact over the reals and a sum of squares is never negative, so the clamp is the identity. -/
theorem sqdist_expand {S : Type*} [Fintype S] (z c : S → EReal)
    (hz : ∀ s, z s ≠ ⊤ ∧ z s ≠ ⊥) (hc : ∀ s, c s ≠ ⊤ ∧ c s ≠ ⊥) :
    (0 + ∑ s, (z s - c s) * (z s - c s))
      = max (((0 + ∑ s, z s * z s) - ((2 : ℝ) : EReal) * (0 + ∑ s, z s * c s)) + (0 + ∑ s, c s * c s)) 0 := by
  lift z to S → ℝ using hz
  lift c to S → ℝ using hc
  have h1 : (∑ s, ((z s : EReal) - (c s : EReal)) * ((z s : EReal) - (c s : EReal)))
      = ((∑ s, (z s - c s) * (z s - c s) : ℝ) : EReal) := by
    simp only [coe_sum, EReal.coe_mul, EReal.coe_sub]
  have h2 : (∑ s, (z s : EReal) * (z s : EReal)) = ((∑ s, z s * z s : ℝ) : EReal) := by
    simp only [coe_sum, EReal.coe_mul]
  have h3 : (∑ s, (z s : EReal) * (c s : EReal)) = ((∑ s, z s * c s : ℝ) : EReal) := by
    simp only [coe_sum, EReal.coe_mul]
  have h4 : (∑ s, (c s : EReal) * (c s : EReal)) = ((∑ s, c s * c s : ℝ) : EReal) := by
    simp only [coe_sum, EReal.coe_mul]
  simp only [zero_add]
  rw [h1, h2, h3, h4, ← EReal.coe_mul, ← EReal.coe_sub, ← EReal.coe_add]
  have hexp : (∑ s, (z s - c s) * (z s - c s)) = (∑ s, z s * z s) - 2 * (∑ s, z s * c s) + ∑ s, c s * c s := by
    rw [Finset.mul_sum, ← Finset.sum_sub_distrib, ← Finset.sum_add_distrib]
    exact Finset.sum_congr rfl fun s _ => by ring
  have hnn : (0 : ℝ) ≤ ∑ s, (z s - c s) * (z s - c s) :=
    Finset.sum_nonneg fun s _ => mul_self_nonneg _
  rw [← hexp, max_eq_left (by exact_mod_cast hnn)]

end Cert.LibDenseAssoc
-- ==== Proof.LibRealEntries.lean ====
/-
  Entries that are real numbers.

  At the extended reals, laws such as distributivity and cancellation hold only away from the infinities, so a proof
  that two idealized programs agree often has to know that every intermediate entry is a REAL number. This file
  gives the predicate and its closure under the operations a dense / normalisation / gating layer is made of:
  sums, differences, products, maxima (so `relu`), quotients by a nonzero real, finite sums (so a matrix product's
  contraction and a batch reduction), the reciprocal square root of a positive real, and the logistic function.
  It also gives the entry point: an extended real whose absolute value is below `+∞` is a real — the element fact a
  finiteness precondition `|x| < +inf` states.

  Imports only the idealized operations; generic in every index type.
-/
import Idealize.ShloMosaic.PureOps.Ideal

noncomputable section

namespace LibRealEntries

open Idealize.ShloMosaic

/-- `x` is (the inclusion of) a real number: neither infinity. -/
def IsReal (x : EReal) : Prop := ∃ r : ℝ, x = (r : EReal)

/-- `x` is a positive real number. -/
def IsPosReal (x : EReal) : Prop := ∃ r : ℝ, 0 < r ∧ x = (r : EReal)

/-- `x` is a non-negative real number. -/
def IsNonnegReal (x : EReal) : Prop := ∃ r : ℝ, 0 ≤ r ∧ x = (r : EReal)

theorem isReal_coe (r : ℝ) : IsReal (r : EReal) := ⟨r, rfl⟩
theorem isReal_zero : IsReal (0 : EReal) := ⟨0, EReal.coe_zero.symm⟩
theorem isReal_one : IsReal (1 : EReal) := ⟨1, EReal.coe_one.symm⟩

theorem IsPosReal.isReal {x : EReal} (h : IsPosReal x) : IsReal x := let ⟨r, _, e⟩ := h; ⟨r, e⟩
theorem IsNonnegReal.isReal {x : EReal} (h : IsNonnegReal x) : IsReal x := let ⟨r, _, e⟩ := h; ⟨r, e⟩
theorem IsPosReal.isNonneg {x : EReal} (h : IsPosReal x) : IsNonnegReal x := let ⟨r, p, e⟩ := h; ⟨r, p.le, e⟩

/-- An extended real whose absolute value `max x (-x)` is below `+∞` is a real number. -/
theorem isReal_of_abs_lt_top {x : EReal} (h : Max.max x (-x) < ⊤) : IsReal x := by
  by_cases hb : x = ⊥
  · subst hb; simp at h
  by_cases ht : x = ⊤
  · subst ht; simp at h
  · exact ⟨x.toReal, (EReal.coe_toReal ht hb).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (Max.max x y) := by
  obtain ⟨a, rfl⟩ := hx; obtain ⟨b, rfl⟩ := hy
  exact ⟨Max.max a b, (EReal.coe_strictMono.monotone.map_max).symm⟩

/-- `relu`: the maximum with zero of a real is a non-negative real. -/
theorem IsReal.max_zero {x : EReal} (hx : IsReal x) : IsNonnegReal (Max.max x 0) := by
  obtain ⟨a, rfl⟩ := hx
  refine ⟨Max.max a 0, le_max_right a 0, ?_⟩
  rw [← EReal.coe_zero, ← EReal.coe_strictMono.monotone.map_max]

/-- The quotient of a real by a nonzero real, as the idealized programs divide, is a real. -/
theorem IsReal.div {x : EReal} (hx : IsReal x) {b : ℝ} (hb : b ≠ 0) : IsReal (Ideal.div x (b : EReal)) := by
  obtain ⟨a, rfl⟩ := hx
  exact ⟨a / b, by rw [Ideal.div_coe hb, ← EReal.coe_mul, mul_one_div]⟩

/-- The quotient of a real by a positive real is a real. -/
theorem IsReal.div_pos {x y : EReal} (hx : IsReal x) (hy : IsPosReal y) : IsReal (Ideal.div x y) := by
  obtain ⟨b, hb, rfl⟩ := hy; exact hx.div hb.ne'

/-- A finite sum of reals is a real. -/
theorem IsReal.sum {ι : Type} (s : Finset ι) (f : ι → EReal) (h : ∀ i ∈ s, IsReal (f i)) : IsReal (∑ i ∈ s, f i) := by
  classical
  revert h
  refine Finset.induction_on s ?_ ?_
  · intro _; rw [Finset.sum_empty]; exact isReal_zero
  · intro a s ha ih h
    rw [Finset.sum_insert ha]
    exact (h a (Finset.mem_insert_self a s)).add (ih fun i hi => h i (Finset.mem_insert_of_mem hi))

/-- A contraction `acc + Σ k, a k * b k` of reals (a matrix product's entry) is a real. -/
theorem IsReal.contraction {κ : Type} [Fintype κ] {acc : EReal} (a b : κ → EReal) (hacc : IsReal acc)
    (ha : ∀ k, IsReal (a k)) (hb : ∀ k, IsReal (b k)) : IsReal (acc + ∑ k, a k * b k) :=
  hacc.add (IsReal.sum _ _ fun k _ => (ha k).mul (hb k))

/-- A non-negative real plus a positive real is a positive real (a variance plus its epsilon). -/
theorem IsNonnegReal.add_pos {x y : EReal} (hx : IsNonnegReal x) (hy : IsPosReal y) : IsPosReal (x + y) := by
  obtain ⟨a, ha, rfl⟩ := hx; obtain ⟨b, hb, rfl⟩ := hy
  exact ⟨a + b, by linarith, (EReal.coe_add a b).symm⟩

/-- The reciprocal square root at a positive real is the real `(√r)⁻¹`. -/
theorem rsqrt_of_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real is a positive real. -/
theorem IsPosReal.rsqrt {x : EReal} (hx : IsPosReal x) : IsPosReal (Ideal.rsqrt x) := by
  obtain ⟨r, hr, rfl⟩ := hx
  exact ⟨(Real.sqrt r)⁻¹, inv_pos.mpr (Real.sqrt_pos.mpr hr), rsqrt_of_pos hr⟩

/-- The logistic function of a real is a positive real (so a gate, and a sum of gates plus a positive epsilon,
    never vanishes). -/
theorem IsReal.logistic {x : EReal} (hx : IsReal x) : IsPosReal (Ideal.logistic x) := by
  obtain ⟨r, rfl⟩ := hx
  exact ⟨(1 + Real.exp (-r))⁻¹, inv_pos.mpr (by positivity), Ideal.logistic_coe r⟩

/-- A sum of two positive reals is a positive real. -/
theorem IsPosReal.add {x y : EReal} (hx : IsPosReal x) (hy : IsPosReal y) : IsPosReal (x + y) :=
  hx.isNonneg.add_pos hy

/-- A finite sum of non-negative reals is a non-negative real. -/
theorem IsNonnegReal.sum {ι : Type} (s : Finset ι) (f : ι → EReal) (h : ∀ i ∈ s, IsNonnegReal (f i)) :
    IsNonnegReal (∑ i ∈ s, f i) := by
  classical
  revert h
  refine Finset.induction_on s ?_ ?_
  · intro _; rw [Finset.sum_empty]; exact ⟨0, le_rfl, EReal.coe_zero.symm⟩
  · intro a s ha ih h
    rw [Finset.sum_insert ha]
    obtain ⟨p, hp, ep⟩ := h a (Finset.mem_insert_self a s)
    obtain ⟨q, hq, eq⟩ := ih fun i hi => h i (Finset.mem_insert_of_mem hi)
    exact ⟨p + q, add_nonneg hp hq, by rw [ep, eq, EReal.coe_add]⟩

end LibRealEntries

end
-- ==== Proof.LayerLaws.lean ====
/-
  The algebra that joins the two idealized programs of the four-layer graph network.

  Both programs run the same layer four times.  With y the node features (N × F), z the second state, EP the edge
  weights (N × N), adj the adjacency and mea the masked attention, a layer computes

      A     = adj ∘ EP + mea                       (entrywise)
      temp  = EPᵀ·y + A·y − (y·yᵀ)·y
      y'    = ½ · σ(w₁·temp) + feat                σ t = 1 / (1 + e^(−t))
      z'    = z − A·z
      EP'   = (1·(y·yᵀ − mea) − ½·M) / 1           M the scattered edge norms of z

  and the two programs differ in four places only:

    1. at the first layer EP is the all-ones matrix; one program multiplies by it (adj ∘ 1, 1ᵀ·y) and the other has
       dropped it (adj, the column sums of y);
    2. one program scales by 1 and divides by 1 in the EP update and the other does not;
    3. one program contracts (y·yᵀ)·y and the other y·(yᵀ·y);
    4. nothing else: every other operation is the same operation on the same operands.

  On the extended reals x·1 = x and x/1 = x hold at every x, the infinities included, so 1 and 2 are unconditional.
  The reassociation 3 is a distributivity statement and fails when an entry is infinite; it holds when every entry
  of y is a real number.  That is true of the first layer's y (the input feat, finite by the precondition) and it
  is preserved: whatever extended real t the pre-activation is, σ t lies in [0, 1], so ½·σ t + feat is a real
  number wherever feat is.  Every matrix product below is read the way the programs compute it, as a plain sum
  started from zero.

  Generic in the finite index types; no program is imported.
-/
import Idealize.ShloMosaic.PureOps.Ideal
import Idealize.ShloMosaic.PureOps.Ideal.Laws
import proofs.«169176_j23261542875327_2_alg».proof.Proof.LibDenseAssoc
import proofs.«169176_j23261542875327_2_alg».proof.Proof.LibRealEntries

noncomputable section

namespace Cert.Laws

open Idealize.ShloMosaic LibRealEntries
open scoped BigOperators

/-! ## The three float constants the programs spell -/

/-- The pattern of the f32 number 1.0 denotes the extended real 1. -/
theorem ofBits_one : Ideal.ofBits .f32 0x3F800000#32 = 1 := by
  simp [Ideal.ofBits, Ideal.ieee, -EReal.coe_mul]; norm_num

/-- The pattern of the f32 number 0.5 denotes the real number 1/2. -/
theorem ofBits_half : Ideal.ofBits .f32 0x3F000000#32 = ((1 / 2 : ℝ) : EReal) := by
  simp [Ideal.ofBits, Ideal.ieee, -EReal.coe_mul]; norm_num

/-- The pattern of the f32 number 0.0 denotes the extended real 0. -/
theorem ofBits_zero : Ideal.ofBits .f32 0x00000000#32 = 0 := Ideal.ofBits_zero_f32

/-! ## Real entries: the two ways of saying it -/

/-- A real entry is neither infinity. -/
theorem ne_of_isReal {x : EReal} (h : IsReal x) : x ≠ ⊤ ∧ x ≠ ⊥ := by
  obtain ⟨r, rfl⟩ := h; exact ⟨EReal.coe_ne_top r, EReal.coe_ne_bot r⟩

/-- An extended real that is neither infinity is a real number. -/
theorem isReal_of_ne {x : EReal} (h : x ≠ ⊤ ∧ x ≠ ⊥) : IsReal x :=
  ⟨x.toReal, (EReal.coe_toReal h.1 h.2).symm⟩

theorem isReal_iff {x : EReal} : IsReal x ↔ x ≠ ⊤ ∧ x ≠ ⊥ := ⟨ne_of_isReal, isReal_of_ne⟩

/-! ## 1. Multiplying and dividing by one -/

/-- x / 1 = x at every extended real: 1 is not zero and is its own inverse. -/
theorem div_one (x : EReal) : Ideal.div x 1 = x := by
  have h1 : (1 : EReal)⁻¹ = 1 := by rw [← EReal.coe_one, ← EReal.coe_inv, inv_one]
  rw [Ideal.div, if_neg one_ne_zero, h1, mul_one]

/-- x · 1.0 = x, the one spelled by its pattern. -/
theorem mul_ofBits_one (x : EReal) : x * Ideal.ofBits .f32 0x3F800000#32 = x := by rw [ofBits_one, mul_one]

/-- 1.0 · x = x. -/
theorem ofBits_one_mul (x : EReal) : Ideal.ofBits .f32 0x3F800000#32 * x = x := by rw [ofBits_one, one_mul]

/-- x / 1.0 = x. -/
theorem div_ofBits_one (x : EReal) : Ideal.div x (Ideal.ofBits .f32 0x3F800000#32) = x := by rw [ofBits_one, div_one]

/-- The first layer's A: adj · 1.0 + mea = adj + mea. -/
theorem a_first (adj mea : EReal) : adj * Ideal.ofBits .f32 0x3F800000#32 + mea = adj + mea := by
  rw [mul_ofBits_one]

/-- The EP update: (1.0 · (g − mea) − hM) / 1.0 = (g − mea) − hM, whatever the three extended reals are
    (g the entry of y·yᵀ, hM the halved scattered norm). -/
theorem ep_update (g mea hM : EReal) :
    Ideal.div (Ideal.ofBits .f32 0x3F800000#32 * (g - mea) - hM) (Ideal.ofBits .f32 0x3F800000#32) = g - mea - hM := by
  rw [div_ofBits_one, ofBits_one_mul]

/-! ## 2. Contracting against the all-ones matrix -/

/-- 1ᵀ·y at a column is the column sum of y: Σₖ 1.0 · y k = Σₖ y k, each sum started from zero. -/
theorem ones_contract {N : Type*} [Fintype N] (y : N → EReal) :
    (0 + ∑ k, Ideal.ofBits .f32 0x3F800000#32 * y k) = 0 + ∑ k, y k := by
  simp only [ofBits_one_mul]

/-- The same with the zero a host sum starts from spelled by its pattern on the right. -/
theorem ones_contract_ofBits {N : Type*} [Fintype N] (y : N → EReal) :
    (0 + ∑ k, Ideal.ofBits .f32 0x3F800000#32 * y k) = Ideal.ofBits .f32 0x00000000#32 + ∑ k, y k := by
  rw [ofBits_zero, ones_contract]

/-- The same as bare sums. -/
theorem ones_contract_sum {N : Type*} [Fintype N] (y : N → EReal) :
    (∑ k, Ideal.ofBits .f32 0x3F800000#32 * y k) = ∑ k, y k := by
  simp only [ofBits_one_mul]

/-! ## 3. The reassociation (y·yᵀ)·y = y·(yᵀ·y) -/

/-- (g·x)·w = g·(x·w) at one entry, each contraction a sum started from zero, at real entries. -/
theorem reassoc {J K : Type*} [Fintype J] [Fintype K] (g : J → EReal) (x : J → K → EReal) (w : K → EReal)
    (hg : ∀ j, IsReal (g j)) (hx : ∀ j k, IsReal (x j k)) (hw : ∀ k, IsReal (w k)) :
    (0 + ∑ k, (0 + ∑ j, g j * x j k) * w k) = 0 + ∑ j, g j * (0 + ∑ k, x j k * w k) :=
  Cert.LibDenseAssoc.dense_assoc g x w (fun j => ne_of_isReal (hg j)) (fun j k => ne_of_isReal (hx j k))
    (fun k => ne_of_isReal (hw k))

/-- The layer's third term.  For y with real entries and yt its transpose (yt l k = y k l), at row i and column j:
    Σₖ (Σₗ y i l · yt l k) · y k j = Σₗ y i l · (Σₖ yt l k · y k j). -/
theorem gram_reassoc {N F : Type*} [Fintype N] [Fintype F] (y : N → F → EReal) (yt : F → N → EReal)
    (hyt : ∀ l k, yt l k = y k l) (hy : ∀ k l, IsReal (y k l)) (i : N) (j : F) :
    (0 + ∑ k, (0 + ∑ l, y i l * yt l k) * y k j) = 0 + ∑ l, y i l * (0 + ∑ k, yt l k * y k j) :=
  reassoc (fun l => y i l) yt (fun k => y k j) (fun l => hy i l) (fun l k => by rw [hyt]; exact hy k l)
    (fun k => hy k j)

/-- The reassociation with the contractions as bare sums (a sum started from zero is the sum). -/
theorem reassoc_sum {J K : Type*} [Fintype J] [Fintype K] (g : J → EReal) (x : J → K → EReal) (w : K → EReal)
    (hg : ∀ j, IsReal (g j)) (hx : ∀ j k, IsReal (x j k)) (hw : ∀ k, IsReal (w k)) :
    (∑ k, (∑ j, g j * x j k) * w k) = ∑ j, g j * (∑ k, x j k * w k) := by
  have h := reassoc g x w hg hx hw
  simpa only [zero_add] using h

/-- The layer's third term with the contractions as bare sums. -/
theorem gram_reassoc_sum {N F : Type*} [Fintype N] [Fintype F] (y : N → F → EReal) (yt : F → N → EReal)
    (hyt : ∀ l k, yt l k = y k l) (hy : ∀ k l, IsReal (y k l)) (i : N) (j : F) :
    (∑ k, (∑ l, y i l * yt l k) * y k j) = ∑ l, y i l * (∑ k, yt l k * y k j) := by
  have h := gram_reassoc y yt hyt hy i j
  simpa only [zero_add] using h

/-! ## 4. Real entries are preserved by the feature update -/

/-- The logistic function takes every extended real to a real number: 0 at −∞, 1 at +∞, (1 + e^(−r))⁻¹ at a real r. -/
theorem isReal_logistic (t : EReal) : IsReal (Ideal.logistic t) := by
  induction t using EReal.rec with
  | bot => rw [Ideal.logistic_bot]; exact isReal_zero
  | top => rw [Ideal.logistic_top]; exact isReal_one
  | coe r => rw [Ideal.logistic_coe]; exact isReal_coe _

/-- The same, spelled as the programs print it: 1.0 / (1.0 + exp (−t)). -/
theorem isReal_sigmoid (t : EReal) :
    IsReal (Ideal.div (Ideal.ofBits .f32 0x3F800000#32) (Ideal.ofBits .f32 0x3F800000#32 + Ideal.exp (-t))) := by
  rw [ofBits_one]; exact isReal_logistic t

/-- The feature update keeps entries real: 0.5 · (1.0 / (1.0 + exp (−t))) + f is a real number wherever f is,
    whatever extended real the pre-activation t is. -/
theorem isReal_update (t f : EReal) (hf : IsReal f) :
    IsReal (Ideal.ofBits .f32 0x3F000000#32
        * Ideal.div (Ideal.ofBits .f32 0x3F800000#32) (Ideal.ofBits .f32 0x3F800000#32 + Ideal.exp (-t)) + f) := by
  rw [ofBits_half]; exact ((isReal_coe _).mul (isReal_sigmoid t)).add hf

/-! ## The layer's pre-activation, both ways -/

/-- The first layer.  With the all-ones EP one program contracts 1ᵀ·y and multiplies adj by 1, and contracts
    (y·yᵀ)·y; the other takes the column sums of y, uses adj itself, and contracts y·(yᵀ·y).  At real y the two
    pre-activations agree entry by entry. -/
theorem temp_first {N F : Type*} [Fintype N] [Fintype F] (y : N → F → EReal) (yt : F → N → EReal)
    (hyt : ∀ l k, yt l k = y k l) (hy : ∀ k l, IsReal (y k l)) (adj mea : N → N → EReal) (i : N) (j : F) :
    ((0 + ∑ k, Ideal.ofBits .f32 0x3F800000#32 * y k j)
        + (0 + ∑ k, (adj i k * Ideal.ofBits .f32 0x3F800000#32 + mea i k) * y k j))
        - (0 + ∑ k, (0 + ∑ l, y i l * yt l k) * y k j)
      = ((Ideal.ofBits .f32 0x00000000#32 + ∑ k, y k j) + (0 + ∑ k, (adj i k + mea i k) * y k j))
        - (0 + ∑ l, y i l * (0 + ∑ k, yt l k * y k j)) := by
  rw [ones_contract_ofBits, gram_reassoc y yt hyt hy i j]
  simp only [mul_ofBits_one]

/-- A later layer: the two programs differ in the third term only. -/
theorem temp_later {N F : Type*} [Fintype N] [Fintype F] (y : N → F → EReal) (yt : F → N → EReal)
    (hyt : ∀ l k, yt l k = y k l) (hy : ∀ k l, IsReal (y k l)) (t1 oy : EReal) (i : N) (j : F) :
    (t1 + oy) - (0 + ∑ k, (0 + ∑ l, y i l * yt l k) * y k j)
      = (t1 + oy) - (0 + ∑ l, y i l * (0 + ∑ k, yt l k * y k j)) := by
  rw [gram_reassoc y yt hyt hy i j]

/-- The first layer's pre-activation with every contraction a bare sum. -/
theorem temp_first_sum {N F : Type*} [Fintype N] [Fintype F] (y : N → F → EReal) (yt : F → N → EReal)
    (hyt : ∀ l k, yt l k = y k l) (hy : ∀ k l, IsReal (y k l)) (adj mea : N → N → EReal) (i : N) (j : F) :
    ((∑ k, Ideal.ofBits .f32 0x3F800000#32 * y k j)
        + (∑ k, (adj i k * Ideal.ofBits .f32 0x3F800000#32 + mea i k) * y k j))
        - (∑ k, (∑ l, y i l * yt l k) * y k j)
      = ((∑ k, y k j) + (∑ k, (adj i k + mea i k) * y k j)) - (∑ l, y i l * (∑ k, yt l k * y k j)) := by
  rw [ones_contract_sum, gram_reassoc_sum y yt hyt hy i j]
  simp only [mul_ofBits_one]

end Cert.Laws

end
-- ==== Proof.Bridge.lean ====
/-
  The two idealized programs compute one function of the eleven argument arrays.

  Both run the same four-layer network (the reference as whole-array operations, the kernel program with sixteen
  regions among host stretches).  Stated over the argument arrays alone: with the node features real everywhere, the
  kernel program's result — its regions given by their entrywise formulas, its host stretches by their operations —
  is the reference's result.

  The proof carries, layer by layer, that the two programs' y, z and EP are the same arrays and that y has real
  entries.  The feature update, the edge chain and the tail are the same operations in both programs, so they are
  never opened: their inputs are shown equal.  Entry-level work is done exactly where the programs differ:

    * the reference multiplies by the all-ones EP of the first layer (adj · 1, 1ᵀ y); the kernel has dropped it;
    * the reference contracts (y yᵀ) y, the kernel y (yᵀ y): equal at real y, by reassociating a double sum of reals;
    * the reference scales by 1 and divides by 1 in the EP update;
    * a change of float format, a transpose, a product: each read at an entry.

  y stays real because the logistic function takes every extended real into [0, 1].
-/
import proofs.«169176_j23261542875327_2_alg».proof.Proof.KDefs
import proofs.«169176_j23261542875327_2_alg».proof.Proof.RefDefs
import proofs.«169176_j23261542875327_2_alg».proof.Proof.RefIdx
import proofs.«169176_j23261542875327_2_alg».proof.Proof.LayerLaws
import Idealize.ShloMosaic.Lib.Pipeline.Value
import Idealize.ShloMosaic.Lib.ValueIdx
import Idealize.ShloMosaic.Lib.StackMember
import Idealize.ShloMosaic.PureOps.Ideal.Laws

noncomputable section

/-! ## The kernel program's host stretches read at an entry -/

namespace Cert.KernelIdeal.KDefs

open Cert.KernelIdeal Idealize.ShloMosaic Idealize.SL.Sem Idealize.ShloMosaic.ValueIdx
open Cert.KernelIdeal.Facts₀

/-- Rounding a square array to bf16 changes nothing at the extended reals. -/
theorem bf44_apply (w : T44 Ideal) (i : S4096x4096.Idx) : bf44 w i = w i := rfl

/-- Rounding a tall array to bf16 changes nothing at the extended reals. -/
theorem bf42_apply (y : T42 Ideal) (i : S4096x256.Idx) : bf42 y i = y i := rfl

/-- The transpose swaps the coordinates. -/
theorem tr_apply (y : T42 Ideal) (l : Fin 256) (k : Fin 4096) : tr y (ix2 l k) = y (ix2 k l) := by
  unfold tr
  exact transpose_apply _ _ _ (ix2 l k) (ix2 k l) (fun b => by fin_cases b <;> rfl)

/-- yᵀ y at (l, q): the sum down the two columns. -/
theorem gram_apply (y : T42 Ideal) (l q : Fin 256) :
    gram y (ix2 l q) = ∑ k : Fin 4096, y (ix2 k l) * y (ix2 k q) := by
  unfold gram
  have hD : dot_S256x4096_S4096x256_S256x256_1_0_0_1_n_n = DotDims.plain 256 4096 256 := rfl
  rw [hD]
  show Host.dotGeneral (DotDims.plain 256 4096 256) none (tr y) y (ix2 l q) = _
  rw [StackMember.dotGeneral_plain_apply]
  exact Finset.sum_congr rfl fun k _ => by rw [tr_apply]

/-- y (yᵀ y) at (p, q). -/
theorem gramTimes_apply (y : T42 Ideal) (p : Fin 4096) (q : Fin 256) :
    gramTimes y (ix2 p q) = ∑ l : Fin 256, y (ix2 p l) * ∑ k : Fin 4096, y (ix2 k l) * y (ix2 k q) := by
  unfold gramTimes
  have hD : dot_S4096x256_S256x256_S4096x256_1_0_0_1_n_n = DotDims.plain 4096 256 256 := rfl
  rw [hD]
  show Host.dotGeneral (DotDims.plain 4096 256 256) none y (gram y) (ix2 p q) = _
  rw [StackMember.dotGeneral_plain_apply]
  exact Finset.sum_congr rfl fun l _ => by rw [gram_apply]

/-- The column sums on every row, at (p, q): the sum down column q, started from the zero word. -/
theorem colSum_apply (y : T42 Ideal) (p : Fin 4096) (q : Fin 256) :
    colSum y (ix2 p q) = Ideal.ofBits .f32 0x00000000#32 + ∑ k : Fin 4096, y (ix2 k q) := by
  unfold colSum
  rw [broadcastInDim_apply _ _ _ (ix2 p q) (ix2 (0 : Fin 1) q) (fun a => by fin_cases a <;> rfl)]
  rw [broadcastInDim_apply _ _ _ (ix2 (0 : Fin 1) q) (ix1 q) (fun a => by fin_cases a; rfl)]
  have hR : S4096x256.Reduces [0] S256 := by decide
  show Ideal.hostReduceAdd reducesTo_S4096x256_S256_d0 y _ (ix1 q) = _
  rw [Ideal.hostReduceAdd_single reducesTo_S4096x256_S256_d0 hR]
  show Ideal.ofBits .f32 0x00000000#32 + _ = _
  congr 1
  refine Finset.sum_congr rfl fun k _ => congrArg y ?_
  funext ax; apply Fin.ext
  match ax with
  | ⟨0, _⟩ => rfl
  | ⟨1, _⟩ => rfl

/-- The entrywise stretches at an entry. -/
theorem tempOf_apply (t1 oy t3 : T42 Ideal) (i : S4096x256.Idx) : tempOf t1 oy t3 i = (t1 i + oy i) - t3 i := rfl
theorem zNext_apply (z oz : T42 Ideal) (i : S4096x256.Idx) : zNext z oz i = z i - oz i := rfl
theorem sigOf_apply (t : T42 Ideal) (i : S4096x256.Idx) :
    sigOf t i = Ideal.div (Ideal.ofBits .f32 0x3F800000#32) (Ideal.ofBits .f32 0x3F800000#32 + Ideal.exp (-(t i))) := rfl
theorem yNext_apply (s feat : T42 Ideal) (i : S4096x256.Idx) :
    yNext s feat i = Ideal.ofBits .f32 0x3F000000#32 * s i + feat i := rfl

end Cert.KernelIdeal.KDefs

namespace Cert.Bridge

open Idealize.ShloMosaic Idealize.ShloMosaic.ValueIdx LibRealEntries

/-! ## The host stretches the two programs share -/

/-- The logistic function of a whole array: the same operations. -/
theorem sigOf_same (u : Cert.KernelIdeal.KDefs.T42 Ideal) : Cert.KernelIdeal.KDefs.sigOf u = Cert.ReferenceIdeal.RefValue.sigOf u := rfl

/-- The feature update: the same operations. -/
theorem yNext_same (s feat : Cert.KernelIdeal.KDefs.T42 Ideal) : Cert.KernelIdeal.KDefs.yNext s feat = Cert.ReferenceIdeal.RefValue.yNext s feat := rfl

/-- The edge numbers: the same operations. -/
theorem edgeP_same (z : Cert.KernelIdeal.KDefs.T42 Ideal) (ei ej : Cert.KernelIdeal.KDefs.TI Ideal) (ev : Cert.KernelIdeal.KDefs.TE Ideal) :
    Cert.KernelIdeal.KDefs.edgeP z ei ej ev = Cert.ReferenceIdeal.RefValue.edgeP z ei ej ev := rfl

/-- The scattered edge matrix: the same operations. -/
theorem edgeM_same (P : Cert.KernelIdeal.KDefs.TE Ideal) (ei ej : Cert.KernelIdeal.KDefs.TI Ideal) :
    Cert.KernelIdeal.KDefs.edgeM P ei ej = Cert.ReferenceIdeal.RefValue.edgeM P ei ej := rfl

/-- The tail: the same operations. -/
theorem tailOut_same (y z : Cert.KernelIdeal.KDefs.T42 Ideal) (w2w : Cert.KernelIdeal.KDefs.TW Ideal) (w2b : Cert.KernelIdeal.KDefs.TB16 Ideal) :
    Cert.KernelIdeal.KDefs.tailOut y z w2w w2b = Cert.ReferenceIdeal.RefValue.tailOut y z w2w w2b := rfl

/-! ## Where the programs differ, array by array -/

/-- A tall array with real entries. -/
def RealArr (y : Cert.ReferenceIdeal.RefValue.T42 Ideal) : Prop := ∀ i, IsReal (y i)

/-- The feature update keeps the entries real, whatever the pre-activation. -/
theorem real_yNext (u feat : Cert.ReferenceIdeal.RefValue.T42 Ideal) (hf : RealArr feat) : RealArr (Cert.ReferenceIdeal.RefValue.yNext (Cert.ReferenceIdeal.RefValue.sigOf u) feat) := by
  intro i
  rw [Cert.ReferenceIdeal.RefValue.yNext_apply, Cert.ReferenceIdeal.RefValue.sigOf_apply]
  exact Cert.Laws.isReal_update (u i) (feat i) (hf i)

/-- The masked edge term. -/
theorem mea_eq (EA w22 : Cert.ReferenceIdeal.RefValue.T44 Ideal) : Cert.ReferenceIdeal.RefValue.mea EA w22 = Net.mea EA w22 := by
  funext p
  rw [Cert.ReferenceIdeal.RefValue.mea_apply]
  rfl

/-- w1 · t: the reference's product is the region's sum, the rounding of w1 to bf16 being the identity. -/
theorem mm_w1_eq (w1 : Cert.ReferenceIdeal.RefValue.T44 Ideal) (t : Cert.ReferenceIdeal.RefValue.T42 Ideal) : Cert.ReferenceIdeal.RefValue.mm w1 t = Net.mm (Cert.KernelIdeal.KDefs.bf44 w1) t := by
  funext i
  obtain ⟨p, q, rfl⟩ : ∃ (p : Fin 4096) (q : Fin 256), i = ix2 p q := ⟨i 0, i 1, eq_ix2 i⟩
  rw [Cert.ReferenceIdeal.RefValue.mm_apply]
  rfl

/-- First layer: (adj · 1 + mea) · z = (adj + mea) · z. -/
theorem mm_A0_eq (adj mea : Cert.ReferenceIdeal.RefValue.T44 Ideal) (z : Cert.ReferenceIdeal.RefValue.T42 Ideal) :
    Cert.ReferenceIdeal.RefValue.mm (Cert.ReferenceIdeal.RefValue.Aof adj Cert.ReferenceIdeal.RefValue.ones44 mea) z = Net.sumProd adj mea z := by
  funext i
  obtain ⟨p, q, rfl⟩ : ∃ (p : Fin 4096) (q : Fin 256), i = ix2 p q := ⟨i 0, i 1, eq_ix2 i⟩
  rw [Cert.ReferenceIdeal.RefValue.mm_apply, Net.sumProd_apply]
  refine Finset.sum_congr rfl fun k _ => ?_
  rw [Cert.ReferenceIdeal.RefValue.Aof_apply, Cert.ReferenceIdeal.RefValue.ones44_apply, Cert.Laws.mul_ofBits_one]

/-- Later layers: (adj · EP + mea) · z, the same sum on both sides. -/
theorem mm_A_eq (adj EP mea : Cert.ReferenceIdeal.RefValue.T44 Ideal) (z : Cert.ReferenceIdeal.RefValue.T42 Ideal) :
    Cert.ReferenceIdeal.RefValue.mm (Cert.ReferenceIdeal.RefValue.Aof adj EP mea) z = Net.mixProd adj EP mea z := by
  funext i
  obtain ⟨p, q, rfl⟩ : ∃ (p : Fin 4096) (q : Fin 256), i = ix2 p q := ⟨i 0, i 1, eq_ix2 i⟩
  rw [Cert.ReferenceIdeal.RefValue.mm_apply, Net.mixProd_apply]
  exact Finset.sum_congr rfl fun k _ => by rw [Cert.ReferenceIdeal.RefValue.Aof_apply]

/-- The EP update: (1 · (y yᵀ − mea) − 0.5 · M) / 1 = (y yᵀ − mea) − 0.5 · M. -/
theorem EP_eq (y : Cert.ReferenceIdeal.RefValue.T42 Ideal) (mea M : Cert.ReferenceIdeal.RefValue.T44 Ideal) :
    Cert.ReferenceIdeal.RefValue.EPnext (Cert.ReferenceIdeal.RefValue.yyTof y) mea M = Net.gramUpd y mea M := by
  funext i
  obtain ⟨p, q, rfl⟩ : ∃ (p q : Fin 4096), i = ix2 p q := ⟨i 0, i 1, eq_ix2 i⟩
  rw [Cert.ReferenceIdeal.RefValue.EPnext_apply, Cert.ReferenceIdeal.RefValue.yyTof_apply, Cert.Laws.ep_update]
  rfl

/-- The first layer's pre-activation. -/
theorem temp0_eq (y : Cert.ReferenceIdeal.RefValue.T42 Ideal) (hy : RealArr y) (adj mea : Cert.ReferenceIdeal.RefValue.T44 Ideal) :
    Cert.ReferenceIdeal.RefValue.tempOf Cert.ReferenceIdeal.RefValue.ones44 (Cert.ReferenceIdeal.RefValue.Aof adj Cert.ReferenceIdeal.RefValue.ones44 mea) (Cert.ReferenceIdeal.RefValue.yyTof y) y
      = Cert.KernelIdeal.KDefs.tempOf (Cert.KernelIdeal.KDefs.colSum y) (Net.sumProd adj mea (Cert.KernelIdeal.KDefs.bf42 y)) (Cert.KernelIdeal.KDefs.gramTimes y) := by
  funext i
  obtain ⟨p, q, rfl⟩ : ∃ (p : Fin 4096) (q : Fin 256), i = ix2 p q := ⟨i 0, i 1, eq_ix2 i⟩
  rw [Cert.ReferenceIdeal.RefValue.tempOf_apply, Cert.KernelIdeal.KDefs.tempOf_apply, Cert.KernelIdeal.KDefs.colSum_apply, Cert.KernelIdeal.KDefs.gramTimes_apply, Net.sumProd_apply]
  simp only [Cert.ReferenceIdeal.RefValue.ones44_apply, Cert.ReferenceIdeal.RefValue.Aof_apply, Cert.ReferenceIdeal.RefValue.yyTof_apply, Cert.KernelIdeal.KDefs.bf42_apply]
  rw [Cert.Laws.ofBits_zero, zero_add]
  exact Cert.Laws.temp_first_sum (fun k l => y (ix2 k l)) (fun l k => y (ix2 k l)) (fun _ _ => rfl)
    (fun k l => hy (ix2 k l)) (fun a b => adj (ix2 a b)) (fun a b => mea (ix2 a b)) p q

/-- A later layer's pre-activation. -/
theorem temp_eq (y : Cert.ReferenceIdeal.RefValue.T42 Ideal) (hy : RealArr y) (adj EP mea : Cert.ReferenceIdeal.RefValue.T44 Ideal) :
    Cert.ReferenceIdeal.RefValue.tempOf EP (Cert.ReferenceIdeal.RefValue.Aof adj EP mea) (Cert.ReferenceIdeal.RefValue.yyTof y) y
      = Cert.KernelIdeal.KDefs.tempOf (Net.mmT EP y) (Net.mixProd adj EP mea (Cert.KernelIdeal.KDefs.bf42 y)) (Cert.KernelIdeal.KDefs.gramTimes y) := by
  funext i
  obtain ⟨p, q, rfl⟩ : ∃ (p : Fin 4096) (q : Fin 256), i = ix2 p q := ⟨i 0, i 1, eq_ix2 i⟩
  rw [Cert.ReferenceIdeal.RefValue.tempOf_apply, Cert.KernelIdeal.KDefs.tempOf_apply, Cert.KernelIdeal.KDefs.gramTimes_apply, Net.mmT_apply, Net.mixProd_apply]
  simp only [Cert.ReferenceIdeal.RefValue.Aof_apply, Cert.ReferenceIdeal.RefValue.yyTof_apply, Cert.KernelIdeal.KDefs.bf42_apply]
  have h := Cert.Laws.gram_reassoc_sum (fun k l => y (ix2 k l)) (fun l k => y (ix2 k l)) (fun _ _ => rfl)
    (fun k l => hy (ix2 k l)) p q
  rw [h]

/-! ## The invariant, layer by layer -/

/-- The reference's argument record read as the kernel program's (the same eleven arrays). -/
def toK (a : Cert.ReferenceIdeal.RefValue.Args Ideal) : Cert.KernelIdeal.KDefs.Args :=
  ⟨a.feat, a.z0, a.w1, a.EA, a.w2w, a.w2b, a.adj, a.w22, a.ev, a.ei, a.ej⟩

/-- The masked edge term is the same array. -/
theorem kmea (a : Cert.ReferenceIdeal.RefValue.Args Ideal) : (toK a).mea = a.mea := (mea_eq a.EA a.w22).symm

/-- Layer 0: the pre-activation. -/
theorem ktemp0 (a : Cert.ReferenceIdeal.RefValue.Args Ideal) (hf : RealArr a.feat) : (toK a).temp0 = a.temp0 := by
  show Cert.KernelIdeal.KDefs.tempOf (Cert.KernelIdeal.KDefs.colSum a.feat) (Net.sumProd a.adj (toK a).mea (Cert.KernelIdeal.KDefs.bf42 a.feat)) (Cert.KernelIdeal.KDefs.gramTimes a.feat)
    = Cert.ReferenceIdeal.RefValue.tempOf Cert.ReferenceIdeal.RefValue.ones44 (Cert.ReferenceIdeal.RefValue.Aof a.adj Cert.ReferenceIdeal.RefValue.ones44 a.mea) (Cert.ReferenceIdeal.RefValue.yyTof a.feat) a.feat
  rw [kmea a]
  exact (temp0_eq a.feat hf a.adj a.mea).symm

/-- Layer 0: the next y. -/
theorem ky1 (a : Cert.ReferenceIdeal.RefValue.Args Ideal) (hf : RealArr a.feat) : (toK a).y1 = a.y1 := by
  show Cert.KernelIdeal.KDefs.yNext (Cert.KernelIdeal.KDefs.sigOf (Net.mm (Cert.KernelIdeal.KDefs.bf44 a.w1) (toK a).temp0)) a.feat
    = Cert.ReferenceIdeal.RefValue.yNext (Cert.ReferenceIdeal.RefValue.sigOf (Cert.ReferenceIdeal.RefValue.mm a.w1 a.temp0)) a.feat
  rw [ktemp0 a hf, mm_w1_eq, sigOf_same, yNext_same]

/-- y1 has real entries. -/
theorem real_y1 (a : Cert.ReferenceIdeal.RefValue.Args Ideal) (hf : RealArr a.feat) : RealArr a.y1 :=
  real_yNext (Cert.ReferenceIdeal.RefValue.mm a.w1 a.temp0) a.feat hf

/-- Layer 0: the next z. -/
theorem kz1 (a : Cert.ReferenceIdeal.RefValue.Args Ideal) (hf : RealArr a.feat) : (toK a).z1 = a.z1 := by
  show Cert.KernelIdeal.KDefs.zNext a.z0 (Net.sumProd a.adj (toK a).mea a.z0) = Cert.ReferenceIdeal.RefValue.zNext (Cert.ReferenceIdeal.RefValue.Aof a.adj Cert.ReferenceIdeal.RefValue.ones44 a.mea) a.z0
  rw [kmea a]
  unfold Cert.KernelIdeal.KDefs.zNext Cert.ReferenceIdeal.RefValue.zNext
  rw [mm_A0_eq]

/-- Layer 0: the scattered edge matrix. -/
theorem kM0 (a : Cert.ReferenceIdeal.RefValue.Args Ideal) : (toK a).M0 = Cert.ReferenceIdeal.RefValue.edgeM a.P0 a.ei a.ej := by
  show Cert.KernelIdeal.KDefs.edgeM (Cert.KernelIdeal.KDefs.edgeP a.z0 a.ei a.ej a.ev) a.ei a.ej = Cert.ReferenceIdeal.RefValue.edgeM (Cert.ReferenceIdeal.RefValue.edgeP a.z0 a.ei a.ej a.ev) a.ei a.ej
  rw [edgeP_same, edgeM_same]

/-- Layer 0: the next EP. -/
theorem kEP1 (a : Cert.ReferenceIdeal.RefValue.Args Ideal) (hf : RealArr a.feat) : (toK a).EP1 = a.EP1 := by
  show Net.gramUpd a.feat (toK a).mea (toK a).M0 = Cert.ReferenceIdeal.RefValue.EPnext (Cert.ReferenceIdeal.RefValue.yyTof a.feat) a.mea (Cert.ReferenceIdeal.RefValue.edgeM a.P0 a.ei a.ej)
  rw [kmea a, kM0 a, EP_eq]

/-- Layer 1: the pre-activation. -/
theorem ktemp1 (a : Cert.ReferenceIdeal.RefValue.Args Ideal) (hf : RealArr a.feat) : (toK a).temp1 = a.temp1 := by
  show Cert.KernelIdeal.KDefs.tempOf (Net.mmT (toK a).EP1 (toK a).y1) (Net.mixProd a.adj (toK a).EP1 (toK a).mea (Cert.KernelIdeal.KDefs.bf42 (toK a).y1))
      (Cert.KernelIdeal.KDefs.gramTimes (toK a).y1)
    = Cert.ReferenceIdeal.RefValue.tempOf a.EP1 (Cert.ReferenceIdeal.RefValue.Aof a.adj a.EP1 a.mea) (Cert.ReferenceIdeal.RefValue.yyTof a.y1) a.y1
  rw [kmea a, kEP1 a hf, ky1 a hf]
  exact (temp_eq a.y1 (real_y1 a hf) a.adj a.EP1 a.mea).symm

/-- Layer 1: the next y. -/
theorem ky2 (a : Cert.ReferenceIdeal.RefValue.Args Ideal) (hf : RealArr a.feat) : (toK a).y2 = a.y2 := by
  show Cert.KernelIdeal.KDefs.yNext (Cert.KernelIdeal.KDefs.sigOf (Net.mm (Cert.KernelIdeal.KDefs.bf44 a.w1) (toK a).temp1)) a.feat
    = Cert.ReferenceIdeal.RefValue.yNext (Cert.ReferenceIdeal.RefValue.sigOf (Cert.ReferenceIdeal.RefValue.mm a.w1 a.temp1)) a.feat
  rw [ktemp1 a hf, mm_w1_eq, sigOf_same, yNext_same]

/-- y2 has real entries. -/
theorem real_y2 (a : Cert.ReferenceIdeal.RefValue.Args Ideal) (hf : RealArr a.feat) : RealArr a.y2 :=
  real_yNext (Cert.ReferenceIdeal.RefValue.mm a.w1 a.temp1) a.feat hf

/-- Layer 1: the next z. -/
theorem kz2 (a : Cert.ReferenceIdeal.RefValue.Args Ideal) (hf : RealArr a.feat) : (toK a).z2 = a.z2 := by
  show Cert.KernelIdeal.KDefs.zNext (toK a).z1 (Net.mixProd a.adj (toK a).EP1 (toK a).mea (toK a).z1)
    = Cert.ReferenceIdeal.RefValue.zNext (Cert.ReferenceIdeal.RefValue.Aof a.adj a.EP1 a.mea) a.z1
  rw [kmea a, kEP1 a hf, kz1 a hf]
  unfold Cert.KernelIdeal.KDefs.zNext Cert.ReferenceIdeal.RefValue.zNext
  rw [mm_A_eq]

/-- Layer 1: the scattered edge matrix. -/
theorem kM1 (a : Cert.ReferenceIdeal.RefValue.Args Ideal) (hf : RealArr a.feat) : (toK a).M1 = Cert.ReferenceIdeal.RefValue.edgeM a.P1 a.ei a.ej := by
  show Cert.KernelIdeal.KDefs.edgeM (Cert.KernelIdeal.KDefs.edgeP (toK a).z1 a.ei a.ej a.ev) a.ei a.ej = Cert.ReferenceIdeal.RefValue.edgeM (Cert.ReferenceIdeal.RefValue.edgeP a.z1 a.ei a.ej a.ev) a.ei a.ej
  rw [kz1 a hf, edgeP_same, edgeM_same]

/-- Layer 1: the next EP. -/
theorem kEP2 (a : Cert.ReferenceIdeal.RefValue.Args Ideal) (hf : RealArr a.feat) : (toK a).EP2 = a.EP2 := by
  show Net.gramUpd (toK a).y1 (toK a).mea (toK a).M1 = Cert.ReferenceIdeal.RefValue.EPnext (Cert.ReferenceIdeal.RefValue.yyTof a.y1) a.mea (Cert.ReferenceIdeal.RefValue.edgeM a.P1 a.ei a.ej)
  rw [kmea a, ky1 a hf, kM1 a hf, EP_eq]

/-- Layer 2: the pre-activation. -/
theorem ktemp2 (a : Cert.ReferenceIdeal.RefValue.Args Ideal) (hf : RealArr a.feat) : (toK a).temp2 = a.temp2 := by
  show Cert.KernelIdeal.KDefs.tempOf (Net.mmT (toK a).EP2 (toK a).y2) (Net.mixProd a.adj (toK a).EP2 (toK a).mea (Cert.KernelIdeal.KDefs.bf42 (toK a).y2))
      (Cert.KernelIdeal.KDefs.gramTimes (toK a).y2)
    = Cert.ReferenceIdeal.RefValue.tempOf a.EP2 (Cert.ReferenceIdeal.RefValue.Aof a.adj a.EP2 a.mea) (Cert.ReferenceIdeal.RefValue.yyTof a.y2) a.y2
  rw [kmea a, kEP2 a hf, ky2 a hf]
  exact (temp_eq a.y2 (real_y2 a hf) a.adj a.EP2 a.mea).symm

/-- Layer 2: the next y. -/
theorem ky3 (a : Cert.ReferenceIdeal.RefValue.Args Ideal) (hf : RealArr a.feat) : (toK a).y3 = a.y3 := by
  show Cert.KernelIdeal.KDefs.yNext (Cert.KernelIdeal.KDefs.sigOf (Net.mm (Cert.KernelIdeal.KDefs.bf44 a.w1) (toK a).temp2)) a.feat
    = Cert.ReferenceIdeal.RefValue.yNext (Cert.ReferenceIdeal.RefValue.sigOf (Cert.ReferenceIdeal.RefValue.mm a.w1 a.temp2)) a.feat
  rw [ktemp2 a hf, mm_w1_eq, sigOf_same, yNext_same]

/-- y3 has real entries. -/
theorem real_y3 (a : Cert.ReferenceIdeal.RefValue.Args Ideal) (hf : RealArr a.feat) : RealArr a.y3 :=
  real_yNext (Cert.ReferenceIdeal.RefValue.mm a.w1 a.temp2) a.feat hf

/-- Layer 2: the next z. -/
theorem kz3 (a : Cert.ReferenceIdeal.RefValue.Args Ideal) (hf : RealArr a.feat) : (toK a).z3 = a.z3 := by
  show Cert.KernelIdeal.KDefs.zNext (toK a).z2 (Net.mixProd a.adj (toK a).EP2 (toK a).mea (toK a).z2)
    = Cert.ReferenceIdeal.RefValue.zNext (Cert.ReferenceIdeal.RefValue.Aof a.adj a.EP2 a.mea) a.z2
  rw [kmea a, kEP2 a hf, kz2 a hf]
  unfold Cert.KernelIdeal.KDefs.zNext Cert.ReferenceIdeal.RefValue.zNext
  rw [mm_A_eq]

/-- Layer 2: the scattered edge matrix. -/
theorem kM2 (a : Cert.ReferenceIdeal.RefValue.Args Ideal) (hf : RealArr a.feat) : (toK a).M2 = Cert.ReferenceIdeal.RefValue.edgeM a.P2 a.ei a.ej := by
  show Cert.KernelIdeal.KDefs.edgeM (Cert.KernelIdeal.KDefs.edgeP (toK a).z2 a.ei a.ej a.ev) a.ei a.ej = Cert.ReferenceIdeal.RefValue.edgeM (Cert.ReferenceIdeal.RefValue.edgeP a.z2 a.ei a.ej a.ev) a.ei a.ej
  rw [kz2 a hf, edgeP_same, edgeM_same]

/-- Layer 2: the next EP. -/
theorem kEP3 (a : Cert.ReferenceIdeal.RefValue.Args Ideal) (hf : RealArr a.feat) : (toK a).EP3 = a.EP3 := by
  show Net.gramUpd (toK a).y2 (toK a).mea (toK a).M2 = Cert.ReferenceIdeal.RefValue.EPnext (Cert.ReferenceIdeal.RefValue.yyTof a.y2) a.mea (Cert.ReferenceIdeal.RefValue.edgeM a.P2 a.ei a.ej)
  rw [kmea a, ky2 a hf, kM2 a hf, EP_eq]

/-- Layer 3: the pre-activation. -/
theorem ktemp3 (a : Cert.ReferenceIdeal.RefValue.Args Ideal) (hf : RealArr a.feat) : (toK a).temp3 = a.temp3 := by
  show Cert.KernelIdeal.KDefs.tempOf (Net.mmT (toK a).EP3 (toK a).y3) (Net.mixProd a.adj (toK a).EP3 (toK a).mea (Cert.KernelIdeal.KDefs.bf42 (toK a).y3))
      (Cert.KernelIdeal.KDefs.gramTimes (toK a).y3)
    = Cert.ReferenceIdeal.RefValue.tempOf a.EP3 (Cert.ReferenceIdeal.RefValue.Aof a.adj a.EP3 a.mea) (Cert.ReferenceIdeal.RefValue.yyTof a.y3) a.y3
  rw [kmea a, kEP3 a hf, ky3 a hf]
  exact (temp_eq a.y3 (real_y3 a hf) a.adj a.EP3 a.mea).symm

/-- Layer 3: the next y. -/
theorem ky4 (a : Cert.ReferenceIdeal.RefValue.Args Ideal) (hf : RealArr a.feat) : (toK a).y4 = a.y4 := by
  show Cert.KernelIdeal.KDefs.yNext (Cert.KernelIdeal.KDefs.sigOf (Net.mm (Cert.KernelIdeal.KDefs.bf44 a.w1) (toK a).temp3)) a.feat
    = Cert.ReferenceIdeal.RefValue.yNext (Cert.ReferenceIdeal.RefValue.sigOf (Cert.ReferenceIdeal.RefValue.mm a.w1 a.temp3)) a.feat
  rw [ktemp3 a hf, mm_w1_eq, sigOf_same, yNext_same]

/-- y4 has real entries. -/
theorem real_y4 (a : Cert.ReferenceIdeal.RefValue.Args Ideal) (hf : RealArr a.feat) : RealArr a.y4 :=
  real_yNext (Cert.ReferenceIdeal.RefValue.mm a.w1 a.temp3) a.feat hf

/-- Layer 3: the next z. -/
theorem kz4 (a : Cert.ReferenceIdeal.RefValue.Args Ideal) (hf : RealArr a.feat) : (toK a).z4 = a.z4 := by
  show Cert.KernelIdeal.KDefs.zNext (toK a).z3 (Net.mixProd a.adj (toK a).EP3 (toK a).mea (toK a).z3)
    = Cert.ReferenceIdeal.RefValue.zNext (Cert.ReferenceIdeal.RefValue.Aof a.adj a.EP3 a.mea) a.z3
  rw [kmea a, kEP3 a hf, kz3 a hf]
  unfold Cert.KernelIdeal.KDefs.zNext Cert.ReferenceIdeal.RefValue.zNext
  rw [mm_A_eq]

/-! ## The result -/

/-- The kernel program's result is the reference's, as functions of the eleven argument arrays, when the node
    features are real everywhere. -/
theorem kout (a : Cert.ReferenceIdeal.RefValue.Args Ideal) (hf : RealArr a.feat) : (toK a).out = a.out := by
  show Cert.KernelIdeal.KDefs.tailOut (toK a).y4 (toK a).z4 a.w2w a.w2b = Cert.ReferenceIdeal.RefValue.tailOut a.y4 a.z4 a.w2w a.w2b
  rw [ky4 a hf, kz4 a hf, tailOut_same]

/-- The same over the eleven arrays as variables. -/
theorem bridge (feat z0 : Cert.ReferenceIdeal.RefValue.T42 Ideal) (w1 EA : Cert.ReferenceIdeal.RefValue.T44 Ideal) (w2w : Cert.ReferenceIdeal.RefValue.TW Ideal) (w2b : Cert.ReferenceIdeal.RefValue.TB16 Ideal)
    (adj w22 : Cert.ReferenceIdeal.RefValue.T44 Ideal) (ev : Cert.ReferenceIdeal.RefValue.TE Ideal) (ei ej : Cert.ReferenceIdeal.RefValue.TI Ideal) (hfeat : ∀ i, IsReal (feat i)) :
    (Cert.KernelIdeal.KDefs.Args.mk feat z0 w1 EA w2w w2b adj w22 ev ei ej).out
      = (Cert.ReferenceIdeal.RefValue.Args.mk feat z0 w1 EA w2w w2b adj w22 ev ei ej : Cert.ReferenceIdeal.RefValue.Args Ideal).out :=
  kout ⟨feat, z0, w1, EA, w2w, w2b, adj, w22, ev, ei, ej⟩ hfeat

end Cert.Bridge

end
-- ==== Proof.FiniteFeat.lean ====
/-
  From the precondition to real entries.

  The precondition says that a predicate of the eleven argument arrays is all ones.  The predicate is the
  conjunction, over the nine float arrays, of "every entry x of the array has |x| < +∞" (each an all-reduction by
  "and" of the entrywise comparison, from the constant one).  On the extended reals |x| = max x (−x), and
  |x| < +∞ excludes exactly the two infinities, so every entry of every float argument is a real number.  The
  first argument is the node features: its entries being real is what the reassociation of the layer's triple
  product needs, and what the feature update then preserves.
-/
import proofs.«169176_j23261542875327_2_alg».proof.Pre_finite_inputs
import proofs.«169176_j23261542875327_2_alg».proof.Proof.LibRealEntries
import Idealize.ShloMosaic.PureOps.Ideal
import Idealize.ShloMosaic.Lib.ReduceAll
import Idealize.ShloMosaic.Lib.ValueIdx

noncomputable section

namespace Cert.Laws

open Idealize.ShloMosaic LibRealEntries Cert.Pre_finite_inputs

/-- The rank-zero shape has one index. -/
instance subsingleton_scalar_idx : Subsingleton S_.Idx := ⟨fun a b => funext fun d => d.elim0⟩

/-- The pattern of +∞ denotes the top extended real. -/
theorem ofBits_inf : Ideal.ofBits .f32 0x7F800000#32 = ⊤ := by
  simp [Ideal.ofBits, Ideal.ieee]

/-- The element fact: an extended real whose absolute value compares below +∞ is a real number. -/
theorem isReal_of_cmp_abs_lt_inf {x : EReal}
    (h : Ideal.cmp .olt (max x (-x)) (Ideal.ofBits .f32 0x7F800000#32) = 1#1) : IsReal x := by
  rw [ofBits_inf] at h
  refine isReal_of_abs_lt_top ?_
  by_contra hn
  simp [Ideal.cmp, hn] at h

/-- Where the finiteness predicate of the eleven arguments is all ones, every entry of each of the nine float
    arguments is a real number.  The predicate is a left-nested conjunction of nine all-reductions; each conjunct
    that is one says every comparison under it is one, and each comparison is the element fact. -/
theorem args_real [Facts] (a0 a1 : FVec Ideal S4096x256 .f32) (a2 a3 : FVec Ideal S4096x4096 .f32)
    (a4 : FVec Ideal S512x16 .f32) (a5 : FVec Ideal S16 .f32) (a6 a7 : FVec Ideal S4096x4096 .f32)
    (a8 : FVec Ideal S65536 .f32) (a9 a10 : IVec S65536 32)
    (h : fn (F := Ideal) a0 a1 a2 a3 a4 a5 a6 a7 a8 a9 a10 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) := by
  have h0 := congrFun h ValueIdx.ix0
  dsimp only [fn, fn_part1, fn_part2, andi] at h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun i => isReal_of_cmp_abs_lt_inf (Host.reduce_andi_all _ _ _ _ _ h0 i),
    fun i => isReal_of_cmp_abs_lt_inf (Host.reduce_andi_all _ _ _ _ _ h1 i),
    fun i => isReal_of_cmp_abs_lt_inf (Host.reduce_andi_all _ _ _ _ _ h2 i),
    fun i => isReal_of_cmp_abs_lt_inf (Host.reduce_andi_all _ _ _ _ _ h3 i),
    fun i => isReal_of_cmp_abs_lt_inf (Host.reduce_andi_all _ _ _ _ _ h4 i),
    fun i => isReal_of_cmp_abs_lt_inf (Host.reduce_andi_all _ _ _ _ _ h5 i),
    fun i => isReal_of_cmp_abs_lt_inf (Host.reduce_andi_all _ _ _ _ _ h6 i),
    fun i => isReal_of_cmp_abs_lt_inf (Host.reduce_andi_all _ _ _ _ _ h7 i),
    fun i => isReal_of_cmp_abs_lt_inf (Host.reduce_andi_all _ _ _ _ _ h8 i)⟩

/-- The node features (the first argument) have real entries. -/
theorem feat_real [Facts] (a0 a1 : FVec Ideal S4096x256 .f32) (a2 a3 : FVec Ideal S4096x4096 .f32)
    (a4 : FVec Ideal S512x16 .f32) (a5 : FVec Ideal S16 .f32) (a6 a7 : FVec Ideal S4096x4096 .f32)
    (a8 : FVec Ideal S65536 .f32) (a9 a10 : IVec S65536 32)
    (h : fn (F := Ideal) a0 a1 a2 a3 a4 a5 a6 a7 a8 a9 a10 = fun _ => 1#1) (i : S4096x256.Idx) : IsReal (a0 i) :=
  (args_real a0 a1 a2 a3 a4 a5 a6 a7 a8 a9 a10 h).1 i

end Cert.Laws

end
-- ==== Proof.Algebraic.lean ====
/-
  The algebraic claim: at the extended reals, from launch memories that agree on the eleven argument arrays, both
  idealized programs run to the end, leave the arguments unchanged, and end with the same result array.

  The kernel program's run ends with its result buffer at the last boundary's contents, which the host readings
  identify with the named function of the launch arrays; the reference's run ends with its named function of its own
  launch arrays; the two named functions agree on arrays whose node features are real, and the precondition makes
  them real.
-/
import proofs.«169176_j23261542875327_2_alg».proof.Defs
import proofs.«169176_j23261542875327_2_alg».proof.Proof.Gen.KernelIdeal
import proofs.«169176_j23261542875327_2_alg».proof.Proof.Gen.ReferenceIdeal
import proofs.«169176_j23261542875327_2_alg».proof.Proof.Gen.Pre_finite_inputs
import proofs.«169176_j23261542875327_2_alg».proof.Proof.KI.Frame
import proofs.«169176_j23261542875327_2_alg».proof.Proof.KI.KernelResult
import proofs.«169176_j23261542875327_2_alg».proof.Proof.RefRun
import proofs.«169176_j23261542875327_2_alg».proof.Proof.Bridge
import proofs.«169176_j23261542875327_2_alg».proof.Proof.FiniteFeat

noncomputable section

namespace Cert.Proof

open Idealize.ShloMosaic Idealize.ShloMosaic.TcCoe Idealize.SL.Sem

/-- On one core: the reference's named result of its launch arrays is what the kernel program's last boundary holds
    in the result buffer, when the two launches agree on the eleven arguments and the node features are finite. -/
theorem result_agree [hP : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    @Eq (Cert.ReferenceIdeal.RefValue.T416 Ideal) (Cert.ReferenceIdeal.RefValue.argsOf (StableHlo.launchContents m' c)).out (Cert.KernelIdeal.Run.S41 m c Cert.KernelIdeal.main_v227) := by
  obtain ⟨h0, h1, h2, h3, h4, h5, h6, h7, h8, h9, h10⟩ := hag
  -- the reference's result, over its own launch arrays, then over the kernel program's
  have hR : @Eq (Cert.ReferenceIdeal.RefValue.T416 Ideal) (Cert.ReferenceIdeal.RefValue.argsOf (StableHlo.launchContents m' c)).out
      (Cert.ReferenceIdeal.RefValue.Args.mk (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) : Cert.ReferenceIdeal.RefValue.Args Ideal).out := rfl
  rw [h0, h1, h2, h3, h4, h5, h6, h7, h8, h9, h10] at hR
  -- the node features are real numbers
  have hfeat : ∀ i, LibRealEntries.IsReal ((m ((c.tc : Thread Cert.KernelIdeal.nD Cert.KernelIdeal.τ).loc Cert.KernelIdeal.main_arg0)) i) :=
    fun i => Cert.Laws.feat_real _ _ _ _ _ _ _ _ _ _ _ (hpre c) i
  -- the two programs' results are one function of the arrays
  have hB := Cert.Bridge.bridge (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) hfeat
  -- the kernel program's result buffer
  have hK : @Eq (Cert.KernelIdeal.KDefs.T416 Ideal) (Cert.KernelIdeal.Run.S41 m c Cert.KernelIdeal.main_v227) (Cert.KernelIdeal.Run.argsOf m c).out := Cert.KernelIdeal.Run.result_eq m c
  have hK' : @Eq (Cert.KernelIdeal.KDefs.T416 Ideal) (Cert.KernelIdeal.Run.argsOf m c).out (Cert.KernelIdeal.KDefs.Args.mk (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).out := rfl
  exact hR.trans (hB.symm.trans (hK'.symm.trans hK.symm))

/-- The two idealized programs, run from memories that agree on the eleven arguments, end with equal result arrays
    and unchanged arguments. -/
theorem algebraic [hKI : Cert.KernelIdeal.Facts] [hR : Cert.ReferenceIdeal.Facts] [hP : Cert.Pre_finite_inputs.Facts] :
    Cert.algebraic_KernelIdeal_ReferenceIdeal := by
  intro m ρ m' ρ' hpre hagree
  refine ⟨fun c => Cert.KernelIdeal.Run.S41 m c Cert.KernelIdeal.main_v227, Cert.KernelIdeal.Run.run_main (F := Ideal) m ρ, ?_⟩
  refine (θ_run Cert.ReferenceIdeal.defs _ _).mono (fun r h c => ⟨(h c).1.trans ?_, (h c).2⟩) (Cert.ReferenceIdeal.RefValue.run (F := Ideal) m' ρ')
  exact result_agree m m' c hpre (hagree c)

end Cert.Proof

end
-- ==== Proof.lean ====
/-
  The certificate of a four-layer graph network on 4096 nodes and 256 features, computed by sixteen kernel regions among
  stretches of host operations, against its plain reference.

  The three frames: each program runs to the end without a fault and leaves its eleven argument arrays as launched. For the
  two kernel programs (the word-level one and its idealization, the same text read at two instances) @main is run as a list
  of segments — each kernel region a record entered from the contents of every unscoped buffer at the boundary before it
  and left at the boundary after it, each host stretch the fold of its operations — over boundary contents that name what
  every region's write-backs leave; the reference is a straight line of host operations.
  The idealization rewrote nothing, so it preserves the word-level program trivially.
  The value claim: at the ideal instance both programs end with the same result array. Per layer the kernel program
  reassociates (y yᵀ) y as y (yᵀ y), builds A = adj · EP + mea tile by tile inside the products A y and A z, folds the
  layer-0 factor EP = 1 away, and drops the reference's factors 1 around the EP update; on the extended reals the first
  needs every entry of y real, which holds by induction from the finite inputs since a logistic value is real; the
  rest hold at every extended real.
-/
import proofs.«169176_j23261542875327_2_alg».proof.Defs
import proofs.«169176_j23261542875327_2_alg».proof.Proof.Gen.Kernel
import proofs.«169176_j23261542875327_2_alg».proof.Proof.Gen.KernelIdeal
import proofs.«169176_j23261542875327_2_alg».proof.Proof.Gen.ReferenceIdeal
import proofs.«169176_j23261542875327_2_alg».proof.Proof.Gen.Pre_finite_inputs
import proofs.«169176_j23261542875327_2_alg».proof.Proof.K.Frame
import proofs.«169176_j23261542875327_2_alg».proof.Proof.KI.Frame
import proofs.«169176_j23261542875327_2_alg».proof.Proof.RefFrame
import proofs.«169176_j23261542875327_2_alg».proof.Proof.Algebraic
import Idealize.ShloMosaic.Adequacy
import Idealize.ShloMosaic.Init

noncomputable section

namespace Cert.Proof

open Idealize.ShloMosaic Idealize.SL.Sem

theorem frame_k [hK : Cert.Kernel.Facts] [hP : Cert.Pre_finite_inputs.Facts] : Cert.frame_Kernel :=
  fun m ρ _ => Cert.Kernel.Run.frame (F := Bits) m ρ

theorem frame_ki [hK : Cert.KernelIdeal.Facts] [hP : Cert.Pre_finite_inputs.Facts] : Cert.frame_KernelIdeal :=
  fun m ρ _ => Cert.KernelIdeal.Run.frame (F := Ideal) m ρ

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, algebraic⟩

end Cert.Proof

end
